-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v29_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29_1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S8192x512 : Shape := ⟨2, ![8192, 512]⟩
abbrev S512x128 : Shape := ⟨2, ![512, 128]⟩
abbrev S3 : Shape := ⟨1, ![3]⟩
abbrev S128 : Shape := ⟨1, ![128]⟩
abbrev S128x128 : Shape := ⟨2, ![128, 128]⟩
abbrev S128x64 : Shape := ⟨2, ![128, 64]⟩
abbrev S64 : Shape := ⟨1, ![64]⟩
abbrev S_ : Shape := ⟨0, ![]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel
  bcast_S_S8192x512 : S_.BroadcastsInDim S8192x512 (![] : Fin 0 → Fin S8192x512.rank)
  reducesTo_S8192x512_S_d0_1 : S8192x512.ReducesTo [0, 1] S_
  bcast_S_S512x128 : S_.BroadcastsInDim S512x128 (![] : Fin 0 → Fin S512x128.rank)
  reducesTo_S512x128_S_d0_1 : S512x128.ReducesTo [0, 1] S_
  bcast_S_S3 : S_.BroadcastsInDim S3 (![] : Fin 0 → Fin S3.rank)
  reducesTo_S3_S_d0 : S3.ReducesTo [0] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  main_v53

def fn_part2 {F : FTy → Type} [FloatOps F] (main_arg7 : FVec F S128 .f32) (main_arg8 : FVec F S128x64 .f32) (main_arg9 : FVec F S3 .f32) (main_arg10 : FVec F S64 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x64 .f32 := Host.absf main_arg8
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S3 .f32 := Host.absf main_arg9
  let main_cst_16 : FVec F S_ .f32 := constant S_ .f32 0x7F800000#32
  let main_v45 : FVec F S3 .f32 := broadcastInDim S3 ![] bcast_S_S3 main_cst_16
  let main_v46 : IVec S3 1 := cmpf .olt main_v44 main_v45
  let main_c_17 : IVec S_ 1 := constantI S_ 1 1#1
  let main_v47 : IVec S_ 1 := (fun x v => Host.reduce IntOp.andi x v reducesTo_S3_S_d0 h_S_) main_v46 main_c_17
  let main_v48 : IVec S_ 1 := andi main_v43 main_v47
  let main_v49 : FVec F S64 .f32 := Host.absf main_arg10
  let main_cst_18 : FVec F S_ .f32 := constant S_ .f32 0x7F800000#32
  let main_v50 : FVec F S64 .f32 := broadcastInDim S64 ![] bcast_S_S64 main_cst_18
  fn_part3 (F := F) main_v48 main_v49 main_v50

def fn_part1 {F : FTy → Type} [FloatOps F] (main_arg4 : FVec F S128 .f32) (main_arg5 : FVec F S128x128 .f32) (main_arg6 : FVec F S3 .f32) (main_arg7 : FVec F S128 .f32) (main_arg8 : FVec F S128x64 .f32) (main_arg9 : FVec F S3 .f32) (main_arg10 : FVec F S64 .f32) (main_v13 : IVec S_ 1) (main_v16 : IVec S3 1) : IVec S_ 1 :=
  let main_c_5 : IVec S_ 1 := constantI S_ 1 1#1
  let main_v17 : IVec S_ 1 := (fun x v => Host.reduce IntOp.andi x v reducesTo_S3_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S3 .f32 := Host.absf main_arg6
  let main_cst_10 : FVec F S_ .f32 := constant S_ .f32 0x7F800000#32
  let main_v30 : FVec F S3 .f32 := broadcastInDim S3 ![] bcast_S_S3 main_cst_10
  let main_v31 : IVec S3 1 := cmpf .olt main_v29 main_v30
  let main_c_11 : IVec S_ 1 := constantI S_ 1 1#1
  let main_v32 : IVec S_ 1 := (fun x v => Host.reduce IntOp.andi x v reducesTo_S3_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S8192x8192 .f32) (main_arg1 : FVec F S8192x512 .f32) (main_arg2 : FVec F S512x128 .f32) (main_arg3 : FVec F S3 .f32) (main_arg4 : FVec F S128 .f32) (main_arg5 : FVec F S128x128 .f32) (main_arg6 : FVec F S3 .f32) (main_arg7 : FVec F S128 .f32) (main_arg8 : FVec F S128x64 .f32) (main_arg9 : FVec F S3 .f32) (main_arg10 : FVec F S64 .f32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  let main_v9 : FVec F S512x128 .f32 := Host.absf main_arg2
  let main_cst_2 : FVec F S_ .f32 := constant S_ .f32 0x7F800000#32
  let main_v10 : FVec F S512x128 .f32 := broadcastInDim S512x128 ![] bcast_S_S512x128 main_cst_2
  let main_v11 : IVec S512x128 1 := cmpf .olt main_v9 main_v10
  let main_c_3 : IVec S_ 1 := constantI S_ 1 1#1
  let main_v12 : IVec S_ 1 := (fun x v => Host.reduce IntOp.andi x v reducesTo_S512x128_S_d0_1 h_S_) main_v11 main_c_3
  let main_v13 : IVec S_ 1 := andi main_v8 main_v12
  let main_v14 : FVec F S3 .f32 := Host.absf main_arg3
  let main_cst_4 : FVec F S_ .f32 := constant S_ .f32 0x7F800000#32
  let main_v15 : FVec F S3 .f32 := broadcastInDim S3 ![] bcast_S_S3 main_cst_4
  let main_v16 : IVec S3 1 := cmpf .olt main_v14 main_v15
  fn_part1 (F := F) main_arg4 main_arg5 main_arg6 main_arg7 main_arg8 main_arg9 main_arg10 main_v13 main_v16
-- ==== Kernel.lean ====
abbrev S8192x8192 : Shape := ⟨2, ![8192, 8192]⟩
abbrev S8192x512 : Shape := ⟨2, ![8192, 512]⟩
abbrev S512x128 : Shape := ⟨2, ![512, 128]⟩
abbrev S3 : Shape := ⟨1, ![3]⟩
abbrev S128 : Shape := ⟨1, ![128]⟩
abbrev S128x128 : Shape := ⟨2, ![128, 128]⟩
abbrev S128x64 : Shape := ⟨2, ![128, 64]⟩
abbrev S64 : Shape := ⟨1, ![64]⟩
abbrev S1 : Shape := ⟨1, ![1]⟩
abbrev S1x1 : Shape := ⟨2, ![1, 1]⟩
abbrev S1x128 : Shape := ⟨2, ![1, 128]⟩
abbrev S8192x128 : Shape := ⟨2, ![8192, 128]⟩
abbrev S2048x512 : Shape := ⟨2, ![2048, 512]⟩
abbrev S2048x128 : Shape := ⟨2, ![2048, 128]⟩
abbrev S1024x2048 : Shape := ⟨2, ![1024, 2048]⟩
abbrev S1024x128 : Shape := ⟨2, ![1024, 128]⟩
abbrev S1x64 : Shape := ⟨2, ![1, 64]⟩
abbrev S8192x64 : Shape := ⟨2, ![8192, 64]⟩
abbrev S2048x64 : Shape := ⟨2, ![2048, 64]⟩
abbrev S1024x64 : Shape := ⟨2, ![1024, 64]⟩

abbrev nBuf : Space → Nat
  | .hbm => 51
  | .vmem => 98
  | .smem => 0
  | _ => 0

abbrev bufTy : (tb : Table) → Fin (tcTables nBuf tb) → BufTy
  | .hbm, ⟨0, _⟩ => ⟨S8192x8192, .f32⟩
  | .hbm, ⟨1, _⟩ => ⟨S8192x512, .f32⟩
  | .hbm, ⟨2, _⟩ => ⟨S512x128, .f32⟩
  | .hbm, ⟨3, _⟩ => ⟨S3, .f32⟩
  | .hbm, ⟨4, _⟩ => ⟨S128, .f32⟩
  | .hbm, ⟨5, _⟩ => ⟨S128x128, .f32⟩
  | .hbm, ⟨6, _⟩ => ⟨S3, .f32⟩
  | .hbm, ⟨7, _⟩ => ⟨S128, .f32⟩
  | .hbm, ⟨8, _⟩ => ⟨S128x64, .f32⟩
  | .hbm, ⟨9, _⟩ => ⟨S3, .f32⟩
  | .hbm, ⟨10, _⟩ => ⟨S64, .f32⟩
  | .hbm, ⟨11, _⟩ => ⟨S1, .f32⟩
  | .hbm, ⟨12, _⟩ => ⟨S1x1, .f32⟩
  | .hbm, ⟨13, _⟩ => ⟨S1, .f32⟩
  | .hbm, ⟨14, _⟩ => ⟨S1x1, .f32⟩
  | .hbm, ⟨15, _⟩ => ⟨S1, .f32⟩
  | .hbm, ⟨16, _⟩ => ⟨S1x1, .f32⟩
  | .hbm, ⟨17, _⟩ => ⟨S1x128, .f32⟩
  | .hbm, ⟨18, _⟩ => ⟨S8192x128, .bf16⟩
  | .hbm, ⟨19, _⟩ => ⟨S8192x128, .f32⟩
  | .hbm, ⟨20, _⟩ => ⟨S8192x8192, .bf16⟩
  | .hbm, ⟨21, _⟩ => ⟨S8192x128, .bf16⟩
  | .hbm, ⟨22, _⟩ => ⟨S8192x128, .f32⟩
  | .hbm, ⟨23, _⟩ => ⟨S8192x128, .bf16⟩
  | .hbm, ⟨24, _⟩ => ⟨S8192x128, .f32⟩
  | .hbm, ⟨25, _⟩ => ⟨S1, .f32⟩
  | .hbm, ⟨26, _⟩ => ⟨S1x1, .f32⟩
  | .hbm, ⟨27, _⟩ => ⟨S1, .f32⟩
  | .hbm, ⟨28, _⟩ => ⟨S1x1, .f32⟩
  | .hbm, ⟨29, _⟩ => ⟨S1, .f32⟩
  | .hbm, ⟨30, _⟩ => ⟨S1x1, .f32⟩
  | .hbm, ⟨31, _⟩ => ⟨S1x128, .f32⟩
  | .hbm, ⟨32, _⟩ => ⟨S8192x128, .bf16⟩
  | .hbm, ⟨33, _⟩ => ⟨S8192x128, .f32⟩
  | .hbm, ⟨34, _⟩ => ⟨S8192x128, .bf16⟩
  | .hbm, ⟨35, _⟩ => ⟨S8192x128, .f32⟩
  | .hbm, ⟨36, _⟩ => ⟨S8192x128, .bf16⟩
  | .hbm, ⟨37, _⟩ => ⟨S8192x128, .f32⟩
  | .hbm, ⟨38, _⟩ => ⟨S1, .f32⟩
  | .hbm, ⟨39, _⟩ => ⟨S1x1, .f32⟩
  | .hbm, ⟨40, _⟩ => ⟨S1, .f32⟩
  | .hbm, ⟨41, _⟩ => ⟨S1x1, .f32⟩
  | .hbm, ⟨42, _⟩ => ⟨S1, .f32⟩
  | .hbm, ⟨43, _⟩ => ⟨S1x1, .f32⟩
  | .hbm, ⟨44, _⟩ => ⟨S1x64, .f32⟩
  | .hbm, ⟨45, _⟩ => ⟨S8192x64, .bf16⟩
  | .hbm, ⟨46, _⟩ => ⟨S8192x64, .f32⟩
  | .hbm, ⟨47, _⟩ => ⟨S8192x64, .bf16⟩
  | .hbm, ⟨48, _⟩ => ⟨S8192x64, .f32⟩
  | .hbm, ⟨49, _⟩ => ⟨S8192x64, .bf16⟩
  | .hbm, ⟨50, _⟩ => ⟨S8192x64, .f32⟩
  | .local _ .vmem, ⟨0, _⟩ => ⟨S2048x512, .f32⟩
  | .local _ .vmem, ⟨1, _⟩ => ⟨S2048x512, .f32⟩
  | .local _ .vmem, ⟨2, _⟩ => ⟨S512x128, .f32⟩
  | .local _ .vmem, ⟨3, _⟩ => ⟨S1x1, .f32⟩
  | .local _ .vmem, ⟨4, _⟩ => ⟨S2048x128, .bf16⟩
  | .local _ .vmem, ⟨5, _⟩ => ⟨S2048x128, .bf16⟩
  | .local _ .vmem, ⟨6, _⟩ => ⟨S2048x128, .f32⟩
  | .local _ .vmem, ⟨7, _⟩ => ⟨S2048x128, .f32⟩
  | .local _ .vmem, ⟨8, _⟩ => ⟨S1024x2048, .f32⟩
  | .local _ .vmem, ⟨9, _⟩ => ⟨S1024x2048, .f32⟩
  | .local _ .vmem, ⟨10, _⟩ => ⟨S8192x128, .bf16⟩
  | .local _ .vmem, ⟨11, _⟩ => ⟨S1024x128, .f32⟩
  | .local _ .vmem, ⟨12, _⟩ => ⟨S1024x128, .f32⟩
  | .local _ .vmem, ⟨13, _⟩ => ⟨S1x128, .f32⟩
  | .local _ .vmem, ⟨14, _⟩ => ⟨S1x1, .f32⟩
  | .local _ .vmem, ⟨15, _⟩ => ⟨S1024x2048, .bf16⟩
  | .local _ .vmem, ⟨16, _⟩ => ⟨S1024x2048, .bf16⟩
  | .local _ .vmem, ⟨17, _⟩ => ⟨S1024x128, .bf16⟩
  | .local _ .vmem, ⟨18, _⟩ => ⟨S1024x128, .bf16⟩
  | .local _ .vmem, ⟨19, _⟩ => ⟨S1024x128, .f32⟩
  | .local _ .vmem, ⟨20, _⟩ => ⟨S1024x128, .f32⟩
  | .local _ .vmem, ⟨21, _⟩ => ⟨S1024x128, .f32⟩
  | .local _ .vmem, ⟨22, _⟩ => ⟨S1024x2048, .bf16⟩
  | .local _ .vmem, ⟨23, _⟩ => ⟨S1024x2048, .bf16⟩
  | .local _ .vmem, ⟨24, _⟩ => ⟨S8192x128, .bf16⟩
  | .local _ .vmem, ⟨25, _⟩ => ⟨S1024x128, .f32⟩
  | .local _ .vmem, ⟨26, _⟩ => ⟨S1024x128, .f32⟩
  | .local _ .vmem, ⟨27, _⟩ => ⟨S1x128, .f32⟩
  | .local _ .vmem, ⟨28, _⟩ => ⟨S1x1, .f32⟩
  | .local _ .vmem, ⟨29, _⟩ => ⟨S1024x128, .bf16⟩
  | .local _ .vmem, ⟨30, _⟩ => ⟨S1024x128, .bf16⟩
  | .local _ .vmem, ⟨31, _⟩ => ⟨S1024x128, .f32⟩
  | .local _ .vmem, ⟨32, _⟩ => ⟨S1024x128, .f32⟩
  | .local _ .vmem, ⟨33, _⟩ => ⟨S1024x128, .f32⟩
  | .local _ .vmem, ⟨34, _⟩ => ⟨S2048x128, .f32⟩
  | .local _ .vmem, ⟨35, _⟩ => ⟨S2048x128, .f32⟩
  | .local _ .vmem, ⟨36, _⟩ => ⟨S128x128, .f32⟩
  | .local _ .vmem, ⟨37, _⟩ => ⟨S1x1, .f32⟩
  | .local _ .vmem, ⟨38, _⟩ => ⟨S2048x128, .bf16⟩
  | .local _ .vmem, ⟨39, _⟩ => ⟨S2048x128, .bf16⟩
  | .local _ .vmem, ⟨40, _⟩ => ⟨S2048x128, .f32⟩
  | .local _ .vmem, ⟨41, _⟩ => ⟨S2048x128, .f32⟩
  | .local _ .vmem, ⟨42, _⟩ => ⟨S1024x2048, .bf16⟩
  | .local _ .vmem, ⟨43, _⟩ => ⟨S1024x2048, .bf16⟩
  | .local _ .vmem, ⟨44, _⟩ => ⟨S8192x128, .bf16⟩
  | .local _ .vmem, ⟨45, _⟩ => ⟨S1024x128, .f32⟩
  | .local _ .vmem, ⟨46, _⟩ => ⟨S1024x128, .f32⟩
  | .local _ .vmem, ⟨47, _⟩ => ⟨S1x128, .f32⟩
  | .local _ .vmem, ⟨48, _⟩ => ⟨S1x1, .f32⟩
  | .local _ .vmem, ⟨49, _⟩ => ⟨S1024x128, .bf16⟩
  | .local _ .vmem, ⟨50, _⟩ => ⟨S1024x128, .bf16⟩
  | .local _ .vmem, ⟨51, _⟩ => ⟨S1024x128, .f32⟩
  | .local _ .vmem, ⟨52, _⟩ => ⟨S1024x128, .f32⟩
  | .local _ .vmem, ⟨53, _⟩ => ⟨S1024x128, .f32⟩
  | .local _ .vmem, ⟨54, _⟩ => ⟨S1024x2048, .bf16⟩
  | .local _ .vmem, ⟨55, _⟩ => ⟨S1024x2048, .bf16⟩
  | .local _ .vmem, ⟨56, _⟩ => ⟨S8192x128, .bf16⟩
  | .local _ .vmem, ⟨57, _⟩ => ⟨S1024x128, .f32⟩
  | .local _ .vmem, ⟨58, _⟩ => ⟨S1024x128, .f32⟩
  | .local _ .vmem, ⟨59, _⟩ => ⟨S1x128, .f32⟩
  | .local _ .vmem, ⟨60, _⟩ => ⟨S1x1, .f32⟩
  | .local _ .vmem, ⟨61, _⟩ => ⟨S1024x128, .bf16⟩
  | .local _ .vmem, ⟨62, _⟩ => ⟨S1024x128, .bf16⟩
  | .local _ .vmem, ⟨63, _⟩ => ⟨S1024x128, .f32⟩
  | .local _ .vmem, ⟨64, _⟩ => ⟨S1024x128, .f32⟩
  | .local _ .vmem, ⟨65, _⟩ => ⟨S1024x128, .f32⟩
  | .local _ .vmem, ⟨66, _⟩ => ⟨S2048x128, .f32⟩
  | .local _ .vmem, ⟨67, _⟩ => ⟨S2048x128, .f32⟩
  | .local _ .vmem, ⟨68, _⟩ => ⟨S128x64, .f32⟩
  | .local _ .vmem, ⟨69, _⟩ => ⟨S1x1, .f32⟩
  | .local _ .vmem, ⟨70, _⟩ => ⟨S2048x64, .bf16⟩
  | .local _ .vmem, ⟨71, _⟩ => ⟨S2048x64, .bf16⟩
  | .local _ .vmem, ⟨72, _⟩ => ⟨S2048x64, .f32⟩
  | .local _ .vmem, ⟨73, _⟩ => ⟨S2048x64, .f32⟩
  | .local _ .vmem, ⟨74, _⟩ => ⟨S1024x2048, .bf16⟩
  | .local _ .vmem, ⟨75, _⟩ => ⟨S1024x2048, .bf16⟩
  | .local _ .vmem, ⟨76, _⟩ => ⟨S8192x64, .bf16⟩
  | .local _ .vmem, ⟨77, _⟩ => ⟨S1024x64, .f32⟩
  | .local _ .vmem, ⟨78, _⟩ => ⟨S1024x64, .f32⟩
  | .local _ .vmem, ⟨79, _⟩ => ⟨S1x64, .f32⟩
  | .local _ .vmem, ⟨80, _⟩ => ⟨S1x1, .f32⟩
  | .local _ .vmem, ⟨81, _⟩ => ⟨S1024x64, .bf16⟩
  | .local _ .vmem, ⟨82, _⟩ => ⟨S1024x64, .bf16⟩
  | .local _ .vmem, ⟨83, _⟩ => ⟨S1024x64, .f32⟩
  | .local _ .vmem, ⟨84, _⟩ => ⟨S1024x64, .f32⟩
  | .local _ .vmem, ⟨85, _⟩ => ⟨S1024x64, .f32⟩
  | .local _ .vmem, ⟨86, _⟩ => ⟨S1024x2048, .bf16⟩
  | .local _ .vmem, ⟨87, _⟩ => ⟨S1024x2048, .bf16⟩
  | .local _ .vmem, ⟨88, _⟩ => ⟨S8192x64, .bf16⟩
  | .local _ .vmem, ⟨89, _⟩ => ⟨S1024x64, .f32⟩
  | .local _ .vmem, ⟨90, _⟩ => ⟨S1024x64, .f32⟩
  | .local _ .vmem, ⟨91, _⟩ => ⟨S1x64, .f32⟩
  | .local _ .vmem, ⟨92, _⟩ => ⟨S1x1, .f32⟩
  | .local _ .vmem, ⟨93, _⟩ => ⟨S1024x64, .bf16⟩
  | .local _ .vmem, ⟨94, _⟩ => ⟨S1024x64, .bf16⟩
  | .local _ .vmem, ⟨95, _⟩ => ⟨S1024x64, .f32⟩
  | .local _ .vmem, ⟨96, _⟩ => ⟨S1024x64, .f32⟩
  | .local _ .vmem, ⟨97, _⟩ => ⟨S1024x64, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | _, _ => false

abbrev semScoped : Fin 0 → Bool
  | ⟨_, h⟩ => absurd h (Nat.not_lt_zero _)

abbrev dmaSemScoped : Fin 92 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | _ => false

abbrev sig : RefSig :=
  ofTc nBuf bufTy 0 92 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7_0 : Ref sig .tc := ⟨.hbm, 18, rfl⟩
abbrev main_v7_1 : Ref sig .tc := ⟨.hbm, 19, rfl⟩
abbrev main_v8_0 : Ref sig .tc := ⟨.hbm, 20, rfl⟩
abbrev main_v8_1 : Ref sig .tc := ⟨.hbm, 21, rfl⟩
abbrev main_v8_2 : Ref sig .tc := ⟨.hbm, 22, rfl⟩
abbrev main_v9_0 : Ref sig .tc := ⟨.hbm, 23, rfl⟩
abbrev main_v9_1 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17_0 : Ref sig .tc := ⟨.hbm, 32, rfl⟩
abbrev main_v17_1 : Ref sig .tc := ⟨.hbm, 33, rfl⟩
abbrev main_v18_0 : Ref sig .tc := ⟨.hbm, 34, rfl⟩
abbrev main_v18_1 : Ref sig .tc := ⟨.hbm, 35, rfl⟩
abbrev main_v19_0 : Ref sig .tc := ⟨.hbm, 36, rfl⟩
abbrev main_v19_1 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27_0 : Ref sig .tc := ⟨.hbm, 45, rfl⟩
abbrev main_v27_1 : Ref sig .tc := ⟨.hbm, 46, rfl⟩
abbrev main_v28_0 : Ref sig .tc := ⟨.hbm, 47, rfl⟩
abbrev main_v28_1 : Ref sig .tc := ⟨.hbm, 48, rfl⟩
abbrev main_v29_0 : Ref sig .tc := ⟨.hbm, 49, rfl⟩
abbrev main_v29_1 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc1_stg6_0 : Ref sig .tc := ⟨.vmem, 17, rfl⟩
abbrev cc1_stg6_1 : Ref sig .tc := ⟨.vmem, 18, rfl⟩
abbrev cc1_stg7_0 : Ref sig .tc := ⟨.vmem, 19, rfl⟩
abbrev cc1_stg7_1 : Ref sig .tc := ⟨.vmem, 20, rfl⟩
abbrev cc1_scratch0 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg2_0 : Ref sig .tc := ⟨.vmem, 25, rfl⟩
abbrev cc2_stg2_1 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg5_1 : Ref sig .tc := ⟨.vmem, 30, rfl⟩
abbrev cc2_stg6_0 : Ref sig .tc := ⟨.vmem, 31, rfl⟩
abbrev cc2_stg6_1 : Ref sig .tc := ⟨.vmem, 32, rfl⟩
abbrev cc2_scratch0 : Ref sig .tc := ⟨.vmem, 33, rfl⟩
abbrev cc3_stg0_0 : Ref sig .tc := ⟨.vmem, 34, rfl⟩
abbrev cc3_stg0_1 : Ref sig .tc := ⟨.vmem, 35, rfl⟩
abbrev cc3_stg1_0 : Ref sig .tc := ⟨.vmem, 36, rfl⟩
abbrev cc3_stg2_0 : Ref sig .tc := ⟨.vmem, 37, rfl⟩
abbrev cc3_stg3_0 : Ref sig .tc := ⟨.vmem, 38, rfl⟩
abbrev cc3_stg3_1 : Ref sig .tc := ⟨.vmem, 39, rfl⟩
abbrev cc3_stg4_0 : Ref sig .tc := ⟨.vmem, 40, rfl⟩
abbrev cc3_stg4_1 : Ref sig .tc := ⟨.vmem, 41, rfl⟩
abbrev cc4_stg0_0 : Ref sig .tc := ⟨.vmem, 42, rfl⟩
abbrev cc4_stg0_1 : Ref sig .tc := ⟨.vmem, 43, rfl⟩
abbrev cc4_stg1_0 : Ref sig .tc := ⟨.vmem, 44, rfl⟩
abbrev cc4_stg2_0 : Ref sig .tc := ⟨.vmem, 45, rfl⟩
abbrev cc4_stg2_1 : Ref sig .tc := ⟨.vmem, 46, rfl⟩
abbrev cc4_stg3_0 : Ref sig .tc := ⟨.vmem, 47, rfl⟩
abbrev cc4_stg4_0 : Ref sig .tc := ⟨.vmem, 48, rfl⟩
abbrev cc4_stg5_0 : Ref sig .tc := ⟨.vmem, 49, rfl⟩
abbrev cc4_stg5_1 : Ref sig .tc := ⟨.vmem, 50, rfl⟩
abbrev cc4_stg6_0 : Ref sig .tc := ⟨.vmem, 51, rfl⟩
abbrev cc4_stg6_1 : Ref sig .tc := ⟨.vmem, 52, rfl⟩
abbrev cc4_scratch0 : Ref sig .tc := ⟨.vmem, 53, rfl⟩
abbrev cc5_stg0_0 : Ref sig .tc := ⟨.vmem, 54, rfl⟩
abbrev cc5_stg0_1 : Ref sig .tc := ⟨.vmem, 55, rfl⟩
abbrev cc5_stg1_0 : Ref sig .tc := ⟨.vmem, 56, rfl⟩
abbrev cc5_stg2_0 : Ref sig .tc := ⟨.vmem, 57, rfl⟩
abbrev cc5_stg2_1 : Ref sig .tc := ⟨.vmem, 58, rfl⟩
abbrev cc5_stg3_0 : Ref sig .tc := ⟨.vmem, 59, rfl⟩
abbrev cc5_stg4_0 : Ref sig .tc := ⟨.vmem, 60, rfl⟩
abbrev cc5_stg5_0 : Ref sig .tc := ⟨.vmem, 61, rfl⟩
abbrev cc5_stg5_1 : Ref sig .tc := ⟨.vmem, 62, rfl⟩
abbrev cc5_stg6_0 : Ref sig .tc := ⟨.vmem, 63, rfl⟩
abbrev cc5_stg6_1 : Ref sig .tc := ⟨.vmem, 64, rfl⟩
abbrev cc5_scratch0 : Ref sig .tc := ⟨.vmem, 65, rfl⟩
abbrev cc6_stg0_0 : Ref sig .tc := ⟨.vmem, 66, rfl⟩
abbrev cc6_stg0_1 : Ref sig .tc := ⟨.vmem, 67, rfl⟩
abbrev cc6_stg1_0 : Ref sig .tc := ⟨.vmem, 68, rfl⟩
abbrev cc6_stg2_0 : Ref sig .tc := ⟨.vmem, 69, rfl⟩
abbrev cc6_stg3_0 : Ref sig .tc := ⟨.vmem, 70, rfl⟩
abbrev cc6_stg3_1 : Ref sig .tc := ⟨.vmem, 71, rfl⟩
abbrev cc6_stg4_0 : Ref sig .tc := ⟨.vmem, 72, rfl⟩
abbrev cc6_stg4_1 : Ref sig .tc := ⟨.vmem, 73, rfl⟩
abbrev cc7_stg0_0 : Ref sig .tc := ⟨.vmem, 74, rfl⟩
abbrev cc7_stg0_1 : Ref sig .tc := ⟨.vmem, 75, rfl⟩
abbrev cc7_stg1_0 : Ref sig .tc := ⟨.vmem, 76, rfl⟩
abbrev cc7_stg2_0 : Ref sig .tc := ⟨.vmem, 77, rfl⟩
abbrev cc7_stg2_1 : Ref sig .tc := ⟨.vmem, 78, rfl⟩
abbrev cc7_stg3_0 : Ref sig .tc := ⟨.vmem, 79, rfl⟩
abbrev cc7_stg4_0 : Ref sig .tc := ⟨.vmem, 80, rfl⟩
abbrev cc7_stg5_0 : Ref sig .tc := ⟨.vmem, 81, rfl⟩
abbrev cc7_stg5_1 : Ref sig .tc := ⟨.vmem, 82, rfl⟩
abbrev cc7_stg6_0 : Ref sig .tc := ⟨.vmem, 83, rfl⟩
abbrev cc7_stg6_1 : Ref sig .tc := ⟨.vmem, 84, rfl⟩
abbrev cc7_scratch0 : Ref sig .tc := ⟨.vmem, 85, rfl⟩
abbrev cc8_stg0_0 : Ref sig .tc := ⟨.vmem, 86, rfl⟩
abbrev cc8_stg0_1 : Ref sig .tc := ⟨.vmem, 87, rfl⟩
abbrev cc8_stg1_0 : Ref sig .tc := ⟨.vmem, 88, rfl⟩
abbrev cc8_stg2_0 : Ref sig .tc := ⟨.vmem, 89, rfl⟩
abbrev cc8_stg2_1 : Ref sig .tc := ⟨.vmem, 90, rfl⟩
abbrev cc8_stg3_0 : Ref sig .tc := ⟨.vmem, 91, rfl⟩
abbrev cc8_stg4_0 : Ref sig .tc := ⟨.vmem, 92, rfl⟩
abbrev cc8_stg5_0 : Ref sig .tc := ⟨.vmem, 93, rfl⟩
abbrev cc8_stg5_1 : Ref sig .tc := ⟨.vmem, 94, rfl⟩
abbrev cc8_stg6_0 : Ref sig .tc := ⟨.vmem, 95, rfl⟩
abbrev cc8_stg6_1 : Ref sig .tc := ⟨.vmem, 96, rfl⟩
abbrev cc8_scratch0 : Ref sig .tc := ⟨.vmem, 97, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem5_0 : DmaSem sig := 15
abbrev cc1_sem5_1 : DmaSem sig := 16
abbrev cc1_sem6_0 : DmaSem sig := 17
abbrev cc1_sem6_1 : DmaSem sig := 18
abbrev cc1_sem7_0 : DmaSem sig := 19
abbrev cc1_sem7_1 : DmaSem sig := 20
abbrev cc2_sem0_0 : DmaSem sig := 21
abbrev cc2_sem0_1 : DmaSem sig := 22
abbrev cc2_sem1_0 : DmaSem sig := 23
abbrev cc2_sem2_0 : DmaSem sig := 24
abbrev cc2_sem2_1 : DmaSem sig := 25
abbrev cc2_sem3_0 : DmaSem sig := 26
abbrev cc2_sem4_0 : DmaSem sig := 27
abbrev cc2_sem5_0 : DmaSem sig := 28
abbrev cc2_sem5_1 : DmaSem sig := 29
abbrev cc2_sem6_0 : DmaSem sig := 30
abbrev cc2_sem6_1 : DmaSem sig := 31
abbrev cc3_sem0_0 : DmaSem sig := 32
abbrev cc3_sem0_1 : DmaSem sig := 33
abbrev cc3_sem1_0 : DmaSem sig := 34
abbrev cc3_sem2_0 : DmaSem sig := 35
abbrev cc3_sem3_0 : DmaSem sig := 36
abbrev cc3_sem3_1 : DmaSem sig := 37
abbrev cc3_sem4_0 : DmaSem sig := 38
abbrev cc3_sem4_1 : DmaSem sig := 39
abbrev cc4_sem0_0 : DmaSem sig := 40
abbrev cc4_sem0_1 : DmaSem sig := 41
abbrev cc4_sem1_0 : DmaSem sig := 42
abbrev cc4_sem2_0 : DmaSem sig := 43
abbrev cc4_sem2_1 : DmaSem sig := 44
abbrev cc4_sem3_0 : DmaSem sig := 45
abbrev cc4_sem4_0 : DmaSem sig := 46
abbrev cc4_sem5_0 : DmaSem sig := 47
abbrev cc4_sem5_1 : DmaSem sig := 48
abbrev cc4_sem6_0 : DmaSem sig := 49
abbrev cc4_sem6_1 : DmaSem sig := 50
abbrev cc5_sem0_0 : DmaSem sig := 51
abbrev cc5_sem0_1 : DmaSem sig := 52
abbrev cc5_sem1_0 : DmaSem sig := 53
abbrev cc5_sem2_0 : DmaSem sig := 54
abbrev cc5_sem2_1 : DmaSem sig := 55
abbrev cc5_sem3_0 : DmaSem sig := 56
abbrev cc5_sem4_0 : DmaSem sig := 57
abbrev cc5_sem5_0 : DmaSem sig := 58
abbrev cc5_sem5_1 : DmaSem sig := 59
abbrev cc5_sem6_0 : DmaSem sig := 60
abbrev cc5_sem6_1 : DmaSem sig := 61
abbrev cc6_sem0_0 : DmaSem sig := 62
abbrev cc6_sem0_1 : DmaSem sig := 63
abbrev cc6_sem1_0 : DmaSem sig := 64
abbrev cc6_sem2_0 : DmaSem sig := 65
abbrev cc6_sem3_0 : DmaSem sig := 66
abbrev cc6_sem3_1 : DmaSem sig := 67
abbrev cc6_sem4_0 : DmaSem sig := 68
abbrev cc6_sem4_1 : DmaSem sig := 69
abbrev cc7_sem0_0 : DmaSem sig := 70
abbrev cc7_sem0_1 : DmaSem sig := 71
abbrev cc7_sem1_0 : DmaSem sig := 72
abbrev cc7_sem2_0 : DmaSem sig := 73
abbrev cc7_sem2_1 : DmaSem sig := 74
abbrev cc7_sem3_0 : DmaSem sig := 75
abbrev cc7_sem4_0 : DmaSem sig := 76
abbrev cc7_sem5_0 : DmaSem sig := 77
abbrev cc7_sem5_1 : DmaSem sig := 78
abbrev cc7_sem6_0 : DmaSem sig := 79
abbrev cc7_sem6_1 : DmaSem sig := 80
abbrev cc8_sem0_0 : DmaSem sig := 81
abbrev cc8_sem0_1 : DmaSem sig := 82
abbrev cc8_sem1_0 : DmaSem sig := 83
abbrev cc8_sem2_0 : DmaSem sig := 84
abbrev cc8_sem2_1 : DmaSem sig := 85
abbrev cc8_sem3_0 : DmaSem sig := 86
abbrev cc8_sem4_0 : DmaSem sig := 87
abbrev cc8_sem5_0 : DmaSem sig := 88
abbrev cc8_sem5_1 : DmaSem sig := 89
abbrev cc8_sem6_0 : DmaSem sig := 90
abbrev cc8_sem6_1 : DmaSem sig := 91

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![8, 4], ![false, false]⟩

def k1_mult1 (i : grid1.Coords) : BitVec 32 :=
  let arg1 : BitVec 32 := BitVec.ofNat 32 (i 1).val
  let c2048_i32 : BitVec 32 := 2048#32
  let v6 : BitVec 32 := Scalar.muli arg1 c2048_i32
  v6
def k1_off1 (i : grid1.Coords) : Fin 2 → Nat :=
  let arg1 : BitVec 32 := BitVec.ofNat 32 (i 1).val
  let c2048_i32 : BitVec 32 := 2048#32
  let v6 : BitVec 32 := Scalar.muli arg1 c2048_i32
  let v7 : BitVec 32 := v6
  let v8 : Index := Scalar.indexCast v7
  let c0_4 : Index := 0#32
  ![v8.toNat, 0]
def k1_cond2 (i : grid1.Coords) : BitVec 1 :=
  let arg1 : BitVec 32 := BitVec.ofNat 32 (i 1).val
  let c3_i32 : BitVec 32 := 3#32
  let v17 : BitVec 1 := Scalar.cmpi .eq arg1 c3_i32
  let v18 : BitVec 32 := Scalar.extui v17
  let c0_i32_9 : BitVec 32 := 0#32
  let v19 : BitVec 1 := Scalar.cmpi .ne v18 c0_i32_9
  v19

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S8192x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1024x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1024x2048 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1024x128 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev stage1_7 : Fin 2 → Memref sig .tc .vmem S1024x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

abbrev grid2 : Pipeline.Grid := ⟨2, ![8, 4], ![false, false]⟩

def k2_mult1 (i : grid2.Coords) : BitVec 32 :=
  let arg1 : BitVec 32 := BitVec.ofNat 32 (i 1).val
  let c2048_i32 : BitVec 32 := 2048#32
  let v3 : BitVec 32 := Scalar.muli arg1 c2048_i32
  v3
def k2_off1 (i : grid2.Coords) : Fin 2 → Nat :=
  let arg1 : BitVec 32 := BitVec.ofNat 32 (i 1).val
  let c2048_i32 : BitVec 32 := 2048#32
  let v3 : BitVec 32 := Scalar.muli arg1 c2048_i32
  let v4 : BitVec 32 := v3
  let v5 : Index := Scalar.indexCast v4
  let c0 : Index := 0#32
  ![v5.toNat, 0]
def k2_cond2 (i : grid2.Coords) : BitVec 1 :=
  let arg1 : BitVec 32 := BitVec.ofNat 32 (i 1).val
  let c3_i32 : BitVec 32 := 3#32
  let v16 : BitVec 1 := Scalar.cmpi .eq arg1 c3_i32
  let v17 : BitVec 32 := Scalar.extui v16
  let c0_i32_7 : BitVec 32 := 0#32
  let v18 : BitVec 1 := Scalar.cmpi .ne v17 c0_i32_7
  v18

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1024x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S8192x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 2 → Memref sig .tc .vmem S1024x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S1x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 2 → Memref sig .tc .vmem S1024x128 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false]

abbrev stage2_6 : Fin 2 → Memref sig .tc .vmem S1024x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, false]

abbrev grid3 : Pipeline.Grid := ⟨1, ![4], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2048x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x1 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2048x128 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S2048x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨2, ![8, 4], ![false, false]⟩

def k4_mult1 (i : grid4.Coords) : BitVec 32 :=
  let arg1 : BitVec 32 := BitVec.ofNat 32 (i 1).val
  let c2048_i32 : BitVec 32 := 2048#32
  let v3 : BitVec 32 := Scalar.muli arg1 c2048_i32
  v3
def k4_off1 (i : grid4.Coords) : Fin 2 → Nat :=
  let arg1 : BitVec 32 := BitVec.ofNat 32 (i 1).val
  let c2048_i32 : BitVec 32 := 2048#32
  let v3 : BitVec 32 := Scalar.muli arg1 c2048_i32
  let v4 : BitVec 32 := v3
  let v5 : Index := Scalar.indexCast v4
  let c0 : Index := 0#32
  ![v5.toNat, 0]
def k4_cond2 (i : grid4.Coords) : BitVec 1 :=
  let arg1 : BitVec 32 := BitVec.ofNat 32 (i 1).val
  let c3_i32 : BitVec 32 := 3#32
  let v16 : BitVec 1 := Scalar.cmpi .eq arg1 c3_i32
  let v17 : BitVec 32 := Scalar.extui v16
  let c0_i32_7 : BitVec 32 := 0#32
  let v18 : BitVec 1 := Scalar.cmpi .ne v17 c0_i32_7
  v18

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage4_0 : Fin 2 → Memref sig .tc .vmem S1024x2048 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 1 → Memref sig .tc .vmem S8192x128 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, false]

abbrev stage4_2 : Fin 2 → Memref sig .tc .vmem S1024x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false, false]

abbrev stage4_4 : Fin 1 → Memref sig .tc .vmem S1x1 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false, false]

abbrev stage4_5 : Fin 2 → Memref sig .tc .vmem S1024x128 .bf16 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true, false]

abbrev stage4_6 : Fin 2 → Memref sig .tc .vmem S1024x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true, false]

abbrev grid5 : Pipeline.Grid := ⟨2, ![8, 4], ![false, false]⟩

def k5_mult1 (i : grid5.Coords) : BitVec 32 :=
  let arg1 : BitVec 32 := BitVec.ofNat 32 (i 1).val
  let c2048_i32 : BitVec 32 := 2048#32
  let v3 : BitVec 32 := Scalar.muli arg1 c2048_i32
  v3
def k5_off1 (i : grid5.Coords) : Fin 2 → Nat :=
  let arg1 : BitVec 32 := BitVec.ofNat 32 (i 1).val
  let c2048_i32 : BitVec 32 := 2048#32
  let v3 : BitVec 32 := Scalar.muli arg1 c2048_i32
  let v4 : BitVec 32 := v3
  let v5 : Index := Scalar.indexCast v4
  let c0 : Index := 0#32
  ![v5.toNat, 0]
def k5_cond2 (i : grid5.Coords) : BitVec 1 :=
  let arg1 : BitVec 32 := BitVec.ofNat 32 (i 1).val
  let c3_i32 : BitVec 32 := 3#32
  let v16 : BitVec 1 := Scalar.cmpi .eq arg1 c3_i32
  let v17 : BitVec 32 := Scalar.extui v16
  let c0_i32_7 : BitVec 32 := 0#32
  let v18 : BitVec 1 := Scalar.cmpi .ne v17 c0_i32_7
  v18

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_6 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage5_0 : Fin 2 → Memref sig .tc .vmem S1024x2048 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, true]

abbrev stage5_1 : Fin 1 → Memref sig .tc .vmem S8192x128 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false, false]

abbrev stage5_2 : Fin 2 → Memref sig .tc .vmem S1024x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false, false]

abbrev stage5_4 : Fin 1 → Memref sig .tc .vmem S1x1 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false, false]

abbrev stage5_5 : Fin 2 → Memref sig .tc .vmem S1024x128 .bf16 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true, false]

abbrev stage5_6 : Fin 2 → Memref sig .tc .vmem S1024x128 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true, false]

abbrev grid6 : Pipeline.Grid := ⟨1, ![4], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2048x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x1 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S2048x64 .bf16 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 2 → Memref sig .tc .vmem S2048x64 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev grid7 : Pipeline.Grid := ⟨2, ![8, 4], ![false, false]⟩

def k7_mult1 (i : grid7.Coords) : BitVec 32 :=
  let arg1 : BitVec 32 := BitVec.ofNat 32 (i 1).val
  let c2048_i32 : BitVec 32 := 2048#32
  let v3 : BitVec 32 := Scalar.muli arg1 c2048_i32
  v3
def k7_off1 (i : grid7.Coords) : Fin 2 → Nat :=
  let arg1 : BitVec 32 := BitVec.ofNat 32 (i 1).val
  let c2048_i32 : BitVec 32 := 2048#32
  let v3 : BitVec 32 := Scalar.muli arg1 c2048_i32
  let v4 : BitVec 32 := v3
  let v5 : Index := Scalar.indexCast v4
  let c0 : Index := 0#32
  ![v5.toNat, 0]
def k7_cond2 (i : grid7.Coords) : BitVec 1 :=
  let arg1 : BitVec 32 := BitVec.ofNat 32 (i 1).val
  let c3_i32 : BitVec 32 := 3#32
  let v16 : BitVec 1 := Scalar.cmpi .eq arg1 c3_i32
  let v17 : BitVec 32 := Scalar.extui v16
  let c0_i32_7 : BitVec 32 := 0#32
  let v18 : BitVec 1 := Scalar.cmpi .ne v17 c0_i32_7
  v18

def cc7_transform_0 (i : grid7.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc7_transform_1 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc7_transform_6 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage7_0 : Fin 2 → Memref sig .tc .vmem S1024x2048 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, true]

abbrev stage7_1 : Fin 1 → Memref sig .tc .vmem S8192x64 .bf16 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false, false]

abbrev stage7_2 : Fin 2 → Memref sig .tc .vmem S1024x64 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, false]

abbrev stage7_3 : Fin 1 → Memref sig .tc .vmem S1x64 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false, false]

abbrev stage7_4 : Fin 1 → Memref sig .tc .vmem S1x1 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false, false]

abbrev stage7_5 : Fin 2 → Memref sig .tc .vmem S1024x64 .bf16 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true, false]

abbrev stage7_6 : Fin 2 → Memref sig .tc .vmem S1024x64 .f32 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![true, false]

abbrev grid8 : Pipeline.Grid := ⟨2, ![8, 4], ![false, false]⟩

def k8_mult1 (i : grid8.Coords) : BitVec 32 :=
  let arg1 : BitVec 32 := BitVec.ofNat 32 (i 1).val
  let c2048_i32 : BitVec 32 := 2048#32
  let v3 : BitVec 32 := Scalar.muli arg1 c2048_i32
  v3
def k8_off1 (i : grid8.Coords) : Fin 2 → Nat :=
  let arg1 : BitVec 32 := BitVec.ofNat 32 (i 1).val
  let c2048_i32 : BitVec 32 := 2048#32
  let v3 : BitVec 32 := Scalar.muli arg1 c2048_i32
  let v4 : BitVec 32 := v3
  let v5 : Index := Scalar.indexCast v4
  let c0 : Index := 0#32
  ![v5.toNat, 0]
def k8_cond2 (i : grid8.Coords) : BitVec 1 :=
  let arg1 : BitVec 32 := BitVec.ofNat 32 (i 1).val
  let c3_i32 : BitVec 32 := 3#32
  let v16 : BitVec 1 := Scalar.cmpi .eq arg1 c3_i32
  let v17 : BitVec 32 := Scalar.extui v16
  let c0_i32_7 : BitVec 32 := 0#32
  let v18 : BitVec 1 := Scalar.cmpi .ne v17 c0_i32_7
  v18

def cc8_transform_0 (i : grid8.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc8_transform_1 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc8_transform_3 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc8_transform_6 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage8_0 : Fin 2 → Memref sig .tc .vmem S1024x2048 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true, true]

abbrev stage8_1 : Fin 1 → Memref sig .tc .vmem S8192x64 .bf16 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false, false]

abbrev stage8_2 : Fin 2 → Memref sig .tc .vmem S1024x64 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true, false]

abbrev stage8_3 : Fin 1 → Memref sig .tc .vmem S1x64 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false, false]

abbrev stage8_4 : Fin 1 → Memref sig .tc .vmem S1x1 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false, false]

abbrev stage8_5 : Fin 2 → Memref sig .tc .vmem S1024x64 .bf16 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true, false]

abbrev stage8_6 : Fin 2 → Memref sig .tc .vmem S1024x64 .f32 := fun | 0 => Memref.whole cc8_stg6_0 | 1 => Memref.whole cc8_stg6_1 | ⟨_ + 2, h⟩ => absurd h (Nat.not_lt.2 (Nat.le_add_left _ _))
abbrev sem8_6 : Fin 2 → DmaSem sig := fun | 0 => cc8_sem6_0 | 1 => cc8_sem6_1 | ⟨_ + 2, h⟩ => absurd h (Nat.not_lt.2 (Nat.le_add_left _ _))
abbrev reads8_6 : Fin grid8.rank → Bool := ![true, false]

class Facts₀ : Prop where
  slices_S3_S1_0 : S3.Slices ![0] S1
  shapeCasts_S1_S1x1 : S1.ShapeCasts S1x1
  slices_S3_S1_1 : S3.Slices ![1] S1
  slices_S3_S1_2 : S3.Slices ![2] S1
  shapeCasts_S128_S1x128 : S128.ShapeCasts S1x128
  inb_S2048x512_S2048x512_0_0 : ∀ a, (![0, 0] : Fin 2 → Nat) a + S2048x512.size a ≤ S2048x512.size a
  h_S2048x512 : 0 < S2048x512.numel
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  inb_S2048x128_S2048x128_0_0 : ∀ a, (![0, 0] : Fin 2 → Nat) a + S2048x128.size a ≤ S2048x128.size a
  h_S2048x128 : 0 < S2048x128.numel
  packedbf16_S2048x128_S2048x128_0_0 : (Rect.unit (s := S2048x128) ![0, 0] S2048x128.size inb_S2048x128_S2048x128_0_0).PackedRows (EltTy.packing .bf16)
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2048x128 : S1x1.Broadcasts S2048x128
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1024x2048_S1024x2048_0_0 : ∀ a, (![0, 0] : Fin 2 → Nat) a + S1024x2048.size a ≤ S1024x2048.size a
  h_S1024x2048 : 0 < S1024x2048.numel
  packedbf16_S1024x2048_S1024x2048_0_0 : (Rect.unit (s := S1024x2048) ![0, 0] S1024x2048.size inb_S1024x2048_S1024x2048_0_0).PackedRows (EltTy.packing .bf16)
  shapeCasts_S2048x128_S2048x128 : S2048x128.ShapeCasts S2048x128
  packedbf16_S1024x128_S1024x128_0_0 : (Rect.unit (s := S1024x128) ![0, 0] S1024x128.size inb_S1024x128_S1024x128_0_0).PackedRows (EltTy.packing .bf16)
  broadcasts_S1x1_S1024x128 : S1x1.Broadcasts S1024x128
  shapeCasts_S1024x2048_S1024x2048 : S1024x2048.ShapeCasts S1024x2048
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  inb_S128x128_S128x128_0_0 : ∀ a, (![0, 0] : Fin 2 → Nat) a + S128x128.size a ≤ S128x128.size a
  h_S128x128 : 0 < S128x128.numel
  shapeCasts_S64_S1x64 : S64.ShapeCasts S1x64
  inb_S128x64_S128x64_0_0 : ∀ a, (![0, 0] : Fin 2 → Nat) a + S128x64.size a ≤ S128x64.size a
  h_S128x64 : 0 < S128x64.numel
  inb_S2048x64_S2048x64_0_0 : ∀ a, (![0, 0] : Fin 2 → Nat) a + S2048x64.size a ≤ S2048x64.size a
  h_S2048x64 : 0 < S2048x64.numel
  packedbf16_S2048x64_S2048x64_0_0 : (Rect.unit (s := S2048x64) ![0, 0] S2048x64.size inb_S2048x64_S2048x64_0_0).PackedRows (EltTy.packing .bf16)
  broadcasts_S1x1_S2048x64 : S1x1.Broadcasts S2048x64
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  shapeCasts_S2048x64_S2048x64 : S2048x64.ShapeCasts S2048x64
  packedbf16_S1024x64_S1024x64_0_0 : (Rect.unit (s := S1024x64) ![0, 0] S1024x64.size inb_S1024x64_S1024x64_0_0).PackedRows (EltTy.packing .bf16)
  broadcasts_S1x1_S1024x64 : S1x1.Broadcasts S1024x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1024x64 : S1x64.Broadcasts S1024x64
  dot_S2048x512_S512x128_S2048x128_1_0_0_1_n_n_wf : DotDims.WF S2048x512 S512x128 S2048x128 [1] [0] [0] [1] [] []
  dot_S1024x2048_S2048x128_S1024x128_1_0_0_1_n_n_wf : DotDims.WF S1024x2048 S2048x128 S1024x128 [1] [0] [0] [1] [] []
  dot_S2048x128_S128x128_S2048x128_1_0_0_1_n_n_wf : DotDims.WF S2048x128 S128x128 S2048x128 [1] [0] [0] [1] [] []
  dot_S2048x128_S128x64_S2048x64_1_0_0_1_n_n_wf : DotDims.WF S2048x128 S128x64 S2048x64 [1] [0] [0] [1] [] []
  dot_S1024x2048_S2048x64_S1024x64_1_0_0_1_n_n_wf : DotDims.WF S1024x2048 S2048x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S8192x512.size a
  hwx0_0 : ∀ i : grid0.Coords, EltTy.bits .f32 = 32 ∨ (Rect.block (s := S8192x512) S2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x128.size a ≤ S8192x128.size a
  hwx0_3 : ∀ i : grid0.Coords, EltTy.bits .bf16 = 32 ∨ (Rect.block (s := S8192x128) S2048x128.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x128.size a ≤ S8192x128.size a
  hwx0_4 : ∀ i : grid0.Coords, EltTy.bits .f32 = 32 ∨ (Rect.block (s := S8192x128) S2048x128.size (cc0_transform_4 i) (hinb0_4 i)).WholeWords (EltTy.packing .f32)
  hrank1 : 0 < grid1.rank
  k1_mult1_dvd : ∀ i : grid1.Coords, 2048 ∣ (k1_mult1 i).toNat
  k1_off1_inb : ∀ i : grid1.Coords, ∀ a, (k1_off1 i) a + S2048x128.size a ≤ S8192x128.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S8192x8192.size a
  hwx1_0 : ∀ i : grid1.Coords, EltTy.bits .f32 = 32 ∨ (Rect.block (s := S8192x8192) S1024x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x128.size a ≤ S8192x128.size a
  hwx1_1 : ∀ i : grid1.Coords, EltTy.bits .bf16 = 32 ∨ (Rect.block (s := S8192x128) S8192x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x128.size a ≤ S8192x128.size a
  hwx1_2 : ∀ i : grid1.Coords, EltTy.bits .f32 = 32 ∨ (Rect.block (s := S8192x128) S1024x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1.size a ≤ S1x1.size a
  hwx1_4 : ∀ i : grid1.Coords, EltTy.bits .f32 = 32 ∨ (Rect.block (s := S1x1) S1x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024x2048.size a ≤ S8192x8192.size a
  hwx1_5 : ∀ i : grid1.Coords, EltTy.bits .bf16 = 32 ∨ (Rect.block (s := S8192x8192) S1024x2048.size (cc1_transform_5 i) (hinb1_5 i)).WholeWords (EltTy.packing .bf16)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1024x128.size a ≤ S8192x128.size a
  hwx1_6 : ∀ i : grid1.Coords, EltTy.bits .bf16 = 32 ∨ (Rect.block (s := S8192x128) S1024x128.size (cc1_transform_6 i) (hinb1_6 i)).WholeWords (EltTy.packing .bf16)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1024x128.size a ≤ S8192x128.size a
  hwx1_7 : ∀ i : grid1.Coords, EltTy.bits .f32 = 32 ∨ (Rect.block (s := S8192x128) S1024x128.size (cc1_transform_7 i) (hinb1_7 i)).WholeWords (EltTy.packing .f32)
  hrank2 : 0 < grid2.rank
  k2_mult1_dvd : ∀ i : grid2.Coords, 2048 ∣ (k2_mult1 i).toNat
  k2_off1_inb : ∀ i : grid2.Coords, ∀ a, (k2_off1 i) a + S2048x128.size a ≤ S8192x128.size a
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x2048.size a ≤ S8192x8192.size a
  hwx2_0 : ∀ i : grid2.Coords, EltTy.bits .bf16 = 32 ∨ (Rect.block (s := S8192x8192) S1024x2048.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S8192x128.size a ≤ S8192x128.size a
  hwx2_1 : ∀ i : grid2.Coords, EltTy.bits .bf16 = 32 ∨ (Rect.block (s := S8192x128) S8192x128.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x128.size a ≤ S8192x128.size a
  hwx2_2 : ∀ i : grid2.Coords, EltTy.bits .f32 = 32 ∨ (Rect.block (s := S8192x128) S1024x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x1.size a ≤ S1x1.size a
  hwx2_4 : ∀ i : grid2.Coords, EltTy.bits .f32 = 32 ∨ (Rect.block (s := S1x1) S1x1.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1024x128.size a ≤ S8192x128.size a
  hwx2_5 : ∀ i : grid2.Coords, EltTy.bits .bf16 = 32 ∨ (Rect.block (s := S8192x128) S1024x128.size (cc2_transform_5 i) (hinb2_5 i)).WholeWords (EltTy.packing .bf16)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1024x128.size a ≤ S8192x128.size a
  hwx2_6 : ∀ i : grid2.Coords, EltTy.bits .f32 = 32 ∨ (Rect.block (s := S8192x128) S1024x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048x128.size a ≤ S8192x128.size a
  hwx3_0 : ∀ i : grid3.Coords, EltTy.bits .f32 = 32 ∨ (Rect.block (s := S8192x128) S2048x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x1.size a ≤ S1x1.size a
  hwx3_2 : ∀ i : grid3.Coords, EltTy.bits .f32 = 32 ∨ (Rect.block (s := S1x1) S1x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2048x128.size a ≤ S8192x128.size a
  hwx3_3 : ∀ i : grid3.Coords, EltTy.bits .bf16 = 32 ∨ (Rect.block (s := S8192x128) S2048x128.size (cc3_transform_3 i) (hinb3_3 i)).WholeWords (EltTy.packing .bf16)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2048x128.size a ≤ S8192x128.size a
  hwx3_4 : ∀ i : grid3.Coords, EltTy.bits .f32 = 32 ∨ (Rect.block (s := S8192x128) S2048x128.size (cc3_transform_4 i) (hinb3_4 i)).WholeWords (EltTy.packing .f32)
  hrank4 : 0 < grid4.rank
  k4_mult1_dvd : ∀ i : grid4.Coords, 2048 ∣ (k4_mult1 i).toNat
  k4_off1_inb : ∀ i : grid4.Coords, ∀ a, (k4_off1 i) a + S2048x128.size a ≤ S8192x128.size a
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1024x2048.size a ≤ S8192x8192.size a
  hwx4_0 : ∀ i : grid4.Coords, EltTy.bits .bf16 = 32 ∨ (Rect.block (s := S8192x8192) S1024x2048.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S8192x128.size a ≤ S8192x128.size a
  hwx4_1 : ∀ i : grid4.Coords, EltTy.bits .bf16 = 32 ∨ (Rect.block (s := S8192x128) S8192x128.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1024x128.size a ≤ S8192x128.size a
  hwx4_2 : ∀ i : grid4.Coords, EltTy.bits .f32 = 32 ∨ (Rect.block (s := S8192x128) S1024x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x1.size a ≤ S1x1.size a
  hwx4_4 : ∀ i : grid4.Coords, EltTy.bits .f32 = 32 ∨ (Rect.block (s := S1x1) S1x1.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S1024x128.size a ≤ S8192x128.size a
  hwx4_5 : ∀ i : grid4.Coords, EltTy.bits .bf16 = 32 ∨ (Rect.block (s := S8192x128) S1024x128.size (cc4_transform_5 i) (hinb4_5 i)).WholeWords (EltTy.packing .bf16)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S1024x128.size a ≤ S8192x128.size a
  hwx4_6 : ∀ i : grid4.Coords, EltTy.bits .f32 = 32 ∨ (Rect.block (s := S8192x128) S1024x128.size (cc4_transform_6 i) (hinb4_6 i)).WholeWords (EltTy.packing .f32)
  hrank5 : 0 < grid5.rank
  k5_mult1_dvd : ∀ i : grid5.Coords, 2048 ∣ (k5_mult1 i).toNat
  k5_off1_inb : ∀ i : grid5.Coords, ∀ a, (k5_off1 i) a + S2048x128.size a ≤ S8192x128.size a
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1024x2048.size a ≤ S8192x8192.size a
  hwx5_0 : ∀ i : grid5.Coords, EltTy.bits .bf16 = 32 ∨ (Rect.block (s := S8192x8192) S1024x2048.size (cc5_transform_0 i) (hinb5_0 i)).WholeWords (EltTy.packing .bf16)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S8192x128.size a ≤ S8192x128.size a
  hwx5_1 : ∀ i : grid5.Coords, EltTy.bits .bf16 = 32 ∨ (Rect.block (s := S8192x128) S8192x128.size (cc5_transform_1 i) (hinb5_1 i)).WholeWords (EltTy.packing .bf16)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S1024x128.size a ≤ S8192x128.size a
  hwx5_2 : ∀ i : grid5.Coords, EltTy.bits .f32 = 32 ∨ (Rect.block (s := S8192x128) S1024x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x1.size a ≤ S1x1.size a
  hwx5_4 : ∀ i : grid5.Coords, EltTy.bits .f32 = 32 ∨ (Rect.block (s := S1x1) S1x1.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S1024x128.size a ≤ S8192x128.size a
  hwx5_5 : ∀ i : grid5.Coords, EltTy.bits .bf16 = 32 ∨ (Rect.block (s := S8192x128) S1024x128.size (cc5_transform_5 i) (hinb5_5 i)).WholeWords (EltTy.packing .bf16)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S1024x128.size a ≤ S8192x128.size a
  hwx5_6 : ∀ i : grid5.Coords, EltTy.bits .f32 = 32 ∨ (Rect.block (s := S8192x128) S1024x128.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2048x128.size a ≤ S8192x128.size a
  hwx6_0 : ∀ i : grid6.Coords, EltTy.bits .f32 = 32 ∨ (Rect.block (s := S8192x128) S2048x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x64.size a ≤ S128x64.size a
  hwx6_1 : ∀ i : grid6.Coords, EltTy.bits .f32 = 32 ∨ (Rect.block (s := S128x64) S128x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x1.size a ≤ S1x1.size a
  hwx6_2 : ∀ i : grid6.Coords, EltTy.bits .f32 = 32 ∨ (Rect.block (s := S1x1) S1x1.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S2048x64.size a ≤ S8192x64.size a
  hwx6_3 : ∀ i : grid6.Coords, EltTy.bits .bf16 = 32 ∨ (Rect.block (s := S8192x64) S2048x64.size (cc6_transform_3 i) (hinb6_3 i)).WholeWords (EltTy.packing .bf16)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S2048x64.size a ≤ S8192x64.size a
  hwx6_4 : ∀ i : grid6.Coords, EltTy.bits .f32 = 32 ∨ (Rect.block (s := S8192x64) S2048x64.size (cc6_transform_4 i) (hinb6_4 i)).WholeWords (EltTy.packing .f32)
  hrank7 : 0 < grid7.rank
  k7_mult1_dvd : ∀ i : grid7.Coords, 2048 ∣ (k7_mult1 i).toNat
  k7_off1_inb : ∀ i : grid7.Coords, ∀ a, (k7_off1 i) a + S2048x64.size a ≤ S8192x64.size a
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S1024x2048.size a ≤ S8192x8192.size a
  hwx7_0 : ∀ i : grid7.Coords, EltTy.bits .bf16 = 32 ∨ (Rect.block (s := S8192x8192) S1024x2048.size (cc7_transform_0 i) (hinb7_0 i)).WholeWords (EltTy.packing .bf16)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S8192x64.size a ≤ S8192x64.size a
  hwx7_1 : ∀ i : grid7.Coords, EltTy.bits .bf16 = 32 ∨ (Rect.block (s := S8192x64) S8192x64.size (cc7_transform_1 i) (hinb7_1 i)).WholeWords (EltTy.packing .bf16)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S1024x64.size a ≤ S8192x64.size a
  hwx7_2 : ∀ i : grid7.Coords, EltTy.bits .f32 = 32 ∨ (Rect.block (s := S8192x64) S1024x64.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x64.size a ≤ S1x64.size a
  hwx7_3 : ∀ i : grid7.Coords, EltTy.bits .f32 = 32 ∨ (Rect.block (s := S1x64) S1x64.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x1.size a ≤ S1x1.size a
  hwx7_4 : ∀ i : grid7.Coords, EltTy.bits .f32 = 32 ∨ (Rect.block (s := S1x1) S1x1.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S1024x64.size a ≤ S8192x64.size a
  hwx7_5 : ∀ i : grid7.Coords, EltTy.bits .bf16 = 32 ∨ (Rect.block (s := S8192x64) S1024x64.size (cc7_transform_5 i) (hinb7_5 i)).WholeWords (EltTy.packing .bf16)
  hstage7_6 : ∀ j, (stage7_6 j).IsWhole
  nbuf7_6 : grid7.bufCount reads7_6 false = 2
  hreads7_6 : ∀ i i' : grid7.Coords, (∀ a, reads7_6 a = true → i a = i' a) → cc7_transform_6 i = cc7_transform_6 i'
  hinb7_6 : ∀ (i : grid7.Coords) a, (cc7_transform_6 i a + 1) * S1024x64.size a ≤ S8192x64.size a
  hwx7_6 : ∀ i : grid7.Coords, EltTy.bits .f32 = 32 ∨ (Rect.block (s := S8192x64) S1024x64.size (cc7_transform_6 i) (hinb7_6 i)).WholeWords (EltTy.packing .f32)
  hrank8 : 0 < grid8.rank
  k8_mult1_dvd : ∀ i : grid8.Coords, 2048 ∣ (k8_mult1 i).toNat
  k8_off1_inb : ∀ i : grid8.Coords, ∀ a, (k8_off1 i) a + S2048x64.size a ≤ S8192x64.size a
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S1024x2048.size a ≤ S8192x8192.size a
  hwx8_0 : ∀ i : grid8.Coords, EltTy.bits .bf16 = 32 ∨ (Rect.block (s := S8192x8192) S1024x2048.size (cc8_transform_0 i) (hinb8_0 i)).WholeWords (EltTy.packing .bf16)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S8192x64.size a ≤ S8192x64.size a
  hwx8_1 : ∀ i : grid8.Coords, EltTy.bits .bf16 = 32 ∨ (Rect.block (s := S8192x64) S8192x64.size (cc8_transform_1 i) (hinb8_1 i)).WholeWords (EltTy.packing .bf16)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S1024x64.size a ≤ S8192x64.size a
  hwx8_2 : ∀ i : grid8.Coords, EltTy.bits .f32 = 32 ∨ (Rect.block (s := S8192x64) S1024x64.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x64.size a ≤ S1x64.size a
  hwx8_3 : ∀ i : grid8.Coords, EltTy.bits .f32 = 32 ∨ (Rect.block (s := S1x64) S1x64.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x1.size a ≤ S1x1.size a
  hwx8_4 : ∀ i : grid8.Coords, EltTy.bits .f32 = 32 ∨ (Rect.block (s := S1x1) S1x1.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S1024x64.size a ≤ S8192x64.size a
  hwx8_5 : ∀ i : grid8.Coords, EltTy.bits .bf16 = 32 ∨ (Rect.block (s := S8192x64) S1024x64.size (cc8_transform_5 i) (hinb8_5 i)).WholeWords (EltTy.packing .bf16)
  hstage8_6 : ∀ j, (stage8_6 j).IsWhole
  nbuf8_6 : grid8.bufCount reads8_6 false = 2
  hreads8_6 : ∀ i i' : grid8.Coords, (∀ a, reads8_6 a = true → i a = i' a) → cc8_transform_6 i = cc8_transform_6 i'
  hinb8_6 : ∀ (i : grid8.Coords) a, (cc8_transform_6 i a + 1) * S1024x64.size a ≤ S8192x64.size a
  hwx8_6 : ∀ i : grid8.Coords, EltTy.bits .f32 = 32 ∨ (Rect.block (s := S8192x64) S1024x64.size (cc8_transform_6 i) (hinb8_6 i)).WholeWords (EltTy.packing .f32)

variable [Facts₀]

def dot_S2048x512_S512x128_S2048x128_1_0_0_1_n_n : DotDims S2048x512 S512x128 S2048x128 where
  lhsContracting := [1]
  rhsContracting := [0]
  lhsNonContracting := [0]
  rhsNonContracting := [1]
  lhsBatch := []
  rhsBatch := []
  wf := dot_S2048x512_S512x128_S2048x128_1_0_0_1_n_n_wf
def dot_S1024x2048_S2048x128_S1024x128_1_0_0_1_n_n : DotDims S1024x2048 S2048x128 S1024x128 where
  lhsContracting := [1]
  rhsContracting := [0]
  lhsNonContracting := [0]
  rhsNonContracting := [1]
  lhsBatch := []
  rhsBatch := []
  wf := dot_S1024x2048_S2048x128_S1024x128_1_0_0_1_n_n_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def dot_S2048x128_S128x64_S2048x64_1_0_0_1_n_n : DotDims S2048x128 S128x64 S2048x64 where
  lhsContracting := [1]
  rhsContracting := [0]
  lhsNonContracting := [0]
  rhsNonContracting := [1]
  lhsBatch := []
  rhsBatch := []
  wf := dot_S2048x128_S128x64_S2048x64_1_0_0_1_n_n_wf
def dot_S1024x2048_S2048x64_S1024x64_1_0_0_1_n_n : DotDims S1024x2048 S2048x64 S1024x64 where
  lhsContracting := [1]
  rhsContracting := [0]
  lhsNonContracting := [0]
  rhsNonContracting := [1]
  lhsBatch := []
  rhsBatch := []
  wf := dot_S1024x2048_S2048x64_S1024x64_1_0_0_1_n_n_wf

abbrev win0_0 : Pipeline.Window sig grid0 :=
  Pipeline.Window.ofSpec (Memref.whole main_arg1) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7_0) S2048x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7_1) S2048x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7_0) S8192x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v7_1) S1024x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v6) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v3) S1x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v8_0) S1024x2048.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v8_1) S1024x128.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v8_2) S1024x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev idle1 : Fin 8 → grid1.Coords → Bool := fun | 0 => fun _ => false | 1 => fun _ => false | 2 => fun _ => false | 3 => fun _ => false | 4 => fun _ => false | 5 => fun _ => false | 6 => fun i => !(k1_cond2 i == 1#1) | 7 => fun i => !(k1_cond2 i == 1#1) | ⟨_ + 8, h⟩ => absurd h (Nat.not_lt.2 (Nat.le_add_left _ _))

abbrev win2_0 : Pipeline.Window sig grid2 :=
  Pipeline.Window.ofSpec (Memref.whole main_v8_0) S1024x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v8_1) S8192x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v8_2) S1024x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v6) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v5) S1x1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v9_0) S1024x128.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v9_1) S1024x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev idle2 : Fin 7 → grid2.Coords → Bool := fun | 0 => fun _ => false | 1 => fun _ => false | 2 => fun _ => false | 3 => fun _ => false | 4 => fun _ => false | 5 => fun i => !(k2_cond2 i == 1#1) | 6 => fun i => !(k2_cond2 i == 1#1) | ⟨_ + 7, h⟩ => absurd h (Nat.not_lt.2 (Nat.le_add_left _ _))

abbrev win3_0 : Pipeline.Window sig grid3 :=
  Pipeline.Window.ofSpec (Memref.whole main_v9_1) S2048x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg5) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v11) S1x1.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v17_0) S2048x128.size cc3_transform_3 reads3_3 true false 2 stage3_3 sem3_3
    hrank3 hreads3_3 hinb3_3 nbuf3_3 (Memref.isWhole_whole _) hwx3_3 hstage3_3

abbrev win3_4 : Pipeline.Window sig grid3 :=
  Pipeline.Window.ofSpec (Memref.whole main_v17_1) S2048x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v8_0) S1024x2048.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v17_0) S8192x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v17_1) S1024x128.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v16) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v13) S1x1.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v18_0) S1024x128.size cc4_transform_5 reads4_5 true false 2 stage4_5 sem4_5
    hrank4 hreads4_5 hinb4_5 nbuf4_5 (Memref.isWhole_whole _) hwx4_5 hstage4_5

abbrev win4_6 : Pipeline.Window sig grid4 :=
  Pipeline.Window.ofSpec (Memref.whole main_v18_1) S1024x128.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev idle4 : Fin 7 → grid4.Coords → Bool := fun | 0 => fun _ => false | 1 => fun _ => false | 2 => fun _ => false | 3 => fun _ => false | 4 => fun _ => false | 5 => fun i => !(k4_cond2 i == 1#1) | 6 => fun i => !(k4_cond2 i == 1#1) | ⟨_ + 7, h⟩ => absurd h (Nat.not_lt.2 (Nat.le_add_left _ _))

abbrev win5_0 : Pipeline.Window sig grid5 :=
  Pipeline.Window.ofSpec (Memref.whole main_v8_0) S1024x2048.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v18_0) S8192x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v18_1) S1024x128.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v16) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v15) S1x1.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v19_0) S1024x128.size cc5_transform_5 reads5_5 true false 2 stage5_5 sem5_5
    hrank5 hreads5_5 hinb5_5 nbuf5_5 (Memref.isWhole_whole _) hwx5_5 hstage5_5

abbrev win5_6 : Pipeline.Window sig grid5 :=
  Pipeline.Window.ofSpec (Memref.whole main_v19_1) S1024x128.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev idle5 : Fin 7 → grid5.Coords → Bool := fun | 0 => fun _ => false | 1 => fun _ => false | 2 => fun _ => false | 3 => fun _ => false | 4 => fun _ => false | 5 => fun i => !(k5_cond2 i == 1#1) | 6 => fun i => !(k5_cond2 i == 1#1) | ⟨_ + 7, h⟩ => absurd h (Nat.not_lt.2 (Nat.le_add_left _ _))

abbrev win6_0 : Pipeline.Window sig grid6 :=
  Pipeline.Window.ofSpec (Memref.whole main_v19_1) S2048x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg8) S128x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v21) S1x1.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v27_0) S2048x64.size cc6_transform_3 reads6_3 true false 2 stage6_3 sem6_3
    hrank6 hreads6_3 hinb6_3 nbuf6_3 (Memref.isWhole_whole _) hwx6_3 hstage6_3

abbrev win6_4 : Pipeline.Window sig grid6 :=
  Pipeline.Window.ofSpec (Memref.whole main_v27_1) S2048x64.size cc6_transform_4 reads6_4 true false 2 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

abbrev win7_0 : Pipeline.Window sig grid7 :=
  Pipeline.Window.ofSpec (Memref.whole main_v8_0) S1024x2048.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v27_0) S8192x64.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v27_1) S1024x64.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v26) S1x64.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v23) S1x1.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v28_0) S1024x64.size cc7_transform_5 reads7_5 true false 2 stage7_5 sem7_5
    hrank7 hreads7_5 hinb7_5 nbuf7_5 (Memref.isWhole_whole _) hwx7_5 hstage7_5

abbrev win7_6 : Pipeline.Window sig grid7 :=
  Pipeline.Window.ofSpec (Memref.whole main_v28_1) S1024x64.size cc7_transform_6 reads7_6 true false 2 stage7_6 sem7_6
    hrank7 hreads7_6 hinb7_6 nbuf7_6 (Memref.isWhole_whole _) hwx7_6 hstage7_6

abbrev win7 : Fin 7 → Pipeline.Window sig grid7 := fun | 0 => win7_0 | 1 => win7_1 | 2 => win7_2 | 3 => win7_3 | 4 => win7_4 | 5 => win7_5 | 6 => win7_6 | ⟨_ + 7, h⟩ => absurd h (Nat.not_lt.2 (Nat.le_add_left _ _))
abbrev spec7 : Fin 7 → Pipeline.WinSpec sig grid7.rank := fun w => (win7 w).toWinSpec

abbrev idle7 : Fin 7 → grid7.Coords → Bool := fun | 0 => fun _ => false | 1 => fun _ => false | 2 => fun _ => false | 3 => fun _ => false | 4 => fun _ => false | 5 => fun i => !(k7_cond2 i == 1#1) | 6 => fun i => !(k7_cond2 i == 1#1) | ⟨_ + 7, h⟩ => absurd h (Nat.not_lt.2 (Nat.le_add_left _ _))

abbrev win8_0 : Pipeline.Window sig grid8 :=
  Pipeline.Window.ofSpec (Memref.whole main_v8_0) S1024x2048.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v28_0) S8192x64.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v28_1) S1024x64.size cc8_transform_2 reads8_2 false false 2 stage8_2 sem8_2
    hrank8 hreads8_2 hinb8_2 nbuf8_2 (Memref.isWhole_whole _) hwx8_2 hstage8_2

abbrev win8_3 : Pipeline.Window sig grid8 :=
  Pipeline.Window.ofSpec (Memref.whole main_v26) S1x64.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v25) S1x1.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v29_0) S1024x64.size cc8_transform_5 reads8_5 true false 2 stage8_5 sem8_5
    hrank8 hreads8_5 hinb8_5 nbuf8_5 (Memref.isWhole_whole _) hwx8_5 hstage8_5

abbrev win8_6 : Pipeline.Window sig grid8 :=
  Pipeline.Window.ofSpec (Memref.whole main_v29_1) S1024x64.size cc8_transform_6 reads8_6 true false 2 stage8_6 sem8_6
    hrank8 hreads8_6 hinb8_6 nbuf8_6 (Memref.isWhole_whole _) hwx8_6 hstage8_6

abbrev win8 : Fin 7 → Pipeline.Window sig grid8 := fun | 0 => win8_0 | 1 => win8_1 | 2 => win8_2 | 3 => win8_3 | 4 => win8_4 | 5 => win8_5 | 6 => win8_6 | ⟨_ + 7, h⟩ => absurd h (Nat.not_lt.2 (Nat.le_add_left _ _))
abbrev spec8 : Fin 7 → Pipeline.WinSpec sig grid8.rank := fun w => (win8 w).toWinSpec

abbrev idle8 : Fin 7 → grid8.Coords → Bool := fun | 0 => fun _ => false | 1 => fun _ => false | 2 => fun _ => false | 3 => fun _ => false | 4 => fun _ => false | 5 => fun i => !(k8_cond2 i == 1#1) | 6 => fun i => !(k8_cond2 i == 1#1) | ⟨_ + 7, h⟩ => absurd h (Nat.not_lt.2 (Nat.le_add_left _ _))

class Facts : Prop extends Facts₀ where

variable [Facts]
-- ==== ReferenceIdeal.lean ====
abbrev S8192x8192 : Shape := ⟨2, ![8192, 8192]⟩
abbrev S8192x512 : Shape := ⟨2, ![8192, 512]⟩
abbrev S512x128 : Shape := ⟨2, ![512, 128]⟩
abbrev S3 : Shape := ⟨1, ![3]⟩
abbrev S128 : Shape := ⟨1, ![128]⟩
abbrev S128x128 : Shape := ⟨2, ![128, 128]⟩
abbrev S128x64 : Shape := ⟨2, ![128, 64]⟩
abbrev S64 : Shape := ⟨1, ![64]⟩
abbrev S8192x128 : Shape := ⟨2, ![8192, 128]⟩
abbrev S1 : Shape := ⟨1, ![1]⟩
abbrev S_ : Shape := ⟨0, ![]⟩
abbrev S1x128 : Shape := ⟨2, ![1, 128]⟩
abbrev S8192x64 : Shape := ⟨2, ![8192, 64]⟩
abbrev S1x64 : Shape := ⟨2, ![1, 64]⟩

abbrev nBuf : Space → Nat
  | .hbm => 77
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x512, .f32⟩
  | .hbm, ⟨2, _⟩ => ⟨S512x128, .f32⟩
  | .hbm, ⟨3, _⟩ => ⟨S3, .f32⟩
  | .hbm, ⟨4, _⟩ => ⟨S128, .f32⟩
  | .hbm, ⟨5, _⟩ => ⟨S128x128, .f32⟩
  | .hbm, ⟨6, _⟩ => ⟨S3, .f32⟩
  | .hbm, ⟨7, _⟩ => ⟨S128, .f32⟩
  | .hbm, ⟨8, _⟩ => ⟨S128x64, .f32⟩
  | .hbm, ⟨9, _⟩ => ⟨S3, .f32⟩
  | .hbm, ⟨10, _⟩ => ⟨S64, .f32⟩
  | .hbm, ⟨11, _⟩ => ⟨S8192x128, .f32⟩
  | .hbm, ⟨12, _⟩ => ⟨S1, .f32⟩
  | .hbm, ⟨13, _⟩ => ⟨S_, .f32⟩
  | .hbm, ⟨14, _⟩ => ⟨S8192x128, .f32⟩
  | .hbm, ⟨15, _⟩ => ⟨S8192x128, .f32⟩
  | .hbm, ⟨16, _⟩ => ⟨S8192x128, .f32⟩
  | .hbm, ⟨17, _⟩ => ⟨S1, .f32⟩
  | .hbm, ⟨18, _⟩ => ⟨S_, .f32⟩
  | .hbm, ⟨19, _⟩ => ⟨S8192x128, .f32⟩
  | .hbm, ⟨20, _⟩ => ⟨S8192x128, .f32⟩
  | .hbm, ⟨21, _⟩ => ⟨S8192x128, .f32⟩
  | .hbm, ⟨22, _⟩ => ⟨S8192x128, .f32⟩
  | .hbm, ⟨23, _⟩ => ⟨S1, .f32⟩
  | .hbm, ⟨24, _⟩ => ⟨S_, .f32⟩
  | .hbm, ⟨25, _⟩ => ⟨S8192x128, .f32⟩
  | .hbm, ⟨26, _⟩ => ⟨S8192x128, .f32⟩
  | .hbm, ⟨27, _⟩ => ⟨S8192x128, .f32⟩
  | .hbm, ⟨28, _⟩ => ⟨S1x128, .f32⟩
  | .hbm, ⟨29, _⟩ => ⟨S8192x128, .f32⟩
  | .hbm, ⟨30, _⟩ => ⟨S8192x128, .f32⟩
  | .hbm, ⟨31, _⟩ => ⟨S_, .f32⟩
  | .hbm, ⟨32, _⟩ => ⟨S8192x128, .f32⟩
  | .hbm, ⟨33, _⟩ => ⟨S8192x128, .f32⟩
  | .hbm, ⟨34, _⟩ => ⟨S8192x128, .f32⟩
  | .hbm, ⟨35, _⟩ => ⟨S1, .f32⟩
  | .hbm, ⟨36, _⟩ => ⟨S_, .f32⟩
  | .hbm, ⟨37, _⟩ => ⟨S8192x128, .f32⟩
  | .hbm, ⟨38, _⟩ => ⟨S8192x128, .f32⟩
  | .hbm, ⟨39, _⟩ => ⟨S8192x128, .f32⟩
  | .hbm, ⟨40, _⟩ => ⟨S1, .f32⟩
  | .hbm, ⟨41, _⟩ => ⟨S_, .f32⟩
  | .hbm, ⟨42, _⟩ => ⟨S8192x128, .f32⟩
  | .hbm, ⟨43, _⟩ => ⟨S8192x128, .f32⟩
  | .hbm, ⟨44, _⟩ => ⟨S8192x128, .f32⟩
  | .hbm, ⟨45, _⟩ => ⟨S8192x128, .f32⟩
  | .hbm, ⟨46, _⟩ => ⟨S1, .f32⟩
  | .hbm, ⟨47, _⟩ => ⟨S_, .f32⟩
  | .hbm, ⟨48, _⟩ => ⟨S8192x128, .f32⟩
  | .hbm, ⟨49, _⟩ => ⟨S8192x128, .f32⟩
  | .hbm, ⟨50, _⟩ => ⟨S8192x128, .f32⟩
  | .hbm, ⟨51, _⟩ => ⟨S1x128, .f32⟩
  | .hbm, ⟨52, _⟩ => ⟨S8192x128, .f32⟩
  | .hbm, ⟨53, _⟩ => ⟨S8192x128, .f32⟩
  | .hbm, ⟨54, _⟩ => ⟨S_, .f32⟩
  | .hbm, ⟨55, _⟩ => ⟨S8192x128, .f32⟩
  | .hbm, ⟨56, _⟩ => ⟨S8192x128, .f32⟩
  | .hbm, ⟨57, _⟩ => ⟨S8192x64, .f32⟩
  | .hbm, ⟨58, _⟩ => ⟨S1, .f32⟩
  | .hbm, ⟨59, _⟩ => ⟨S_, .f32⟩
  | .hbm, ⟨60, _⟩ => ⟨S8192x64, .f32⟩
  | .hbm, ⟨61, _⟩ => ⟨S8192x64, .f32⟩
  | .hbm, ⟨62, _⟩ => ⟨S8192x64, .f32⟩
  | .hbm, ⟨63, _⟩ => ⟨S1, .f32⟩
  | .hbm, ⟨64, _⟩ => ⟨S_, .f32⟩
  | .hbm, ⟨65, _⟩ => ⟨S8192x64, .f32⟩
  | .hbm, ⟨66, _⟩ => ⟨S8192x64, .f32⟩
  | .hbm, ⟨67, _⟩ => ⟨S8192x64, .f32⟩
  | .hbm, ⟨68, _⟩ => ⟨S8192x64, .f32⟩
  | .hbm, ⟨69, _⟩ => ⟨S1, .f32⟩
  | .hbm, ⟨70, _⟩ => ⟨S_, .f32⟩
  | .hbm, ⟨71, _⟩ => ⟨S8192x64, .f32⟩
  | .hbm, ⟨72, _⟩ => ⟨S8192x64, .f32⟩
  | .hbm, ⟨73, _⟩ => ⟨S8192x64, .f32⟩
  | .hbm, ⟨74, _⟩ => ⟨S1x64, .f32⟩
  | .hbm, ⟨75, _⟩ => ⟨S8192x64, .f32⟩
  | .hbm, ⟨76, _⟩ => ⟨S8192x64, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_call0_cst : Ref sig .tc := ⟨.hbm, 31, rfl⟩
abbrev main_call0_v0 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_call1_cst : Ref sig .tc := ⟨.hbm, 54, rfl⟩
abbrev main_call1_v0 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩

abbrev nD : Nat := 1
abbrev τ : Topo := Topo.v7x

variable {F : FTy → Type} [FloatOps F]

class Facts₀ : Prop where
  slices_S3_S1_0 : S3.Slices ![0] S1
  shapeCasts_S1_S_ : S1.ShapeCasts S_
  bcast_S_S8192x128 : S_.BroadcastsInDim S8192x128 (![] : Fin 0 → Fin S8192x128.rank)
  slices_S3_S1_1 : S3.Slices ![1] S1
  slices_S3_S1_2 : S3.Slices ![2] S1
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  bcast_S_S8192x64 : S_.BroadcastsInDim S8192x64 (![] : Fin 0 → Fin S8192x64.rank)
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  dot_S8192x512_S512x128_S8192x128_1_0_0_1_n_n_wf : DotDims.WF S8192x512 S512x128 S8192x128 [1] [0] [0] [1] [] []
  dot_S8192x8192_S8192x128_S8192x128_1_0_0_1_n_n_wf : DotDims.WF S8192x8192 S8192x128 S8192x128 [1] [0] [0] [1] [] []
  dot_S8192x128_S128x128_S8192x128_1_0_0_1_n_n_wf : DotDims.WF S8192x128 S128x128 S8192x128 [1] [0] [0] [1] [] []
  dot_S8192x128_S128x64_S8192x64_1_0_0_1_n_n_wf : DotDims.WF S8192x128 S128x64 S8192x64 [1] [0] [0] [1] [] []
  dot_S8192x8192_S8192x64_S8192x64_1_0_0_1_n_n_wf : DotDims.WF S8192x8192 S8192x64 S8192x64 [1] [0] [0] [1] [] []

variable [Facts₀]

def dot_S8192x512_S512x128_S8192x128_1_0_0_1_n_n : DotDims S8192x512 S512x128 S8192x128 where
  lhsContracting := [1]
  rhsContracting := [0]
  lhsNonContracting := [0]
  rhsNonContracting := [1]
  lhsBatch := []
  rhsBatch := []
  wf := dot_S8192x512_S512x128_S8192x128_1_0_0_1_n_n_wf
def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S8192x128_S128x64_S8192x64_1_0_0_1_n_n : DotDims S8192x128 S128x64 S8192x64 where
  lhsContracting := [1]
  rhsContracting := [0]
  lhsNonContracting := [0]
  rhsNonContracting := [1]
  lhsBatch := []
  rhsBatch := []
  wf := dot_S8192x128_S128x64_S8192x64_1_0_0_1_n_n_wf
def dot_S8192x8192_S8192x64_S8192x64_1_0_0_1_n_n : DotDims S8192x8192 S8192x64 S8192x64 where
  lhsContracting := [1]
  rhsContracting := [0]
  lhsNonContracting := [0]
  rhsNonContracting := [1]
  lhsBatch := []
  rhsBatch := []
  wf := dot_S8192x8192_S8192x64_S8192x64_1_0_0_1_n_n_wf

class Facts : Prop extends Facts₀ where

variable [Facts]
-- ==== Proof.K.Cast1Runs.lean ====
/- The casting propagate call (region 1 of @main): what its three control cases share.
   The body has two conditionals on the second grid coordinate k (the column-tile index, 0..3):
   the accumulator is zeroed when k = 0, and the two row-tile outputs are stored when k = 3.
   So a point is in exactly one of three cases: first tile (k = 0), middle tiles (k = 1, 2),
   last tile (k = 3). Everything here is stated at the contents `V` the call is entered with. -/
import proofs.«131271_j4982162063661_2_alg».proof.Proof.Gen.Kernel.Launch
import proofs.«131271_j4982162063661_2_alg».proof.Proof.Gen.Kernel.Skeleton
import proofs.«131271_j4982162063661_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each input window's current staging buffer holds its block at every point, fetched there or not:
    where it is not fetched the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The two branch conditions, in closed form over the 32 grid points -/

/-- The first conditional: the column-tile index is 0. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- The second conditional: the column-tile index is 3, the last. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
/-- Output 6 is stored only at the last column tile: idle, and not written back, in the other two cases. -/
theorem idleAt1_6_A : ∀ t : Fin cfg1.N, cond1_0 (grid1.coords t) → ¬cond1_1 (grid1.coords t) → cfg1.idle 6 (grid1.coords t) = true := by decide +kernel
theorem noFlush1_6_A : ∀ t : Fin cfg1.N, cond1_0 (grid1.coords t) → ¬cond1_1 (grid1.coords t) → (cfg1.win 6).flush t = false := by decide +kernel
theorem idleAt1_6_B : ∀ t : Fin cfg1.N, ¬cond1_0 (grid1.coords t) → ¬cond1_1 (grid1.coords t) → cfg1.idle 6 (grid1.coords t) = true := by decide +kernel
theorem noFlush1_6_B : ∀ t : Fin cfg1.N, ¬cond1_0 (grid1.coords t) → ¬cond1_1 (grid1.coords t) → (cfg1.win 6).flush t = false := by decide +kernel
theorem liveAt1_6_C : ∀ t : Fin cfg1.N, ¬cond1_0 (grid1.coords t) → cond1_1 (grid1.coords t) → cfg1.idle 6 (grid1.coords t) = false := by decide +kernel
/-- Output 7 is stored only at the last column tile: idle, and not written back, in the other two cases. -/
theorem idleAt1_7_A : ∀ t : Fin cfg1.N, cond1_0 (grid1.coords t) → ¬cond1_1 (grid1.coords t) → cfg1.idle 7 (grid1.coords t) = true := by decide +kernel
theorem noFlush1_7_A : ∀ t : Fin cfg1.N, cond1_0 (grid1.coords t) → ¬cond1_1 (grid1.coords t) → (cfg1.win 7).flush t = false := by decide +kernel
theorem idleAt1_7_B : ∀ t : Fin cfg1.N, ¬cond1_0 (grid1.coords t) → ¬cond1_1 (grid1.coords t) → cfg1.idle 7 (grid1.coords t) = true := by decide +kernel
theorem noFlush1_7_B : ∀ t : Fin cfg1.N, ¬cond1_0 (grid1.coords t) → ¬cond1_1 (grid1.coords t) → (cfg1.win 7).flush t = false := by decide +kernel
theorem liveAt1_7_C : ∀ t : Fin cfg1.N, ¬cond1_0 (grid1.coords t) → cond1_1 (grid1.coords t) → cfg1.idle 7 (grid1.coords t) = false := by decide +kernel

/-! ## The staging memrefs the body is called with, and the scratch accumulator -/

abbrev VO1_5 : View sig .tc .vmem S1024x2048 .bf16 := (Memref.whole cc1_stg5_0 : Memref sig .tc .vmem S1024x2048 .bf16).view
abbrev VO1_6 : View sig .tc .vmem S1024x128 .bf16 := (Memref.whole cc1_stg6_0 : Memref sig .tc .vmem S1024x128 .bf16).view
abbrev VO1_7 : View sig .tc .vmem S1024x128 .f32 := (Memref.whole cc1_stg7_0 : Memref sig .tc .vmem S1024x128 .f32).view
abbrev ms1_0 (t : Fin cfg1.N) : Memref sig .tc .vmem S1024x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8192x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1024x2048 .bf16 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1024x128 .bf16 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1024x128 .f32 := win1_7.stage (cfg1.slots t 7)
abbrev hs1_7 (t : Fin cfg1.N) : (ms1_7 t).IsWhole := hstage1_7 ((cfg1.slots t 7).cast nbuf1_7)
/-- The accumulator: a whole scoped buffer of the call's own, carried from one grid point to the next. -/
abbrev scM1_0 : Memref sig .tc .vmem S1024x128 .f32 := Memref.whole cc1_scratch0
abbrev VS1_0 : View sig .tc .vmem S1024x128 .f32 := scM1_0.view

/-- The call's region invariant with the accumulator split out as a memref owned at some contents;
    every other scoped buffer stays unopened. -/
theorem PhiA1_eq (c : Dev nD) :
    (Pipeline.ΦA spec1 c : sProp 𝕄)
      = iprop(iprop(iprop((∃ d, owns (c : Thread nD τ) scM1_0 fullShare d))
          ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1_0, owns_whole]; try rfl

end Cert.Kernel.Hand

end
-- ==== Proof.K.Cast1RunA.lean ====
/- The body of the casting propagate call run whole at the first column tile (k = 0): the accumulator is zeroed, then receives the first partial product; the two row-tile outputs are not stored.
   At every point the tile of S is read, rounded to the narrow format and stored to the third output.
   The run is a triple over whole staging memrefs; the pieces each stored buffer ends with are found by the run. -/
import proofs.«131271_j4982162063661_2_alg».proof.Proof.K.Cast1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
noncomputable def kernelRun1_A (c : Dev nD) (i : grid1.Coords) (arg2 : Memref sig .tc .vmem S1024x2048 .f32) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1024x2048 .bf16) (harg7 : arg7.IsWhole) (arg8 : Memref sig .tc .vmem S1024x128 .bf16) (harg8 : arg8.IsWhole) (arg9 : Memref sig .tc .vmem S1024x128 .f32) (harg9 : arg9.IsWhole) (arg10 : Memref sig .tc .vmem S1024x128 .f32) (harg10 : arg10.IsWhole) (hc0 : cond1_0 i) (hc1 : ¬cond1_1 i)
    (x0 : Vec F S1024x2048 .f32) (x1 : Vec F S8192x128 .bf16) :
    Σ' (L5 : List (View.Piece (Elt F) S1024x2048 .bf16)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ (∃ d, owns (c : Thread nD τ) arg7 fullShare d) ∗ (∃ d, owns (c : Thread nD τ) arg10 fullShare d)
            ∗ (iprop(owns (c : Thread nD τ) arg2 fullShare x0 ∗ owns (c : Thread nD τ) arg3 fullShare x1 ∗ (∃ f, arg7.view.loc (c : Thread nD τ) ↦[arg7.view.set]{fullShare} arg7.view.writes (Elt F) f L5) ∗ (∃ f, arg10.view.loc (c : Thread nD τ) ↦[arg10.view.set]{fullShare} arg10.view.writes (Elt F) f LS0)) -∗ K ⟨⟩))
          ⊢ wp frame (wpE (defs₀ (F := F)) Variants.none c none) E (cc1__propagate_kernel_cast i arg2 harg2 arg3 harg3 arg4 harg4 arg5 harg5 arg6 harg6 arg7 harg7 arg8 harg8 arg9 harg9 arg10 harg10) K } := by
  refine ⟨?_, ?_, fun E K => ?run⟩
  case run =>
    simp only [cc1__propagate_kernel_cast_eq_skeleton]; unfold cc1__propagate_kernel_cast_skel
    unfold owns
    iintro ⟨⟨%f0, %hf0, H0⟩, ⟨%f1, %hf1, H1⟩, ⟨%d5, %f5, -, H5⟩, ⟨%ds0, %fs0, -, HS0⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H5]; · iexists _; iexact H5
    iexists _; iexact HS0

end Cert.Kernel.Hand

end
-- ==== Proof.K.Cast1RunB.lean ====
/- The body of the casting propagate call run whole at a middle column tile (k = 1, 2): the accumulator, holding what the point before left, receives the next partial product; the two row-tile outputs are not stored.
   At every point the tile of S is read, rounded to the narrow format and stored to the third output.
   The run is a triple over whole staging memrefs; the pieces each stored buffer ends with are found by the run. -/
import proofs.«131271_j4982162063661_2_alg».proof.Proof.K.Cast1RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
noncomputable def kernelRun1_B (c : Dev nD) (i : grid1.Coords) (arg2 : Memref sig .tc .vmem S1024x2048 .f32) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1024x2048 .bf16) (harg7 : arg7.IsWhole) (arg8 : Memref sig .tc .vmem S1024x128 .bf16) (harg8 : arg8.IsWhole) (arg9 : Memref sig .tc .vmem S1024x128 .f32) (harg9 : arg9.IsWhole) (arg10 : Memref sig .tc .vmem S1024x128 .f32) (harg10 : arg10.IsWhole) (hc0 : ¬cond1_0 i) (hc1 : ¬cond1_1 i)
    (x0 : Vec F S1024x2048 .f32) (x1 : Vec F S8192x128 .bf16) (xs0 : Vec F S1024x128 .f32) :
    Σ' (L5 : List (View.Piece (Elt F) S1024x2048 .bf16)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ (∃ d, owns (c : Thread nD τ) arg7 fullShare d) ∗ owns (c : Thread nD τ) arg10 fullShare xs0
            ∗ (iprop(owns (c : Thread nD τ) arg2 fullShare x0 ∗ owns (c : Thread nD τ) arg3 fullShare x1 ∗ (∃ f, arg7.view.loc (c : Thread nD τ) ↦[arg7.view.set]{fullShare} arg7.view.writes (Elt F) f L5) ∗ (∃ f, arg10.view.loc (c : Thread nD τ) ↦[arg10.view.set]{fullShare} arg10.view.writes (Elt F) f LS0)) -∗ K ⟨⟩))
          ⊢ wp frame (wpE (defs₀ (F := F)) Variants.none c none) E (cc1__propagate_kernel_cast i arg2 harg2 arg3 harg3 arg4 harg4 arg5 harg5 arg6 harg6 arg7 harg7 arg8 harg8 arg9 harg9 arg10 harg10) K } := by
  refine ⟨?_, ?_, fun E K => ?run⟩
  case run =>
    simp only [cc1__propagate_kernel_cast_eq_skeleton]; unfold cc1__propagate_kernel_cast_skel
    unfold owns
    iintro ⟨⟨%f0, %hf0, H0⟩, ⟨%f1, %hf1, H1⟩, ⟨%d5, %f5, -, H5⟩, ⟨%fs0, %hfs0, HS0⟩, Hk⟩
    obtain rfl := harg2.eq_unread hf0; obtain rfl := harg3.eq_unread hf1; obtain rfl := harg10.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H5]; · iexists _; iexact H5
    iexists _; iexact HS0

end Cert.Kernel.Hand

end
-- ==== Proof.K.Cast1RunC.lean ====
/- The body of the casting propagate call run whole at the last column tile (k = 3): the accumulator receives the last partial product and the two row-tile outputs are stored from it.
   At every point the tile of S is read, rounded to the narrow format and stored to the third output.
   The run is a triple over whole staging memrefs; the pieces each stored buffer ends with are found by the run. -/
import proofs.«131271_j4982162063661_2_alg».proof.Proof.K.Cast1RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
noncomputable def kernelRun1_C (c : Dev nD) (i : grid1.Coords) (arg2 : Memref sig .tc .vmem S1024x2048 .f32) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1024x2048 .bf16) (harg7 : arg7.IsWhole) (arg8 : Memref sig .tc .vmem S1024x128 .bf16) (harg8 : arg8.IsWhole) (arg9 : Memref sig .tc .vmem S1024x128 .f32) (harg9 : arg9.IsWhole) (arg10 : Memref sig .tc .vmem S1024x128 .f32) (harg10 : arg10.IsWhole) (hc0 : ¬cond1_0 i) (hc1 : cond1_1 i)
    (x0 : Vec F S1024x2048 .f32) (x1 : Vec F S8192x128 .bf16) (x2 : Vec F S1024x128 .f32) (x4 : Vec F S1x1 .f32) (xs0 : Vec F S1024x128 .f32) :
    Σ' (L5 : List (View.Piece (Elt F) S1024x2048 .bf16)) (L6 : List (View.Piece (Elt F) S1024x128 .bf16)) (L7 : List (View.Piece (Elt F) S1024x128 .f32)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs0
            ∗ (iprop(owns (c : Thread nD τ) arg2 fullShare x0 ∗ owns (c : Thread nD τ) arg3 fullShare x1 ∗ owns (c : Thread nD τ) arg4 fullShare x2 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0)) -∗ K ⟨⟩))
          ⊢ wp frame (wpE (defs₀ (F := F)) Variants.none c none) E (cc1__propagate_kernel_cast i arg2 harg2 arg3 harg3 arg4 harg4 arg5 harg5 arg6 harg6 arg7 harg7 arg8 harg8 arg9 harg9 arg10 harg10) K } := by
  refine ⟨?_, ?_, ?_, ?_, fun E K => ?run⟩
  case run =>
    simp only [cc1__propagate_kernel_cast_eq_skeleton]; unfold cc1__propagate_kernel_cast_skel
    unfold owns
    iintro ⟨⟨%f0, %hf0, H0⟩, ⟨%f1, %hf1, H1⟩, ⟨%f2, %hf2, H2⟩, ⟨%f4, %hf4, H4⟩, ⟨%d5, %f5, -, H5⟩, ⟨%d6, %f6, -, H6⟩, ⟨%d7, %f7, -, H7⟩, ⟨%fs0, %hfs0, HS0⟩, Hk⟩
    obtain rfl := harg2.eq_unread hf0; obtain rfl := harg3.eq_unread hf1; obtain rfl := harg4.eq_unread hf2; obtain rfl := harg6.eq_unread hf4; obtain rfl := harg10.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H4]
    · iexists _; isplitr; · ipureintro; exact harg6.read_unread _
      iexact H4
    isplitl [H5]; · iexists _; iexact H5
    isplitl [H6]; · iexists _; iexact H6
    isplitl [H7]; · iexists _; iexact H7
    iexists _; iexact HS0

end Cert.Kernel.Hand

end
-- ==== Proof.K.Cast1Dat.lean ====
/- The casting propagate call: what its buffers hold point by point, and the proof data of its pipeline.
   The accumulator is carried along the four column tiles of a row tile: zeroed and filled at the first,
   added to at the middle two, added to and read out at the last. The bf16 copy of the S tile is stored at
   every point; the two row-tile outputs only at the last column tile. -/
import proofs.«131271_j4982162063661_2_alg».proof.Proof.K.Cast1RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- Case A: the pieces stored into output 5 tile its block, so they cover it. -/
theorem cover1_A_5 (c : Dev nD) (i : grid1.Coords) (arg2 : Memref sig .tc .vmem S1024x2048 .f32) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1024x2048 .bf16) (harg7 : arg7.IsWhole) (arg8 : Memref sig .tc .vmem S1024x128 .bf16) (harg8 : arg8.IsWhole) (arg9 : Memref sig .tc .vmem S1024x128 .f32) (harg9 : arg9.IsWhole) (arg10 : Memref sig .tc .vmem S1024x128 .f32) (harg10 : arg10.IsWhole) (hc0 : cond1_0 i) (hc1 : ¬cond1_1 i)
    (x0 : Vec F S1024x2048 .f32) (x1 : Vec F S8192x128 .bf16) (y : S1024x2048.Idx) :
    ∃ pc ∈ (kernelRun1_A c i arg2 harg2 arg3 harg3 arg4 harg4 arg5 harg5 arg6 harg6 arg7 harg7 arg8 harg8 arg9 harg9 arg10 harg10 hc0 hc1 x0 x1).1, y ∈ pc.1.set :=
  View.cover_of_tiledL (kernelRun1_A c i arg2 harg2 arg3 harg3 arg4 harg4 arg5 harg5 arg6 harg6 arg7 harg7 arg8 harg8 arg9 harg9 arg10 harg10 hc0 hc1 x0 x1).1 S1024x2048.size (by sl_kernel_rfl) y

/-- What case A leaves in output 5's staging buffer: its pieces read back. -/
def out1_A_5 (c : Dev nD) (i : grid1.Coords) (arg2 : Memref sig .tc .vmem S1024x2048 .f32) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1024x2048 .bf16) (harg7 : arg7.IsWhole) (arg8 : Memref sig .tc .vmem S1024x128 .bf16) (harg8 : arg8.IsWhole) (arg9 : Memref sig .tc .vmem S1024x128 .f32) (harg9 : arg9.IsWhole) (arg10 : Memref sig .tc .vmem S1024x128 .f32) (harg10 : arg10.IsWhole) (hc0 : cond1_0 i) (hc1 : ¬cond1_1 i)
    (x0 : Vec F S1024x2048 .f32) (x1 : Vec F S8192x128 .bf16) : Vec F S1024x2048 .bf16 :=
  VO1_5.read (Elt F) (VO1_5.writes (Elt F) VO1_5.junk (kernelRun1_A c i arg2 harg2 arg3 harg3 arg4 harg4 arg5 harg5 arg6 harg6 arg7 harg7 arg8 harg8 arg9 harg9 arg10 harg10 hc0 hc1 x0 x1).1)

/-- Case A: the pieces stored into the accumulator cover it. -/
theorem scover1_A_0 (c : Dev nD) (i : grid1.Coords) (arg2 : Memref sig .tc .vmem S1024x2048 .f32) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1024x2048 .bf16) (harg7 : arg7.IsWhole) (arg8 : Memref sig .tc .vmem S1024x128 .bf16) (harg8 : arg8.IsWhole) (arg9 : Memref sig .tc .vmem S1024x128 .f32) (harg9 : arg9.IsWhole) (arg10 : Memref sig .tc .vmem S1024x128 .f32) (harg10 : arg10.IsWhole) (hc0 : cond1_0 i) (hc1 : ¬cond1_1 i)
    (x0 : Vec F S1024x2048 .f32) (x1 : Vec F S8192x128 .bf16) (y : S1024x128.Idx) :
    ∃ pc ∈ (kernelRun1_A c i arg2 harg2 arg3 harg3 arg4 harg4 arg5 harg5 arg6 harg6 arg7 harg7 arg8 harg8 arg9 harg9 arg10 harg10 hc0 hc1 x0 x1).2.1, y ∈ pc.1.set :=
  View.cover_of_tiledL (kernelRun1_A c i arg2 harg2 arg3 harg3 arg4 harg4 arg5 harg5 arg6 harg6 arg7 harg7 arg8 harg8 arg9 harg9 arg10 harg10 hc0 hc1 x0 x1).2.1 S1024x128.size (by sl_kernel_rfl) y

/-- What case A leaves in the accumulator. -/
def sout1_A_0 (c : Dev nD) (i : grid1.Coords) (arg2 : Memref sig .tc .vmem S1024x2048 .f32) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1024x2048 .bf16) (harg7 : arg7.IsWhole) (arg8 : Memref sig .tc .vmem S1024x128 .bf16) (harg8 : arg8.IsWhole) (arg9 : Memref sig .tc .vmem S1024x128 .f32) (harg9 : arg9.IsWhole) (arg10 : Memref sig .tc .vmem S1024x128 .f32) (harg10 : arg10.IsWhole) (hc0 : cond1_0 i) (hc1 : ¬cond1_1 i)
    (x0 : Vec F S1024x2048 .f32) (x1 : Vec F S8192x128 .bf16) : Vec F S1024x128 .f32 :=
  VS1_0.read (Elt F) (VS1_0.writes (Elt F) VS1_0.junk (kernelRun1_A c i arg2 harg2 arg3 harg3 arg4 harg4 arg5 harg5 arg6 harg6 arg7 harg7 arg8 harg8 arg9 harg9 arg10 harg10 hc0 hc1 x0 x1).2.1)

/-- Case B: the pieces stored into output 5 tile its block, so they cover it. -/
theorem cover1_B_5 (c : Dev nD) (i : grid1.Coords) (arg2 : Memref sig .tc .vmem S1024x2048 .f32) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1024x2048 .bf16) (harg7 : arg7.IsWhole) (arg8 : Memref sig .tc .vmem S1024x128 .bf16) (harg8 : arg8.IsWhole) (arg9 : Memref sig .tc .vmem S1024x128 .f32) (harg9 : arg9.IsWhole) (arg10 : Memref sig .tc .vmem S1024x128 .f32) (harg10 : arg10.IsWhole) (hc0 : ¬cond1_0 i) (hc1 : ¬cond1_1 i)
    (x0 : Vec F S1024x2048 .f32) (x1 : Vec F S8192x128 .bf16) (xs0 : Vec F S1024x128 .f32) (y : S1024x2048.Idx) :
    ∃ pc ∈ (kernelRun1_B c i arg2 harg2 arg3 harg3 arg4 harg4 arg5 harg5 arg6 harg6 arg7 harg7 arg8 harg8 arg9 harg9 arg10 harg10 hc0 hc1 x0 x1 xs0).1, y ∈ pc.1.set :=
  View.cover_of_tiledL (kernelRun1_B c i arg2 harg2 arg3 harg3 arg4 harg4 arg5 harg5 arg6 harg6 arg7 harg7 arg8 harg8 arg9 harg9 arg10 harg10 hc0 hc1 x0 x1 xs0).1 S1024x2048.size (by sl_kernel_rfl) y

/-- What case B leaves in output 5's staging buffer: its pieces read back. -/
def out1_B_5 (c : Dev nD) (i : grid1.Coords) (arg2 : Memref sig .tc .vmem S1024x2048 .f32) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1024x2048 .bf16) (harg7 : arg7.IsWhole) (arg8 : Memref sig .tc .vmem S1024x128 .bf16) (harg8 : arg8.IsWhole) (arg9 : Memref sig .tc .vmem S1024x128 .f32) (harg9 : arg9.IsWhole) (arg10 : Memref sig .tc .vmem S1024x128 .f32) (harg10 : arg10.IsWhole) (hc0 : ¬cond1_0 i) (hc1 : ¬cond1_1 i)
    (x0 : Vec F S1024x2048 .f32) (x1 : Vec F S8192x128 .bf16) (xs0 : Vec F S1024x128 .f32) : Vec F S1024x2048 .bf16 :=
  VO1_5.read (Elt F) (VO1_5.writes (Elt F) VO1_5.junk (kernelRun1_B c i arg2 harg2 arg3 harg3 arg4 harg4 arg5 harg5 arg6 harg6 arg7 harg7 arg8 harg8 arg9 harg9 arg10 harg10 hc0 hc1 x0 x1 xs0).1)

/-- Case B: the pieces stored into the accumulator cover it. -/
theorem scover1_B_0 (c : Dev nD) (i : grid1.Coords) (arg2 : Memref sig .tc .vmem S1024x2048 .f32) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1024x2048 .bf16) (harg7 : arg7.IsWhole) (arg8 : Memref sig .tc .vmem S1024x128 .bf16) (harg8 : arg8.IsWhole) (arg9 : Memref sig .tc .vmem S1024x128 .f32) (harg9 : arg9.IsWhole) (arg10 : Memref sig .tc .vmem S1024x128 .f32) (harg10 : arg10.IsWhole) (hc0 : ¬cond1_0 i) (hc1 : ¬cond1_1 i)
    (x0 : Vec F S1024x2048 .f32) (x1 : Vec F S8192x128 .bf16) (xs0 : Vec F S1024x128 .f32) (y : S1024x128.Idx) :
    ∃ pc ∈ (kernelRun1_B c i arg2 harg2 arg3 harg3 arg4 harg4 arg5 harg5 arg6 harg6 arg7 harg7 arg8 harg8 arg9 harg9 arg10 harg10 hc0 hc1 x0 x1 xs0).2.1, y ∈ pc.1.set :=
  View.cover_of_tiledL (kernelRun1_B c i arg2 harg2 arg3 harg3 arg4 harg4 arg5 harg5 arg6 harg6 arg7 harg7 arg8 harg8 arg9 harg9 arg10 harg10 hc0 hc1 x0 x1 xs0).2.1 S1024x128.size (by sl_kernel_rfl) y

/-- What case B leaves in the accumulator. -/
def sout1_B_0 (c : Dev nD) (i : grid1.Coords) (arg2 : Memref sig .tc .vmem S1024x2048 .f32) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1024x2048 .bf16) (harg7 : arg7.IsWhole) (arg8 : Memref sig .tc .vmem S1024x128 .bf16) (harg8 : arg8.IsWhole) (arg9 : Memref sig .tc .vmem S1024x128 .f32) (harg9 : arg9.IsWhole) (arg10 : Memref sig .tc .vmem S1024x128 .f32) (harg10 : arg10.IsWhole) (hc0 : ¬cond1_0 i) (hc1 : ¬cond1_1 i)
    (x0 : Vec F S1024x2048 .f32) (x1 : Vec F S8192x128 .bf16) (xs0 : Vec F S1024x128 .f32) : Vec F S1024x128 .f32 :=
  VS1_0.read (Elt F) (VS1_0.writes (Elt F) VS1_0.junk (kernelRun1_B c i arg2 harg2 arg3 harg3 arg4 harg4 arg5 harg5 arg6 harg6 arg7 harg7 arg8 harg8 arg9 harg9 arg10 harg10 hc0 hc1 x0 x1 xs0).2.1)

/-- Case C: the pieces stored into output 5 tile its block, so they cover it. -/
theorem cover1_C_5 (c : Dev nD) (i : grid1.Coords) (arg2 : Memref sig .tc .vmem S1024x2048 .f32) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1024x2048 .bf16) (harg7 : arg7.IsWhole) (arg8 : Memref sig .tc .vmem S1024x128 .bf16) (harg8 : arg8.IsWhole) (arg9 : Memref sig .tc .vmem S1024x128 .f32) (harg9 : arg9.IsWhole) (arg10 : Memref sig .tc .vmem S1024x128 .f32) (harg10 : arg10.IsWhole) (hc0 : ¬cond1_0 i) (hc1 : cond1_1 i)
    (x0 : Vec F S1024x2048 .f32) (x1 : Vec F S8192x128 .bf16) (x2 : Vec F S1024x128 .f32) (x4 : Vec F S1x1 .f32) (xs0 : Vec F S1024x128 .f32) (y : S1024x2048.Idx) :
    ∃ pc ∈ (kernelRun1_C c i arg2 harg2 arg3 harg3 arg4 harg4 arg5 harg5 arg6 harg6 arg7 harg7 arg8 harg8 arg9 harg9 arg10 harg10 hc0 hc1 x0 x1 x2 x4 xs0).1, y ∈ pc.1.set :=
  View.cover_of_tiledL (kernelRun1_C c i arg2 harg2 arg3 harg3 arg4 harg4 arg5 harg5 arg6 harg6 arg7 harg7 arg8 harg8 arg9 harg9 arg10 harg10 hc0 hc1 x0 x1 x2 x4 xs0).1 S1024x2048.size (by sl_kernel_rfl) y

/-- What case C leaves in output 5's staging buffer: its pieces read back. -/
def out1_C_5 (c : Dev nD) (i : grid1.Coords) (arg2 : Memref sig .tc .vmem S1024x2048 .f32) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1024x2048 .bf16) (harg7 : arg7.IsWhole) (arg8 : Memref sig .tc .vmem S1024x128 .bf16) (harg8 : arg8.IsWhole) (arg9 : Memref sig .tc .vmem S1024x128 .f32) (harg9 : arg9.IsWhole) (arg10 : Memref sig .tc .vmem S1024x128 .f32) (harg10 : arg10.IsWhole) (hc0 : ¬cond1_0 i) (hc1 : cond1_1 i)
    (x0 : Vec F S1024x2048 .f32) (x1 : Vec F S8192x128 .bf16) (x2 : Vec F S1024x128 .f32) (x4 : Vec F S1x1 .f32) (xs0 : Vec F S1024x128 .f32) : Vec F S1024x2048 .bf16 :=
  VO1_5.read (Elt F) (VO1_5.writes (Elt F) VO1_5.junk (kernelRun1_C c i arg2 harg2 arg3 harg3 arg4 harg4 arg5 harg5 arg6 harg6 arg7 harg7 arg8 harg8 arg9 harg9 arg10 harg10 hc0 hc1 x0 x1 x2 x4 xs0).1)

/-- Case C: the pieces stored into output 6 tile its block, so they cover it. -/
theorem cover1_C_6 (c : Dev nD) (i : grid1.Coords) (arg2 : Memref sig .tc .vmem S1024x2048 .f32) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1024x2048 .bf16) (harg7 : arg7.IsWhole) (arg8 : Memref sig .tc .vmem S1024x128 .bf16) (harg8 : arg8.IsWhole) (arg9 : Memref sig .tc .vmem S1024x128 .f32) (harg9 : arg9.IsWhole) (arg10 : Memref sig .tc .vmem S1024x128 .f32) (harg10 : arg10.IsWhole) (hc0 : ¬cond1_0 i) (hc1 : cond1_1 i)
    (x0 : Vec F S1024x2048 .f32) (x1 : Vec F S8192x128 .bf16) (x2 : Vec F S1024x128 .f32) (x4 : Vec F S1x1 .f32) (xs0 : Vec F S1024x128 .f32) (y : S1024x128.Idx) :
    ∃ pc ∈ (kernelRun1_C c i arg2 harg2 arg3 harg3 arg4 harg4 arg5 harg5 arg6 harg6 arg7 harg7 arg8 harg8 arg9 harg9 arg10 harg10 hc0 hc1 x0 x1 x2 x4 xs0).2.1, y ∈ pc.1.set :=
  View.cover_of_tiledL (kernelRun1_C c i arg2 harg2 arg3 harg3 arg4 harg4 arg5 harg5 arg6 harg6 arg7 harg7 arg8 harg8 arg9 harg9 arg10 harg10 hc0 hc1 x0 x1 x2 x4 xs0).2.1 S1024x128.size (by sl_kernel_rfl) y

/-- What case C leaves in output 6's staging buffer: its pieces read back. -/
def out1_C_6 (c : Dev nD) (i : grid1.Coords) (arg2 : Memref sig .tc .vmem S1024x2048 .f32) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1024x2048 .bf16) (harg7 : arg7.IsWhole) (arg8 : Memref sig .tc .vmem S1024x128 .bf16) (harg8 : arg8.IsWhole) (arg9 : Memref sig .tc .vmem S1024x128 .f32) (harg9 : arg9.IsWhole) (arg10 : Memref sig .tc .vmem S1024x128 .f32) (harg10 : arg10.IsWhole) (hc0 : ¬cond1_0 i) (hc1 : cond1_1 i)
    (x0 : Vec F S1024x2048 .f32) (x1 : Vec F S8192x128 .bf16) (x2 : Vec F S1024x128 .f32) (x4 : Vec F S1x1 .f32) (xs0 : Vec F S1024x128 .f32) : Vec F S1024x128 .bf16 :=
  VO1_6.read (Elt F) (VO1_6.writes (Elt F) VO1_6.junk (kernelRun1_C c i arg2 harg2 arg3 harg3 arg4 harg4 arg5 harg5 arg6 harg6 arg7 harg7 arg8 harg8 arg9 harg9 arg10 harg10 hc0 hc1 x0 x1 x2 x4 xs0).2.1)

/-- Case C: the pieces stored into output 7 tile its block, so they cover it. -/
theorem cover1_C_7 (c : Dev nD) (i : grid1.Coords) (arg2 : Memref sig .tc .vmem S1024x2048 .f32) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1024x2048 .bf16) (harg7 : arg7.IsWhole) (arg8 : Memref sig .tc .vmem S1024x128 .bf16) (harg8 : arg8.IsWhole) (arg9 : Memref sig .tc .vmem S1024x128 .f32) (harg9 : arg9.IsWhole) (arg10 : Memref sig .tc .vmem S1024x128 .f32) (harg10 : arg10.IsWhole) (hc0 : ¬cond1_0 i) (hc1 : cond1_1 i)
    (x0 : Vec F S1024x2048 .f32) (x1 : Vec F S8192x128 .bf16) (x2 : Vec F S1024x128 .f32) (x4 : Vec F S1x1 .f32) (xs0 : Vec F S1024x128 .f32) (y : S1024x128.Idx) :
    ∃ pc ∈ (kernelRun1_C c i arg2 harg2 arg3 harg3 arg4 harg4 arg5 harg5 arg6 harg6 arg7 harg7 arg8 harg8 arg9 harg9 arg10 harg10 hc0 hc1 x0 x1 x2 x4 xs0).2.2.1, y ∈ pc.1.set :=
  View.cover_of_tiledL (kernelRun1_C c i arg2 harg2 arg3 harg3 arg4 harg4 arg5 harg5 arg6 harg6 arg7 harg7 arg8 harg8 arg9 harg9 arg10 harg10 hc0 hc1 x0 x1 x2 x4 xs0).2.2.1 S1024x128.size (by sl_kernel_rfl) y

/-- What case C leaves in output 7's staging buffer: its pieces read back. -/
def out1_C_7 (c : Dev nD) (i : grid1.Coords) (arg2 : Memref sig .tc .vmem S1024x2048 .f32) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1024x2048 .bf16) (harg7 : arg7.IsWhole) (arg8 : Memref sig .tc .vmem S1024x128 .bf16) (harg8 : arg8.IsWhole) (arg9 : Memref sig .tc .vmem S1024x128 .f32) (harg9 : arg9.IsWhole) (arg10 : Memref sig .tc .vmem S1024x128 .f32) (harg10 : arg10.IsWhole) (hc0 : ¬cond1_0 i) (hc1 : cond1_1 i)
    (x0 : Vec F S1024x2048 .f32) (x1 : Vec F S8192x128 .bf16) (x2 : Vec F S1024x128 .f32) (x4 : Vec F S1x1 .f32) (xs0 : Vec F S1024x128 .f32) : Vec F S1024x128 .f32 :=
  VO1_7.read (Elt F) (VO1_7.writes (Elt F) VO1_7.junk (kernelRun1_C c i arg2 harg2 arg3 harg3 arg4 harg4 arg5 harg5 arg6 harg6 arg7 harg7 arg8 harg8 arg9 harg9 arg10 harg10 hc0 hc1 x0 x1 x2 x4 xs0).2.2.1)

/-- Case C: the pieces stored into the accumulator cover it. -/
theorem scover1_C_0 (c : Dev nD) (i : grid1.Coords) (arg2 : Memref sig .tc .vmem S1024x2048 .f32) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1024x2048 .bf16) (harg7 : arg7.IsWhole) (arg8 : Memref sig .tc .vmem S1024x128 .bf16) (harg8 : arg8.IsWhole) (arg9 : Memref sig .tc .vmem S1024x128 .f32) (harg9 : arg9.IsWhole) (arg10 : Memref sig .tc .vmem S1024x128 .f32) (harg10 : arg10.IsWhole) (hc0 : ¬cond1_0 i) (hc1 : cond1_1 i)
    (x0 : Vec F S1024x2048 .f32) (x1 : Vec F S8192x128 .bf16) (x2 : Vec F S1024x128 .f32) (x4 : Vec F S1x1 .f32) (xs0 : Vec F S1024x128 .f32) (y : S1024x128.Idx) :
    ∃ pc ∈ (kernelRun1_C c i arg2 harg2 arg3 harg3 arg4 harg4 arg5 harg5 arg6 harg6 arg7 harg7 arg8 harg8 arg9 harg9 arg10 harg10 hc0 hc1 x0 x1 x2 x4 xs0).2.2.2.1, y ∈ pc.1.set :=
  View.cover_of_tiledL (kernelRun1_C c i arg2 harg2 arg3 harg3 arg4 harg4 arg5 harg5 arg6 harg6 arg7 harg7 arg8 harg8 arg9 harg9 arg10 harg10 hc0 hc1 x0 x1 x2 x4 xs0).2.2.2.1 S1024x128.size (by sl_kernel_rfl) y

/-- What case C leaves in the accumulator. -/
def sout1_C_0 (c : Dev nD) (i : grid1.Coords) (arg2 : Memref sig .tc .vmem S1024x2048 .f32) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1024x2048 .bf16) (harg7 : arg7.IsWhole) (arg8 : Memref sig .tc .vmem S1024x128 .bf16) (harg8 : arg8.IsWhole) (arg9 : Memref sig .tc .vmem S1024x128 .f32) (harg9 : arg9.IsWhole) (arg10 : Memref sig .tc .vmem S1024x128 .f32) (harg10 : arg10.IsWhole) (hc0 : ¬cond1_0 i) (hc1 : cond1_1 i)
    (x0 : Vec F S1024x2048 .f32) (x1 : Vec F S8192x128 .bf16) (x2 : Vec F S1024x128 .f32) (x4 : Vec F S1x1 .f32) (xs0 : Vec F S1024x128 .f32) : Vec F S1024x128 .f32 :=
  VS1_0.read (Elt F) (VS1_0.writes (Elt F) VS1_0.junk (kernelRun1_C c i arg2 harg2 arg3 harg3 arg4 harg4 arg5 harg5 arg6 harg6 arg7 harg7 arg8 harg8 arg9 harg9 arg10 harg10 hc0 hc1 x0 x1 x2 x4 xs0).2.2.2.1)

/-! ## The accumulator point by point -/

/-- What the accumulator holds after the body at position `n`: the case of `n` (its column tile is `n % 4`) run on the
    point's blocks, from what position `n - 1` left when the tile is not the first. -/
def accAt1 (c : Dev nD) : (n : ℕ) → n < cfg1.N → Vec F S1024x128 .f32
  | 0, hn => sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) scM1_0 (Memref.isWhole_whole _) ((hcond1_0 ⟨0, hn⟩).mpr (Nat.zero_mod _)) (fun h => (fun h' => by (try dsimp only at h'); omega) ((hcond1_1 ⟨0, hn⟩).mp h)) (iblk1 V c 0 ⟨0, hn⟩) (iblk1 V c 1 ⟨0, hn⟩)
  | n + 1, hn =>
    if h0 : (n + 1) % 4 = 0 then
      sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) ((hcond1_0 ⟨n + 1, hn⟩).mpr h0) (fun h => (fun h' => by (try dsimp only at h'); omega) ((hcond1_1 ⟨n + 1, hn⟩).mp h)) (iblk1 V c 0 ⟨n + 1, hn⟩) (iblk1 V c 1 ⟨n + 1, hn⟩)
    else if h1 : (n + 1) % 4 = 3 then
      sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 4 ⟨n + 1, hn⟩) (accAt1 c n (Nat.lt_of_succ_lt hn))
    else
      sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (accAt1 c n (Nat.lt_of_succ_lt hn))

theorem accAt1_A (c : Dev nD) (t : Fin cfg1.N) (h0 : t.val % 4 = 0) :
    accAt1 V c t.val t.isLt = sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) ((hcond1_0 t).mpr h0) (fun h => (fun h' => by (try dsimp only at h'); omega) ((hcond1_1 t).mp h)) (iblk1 V c 0 t) (iblk1 V c 1 t) := by
  obtain ⟨n, hn⟩ := t
  cases n with
  | zero => exact rfl
  | succ n => exact (dif_pos h0).trans rfl

theorem accAt1_B (c : Dev nD) (t : Fin cfg1.N) (h0 : ¬t.val % 4 = 0) (h1 : ¬t.val % 4 = 3) :
    accAt1 V c t.val t.isLt = sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) (fun h => h1 ((hcond1_1 t).mp h)) (iblk1 V c 0 t) (iblk1 V c 1 t) (accAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem accAt1_C (c : Dev nD) (t : Fin cfg1.N) (h0 : ¬t.val % 4 = 0) (h1 : t.val % 4 = 3) :
    accAt1 V c t.val t.isLt = sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) ((hcond1_1 t).mpr h1) (iblk1 V c 0 t) (iblk1 V c 1 t) (iblk1 V c 2 t) (iblk1 V c 4 t) (accAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-! ## The outputs point by point -/

/-- The bf16 copy of the S tile after the body at point `t` (stored in every case). -/
def out5At1 (c : Dev nD) (t : Fin cfg1.N) : Vec F S1024x2048 .bf16 :=
  if h0 : t.val % 4 = 0 then out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) ((hcond1_0 t).mpr h0) (fun h => (fun h' => by (try dsimp only at h'); omega) ((hcond1_1 t).mp h)) (iblk1 V c 0 t) (iblk1 V c 1 t)
  else if h1 : t.val % 4 = 3 then out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) ((hcond1_1 t).mpr h1) (iblk1 V c 0 t) (iblk1 V c 1 t) (iblk1 V c 2 t) (iblk1 V c 4 t) (accAt1 V c (t.val - 1) (Nat.lt_of_le_of_lt (Nat.sub_le _ _) t.isLt))
  else out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) (fun h => h1 ((hcond1_1 t).mp h)) (iblk1 V c 0 t) (iblk1 V c 1 t) (accAt1 V c (t.val - 1) (Nat.lt_of_le_of_lt (Nat.sub_le _ _) t.isLt))

theorem out5At1_A (c : Dev nD) (t : Fin cfg1.N) (h0 : t.val % 4 = 0) :
    out5At1 V c t = out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) ((hcond1_0 t).mpr h0) (fun h => (fun h' => by (try dsimp only at h'); omega) ((hcond1_1 t).mp h)) (iblk1 V c 0 t) (iblk1 V c 1 t) := dif_pos h0
theorem out5At1_B (c : Dev nD) (t : Fin cfg1.N) (h0 : ¬t.val % 4 = 0) (h1 : ¬t.val % 4 = 3) :
    out5At1 V c t = out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) (fun h => h1 ((hcond1_1 t).mp h)) (iblk1 V c 0 t) (iblk1 V c 1 t) (accAt1 V c (t.val - 1) (Nat.lt_of_le_of_lt (Nat.sub_le _ _) t.isLt)) := (dif_neg h0).trans (dif_neg h1)
theorem out5At1_C (c : Dev nD) (t : Fin cfg1.N) (h0 : ¬t.val % 4 = 0) (h1 : t.val % 4 = 3) :
    out5At1 V c t = out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) ((hcond1_1 t).mpr h1) (iblk1 V c 0 t) (iblk1 V c 1 t) (iblk1 V c 2 t) (iblk1 V c 4 t) (accAt1 V c (t.val - 1) (Nat.lt_of_le_of_lt (Nat.sub_le _ _) t.isLt)) := (dif_neg h0).trans (dif_pos h1)

/-- The propagated features' row tile after the body at point `t`: stored at the last column tile; elsewhere the window is
    idle and this value is consulted by nothing. -/
def out6At1 (c : Dev nD) (t : Fin cfg1.N) : Vec F S1024x128 .bf16 :=
  if h : ¬t.val % 4 = 0 ∧ t.val % 4 = 3 then out1_C_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun hh => h.1 ((hcond1_0 t).mp hh)) ((hcond1_1 t).mpr h.2) (iblk1 V c 0 t) (iblk1 V c 1 t) (iblk1 V c 2 t) (iblk1 V c 4 t) (accAt1 V c (t.val - 1) (Nat.lt_of_le_of_lt (Nat.sub_le _ _) t.isLt))
  else VO1_6.read (Elt F) VO1_6.junk
theorem out6At1_C (c : Dev nD) (t : Fin cfg1.N) (h0 : ¬t.val % 4 = 0) (h1 : t.val % 4 = 3) :
    out6At1 V c t = out1_C_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) ((hcond1_1 t).mpr h1) (iblk1 V c 0 t) (iblk1 V c 1 t) (iblk1 V c 2 t) (iblk1 V c 4 t) (accAt1 V c (t.val - 1) (Nat.lt_of_le_of_lt (Nat.sub_le _ _) t.isLt)) := dif_pos ⟨h0, h1⟩

/-- The filter output's row tile after the body at point `t`: as the one before. -/
def out7At1 (c : Dev nD) (t : Fin cfg1.N) : Vec F S1024x128 .f32 :=
  if h : ¬t.val % 4 = 0 ∧ t.val % 4 = 3 then out1_C_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun hh => h.1 ((hcond1_0 t).mp hh)) ((hcond1_1 t).mpr h.2) (iblk1 V c 0 t) (iblk1 V c 1 t) (iblk1 V c 2 t) (iblk1 V c 4 t) (accAt1 V c (t.val - 1) (Nat.lt_of_le_of_lt (Nat.sub_le _ _) t.isLt))
  else VO1_7.read (Elt F) VO1_7.junk
theorem out7At1_C (c : Dev nD) (t : Fin cfg1.N) (h0 : ¬t.val % 4 = 0) (h1 : t.val % 4 = 3) :
    out7At1 V c t = out1_C_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) ((hcond1_1 t).mpr h1) (iblk1 V c 0 t) (iblk1 V c 1 t) (iblk1 V c 2 t) (iblk1 V c 4 t) (accAt1 V c (t.val - 1) (Nat.lt_of_le_of_lt (Nat.sub_le _ _) t.isLt)) := dif_pos ⟨h0, h1⟩

/-! ## The region invariant with the accumulator carried -/

/-- Before position `n`: before the first point what the launch hands the call; afterwards the accumulator at what the
    point before left, every other scoped buffer unopened, the generator register at some state. -/
def PhiS1 (c : Dev nD) : (n : ℕ) → n ≤ cfg1.N → sProp 𝕄
  | 0, _ => Pipeline.ΦA spec1 c
  | n + 1, hn => iprop(iprop(iprop(owns (c : Thread nD τ) scM1_0 fullShare (accAt1 V c n hn))
      ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(iprop(owns (c : Thread nD τ) scM1_0 fullShare (accAt1 V c n hn))
      ∗ Pipeline.scopedRestBut (Ix := Unit) (Name := ℕ) (U := UR sig nD τ) (Lvl := ℕ) (Val := Elt F) spec1 c [cc1_scratch0]) ∗ (∃ r, prngReg c r)) := rfl

theorem PhiS1_pos (c : Dev nD) (n : ℕ) (h : n ≤ cfg1.N) (hz : n ≠ 0) :
    PhiS1 V c n h = iprop(iprop(iprop(owns (c : Thread nD τ) scM1_0 fullShare (accAt1 V c (n - 1) (by omega)))
      ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-! ## The pipeline's proof data -/

/-- The proof data of the call's pipeline on core `c` at the entry contents `V`: after the body at point `t` each input's
    buffer at its block and each output's at what the point's case stored; the invariant carries the accumulator;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out5At1 V c t
    | ⟨6, _⟩ => out6At1 V c t
    | ⟨7, _⟩ => out7At1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out5At1 V c t := by dsimp only [dat1]
theorem after1_6 (c : Dev nD) (t : Fin cfg1.N) : (dat1 V c).after 6 t = out6At1 V c t := by dsimp only [dat1]
theorem after1_7 (c : Dev nD) (t : Fin cfg1.N) : (dat1 V c).after 7 t = out7At1 V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

theorem leaves1_0 (c : Dev nD) (t : Fin cfg1.N) :
    (dat1 V c).leavesExact 0 t = owns (c : Thread nD τ) (ms1_0 t) fullShare ((dat1 V c).after 0 t) := by
  unfold Dat.leavesExact; rw [liveAt1_0 t]
theorem leaves1_1 (c : Dev nD) (t : Fin cfg1.N) :
    (dat1 V c).leavesExact 1 t = owns (c : Thread nD τ) (ms1_1 t) fullShare ((dat1 V c).after 1 t) := by
  unfold Dat.leavesExact; rw [liveAt1_1 t]
theorem leaves1_2 (c : Dev nD) (t : Fin cfg1.N) :
    (dat1 V c).leavesExact 2 t = owns (c : Thread nD τ) (ms1_2 t) fullShare ((dat1 V c).after 2 t) := by
  unfold Dat.leavesExact; rw [liveAt1_2 t]
theorem leaves1_3 (c : Dev nD) (t : Fin cfg1.N) :
    (dat1 V c).leavesExact 3 t = owns (c : Thread nD τ) (ms1_3 t) fullShare ((dat1 V c).after 3 t) := by
  unfold Dat.leavesExact; rw [liveAt1_3 t]
theorem leaves1_4 (c : Dev nD) (t : Fin cfg1.N) :
    (dat1 V c).leavesExact 4 t = owns (c : Thread nD τ) (ms1_4 t) fullShare ((dat1 V c).after 4 t) := by
  unfold Dat.leavesExact; rw [liveAt1_4 t]
theorem leaves1_5 (c : Dev nD) (t : Fin cfg1.N) :
    (dat1 V c).leavesExact 5 t = owns (c : Thread nD τ) (ms1_5 t) fullShare ((dat1 V c).after 5 t) := by
  unfold Dat.leavesExact; rw [liveAt1_5 t]
theorem leaves1_6_C (c : Dev nD) (t : Fin cfg1.N) (hc0 : ¬cond1_0 (grid1.coords t)) (hc1 : cond1_1 (grid1.coords t)) :
    (dat1 V c).leavesExact 6 t = owns (c : Thread nD τ) (ms1_6 t) fullShare ((dat1 V c).after 6 t) := by
  unfold Dat.leavesExact; rw [liveAt1_6_C t hc0 hc1]
theorem leaves1_7_C (c : Dev nD) (t : Fin cfg1.N) (hc0 : ¬cond1_0 (grid1.coords t)) (hc1 : cond1_1 (grid1.coords t)) :
    (dat1 V c).leavesExact 7 t = owns (c : Thread nD τ) (ms1_7 t) fullShare ((dat1 V c).after 7 t) := by
  unfold Dat.leavesExact; rw [liveAt1_7_C t hc0 hc1]

end Cert.Kernel.Hand

end
-- ==== Proof.K.Cast1.lean ====
/- The casting propagate call: the body obligation of its pipeline at every grid point, and the passage of the
   region invariant into the first point and out of the last. The closed forms of the two branch conditions say which
   of the three cases a point is in; the case's whole-body run applies; the accumulator is handed over at what the
   point before left (at anything at the very first point) and taken back at what this point leaves. -/
import proofs.«131271_j4982162063661_2_alg».proof.Proof.K.Cast1Dat

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`. -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))

/-- What it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

set_option maxHeartbeats 8000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2, leaves1_3, leaves1_4, leaves1_5, after1_0, after1_1, after1_2, after1_3, after1_4, after1_5]
  have hN : t.val < 32 := lt_of_lt_of_eq t.isLt (show cfg1.N = 32 from N_1)
  by_cases h0 : t.val % 4 = 0
  · have hc0 : cond1_0 (grid1.coords t) := (hcond1_0 t).mpr h0
    have hc1 : ¬cond1_1 (grid1.coords t) := fun h => by have := (hcond1_1 t).mp h; omega
    rw [Dat.leavesExact_idle (dat1 V c) 6 t (idleAt1_6_A t hc0 hc1) (noFlush1_6_A t hc0 hc1)]
    rw [Dat.leavesExact_idle (dat1 V c) 7 t (idleAt1_7_A t hc0 hc1) (noFlush1_7_A t hc0 hc1)]
    rw [out5At1_A V c t h0, accAt1_A V c t h0]
    unfold out1_A_5 sout1_A_0; (try dsimp only)
    by_cases hz : t.val = 0
    · rw [PhiS1_castSucc V c t, PhiS1_zero V c _ _ hz, PhiA1_eq]
      iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun1_A c (grid1.coords t) _ _ _ _ _ _ _ _ _ _ _ _ _ _ _ _ _ _ ((hcond1_0 t).mpr h0) (fun h => (fun h' => by (try dsimp only at h'); omega) ((hcond1_1 t).mp h)) (iblk1 V c 0 t) (iblk1 V c 1 t)).2.2 Set.univ _)
      isplitl [H0]; · iexact H0
      isplitl [H1]; · iexact H1
      isplitl [H5]; · iexists _; iexact H5
      isplitl [HS0]; · iexact HS0
      iintro ⟨H0, H1, ⟨%e5, H5⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover1_A_5 c _ _ _ _ _ _ _ _ _ _ _ _ _ _ _ _ _ _ _ _ _ _ _)
      isplitl [H6]; · iexists _; iexact H6
      iexists _; iexact H7
    · rw [PhiS1_castSucc V c t, PhiS1_pos V c _ _ hz]
      iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun1_A c (grid1.coords t) _ _ _ _ _ _ _ _ _ _ _ _ _ _ _ _ _ _ ((hcond1_0 t).mpr h0) (fun h => (fun h' => by (try dsimp only at h'); omega) ((hcond1_1 t).mp h)) (iblk1 V c 0 t) (iblk1 V c 1 t)).2.2 Set.univ _)
      isplitl [H0]; · iexact H0
      isplitl [H1]; · iexact H1
      isplitl [H5]; · iexists _; iexact H5
      isplitl [HS0]; · iexists _; iexact HS0
      iintro ⟨H0, H1, ⟨%e5, H5⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover1_A_5 c _ _ _ _ _ _ _ _ _ _ _ _ _ _ _ _ _ _ _ _ _ _ _)
      isplitl [H6]; · iexists _; iexact H6
      iexists _; iexact H7
  · have hz : t.val ≠ 0 := fun h => h0 (by rw [h])
    have hc0 : ¬cond1_0 (grid1.coords t) := fun h => h0 ((hcond1_0 t).mp h)
    by_cases h1 : t.val % 4 = 3
    · have hc1 : cond1_1 (grid1.coords t) := (hcond1_1 t).mpr h1
      rw [leaves1_6_C V c t hc0 hc1, leaves1_7_C V c t hc0 hc1, after1_6, after1_7]
      rw [out5At1_C V c t h0 h1, out6At1_C V c t h0 h1, out7At1_C V c t h0 h1, accAt1_C V c t h0 h1]
      unfold out1_C_5 out1_C_6 out1_C_7 sout1_C_0; (try dsimp only)
      rw [PhiS1_castSucc V c t, PhiS1_pos V c _ _ hz]
      iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun1_C c (grid1.coords t) _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 4 t) _).2.2.2.2 Set.univ _)
      isplitl [H0]; · iexact H0
      isplitl [H1]; · iexact H1
      isplitl [H2]; · iexact H2
      isplitl [H4]; · iexact H4
      isplitl [H5]; · iexists _; iexact H5
      isplitl [H6]; · iexists _; iexact H6
      isplitl [H7]; · iexists _; iexact H7
      isplitl [HS0]; · iexact HS0
      iintro ⟨H0, H1, H2, H4, ⟨%e5, H5⟩, ⟨%e6, H6⟩, ⟨%e7, H7⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover1_C_0 c _ _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover1_C_5 c _ _ _ _ _ _ _ _ _ _ _ _ _ _ _ _ _ _ _ _ _ _ _ _ _ _)
      isplitl [H6]
      · unfold owns; iexists _; isplitr
        swap; · iexact H6
        ipureintro; exact View.read_writes_of_cover _ _ _ _ _ (cover1_C_6 c _ _ _ _ _ _ _ _ _ _ _ _ _ _ _ _ _ _ _ _ _ _ _ _ _ _)
      unfold owns; iexists _; isplitr
      swap; · iexact H7
      ipureintro; exact View.read_writes_of_cover _ _ _ _ _ (cover1_C_7 c _ _ _ _ _ _ _ _ _ _ _ _ _ _ _ _ _ _ _ _ _ _ _ _ _ _)
    · have hc1 : ¬cond1_1 (grid1.coords t) := fun h => h1 ((hcond1_1 t).mp h)
      rw [Dat.leavesExact_idle (dat1 V c) 6 t (idleAt1_6_B t hc0 hc1) (noFlush1_6_B t hc0 hc1)]
      rw [Dat.leavesExact_idle (dat1 V c) 7 t (idleAt1_7_B t hc0 hc1) (noFlush1_7_B t hc0 hc1)]
      rw [out5At1_B V c t h0 h1, accAt1_B V c t h0 h1]
      unfold out1_B_5 sout1_B_0; (try dsimp only)
      rw [PhiS1_castSucc V c t, PhiS1_pos V c _ _ hz]
      iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun1_B c (grid1.coords t) _ _ _ _ _ _ _ _ _ _ _ _ _ _ _ _ _ _ (fun h => h0 ((hcond1_0 t).mp h)) (fun h => h1 ((hcond1_1 t).mp h)) (iblk1 V c 0 t) (iblk1 V c 1 t) _).2.2 Set.univ _)
      isplitl [H0]; · iexact H0
      isplitl [H1]; · iexact H1
      isplitl [H5]; · iexists _; iexact H5
      isplitl [HS0]; · iexact HS0
      iintro ⟨H0, H1, ⟨%e5, H5⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover1_B_0 c _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover1_B_5 c _ _ _ _ _ _ _ _ _ _ _ _ _ _ _ _ _ _ _ _ _ _ _ _)
      isplitl [H6]; · iexists _; iexact H6
      iexists _; iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the call is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the launch's back: the accumulator's contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, Hr⟩, Hg⟩
  isplitl [HS0 Hr]
  · isplitl [HS0]
    · iexists _; iexact HS0
    iexact Hr
  iexact Hg

/-- The same after the last point. -/
theorem hout1 (c : Dev nD) : (dat1 V c).Φ (Fin.last cfg1.N) ⊢ Pipeline.ΦA spec1 c :=
  Phi_out1 V c _ (by rw [Fin.val_last]; have : cfg1.N = 32 := N_1; omega)

end Cert.Kernel.Hand

end
-- ==== Proof.K.Prop2Runs.lean ====
import proofs.«131271_j4982162063661_2_alg».proof.Proof.Gen.Kernel.Launch
import proofs.«131271_j4982162063661_2_alg».proof.Proof.Gen.Kernel.Skeleton
import proofs.«131271_j4982162063661_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The propagate call number 2: what its three control cases share

The call runs on a grid of 8 x 4 points; point `t` has row tile `i = t / 4` and column tile `k = t % 4`.
The body zeroes its accumulator when `k = 0`, adds the product of the current tile of the matrix with the
matching 2048 rows of the propagated signal at every `k`, and when `k = 3` stores the accumulator into the
two outputs. So there are three control cases: `k = 0` (reset, no output stored), `k = 1, 2` (neither),
`k = 3` (outputs stored). Everything here is stated at the buffer contents `V` the call is entered with. -/

-- the buffer contents when the call is entered
variable (V : (c : Dev nD) → (b : Ref sig .tc) → Buf (Elt F) ((c : Thread nD τ).loc b))

/-- Window `w`'s block at point `t`, read off the window's array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds the window's block at every point, whether the pipeline fetched
    it there or not: where it was not fetched the block index has not moved since the point before. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds the window's block at every point, whether the pipeline fetched
    it there or not: where it was not fetched the block index has not moved since the point before. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds the window's block at every point, whether the pipeline fetched
    it there or not: where it was not fetched the block index has not moved since the point before. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds the window's block at every point, whether the pipeline fetched
    it there or not: where it was not fetched the block index has not moved since the point before. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds the window's block at every point, whether the pipeline fetched
    it there or not: where it was not fetched the block index has not moved since the point before. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's two conditions, in closed form over the grid -/

/-- The condition of the first `scf.if` (the reset): the column tile is the first. -/
abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 4 = 0 :=
  (by decide +kernel : ∀ t : Fin grid2.N, cond2_0 (grid2.coords t) ↔ t.val % 4 = 0)

/-- The condition of the second `scf.if` (the outputs' stores): the column tile is the last. -/
abbrev cond2_1 (i : grid2.Coords) : Prop := k2_cond2 i = 1#1
theorem hcond2_1 : ∀ t : Fin cfg2.N, cond2_1 (grid2.coords t) ↔ t.val % 4 = 3 :=
  (by decide +kernel : ∀ t : Fin grid2.N, cond2_1 (grid2.coords t) ↔ t.val % 4 = 3)

/-! ## Where the two outputs are idle -/

/-- At the points with k = 0 output 5 is idle: the body stores nothing into it and the pipeline does not write it back. -/
theorem idleAt2_5_A : ∀ t : Fin cfg2.N, cond2_0 (grid2.coords t) → ¬cond2_1 (grid2.coords t) → cfg2.idle 5 (grid2.coords t) = true := by decide +kernel
theorem noFlush2_5_A : ∀ t : Fin cfg2.N, cond2_0 (grid2.coords t) → ¬cond2_1 (grid2.coords t) → (cfg2.win 5).flush t = false := by decide +kernel
/-- The same at the points with k = 1 and k = 2. -/
theorem idleAt2_5_B : ∀ t : Fin cfg2.N, ¬cond2_0 (grid2.coords t) → ¬cond2_1 (grid2.coords t) → cfg2.idle 5 (grid2.coords t) = true := by decide +kernel
theorem noFlush2_5_B : ∀ t : Fin cfg2.N, ¬cond2_0 (grid2.coords t) → ¬cond2_1 (grid2.coords t) → (cfg2.win 5).flush t = false := by decide +kernel
/-- At the points with k = 3 output 5 is live: the body stores its whole block. -/
theorem liveAt2_5_C : ∀ t : Fin cfg2.N, ¬cond2_0 (grid2.coords t) → cond2_1 (grid2.coords t) → cfg2.idle 5 (grid2.coords t) = false := by decide +kernel

/-- At the points with k = 0 output 6 is idle: the body stores nothing into it and the pipeline does not write it back. -/
theorem idleAt2_6_A : ∀ t : Fin cfg2.N, cond2_0 (grid2.coords t) → ¬cond2_1 (grid2.coords t) → cfg2.idle 6 (grid2.coords t) = true := by decide +kernel
theorem noFlush2_6_A : ∀ t : Fin cfg2.N, cond2_0 (grid2.coords t) → ¬cond2_1 (grid2.coords t) → (cfg2.win 6).flush t = false := by decide +kernel
/-- The same at the points with k = 1 and k = 2. -/
theorem idleAt2_6_B : ∀ t : Fin cfg2.N, ¬cond2_0 (grid2.coords t) → ¬cond2_1 (grid2.coords t) → cfg2.idle 6 (grid2.coords t) = true := by decide +kernel
theorem noFlush2_6_B : ∀ t : Fin cfg2.N, ¬cond2_0 (grid2.coords t) → ¬cond2_1 (grid2.coords t) → (cfg2.win 6).flush t = false := by decide +kernel
/-- At the points with k = 3 output 6 is live: the body stores its whole block. -/
theorem liveAt2_6_C : ∀ t : Fin cfg2.N, ¬cond2_0 (grid2.coords t) → cond2_1 (grid2.coords t) → cfg2.idle 6 (grid2.coords t) = false := by decide +kernel

/-! ## The memrefs the body is called with -/

/-- One staging buffer of each output, through which its contents are stated (the choice does not matter). -/
abbrev VO2_5 : View sig .tc .vmem S1024x128 .bf16 := (Memref.whole cc2_stg5_0 : Memref sig .tc .vmem S1024x128 .bf16).view
abbrev VO2_6 : View sig .tc .vmem S1024x128 .f32 := (Memref.whole cc2_stg6_0 : Memref sig .tc .vmem S1024x128 .f32).view
abbrev ms2_0 (t : Fin cfg2.N) : Memref sig .tc .vmem S1024x2048 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S8192x128 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x128 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x128 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x1 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1024x128 .bf16 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S1024x128 .f32 := win2_6.stage (cfg2.slots t 6)
abbrev hs2_6 (t : Fin cfg2.N) : (ms2_6 t).IsWhole := hstage2_6 ((cfg2.slots t 6).cast nbuf2_6)
/-- The accumulator: a whole scoped buffer of the call's own, carried from point to point. -/
abbrev scM2_0 : Memref sig .tc .vmem S1024x128 .f32 := Memref.whole cc2_scratch0
abbrev VS2_0 : View sig .tc .vmem S1024x128 .f32 := scM2_0.view

/-- The invariant the launch hands the call, with the accumulator split out of the scoped buffers: the accumulator
    owned at some contents, every other scoped buffer unopened, the generator register at some state. -/
theorem PhiA2_eq (c : Dev nD) :
    (Pipeline.ΦA spec2 c : sProp 𝕄)
      = iprop(iprop(iprop((∃ d, owns (c : Thread nD τ) scM2_0 fullShare d))
          ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2_0, owns_whole]; try rfl

end Cert.Kernel.Hand

end
-- ==== Proof.K.Prop2RunA.lean ====
import proofs.«131271_j4982162063661_2_alg».proof.Proof.K.Prop2Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run when the column tile is the first (the accumulator is reset, then accumulated into; no output is stored): the lists of stores each buffer ends with, together with the proof that on whole
    staging memrefs — the inputs' at their contents, the outputs' at contents handed back untouched, the accumulator
    at anything — the body runs to the continuation holding the inputs' as they were,
    the accumulator with its stores written. The lists are found by running the body. -/
noncomputable def kernelRun2_A (c : Dev nD) (i : grid2.Coords) (arg2 : Memref sig .tc .vmem S1024x2048 .bf16) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .f32) (harg9 : arg9.IsWhole) (hc0 : cond2_0 i) (hc1 : ¬cond2_1 i)
    (x0 : Vec F S1024x2048 .bf16) (x1 : Vec F S8192x128 .bf16) (x2 : Vec F S1024x128 .f32) (x3 : Vec F S1x128 .f32) (x4 : Vec F S1x1 .f32) :
    Σ' (L5 : List (View.Piece (Elt F) S1024x128 .bf16)) (L6 : List (View.Piece (Elt F) S1024x128 .f32)), { LS0 : List (View.Piece (Elt F) S1024x128 .f32) //
      ∀ (xi5 : Vec F S1024x128 .bf16) (xi6 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc2__propagate_kernel i arg2 harg2 arg3 harg3 arg4 harg4 arg5 harg5 arg6 harg6 arg7 harg7 arg8 harg8 arg9 harg9) K } := by
  refine ⟨[], [], ?_, fun xi5 xi6 E K => ?run⟩
  case run =>
    simp only [cc2__propagate_kernel_eq_skeleton]; unfold cc2__propagate_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

end Cert.Kernel.Hand

end
-- ==== Proof.K.Prop2RunB.lean ====
import proofs.«131271_j4982162063661_2_alg».proof.Proof.K.Prop2RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run when the column tile is neither the first nor the last (the accumulator is accumulated into; no output is stored): the lists of stores each buffer ends with, together with the proof that on whole
    staging memrefs — the inputs' at their contents, the outputs' at contents handed back untouched, the accumulator
    at the contents the point before left — the body runs to the continuation holding the inputs' as they were,
    the accumulator with its stores written. The lists are found by running the body. -/
noncomputable def kernelRun2_B (c : Dev nD) (i : grid2.Coords) (arg2 : Memref sig .tc .vmem S1024x2048 .bf16) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .f32) (harg9 : arg9.IsWhole) (hc0 : ¬cond2_0 i) (hc1 : ¬cond2_1 i)
    (x0 : Vec F S1024x2048 .bf16) (x1 : Vec F S8192x128 .bf16) (x2 : Vec F S1024x128 .f32) (x3 : Vec F S1x128 .f32) (x4 : Vec F S1x1 .f32) (xs0 : Vec F S1024x128 .f32) :
    Σ' (L5 : List (View.Piece (Elt F) S1024x128 .bf16)) (L6 : List (View.Piece (Elt F) S1024x128 .f32)), { LS0 : List (View.Piece (Elt F) S1024x128 .f32) //
      ∀ (xi5 : Vec F S1024x128 .bf16) (xi6 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc2__propagate_kernel i arg2 harg2 arg3 harg3 arg4 harg4 arg5 harg5 arg6 harg6 arg7 harg7 arg8 harg8 arg9 harg9) K } := by
  refine ⟨[], [], ?_, fun xi5 xi6 E K => ?run⟩
  case run =>
    simp only [cc2__propagate_kernel_eq_skeleton]; unfold cc2__propagate_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

end Cert.Kernel.Hand

end
-- ==== Proof.K.Prop2RunC.lean ====
import proofs.«131271_j4982162063661_2_alg».proof.Proof.K.Prop2RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run when the column tile is the last (the accumulator is accumulated into, then stored into both outputs): the lists of stores each buffer ends with, together with the proof that on whole
    staging memrefs — the inputs' at their contents, the outputs' at anything, the accumulator
    at the contents the point before left — the body runs to the continuation holding the inputs' as they were,
    the accumulator with its stores written and each output's buffer with its stores written. The lists are found by running the body. -/
noncomputable def kernelRun2_C (c : Dev nD) (i : grid2.Coords) (arg2 : Memref sig .tc .vmem S1024x2048 .bf16) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .f32) (harg9 : arg9.IsWhole) (hc0 : ¬cond2_0 i) (hc1 : cond2_1 i)
    (x0 : Vec F S1024x2048 .bf16) (x1 : Vec F S8192x128 .bf16) (x2 : Vec F S1024x128 .f32) (x3 : Vec F S1x128 .f32) (x4 : Vec F S1x1 .f32) (xs0 : Vec F S1024x128 .f32) :
    Σ' (L5 : List (View.Piece (Elt F) S1024x128 .bf16)) (L6 : List (View.Piece (Elt F) S1024x128 .f32)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0)) -∗ K ⟨⟩))
          ⊢ wp frame (wpE (defs₀ (F := F)) Variants.none c none) E (cc2__propagate_kernel i arg2 harg2 arg3 harg3 arg4 harg4 arg5 harg5 arg6 harg6 arg7 harg7 arg8 harg8 arg9 harg9) K } := by
  refine ⟨?_, ?_, ?_, fun E K => ?run⟩
  case run =>
    simp only [cc2__propagate_kernel_eq_skeleton]; unfold cc2__propagate_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    iexists _; iexact HS0

end Cert.Kernel.Hand

end
-- ==== Proof.K.Prop2.lean ====
import proofs.«131271_j4982162063661_2_alg».proof.Proof.K.Prop2RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The propagate call number 2: its proof data and body obligation at the entry contents `V`

What the two outputs' staging buffers and the accumulator hold after each point is defined by recursion on the
point (`outsAt2`): the case the point is in, run on the point's memrefs and input blocks, over what the point
before left in the accumulator. The invariant between points keeps the accumulator at exactly those contents. -/

variable (V : (c : Dev nD) → (b : Ref sig .tc) → Buf (Elt F) ((c : Thread nD τ).loc b))

/-! ## What each case leaves -/

/-- What case A leaves in output 5's staging buffer: its stores read back over arbitrary contents (there are none: the output is idle in this case and nothing consults this value). -/
def out2_A_5 (c : Dev nD) (i : grid2.Coords) (arg2 : Memref sig .tc .vmem S1024x2048 .bf16) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .f32) (harg9 : arg9.IsWhole) (hc0 : cond2_0 i) (hc1 : ¬cond2_1 i)
    (x0 : Vec F S1024x2048 .bf16) (x1 : Vec F S8192x128 .bf16) (x2 : Vec F S1024x128 .f32) (x3 : Vec F S1x128 .f32) (x4 : Vec F S1x1 .f32) : Vec F S1024x128 .bf16 :=
  VO2_5.read (Elt F) (VO2_5.writes (Elt F) VO2_5.junk (kernelRun2_A c i arg2 harg2 arg3 harg3 arg4 harg4 arg5 harg5 arg6 harg6 arg7 harg7 arg8 harg8 arg9 harg9 hc0 hc1 x0 x1 x2 x3 x4).1)
/-- The same for output 6. -/
def out2_A_6 (c : Dev nD) (i : grid2.Coords) (arg2 : Memref sig .tc .vmem S1024x2048 .bf16) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .f32) (harg9 : arg9.IsWhole) (hc0 : cond2_0 i) (hc1 : ¬cond2_1 i)
    (x0 : Vec F S1024x2048 .bf16) (x1 : Vec F S8192x128 .bf16) (x2 : Vec F S1024x128 .f32) (x3 : Vec F S1x128 .f32) (x4 : Vec F S1x1 .f32) : Vec F S1024x128 .f32 :=
  VO2_6.read (Elt F) (VO2_6.writes (Elt F) VO2_6.junk (kernelRun2_A c i arg2 harg2 arg3 harg3 arg4 harg4 arg5 harg5 arg6 harg6 arg7 harg7 arg8 harg8 arg9 harg9 hc0 hc1 x0 x1 x2 x3 x4).2.1)
/-- Case A's stores into the accumulator are of the whole buffer, so they cover it. -/
theorem scover2_A_0 (c : Dev nD) (i : grid2.Coords) (arg2 : Memref sig .tc .vmem S1024x2048 .bf16) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .f32) (harg9 : arg9.IsWhole) (hc0 : cond2_0 i) (hc1 : ¬cond2_1 i)
    (x0 : Vec F S1024x2048 .bf16) (x1 : Vec F S8192x128 .bf16) (x2 : Vec F S1024x128 .f32) (x3 : Vec F S1x128 .f32) (x4 : Vec F S1x1 .f32) (y : S1024x128.Idx) :
    ∃ pc ∈ (kernelRun2_A c i arg2 harg2 arg3 harg3 arg4 harg4 arg5 harg5 arg6 harg6 arg7 harg7 arg8 harg8 arg9 harg9 hc0 hc1 x0 x1 x2 x3 x4).2.2.1, y ∈ pc.1.set :=
  View.cover_of_tiledL (kernelRun2_A c i arg2 harg2 arg3 harg3 arg4 harg4 arg5 harg5 arg6 harg6 arg7 harg7 arg8 harg8 arg9 harg9 hc0 hc1 x0 x1 x2 x3 x4).2.2.1 S1024x128.size (by sl_kernel_rfl) y
/-- What case A leaves in the accumulator. -/
def sout2_A_0 (c : Dev nD) (i : grid2.Coords) (arg2 : Memref sig .tc .vmem S1024x2048 .bf16) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .f32) (harg9 : arg9.IsWhole) (hc0 : cond2_0 i) (hc1 : ¬cond2_1 i)
    (x0 : Vec F S1024x2048 .bf16) (x1 : Vec F S8192x128 .bf16) (x2 : Vec F S1024x128 .f32) (x3 : Vec F S1x128 .f32) (x4 : Vec F S1x1 .f32) : Vec F S1024x128 .f32 :=
  VS2_0.read (Elt F) (VS2_0.writes (Elt F) VS2_0.junk (kernelRun2_A c i arg2 harg2 arg3 harg3 arg4 harg4 arg5 harg5 arg6 harg6 arg7 harg7 arg8 harg8 arg9 harg9 hc0 hc1 x0 x1 x2 x3 x4).2.2.1)

/-- What case B leaves in output 5's staging buffer: its stores read back over arbitrary contents (there are none: the output is idle in this case and nothing consults this value). -/
def out2_B_5 (c : Dev nD) (i : grid2.Coords) (arg2 : Memref sig .tc .vmem S1024x2048 .bf16) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .f32) (harg9 : arg9.IsWhole) (hc0 : ¬cond2_0 i) (hc1 : ¬cond2_1 i)
    (x0 : Vec F S1024x2048 .bf16) (x1 : Vec F S8192x128 .bf16) (x2 : Vec F S1024x128 .f32) (x3 : Vec F S1x128 .f32) (x4 : Vec F S1x1 .f32) (xs0 : Vec F S1024x128 .f32) : Vec F S1024x128 .bf16 :=
  VO2_5.read (Elt F) (VO2_5.writes (Elt F) VO2_5.junk (kernelRun2_B c i arg2 harg2 arg3 harg3 arg4 harg4 arg5 harg5 arg6 harg6 arg7 harg7 arg8 harg8 arg9 harg9 hc0 hc1 x0 x1 x2 x3 x4 xs0).1)
/-- The same for output 6. -/
def out2_B_6 (c : Dev nD) (i : grid2.Coords) (arg2 : Memref sig .tc .vmem S1024x2048 .bf16) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .f32) (harg9 : arg9.IsWhole) (hc0 : ¬cond2_0 i) (hc1 : ¬cond2_1 i)
    (x0 : Vec F S1024x2048 .bf16) (x1 : Vec F S8192x128 .bf16) (x2 : Vec F S1024x128 .f32) (x3 : Vec F S1x128 .f32) (x4 : Vec F S1x1 .f32) (xs0 : Vec F S1024x128 .f32) : Vec F S1024x128 .f32 :=
  VO2_6.read (Elt F) (VO2_6.writes (Elt F) VO2_6.junk (kernelRun2_B c i arg2 harg2 arg3 harg3 arg4 harg4 arg5 harg5 arg6 harg6 arg7 harg7 arg8 harg8 arg9 harg9 hc0 hc1 x0 x1 x2 x3 x4 xs0).2.1)
/-- Case B's stores into the accumulator are of the whole buffer, so they cover it. -/
theorem scover2_B_0 (c : Dev nD) (i : grid2.Coords) (arg2 : Memref sig .tc .vmem S1024x2048 .bf16) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .f32) (harg9 : arg9.IsWhole) (hc0 : ¬cond2_0 i) (hc1 : ¬cond2_1 i)
    (x0 : Vec F S1024x2048 .bf16) (x1 : Vec F S8192x128 .bf16) (x2 : Vec F S1024x128 .f32) (x3 : Vec F S1x128 .f32) (x4 : Vec F S1x1 .f32) (xs0 : Vec F S1024x128 .f32) (y : S1024x128.Idx) :
    ∃ pc ∈ (kernelRun2_B c i arg2 harg2 arg3 harg3 arg4 harg4 arg5 harg5 arg6 harg6 arg7 harg7 arg8 harg8 arg9 harg9 hc0 hc1 x0 x1 x2 x3 x4 xs0).2.2.1, y ∈ pc.1.set :=
  View.cover_of_tiledL (kernelRun2_B c i arg2 harg2 arg3 harg3 arg4 harg4 arg5 harg5 arg6 harg6 arg7 harg7 arg8 harg8 arg9 harg9 hc0 hc1 x0 x1 x2 x3 x4 xs0).2.2.1 S1024x128.size (by sl_kernel_rfl) y
/-- What case B leaves in the accumulator. -/
def sout2_B_0 (c : Dev nD) (i : grid2.Coords) (arg2 : Memref sig .tc .vmem S1024x2048 .bf16) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .f32) (harg9 : arg9.IsWhole) (hc0 : ¬cond2_0 i) (hc1 : ¬cond2_1 i)
    (x0 : Vec F S1024x2048 .bf16) (x1 : Vec F S8192x128 .bf16) (x2 : Vec F S1024x128 .f32) (x3 : Vec F S1x128 .f32) (x4 : Vec F S1x1 .f32) (xs0 : Vec F S1024x128 .f32) : Vec F S1024x128 .f32 :=
  VS2_0.read (Elt F) (VS2_0.writes (Elt F) VS2_0.junk (kernelRun2_B c i arg2 harg2 arg3 harg3 arg4 harg4 arg5 harg5 arg6 harg6 arg7 harg7 arg8 harg8 arg9 harg9 hc0 hc1 x0 x1 x2 x3 x4 xs0).2.2.1)

/-- What case C leaves in output 5's staging buffer: its stores read back over arbitrary contents. -/
def out2_C_5 (c : Dev nD) (i : grid2.Coords) (arg2 : Memref sig .tc .vmem S1024x2048 .bf16) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .f32) (harg9 : arg9.IsWhole) (hc0 : ¬cond2_0 i) (hc1 : cond2_1 i)
    (x0 : Vec F S1024x2048 .bf16) (x1 : Vec F S8192x128 .bf16) (x2 : Vec F S1024x128 .f32) (x3 : Vec F S1x128 .f32) (x4 : Vec F S1x1 .f32) (xs0 : Vec F S1024x128 .f32) : Vec F S1024x128 .bf16 :=
  VO2_5.read (Elt F) (VO2_5.writes (Elt F) VO2_5.junk (kernelRun2_C c i arg2 harg2 arg3 harg3 arg4 harg4 arg5 harg5 arg6 harg6 arg7 harg7 arg8 harg8 arg9 harg9 hc0 hc1 x0 x1 x2 x3 x4 xs0).1)
/-- The same for output 6. -/
def out2_C_6 (c : Dev nD) (i : grid2.Coords) (arg2 : Memref sig .tc .vmem S1024x2048 .bf16) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .f32) (harg9 : arg9.IsWhole) (hc0 : ¬cond2_0 i) (hc1 : cond2_1 i)
    (x0 : Vec F S1024x2048 .bf16) (x1 : Vec F S8192x128 .bf16) (x2 : Vec F S1024x128 .f32) (x3 : Vec F S1x128 .f32) (x4 : Vec F S1x1 .f32) (xs0 : Vec F S1024x128 .f32) : Vec F S1024x128 .f32 :=
  VO2_6.read (Elt F) (VO2_6.writes (Elt F) VO2_6.junk (kernelRun2_C c i arg2 harg2 arg3 harg3 arg4 harg4 arg5 harg5 arg6 harg6 arg7 harg7 arg8 harg8 arg9 harg9 hc0 hc1 x0 x1 x2 x3 x4 xs0).2.1)
/-- Case C's one store into output 5 is of the whole block, so it covers it. -/
theorem cover2_C_5 (c : Dev nD) (i : grid2.Coords) (arg2 : Memref sig .tc .vmem S1024x2048 .bf16) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .f32) (harg9 : arg9.IsWhole) (hc0 : ¬cond2_0 i) (hc1 : cond2_1 i)
    (x0 : Vec F S1024x2048 .bf16) (x1 : Vec F S8192x128 .bf16) (x2 : Vec F S1024x128 .f32) (x3 : Vec F S1x128 .f32) (x4 : Vec F S1x1 .f32) (xs0 : Vec F S1024x128 .f32) (y : S1024x128.Idx) :
    ∃ pc ∈ (kernelRun2_C c i arg2 harg2 arg3 harg3 arg4 harg4 arg5 harg5 arg6 harg6 arg7 harg7 arg8 harg8 arg9 harg9 hc0 hc1 x0 x1 x2 x3 x4 xs0).1, y ∈ pc.1.set :=
  View.cover_of_tiledL (kernelRun2_C c i arg2 harg2 arg3 harg3 arg4 harg4 arg5 harg5 arg6 harg6 arg7 harg7 arg8 harg8 arg9 harg9 hc0 hc1 x0 x1 x2 x3 x4 xs0).1 S1024x128.size (by sl_kernel_rfl) y
/-- The same for output 6. -/
theorem cover2_C_6 (c : Dev nD) (i : grid2.Coords) (arg2 : Memref sig .tc .vmem S1024x2048 .bf16) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .f32) (harg9 : arg9.IsWhole) (hc0 : ¬cond2_0 i) (hc1 : cond2_1 i)
    (x0 : Vec F S1024x2048 .bf16) (x1 : Vec F S8192x128 .bf16) (x2 : Vec F S1024x128 .f32) (x3 : Vec F S1x128 .f32) (x4 : Vec F S1x1 .f32) (xs0 : Vec F S1024x128 .f32) (y : S1024x128.Idx) :
    ∃ pc ∈ (kernelRun2_C c i arg2 harg2 arg3 harg3 arg4 harg4 arg5 harg5 arg6 harg6 arg7 harg7 arg8 harg8 arg9 harg9 hc0 hc1 x0 x1 x2 x3 x4 xs0).2.1, y ∈ pc.1.set :=
  View.cover_of_tiledL (kernelRun2_C c i arg2 harg2 arg3 harg3 arg4 harg4 arg5 harg5 arg6 harg6 arg7 harg7 arg8 harg8 arg9 harg9 hc0 hc1 x0 x1 x2 x3 x4 xs0).2.1 S1024x128.size (by sl_kernel_rfl) y
/-- Case C's stores into the accumulator are of the whole buffer, so they cover it. -/
theorem scover2_C_0 (c : Dev nD) (i : grid2.Coords) (arg2 : Memref sig .tc .vmem S1024x2048 .bf16) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .f32) (harg9 : arg9.IsWhole) (hc0 : ¬cond2_0 i) (hc1 : cond2_1 i)
    (x0 : Vec F S1024x2048 .bf16) (x1 : Vec F S8192x128 .bf16) (x2 : Vec F S1024x128 .f32) (x3 : Vec F S1x128 .f32) (x4 : Vec F S1x1 .f32) (xs0 : Vec F S1024x128 .f32) (y : S1024x128.Idx) :
    ∃ pc ∈ (kernelRun2_C c i arg2 harg2 arg3 harg3 arg4 harg4 arg5 harg5 arg6 harg6 arg7 harg7 arg8 harg8 arg9 harg9 hc0 hc1 x0 x1 x2 x3 x4 xs0).2.2.1, y ∈ pc.1.set :=
  View.cover_of_tiledL (kernelRun2_C c i arg2 harg2 arg3 harg3 arg4 harg4 arg5 harg5 arg6 harg6 arg7 harg7 arg8 harg8 arg9 harg9 hc0 hc1 x0 x1 x2 x3 x4 xs0).2.2.1 S1024x128.size (by sl_kernel_rfl) y
/-- What case C leaves in the accumulator. -/
def sout2_C_0 (c : Dev nD) (i : grid2.Coords) (arg2 : Memref sig .tc .vmem S1024x2048 .bf16) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .f32) (harg9 : arg9.IsWhole) (hc0 : ¬cond2_0 i) (hc1 : cond2_1 i)
    (x0 : Vec F S1024x2048 .bf16) (x1 : Vec F S8192x128 .bf16) (x2 : Vec F S1024x128 .f32) (x3 : Vec F S1x128 .f32) (x4 : Vec F S1x1 .f32) (xs0 : Vec F S1024x128 .f32) : Vec F S1024x128 .f32 :=
  VS2_0.read (Elt F) (VS2_0.writes (Elt F) VS2_0.junk (kernelRun2_C c i arg2 harg2 arg3 harg3 arg4 harg4 arg5 harg5 arg6 harg6 arg7 harg7 arg8 harg8 arg9 harg9 hc0 hc1 x0 x1 x2 x3 x4 xs0).2.2.1)

/-! ## What the outputs and the accumulator hold after each point -/

/-- After the body at position `n`: output 5's buffer, output 6's buffer, the accumulator. -/
def outsAt2 (c : Dev nD) : (n : ℕ) → n < cfg2.N → Vec F S1024x128 .bf16 × Vec F S1024x128 .f32 × Vec F S1024x128 .f32
  | 0, hn => (out2_A_5 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩), out2_A_6 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩))
  | n + 1, hn =>
    if h0 : (n + 1) % 4 = 0 then
      if h1 : (n + 1) % 4 = 3 then
        False.elim (by omega)
      else
        (out2_A_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩), out2_A_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩))
    else
      if h1 : (n + 1) % 4 = 3 then
        (out2_C_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.2, out2_C_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.2)
      else
        (out2_B_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.2, out2_B_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.2)

theorem outsAt2_A (c : Dev nD) (t : Fin cfg2.N) (h0 : t.val % 4 = 0) (h1 : ¬t.val % 4 = 3) :
    outsAt2 V c t.val t.isLt = (out2_A_5 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) ((hcond2_0 t).mpr h0) (fun h => h1 ((hcond2_1 t).mp h)) (iblk2 V c 0 t) (iblk2 V c 1 t) (iblk2 V c 2 t) (iblk2 V c 3 t) (iblk2 V c 4 t), out2_A_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) ((hcond2_0 t).mpr h0) (fun h => h1 ((hcond2_1 t).mp h)) (iblk2 V c 0 t) (iblk2 V c 1 t) (iblk2 V c 2 t) (iblk2 V c 3 t) (iblk2 V c 4 t), sout2_A_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) ((hcond2_0 t).mpr h0) (fun h => h1 ((hcond2_1 t).mp h)) (iblk2 V c 0 t) (iblk2 V c 1 t) (iblk2 V c 2 t) (iblk2 V c 3 t) (iblk2 V c 4 t)) := by
  obtain ⟨n, hn⟩ := t
  cases n with
  | zero => exact rfl
  | succ n => exact (dif_pos h0).trans ((dif_neg h1).trans rfl)

theorem outsAt2_B (c : Dev nD) (t : Fin cfg2.N) (h0 : ¬t.val % 4 = 0) (h1 : ¬t.val % 4 = 3) :
    outsAt2 V c t.val t.isLt = (out2_B_5 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2.2, out2_B_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2.2, sout2_B_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt2_C (c : Dev nD) (t : Fin cfg2.N) (h0 : ¬t.val % 4 = 0) (h1 : t.val % 4 = 3) :
    outsAt2 V c t.val t.isLt = (out2_C_5 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2.2, out2_C_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2.2, sout2_C_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before the first point: what the launch hands the call. Before any later point: the accumulator at what the
    point before left in it, every other scoped buffer unopened, the generator register at some state. -/
def PhiS2 (c : Dev nD) : (n : ℕ) → n ≤ cfg2.N → sProp 𝕄
  | 0, _ => Pipeline.ΦA spec2 c
  | n + 1, hn => iprop(iprop(iprop(owns (c : Thread nD τ) scM2_0 fullShare ((outsAt2 V c n hn).2.2))
      ∗ Pipeline.scopedRestBut (Ix := Unit) (Name := ℕ) (U := UR sig nD τ) (Lvl := ℕ) (Val := Elt F) spec2 c [cc2_scratch0]) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(iprop(owns (c : Thread nD τ) scM2_0 fullShare ((outsAt2 V c n hn).2.2))
      ∗ Pipeline.scopedRestBut (Ix := Unit) (Name := ℕ) (U := UR sig nD τ) (Lvl := ℕ) (Val := Elt F) spec2 c [cc2_scratch0]) ∗ (∃ r, prngReg c r)) := rfl

theorem PhiS2_pos (c : Dev nD) (n : ℕ) (h : n ≤ cfg2.N) (hz : n ≠ 0) :
    PhiS2 V c n h = iprop(iprop(iprop(owns (c : Thread nD τ) scM2_0 fullShare ((outsAt2 V c (n - 1) (by omega)).2.2))
      ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

/-! ## The proof data -/

/-- The proof data of the call on core `c`: the arrays as the call finds them; after the body at point `t` each
    input's buffer at its block and the outputs' at `outsAt2`; the invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => (outsAt2 V c t.val t.isLt).1
    | ⟨6, _⟩ => (outsAt2 V c t.val t.isLt).2.1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = (outsAt2 V c t.val t.isLt).1 := by dsimp only [dat2]
theorem after2_6 (c : Dev nD) (t : Fin cfg2.N) : (dat2 V c).after 6 t = (outsAt2 V c t.val t.isLt).2.1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

theorem liveAt2_0 : ∀ t : Fin cfg2.N, cfg2.idle 0 (grid2.coords t) = false := fun _ => rfl
theorem liveAt2_1 : ∀ t : Fin cfg2.N, cfg2.idle 1 (grid2.coords t) = false := fun _ => rfl
theorem liveAt2_2 : ∀ t : Fin cfg2.N, cfg2.idle 2 (grid2.coords t) = false := fun _ => rfl
theorem liveAt2_3 : ∀ t : Fin cfg2.N, cfg2.idle 3 (grid2.coords t) = false := fun _ => rfl
theorem liveAt2_4 : ∀ t : Fin cfg2.N, cfg2.idle 4 (grid2.coords t) = false := fun _ => rfl

/-! ## The body obligation -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t)

set_option maxHeartbeats 4800000 in
/-- The body at a point of case A that is the first of the grid (the accumulator is found at anything). -/
theorem sound_body2_A0 (c : Dev nD) (t : Fin cfg2.N) (h0 : t.val % 4 = 0) (h1 : ¬t.val % 4 = 3) (hz : t.val = 0) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  rw [show (dat2 V c).leavesExact 4 t = owns (c : Thread nD τ) (ms2_4 t) fullShare ((dat2 V c).after 4 t) from by
    unfold Dat.leavesExact; rw [liveAt2_4 t], after2_4]
  rw [Dat.leavesExact_idle (dat2 V c) 5 t (idleAt2_5_A t ((hcond2_0 t).mpr h0) (fun h => h1 ((hcond2_1 t).mp h))) (noFlush2_5_A t ((hcond2_0 t).mpr h0) (fun h => h1 ((hcond2_1 t).mp h)))]
  rw [Dat.leavesExact_idle (dat2 V c) 6 t (idleAt2_6_A t ((hcond2_0 t).mpr h0) (fun h => h1 ((hcond2_1 t).mp h))) (noFlush2_6_A t ((hcond2_0 t).mpr h0) (fun h => h1 ((hcond2_1 t).mp h)))]
  rw [outsAt2_A V c t h0 h1]
  unfold sout2_A_0; (try dsimp only)
  rw [PhiS2_castSucc V c t, PhiS2_zero V c _ _ hz, PhiA2_eq]
  iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩⟩
  iapply ((kernelRun2_A c (grid2.coords t) _ _ _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t)).2.2.2 _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  iintro ⟨H0, H1, H2, H3, H4, H5, H6, ⟨%es0, HS0⟩⟩
  isplitl [HS0 Hr Hg]
  · isplitl [HS0 Hr]
    · isplitl [HS0]
      · unfold owns; iexists _; isplitr
        swap; · iexact HS0
        ipureintro; exact View.read_writes_of_cover _ _ _ _ _ (scover2_A_0 c _ _ _ _ _ _ _ _ _ _ _ _ _ _ _ _ _ _ _ _ _ _ _ _)
      iexact Hr
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexists _; iexact H5
  iexists _; iexact H6

set_option maxHeartbeats 4800000 in
/-- The body at a point of case A that is not the first of the grid (the accumulator is found at what the point before left; the reset overwrites it). -/
theorem sound_body2_A (c : Dev nD) (t : Fin cfg2.N) (h0 : t.val % 4 = 0) (h1 : ¬t.val % 4 = 3) (hz : t.val ≠ 0) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  rw [show (dat2 V c).leavesExact 4 t = owns (c : Thread nD τ) (ms2_4 t) fullShare ((dat2 V c).after 4 t) from by
    unfold Dat.leavesExact; rw [liveAt2_4 t], after2_4]
  rw [Dat.leavesExact_idle (dat2 V c) 5 t (idleAt2_5_A t ((hcond2_0 t).mpr h0) (fun h => h1 ((hcond2_1 t).mp h))) (noFlush2_5_A t ((hcond2_0 t).mpr h0) (fun h => h1 ((hcond2_1 t).mp h)))]
  rw [Dat.leavesExact_idle (dat2 V c) 6 t (idleAt2_6_A t ((hcond2_0 t).mpr h0) (fun h => h1 ((hcond2_1 t).mp h))) (noFlush2_6_A t ((hcond2_0 t).mpr h0) (fun h => h1 ((hcond2_1 t).mp h)))]
  rw [outsAt2_A V c t h0 h1]
  unfold sout2_A_0; (try dsimp only)
  rw [PhiS2_castSucc V c t, PhiS2_pos V c _ _ hz]
  iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩⟩
  iapply ((kernelRun2_A c (grid2.coords t) _ _ _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t)).2.2.2 _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexists _; iexact HS0
  iintro ⟨H0, H1, H2, H3, H4, H5, H6, ⟨%es0, HS0⟩⟩
  isplitl [HS0 Hr Hg]
  · isplitl [HS0 Hr]
    · isplitl [HS0]
      · unfold owns; iexists _; isplitr
        swap; · iexact HS0
        ipureintro; exact View.read_writes_of_cover _ _ _ _ _ (scover2_A_0 c _ _ _ _ _ _ _ _ _ _ _ _ _ _ _ _ _ _ _ _ _ _ _ _)
      iexact Hr
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexists _; iexact H5
  iexists _; iexact H6

set_option maxHeartbeats 4800000 in
/-- The body at a point of case B. -/
theorem sound_body2_B (c : Dev nD) (t : Fin cfg2.N) (h0 : ¬t.val % 4 = 0) (h1 : ¬t.val % 4 = 3) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  rw [show (dat2 V c).leavesExact 4 t = owns (c : Thread nD τ) (ms2_4 t) fullShare ((dat2 V c).after 4 t) from by
    unfold Dat.leavesExact; rw [liveAt2_4 t], after2_4]
  rw [Dat.leavesExact_idle (dat2 V c) 5 t (idleAt2_5_B t (fun h => h0 ((hcond2_0 t).mp h)) (fun h => h1 ((hcond2_1 t).mp h))) (noFlush2_5_B t (fun h => h0 ((hcond2_0 t).mp h)) (fun h => h1 ((hcond2_1 t).mp h)))]
  rw [Dat.leavesExact_idle (dat2 V c) 6 t (idleAt2_6_B t (fun h => h0 ((hcond2_0 t).mp h)) (fun h => h1 ((hcond2_1 t).mp h))) (noFlush2_6_B t (fun h => h0 ((hcond2_0 t).mp h)) (fun h => h1 ((hcond2_1 t).mp h)))]
  rw [outsAt2_B V c t h0 h1]
  unfold sout2_B_0; (try dsimp only)
  have hz : t.val ≠ 0 := fun e => h0 (by rw [e])
  rw [PhiS2_castSucc V c t, PhiS2_pos V c _ _ hz]
  iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩⟩
  iapply ((kernelRun2_B c (grid2.coords t) _ _ _ _ _ _ _ _ _ _ _ _ _ _ _ _ (fun h => h0 ((hcond2_0 t).mp h)) (fun h => h1 ((hcond2_1 t).mp h)) (iblk2 V c 0 t) (iblk2 V c 1 t) (iblk2 V c 2 t) (iblk2 V c 3 t) (iblk2 V c 4 t) _).2.2.2 _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  iintro ⟨H0, H1, H2, H3, H4, H5, H6, ⟨%es0, HS0⟩⟩
  isplitl [HS0 Hr Hg]
  · isplitl [HS0 Hr]
    · isplitl [HS0]
      · unfold owns; iexists _; isplitr
        swap; · iexact HS0
        ipureintro; exact View.read_writes_of_cover _ _ _ _ _ (scover2_B_0 c _ _ _ _ _ _ _ _ _ _ _ _ _ _ _ _ _ _ _ _ _ _ _ _ _)
      iexact Hr
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexists _; iexact H5
  iexists _; iexact H6

set_option maxHeartbeats 4800000 in
/-- The body at a point of case C. -/
theorem sound_body2_C (c : Dev nD) (t : Fin cfg2.N) (h0 : ¬t.val % 4 = 0) (h1 : t.val % 4 = 3) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  rw [show (dat2 V c).leavesExact 4 t = owns (c : Thread nD τ) (ms2_4 t) fullShare ((dat2 V c).after 4 t) from by
    unfold Dat.leavesExact; rw [liveAt2_4 t], after2_4]
  rw [show (dat2 V c).leavesExact 5 t = owns (c : Thread nD τ) (ms2_5 t) fullShare ((dat2 V c).after 5 t) from by
    unfold Dat.leavesExact; rw [liveAt2_5_C t (fun h => h0 ((hcond2_0 t).mp h)) ((hcond2_1 t).mpr h1)], after2_5]
  rw [show (dat2 V c).leavesExact 6 t = owns (c : Thread nD τ) (ms2_6 t) fullShare ((dat2 V c).after 6 t) from by
    unfold Dat.leavesExact; rw [liveAt2_6_C t (fun h => h0 ((hcond2_0 t).mp h)) ((hcond2_1 t).mpr h1)], after2_6]
  rw [outsAt2_C V c t h0 h1]
  unfold out2_C_5 out2_C_6 sout2_C_0; (try dsimp only)
  have hz : t.val ≠ 0 := fun e => h0 (by rw [e])
  rw [PhiS2_castSucc V c t, PhiS2_pos V c _ _ hz]
  iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩⟩
  iapply ((kernelRun2_C c (grid2.coords t) _ _ _ _ _ _ _ _ _ _ _ _ _ _ _ _ (fun h => h0 ((hcond2_0 t).mp h)) ((hcond2_1 t).mpr h1) (iblk2 V c 0 t) (iblk2 V c 1 t) (iblk2 V c 2 t) (iblk2 V c 3 t) (iblk2 V c 4 t) _).2.2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [HS0]; · iexact HS0
  iintro ⟨H0, H1, H2, H3, H4, ⟨%e5, H5⟩, ⟨%e6, H6⟩, ⟨%es0, HS0⟩⟩
  isplitl [HS0 Hr Hg]
  · isplitl [HS0 Hr]
    · isplitl [HS0]
      · unfold owns; iexists _; isplitr
        swap; · iexact HS0
        ipureintro; exact View.read_writes_of_cover _ _ _ _ _ (scover2_C_0 c _ _ _ _ _ _ _ _ _ _ _ _ _ _ _ _ _ _ _ _ _ _ _ _ _)
      iexact Hr
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_of_cover _ _ _ _ _ (cover2_C_5 c _ _ _ _ _ _ _ _ _ _ _ _ _ _ _ _ _ _ _ _ _ _ _ _ _)
  unfold owns; iexists _; isplitr
  swap; · iexact H6
  ipureintro; exact View.read_writes_of_cover _ _ _ _ _ (cover2_C_6 c _ _ _ _ _ _ _ _ _ _ _ _ _ _ _ _ _ _ _ _ _ _ _ _ _)

/-- The body at any point: the point is in exactly one of the three cases. -/
theorem sound_body2 (c : Dev nD) (t : Fin cfg2.N) :
    bodyPre2 V c t ⊢ wp frame (wpE (defs₀ (F := F)) Variants.none c none) Set.univ (bodyAt2 t) (fun _ => bodyPost2 V c t) := by
  by_cases h0 : t.val % 4 = 0
  · have h1 : ¬t.val % 4 = 3 := by omega
    by_cases hz : t.val = 0
    · exact sound_body2_A0 V c t h0 h1 hz
    · exact sound_body2_A V c t h0 h1 hz
  · by_cases h1 : t.val % 4 = 3
    · exact sound_body2_C V c t h0 h1
    · exact sound_body2_B V c t h0 h1

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the call is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives back what the launch handed over: the accumulator's contents
    are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HS0, Hr⟩, Hg⟩
  isplitl [HS0 Hr]
  · isplitl [HS0]
    · iexists _; iexact HS0
    iexact Hr
  iexact Hg

/-- The same after the last point. -/
theorem hout2 (c : Dev nD) : (dat2 V c).Φ (Fin.last cfg2.N) ⊢ Pipeline.ΦA spec2 c :=
  Phi_out2 V c _ (by rw [Fin.val_last]; have : cfg2.N = 32 := N_2; omega)

end Cert.Kernel.Hand

end
-- ==== Proof.K.Prop4Runs.lean ====
import proofs.«131271_j4982162063661_2_alg».proof.Proof.Gen.Kernel.Launch
import proofs.«131271_j4982162063661_2_alg».proof.Proof.Gen.Kernel.Skeleton
import proofs.«131271_j4982162063661_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The propagate call number 4: what its three control cases share

The call runs on a grid of 8 x 4 points; point `t` has row tile `i = t / 4` and column tile `k = t % 4`.
The body zeroes its accumulator when `k = 0`, adds the product of the current tile of the matrix with the
matching 2048 rows of the propagated signal at every `k`, and when `k = 3` stores the accumulator into the
two outputs. So there are three control cases: `k = 0` (reset, no output stored), `k = 1, 2` (neither),
`k = 3` (outputs stored). Everything here is stated at the buffer contents `V` the call is entered with. -/

-- the buffer contents when the call is entered
variable (V : (c : Dev nD) → (b : Ref sig .tc) → Buf (Elt F) ((c : Thread nD τ).loc b))

/-- Window `w`'s block at point `t`, read off the window's array as the call finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds the window's block at every point, whether the pipeline fetched
    it there or not: where it was not fetched the block index has not moved since the point before. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds the window's block at every point, whether the pipeline fetched
    it there or not: where it was not fetched the block index has not moved since the point before. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds the window's block at every point, whether the pipeline fetched
    it there or not: where it was not fetched the block index has not moved since the point before. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's current staging buffer holds the window's block at every point, whether the pipeline fetched
    it there or not: where it was not fetched the block index has not moved since the point before. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Input window 4's current staging buffer holds the window's block at every point, whether the pipeline fetched
    it there or not: where it was not fetched the block index has not moved since the point before. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-! ## The body's two conditions, in closed form over the grid -/

/-- The condition of the first `scf.if` (the reset): the column tile is the first. -/
abbrev cond4_0 (i : grid4.Coords) : Prop := (Scalar.cmpi .ne (Scalar.extui (Scalar.cmpi .eq (BitVec.ofNat 32 (i 1).val) 0#32)) 0#32) = 1#1
theorem hcond4_0 : ∀ t : Fin cfg4.N, cond4_0 (grid4.coords t) ↔ t.val % 4 = 0 :=
  (by decide +kernel : ∀ t : Fin grid4.N, cond4_0 (grid4.coords t) ↔ t.val % 4 = 0)

/-- The condition of the second `scf.if` (the outputs' stores): the column tile is the last. -/
abbrev cond4_1 (i : grid4.Coords) : Prop := k4_cond2 i = 1#1
theorem hcond4_1 : ∀ t : Fin cfg4.N, cond4_1 (grid4.coords t) ↔ t.val % 4 = 3 :=
  (by decide +kernel : ∀ t : Fin grid4.N, cond4_1 (grid4.coords t) ↔ t.val % 4 = 3)

/-! ## Where the two outputs are idle -/

/-- At the points with k = 0 output 5 is idle: the body stores nothing into it and the pipeline does not write it back. -/
theorem idleAt4_5_A : ∀ t : Fin cfg4.N, cond4_0 (grid4.coords t) → ¬cond4_1 (grid4.coords t) → cfg4.idle 5 (grid4.coords t) = true := by decide +kernel
theorem noFlush4_5_A : ∀ t : Fin cfg4.N, cond4_0 (grid4.coords t) → ¬cond4_1 (grid4.coords t) → (cfg4.win 5).flush t = false := by decide +kernel
/-- The same at the points with k = 1 and k = 2. -/
theorem idleAt4_5_B : ∀ t : Fin cfg4.N, ¬cond4_0 (grid4.coords t) → ¬cond4_1 (grid4.coords t) → cfg4.idle 5 (grid4.coords t) = true := by decide +kernel
theorem noFlush4_5_B : ∀ t : Fin cfg4.N, ¬cond4_0 (grid4.coords t) → ¬cond4_1 (grid4.coords t) → (cfg4.win 5).flush t = false := by decide +kernel
/-- At the points with k = 3 output 5 is live: the body stores its whole block. -/
theorem liveAt4_5_C : ∀ t : Fin cfg4.N, ¬cond4_0 (grid4.coords t) → cond4_1 (grid4.coords t) → cfg4.idle 5 (grid4.coords t) = false := by decide +kernel

/-- At the points with k = 0 output 6 is idle: the body stores nothing into it and the pipeline does not write it back. -/
theorem idleAt4_6_A : ∀ t : Fin cfg4.N, cond4_0 (grid4.coords t) → ¬cond4_1 (grid4.coords t) → cfg4.idle 6 (grid4.coords t) = true := by decide +kernel
theorem noFlush4_6_A : ∀ t : Fin cfg4.N, cond4_0 (grid4.coords t) → ¬cond4_1 (grid4.coords t) → (cfg4.win 6).flush t = false := by decide +kernel
/-- The same at the points with k = 1 and k = 2. -/
theorem idleAt4_6_B : ∀ t : Fin cfg4.N, ¬cond4_0 (grid4.coords t) → ¬cond4_1 (grid4.coords t) → cfg4.idle 6 (grid4.coords t) = true := by decide +kernel
theorem noFlush4_6_B : ∀ t : Fin cfg4.N, ¬cond4_0 (grid4.coords t) → ¬cond4_1 (grid4.coords t) → (cfg4.win 6).flush t = false := by decide +kernel
/-- At the points with k = 3 output 6 is live: the body stores its whole block. -/
theorem liveAt4_6_C : ∀ t : Fin cfg4.N, ¬cond4_0 (grid4.coords t) → cond4_1 (grid4.coords t) → cfg4.idle 6 (grid4.coords t) = false := by decide +kernel

/-! ## The memrefs the body is called with -/

/-- One staging buffer of each output, through which its contents are stated (the choice does not matter). -/
abbrev VO4_5 : View sig .tc .vmem S1024x128 .bf16 := (Memref.whole cc4_stg5_0 : Memref sig .tc .vmem S1024x128 .bf16).view
abbrev VO4_6 : View sig .tc .vmem S1024x128 .f32 := (Memref.whole cc4_stg6_0 : Memref sig .tc .vmem S1024x128 .f32).view
abbrev ms4_0 (t : Fin cfg4.N) : Memref sig .tc .vmem S1024x2048 .bf16 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S8192x128 .bf16 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1024x128 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1x128 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S1x1 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S1024x128 .bf16 := win4_5.stage (cfg4.slots t 5)
abbrev hs4_5 (t : Fin cfg4.N) : (ms4_5 t).IsWhole := hstage4_5 ((cfg4.slots t 5).cast nbuf4_5)
abbrev ms4_6 (t : Fin cfg4.N) : Memref sig .tc .vmem S1024x128 .f32 := win4_6.stage (cfg4.slots t 6)
abbrev hs4_6 (t : Fin cfg4.N) : (ms4_6 t).IsWhole := hstage4_6 ((cfg4.slots t 6).cast nbuf4_6)
/-- The accumulator: a whole scoped buffer of the call's own, carried from point to point. -/
abbrev scM4_0 : Memref sig .tc .vmem S1024x128 .f32 := Memref.whole cc4_scratch0
abbrev VS4_0 : View sig .tc .vmem S1024x128 .f32 := scM4_0.view

/-- The invariant the launch hands the call, with the accumulator split out of the scoped buffers: the accumulator
    owned at some contents, every other scoped buffer unopened, the generator register at some state. -/
theorem PhiA4_eq (c : Dev nD) :
    (Pipeline.ΦA spec4 c : sProp 𝕄)
      = iprop(iprop(iprop((∃ d, owns (c : Thread nD τ) scM4_0 fullShare d))
          ∗ Pipeline.scopedRestBut (Ix := Unit) (Name := ℕ) (U := UR sig nD τ) (Lvl := ℕ) (Val := Elt F) spec4 c [cc4_scratch0]) ∗ (∃ r, prngReg c r)) := by
  unfold Pipeline.ΦA; rw [scopedRest4_split]; simp only [scM4_0, owns_whole]; try rfl

end Cert.Kernel.Hand

end
-- ==== Proof.K.Prop4RunA.lean ====
import proofs.«131271_j4982162063661_2_alg».proof.Proof.K.Prop4Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run when the column tile is the first (the accumulator is reset, then accumulated into; no output is stored): the lists of stores each buffer ends with, together with the proof that on whole
    staging memrefs — the inputs' at their contents, the outputs' at contents handed back untouched, the accumulator
    at anything — the body runs to the continuation holding the inputs' as they were,
    the accumulator with its stores written. The lists are found by running the body. -/
noncomputable def kernelRun4_A (c : Dev nD) (i : grid4.Coords) (arg2 : Memref sig .tc .vmem S1024x2048 .bf16) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .f32) (harg9 : arg9.IsWhole) (hc0 : cond4_0 i) (hc1 : ¬cond4_1 i)
    (x0 : Vec F S1024x2048 .bf16) (x1 : Vec F S8192x128 .bf16) (x2 : Vec F S1024x128 .f32) (x3 : Vec F S1x128 .f32) (x4 : Vec F S1x1 .f32) :
    Σ' (L5 : List (View.Piece (Elt F) S1024x128 .bf16)) (L6 : List (View.Piece (Elt F) S1024x128 .f32)), { LS0 : List (View.Piece (Elt F) S1024x128 .f32) //
      ∀ (xi5 : Vec F S1024x128 .bf16) (xi6 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc4__propagate_kernel i arg2 harg2 arg3 harg3 arg4 harg4 arg5 harg5 arg6 harg6 arg7 harg7 arg8 harg8 arg9 harg9) K } := by
  refine ⟨[], [], ?_, fun xi5 xi6 E K => ?run⟩
  case run =>
    simp only [cc4__propagate_kernel_eq_skeleton]; unfold cc4__propagate_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

end Cert.Kernel.Hand

end
-- ==== Proof.K.Prop4RunB.lean ====
import proofs.«131271_j4982162063661_2_alg».proof.Proof.K.Prop4RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run when the column tile is neither the first nor the last (the accumulator is accumulated into; no output is stored): the lists of stores each buffer ends with, together with the proof that on whole
    staging memrefs — the inputs' at their contents, the outputs' at contents handed back untouched, the accumulator
    at the contents the point before left — the body runs to the continuation holding the inputs' as they were,
    the accumulator with its stores written. The lists are found by running the body. -/
noncomputable def kernelRun4_B (c : Dev nD) (i : grid4.Coords) (arg2 : Memref sig .tc .vmem S1024x2048 .bf16) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .f32) (harg9 : arg9.IsWhole) (hc0 : ¬cond4_0 i) (hc1 : ¬cond4_1 i)
    (x0 : Vec F S1024x2048 .bf16) (x1 : Vec F S8192x128 .bf16) (x2 : Vec F S1024x128 .f32) (x3 : Vec F S1x128 .f32) (x4 : Vec F S1x1 .f32) (xs0 : Vec F S1024x128 .f32) :
    Σ' (L5 : List (View.Piece (Elt F) S1024x128 .bf16)) (L6 : List (View.Piece (Elt F) S1024x128 .f32)), { LS0 : List (View.Piece (Elt F) S1024x128 .f32) //
      ∀ (xi5 : Vec F S1024x128 .bf16) (xi6 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc4__propagate_kernel i arg2 harg2 arg3 harg3 arg4 harg4 arg5 harg5 arg6 harg6 arg7 harg7 arg8 harg8 arg9 harg9) K } := by
  refine ⟨[], [], ?_, fun xi5 xi6 E K => ?run⟩
  case run =>
    simp only [cc4__propagate_kernel_eq_skeleton]; unfold cc4__propagate_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

end Cert.Kernel.Hand

end
-- ==== Proof.K.Prop4RunC.lean ====
import proofs.«131271_j4982162063661_2_alg».proof.Proof.K.Prop4RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run when the column tile is the last (the accumulator is accumulated into, then stored into both outputs): the lists of stores each buffer ends with, together with the proof that on whole
    staging memrefs — the inputs' at their contents, the outputs' at anything, the accumulator
    at the contents the point before left — the body runs to the continuation holding the inputs' as they were,
    the accumulator with its stores written and each output's buffer with its stores written. The lists are found by running the body. -/
noncomputable def kernelRun4_C (c : Dev nD) (i : grid4.Coords) (arg2 : Memref sig .tc .vmem S1024x2048 .bf16) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .f32) (harg9 : arg9.IsWhole) (hc0 : ¬cond4_0 i) (hc1 : cond4_1 i)
    (x0 : Vec F S1024x2048 .bf16) (x1 : Vec F S8192x128 .bf16) (x2 : Vec F S1024x128 .f32) (x3 : Vec F S1x128 .f32) (x4 : Vec F S1x1 .f32) (xs0 : Vec F S1024x128 .f32) :
    Σ' (L5 : List (View.Piece (Elt F) S1024x128 .bf16)) (L6 : List (View.Piece (Elt F) S1024x128 .f32)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0)) -∗ K ⟨⟩))
          ⊢ wp frame (wpE (defs₀ (F := F)) Variants.none c none) E (cc4__propagate_kernel i arg2 harg2 arg3 harg3 arg4 harg4 arg5 harg5 arg6 harg6 arg7 harg7 arg8 harg8 arg9 harg9) K } := by
  refine ⟨?_, ?_, ?_, fun E K => ?run⟩
  case run =>
    simp only [cc4__propagate_kernel_eq_skeleton]; unfold cc4__propagate_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    iexists _; iexact HS0

end Cert.Kernel.Hand

end
-- ==== Proof.K.Prop4.lean ====
import proofs.«131271_j4982162063661_2_alg».proof.Proof.K.Prop4RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The propagate call number 4: its proof data and body obligation at the entry contents `V`

What the two outputs' staging buffers and the accumulator hold after each point is defined by recursion on the
point (`outsAt4`): the case the point is in, run on the point's memrefs and input blocks, over what the point
before left in the accumulator. The invariant between points keeps the accumulator at exactly those contents. -/

variable (V : (c : Dev nD) → (b : Ref sig .tc) → Buf (Elt F) ((c : Thread nD τ).loc b))

/-! ## What each case leaves -/

/-- What case A leaves in output 5's staging buffer: its stores read back over arbitrary contents (there are none: the output is idle in this case and nothing consults this value). -/
def out4_A_5 (c : Dev nD) (i : grid4.Coords) (arg2 : Memref sig .tc .vmem S1024x2048 .bf16) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .f32) (harg9 : arg9.IsWhole) (hc0 : cond4_0 i) (hc1 : ¬cond4_1 i)
    (x0 : Vec F S1024x2048 .bf16) (x1 : Vec F S8192x128 .bf16) (x2 : Vec F S1024x128 .f32) (x3 : Vec F S1x128 .f32) (x4 : Vec F S1x1 .f32) : Vec F S1024x128 .bf16 :=
  VO4_5.read (Elt F) (VO4_5.writes (Elt F) VO4_5.junk (kernelRun4_A c i arg2 harg2 arg3 harg3 arg4 harg4 arg5 harg5 arg6 harg6 arg7 harg7 arg8 harg8 arg9 harg9 hc0 hc1 x0 x1 x2 x3 x4).1)
/-- The same for output 6. -/
def out4_A_6 (c : Dev nD) (i : grid4.Coords) (arg2 : Memref sig .tc .vmem S1024x2048 .bf16) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .f32) (harg9 : arg9.IsWhole) (hc0 : cond4_0 i) (hc1 : ¬cond4_1 i)
    (x0 : Vec F S1024x2048 .bf16) (x1 : Vec F S8192x128 .bf16) (x2 : Vec F S1024x128 .f32) (x3 : Vec F S1x128 .f32) (x4 : Vec F S1x1 .f32) : Vec F S1024x128 .f32 :=
  VO4_6.read (Elt F) (VO4_6.writes (Elt F) VO4_6.junk (kernelRun4_A c i arg2 harg2 arg3 harg3 arg4 harg4 arg5 harg5 arg6 harg6 arg7 harg7 arg8 harg8 arg9 harg9 hc0 hc1 x0 x1 x2 x3 x4).2.1)
/-- Case A's stores into the accumulator are of the whole buffer, so they cover it. -/
theorem scover4_A_0 (c : Dev nD) (i : grid4.Coords) (arg2 : Memref sig .tc .vmem S1024x2048 .bf16) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .f32) (harg9 : arg9.IsWhole) (hc0 : cond4_0 i) (hc1 : ¬cond4_1 i)
    (x0 : Vec F S1024x2048 .bf16) (x1 : Vec F S8192x128 .bf16) (x2 : Vec F S1024x128 .f32) (x3 : Vec F S1x128 .f32) (x4 : Vec F S1x1 .f32) (y : S1024x128.Idx) :
    ∃ pc ∈ (kernelRun4_A c i arg2 harg2 arg3 harg3 arg4 harg4 arg5 harg5 arg6 harg6 arg7 harg7 arg8 harg8 arg9 harg9 hc0 hc1 x0 x1 x2 x3 x4).2.2.1, y ∈ pc.1.set :=
  View.cover_of_tiledL (kernelRun4_A c i arg2 harg2 arg3 harg3 arg4 harg4 arg5 harg5 arg6 harg6 arg7 harg7 arg8 harg8 arg9 harg9 hc0 hc1 x0 x1 x2 x3 x4).2.2.1 S1024x128.size (by sl_kernel_rfl) y
/-- What case A leaves in the accumulator. -/
def sout4_A_0 (c : Dev nD) (i : grid4.Coords) (arg2 : Memref sig .tc .vmem S1024x2048 .bf16) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .f32) (harg9 : arg9.IsWhole) (hc0 : cond4_0 i) (hc1 : ¬cond4_1 i)
    (x0 : Vec F S1024x2048 .bf16) (x1 : Vec F S8192x128 .bf16) (x2 : Vec F S1024x128 .f32) (x3 : Vec F S1x128 .f32) (x4 : Vec F S1x1 .f32) : Vec F S1024x128 .f32 :=
  VS4_0.read (Elt F) (VS4_0.writes (Elt F) VS4_0.junk (kernelRun4_A c i arg2 harg2 arg3 harg3 arg4 harg4 arg5 harg5 arg6 harg6 arg7 harg7 arg8 harg8 arg9 harg9 hc0 hc1 x0 x1 x2 x3 x4).2.2.1)

/-- What case B leaves in output 5's staging buffer: its stores read back over arbitrary contents (there are none: the output is idle in this case and nothing consults this value). -/
def out4_B_5 (c : Dev nD) (i : grid4.Coords) (arg2 : Memref sig .tc .vmem S1024x2048 .bf16) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .f32) (harg9 : arg9.IsWhole) (hc0 : ¬cond4_0 i) (hc1 : ¬cond4_1 i)
    (x0 : Vec F S1024x2048 .bf16) (x1 : Vec F S8192x128 .bf16) (x2 : Vec F S1024x128 .f32) (x3 : Vec F S1x128 .f32) (x4 : Vec F S1x1 .f32) (xs0 : Vec F S1024x128 .f32) : Vec F S1024x128 .bf16 :=
  VO4_5.read (Elt F) (VO4_5.writes (Elt F) VO4_5.junk (kernelRun4_B c i arg2 harg2 arg3 harg3 arg4 harg4 arg5 harg5 arg6 harg6 arg7 harg7 arg8 harg8 arg9 harg9 hc0 hc1 x0 x1 x2 x3 x4 xs0).1)
/-- The same for output 6. -/
def out4_B_6 (c : Dev nD) (i : grid4.Coords) (arg2 : Memref sig .tc .vmem S1024x2048 .bf16) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .f32) (harg9 : arg9.IsWhole) (hc0 : ¬cond4_0 i) (hc1 : ¬cond4_1 i)
    (x0 : Vec F S1024x2048 .bf16) (x1 : Vec F S8192x128 .bf16) (x2 : Vec F S1024x128 .f32) (x3 : Vec F S1x128 .f32) (x4 : Vec F S1x1 .f32) (xs0 : Vec F S1024x128 .f32) : Vec F S1024x128 .f32 :=
  VO4_6.read (Elt F) (VO4_6.writes (Elt F) VO4_6.junk (kernelRun4_B c i arg2 harg2 arg3 harg3 arg4 harg4 arg5 harg5 arg6 harg6 arg7 harg7 arg8 harg8 arg9 harg9 hc0 hc1 x0 x1 x2 x3 x4 xs0).2.1)
/-- Case B's stores into the accumulator are of the whole buffer, so they cover it. -/
theorem scover4_B_0 (c : Dev nD) (i : grid4.Coords) (arg2 : Memref sig .tc .vmem S1024x2048 .bf16) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .f32) (harg9 : arg9.IsWhole) (hc0 : ¬cond4_0 i) (hc1 : ¬cond4_1 i)
    (x0 : Vec F S1024x2048 .bf16) (x1 : Vec F S8192x128 .bf16) (x2 : Vec F S1024x128 .f32) (x3 : Vec F S1x128 .f32) (x4 : Vec F S1x1 .f32) (xs0 : Vec F S1024x128 .f32) (y : S1024x128.Idx) :
    ∃ pc ∈ (kernelRun4_B c i arg2 harg2 arg3 harg3 arg4 harg4 arg5 harg5 arg6 harg6 arg7 harg7 arg8 harg8 arg9 harg9 hc0 hc1 x0 x1 x2 x3 x4 xs0).2.2.1, y ∈ pc.1.set :=
  View.cover_of_tiledL (kernelRun4_B c i arg2 harg2 arg3 harg3 arg4 harg4 arg5 harg5 arg6 harg6 arg7 harg7 arg8 harg8 arg9 harg9 hc0 hc1 x0 x1 x2 x3 x4 xs0).2.2.1 S1024x128.size (by sl_kernel_rfl) y
/-- What case B leaves in the accumulator. -/
def sout4_B_0 (c : Dev nD) (i : grid4.Coords) (arg2 : Memref sig .tc .vmem S1024x2048 .bf16) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .f32) (harg9 : arg9.IsWhole) (hc0 : ¬cond4_0 i) (hc1 : ¬cond4_1 i)
    (x0 : Vec F S1024x2048 .bf16) (x1 : Vec F S8192x128 .bf16) (x2 : Vec F S1024x128 .f32) (x3 : Vec F S1x128 .f32) (x4 : Vec F S1x1 .f32) (xs0 : Vec F S1024x128 .f32) : Vec F S1024x128 .f32 :=
  VS4_0.read (Elt F) (VS4_0.writes (Elt F) VS4_0.junk (kernelRun4_B c i arg2 harg2 arg3 harg3 arg4 harg4 arg5 harg5 arg6 harg6 arg7 harg7 arg8 harg8 arg9 harg9 hc0 hc1 x0 x1 x2 x3 x4 xs0).2.2.1)

/-- What case C leaves in output 5's staging buffer: its stores read back over arbitrary contents. -/
def out4_C_5 (c : Dev nD) (i : grid4.Coords) (arg2 : Memref sig .tc .vmem S1024x2048 .bf16) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .f32) (harg9 : arg9.IsWhole) (hc0 : ¬cond4_0 i) (hc1 : cond4_1 i)
    (x0 : Vec F S1024x2048 .bf16) (x1 : Vec F S8192x128 .bf16) (x2 : Vec F S1024x128 .f32) (x3 : Vec F S1x128 .f32) (x4 : Vec F S1x1 .f32) (xs0 : Vec F S1024x128 .f32) : Vec F S1024x128 .bf16 :=
  VO4_5.read (Elt F) (VO4_5.writes (Elt F) VO4_5.junk (kernelRun4_C c i arg2 harg2 arg3 harg3 arg4 harg4 arg5 harg5 arg6 harg6 arg7 harg7 arg8 harg8 arg9 harg9 hc0 hc1 x0 x1 x2 x3 x4 xs0).1)
/-- The same for output 6. -/
def out4_C_6 (c : Dev nD) (i : grid4.Coords) (arg2 : Memref sig .tc .vmem S1024x2048 .bf16) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .f32) (harg9 : arg9.IsWhole) (hc0 : ¬cond4_0 i) (hc1 : cond4_1 i)
    (x0 : Vec F S1024x2048 .bf16) (x1 : Vec F S8192x128 .bf16) (x2 : Vec F S1024x128 .f32) (x3 : Vec F S1x128 .f32) (x4 : Vec F S1x1 .f32) (xs0 : Vec F S1024x128 .f32) : Vec F S1024x128 .f32 :=
  VO4_6.read (Elt F) (VO4_6.writes (Elt F) VO4_6.junk (kernelRun4_C c i arg2 harg2 arg3 harg3 arg4 harg4 arg5 harg5 arg6 harg6 arg7 harg7 arg8 harg8 arg9 harg9 hc0 hc1 x0 x1 x2 x3 x4 xs0).2.1)
/-- Case C's one store into output 5 is of the whole block, so it covers it. -/
theorem cover4_C_5 (c : Dev nD) (i : grid4.Coords) (arg2 : Memref sig .tc .vmem S1024x2048 .bf16) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .f32) (harg9 : arg9.IsWhole) (hc0 : ¬cond4_0 i) (hc1 : cond4_1 i)
    (x0 : Vec F S1024x2048 .bf16) (x1 : Vec F S8192x128 .bf16) (x2 : Vec F S1024x128 .f32) (x3 : Vec F S1x128 .f32) (x4 : Vec F S1x1 .f32) (xs0 : Vec F S1024x128 .f32) (y : S1024x128.Idx) :
    ∃ pc ∈ (kernelRun4_C c i arg2 harg2 arg3 harg3 arg4 harg4 arg5 harg5 arg6 harg6 arg7 harg7 arg8 harg8 arg9 harg9 hc0 hc1 x0 x1 x2 x3 x4 xs0).1, y ∈ pc.1.set :=
  View.cover_of_tiledL (kernelRun4_C c i arg2 harg2 arg3 harg3 arg4 harg4 arg5 harg5 arg6 harg6 arg7 harg7 arg8 harg8 arg9 harg9 hc0 hc1 x0 x1 x2 x3 x4 xs0).1 S1024x128.size (by sl_kernel_rfl) y
/-- The same for output 6. -/
theorem cover4_C_6 (c : Dev nD) (i : grid4.Coords) (arg2 : Memref sig .tc .vmem S1024x2048 .bf16) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .f32) (harg9 : arg9.IsWhole) (hc0 : ¬cond4_0 i) (hc1 : cond4_1 i)
    (x0 : Vec F S1024x2048 .bf16) (x1 : Vec F S8192x128 .bf16) (x2 : Vec F S1024x128 .f32) (x3 : Vec F S1x128 .f32) (x4 : Vec F S1x1 .f32) (xs0 : Vec F S1024x128 .f32) (y : S1024x128.Idx) :
    ∃ pc ∈ (kernelRun4_C c i arg2 harg2 arg3 harg3 arg4 harg4 arg5 harg5 arg6 harg6 arg7 harg7 arg8 harg8 arg9 harg9 hc0 hc1 x0 x1 x2 x3 x4 xs0).2.1, y ∈ pc.1.set :=
  View.cover_of_tiledL (kernelRun4_C c i arg2 harg2 arg3 harg3 arg4 harg4 arg5 harg5 arg6 harg6 arg7 harg7 arg8 harg8 arg9 harg9 hc0 hc1 x0 x1 x2 x3 x4 xs0).2.1 S1024x128.size (by sl_kernel_rfl) y
/-- Case C's stores into the accumulator are of the whole buffer, so they cover it. -/
theorem scover4_C_0 (c : Dev nD) (i : grid4.Coords) (arg2 : Memref sig .tc .vmem S1024x2048 .bf16) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .f32) (harg9 : arg9.IsWhole) (hc0 : ¬cond4_0 i) (hc1 : cond4_1 i)
    (x0 : Vec F S1024x2048 .bf16) (x1 : Vec F S8192x128 .bf16) (x2 : Vec F S1024x128 .f32) (x3 : Vec F S1x128 .f32) (x4 : Vec F S1x1 .f32) (xs0 : Vec F S1024x128 .f32) (y : S1024x128.Idx) :
    ∃ pc ∈ (kernelRun4_C c i arg2 harg2 arg3 harg3 arg4 harg4 arg5 harg5 arg6 harg6 arg7 harg7 arg8 harg8 arg9 harg9 hc0 hc1 x0 x1 x2 x3 x4 xs0).2.2.1, y ∈ pc.1.set :=
  View.cover_of_tiledL (kernelRun4_C c i arg2 harg2 arg3 harg3 arg4 harg4 arg5 harg5 arg6 harg6 arg7 harg7 arg8 harg8 arg9 harg9 hc0 hc1 x0 x1 x2 x3 x4 xs0).2.2.1 S1024x128.size (by sl_kernel_rfl) y
/-- What case C leaves in the accumulator. -/
def sout4_C_0 (c : Dev nD) (i : grid4.Coords) (arg2 : Memref sig .tc .vmem S1024x2048 .bf16) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .f32) (harg9 : arg9.IsWhole) (hc0 : ¬cond4_0 i) (hc1 : cond4_1 i)
    (x0 : Vec F S1024x2048 .bf16) (x1 : Vec F S8192x128 .bf16) (x2 : Vec F S1024x128 .f32) (x3 : Vec F S1x128 .f32) (x4 : Vec F S1x1 .f32) (xs0 : Vec F S1024x128 .f32) : Vec F S1024x128 .f32 :=
  VS4_0.read (Elt F) (VS4_0.writes (Elt F) VS4_0.junk (kernelRun4_C c i arg2 harg2 arg3 harg3 arg4 harg4 arg5 harg5 arg6 harg6 arg7 harg7 arg8 harg8 arg9 harg9 hc0 hc1 x0 x1 x2 x3 x4 xs0).2.2.1)

/-! ## What the outputs and the accumulator hold after each point -/

/-- After the body at position `n`: output 5's buffer, output 6's buffer, the accumulator. -/
def outsAt4 (c : Dev nD) : (n : ℕ) → n < cfg4.N → Vec F S1024x128 .bf16 × Vec F S1024x128 .f32 × Vec F S1024x128 .f32
  | 0, hn => (out4_A_5 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) scM4_0 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩) (iblk4 V c 3 ⟨0, hn⟩) (iblk4 V c 4 ⟨0, hn⟩), out4_A_6 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) scM4_0 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩) (iblk4 V c 3 ⟨0, hn⟩) (iblk4 V c 4 ⟨0, hn⟩), sout4_A_0 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) scM4_0 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩) (iblk4 V c 3 ⟨0, hn⟩) (iblk4 V c 4 ⟨0, hn⟩))
  | n + 1, hn =>
    if h0 : (n + 1) % 4 = 0 then
      if h1 : (n + 1) % 4 = 3 then
        False.elim (by omega)
      else
        (out4_A_5 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩), out4_A_6 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩), sout4_A_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩))
    else
      if h1 : (n + 1) % 4 = 3 then
        (out4_C_5 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (outsAt4 c n (Nat.lt_of_succ_lt hn)).2.2, out4_C_6 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (outsAt4 c n (Nat.lt_of_succ_lt hn)).2.2, sout4_C_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (outsAt4 c n (Nat.lt_of_succ_lt hn)).2.2)
      else
        (out4_B_5 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (outsAt4 c n (Nat.lt_of_succ_lt hn)).2.2, out4_B_6 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (outsAt4 c n (Nat.lt_of_succ_lt hn)).2.2, sout4_B_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (outsAt4 c n (Nat.lt_of_succ_lt hn)).2.2)

theorem outsAt4_A (c : Dev nD) (t : Fin cfg4.N) (h0 : t.val % 4 = 0) (h1 : ¬t.val % 4 = 3) :
    outsAt4 V c t.val t.isLt = (out4_A_5 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) ((hcond4_0 t).mpr h0) (fun h => h1 ((hcond4_1 t).mp h)) (iblk4 V c 0 t) (iblk4 V c 1 t) (iblk4 V c 2 t) (iblk4 V c 3 t) (iblk4 V c 4 t), out4_A_6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) ((hcond4_0 t).mpr h0) (fun h => h1 ((hcond4_1 t).mp h)) (iblk4 V c 0 t) (iblk4 V c 1 t) (iblk4 V c 2 t) (iblk4 V c 3 t) (iblk4 V c 4 t), sout4_A_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) ((hcond4_0 t).mpr h0) (fun h => h1 ((hcond4_1 t).mp h)) (iblk4 V c 0 t) (iblk4 V c 1 t) (iblk4 V c 2 t) (iblk4 V c 3 t) (iblk4 V c 4 t)) := by
  obtain ⟨n, hn⟩ := t
  cases n with
  | zero => exact rfl
  | succ n => exact (dif_pos h0).trans ((dif_neg h1).trans rfl)

theorem outsAt4_B (c : Dev nD) (t : Fin cfg4.N) (h0 : ¬t.val % 4 = 0) (h1 : ¬t.val % 4 = 3) :
    outsAt4 V c t.val t.isLt = (out4_B_5 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) (fun h => h0 ((hcond4_0 t).mp h)) (fun h => h1 ((hcond4_1 t).mp h)) (iblk4 V c 0 t) (iblk4 V c 1 t) (iblk4 V c 2 t) (iblk4 V c 3 t) (iblk4 V c 4 t) (outsAt4 V c (t.val - 1) (Nat.lt_of_le_of_lt (Nat.sub_le _ _) t.isLt)).2.2, out4_B_6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) (fun h => h0 ((hcond4_0 t).mp h)) (fun h => h1 ((hcond4_1 t).mp h)) (iblk4 V c 0 t) (iblk4 V c 1 t) (iblk4 V c 2 t) (iblk4 V c 3 t) (iblk4 V c 4 t) (outsAt4 V c (t.val - 1) (Nat.lt_of_le_of_lt (Nat.sub_le _ _) t.isLt)).2.2, sout4_B_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) (fun h => h0 ((hcond4_0 t).mp h)) (fun h => h1 ((hcond4_1 t).mp h)) (iblk4 V c 0 t) (iblk4 V c 1 t) (iblk4 V c 2 t) (iblk4 V c 3 t) (iblk4 V c 4 t) (outsAt4 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt4_C (c : Dev nD) (t : Fin cfg4.N) (h0 : ¬t.val % 4 = 0) (h1 : t.val % 4 = 3) :
    outsAt4 V c t.val t.isLt = (out4_C_5 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) (fun h => h0 ((hcond4_0 t).mp h)) ((hcond4_1 t).mpr h1) (iblk4 V c 0 t) (iblk4 V c 1 t) (iblk4 V c 2 t) (iblk4 V c 3 t) (iblk4 V c 4 t) (outsAt4 V c (t.val - 1) (Nat.lt_of_le_of_lt (Nat.sub_le _ _) t.isLt)).2.2, out4_C_6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) (fun h => h0 ((hcond4_0 t).mp h)) ((hcond4_1 t).mpr h1) (iblk4 V c 0 t) (iblk4 V c 1 t) (iblk4 V c 2 t) (iblk4 V c 3 t) (iblk4 V c 4 t) (outsAt4 V c (t.val - 1) (Nat.lt_of_le_of_lt (Nat.sub_le _ _) t.isLt)).2.2, sout4_C_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) (fun h => h0 ((hcond4_0 t).mp h)) ((hcond4_1 t).mpr h1) (iblk4 V c 0 t) (iblk4 V c 1 t) (iblk4 V c 2 t) (iblk4 V c 3 t) (iblk4 V c 4 t) (outsAt4 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before the first point: what the launch hands the call. Before any later point: the accumulator at what the
    point before left in it, every other scoped buffer unopened, the generator register at some state. -/
def PhiS4 (c : Dev nD) : (n : ℕ) → n ≤ cfg4.N → sProp 𝕄
  | 0, _ => Pipeline.ΦA spec4 c
  | n + 1, hn => iprop(iprop(iprop(owns (c : Thread nD τ) scM4_0 fullShare ((outsAt4 V c n hn).2.2))
      ∗ Pipeline.scopedRestBut (Ix := Unit) (Name := ℕ) (U := UR sig nD τ) (Lvl := ℕ) (Val := Elt F) spec4 c [cc4_scratch0]) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(iprop(owns (c : Thread nD τ) scM4_0 fullShare ((outsAt4 V c n hn).2.2))
      ∗ Pipeline.scopedRestBut (Ix := Unit) (Name := ℕ) (U := UR sig nD τ) (Lvl := ℕ) (Val := Elt F) spec4 c [cc4_scratch0]) ∗ (∃ r, prngReg c r)) := rfl

theorem PhiS4_pos (c : Dev nD) (n : ℕ) (h : n ≤ cfg4.N) (hz : n ≠ 0) :
    PhiS4 V c n h = iprop(iprop(iprop(owns (c : Thread nD τ) scM4_0 fullShare ((outsAt4 V c (n - 1) (by omega)).2.2))
      ∗ Pipeline.scopedRestBut (Ix := Unit) (Name := ℕ) (U := UR sig nD τ) (Lvl := ℕ) (Val := Elt F) spec4 c [cc4_scratch0]) ∗ (∃ r, prngReg c r)) := by
  cases n with
  | zero => exact absurd rfl hz
  | succ n => rfl

/-! ## The proof data -/

/-- The proof data of the call on core `c`: the arrays as the call finds them; after the body at point `t` each
    input's buffer at its block and the outputs' at `outsAt4`; the invariant `PhiS4`; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => (outsAt4 V c t.val t.isLt).1
    | ⟨6, _⟩ => (outsAt4 V c t.val t.isLt).2.1
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = (outsAt4 V c t.val t.isLt).1 := by dsimp only [dat4]
theorem after4_6 (c : Dev nD) (t : Fin cfg4.N) : (dat4 V c).after 6 t = (outsAt4 V c t.val t.isLt).2.1 := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d

theorem liveAt4_0 : ∀ t : Fin cfg4.N, cfg4.idle 0 (grid4.coords t) = false := fun _ => rfl
theorem liveAt4_1 : ∀ t : Fin cfg4.N, cfg4.idle 1 (grid4.coords t) = false := fun _ => rfl
theorem liveAt4_2 : ∀ t : Fin cfg4.N, cfg4.idle 2 (grid4.coords t) = false := fun _ => rfl
theorem liveAt4_3 : ∀ t : Fin cfg4.N, cfg4.idle 3 (grid4.coords t) = false := fun _ => rfl
theorem liveAt4_4 : ∀ t : Fin cfg4.N, cfg4.idle 4 (grid4.coords t) = false := fun _ => rfl

/-! ## The body obligation -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d))
    ∗ (∃ d, owns (c : Thread nD τ) (ms4_6 t) fullShare ((dat4 V c).before 6 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t
    ∗ (dat4 V c).leavesExact 6 t)

set_option maxHeartbeats 4800000 in
/-- The body at a point of case A that is the first of the grid (the accumulator is found at anything). -/
theorem sound_body4_A0 (c : Dev nD) (t : Fin cfg4.N) (h0 : t.val % 4 = 0) (h1 : ¬t.val % 4 = 3) (hz : t.val = 0) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).owesAt () t.succ = (dat4 V c).owesAt () t.castSucc from rfl]
  rw [show (dat4 V c).Φ t.succ = PhiS4 V c (t.val + 1) t.isLt from rfl, PhiS4_succ]
  rw [show (dat4 V c).leavesExact 0 t = owns (c : Thread nD τ) (ms4_0 t) fullShare ((dat4 V c).after 0 t) from by
    unfold Dat.leavesExact; rw [liveAt4_0 t], after4_0]
  rw [show (dat4 V c).leavesExact 1 t = owns (c : Thread nD τ) (ms4_1 t) fullShare ((dat4 V c).after 1 t) from by
    unfold Dat.leavesExact; rw [liveAt4_1 t], after4_1]
  rw [show (dat4 V c).leavesExact 2 t = owns (c : Thread nD τ) (ms4_2 t) fullShare ((dat4 V c).after 2 t) from by
    unfold Dat.leavesExact; rw [liveAt4_2 t], after4_2]
  rw [show (dat4 V c).leavesExact 3 t = owns (c : Thread nD τ) (ms4_3 t) fullShare ((dat4 V c).after 3 t) from by
    unfold Dat.leavesExact; rw [liveAt4_3 t], after4_3]
  rw [show (dat4 V c).leavesExact 4 t = owns (c : Thread nD τ) (ms4_4 t) fullShare ((dat4 V c).after 4 t) from by
    unfold Dat.leavesExact; rw [liveAt4_4 t], after4_4]
  rw [Dat.leavesExact_idle (dat4 V c) 5 t (idleAt4_5_A t ((hcond4_0 t).mpr h0) (fun h => h1 ((hcond4_1 t).mp h))) (noFlush4_5_A t ((hcond4_0 t).mpr h0) (fun h => h1 ((hcond4_1 t).mp h)))]
  rw [Dat.leavesExact_idle (dat4 V c) 6 t (idleAt4_6_A t ((hcond4_0 t).mpr h0) (fun h => h1 ((hcond4_1 t).mp h))) (noFlush4_6_A t ((hcond4_0 t).mpr h0) (fun h => h1 ((hcond4_1 t).mp h)))]
  rw [outsAt4_A V c t h0 h1]
  unfold sout4_A_0; (try dsimp only)
  rw [PhiS4_castSucc V c t, PhiS4_zero V c _ _ hz, PhiA4_eq]
  iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩⟩
  iapply ((kernelRun4_A c (grid4.coords t) _ _ _ _ _ _ _ _ _ _ _ _ _ _ _ _ ((hcond4_0 t).mpr h0) (fun h => h1 ((hcond4_1 t).mp h)) (iblk4 V c 0 t) (iblk4 V c 1 t) (iblk4 V c 2 t) (iblk4 V c 3 t) (iblk4 V c 4 t)).2.2.2 _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  iintro ⟨H0, H1, H2, H3, H4, H5, H6, ⟨%es0, HS0⟩⟩
  isplitl [HS0 Hr Hg]
  · isplitl [HS0 Hr]
    · isplitl [HS0]
      · unfold owns; iexists _; isplitr
        swap; · iexact HS0
        ipureintro; exact View.read_writes_of_cover _ _ _ _ _ (scover4_A_0 c _ _ _ _ _ _ _ _ _ _ _ _ _ _ _ _ _ _ _ _ _ _ _ _)
      iexact Hr
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexists _; iexact H5
  iexists _; iexact H6

set_option maxHeartbeats 4800000 in
/-- The body at a point of case A that is not the first of the grid (the accumulator is found at what the point before left; the reset overwrites it). -/
theorem sound_body4_A (c : Dev nD) (t : Fin cfg4.N) (h0 : t.val % 4 = 0) (h1 : ¬t.val % 4 = 3) (hz : t.val ≠ 0) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).owesAt () t.succ = (dat4 V c).owesAt () t.castSucc from rfl]
  rw [show (dat4 V c).Φ t.succ = PhiS4 V c (t.val + 1) t.isLt from rfl, PhiS4_succ]
  rw [show (dat4 V c).leavesExact 0 t = owns (c : Thread nD τ) (ms4_0 t) fullShare ((dat4 V c).after 0 t) from by
    unfold Dat.leavesExact; rw [liveAt4_0 t], after4_0]
  rw [show (dat4 V c).leavesExact 1 t = owns (c : Thread nD τ) (ms4_1 t) fullShare ((dat4 V c).after 1 t) from by
    unfold Dat.leavesExact; rw [liveAt4_1 t], after4_1]
  rw [show (dat4 V c).leavesExact 2 t = owns (c : Thread nD τ) (ms4_2 t) fullShare ((dat4 V c).after 2 t) from by
    unfold Dat.leavesExact; rw [liveAt4_2 t], after4_2]
  rw [show (dat4 V c).leavesExact 3 t = owns (c : Thread nD τ) (ms4_3 t) fullShare ((dat4 V c).after 3 t) from by
    unfold Dat.leavesExact; rw [liveAt4_3 t], after4_3]
  rw [show (dat4 V c).leavesExact 4 t = owns (c : Thread nD τ) (ms4_4 t) fullShare ((dat4 V c).after 4 t) from by
    unfold Dat.leavesExact; rw [liveAt4_4 t], after4_4]
  rw [Dat.leavesExact_idle (dat4 V c) 5 t (idleAt4_5_A t ((hcond4_0 t).mpr h0) (fun h => h1 ((hcond4_1 t).mp h))) (noFlush4_5_A t ((hcond4_0 t).mpr h0) (fun h => h1 ((hcond4_1 t).mp h)))]
  rw [Dat.leavesExact_idle (dat4 V c) 6 t (idleAt4_6_A t ((hcond4_0 t).mpr h0) (fun h => h1 ((hcond4_1 t).mp h))) (noFlush4_6_A t ((hcond4_0 t).mpr h0) (fun h => h1 ((hcond4_1 t).mp h)))]
  rw [outsAt4_A V c t h0 h1]
  unfold sout4_A_0; (try dsimp only)
  rw [PhiS4_castSucc V c t, PhiS4_pos V c _ _ hz]
  iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩⟩
  iapply ((kernelRun4_A c (grid4.coords t) _ _ _ _ _ _ _ _ _ _ _ _ _ _ _ _ ((hcond4_0 t).mpr h0) (fun h => h1 ((hcond4_1 t).mp h)) (iblk4 V c 0 t) (iblk4 V c 1 t) (iblk4 V c 2 t) (iblk4 V c 3 t) (iblk4 V c 4 t)).2.2.2 _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexists _; iexact HS0
  iintro ⟨H0, H1, H2, H3, H4, H5, H6, ⟨%es0, HS0⟩⟩
  isplitl [HS0 Hr Hg]
  · isplitl [HS0 Hr]
    · isplitl [HS0]
      · unfold owns; iexists _; isplitr
        swap; · iexact HS0
        ipureintro; exact View.read_writes_of_cover _ _ _ _ _ (scover4_A_0 c _ _ _ _ _ _ _ _ _ _ _ _ _ _ _ _ _ _ _ _ _ _ _ _)
      iexact Hr
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexists _; iexact H5
  iexists _; iexact H6

set_option maxHeartbeats 4800000 in
/-- The body at a point of case B. -/
theorem sound_body4_B (c : Dev nD) (t : Fin cfg4.N) (h0 : ¬t.val % 4 = 0) (h1 : ¬t.val % 4 = 3) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).owesAt () t.succ = (dat4 V c).owesAt () t.castSucc from rfl]
  rw [show (dat4 V c).Φ t.succ = PhiS4 V c (t.val + 1) t.isLt from rfl, PhiS4_succ]
  rw [show (dat4 V c).leavesExact 0 t = owns (c : Thread nD τ) (ms4_0 t) fullShare ((dat4 V c).after 0 t) from by
    unfold Dat.leavesExact; rw [liveAt4_0 t], after4_0]
  rw [show (dat4 V c).leavesExact 1 t = owns (c : Thread nD τ) (ms4_1 t) fullShare ((dat4 V c).after 1 t) from by
    unfold Dat.leavesExact; rw [liveAt4_1 t], after4_1]
  rw [show (dat4 V c).leavesExact 2 t = owns (c : Thread nD τ) (ms4_2 t) fullShare ((dat4 V c).after 2 t) from by
    unfold Dat.leavesExact; rw [liveAt4_2 t], after4_2]
  rw [show (dat4 V c).leavesExact 3 t = owns (c : Thread nD τ) (ms4_3 t) fullShare ((dat4 V c).after 3 t) from by
    unfold Dat.leavesExact; rw [liveAt4_3 t], after4_3]
  rw [show (dat4 V c).leavesExact 4 t = owns (c : Thread nD τ) (ms4_4 t) fullShare ((dat4 V c).after 4 t) from by
    unfold Dat.leavesExact; rw [liveAt4_4 t], after4_4]
  rw [Dat.leavesExact_idle (dat4 V c) 5 t (idleAt4_5_B t (fun h => h0 ((hcond4_0 t).mp h)) (fun h => h1 ((hcond4_1 t).mp h))) (noFlush4_5_B t (fun h => h0 ((hcond4_0 t).mp h)) (fun h => h1 ((hcond4_1 t).mp h)))]
  rw [Dat.leavesExact_idle (dat4 V c) 6 t (idleAt4_6_B t (fun h => h0 ((hcond4_0 t).mp h)) (fun h => h1 ((hcond4_1 t).mp h))) (noFlush4_6_B t (fun h => h0 ((hcond4_0 t).mp h)) (fun h => h1 ((hcond4_1 t).mp h)))]
  rw [outsAt4_B V c t h0 h1]
  unfold sout4_B_0; (try dsimp only)
  have hz : t.val ≠ 0 := fun e => h0 (by rw [e])
  rw [PhiS4_castSucc V c t, PhiS4_pos V c _ _ hz]
  iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩⟩
  iapply ((kernelRun4_B c (grid4.coords t) _ _ _ _ _ _ _ _ _ _ _ _ _ _ _ _ (fun h => h0 ((hcond4_0 t).mp h)) (fun h => h1 ((hcond4_1 t).mp h)) (iblk4 V c 0 t) (iblk4 V c 1 t) (iblk4 V c 2 t) (iblk4 V c 3 t) (iblk4 V c 4 t) _).2.2.2 _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  iintro ⟨H0, H1, H2, H3, H4, H5, H6, ⟨%es0, HS0⟩⟩
  isplitl [HS0 Hr Hg]
  · isplitl [HS0 Hr]
    · isplitl [HS0]
      · unfold owns; iexists _; isplitr
        swap; · iexact HS0
        ipureintro; exact View.read_writes_of_cover _ _ _ _ _ (scover4_B_0 c _ _ _ _ _ _ _ _ _ _ _ _ _ _ _ _ _ _ _ _ _ _ _ _ _)
      iexact Hr
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexists _; iexact H5
  iexists _; iexact H6

set_option maxHeartbeats 4800000 in
/-- The body at a point of case C. -/
theorem sound_body4_C (c : Dev nD) (t : Fin cfg4.N) (h0 : ¬t.val % 4 = 0) (h1 : t.val % 4 = 3) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).owesAt () t.succ = (dat4 V c).owesAt () t.castSucc from rfl]
  rw [show (dat4 V c).Φ t.succ = PhiS4 V c (t.val + 1) t.isLt from rfl, PhiS4_succ]
  rw [show (dat4 V c).leavesExact 0 t = owns (c : Thread nD τ) (ms4_0 t) fullShare ((dat4 V c).after 0 t) from by
    unfold Dat.leavesExact; rw [liveAt4_0 t], after4_0]
  rw [show (dat4 V c).leavesExact 1 t = owns (c : Thread nD τ) (ms4_1 t) fullShare ((dat4 V c).after 1 t) from by
    unfold Dat.leavesExact; rw [liveAt4_1 t], after4_1]
  rw [show (dat4 V c).leavesExact 2 t = owns (c : Thread nD τ) (ms4_2 t) fullShare ((dat4 V c).after 2 t) from by
    unfold Dat.leavesExact; rw [liveAt4_2 t], after4_2]
  rw [show (dat4 V c).leavesExact 3 t = owns (c : Thread nD τ) (ms4_3 t) fullShare ((dat4 V c).after 3 t) from by
    unfold Dat.leavesExact; rw [liveAt4_3 t], after4_3]
  rw [show (dat4 V c).leavesExact 4 t = owns (c : Thread nD τ) (ms4_4 t) fullShare ((dat4 V c).after 4 t) from by
    unfold Dat.leavesExact; rw [liveAt4_4 t], after4_4]
  rw [show (dat4 V c).leavesExact 5 t = owns (c : Thread nD τ) (ms4_5 t) fullShare ((dat4 V c).after 5 t) from by
    unfold Dat.leavesExact; rw [liveAt4_5_C t (fun h => h0 ((hcond4_0 t).mp h)) ((hcond4_1 t).mpr h1)], after4_5]
  rw [show (dat4 V c).leavesExact 6 t = owns (c : Thread nD τ) (ms4_6 t) fullShare ((dat4 V c).after 6 t) from by
    unfold Dat.leavesExact; rw [liveAt4_6_C t (fun h => h0 ((hcond4_0 t).mp h)) ((hcond4_1 t).mpr h1)], after4_6]
  rw [outsAt4_C V c t h0 h1]
  unfold out4_C_5 out4_C_6 sout4_C_0; (try dsimp only)
  have hz : t.val ≠ 0 := fun e => h0 (by rw [e])
  rw [PhiS4_castSucc V c t, PhiS4_pos V c _ _ hz]
  iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩⟩
  iapply ((kernelRun4_C c (grid4.coords t) _ _ _ _ _ _ _ _ _ _ _ _ _ _ _ _ (fun h => h0 ((hcond4_0 t).mp h)) ((hcond4_1 t).mpr h1) (iblk4 V c 0 t) (iblk4 V c 1 t) (iblk4 V c 2 t) (iblk4 V c 3 t) (iblk4 V c 4 t) _).2.2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [HS0]; · iexact HS0
  iintro ⟨H0, H1, H2, H3, H4, ⟨%e5, H5⟩, ⟨%e6, H6⟩, ⟨%es0, HS0⟩⟩
  isplitl [HS0 Hr Hg]
  · isplitl [HS0 Hr]
    · isplitl [HS0]
      · unfold owns; iexists _; isplitr
        swap; · iexact HS0
        ipureintro; exact View.read_writes_of_cover _ _ _ _ _ (scover4_C_0 c _ _ _ _ _ _ _ _ _ _ _ _ _ _ _ _ _ _ _ _ _ _ _ _ _)
      iexact Hr
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_of_cover _ _ _ _ _ (cover4_C_5 c _ _ _ _ _ _ _ _ _ _ _ _ _ _ _ _ _ _ _ _ _ _ _ _ _)
  unfold owns; iexists _; isplitr
  swap; · iexact H6
  ipureintro; exact View.read_writes_of_cover _ _ _ _ _ (cover4_C_6 c _ _ _ _ _ _ _ _ _ _ _ _ _ _ _ _ _ _ _ _ _ _ _ _ _)

/-- The body at any point: the point is in exactly one of the three cases. -/
theorem sound_body4 (c : Dev nD) (t : Fin cfg4.N) :
    bodyPre4 V c t ⊢ wp frame (wpE (defs₀ (F := F)) Variants.none c none) Set.univ (bodyAt4 t) (fun _ => bodyPost4 V c t) := by
  by_cases h0 : t.val % 4 = 0
  · have h1 : ¬t.val % 4 = 3 := by omega
    by_cases hz : t.val = 0
    · exact sound_body4_A0 V c t h0 h1 hz
    · exact sound_body4_A V c t h0 h1 hz
  · by_cases h1 : t.val % 4 = 3
    · exact sound_body4_C V c t h0 h1
    · exact sound_body4_B V c t h0 h1

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- What the launch hands the call is the invariant before the first point. -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- After any point but the first the invariant gives back what the launch handed over: the accumulator's contents
    are forgotten. -/
theorem Phi_out4 (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨⟨HS0, Hr⟩, Hg⟩
  isplitl [HS0 Hr]
  · isplitl [HS0]
    · iexists _; iexact HS0
    iexact Hr
  iexact Hg

/-- The same after the last point. -/
theorem hout4 (c : Dev nD) : (dat4 V c).Φ (Fin.last cfg4.N) ⊢ Pipeline.ΦA spec4 c :=
  Phi_out4 V c _ (by rw [Fin.val_last]; have : cfg4.N = 32 := N_4; omega)

end Cert.Kernel.Hand

end
-- ==== Proof.K.Prop5Runs.lean ====
import proofs.«131271_j4982162063661_2_alg».proof.Proof.Gen.Kernel.Launch
import proofs.«131271_j4982162063661_2_alg».proof.Proof.Gen.Kernel.Skeleton
import proofs.«131271_j4982162063661_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The propagate call number 5: what its three control cases share

The call runs on a grid of 8 x 4 points; point `t` has row tile `i = t / 4` and column tile `k = t % 4`.
The body zeroes its accumulator when `k = 0`, adds the product of the current tile of the matrix with the
matching 2048 rows of the propagated signal at every `k`, and when `k = 3` stores the accumulator into the
two outputs. So there are three control cases: `k = 0` (reset, no output stored), `k = 1, 2` (neither),
`k = 3` (outputs stored). Everything here is stated at the buffer contents `V` the call is entered with. -/

-- the buffer contents when the call is entered
variable (V : (c : Dev nD) → (b : Ref sig .tc) → Buf (Elt F) ((c : Thread nD τ).loc b))

/-- Window `w`'s block at point `t`, read off the window's array as the call finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds the window's block at every point, whether the pipeline fetched
    it there or not: where it was not fetched the block index has not moved since the point before. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds the window's block at every point, whether the pipeline fetched
    it there or not: where it was not fetched the block index has not moved since the point before. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds the window's block at every point, whether the pipeline fetched
    it there or not: where it was not fetched the block index has not moved since the point before. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's current staging buffer holds the window's block at every point, whether the pipeline fetched
    it there or not: where it was not fetched the block index has not moved since the point before. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4's current staging buffer holds the window's block at every point, whether the pipeline fetched
    it there or not: where it was not fetched the block index has not moved since the point before. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-! ## The body's two conditions, in closed form over the grid -/

/-- The condition of the first `scf.if` (the reset): the column tile is the first. -/
abbrev cond5_0 (i : grid5.Coords) : Prop := (Scalar.cmpi .ne (Scalar.extui (Scalar.cmpi .eq (BitVec.ofNat 32 (i 1).val) 0#32)) 0#32) = 1#1
theorem hcond5_0 : ∀ t : Fin cfg5.N, cond5_0 (grid5.coords t) ↔ t.val % 4 = 0 :=
  (by decide +kernel : ∀ t : Fin grid5.N, cond5_0 (grid5.coords t) ↔ t.val % 4 = 0)

/-- The condition of the second `scf.if` (the outputs' stores): the column tile is the last. -/
abbrev cond5_1 (i : grid5.Coords) : Prop := k5_cond2 i = 1#1
theorem hcond5_1 : ∀ t : Fin cfg5.N, cond5_1 (grid5.coords t) ↔ t.val % 4 = 3 :=
  (by decide +kernel : ∀ t : Fin grid5.N, cond5_1 (grid5.coords t) ↔ t.val % 4 = 3)

/-! ## Where the two outputs are idle -/

/-- At the points with k = 0 output 5 is idle: the body stores nothing into it and the pipeline does not write it back. -/
theorem idleAt5_5_A : ∀ t : Fin cfg5.N, cond5_0 (grid5.coords t) → ¬cond5_1 (grid5.coords t) → cfg5.idle 5 (grid5.coords t) = true := by decide +kernel
theorem noFlush5_5_A : ∀ t : Fin cfg5.N, cond5_0 (grid5.coords t) → ¬cond5_1 (grid5.coords t) → (cfg5.win 5).flush t = false := by decide +kernel
/-- The same at the points with k = 1 and k = 2. -/
theorem idleAt5_5_B : ∀ t : Fin cfg5.N, ¬cond5_0 (grid5.coords t) → ¬cond5_1 (grid5.coords t) → cfg5.idle 5 (grid5.coords t) = true := by decide +kernel
theorem noFlush5_5_B : ∀ t : Fin cfg5.N, ¬cond5_0 (grid5.coords t) → ¬cond5_1 (grid5.coords t) → (cfg5.win 5).flush t = false := by decide +kernel
/-- At the points with k = 3 output 5 is live: the body stores its whole block. -/
theorem liveAt5_5_C : ∀ t : Fin cfg5.N, ¬cond5_0 (grid5.coords t) → cond5_1 (grid5.coords t) → cfg5.idle 5 (grid5.coords t) = false := by decide +kernel

/-- At the points with k = 0 output 6 is idle: the body stores nothing into it and the pipeline does not write it back. -/
theorem idleAt5_6_A : ∀ t : Fin cfg5.N, cond5_0 (grid5.coords t) → ¬cond5_1 (grid5.coords t) → cfg5.idle 6 (grid5.coords t) = true := by decide +kernel
theorem noFlush5_6_A : ∀ t : Fin cfg5.N, cond5_0 (grid5.coords t) → ¬cond5_1 (grid5.coords t) → (cfg5.win 6).flush t = false := by decide +kernel
/-- The same at the points with k = 1 and k = 2. -/
theorem idleAt5_6_B : ∀ t : Fin cfg5.N, ¬cond5_0 (grid5.coords t) → ¬cond5_1 (grid5.coords t) → cfg5.idle 6 (grid5.coords t) = true := by decide +kernel
theorem noFlush5_6_B : ∀ t : Fin cfg5.N, ¬cond5_0 (grid5.coords t) → ¬cond5_1 (grid5.coords t) → (cfg5.win 6).flush t = false := by decide +kernel
/-- At the points with k = 3 output 6 is live: the body stores its whole block. -/
theorem liveAt5_6_C : ∀ t : Fin cfg5.N, ¬cond5_0 (grid5.coords t) → cond5_1 (grid5.coords t) → cfg5.idle 6 (grid5.coords t) = false := by decide +kernel

/-! ## The memrefs the body is called with -/

/-- One staging buffer of each output, through which its contents are stated (the choice does not matter). -/
abbrev VO5_5 : View sig .tc .vmem S1024x128 .bf16 := (Memref.whole cc5_stg5_0 : Memref sig .tc .vmem S1024x128 .bf16).view
abbrev VO5_6 : View sig .tc .vmem S1024x128 .f32 := (Memref.whole cc5_stg6_0 : Memref sig .tc .vmem S1024x128 .f32).view
abbrev ms5_0 (t : Fin cfg5.N) : Memref sig .tc .vmem S1024x2048 .bf16 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S8192x128 .bf16 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S1024x128 .f32 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S1x128 .f32 := win5_3.stage (cfg5.slots t 3)
abbrev hs5_3 (t : Fin cfg5.N) : (ms5_3 t).IsWhole := hstage5_3 ((cfg5.slots t 3).cast nbuf5_3)
abbrev ms5_4 (t : Fin cfg5.N) : Memref sig .tc .vmem S1x1 .f32 := win5_4.stage (cfg5.slots t 4)
abbrev hs5_4 (t : Fin cfg5.N) : (ms5_4 t).IsWhole := hstage5_4 ((cfg5.slots t 4).cast nbuf5_4)
abbrev ms5_5 (t : Fin cfg5.N) : Memref sig .tc .vmem S1024x128 .bf16 := win5_5.stage (cfg5.slots t 5)
abbrev hs5_5 (t : Fin cfg5.N) : (ms5_5 t).IsWhole := hstage5_5 ((cfg5.slots t 5).cast nbuf5_5)
abbrev ms5_6 (t : Fin cfg5.N) : Memref sig .tc .vmem S1024x128 .f32 := win5_6.stage (cfg5.slots t 6)
abbrev hs5_6 (t : Fin cfg5.N) : (ms5_6 t).IsWhole := hstage5_6 ((cfg5.slots t 6).cast nbuf5_6)
/-- The accumulator: a whole scoped buffer of the call's own, carried from point to point. -/
abbrev scM5_0 : Memref sig .tc .vmem S1024x128 .f32 := Memref.whole cc5_scratch0
abbrev VS5_0 : View sig .tc .vmem S1024x128 .f32 := scM5_0.view

/-- The invariant the launch hands the call, with the accumulator split out of the scoped buffers: the accumulator
    owned at some contents, every other scoped buffer unopened, the generator register at some state. -/
theorem PhiA5_eq (c : Dev nD) :
    (Pipeline.ΦA spec5 c : sProp 𝕄)
      = iprop(iprop(iprop((∃ d, owns (c : Thread nD τ) scM5_0 fullShare d))
          ∗ Pipeline.scopedRestBut (Ix := Unit) (Name := ℕ) (U := UR sig nD τ) (Lvl := ℕ) (Val := Elt F) spec5 c [cc5_scratch0]) ∗ (∃ r, prngReg c r)) := by
  unfold Pipeline.ΦA; rw [scopedRest5_split]; simp only [scM5_0, owns_whole]; try rfl

end Cert.Kernel.Hand

end
-- ==== Proof.K.Prop5RunA.lean ====
import proofs.«131271_j4982162063661_2_alg».proof.Proof.K.Prop5Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run when the column tile is the first (the accumulator is reset, then accumulated into; no output is stored): the lists of stores each buffer ends with, together with the proof that on whole
    staging memrefs — the inputs' at their contents, the outputs' at contents handed back untouched, the accumulator
    at anything — the body runs to the continuation holding the inputs' as they were,
    the accumulator with its stores written. The lists are found by running the body. -/
noncomputable def kernelRun5_A (c : Dev nD) (i : grid5.Coords) (arg2 : Memref sig .tc .vmem S1024x2048 .bf16) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .f32) (harg9 : arg9.IsWhole) (hc0 : cond5_0 i) (hc1 : ¬cond5_1 i)
    (x0 : Vec F S1024x2048 .bf16) (x1 : Vec F S8192x128 .bf16) (x2 : Vec F S1024x128 .f32) (x3 : Vec F S1x128 .f32) (x4 : Vec F S1x1 .f32) :
    Σ' (L5 : List (View.Piece (Elt F) S1024x128 .bf16)) (L6 : List (View.Piece (Elt F) S1024x128 .f32)), { LS0 : List (View.Piece (Elt F) S1024x128 .f32) //
      ∀ (xi5 : Vec F S1024x128 .bf16) (xi6 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc5__propagate_kernel i arg2 harg2 arg3 harg3 arg4 harg4 arg5 harg5 arg6 harg6 arg7 harg7 arg8 harg8 arg9 harg9) K } := by
  refine ⟨[], [], ?_, fun xi5 xi6 E K => ?run⟩
  case run =>
    simp only [cc5__propagate_kernel_eq_skeleton]; unfold cc5__propagate_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

end Cert.Kernel.Hand

end
-- ==== Proof.K.Prop5RunB.lean ====
import proofs.«131271_j4982162063661_2_alg».proof.Proof.K.Prop5RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run when the column tile is neither the first nor the last (the accumulator is accumulated into; no output is stored): the lists of stores each buffer ends with, together with the proof that on whole
    staging memrefs — the inputs' at their contents, the outputs' at contents handed back untouched, the accumulator
    at the contents the point before left — the body runs to the continuation holding the inputs' as they were,
    the accumulator with its stores written. The lists are found by running the body. -/
noncomputable def kernelRun5_B (c : Dev nD) (i : grid5.Coords) (arg2 : Memref sig .tc .vmem S1024x2048 .bf16) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .f32) (harg9 : arg9.IsWhole) (hc0 : ¬cond5_0 i) (hc1 : ¬cond5_1 i)
    (x0 : Vec F S1024x2048 .bf16) (x1 : Vec F S8192x128 .bf16) (x2 : Vec F S1024x128 .f32) (x3 : Vec F S1x128 .f32) (x4 : Vec F S1x1 .f32) (xs0 : Vec F S1024x128 .f32) :
    Σ' (L5 : List (View.Piece (Elt F) S1024x128 .bf16)) (L6 : List (View.Piece (Elt F) S1024x128 .f32)), { LS0 : List (View.Piece (Elt F) S1024x128 .f32) //
      ∀ (xi5 : Vec F S1024x128 .bf16) (xi6 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc5__propagate_kernel i arg2 harg2 arg3 harg3 arg4 harg4 arg5 harg5 arg6 harg6 arg7 harg7 arg8 harg8 arg9 harg9) K } := by
  refine ⟨[], [], ?_, fun xi5 xi6 E K => ?run⟩
  case run =>
    simp only [cc5__propagate_kernel_eq_skeleton]; unfold cc5__propagate_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

end Cert.Kernel.Hand

end
-- ==== Proof.K.Prop5RunC.lean ====
import proofs.«131271_j4982162063661_2_alg».proof.Proof.K.Prop5RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run when the column tile is the last (the accumulator is accumulated into, then stored into both outputs): the lists of stores each buffer ends with, together with the proof that on whole
    staging memrefs — the inputs' at their contents, the outputs' at anything, the accumulator
    at the contents the point before left — the body runs to the continuation holding the inputs' as they were,
    the accumulator with its stores written and each output's buffer with its stores written. The lists are found by running the body. -/
noncomputable def kernelRun5_C (c : Dev nD) (i : grid5.Coords) (arg2 : Memref sig .tc .vmem S1024x2048 .bf16) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .f32) (harg9 : arg9.IsWhole) (hc0 : ¬cond5_0 i) (hc1 : cond5_1 i)
    (x0 : Vec F S1024x2048 .bf16) (x1 : Vec F S8192x128 .bf16) (x2 : Vec F S1024x128 .f32) (x3 : Vec F S1x128 .f32) (x4 : Vec F S1x1 .f32) (xs0 : Vec F S1024x128 .f32) :
    Σ' (L5 : List (View.Piece (Elt F) S1024x128 .bf16)) (L6 : List (View.Piece (Elt F) S1024x128 .f32)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0)) -∗ K ⟨⟩))
          ⊢ wp frame (wpE (defs₀ (F := F)) Variants.none c none) E (cc5__propagate_kernel i arg2 harg2 arg3 harg3 arg4 harg4 arg5 harg5 arg6 harg6 arg7 harg7 arg8 harg8 arg9 harg9) K } := by
  refine ⟨?_, ?_, ?_, fun E K => ?run⟩
  case run =>
    simp only [cc5__propagate_kernel_eq_skeleton]; unfold cc5__propagate_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    iexists _; iexact HS0

end Cert.Kernel.Hand

end
-- ==== Proof.K.Prop5.lean ====
import proofs.«131271_j4982162063661_2_alg».proof.Proof.K.Prop5RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The propagate call number 5: its proof data and body obligation at the entry contents `V`

What the two outputs' staging buffers and the accumulator hold after each point is defined by recursion on the
point (`outsAt5`): the case the point is in, run on the point's memrefs and input blocks, over what the point
before left in the accumulator. The invariant between points keeps the accumulator at exactly those contents. -/

variable (V : (c : Dev nD) → (b : Ref sig .tc) → Buf (Elt F) ((c : Thread nD τ).loc b))

/-! ## What each case leaves -/

/-- What case A leaves in output 5's staging buffer: its stores read back over arbitrary contents (there are none: the output is idle in this case and nothing consults this value). -/
def out5_A_5 (c : Dev nD) (i : grid5.Coords) (arg2 : Memref sig .tc .vmem S1024x2048 .bf16) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .f32) (harg9 : arg9.IsWhole) (hc0 : cond5_0 i) (hc1 : ¬cond5_1 i)
    (x0 : Vec F S1024x2048 .bf16) (x1 : Vec F S8192x128 .bf16) (x2 : Vec F S1024x128 .f32) (x3 : Vec F S1x128 .f32) (x4 : Vec F S1x1 .f32) : Vec F S1024x128 .bf16 :=
  VO5_5.read (Elt F) (VO5_5.writes (Elt F) VO5_5.junk (kernelRun5_A c i arg2 harg2 arg3 harg3 arg4 harg4 arg5 harg5 arg6 harg6 arg7 harg7 arg8 harg8 arg9 harg9 hc0 hc1 x0 x1 x2 x3 x4).1)
/-- The same for output 6. -/
def out5_A_6 (c : Dev nD) (i : grid5.Coords) (arg2 : Memref sig .tc .vmem S1024x2048 .bf16) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .f32) (harg9 : arg9.IsWhole) (hc0 : cond5_0 i) (hc1 : ¬cond5_1 i)
    (x0 : Vec F S1024x2048 .bf16) (x1 : Vec F S8192x128 .bf16) (x2 : Vec F S1024x128 .f32) (x3 : Vec F S1x128 .f32) (x4 : Vec F S1x1 .f32) : Vec F S1024x128 .f32 :=
  VO5_6.read (Elt F) (VO5_6.writes (Elt F) VO5_6.junk (kernelRun5_A c i arg2 harg2 arg3 harg3 arg4 harg4 arg5 harg5 arg6 harg6 arg7 harg7 arg8 harg8 arg9 harg9 hc0 hc1 x0 x1 x2 x3 x4).2.1)
/-- Case A's stores into the accumulator are of the whole buffer, so they cover it. -/
theorem scover5_A_0 (c : Dev nD) (i : grid5.Coords) (arg2 : Memref sig .tc .vmem S1024x2048 .bf16) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .f32) (harg9 : arg9.IsWhole) (hc0 : cond5_0 i) (hc1 : ¬cond5_1 i)
    (x0 : Vec F S1024x2048 .bf16) (x1 : Vec F S8192x128 .bf16) (x2 : Vec F S1024x128 .f32) (x3 : Vec F S1x128 .f32) (x4 : Vec F S1x1 .f32) (y : S1024x128.Idx) :
    ∃ pc ∈ (kernelRun5_A c i arg2 harg2 arg3 harg3 arg4 harg4 arg5 harg5 arg6 harg6 arg7 harg7 arg8 harg8 arg9 harg9 hc0 hc1 x0 x1 x2 x3 x4).2.2.1, y ∈ pc.1.set :=
  View.cover_of_tiledL (kernelRun5_A c i arg2 harg2 arg3 harg3 arg4 harg4 arg5 harg5 arg6 harg6 arg7 harg7 arg8 harg8 arg9 harg9 hc0 hc1 x0 x1 x2 x3 x4).2.2.1 S1024x128.size (by sl_kernel_rfl) y
/-- What case A leaves in the accumulator. -/
def sout5_A_0 (c : Dev nD) (i : grid5.Coords) (arg2 : Memref sig .tc .vmem S1024x2048 .bf16) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .f32) (harg9 : arg9.IsWhole) (hc0 : cond5_0 i) (hc1 : ¬cond5_1 i)
    (x0 : Vec F S1024x2048 .bf16) (x1 : Vec F S8192x128 .bf16) (x2 : Vec F S1024x128 .f32) (x3 : Vec F S1x128 .f32) (x4 : Vec F S1x1 .f32) : Vec F S1024x128 .f32 :=
  VS5_0.read (Elt F) (VS5_0.writes (Elt F) VS5_0.junk (kernelRun5_A c i arg2 harg2 arg3 harg3 arg4 harg4 arg5 harg5 arg6 harg6 arg7 harg7 arg8 harg8 arg9 harg9 hc0 hc1 x0 x1 x2 x3 x4).2.2.1)

/-- What case B leaves in output 5's staging buffer: its stores read back over arbitrary contents (there are none: the output is idle in this case and nothing consults this value). -/
def out5_B_5 (c : Dev nD) (i : grid5.Coords) (arg2 : Memref sig .tc .vmem S1024x2048 .bf16) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .f32) (harg9 : arg9.IsWhole) (hc0 : ¬cond5_0 i) (hc1 : ¬cond5_1 i)
    (x0 : Vec F S1024x2048 .bf16) (x1 : Vec F S8192x128 .bf16) (x2 : Vec F S1024x128 .f32) (x3 : Vec F S1x128 .f32) (x4 : Vec F S1x1 .f32) (xs0 : Vec F S1024x128 .f32) : Vec F S1024x128 .bf16 :=
  VO5_5.read (Elt F) (VO5_5.writes (Elt F) VO5_5.junk (kernelRun5_B c i arg2 harg2 arg3 harg3 arg4 harg4 arg5 harg5 arg6 harg6 arg7 harg7 arg8 harg8 arg9 harg9 hc0 hc1 x0 x1 x2 x3 x4 xs0).1)
/-- The same for output 6. -/
def out5_B_6 (c : Dev nD) (i : grid5.Coords) (arg2 : Memref sig .tc .vmem S1024x2048 .bf16) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .f32) (harg9 : arg9.IsWhole) (hc0 : ¬cond5_0 i) (hc1 : ¬cond5_1 i)
    (x0 : Vec F S1024x2048 .bf16) (x1 : Vec F S8192x128 .bf16) (x2 : Vec F S1024x128 .f32) (x3 : Vec F S1x128 .f32) (x4 : Vec F S1x1 .f32) (xs0 : Vec F S1024x128 .f32) : Vec F S1024x128 .f32 :=
  VO5_6.read (Elt F) (VO5_6.writes (Elt F) VO5_6.junk (kernelRun5_B c i arg2 harg2 arg3 harg3 arg4 harg4 arg5 harg5 arg6 harg6 arg7 harg7 arg8 harg8 arg9 harg9 hc0 hc1 x0 x1 x2 x3 x4 xs0).2.1)
/-- Case B's stores into the accumulator are of the whole buffer, so they cover it. -/
theorem scover5_B_0 (c : Dev nD) (i : grid5.Coords) (arg2 : Memref sig .tc .vmem S1024x2048 .bf16) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .f32) (harg9 : arg9.IsWhole) (hc0 : ¬cond5_0 i) (hc1 : ¬cond5_1 i)
    (x0 : Vec F S1024x2048 .bf16) (x1 : Vec F S8192x128 .bf16) (x2 : Vec F S1024x128 .f32) (x3 : Vec F S1x128 .f32) (x4 : Vec F S1x1 .f32) (xs0 : Vec F S1024x128 .f32) (y : S1024x128.Idx) :
    ∃ pc ∈ (kernelRun5_B c i arg2 harg2 arg3 harg3 arg4 harg4 arg5 harg5 arg6 harg6 arg7 harg7 arg8 harg8 arg9 harg9 hc0 hc1 x0 x1 x2 x3 x4 xs0).2.2.1, y ∈ pc.1.set :=
  View.cover_of_tiledL (kernelRun5_B c i arg2 harg2 arg3 harg3 arg4 harg4 arg5 harg5 arg6 harg6 arg7 harg7 arg8 harg8 arg9 harg9 hc0 hc1 x0 x1 x2 x3 x4 xs0).2.2.1 S1024x128.size (by sl_kernel_rfl) y
/-- What case B leaves in the accumulator. -/
def sout5_B_0 (c : Dev nD) (i : grid5.Coords) (arg2 : Memref sig .tc .vmem S1024x2048 .bf16) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .f32) (harg9 : arg9.IsWhole) (hc0 : ¬cond5_0 i) (hc1 : ¬cond5_1 i)
    (x0 : Vec F S1024x2048 .bf16) (x1 : Vec F S8192x128 .bf16) (x2 : Vec F S1024x128 .f32) (x3 : Vec F S1x128 .f32) (x4 : Vec F S1x1 .f32) (xs0 : Vec F S1024x128 .f32) : Vec F S1024x128 .f32 :=
  VS5_0.read (Elt F) (VS5_0.writes (Elt F) VS5_0.junk (kernelRun5_B c i arg2 harg2 arg3 harg3 arg4 harg4 arg5 harg5 arg6 harg6 arg7 harg7 arg8 harg8 arg9 harg9 hc0 hc1 x0 x1 x2 x3 x4 xs0).2.2.1)

/-- What case C leaves in output 5's staging buffer: its stores read back over arbitrary contents. -/
def out5_C_5 (c : Dev nD) (i : grid5.Coords) (arg2 : Memref sig .tc .vmem S1024x2048 .bf16) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .f32) (harg9 : arg9.IsWhole) (hc0 : ¬cond5_0 i) (hc1 : cond5_1 i)
    (x0 : Vec F S1024x2048 .bf16) (x1 : Vec F S8192x128 .bf16) (x2 : Vec F S1024x128 .f32) (x3 : Vec F S1x128 .f32) (x4 : Vec F S1x1 .f32) (xs0 : Vec F S1024x128 .f32) : Vec F S1024x128 .bf16 :=
  VO5_5.read (Elt F) (VO5_5.writes (Elt F) VO5_5.junk (kernelRun5_C c i arg2 harg2 arg3 harg3 arg4 harg4 arg5 harg5 arg6 harg6 arg7 harg7 arg8 harg8 arg9 harg9 hc0 hc1 x0 x1 x2 x3 x4 xs0).1)
/-- The same for output 6. -/
def out5_C_6 (c : Dev nD) (i : grid5.Coords) (arg2 : Memref sig .tc .vmem S1024x2048 .bf16) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .f32) (harg9 : arg9.IsWhole) (hc0 : ¬cond5_0 i) (hc1 : cond5_1 i)
    (x0 : Vec F S1024x2048 .bf16) (x1 : Vec F S8192x128 .bf16) (x2 : Vec F S1024x128 .f32) (x3 : Vec F S1x128 .f32) (x4 : Vec F S1x1 .f32) (xs0 : Vec F S1024x128 .f32) : Vec F S1024x128 .f32 :=
  VO5_6.read (Elt F) (VO5_6.writes (Elt F) VO5_6.junk (kernelRun5_C c i arg2 harg2 arg3 harg3 arg4 harg4 arg5 harg5 arg6 harg6 arg7 harg7 arg8 harg8 arg9 harg9 hc0 hc1 x0 x1 x2 x3 x4 xs0).2.1)
/-- Case C's one store into output 5 is of the whole block, so it covers it. -/
theorem cover5_C_5 (c : Dev nD) (i : grid5.Coords) (arg2 : Memref sig .tc .vmem S1024x2048 .bf16) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .f32) (harg9 : arg9.IsWhole) (hc0 : ¬cond5_0 i) (hc1 : cond5_1 i)
    (x0 : Vec F S1024x2048 .bf16) (x1 : Vec F S8192x128 .bf16) (x2 : Vec F S1024x128 .f32) (x3 : Vec F S1x128 .f32) (x4 : Vec F S1x1 .f32) (xs0 : Vec F S1024x128 .f32) (y : S1024x128.Idx) :
    ∃ pc ∈ (kernelRun5_C c i arg2 harg2 arg3 harg3 arg4 harg4 arg5 harg5 arg6 harg6 arg7 harg7 arg8 harg8 arg9 harg9 hc0 hc1 x0 x1 x2 x3 x4 xs0).1, y ∈ pc.1.set :=
  View.cover_of_tiledL (kernelRun5_C c i arg2 harg2 arg3 harg3 arg4 harg4 arg5 harg5 arg6 harg6 arg7 harg7 arg8 harg8 arg9 harg9 hc0 hc1 x0 x1 x2 x3 x4 xs0).1 S1024x128.size (by sl_kernel_rfl) y
/-- The same for output 6. -/
theorem cover5_C_6 (c : Dev nD) (i : grid5.Coords) (arg2 : Memref sig .tc .vmem S1024x2048 .bf16) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .f32) (harg9 : arg9.IsWhole) (hc0 : ¬cond5_0 i) (hc1 : cond5_1 i)
    (x0 : Vec F S1024x2048 .bf16) (x1 : Vec F S8192x128 .bf16) (x2 : Vec F S1024x128 .f32) (x3 : Vec F S1x128 .f32) (x4 : Vec F S1x1 .f32) (xs0 : Vec F S1024x128 .f32) (y : S1024x128.Idx) :
    ∃ pc ∈ (kernelRun5_C c i arg2 harg2 arg3 harg3 arg4 harg4 arg5 harg5 arg6 harg6 arg7 harg7 arg8 harg8 arg9 harg9 hc0 hc1 x0 x1 x2 x3 x4 xs0).2.1, y ∈ pc.1.set :=
  View.cover_of_tiledL (kernelRun5_C c i arg2 harg2 arg3 harg3 arg4 harg4 arg5 harg5 arg6 harg6 arg7 harg7 arg8 harg8 arg9 harg9 hc0 hc1 x0 x1 x2 x3 x4 xs0).2.1 S1024x128.size (by sl_kernel_rfl) y
/-- Case C's stores into the accumulator are of the whole buffer, so they cover it. -/
theorem scover5_C_0 (c : Dev nD) (i : grid5.Coords) (arg2 : Memref sig .tc .vmem S1024x2048 .bf16) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .f32) (harg9 : arg9.IsWhole) (hc0 : ¬cond5_0 i) (hc1 : cond5_1 i)
    (x0 : Vec F S1024x2048 .bf16) (x1 : Vec F S8192x128 .bf16) (x2 : Vec F S1024x128 .f32) (x3 : Vec F S1x128 .f32) (x4 : Vec F S1x1 .f32) (xs0 : Vec F S1024x128 .f32) (y : S1024x128.Idx) :
    ∃ pc ∈ (kernelRun5_C c i arg2 harg2 arg3 harg3 arg4 harg4 arg5 harg5 arg6 harg6 arg7 harg7 arg8 harg8 arg9 harg9 hc0 hc1 x0 x1 x2 x3 x4 xs0).2.2.1, y ∈ pc.1.set :=
  View.cover_of_tiledL (kernelRun5_C c i arg2 harg2 arg3 harg3 arg4 harg4 arg5 harg5 arg6 harg6 arg7 harg7 arg8 harg8 arg9 harg9 hc0 hc1 x0 x1 x2 x3 x4 xs0).2.2.1 S1024x128.size (by sl_kernel_rfl) y
/-- What case C leaves in the accumulator. -/
def sout5_C_0 (c : Dev nD) (i : grid5.Coords) (arg2 : Memref sig .tc .vmem S1024x2048 .bf16) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .f32) (harg9 : arg9.IsWhole) (hc0 : ¬cond5_0 i) (hc1 : cond5_1 i)
    (x0 : Vec F S1024x2048 .bf16) (x1 : Vec F S8192x128 .bf16) (x2 : Vec F S1024x128 .f32) (x3 : Vec F S1x128 .f32) (x4 : Vec F S1x1 .f32) (xs0 : Vec F S1024x128 .f32) : Vec F S1024x128 .f32 :=
  VS5_0.read (Elt F) (VS5_0.writes (Elt F) VS5_0.junk (kernelRun5_C c i arg2 harg2 arg3 harg3 arg4 harg4 arg5 harg5 arg6 harg6 arg7 harg7 arg8 harg8 arg9 harg9 hc0 hc1 x0 x1 x2 x3 x4 xs0).2.2.1)

/-! ## What the outputs and the accumulator hold after each point -/

/-- After the body at position `n`: output 5's buffer, output 6's buffer, the accumulator. -/
def outsAt5 (c : Dev nD) : (n : ℕ) → n < cfg5.N → Vec F S1024x128 .bf16 × Vec F S1024x128 .f32 × Vec F S1024x128 .f32
  | 0, hn => (out5_A_5 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) (ms5_4 ⟨0, hn⟩) (hs5_4 ⟨0, hn⟩) (ms5_5 ⟨0, hn⟩) (hs5_5 ⟨0, hn⟩) (ms5_6 ⟨0, hn⟩) (hs5_6 ⟨0, hn⟩) scM5_0 (Memref.isWhole_whole _) ((hcond5_0 ⟨0, hn⟩).mpr (Nat.zero_mod _)) (fun h => (fun h => by (try dsimp only at h); omega) ((hcond5_1 ⟨0, hn⟩).mp h)) (iblk5 V c 0 ⟨0, hn⟩) (iblk5 V c 1 ⟨0, hn⟩) (iblk5 V c 2 ⟨0, hn⟩) (iblk5 V c 3 ⟨0, hn⟩) (iblk5 V c 4 ⟨0, hn⟩), out5_A_6 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) (ms5_4 ⟨0, hn⟩) (hs5_4 ⟨0, hn⟩) (ms5_5 ⟨0, hn⟩) (hs5_5 ⟨0, hn⟩) (ms5_6 ⟨0, hn⟩) (hs5_6 ⟨0, hn⟩) scM5_0 (Memref.isWhole_whole _) ((hcond5_0 ⟨0, hn⟩).mpr (Nat.zero_mod _)) (fun h => (fun h => by (try dsimp only at h); omega) ((hcond5_1 ⟨0, hn⟩).mp h)) (iblk5 V c 0 ⟨0, hn⟩) (iblk5 V c 1 ⟨0, hn⟩) (iblk5 V c 2 ⟨0, hn⟩) (iblk5 V c 3 ⟨0, hn⟩) (iblk5 V c 4 ⟨0, hn⟩), sout5_A_0 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) (ms5_4 ⟨0, hn⟩) (hs5_4 ⟨0, hn⟩) (ms5_5 ⟨0, hn⟩) (hs5_5 ⟨0, hn⟩) (ms5_6 ⟨0, hn⟩) (hs5_6 ⟨0, hn⟩) scM5_0 (Memref.isWhole_whole _) ((hcond5_0 ⟨0, hn⟩).mpr (Nat.zero_mod _)) (fun h => (fun h => by (try dsimp only at h); omega) ((hcond5_1 ⟨0, hn⟩).mp h)) (iblk5 V c 0 ⟨0, hn⟩) (iblk5 V c 1 ⟨0, hn⟩) (iblk5 V c 2 ⟨0, hn⟩) (iblk5 V c 3 ⟨0, hn⟩) (iblk5 V c 4 ⟨0, hn⟩))
  | n + 1, hn =>
    if h0 : (n + 1) % 4 = 0 then
      if h1 : (n + 1) % 4 = 3 then
        False.elim (by omega)
      else
        (out5_A_5 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) scM5_0 (Memref.isWhole_whole _) ((hcond5_0 ⟨n + 1, hn⟩).mpr h0) (fun h => h1 ((hcond5_1 ⟨n + 1, hn⟩).mp h)) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩), out5_A_6 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) scM5_0 (Memref.isWhole_whole _) ((hcond5_0 ⟨n + 1, hn⟩).mpr h0) (fun h => h1 ((hcond5_1 ⟨n + 1, hn⟩).mp h)) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩), sout5_A_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) scM5_0 (Memref.isWhole_whole _) ((hcond5_0 ⟨n + 1, hn⟩).mpr h0) (fun h => h1 ((hcond5_1 ⟨n + 1, hn⟩).mp h)) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩))
    else
      if h1 : (n + 1) % 4 = 3 then
        (out5_C_5 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) scM5_0 (Memref.isWhole_whole _) (fun h => h0 ((hcond5_0 ⟨n + 1, hn⟩).mp h)) ((hcond5_1 ⟨n + 1, hn⟩).mpr h1) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (outsAt5 c n (Nat.lt_of_succ_lt hn)).2.2, out5_C_6 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) scM5_0 (Memref.isWhole_whole _) (fun h => h0 ((hcond5_0 ⟨n + 1, hn⟩).mp h)) ((hcond5_1 ⟨n + 1, hn⟩).mpr h1) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (outsAt5 c n (Nat.lt_of_succ_lt hn)).2.2, sout5_C_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) scM5_0 (Memref.isWhole_whole _) (fun h => h0 ((hcond5_0 ⟨n + 1, hn⟩).mp h)) ((hcond5_1 ⟨n + 1, hn⟩).mpr h1) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (outsAt5 c n (Nat.lt_of_succ_lt hn)).2.2)
      else
        (out5_B_5 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) scM5_0 (Memref.isWhole_whole _) (fun h => h0 ((hcond5_0 ⟨n + 1, hn⟩).mp h)) (fun h => h1 ((hcond5_1 ⟨n + 1, hn⟩).mp h)) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (outsAt5 c n (Nat.lt_of_succ_lt hn)).2.2, out5_B_6 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) scM5_0 (Memref.isWhole_whole _) (fun h => h0 ((hcond5_0 ⟨n + 1, hn⟩).mp h)) (fun h => h1 ((hcond5_1 ⟨n + 1, hn⟩).mp h)) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (outsAt5 c n (Nat.lt_of_succ_lt hn)).2.2, sout5_B_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) scM5_0 (Memref.isWhole_whole _) (fun h => h0 ((hcond5_0 ⟨n + 1, hn⟩).mp h)) (fun h => h1 ((hcond5_1 ⟨n + 1, hn⟩).mp h)) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (outsAt5 c n (Nat.lt_of_succ_lt hn)).2.2)

theorem outsAt5_A (c : Dev nD) (t : Fin cfg5.N) (h0 : t.val % 4 = 0) (h1 : ¬t.val % 4 = 3) :
    outsAt5 V c t.val t.isLt = (out5_A_5 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) scM5_0 (Memref.isWhole_whole _) ((hcond5_0 t).mpr h0) (fun h => h1 ((hcond5_1 t).mp h)) (iblk5 V c 0 t) (iblk5 V c 1 t) (iblk5 V c 2 t) (iblk5 V c 3 t) (iblk5 V c 4 t), out5_A_6 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) scM5_0 (Memref.isWhole_whole _) ((hcond5_0 t).mpr h0) (fun h => h1 ((hcond5_1 t).mp h)) (iblk5 V c 0 t) (iblk5 V c 1 t) (iblk5 V c 2 t) (iblk5 V c 3 t) (iblk5 V c 4 t), sout5_A_0 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) scM5_0 (Memref.isWhole_whole _) ((hcond5_0 t).mpr h0) (fun h => h1 ((hcond5_1 t).mp h)) (iblk5 V c 0 t) (iblk5 V c 1 t) (iblk5 V c 2 t) (iblk5 V c 3 t) (iblk5 V c 4 t)) := by
  obtain ⟨n, hn⟩ := t
  cases n with
  | zero => exact rfl
  | succ n => exact (dif_pos h0).trans ((dif_neg h1).trans rfl)

theorem outsAt5_B (c : Dev nD) (t : Fin cfg5.N) (h0 : ¬t.val % 4 = 0) (h1 : ¬t.val % 4 = 3) :
    outsAt5 V c t.val t.isLt = (out5_B_5 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) scM5_0 (Memref.isWhole_whole _) (fun h => h0 ((hcond5_0 t).mp h)) (fun h => h1 ((hcond5_1 t).mp h)) (iblk5 V c 0 t) (iblk5 V c 1 t) (iblk5 V c 2 t) (iblk5 V c 3 t) (iblk5 V c 4 t) (outsAt5 V c (t.val - 1) (Nat.lt_of_le_of_lt (Nat.sub_le _ _) t.isLt)).2.2, out5_B_6 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) scM5_0 (Memref.isWhole_whole _) (fun h => h0 ((hcond5_0 t).mp h)) (fun h => h1 ((hcond5_1 t).mp h)) (iblk5 V c 0 t) (iblk5 V c 1 t) (iblk5 V c 2 t) (iblk5 V c 3 t) (iblk5 V c 4 t) (outsAt5 V c (t.val - 1) (Nat.lt_of_le_of_lt (Nat.sub_le _ _) t.isLt)).2.2, sout5_B_0 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) scM5_0 (Memref.isWhole_whole _) (fun h => h0 ((hcond5_0 t).mp h)) (fun h => h1 ((hcond5_1 t).mp h)) (iblk5 V c 0 t) (iblk5 V c 1 t) (iblk5 V c 2 t) (iblk5 V c 3 t) (iblk5 V c 4 t) (outsAt5 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt5_C (c : Dev nD) (t : Fin cfg5.N) (h0 : ¬t.val % 4 = 0) (h1 : t.val % 4 = 3) :
    outsAt5 V c t.val t.isLt = (out5_C_5 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) scM5_0 (Memref.isWhole_whole _) (fun h => h0 ((hcond5_0 t).mp h)) ((hcond5_1 t).mpr h1) (iblk5 V c 0 t) (iblk5 V c 1 t) (iblk5 V c 2 t) (iblk5 V c 3 t) (iblk5 V c 4 t) (outsAt5 V c (t.val - 1) (Nat.lt_of_le_of_lt (Nat.sub_le _ _) t.isLt)).2.2, out5_C_6 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) scM5_0 (Memref.isWhole_whole _) (fun h => h0 ((hcond5_0 t).mp h)) ((hcond5_1 t).mpr h1) (iblk5 V c 0 t) (iblk5 V c 1 t) (iblk5 V c 2 t) (iblk5 V c 3 t) (iblk5 V c 4 t) (outsAt5 V c (t.val - 1) (Nat.lt_of_le_of_lt (Nat.sub_le _ _) t.isLt)).2.2, sout5_C_0 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) scM5_0 (Memref.isWhole_whole _) (fun h => h0 ((hcond5_0 t).mp h)) ((hcond5_1 t).mpr h1) (iblk5 V c 0 t) (iblk5 V c 1 t) (iblk5 V c 2 t) (iblk5 V c 3 t) (iblk5 V c 4 t) (outsAt5 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before the first point: what the launch hands the call. Before any later point: the accumulator at what the
    point before left in it, every other scoped buffer unopened, the generator register at some state. -/
def PhiS5 (c : Dev nD) : (n : ℕ) → n ≤ cfg5.N → sProp 𝕄
  | 0, _ => Pipeline.ΦA spec5 c
  | n + 1, hn => iprop(iprop(iprop(owns (c : Thread nD τ) scM5_0 fullShare ((outsAt5 V c n hn).2.2))
      ∗ Pipeline.scopedRestBut (Ix := Unit) (Name := ℕ) (U := UR sig nD τ) (Lvl := ℕ) (Val := Elt F) spec5 c [cc5_scratch0]) ∗ (∃ r, prngReg c r))

theorem PhiS5_zero (c : Dev nD) (n : ℕ) (h : n ≤ cfg5.N) (hz : n = 0) : PhiS5 V c n h = Pipeline.ΦA spec5 c := by
  subst hz; rfl

theorem PhiS5_succ (c : Dev nD) (n : ℕ) (hn : n < cfg5.N) :
    PhiS5 V c (n + 1) hn = iprop(iprop(iprop(owns (c : Thread nD τ) scM5_0 fullShare ((outsAt5 V c n hn).2.2))
      ∗ Pipeline.scopedRestBut (Ix := Unit) (Name := ℕ) (U := UR sig nD τ) (Lvl := ℕ) (Val := Elt F) spec5 c [cc5_scratch0]) ∗ (∃ r, prngReg c r)) := rfl

theorem PhiS5_pos (c : Dev nD) (n : ℕ) (h : n ≤ cfg5.N) (hz : n ≠ 0) :
    PhiS5 V c n h = iprop(iprop(iprop(owns (c : Thread nD τ) scM5_0 fullShare ((outsAt5 V c (n - 1) (by omega)).2.2))
      ∗ Pipeline.scopedRestBut (Ix := Unit) (Name := ℕ) (U := UR sig nD τ) (Lvl := ℕ) (Val := Elt F) spec5 c [cc5_scratch0]) ∗ (∃ r, prngReg c r)) := by
  cases n with
  | zero => exact absurd rfl hz
  | succ n => rfl

/-! ## The proof data -/

/-- The proof data of the call on core `c`: the arrays as the call finds them; after the body at point `t` each
    input's buffer at its block and the outputs' at `outsAt5`; the invariant `PhiS5`; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => (outsAt5 V c t.val t.isLt).1
    | ⟨6, _⟩ => (outsAt5 V c t.val t.isLt).2.1
  Φ t := PhiS5 V c t.val (Nat.le_of_lt_succ t.isLt)
  q _ := fullShare
  owed _ := 0

theorem A_eq5 (c : Dev nD) (w : Fin cfg5.W) : (dat5 V c).A w = V c (Pipeline.arrRef spec5 w) := by
  dsimp only [dat5]

theorem PhiS5_castSucc (c : Dev nD) (t : Fin cfg5.N) :
    (dat5 V c).Φ t.castSucc = PhiS5 V c t.val (Nat.le_of_lt t.isLt) := by
  dsimp only [dat5]; simp only [Fin.coe_castSucc]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = (outsAt5 V c t.val t.isLt).1 := by dsimp only [dat5]
theorem after5_6 (c : Dev nD) (t : Fin cfg5.N) : (dat5 V c).after 6 t = (outsAt5 V c t.val t.isLt).2.1 := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

theorem liveAt5_0 : ∀ t : Fin cfg5.N, cfg5.idle 0 (grid5.coords t) = false := fun _ => rfl
theorem liveAt5_1 : ∀ t : Fin cfg5.N, cfg5.idle 1 (grid5.coords t) = false := fun _ => rfl
theorem liveAt5_2 : ∀ t : Fin cfg5.N, cfg5.idle 2 (grid5.coords t) = false := fun _ => rfl
theorem liveAt5_3 : ∀ t : Fin cfg5.N, cfg5.idle 3 (grid5.coords t) = false := fun _ => rfl
theorem liveAt5_4 : ∀ t : Fin cfg5.N, cfg5.idle 4 (grid5.coords t) = false := fun _ => rfl

/-! ## The body obligation -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d))
    ∗ (∃ d, owns (c : Thread nD τ) (ms5_3 t) fullShare ((dat5 V c).before 3 t d))
    ∗ (∃ d, owns (c : Thread nD τ) (ms5_4 t) fullShare ((dat5 V c).before 4 t d))
    ∗ (∃ d, owns (c : Thread nD τ) (ms5_5 t) fullShare ((dat5 V c).before 5 t d))
    ∗ (∃ d, owns (c : Thread nD τ) (ms5_6 t) fullShare ((dat5 V c).before 6 t d)))

/-- and what it returns. -/
def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t
    ∗ (dat5 V c).leavesExact 4 t
    ∗ (dat5 V c).leavesExact 5 t
    ∗ (dat5 V c).leavesExact 6 t)

set_option maxHeartbeats 4800000 in
/-- The body at a point of case A that is the first of the grid (the accumulator is found at anything). -/
theorem sound_body5_A0 (c : Dev nD) (t : Fin cfg5.N) (h0 : t.val % 4 = 0) (h1 : ¬t.val % 4 = 3) (hz : t.val = 0) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).owesAt () t.succ = (dat5 V c).owesAt () t.castSucc from rfl]
  rw [show (dat5 V c).Φ t.succ = PhiS5 V c (t.val + 1) t.isLt from rfl, PhiS5_succ]
  rw [show (dat5 V c).leavesExact 0 t = owns (c : Thread nD τ) (ms5_0 t) fullShare ((dat5 V c).after 0 t) from by
    unfold Dat.leavesExact; rw [liveAt5_0 t], after5_0]
  rw [show (dat5 V c).leavesExact 1 t = owns (c : Thread nD τ) (ms5_1 t) fullShare ((dat5 V c).after 1 t) from by
    unfold Dat.leavesExact; rw [liveAt5_1 t], after5_1]
  rw [show (dat5 V c).leavesExact 2 t = owns (c : Thread nD τ) (ms5_2 t) fullShare ((dat5 V c).after 2 t) from by
    unfold Dat.leavesExact; rw [liveAt5_2 t], after5_2]
  rw [show (dat5 V c).leavesExact 3 t = owns (c : Thread nD τ) (ms5_3 t) fullShare ((dat5 V c).after 3 t) from by
    unfold Dat.leavesExact; rw [liveAt5_3 t], after5_3]
  rw [show (dat5 V c).leavesExact 4 t = owns (c : Thread nD τ) (ms5_4 t) fullShare ((dat5 V c).after 4 t) from by
    unfold Dat.leavesExact; rw [liveAt5_4 t], after5_4]
  rw [Dat.leavesExact_idle (dat5 V c) 5 t (idleAt5_5_A t ((hcond5_0 t).mpr h0) (fun h => h1 ((hcond5_1 t).mp h))) (noFlush5_5_A t ((hcond5_0 t).mpr h0) (fun h => h1 ((hcond5_1 t).mp h)))]
  rw [Dat.leavesExact_idle (dat5 V c) 6 t (idleAt5_6_A t ((hcond5_0 t).mpr h0) (fun h => h1 ((hcond5_1 t).mp h))) (noFlush5_6_A t ((hcond5_0 t).mpr h0) (fun h => h1 ((hcond5_1 t).mp h)))]
  rw [outsAt5_A V c t h0 h1]
  unfold sout5_A_0; (try dsimp only)
  rw [PhiS5_castSucc V c t, PhiS5_zero V c _ _ hz, PhiA5_eq]
  iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩⟩
  iapply ((kernelRun5_A c (grid5.coords t) _ _ _ _ _ _ _ _ _ _ _ _ _ _ _ _ ((hcond5_0 t).mpr h0) (fun h => h1 ((hcond5_1 t).mp h)) (iblk5 V c 0 t) (iblk5 V c 1 t) (iblk5 V c 2 t) (iblk5 V c 3 t) (iblk5 V c 4 t)).2.2.2 _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  iintro ⟨H0, H1, H2, H3, H4, H5, H6, ⟨%es0, HS0⟩⟩
  isplitl [HS0 Hr Hg]
  · isplitl [HS0 Hr]
    · isplitl [HS0]
      · unfold owns; iexists _; isplitr
        swap; · iexact HS0
        ipureintro; exact View.read_writes_of_cover _ _ _ _ _ (scover5_A_0 c _ _ _ _ _ _ _ _ _ _ _ _ _ _ _ _ _ _ _ _ _ _ _ _)
      iexact Hr
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexists _; iexact H5
  iexists _; iexact H6

set_option maxHeartbeats 4800000 in
/-- The body at a point of case A that is not the first of the grid (the accumulator is found at what the point before left; the reset overwrites it). -/
theorem sound_body5_A (c : Dev nD) (t : Fin cfg5.N) (h0 : t.val % 4 = 0) (h1 : ¬t.val % 4 = 3) (hz : t.val ≠ 0) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).owesAt () t.succ = (dat5 V c).owesAt () t.castSucc from rfl]
  rw [show (dat5 V c).Φ t.succ = PhiS5 V c (t.val + 1) t.isLt from rfl, PhiS5_succ]
  rw [show (dat5 V c).leavesExact 0 t = owns (c : Thread nD τ) (ms5_0 t) fullShare ((dat5 V c).after 0 t) from by
    unfold Dat.leavesExact; rw [liveAt5_0 t], after5_0]
  rw [show (dat5 V c).leavesExact 1 t = owns (c : Thread nD τ) (ms5_1 t) fullShare ((dat5 V c).after 1 t) from by
    unfold Dat.leavesExact; rw [liveAt5_1 t], after5_1]
  rw [show (dat5 V c).leavesExact 2 t = owns (c : Thread nD τ) (ms5_2 t) fullShare ((dat5 V c).after 2 t) from by
    unfold Dat.leavesExact; rw [liveAt5_2 t], after5_2]
  rw [show (dat5 V c).leavesExact 3 t = owns (c : Thread nD τ) (ms5_3 t) fullShare ((dat5 V c).after 3 t) from by
    unfold Dat.leavesExact; rw [liveAt5_3 t], after5_3]
  rw [show (dat5 V c).leavesExact 4 t = owns (c : Thread nD τ) (ms5_4 t) fullShare ((dat5 V c).after 4 t) from by
    unfold Dat.leavesExact; rw [liveAt5_4 t], after5_4]
  rw [Dat.leavesExact_idle (dat5 V c) 5 t (idleAt5_5_A t ((hcond5_0 t).mpr h0) (fun h => h1 ((hcond5_1 t).mp h))) (noFlush5_5_A t ((hcond5_0 t).mpr h0) (fun h => h1 ((hcond5_1 t).mp h)))]
  rw [Dat.leavesExact_idle (dat5 V c) 6 t (idleAt5_6_A t ((hcond5_0 t).mpr h0) (fun h => h1 ((hcond5_1 t).mp h))) (noFlush5_6_A t ((hcond5_0 t).mpr h0) (fun h => h1 ((hcond5_1 t).mp h)))]
  rw [outsAt5_A V c t h0 h1]
  unfold sout5_A_0; (try dsimp only)
  rw [PhiS5_castSucc V c t, PhiS5_pos V c _ _ hz]
  iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩⟩
  iapply ((kernelRun5_A c (grid5.coords t) _ _ _ _ _ _ _ _ _ _ _ _ _ _ _ _ ((hcond5_0 t).mpr h0) (fun h => h1 ((hcond5_1 t).mp h)) (iblk5 V c 0 t) (iblk5 V c 1 t) (iblk5 V c 2 t) (iblk5 V c 3 t) (iblk5 V c 4 t)).2.2.2 _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexists _; iexact HS0
  iintro ⟨H0, H1, H2, H3, H4, H5, H6, ⟨%es0, HS0⟩⟩
  isplitl [HS0 Hr Hg]
  · isplitl [HS0 Hr]
    · isplitl [HS0]
      · unfold owns; iexists _; isplitr
        swap; · iexact HS0
        ipureintro; exact View.read_writes_of_cover _ _ _ _ _ (scover5_A_0 c _ _ _ _ _ _ _ _ _ _ _ _ _ _ _ _ _ _ _ _ _ _ _ _)
      iexact Hr
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexists _; iexact H5
  iexists _; iexact H6

set_option maxHeartbeats 4800000 in
/-- The body at a point of case B. -/
theorem sound_body5_B (c : Dev nD) (t : Fin cfg5.N) (h0 : ¬t.val % 4 = 0) (h1 : ¬t.val % 4 = 3) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).owesAt () t.succ = (dat5 V c).owesAt () t.castSucc from rfl]
  rw [show (dat5 V c).Φ t.succ = PhiS5 V c (t.val + 1) t.isLt from rfl, PhiS5_succ]
  rw [show (dat5 V c).leavesExact 0 t = owns (c : Thread nD τ) (ms5_0 t) fullShare ((dat5 V c).after 0 t) from by
    unfold Dat.leavesExact; rw [liveAt5_0 t], after5_0]
  rw [show (dat5 V c).leavesExact 1 t = owns (c : Thread nD τ) (ms5_1 t) fullShare ((dat5 V c).after 1 t) from by
    unfold Dat.leavesExact; rw [liveAt5_1 t], after5_1]
  rw [show (dat5 V c).leavesExact 2 t = owns (c : Thread nD τ) (ms5_2 t) fullShare ((dat5 V c).after 2 t) from by
    unfold Dat.leavesExact; rw [liveAt5_2 t], after5_2]
  rw [show (dat5 V c).leavesExact 3 t = owns (c : Thread nD τ) (ms5_3 t) fullShare ((dat5 V c).after 3 t) from by
    unfold Dat.leavesExact; rw [liveAt5_3 t], after5_3]
  rw [show (dat5 V c).leavesExact 4 t = owns (c : Thread nD τ) (ms5_4 t) fullShare ((dat5 V c).after 4 t) from by
    unfold Dat.leavesExact; rw [liveAt5_4 t], after5_4]
  rw [Dat.leavesExact_idle (dat5 V c) 5 t (idleAt5_5_B t (fun h => h0 ((hcond5_0 t).mp h)) (fun h => h1 ((hcond5_1 t).mp h))) (noFlush5_5_B t (fun h => h0 ((hcond5_0 t).mp h)) (fun h => h1 ((hcond5_1 t).mp h)))]
  rw [Dat.leavesExact_idle (dat5 V c) 6 t (idleAt5_6_B t (fun h => h0 ((hcond5_0 t).mp h)) (fun h => h1 ((hcond5_1 t).mp h))) (noFlush5_6_B t (fun h => h0 ((hcond5_0 t).mp h)) (fun h => h1 ((hcond5_1 t).mp h)))]
  rw [outsAt5_B V c t h0 h1]
  unfold sout5_B_0; (try dsimp only)
  have hz : t.val ≠ 0 := fun e => h0 (by rw [e])
  rw [PhiS5_castSucc V c t, PhiS5_pos V c _ _ hz]
  iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩⟩
  iapply ((kernelRun5_B c (grid5.coords t) _ _ _ _ _ _ _ _ _ _ _ _ _ _ _ _ (fun h => h0 ((hcond5_0 t).mp h)) (fun h => h1 ((hcond5_1 t).mp h)) (iblk5 V c 0 t) (iblk5 V c 1 t) (iblk5 V c 2 t) (iblk5 V c 3 t) (iblk5 V c 4 t) _).2.2.2 _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  iintro ⟨H0, H1, H2, H3, H4, H5, H6, ⟨%es0, HS0⟩⟩
  isplitl [HS0 Hr Hg]
  · isplitl [HS0 Hr]
    · isplitl [HS0]
      · unfold owns; iexists _; isplitr
        swap; · iexact HS0
        ipureintro; exact View.read_writes_of_cover _ _ _ _ _ (scover5_B_0 c _ _ _ _ _ _ _ _ _ _ _ _ _ _ _ _ _ _ _ _ _ _ _ _ _)
      iexact Hr
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexists _; iexact H5
  iexists _; iexact H6

set_option maxHeartbeats 4800000 in
/-- The body at a point of case C. -/
theorem sound_body5_C (c : Dev nD) (t : Fin cfg5.N) (h0 : ¬t.val % 4 = 0) (h1 : t.val % 4 = 3) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).owesAt () t.succ = (dat5 V c).owesAt () t.castSucc from rfl]
  rw [show (dat5 V c).Φ t.succ = PhiS5 V c (t.val + 1) t.isLt from rfl, PhiS5_succ]
  rw [show (dat5 V c).leavesExact 0 t = owns (c : Thread nD τ) (ms5_0 t) fullShare ((dat5 V c).after 0 t) from by
    unfold Dat.leavesExact; rw [liveAt5_0 t], after5_0]
  rw [show (dat5 V c).leavesExact 1 t = owns (c : Thread nD τ) (ms5_1 t) fullShare ((dat5 V c).after 1 t) from by
    unfold Dat.leavesExact; rw [liveAt5_1 t], after5_1]
  rw [show (dat5 V c).leavesExact 2 t = owns (c : Thread nD τ) (ms5_2 t) fullShare ((dat5 V c).after 2 t) from by
    unfold Dat.leavesExact; rw [liveAt5_2 t], after5_2]
  rw [show (dat5 V c).leavesExact 3 t = owns (c : Thread nD τ) (ms5_3 t) fullShare ((dat5 V c).after 3 t) from by
    unfold Dat.leavesExact; rw [liveAt5_3 t], after5_3]
  rw [show (dat5 V c).leavesExact 4 t = owns (c : Thread nD τ) (ms5_4 t) fullShare ((dat5 V c).after 4 t) from by
    unfold Dat.leavesExact; rw [liveAt5_4 t], after5_4]
  rw [show (dat5 V c).leavesExact 5 t = owns (c : Thread nD τ) (ms5_5 t) fullShare ((dat5 V c).after 5 t) from by
    unfold Dat.leavesExact; rw [liveAt5_5_C t (fun h => h0 ((hcond5_0 t).mp h)) ((hcond5_1 t).mpr h1)], after5_5]
  rw [show (dat5 V c).leavesExact 6 t = owns (c : Thread nD τ) (ms5_6 t) fullShare ((dat5 V c).after 6 t) from by
    unfold Dat.leavesExact; rw [liveAt5_6_C t (fun h => h0 ((hcond5_0 t).mp h)) ((hcond5_1 t).mpr h1)], after5_6]
  rw [outsAt5_C V c t h0 h1]
  unfold out5_C_5 out5_C_6 sout5_C_0; (try dsimp only)
  have hz : t.val ≠ 0 := fun e => h0 (by rw [e])
  rw [PhiS5_castSucc V c t, PhiS5_pos V c _ _ hz]
  iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩⟩
  iapply ((kernelRun5_C c (grid5.coords t) _ _ _ _ _ _ _ _ _ _ _ _ _ _ _ _ (fun h => h0 ((hcond5_0 t).mp h)) ((hcond5_1 t).mpr h1) (iblk5 V c 0 t) (iblk5 V c 1 t) (iblk5 V c 2 t) (iblk5 V c 3 t) (iblk5 V c 4 t) _).2.2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [HS0]; · iexact HS0
  iintro ⟨H0, H1, H2, H3, H4, ⟨%e5, H5⟩, ⟨%e6, H6⟩, ⟨%es0, HS0⟩⟩
  isplitl [HS0 Hr Hg]
  · isplitl [HS0 Hr]
    · isplitl [HS0]
      · unfold owns; iexists _; isplitr
        swap; · iexact HS0
        ipureintro; exact View.read_writes_of_cover _ _ _ _ _ (scover5_C_0 c _ _ _ _ _ _ _ _ _ _ _ _ _ _ _ _ _ _ _ _ _ _ _ _ _)
      iexact Hr
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_of_cover _ _ _ _ _ (cover5_C_5 c _ _ _ _ _ _ _ _ _ _ _ _ _ _ _ _ _ _ _ _ _ _ _ _ _)
  unfold owns; iexists _; isplitr
  swap; · iexact H6
  ipureintro; exact View.read_writes_of_cover _ _ _ _ _ (cover5_C_6 c _ _ _ _ _ _ _ _ _ _ _ _ _ _ _ _ _ _ _ _ _ _ _ _ _)

/-- The body at any point: the point is in exactly one of the three cases. -/
theorem sound_body5 (c : Dev nD) (t : Fin cfg5.N) :
    bodyPre5 V c t ⊢ wp frame (wpE (defs₀ (F := F)) Variants.none c none) Set.univ (bodyAt5 t) (fun _ => bodyPost5 V c t) := by
  by_cases h0 : t.val % 4 = 0
  · have h1 : ¬t.val % 4 = 3 := by omega
    by_cases hz : t.val = 0
    · exact sound_body5_A0 V c t h0 h1 hz
    · exact sound_body5_A V c t h0 h1 hz
  · by_cases h1 : t.val % 4 = 3
    · exact sound_body5_C V c t h0 h1
    · exact sound_body5_B V c t h0 h1

/-- The library's body obligation, at every point. -/
theorem body_obligation5 (c : Dev nD) : BodyObligation (dat5 (F := F) V c) (defs₀ (F := F)) Variants.none () Set.univ := fun t => by
  rw [bigSep_W5, bigSep_W5]
  exact sound_body5 V c t

/-- What the launch hands the call is the invariant before the first point. -/
theorem hin5 (c : Dev nD) : Pipeline.ΦA spec5 c ⊢ (dat5 V c).Φ 0 := by
  rw [show (dat5 V c).Φ 0 = PhiS5 V c 0 (Nat.zero_le _) from rfl, PhiS5_zero V c 0 _ rfl]
  try exact Idealize.SL.BI.Entails.refl _

/-- After any point but the first the invariant gives back what the launch handed over: the accumulator's contents
    are forgotten. -/
theorem Phi_out5 (c : Dev nD) (t : Fin (cfg5.N + 1)) (ht : t.val ≠ 0) : (dat5 V c).Φ t ⊢ Pipeline.ΦA spec5 c := by
  rw [show (dat5 V c).Φ t = PhiS5 V c t.val (Nat.le_of_lt_succ t.isLt) from rfl, PhiS5_pos V c _ _ ht, PhiA5_eq]
  iintro ⟨⟨HS0, Hr⟩, Hg⟩
  isplitl [HS0 Hr]
  · isplitl [HS0]
    · iexists _; iexact HS0
    iexact Hr
  iexact Hg

/-- The same after the last point. -/
theorem hout5 (c : Dev nD) : (dat5 V c).Φ (Fin.last cfg5.N) ⊢ Pipeline.ΦA spec5 c :=
  Phi_out5 V c _ (by rw [Fin.val_last]; have : cfg5.N = 32 := N_5; omega)

end Cert.Kernel.Hand

end
-- ==== Proof.K.Prop7Runs.lean ====
import proofs.«131271_j4982162063661_2_alg».proof.Proof.Gen.Kernel.Launch
import proofs.«131271_j4982162063661_2_alg».proof.Proof.Gen.Kernel.Skeleton
import proofs.«131271_j4982162063661_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The propagate call number 7: what its three control cases share

The call runs on a grid of 8 x 4 points; point `t` has row tile `i = t / 4` and column tile `k = t % 4`.
The body zeroes its accumulator when `k = 0`, adds the product of the current tile of the matrix with the
matching 2048 rows of the propagated signal at every `k`, and when `k = 3` stores the accumulator into the
two outputs. So there are three control cases: `k = 0` (reset, no output stored), `k = 1, 2` (neither),
`k = 3` (outputs stored). Everything here is stated at the buffer contents `V` the call is entered with. -/

-- the buffer contents when the call is entered
variable (V : (c : Dev nD) → (b : Ref sig .tc) → Buf (Elt F) ((c : Thread nD τ).loc b))

/-- Window `w`'s block at point `t`, read off the window's array as the call finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's current staging buffer holds the window's block at every point, whether the pipeline fetched
    it there or not: where it was not fetched the block index has not moved since the point before. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1's current staging buffer holds the window's block at every point, whether the pipeline fetched
    it there or not: where it was not fetched the block index has not moved since the point before. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- Input window 2's current staging buffer holds the window's block at every point, whether the pipeline fetched
    it there or not: where it was not fetched the block index has not moved since the point before. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- Input window 3's current staging buffer holds the window's block at every point, whether the pipeline fetched
    it there or not: where it was not fetched the block index has not moved since the point before. -/
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

/-- Input window 4's current staging buffer holds the window's block at every point, whether the pipeline fetched
    it there or not: where it was not fetched the block index has not moved since the point before. -/
theorem before7_4_of {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)

/-! ## The body's two conditions, in closed form over the grid -/

/-- The condition of the first `scf.if` (the reset): the column tile is the first. -/
abbrev cond7_0 (i : grid7.Coords) : Prop := (Scalar.cmpi .ne (Scalar.extui (Scalar.cmpi .eq (BitVec.ofNat 32 (i 1).val) 0#32)) 0#32) = 1#1
theorem hcond7_0 : ∀ t : Fin cfg7.N, cond7_0 (grid7.coords t) ↔ t.val % 4 = 0 :=
  (by decide +kernel : ∀ t : Fin grid7.N, cond7_0 (grid7.coords t) ↔ t.val % 4 = 0)

/-- The condition of the second `scf.if` (the outputs' stores): the column tile is the last. -/
abbrev cond7_1 (i : grid7.Coords) : Prop := k7_cond2 i = 1#1
theorem hcond7_1 : ∀ t : Fin cfg7.N, cond7_1 (grid7.coords t) ↔ t.val % 4 = 3 :=
  (by decide +kernel : ∀ t : Fin grid7.N, cond7_1 (grid7.coords t) ↔ t.val % 4 = 3)

/-! ## Where the two outputs are idle -/

/-- At the points with k = 0 output 5 is idle: the body stores nothing into it and the pipeline does not write it back. -/
theorem idleAt7_5_A : ∀ t : Fin cfg7.N, cond7_0 (grid7.coords t) → ¬cond7_1 (grid7.coords t) → cfg7.idle 5 (grid7.coords t) = true := by decide +kernel
theorem noFlush7_5_A : ∀ t : Fin cfg7.N, cond7_0 (grid7.coords t) → ¬cond7_1 (grid7.coords t) → (cfg7.win 5).flush t = false := by decide +kernel
/-- The same at the points with k = 1 and k = 2. -/
theorem idleAt7_5_B : ∀ t : Fin cfg7.N, ¬cond7_0 (grid7.coords t) → ¬cond7_1 (grid7.coords t) → cfg7.idle 5 (grid7.coords t) = true := by decide +kernel
theorem noFlush7_5_B : ∀ t : Fin cfg7.N, ¬cond7_0 (grid7.coords t) → ¬cond7_1 (grid7.coords t) → (cfg7.win 5).flush t = false := by decide +kernel
/-- At the points with k = 3 output 5 is live: the body stores its whole block. -/
theorem liveAt7_5_C : ∀ t : Fin cfg7.N, ¬cond7_0 (grid7.coords t) → cond7_1 (grid7.coords t) → cfg7.idle 5 (grid7.coords t) = false := by decide +kernel

/-- At the points with k = 0 output 6 is idle: the body stores nothing into it and the pipeline does not write it back. -/
theorem idleAt7_6_A : ∀ t : Fin cfg7.N, cond7_0 (grid7.coords t) → ¬cond7_1 (grid7.coords t) → cfg7.idle 6 (grid7.coords t) = true := by decide +kernel
theorem noFlush7_6_A : ∀ t : Fin cfg7.N, cond7_0 (grid7.coords t) → ¬cond7_1 (grid7.coords t) → (cfg7.win 6).flush t = false := by decide +kernel
/-- The same at the points with k = 1 and k = 2. -/
theorem idleAt7_6_B : ∀ t : Fin cfg7.N, ¬cond7_0 (grid7.coords t) → ¬cond7_1 (grid7.coords t) → cfg7.idle 6 (grid7.coords t) = true := by decide +kernel
theorem noFlush7_6_B : ∀ t : Fin cfg7.N, ¬cond7_0 (grid7.coords t) → ¬cond7_1 (grid7.coords t) → (cfg7.win 6).flush t = false := by decide +kernel
/-- At the points with k = 3 output 6 is live: the body stores its whole block. -/
theorem liveAt7_6_C : ∀ t : Fin cfg7.N, ¬cond7_0 (grid7.coords t) → cond7_1 (grid7.coords t) → cfg7.idle 6 (grid7.coords t) = false := by decide +kernel

/-! ## The memrefs the body is called with -/

/-- One staging buffer of each output, through which its contents are stated (the choice does not matter). -/
abbrev VO7_5 : View sig .tc .vmem S1024x64 .bf16 := (Memref.whole cc7_stg5_0 : Memref sig .tc .vmem S1024x64 .bf16).view
abbrev VO7_6 : View sig .tc .vmem S1024x64 .f32 := (Memref.whole cc7_stg6_0 : Memref sig .tc .vmem S1024x64 .f32).view
abbrev ms7_0 (t : Fin cfg7.N) : Memref sig .tc .vmem S1024x2048 .bf16 := win7_0.stage (cfg7.slots t 0)
abbrev hs7_0 (t : Fin cfg7.N) : (ms7_0 t).IsWhole := hstage7_0 ((cfg7.slots t 0).cast nbuf7_0)
abbrev ms7_1 (t : Fin cfg7.N) : Memref sig .tc .vmem S8192x64 .bf16 := win7_1.stage (cfg7.slots t 1)
abbrev hs7_1 (t : Fin cfg7.N) : (ms7_1 t).IsWhole := hstage7_1 ((cfg7.slots t 1).cast nbuf7_1)
abbrev ms7_2 (t : Fin cfg7.N) : Memref sig .tc .vmem S1024x64 .f32 := win7_2.stage (cfg7.slots t 2)
abbrev hs7_2 (t : Fin cfg7.N) : (ms7_2 t).IsWhole := hstage7_2 ((cfg7.slots t 2).cast nbuf7_2)
abbrev ms7_3 (t : Fin cfg7.N) : Memref sig .tc .vmem S1x64 .f32 := win7_3.stage (cfg7.slots t 3)
abbrev hs7_3 (t : Fin cfg7.N) : (ms7_3 t).IsWhole := hstage7_3 ((cfg7.slots t 3).cast nbuf7_3)
abbrev ms7_4 (t : Fin cfg7.N) : Memref sig .tc .vmem S1x1 .f32 := win7_4.stage (cfg7.slots t 4)
abbrev hs7_4 (t : Fin cfg7.N) : (ms7_4 t).IsWhole := hstage7_4 ((cfg7.slots t 4).cast nbuf7_4)
abbrev ms7_5 (t : Fin cfg7.N) : Memref sig .tc .vmem S1024x64 .bf16 := win7_5.stage (cfg7.slots t 5)
abbrev hs7_5 (t : Fin cfg7.N) : (ms7_5 t).IsWhole := hstage7_5 ((cfg7.slots t 5).cast nbuf7_5)
abbrev ms7_6 (t : Fin cfg7.N) : Memref sig .tc .vmem S1024x64 .f32 := win7_6.stage (cfg7.slots t 6)
abbrev hs7_6 (t : Fin cfg7.N) : (ms7_6 t).IsWhole := hstage7_6 ((cfg7.slots t 6).cast nbuf7_6)
/-- The accumulator: a whole scoped buffer of the call's own, carried from point to point. -/
abbrev scM7_0 : Memref sig .tc .vmem S1024x64 .f32 := Memref.whole cc7_scratch0
abbrev VS7_0 : View sig .tc .vmem S1024x64 .f32 := scM7_0.view

/-- The invariant the launch hands the call, with the accumulator split out of the scoped buffers: the accumulator
    owned at some contents, every other scoped buffer unopened, the generator register at some state. -/
theorem PhiA7_eq (c : Dev nD) :
    (Pipeline.ΦA spec7 c : sProp 𝕄)
      = iprop(iprop(iprop((∃ d, owns (c : Thread nD τ) scM7_0 fullShare d))
          ∗ Pipeline.scopedRestBut (Ix := Unit) (Name := ℕ) (U := UR sig nD τ) (Lvl := ℕ) (Val := Elt F) spec7 c [cc7_scratch0]) ∗ (∃ r, prngReg c r)) := by
  unfold Pipeline.ΦA; rw [scopedRest7_split]; simp only [scM7_0, owns_whole]; try rfl

end Cert.Kernel.Hand

end
-- ==== Proof.K.Prop7RunA.lean ====
import proofs.«131271_j4982162063661_2_alg».proof.Proof.K.Prop7Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run when the column tile is the first (the accumulator is reset, then accumulated into; no output is stored): the lists of stores each buffer ends with, together with the proof that on whole
    staging memrefs — the inputs' at their contents, the outputs' at contents handed back untouched, the accumulator
    at anything — the body runs to the continuation holding the inputs' as they were,
    the accumulator with its stores written. The lists are found by running the body. -/
noncomputable def kernelRun7_A (c : Dev nD) (i : grid7.Coords) (arg2 : Memref sig .tc .vmem S1024x2048 .bf16) (harg2 : arg2.IsWhole) (arg3 : Memref sig .tc .vmem S8192x64 .bf16) (harg3 : arg3.IsWhole) (arg4 : Memref sig .tc .vmem S1024x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S1024x64 .bf16) (harg7 : arg7.IsWhole) (arg8 : Memref sig .tc .vmem S1024x64 .f32) (harg8 : arg8.IsWhole) (arg9 : Memref sig .tc .vmem S1024x64 .f32) (harg9 : arg9.IsWhole) (hc0 : cond7_0 i) (hc1 : ¬cond7_1 i)
    (x0 : Vec F S1024x2048 .bf16) (x1 : Vec F S8192x64 .bf16) (x2 : Vec F S1024x64 .f32) (x3 : Vec F S1x64 .f32) (x4 : Vec F S1x1 .f32) :
    Σ' (L5 : List (View.Piece (Elt F) S1024x64 .bf16)) (L6 : List (View.Piece (Elt F) S1024x64 .f32)), { LS0 : List (View.Piece (Elt F) S1024x64 .f32) //
      ∀ (xi5 : Vec F S1024x64 .bf16) (xi6 : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc7__propagate_kernel i arg2 harg2 arg3 harg3 arg4 harg4 arg5 harg5 arg6 harg6 arg7 harg7 arg8 harg8 arg9 harg9) K } := by
  refine ⟨[], [], ?_, fun xi5 xi6 E K => ?run⟩
  case run =>
    simp only [cc7__propagate_kernel_eq_skeleton]; unfold cc7__propagate_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

end Cert.Kernel.Hand

end
-- ==== Proof.K.Prop7RunB.lean ====
import proofs.«131271_j4982162063661_2_alg».proof.Proof.K.Prop7RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run when the column tile is neither the first nor the last (the accumulator is accumulated into; no output is stored): the lists of stores each buffer ends with, together with the proof that on whole
    staging memrefs — the inputs' at their contents, the outputs' at contents handed back untouched, the accumulator
    at the contents the point before left — the body runs to the continuation holding the inputs' as they were,
    the accumulator with its stores written. The lists are found by running the body. -/
noncomputable def kernelRun7_B (c : Dev nD) (i : grid7.Coords) (arg2 : Memref sig .tc .vmem S1024x2048 .bf16) (harg2 : arg2.IsWhole) (arg3 : Memref sig .tc .vmem S8192x64 .bf16) (harg3 : arg3.IsWhole) (arg4 : Memref sig .tc .vmem S1024x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S1024x64 .bf16) (harg7 : arg7.IsWhole) (arg8 : Memref sig .tc .vmem S1024x64 .f32) (harg8 : arg8.IsWhole) (arg9 : Memref sig .tc .vmem S1024x64 .f32) (harg9 : arg9.IsWhole) (hc0 : ¬cond7_0 i) (hc1 : ¬cond7_1 i)
    (x0 : Vec F S1024x2048 .bf16) (x1 : Vec F S8192x64 .bf16) (x2 : Vec F S1024x64 .f32) (x3 : Vec F S1x64 .f32) (x4 : Vec F S1x1 .f32) (xs0 : Vec F S1024x64 .f32) :
    Σ' (L5 : List (View.Piece (Elt F) S1024x64 .bf16)) (L6 : List (View.Piece (Elt F) S1024x64 .f32)), { LS0 : List (View.Piece (Elt F) S1024x64 .f32) //
      ∀ (xi5 : Vec F S1024x64 .bf16) (xi6 : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc7__propagate_kernel i arg2 harg2 arg3 harg3 arg4 harg4 arg5 harg5 arg6 harg6 arg7 harg7 arg8 harg8 arg9 harg9) K } := by
  refine ⟨[], [], ?_, fun xi5 xi6 E K => ?run⟩
  case run =>
    simp only [cc7__propagate_kernel_eq_skeleton]; unfold cc7__propagate_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

end Cert.Kernel.Hand

end
-- ==== Proof.K.Prop7RunC.lean ====
import proofs.«131271_j4982162063661_2_alg».proof.Proof.K.Prop7RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run when the column tile is the last (the accumulator is accumulated into, then stored into both outputs): the lists of stores each buffer ends with, together with the proof that on whole
    staging memrefs — the inputs' at their contents, the outputs' at anything, the accumulator
    at the contents the point before left — the body runs to the continuation holding the inputs' as they were,
    the accumulator with its stores written and each output's buffer with its stores written. The lists are found by running the body. -/
noncomputable def kernelRun7_C (c : Dev nD) (i : grid7.Coords) (arg2 : Memref sig .tc .vmem S1024x2048 .bf16) (harg2 : arg2.IsWhole) (arg3 : Memref sig .tc .vmem S8192x64 .bf16) (harg3 : arg3.IsWhole) (arg4 : Memref sig .tc .vmem S1024x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S1024x64 .bf16) (harg7 : arg7.IsWhole) (arg8 : Memref sig .tc .vmem S1024x64 .f32) (harg8 : arg8.IsWhole) (arg9 : Memref sig .tc .vmem S1024x64 .f32) (harg9 : arg9.IsWhole) (hc0 : ¬cond7_0 i) (hc1 : cond7_1 i)
    (x0 : Vec F S1024x2048 .bf16) (x1 : Vec F S8192x64 .bf16) (x2 : Vec F S1024x64 .f32) (x3 : Vec F S1x64 .f32) (x4 : Vec F S1x1 .f32) (xs0 : Vec F S1024x64 .f32) :
    Σ' (L5 : List (View.Piece (Elt F) S1024x64 .bf16)) (L6 : List (View.Piece (Elt F) S1024x64 .f32)), { LS0 : List (View.Piece (Elt F) S1024x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0)) -∗ K ⟨⟩))
          ⊢ wp frame (wpE (defs₀ (F := F)) Variants.none c none) E (cc7__propagate_kernel i arg2 harg2 arg3 harg3 arg4 harg4 arg5 harg5 arg6 harg6 arg7 harg7 arg8 harg8 arg9 harg9) K } := by
  refine ⟨?_, ?_, ?_, fun E K => ?run⟩
  case run =>
    simp only [cc7__propagate_kernel_eq_skeleton]; unfold cc7__propagate_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    iexists _; iexact HS0

end Cert.Kernel.Hand

end
-- ==== Proof.K.Prop7.lean ====
import proofs.«131271_j4982162063661_2_alg».proof.Proof.K.Prop7RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The propagate call number 7: its proof data and body obligation at the entry contents `V`

What the two outputs' staging buffers and the accumulator hold after each point is defined by recursion on the
point (`outsAt7`): the case the point is in, run on the point's memrefs and input blocks, over what the point
before left in the accumulator. The invariant between points keeps the accumulator at exactly those contents. -/

variable (V : (c : Dev nD) → (b : Ref sig .tc) → Buf (Elt F) ((c : Thread nD τ).loc b))

/-! ## What each case leaves -/

/-- What case A leaves in output 5's staging buffer: its stores read back over arbitrary contents (there are none: the output is idle in this case and nothing consults this value). -/
def out7_A_5 (c : Dev nD) (i : grid7.Coords) (arg2 : Memref sig .tc .vmem S1024x2048 .bf16) (harg2 : arg2.IsWhole) (arg3 : Memref sig .tc .vmem S8192x64 .bf16) (harg3 : arg3.IsWhole) (arg4 : Memref sig .tc .vmem S1024x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S1024x64 .bf16) (harg7 : arg7.IsWhole) (arg8 : Memref sig .tc .vmem S1024x64 .f32) (harg8 : arg8.IsWhole) (arg9 : Memref sig .tc .vmem S1024x64 .f32) (harg9 : arg9.IsWhole) (hc0 : cond7_0 i) (hc1 : ¬cond7_1 i)
    (x0 : Vec F S1024x2048 .bf16) (x1 : Vec F S8192x64 .bf16) (x2 : Vec F S1024x64 .f32) (x3 : Vec F S1x64 .f32) (x4 : Vec F S1x1 .f32) : Vec F S1024x64 .bf16 :=
  VO7_5.read (Elt F) (VO7_5.writes (Elt F) VO7_5.junk (kernelRun7_A c i arg2 harg2 arg3 harg3 arg4 harg4 arg5 harg5 arg6 harg6 arg7 harg7 arg8 harg8 arg9 harg9 hc0 hc1 x0 x1 x2 x3 x4).1)
/-- The same for output 6. -/
def out7_A_6 (c : Dev nD) (i : grid7.Coords) (arg2 : Memref sig .tc .vmem S1024x2048 .bf16) (harg2 : arg2.IsWhole) (arg3 : Memref sig .tc .vmem S8192x64 .bf16) (harg3 : arg3.IsWhole) (arg4 : Memref sig .tc .vmem S1024x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S1024x64 .bf16) (harg7 : arg7.IsWhole) (arg8 : Memref sig .tc .vmem S1024x64 .f32) (harg8 : arg8.IsWhole) (arg9 : Memref sig .tc .vmem S1024x64 .f32) (harg9 : arg9.IsWhole) (hc0 : cond7_0 i) (hc1 : ¬cond7_1 i)
    (x0 : Vec F S1024x2048 .bf16) (x1 : Vec F S8192x64 .bf16) (x2 : Vec F S1024x64 .f32) (x3 : Vec F S1x64 .f32) (x4 : Vec F S1x1 .f32) : Vec F S1024x64 .f32 :=
  VO7_6.read (Elt F) (VO7_6.writes (Elt F) VO7_6.junk (kernelRun7_A c i arg2 harg2 arg3 harg3 arg4 harg4 arg5 harg5 arg6 harg6 arg7 harg7 arg8 harg8 arg9 harg9 hc0 hc1 x0 x1 x2 x3 x4).2.1)
/-- Case A's stores into the accumulator are of the whole buffer, so they cover it. -/
theorem scover7_A_0 (c : Dev nD) (i : grid7.Coords) (arg2 : Memref sig .tc .vmem S1024x2048 .bf16) (harg2 : arg2.IsWhole) (arg3 : Memref sig .tc .vmem S8192x64 .bf16) (harg3 : arg3.IsWhole) (arg4 : Memref sig .tc .vmem S1024x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S1024x64 .bf16) (harg7 : arg7.IsWhole) (arg8 : Memref sig .tc .vmem S1024x64 .f32) (harg8 : arg8.IsWhole) (arg9 : Memref sig .tc .vmem S1024x64 .f32) (harg9 : arg9.IsWhole) (hc0 : cond7_0 i) (hc1 : ¬cond7_1 i)
    (x0 : Vec F S1024x2048 .bf16) (x1 : Vec F S8192x64 .bf16) (x2 : Vec F S1024x64 .f32) (x3 : Vec F S1x64 .f32) (x4 : Vec F S1x1 .f32) (y : S1024x64.Idx) :
    ∃ pc ∈ (kernelRun7_A c i arg2 harg2 arg3 harg3 arg4 harg4 arg5 harg5 arg6 harg6 arg7 harg7 arg8 harg8 arg9 harg9 hc0 hc1 x0 x1 x2 x3 x4).2.2.1, y ∈ pc.1.set :=
  View.cover_of_tiledL (kernelRun7_A c i arg2 harg2 arg3 harg3 arg4 harg4 arg5 harg5 arg6 harg6 arg7 harg7 arg8 harg8 arg9 harg9 hc0 hc1 x0 x1 x2 x3 x4).2.2.1 S1024x64.size (by sl_kernel_rfl) y
/-- What case A leaves in the accumulator. -/
def sout7_A_0 (c : Dev nD) (i : grid7.Coords) (arg2 : Memref sig .tc .vmem S1024x2048 .bf16) (harg2 : arg2.IsWhole) (arg3 : Memref sig .tc .vmem S8192x64 .bf16) (harg3 : arg3.IsWhole) (arg4 : Memref sig .tc .vmem S1024x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S1024x64 .bf16) (harg7 : arg7.IsWhole) (arg8 : Memref sig .tc .vmem S1024x64 .f32) (harg8 : arg8.IsWhole) (arg9 : Memref sig .tc .vmem S1024x64 .f32) (harg9 : arg9.IsWhole) (hc0 : cond7_0 i) (hc1 : ¬cond7_1 i)
    (x0 : Vec F S1024x2048 .bf16) (x1 : Vec F S8192x64 .bf16) (x2 : Vec F S1024x64 .f32) (x3 : Vec F S1x64 .f32) (x4 : Vec F S1x1 .f32) : Vec F S1024x64 .f32 :=
  VS7_0.read (Elt F) (VS7_0.writes (Elt F) VS7_0.junk (kernelRun7_A c i arg2 harg2 arg3 harg3 arg4 harg4 arg5 harg5 arg6 harg6 arg7 harg7 arg8 harg8 arg9 harg9 hc0 hc1 x0 x1 x2 x3 x4).2.2.1)

/-- What case B leaves in output 5's staging buffer: its stores read back over arbitrary contents (there are none: the output is idle in this case and nothing consults this value). -/
def out7_B_5 (c : Dev nD) (i : grid7.Coords) (arg2 : Memref sig .tc .vmem S1024x2048 .bf16) (harg2 : arg2.IsWhole) (arg3 : Memref sig .tc .vmem S8192x64 .bf16) (harg3 : arg3.IsWhole) (arg4 : Memref sig .tc .vmem S1024x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S1024x64 .bf16) (harg7 : arg7.IsWhole) (arg8 : Memref sig .tc .vmem S1024x64 .f32) (harg8 : arg8.IsWhole) (arg9 : Memref sig .tc .vmem S1024x64 .f32) (harg9 : arg9.IsWhole) (hc0 : ¬cond7_0 i) (hc1 : ¬cond7_1 i)
    (x0 : Vec F S1024x2048 .bf16) (x1 : Vec F S8192x64 .bf16) (x2 : Vec F S1024x64 .f32) (x3 : Vec F S1x64 .f32) (x4 : Vec F S1x1 .f32) (xs0 : Vec F S1024x64 .f32) : Vec F S1024x64 .bf16 :=
  VO7_5.read (Elt F) (VO7_5.writes (Elt F) VO7_5.junk (kernelRun7_B c i arg2 harg2 arg3 harg3 arg4 harg4 arg5 harg5 arg6 harg6 arg7 harg7 arg8 harg8 arg9 harg9 hc0 hc1 x0 x1 x2 x3 x4 xs0).1)
/-- The same for output 6. -/
def out7_B_6 (c : Dev nD) (i : grid7.Coords) (arg2 : Memref sig .tc .vmem S1024x2048 .bf16) (harg2 : arg2.IsWhole) (arg3 : Memref sig .tc .vmem S8192x64 .bf16) (harg3 : arg3.IsWhole) (arg4 : Memref sig .tc .vmem S1024x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S1024x64 .bf16) (harg7 : arg7.IsWhole) (arg8 : Memref sig .tc .vmem S1024x64 .f32) (harg8 : arg8.IsWhole) (arg9 : Memref sig .tc .vmem S1024x64 .f32) (harg9 : arg9.IsWhole) (hc0 : ¬cond7_0 i) (hc1 : ¬cond7_1 i)
    (x0 : Vec F S1024x2048 .bf16) (x1 : Vec F S8192x64 .bf16) (x2 : Vec F S1024x64 .f32) (x3 : Vec F S1x64 .f32) (x4 : Vec F S1x1 .f32) (xs0 : Vec F S1024x64 .f32) : Vec F S1024x64 .f32 :=
  VO7_6.read (Elt F) (VO7_6.writes (Elt F) VO7_6.junk (kernelRun7_B c i arg2 harg2 arg3 harg3 arg4 harg4 arg5 harg5 arg6 harg6 arg7 harg7 arg8 harg8 arg9 harg9 hc0 hc1 x0 x1 x2 x3 x4 xs0).2.1)
/-- Case B's stores into the accumulator are of the whole buffer, so they cover it. -/
theorem scover7_B_0 (c : Dev nD) (i : grid7.Coords) (arg2 : Memref sig .tc .vmem S1024x2048 .bf16) (harg2 : arg2.IsWhole) (arg3 : Memref sig .tc .vmem S8192x64 .bf16) (harg3 : arg3.IsWhole) (arg4 : Memref sig .tc .vmem S1024x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S1024x64 .bf16) (harg7 : arg7.IsWhole) (arg8 : Memref sig .tc .vmem S1024x64 .f32) (harg8 : arg8.IsWhole) (arg9 : Memref sig .tc .vmem S1024x64 .f32) (harg9 : arg9.IsWhole) (hc0 : ¬cond7_0 i) (hc1 : ¬cond7_1 i)
    (x0 : Vec F S1024x2048 .bf16) (x1 : Vec F S8192x64 .bf16) (x2 : Vec F S1024x64 .f32) (x3 : Vec F S1x64 .f32) (x4 : Vec F S1x1 .f32) (xs0 : Vec F S1024x64 .f32) (y : S1024x64.Idx) :
    ∃ pc ∈ (kernelRun7_B c i arg2 harg2 arg3 harg3 arg4 harg4 arg5 harg5 arg6 harg6 arg7 harg7 arg8 harg8 arg9 harg9 hc0 hc1 x0 x1 x2 x3 x4 xs0).2.2.1, y ∈ pc.1.set :=
  View.cover_of_tiledL (kernelRun7_B c i arg2 harg2 arg3 harg3 arg4 harg4 arg5 harg5 arg6 harg6 arg7 harg7 arg8 harg8 arg9 harg9 hc0 hc1 x0 x1 x2 x3 x4 xs0).2.2.1 S1024x64.size (by sl_kernel_rfl) y
/-- What case B leaves in the accumulator. -/
def sout7_B_0 (c : Dev nD) (i : grid7.Coords) (arg2 : Memref sig .tc .vmem S1024x2048 .bf16) (harg2 : arg2.IsWhole) (arg3 : Memref sig .tc .vmem S8192x64 .bf16) (harg3 : arg3.IsWhole) (arg4 : Memref sig .tc .vmem S1024x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S1024x64 .bf16) (harg7 : arg7.IsWhole) (arg8 : Memref sig .tc .vmem S1024x64 .f32) (harg8 : arg8.IsWhole) (arg9 : Memref sig .tc .vmem S1024x64 .f32) (harg9 : arg9.IsWhole) (hc0 : ¬cond7_0 i) (hc1 : ¬cond7_1 i)
    (x0 : Vec F S1024x2048 .bf16) (x1 : Vec F S8192x64 .bf16) (x2 : Vec F S1024x64 .f32) (x3 : Vec F S1x64 .f32) (x4 : Vec F S1x1 .f32) (xs0 : Vec F S1024x64 .f32) : Vec F S1024x64 .f32 :=
  VS7_0.read (Elt F) (VS7_0.writes (Elt F) VS7_0.junk (kernelRun7_B c i arg2 harg2 arg3 harg3 arg4 harg4 arg5 harg5 arg6 harg6 arg7 harg7 arg8 harg8 arg9 harg9 hc0 hc1 x0 x1 x2 x3 x4 xs0).2.2.1)

/-- What case C leaves in output 5's staging buffer: its stores read back over arbitrary contents. -/
def out7_C_5 (c : Dev nD) (i : grid7.Coords) (arg2 : Memref sig .tc .vmem S1024x2048 .bf16) (harg2 : arg2.IsWhole) (arg3 : Memref sig .tc .vmem S8192x64 .bf16) (harg3 : arg3.IsWhole) (arg4 : Memref sig .tc .vmem S1024x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S1024x64 .bf16) (harg7 : arg7.IsWhole) (arg8 : Memref sig .tc .vmem S1024x64 .f32) (harg8 : arg8.IsWhole) (arg9 : Memref sig .tc .vmem S1024x64 .f32) (harg9 : arg9.IsWhole) (hc0 : ¬cond7_0 i) (hc1 : cond7_1 i)
    (x0 : Vec F S1024x2048 .bf16) (x1 : Vec F S8192x64 .bf16) (x2 : Vec F S1024x64 .f32) (x3 : Vec F S1x64 .f32) (x4 : Vec F S1x1 .f32) (xs0 : Vec F S1024x64 .f32) : Vec F S1024x64 .bf16 :=
  VO7_5.read (Elt F) (VO7_5.writes (Elt F) VO7_5.junk (kernelRun7_C c i arg2 harg2 arg3 harg3 arg4 harg4 arg5 harg5 arg6 harg6 arg7 harg7 arg8 harg8 arg9 harg9 hc0 hc1 x0 x1 x2 x3 x4 xs0).1)
/-- The same for output 6. -/
def out7_C_6 (c : Dev nD) (i : grid7.Coords) (arg2 : Memref sig .tc .vmem S1024x2048 .bf16) (harg2 : arg2.IsWhole) (arg3 : Memref sig .tc .vmem S8192x64 .bf16) (harg3 : arg3.IsWhole) (arg4 : Memref sig .tc .vmem S1024x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S1024x64 .bf16) (harg7 : arg7.IsWhole) (arg8 : Memref sig .tc .vmem S1024x64 .f32) (harg8 : arg8.IsWhole) (arg9 : Memref sig .tc .vmem S1024x64 .f32) (harg9 : arg9.IsWhole) (hc0 : ¬cond7_0 i) (hc1 : cond7_1 i)
    (x0 : Vec F S1024x2048 .bf16) (x1 : Vec F S8192x64 .bf16) (x2 : Vec F S1024x64 .f32) (x3 : Vec F S1x64 .f32) (x4 : Vec F S1x1 .f32) (xs0 : Vec F S1024x64 .f32) : Vec F S1024x64 .f32 :=
  VO7_6.read (Elt F) (VO7_6.writes (Elt F) VO7_6.junk (kernelRun7_C c i arg2 harg2 arg3 harg3 arg4 harg4 arg5 harg5 arg6 harg6 arg7 harg7 arg8 harg8 arg9 harg9 hc0 hc1 x0 x1 x2 x3 x4 xs0).2.1)
/-- Case C's one store into output 5 is of the whole block, so it covers it. -/
theorem cover7_C_5 (c : Dev nD) (i : grid7.Coords) (arg2 : Memref sig .tc .vmem S1024x2048 .bf16) (harg2 : arg2.IsWhole) (arg3 : Memref sig .tc .vmem S8192x64 .bf16) (harg3 : arg3.IsWhole) (arg4 : Memref sig .tc .vmem S1024x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S1024x64 .bf16) (harg7 : arg7.IsWhole) (arg8 : Memref sig .tc .vmem S1024x64 .f32) (harg8 : arg8.IsWhole) (arg9 : Memref sig .tc .vmem S1024x64 .f32) (harg9 : arg9.IsWhole) (hc0 : ¬cond7_0 i) (hc1 : cond7_1 i)
    (x0 : Vec F S1024x2048 .bf16) (x1 : Vec F S8192x64 .bf16) (x2 : Vec F S1024x64 .f32) (x3 : Vec F S1x64 .f32) (x4 : Vec F S1x1 .f32) (xs0 : Vec F S1024x64 .f32) (y : S1024x64.Idx) :
    ∃ pc ∈ (kernelRun7_C c i arg2 harg2 arg3 harg3 arg4 harg4 arg5 harg5 arg6 harg6 arg7 harg7 arg8 harg8 arg9 harg9 hc0 hc1 x0 x1 x2 x3 x4 xs0).1, y ∈ pc.1.set :=
  View.cover_of_tiledL (kernelRun7_C c i arg2 harg2 arg3 harg3 arg4 harg4 arg5 harg5 arg6 harg6 arg7 harg7 arg8 harg8 arg9 harg9 hc0 hc1 x0 x1 x2 x3 x4 xs0).1 S1024x64.size (by sl_kernel_rfl) y
/-- The same for output 6. -/
theorem cover7_C_6 (c : Dev nD) (i : grid7.Coords) (arg2 : Memref sig .tc .vmem S1024x2048 .bf16) (harg2 : arg2.IsWhole) (arg3 : Memref sig .tc .vmem S8192x64 .bf16) (harg3 : arg3.IsWhole) (arg4 : Memref sig .tc .vmem S1024x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S1024x64 .bf16) (harg7 : arg7.IsWhole) (arg8 : Memref sig .tc .vmem S1024x64 .f32) (harg8 : arg8.IsWhole) (arg9 : Memref sig .tc .vmem S1024x64 .f32) (harg9 : arg9.IsWhole) (hc0 : ¬cond7_0 i) (hc1 : cond7_1 i)
    (x0 : Vec F S1024x2048 .bf16) (x1 : Vec F S8192x64 .bf16) (x2 : Vec F S1024x64 .f32) (x3 : Vec F S1x64 .f32) (x4 : Vec F S1x1 .f32) (xs0 : Vec F S1024x64 .f32) (y : S1024x64.Idx) :
    ∃ pc ∈ (kernelRun7_C c i arg2 harg2 arg3 harg3 arg4 harg4 arg5 harg5 arg6 harg6 arg7 harg7 arg8 harg8 arg9 harg9 hc0 hc1 x0 x1 x2 x3 x4 xs0).2.1, y ∈ pc.1.set :=
  View.cover_of_tiledL (kernelRun7_C c i arg2 harg2 arg3 harg3 arg4 harg4 arg5 harg5 arg6 harg6 arg7 harg7 arg8 harg8 arg9 harg9 hc0 hc1 x0 x1 x2 x3 x4 xs0).2.1 S1024x64.size (by sl_kernel_rfl) y
/-- Case C's stores into the accumulator are of the whole buffer, so they cover it. -/
theorem scover7_C_0 (c : Dev nD) (i : grid7.Coords) (arg2 : Memref sig .tc .vmem S1024x2048 .bf16) (harg2 : arg2.IsWhole) (arg3 : Memref sig .tc .vmem S8192x64 .bf16) (harg3 : arg3.IsWhole) (arg4 : Memref sig .tc .vmem S1024x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S1024x64 .bf16) (harg7 : arg7.IsWhole) (arg8 : Memref sig .tc .vmem S1024x64 .f32) (harg8 : arg8.IsWhole) (arg9 : Memref sig .tc .vmem S1024x64 .f32) (harg9 : arg9.IsWhole) (hc0 : ¬cond7_0 i) (hc1 : cond7_1 i)
    (x0 : Vec F S1024x2048 .bf16) (x1 : Vec F S8192x64 .bf16) (x2 : Vec F S1024x64 .f32) (x3 : Vec F S1x64 .f32) (x4 : Vec F S1x1 .f32) (xs0 : Vec F S1024x64 .f32) (y : S1024x64.Idx) :
    ∃ pc ∈ (kernelRun7_C c i arg2 harg2 arg3 harg3 arg4 harg4 arg5 harg5 arg6 harg6 arg7 harg7 arg8 harg8 arg9 harg9 hc0 hc1 x0 x1 x2 x3 x4 xs0).2.2.1, y ∈ pc.1.set :=
  View.cover_of_tiledL (kernelRun7_C c i arg2 harg2 arg3 harg3 arg4 harg4 arg5 harg5 arg6 harg6 arg7 harg7 arg8 harg8 arg9 harg9 hc0 hc1 x0 x1 x2 x3 x4 xs0).2.2.1 S1024x64.size (by sl_kernel_rfl) y
/-- What case C leaves in the accumulator. -/
def sout7_C_0 (c : Dev nD) (i : grid7.Coords) (arg2 : Memref sig .tc .vmem S1024x2048 .bf16) (harg2 : arg2.IsWhole) (arg3 : Memref sig .tc .vmem S8192x64 .bf16) (harg3 : arg3.IsWhole) (arg4 : Memref sig .tc .vmem S1024x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S1024x64 .bf16) (harg7 : arg7.IsWhole) (arg8 : Memref sig .tc .vmem S1024x64 .f32) (harg8 : arg8.IsWhole) (arg9 : Memref sig .tc .vmem S1024x64 .f32) (harg9 : arg9.IsWhole) (hc0 : ¬cond7_0 i) (hc1 : cond7_1 i)
    (x0 : Vec F S1024x2048 .bf16) (x1 : Vec F S8192x64 .bf16) (x2 : Vec F S1024x64 .f32) (x3 : Vec F S1x64 .f32) (x4 : Vec F S1x1 .f32) (xs0 : Vec F S1024x64 .f32) : Vec F S1024x64 .f32 :=
  VS7_0.read (Elt F) (VS7_0.writes (Elt F) VS7_0.junk (kernelRun7_C c i arg2 harg2 arg3 harg3 arg4 harg4 arg5 harg5 arg6 harg6 arg7 harg7 arg8 harg8 arg9 harg9 hc0 hc1 x0 x1 x2 x3 x4 xs0).2.2.1)

/-! ## What the outputs and the accumulator hold after each point -/

/-- After the body at position `n`: output 5's buffer, output 6's buffer, the accumulator. -/
def outsAt7 (c : Dev nD) : (n : ℕ) → n < cfg7.N → Vec F S1024x64 .bf16 × Vec F S1024x64 .f32 × Vec F S1024x64 .f32
  | 0, hn => (out7_A_5 c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) (ms7_3 ⟨0, hn⟩) (hs7_3 ⟨0, hn⟩) (ms7_4 ⟨0, hn⟩) (hs7_4 ⟨0, hn⟩) (ms7_5 ⟨0, hn⟩) (hs7_5 ⟨0, hn⟩) (ms7_6 ⟨0, hn⟩) (hs7_6 ⟨0, hn⟩) scM7_0 (Memref.isWhole_whole _) ((hcond7_0 ⟨0, hn⟩).mpr (Nat.zero_mod _)) (fun h => (fun h => by (try dsimp only at h); omega) ((hcond7_1 ⟨0, hn⟩).mp h)) (iblk7 V c 0 ⟨0, hn⟩) (iblk7 V c 1 ⟨0, hn⟩) (iblk7 V c 2 ⟨0, hn⟩) (iblk7 V c 3 ⟨0, hn⟩) (iblk7 V c 4 ⟨0, hn⟩), out7_A_6 c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) (ms7_3 ⟨0, hn⟩) (hs7_3 ⟨0, hn⟩) (ms7_4 ⟨0, hn⟩) (hs7_4 ⟨0, hn⟩) (ms7_5 ⟨0, hn⟩) (hs7_5 ⟨0, hn⟩) (ms7_6 ⟨0, hn⟩) (hs7_6 ⟨0, hn⟩) scM7_0 (Memref.isWhole_whole _) ((hcond7_0 ⟨0, hn⟩).mpr (Nat.zero_mod _)) (fun h => (fun h => by (try dsimp only at h); omega) ((hcond7_1 ⟨0, hn⟩).mp h)) (iblk7 V c 0 ⟨0, hn⟩) (iblk7 V c 1 ⟨0, hn⟩) (iblk7 V c 2 ⟨0, hn⟩) (iblk7 V c 3 ⟨0, hn⟩) (iblk7 V c 4 ⟨0, hn⟩), sout7_A_0 c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) (ms7_3 ⟨0, hn⟩) (hs7_3 ⟨0, hn⟩) (ms7_4 ⟨0, hn⟩) (hs7_4 ⟨0, hn⟩) (ms7_5 ⟨0, hn⟩) (hs7_5 ⟨0, hn⟩) (ms7_6 ⟨0, hn⟩) (hs7_6 ⟨0, hn⟩) scM7_0 (Memref.isWhole_whole _) ((hcond7_0 ⟨0, hn⟩).mpr (Nat.zero_mod _)) (fun h => (fun h => by (try dsimp only at h); omega) ((hcond7_1 ⟨0, hn⟩).mp h)) (iblk7 V c 0 ⟨0, hn⟩) (iblk7 V c 1 ⟨0, hn⟩) (iblk7 V c 2 ⟨0, hn⟩) (iblk7 V c 3 ⟨0, hn⟩) (iblk7 V c 4 ⟨0, hn⟩))
  | n + 1, hn =>
    if h0 : (n + 1) % 4 = 0 then
      if h1 : (n + 1) % 4 = 3 then
        False.elim (by omega)
      else
        (out7_A_5 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) (ms7_6 ⟨n + 1, hn⟩) (hs7_6 ⟨n + 1, hn⟩) scM7_0 (Memref.isWhole_whole _) ((hcond7_0 ⟨n + 1, hn⟩).mpr h0) (fun h => h1 ((hcond7_1 ⟨n + 1, hn⟩).mp h)) (iblk7 V c 0 ⟨n + 1, hn⟩) (iblk7 V c 1 ⟨n + 1, hn⟩) (iblk7 V c 2 ⟨n + 1, hn⟩) (iblk7 V c 3 ⟨n + 1, hn⟩) (iblk7 V c 4 ⟨n + 1, hn⟩), out7_A_6 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) (ms7_6 ⟨n + 1, hn⟩) (hs7_6 ⟨n + 1, hn⟩) scM7_0 (Memref.isWhole_whole _) ((hcond7_0 ⟨n + 1, hn⟩).mpr h0) (fun h => h1 ((hcond7_1 ⟨n + 1, hn⟩).mp h)) (iblk7 V c 0 ⟨n + 1, hn⟩) (iblk7 V c 1 ⟨n + 1, hn⟩) (iblk7 V c 2 ⟨n + 1, hn⟩) (iblk7 V c 3 ⟨n + 1, hn⟩) (iblk7 V c 4 ⟨n + 1, hn⟩), sout7_A_0 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) (ms7_6 ⟨n + 1, hn⟩) (hs7_6 ⟨n + 1, hn⟩) scM7_0 (Memref.isWhole_whole _) ((hcond7_0 ⟨n + 1, hn⟩).mpr h0) (fun h => h1 ((hcond7_1 ⟨n + 1, hn⟩).mp h)) (iblk7 V c 0 ⟨n + 1, hn⟩) (iblk7 V c 1 ⟨n + 1, hn⟩) (iblk7 V c 2 ⟨n + 1, hn⟩) (iblk7 V c 3 ⟨n + 1, hn⟩) (iblk7 V c 4 ⟨n + 1, hn⟩))
    else
      if h1 : (n + 1) % 4 = 3 then
        (out7_C_5 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) (ms7_6 ⟨n + 1, hn⟩) (hs7_6 ⟨n + 1, hn⟩) scM7_0 (Memref.isWhole_whole _) (fun h => h0 ((hcond7_0 ⟨n + 1, hn⟩).mp h)) ((hcond7_1 ⟨n + 1, hn⟩).mpr h1) (iblk7 V c 0 ⟨n + 1, hn⟩) (iblk7 V c 1 ⟨n + 1, hn⟩) (iblk7 V c 2 ⟨n + 1, hn⟩) (iblk7 V c 3 ⟨n + 1, hn⟩) (iblk7 V c 4 ⟨n + 1, hn⟩) (outsAt7 c n (Nat.lt_of_succ_lt hn)).2.2, out7_C_6 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) (ms7_6 ⟨n + 1, hn⟩) (hs7_6 ⟨n + 1, hn⟩) scM7_0 (Memref.isWhole_whole _) (fun h => h0 ((hcond7_0 ⟨n + 1, hn⟩).mp h)) ((hcond7_1 ⟨n + 1, hn⟩).mpr h1) (iblk7 V c 0 ⟨n + 1, hn⟩) (iblk7 V c 1 ⟨n + 1, hn⟩) (iblk7 V c 2 ⟨n + 1, hn⟩) (iblk7 V c 3 ⟨n + 1, hn⟩) (iblk7 V c 4 ⟨n + 1, hn⟩) (outsAt7 c n (Nat.lt_of_succ_lt hn)).2.2, sout7_C_0 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) (ms7_6 ⟨n + 1, hn⟩) (hs7_6 ⟨n + 1, hn⟩) scM7_0 (Memref.isWhole_whole _) (fun h => h0 ((hcond7_0 ⟨n + 1, hn⟩).mp h)) ((hcond7_1 ⟨n + 1, hn⟩).mpr h1) (iblk7 V c 0 ⟨n + 1, hn⟩) (iblk7 V c 1 ⟨n + 1, hn⟩) (iblk7 V c 2 ⟨n + 1, hn⟩) (iblk7 V c 3 ⟨n + 1, hn⟩) (iblk7 V c 4 ⟨n + 1, hn⟩) (outsAt7 c n (Nat.lt_of_succ_lt hn)).2.2)
      else
        (out7_B_5 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) (ms7_6 ⟨n + 1, hn⟩) (hs7_6 ⟨n + 1, hn⟩) scM7_0 (Memref.isWhole_whole _) (fun h => h0 ((hcond7_0 ⟨n + 1, hn⟩).mp h)) (fun h => h1 ((hcond7_1 ⟨n + 1, hn⟩).mp h)) (iblk7 V c 0 ⟨n + 1, hn⟩) (iblk7 V c 1 ⟨n + 1, hn⟩) (iblk7 V c 2 ⟨n + 1, hn⟩) (iblk7 V c 3 ⟨n + 1, hn⟩) (iblk7 V c 4 ⟨n + 1, hn⟩) (outsAt7 c n (Nat.lt_of_succ_lt hn)).2.2, out7_B_6 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) (ms7_6 ⟨n + 1, hn⟩) (hs7_6 ⟨n + 1, hn⟩) scM7_0 (Memref.isWhole_whole _) (fun h => h0 ((hcond7_0 ⟨n + 1, hn⟩).mp h)) (fun h => h1 ((hcond7_1 ⟨n + 1, hn⟩).mp h)) (iblk7 V c 0 ⟨n + 1, hn⟩) (iblk7 V c 1 ⟨n + 1, hn⟩) (iblk7 V c 2 ⟨n + 1, hn⟩) (iblk7 V c 3 ⟨n + 1, hn⟩) (iblk7 V c 4 ⟨n + 1, hn⟩) (outsAt7 c n (Nat.lt_of_succ_lt hn)).2.2, sout7_B_0 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) (ms7_6 ⟨n + 1, hn⟩) (hs7_6 ⟨n + 1, hn⟩) scM7_0 (Memref.isWhole_whole _) (fun h => h0 ((hcond7_0 ⟨n + 1, hn⟩).mp h)) (fun h => h1 ((hcond7_1 ⟨n + 1, hn⟩).mp h)) (iblk7 V c 0 ⟨n + 1, hn⟩) (iblk7 V c 1 ⟨n + 1, hn⟩) (iblk7 V c 2 ⟨n + 1, hn⟩) (iblk7 V c 3 ⟨n + 1, hn⟩) (iblk7 V c 4 ⟨n + 1, hn⟩) (outsAt7 c n (Nat.lt_of_succ_lt hn)).2.2)

theorem outsAt7_A (c : Dev nD) (t : Fin cfg7.N) (h0 : t.val % 4 = 0) (h1 : ¬t.val % 4 = 3) :
    outsAt7 V c t.val t.isLt = (out7_A_5 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) ((hcond7_0 t).mpr h0) (fun h => h1 ((hcond7_1 t).mp h)) (iblk7 V c 0 t) (iblk7 V c 1 t) (iblk7 V c 2 t) (iblk7 V c 3 t) (iblk7 V c 4 t), out7_A_6 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) ((hcond7_0 t).mpr h0) (fun h => h1 ((hcond7_1 t).mp h)) (iblk7 V c 0 t) (iblk7 V c 1 t) (iblk7 V c 2 t) (iblk7 V c 3 t) (iblk7 V c 4 t), sout7_A_0 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) ((hcond7_0 t).mpr h0) (fun h => h1 ((hcond7_1 t).mp h)) (iblk7 V c 0 t) (iblk7 V c 1 t) (iblk7 V c 2 t) (iblk7 V c 3 t) (iblk7 V c 4 t)) := by
  obtain ⟨n, hn⟩ := t
  cases n with
  | zero => exact rfl
  | succ n => exact (dif_pos h0).trans ((dif_neg h1).trans rfl)

theorem outsAt7_B (c : Dev nD) (t : Fin cfg7.N) (h0 : ¬t.val % 4 = 0) (h1 : ¬t.val % 4 = 3) :
    outsAt7 V c t.val t.isLt = (out7_B_5 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) (fun h => h0 ((hcond7_0 t).mp h)) (fun h => h1 ((hcond7_1 t).mp h)) (iblk7 V c 0 t) (iblk7 V c 1 t) (iblk7 V c 2 t) (iblk7 V c 3 t) (iblk7 V c 4 t) (outsAt7 V c (t.val - 1) (Nat.lt_of_le_of_lt (Nat.sub_le _ _) t.isLt)).2.2, out7_B_6 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) (fun h => h0 ((hcond7_0 t).mp h)) (fun h => h1 ((hcond7_1 t).mp h)) (iblk7 V c 0 t) (iblk7 V c 1 t) (iblk7 V c 2 t) (iblk7 V c 3 t) (iblk7 V c 4 t) (outsAt7 V c (t.val - 1) (Nat.lt_of_le_of_lt (Nat.sub_le _ _) t.isLt)).2.2, sout7_B_0 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) (fun h => h0 ((hcond7_0 t).mp h)) (fun h => h1 ((hcond7_1 t).mp h)) (iblk7 V c 0 t) (iblk7 V c 1 t) (iblk7 V c 2 t) (iblk7 V c 3 t) (iblk7 V c 4 t) (outsAt7 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt7_C (c : Dev nD) (t : Fin cfg7.N) (h0 : ¬t.val % 4 = 0) (h1 : t.val % 4 = 3) :
    outsAt7 V c t.val t.isLt = (out7_C_5 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) (fun h => h0 ((hcond7_0 t).mp h)) ((hcond7_1 t).mpr h1) (iblk7 V c 0 t) (iblk7 V c 1 t) (iblk7 V c 2 t) (iblk7 V c 3 t) (iblk7 V c 4 t) (outsAt7 V c (t.val - 1) (Nat.lt_of_le_of_lt (Nat.sub_le _ _) t.isLt)).2.2, out7_C_6 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) (fun h => h0 ((hcond7_0 t).mp h)) ((hcond7_1 t).mpr h1) (iblk7 V c 0 t) (iblk7 V c 1 t) (iblk7 V c 2 t) (iblk7 V c 3 t) (iblk7 V c 4 t) (outsAt7 V c (t.val - 1) (Nat.lt_of_le_of_lt (Nat.sub_le _ _) t.isLt)).2.2, sout7_C_0 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) (fun h => h0 ((hcond7_0 t).mp h)) ((hcond7_1 t).mpr h1) (iblk7 V c 0 t) (iblk7 V c 1 t) (iblk7 V c 2 t) (iblk7 V c 3 t) (iblk7 V c 4 t) (outsAt7 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before the first point: what the launch hands the call. Before any later point: the accumulator at what the
    point before left in it, every other scoped buffer unopened, the generator register at some state. -/
def PhiS7 (c : Dev nD) : (n : ℕ) → n ≤ cfg7.N → sProp 𝕄
  | 0, _ => Pipeline.ΦA spec7 c
  | n + 1, hn => iprop(iprop(iprop(owns (c : Thread nD τ) scM7_0 fullShare ((outsAt7 V c n hn).2.2))
      ∗ Pipeline.scopedRestBut (Ix := Unit) (Name := ℕ) (U := UR sig nD τ) (Lvl := ℕ) (Val := Elt F) spec7 c [cc7_scratch0]) ∗ (∃ r, prngReg c r))

theorem PhiS7_zero (c : Dev nD) (n : ℕ) (h : n ≤ cfg7.N) (hz : n = 0) : PhiS7 V c n h = Pipeline.ΦA spec7 c := by
  subst hz; rfl

theorem PhiS7_succ (c : Dev nD) (n : ℕ) (hn : n < cfg7.N) :
    PhiS7 V c (n + 1) hn = iprop(iprop(iprop(owns (c : Thread nD τ) scM7_0 fullShare ((outsAt7 V c n hn).2.2))
      ∗ Pipeline.scopedRestBut (Ix := Unit) (Name := ℕ) (U := UR sig nD τ) (Lvl := ℕ) (Val := Elt F) spec7 c [cc7_scratch0]) ∗ (∃ r, prngReg c r)) := rfl

theorem PhiS7_pos (c : Dev nD) (n : ℕ) (h : n ≤ cfg7.N) (hz : n ≠ 0) :
    PhiS7 V c n h = iprop(iprop(iprop(owns (c : Thread nD τ) scM7_0 fullShare ((outsAt7 V c (n - 1) (by omega)).2.2))
      ∗ Pipeline.scopedRestBut (Ix := Unit) (Name := ℕ) (U := UR sig nD τ) (Lvl := ℕ) (Val := Elt F) spec7 c [cc7_scratch0]) ∗ (∃ r, prngReg c r)) := by
  cases n with
  | zero => exact absurd rfl hz
  | succ n => rfl

/-! ## The proof data -/

/-- The proof data of the call on core `c`: the arrays as the call finds them; after the body at point `t` each
    input's buffer at its block and the outputs' at `outsAt7`; the invariant `PhiS7`; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => (outsAt7 V c t.val t.isLt).1
    | ⟨6, _⟩ => (outsAt7 V c t.val t.isLt).2.1
  Φ t := PhiS7 V c t.val (Nat.le_of_lt_succ t.isLt)
  q _ := fullShare
  owed _ := 0

theorem A_eq7 (c : Dev nD) (w : Fin cfg7.W) : (dat7 V c).A w = V c (Pipeline.arrRef spec7 w) := by
  dsimp only [dat7]

theorem PhiS7_castSucc (c : Dev nD) (t : Fin cfg7.N) :
    (dat7 V c).Φ t.castSucc = PhiS7 V c t.val (Nat.le_of_lt t.isLt) := by
  dsimp only [dat7]; simp only [Fin.coe_castSucc]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = (outsAt7 V c t.val t.isLt).1 := by dsimp only [dat7]
theorem after7_6 (c : Dev nD) (t : Fin cfg7.N) : (dat7 V c).after 6 t = (outsAt7 V c t.val t.isLt).2.1 := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d

theorem liveAt7_0 : ∀ t : Fin cfg7.N, cfg7.idle 0 (grid7.coords t) = false := fun _ => rfl
theorem liveAt7_1 : ∀ t : Fin cfg7.N, cfg7.idle 1 (grid7.coords t) = false := fun _ => rfl
theorem liveAt7_2 : ∀ t : Fin cfg7.N, cfg7.idle 2 (grid7.coords t) = false := fun _ => rfl
theorem liveAt7_3 : ∀ t : Fin cfg7.N, cfg7.idle 3 (grid7.coords t) = false := fun _ => rfl
theorem liveAt7_4 : ∀ t : Fin cfg7.N, cfg7.idle 4 (grid7.coords t) = false := fun _ => rfl

/-! ## The body obligation -/

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (ms7_0 t) fullShare ((dat7 V c).before 0 t d))
    ∗ (∃ d, owns (c : Thread nD τ) (ms7_1 t) fullShare ((dat7 V c).before 1 t d))
    ∗ (∃ d, owns (c : Thread nD τ) (ms7_2 t) fullShare ((dat7 V c).before 2 t d))
    ∗ (∃ d, owns (c : Thread nD τ) (ms7_3 t) fullShare ((dat7 V c).before 3 t d))
    ∗ (∃ d, owns (c : Thread nD τ) (ms7_4 t) fullShare ((dat7 V c).before 4 t d))
    ∗ (∃ d, owns (c : Thread nD τ) (ms7_5 t) fullShare ((dat7 V c).before 5 t d))
    ∗ (∃ d, owns (c : Thread nD τ) (ms7_6 t) fullShare ((dat7 V c).before 6 t d)))

/-- and what it returns. -/
def bodyPost7 (c : Dev nD) (t : Fin cfg7.N) : sProp 𝕄 :=
  iprop((dat7 V c).Φ t.succ ∗ (dat7 V c).owesAt () t.succ
    ∗ (dat7 V c).leavesExact 0 t
    ∗ (dat7 V c).leavesExact 1 t
    ∗ (dat7 V c).leavesExact 2 t
    ∗ (dat7 V c).leavesExact 3 t
    ∗ (dat7 V c).leavesExact 4 t
    ∗ (dat7 V c).leavesExact 5 t
    ∗ (dat7 V c).leavesExact 6 t)

set_option maxHeartbeats 4800000 in
/-- The body at a point of case A that is the first of the grid (the accumulator is found at anything). -/
theorem sound_body7_A0 (c : Dev nD) (t : Fin cfg7.N) (h0 : t.val % 4 = 0) (h1 : ¬t.val % 4 = 3) (hz : t.val = 0) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4]
  rw [show (dat7 V c).owesAt () t.succ = (dat7 V c).owesAt () t.castSucc from rfl]
  rw [show (dat7 V c).Φ t.succ = PhiS7 V c (t.val + 1) t.isLt from rfl, PhiS7_succ]
  rw [show (dat7 V c).leavesExact 0 t = owns (c : Thread nD τ) (ms7_0 t) fullShare ((dat7 V c).after 0 t) from by
    unfold Dat.leavesExact; rw [liveAt7_0 t], after7_0]
  rw [show (dat7 V c).leavesExact 1 t = owns (c : Thread nD τ) (ms7_1 t) fullShare ((dat7 V c).after 1 t) from by
    unfold Dat.leavesExact; rw [liveAt7_1 t], after7_1]
  rw [show (dat7 V c).leavesExact 2 t = owns (c : Thread nD τ) (ms7_2 t) fullShare ((dat7 V c).after 2 t) from by
    unfold Dat.leavesExact; rw [liveAt7_2 t], after7_2]
  rw [show (dat7 V c).leavesExact 3 t = owns (c : Thread nD τ) (ms7_3 t) fullShare ((dat7 V c).after 3 t) from by
    unfold Dat.leavesExact; rw [liveAt7_3 t], after7_3]
  rw [show (dat7 V c).leavesExact 4 t = owns (c : Thread nD τ) (ms7_4 t) fullShare ((dat7 V c).after 4 t) from by
    unfold Dat.leavesExact; rw [liveAt7_4 t], after7_4]
  rw [Dat.leavesExact_idle (dat7 V c) 5 t (idleAt7_5_A t ((hcond7_0 t).mpr h0) (fun h => h1 ((hcond7_1 t).mp h))) (noFlush7_5_A t ((hcond7_0 t).mpr h0) (fun h => h1 ((hcond7_1 t).mp h)))]
  rw [Dat.leavesExact_idle (dat7 V c) 6 t (idleAt7_6_A t ((hcond7_0 t).mpr h0) (fun h => h1 ((hcond7_1 t).mp h))) (noFlush7_6_A t ((hcond7_0 t).mpr h0) (fun h => h1 ((hcond7_1 t).mp h)))]
  rw [outsAt7_A V c t h0 h1]
  unfold sout7_A_0; (try dsimp only)
  rw [PhiS7_castSucc V c t, PhiS7_zero V c _ _ hz, PhiA7_eq]
  iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩⟩
  iapply ((kernelRun7_A c (grid7.coords t) _ _ _ _ _ _ _ _ _ _ _ _ _ _ _ _ ((hcond7_0 t).mpr h0) (fun h => h1 ((hcond7_1 t).mp h)) (iblk7 V c 0 t) (iblk7 V c 1 t) (iblk7 V c 2 t) (iblk7 V c 3 t) (iblk7 V c 4 t)).2.2.2 _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  iintro ⟨H0, H1, H2, H3, H4, H5, H6, ⟨%es0, HS0⟩⟩
  isplitl [HS0 Hr Hg]
  · isplitl [HS0 Hr]
    · isplitl [HS0]
      · unfold owns; iexists _; isplitr
        swap; · iexact HS0
        ipureintro; exact View.read_writes_of_cover _ _ _ _ _ (scover7_A_0 c _ _ _ _ _ _ _ _ _ _ _ _ _ _ _ _ _ _ _ _ _ _ _ _)
      iexact Hr
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexists _; iexact H5
  iexists _; iexact H6

set_option maxHeartbeats 4800000 in
/-- The body at a point of case A that is not the first of the grid (the accumulator is found at what the point before left; the reset overwrites it). -/
theorem sound_body7_A (c : Dev nD) (t : Fin cfg7.N) (h0 : t.val % 4 = 0) (h1 : ¬t.val % 4 = 3) (hz : t.val ≠ 0) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4]
  rw [show (dat7 V c).owesAt () t.succ = (dat7 V c).owesAt () t.castSucc from rfl]
  rw [show (dat7 V c).Φ t.succ = PhiS7 V c (t.val + 1) t.isLt from rfl, PhiS7_succ]
  rw [show (dat7 V c).leavesExact 0 t = owns (c : Thread nD τ) (ms7_0 t) fullShare ((dat7 V c).after 0 t) from by
    unfold Dat.leavesExact; rw [liveAt7_0 t], after7_0]
  rw [show (dat7 V c).leavesExact 1 t = owns (c : Thread nD τ) (ms7_1 t) fullShare ((dat7 V c).after 1 t) from by
    unfold Dat.leavesExact; rw [liveAt7_1 t], after7_1]
  rw [show (dat7 V c).leavesExact 2 t = owns (c : Thread nD τ) (ms7_2 t) fullShare ((dat7 V c).after 2 t) from by
    unfold Dat.leavesExact; rw [liveAt7_2 t], after7_2]
  rw [show (dat7 V c).leavesExact 3 t = owns (c : Thread nD τ) (ms7_3 t) fullShare ((dat7 V c).after 3 t) from by
    unfold Dat.leavesExact; rw [liveAt7_3 t], after7_3]
  rw [show (dat7 V c).leavesExact 4 t = owns (c : Thread nD τ) (ms7_4 t) fullShare ((dat7 V c).after 4 t) from by
    unfold Dat.leavesExact; rw [liveAt7_4 t], after7_4]
  rw [Dat.leavesExact_idle (dat7 V c) 5 t (idleAt7_5_A t ((hcond7_0 t).mpr h0) (fun h => h1 ((hcond7_1 t).mp h))) (noFlush7_5_A t ((hcond7_0 t).mpr h0) (fun h => h1 ((hcond7_1 t).mp h)))]
  rw [Dat.leavesExact_idle (dat7 V c) 6 t (idleAt7_6_A t ((hcond7_0 t).mpr h0) (fun h => h1 ((hcond7_1 t).mp h))) (noFlush7_6_A t ((hcond7_0 t).mpr h0) (fun h => h1 ((hcond7_1 t).mp h)))]
  rw [outsAt7_A V c t h0 h1]
  unfold sout7_A_0; (try dsimp only)
  rw [PhiS7_castSucc V c t, PhiS7_pos V c _ _ hz]
  iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩⟩
  iapply ((kernelRun7_A c (grid7.coords t) _ _ _ _ _ _ _ _ _ _ _ _ _ _ _ _ ((hcond7_0 t).mpr h0) (fun h => h1 ((hcond7_1 t).mp h)) (iblk7 V c 0 t) (iblk7 V c 1 t) (iblk7 V c 2 t) (iblk7 V c 3 t) (iblk7 V c 4 t)).2.2.2 _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexists _; iexact HS0
  iintro ⟨H0, H1, H2, H3, H4, H5, H6, ⟨%es0, HS0⟩⟩
  isplitl [HS0 Hr Hg]
  · isplitl [HS0 Hr]
    · isplitl [HS0]
      · unfold owns; iexists _; isplitr
        swap; · iexact HS0
        ipureintro; exact View.read_writes_of_cover _ _ _ _ _ (scover7_A_0 c _ _ _ _ _ _ _ _ _ _ _ _ _ _ _ _ _ _ _ _ _ _ _ _)
      iexact Hr
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexists _; iexact H5
  iexists _; iexact H6

set_option maxHeartbeats 4800000 in
/-- The body at a point of case B. -/
theorem sound_body7_B (c : Dev nD) (t : Fin cfg7.N) (h0 : ¬t.val % 4 = 0) (h1 : ¬t.val % 4 = 3) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4]
  rw [show (dat7 V c).owesAt () t.succ = (dat7 V c).owesAt () t.castSucc from rfl]
  rw [show (dat7 V c).Φ t.succ = PhiS7 V c (t.val + 1) t.isLt from rfl, PhiS7_succ]
  rw [show (dat7 V c).leavesExact 0 t = owns (c : Thread nD τ) (ms7_0 t) fullShare ((dat7 V c).after 0 t) from by
    unfold Dat.leavesExact; rw [liveAt7_0 t], after7_0]
  rw [show (dat7 V c).leavesExact 1 t = owns (c : Thread nD τ) (ms7_1 t) fullShare ((dat7 V c).after 1 t) from by
    unfold Dat.leavesExact; rw [liveAt7_1 t], after7_1]
  rw [show (dat7 V c).leavesExact 2 t = owns (c : Thread nD τ) (ms7_2 t) fullShare ((dat7 V c).after 2 t) from by
    unfold Dat.leavesExact; rw [liveAt7_2 t], after7_2]
  rw [show (dat7 V c).leavesExact 3 t = owns (c : Thread nD τ) (ms7_3 t) fullShare ((dat7 V c).after 3 t) from by
    unfold Dat.leavesExact; rw [liveAt7_3 t], after7_3]
  rw [show (dat7 V c).leavesExact 4 t = owns (c : Thread nD τ) (ms7_4 t) fullShare ((dat7 V c).after 4 t) from by
    unfold Dat.leavesExact; rw [liveAt7_4 t], after7_4]
  rw [Dat.leavesExact_idle (dat7 V c) 5 t (idleAt7_5_B t (fun h => h0 ((hcond7_0 t).mp h)) (fun h => h1 ((hcond7_1 t).mp h))) (noFlush7_5_B t (fun h => h0 ((hcond7_0 t).mp h)) (fun h => h1 ((hcond7_1 t).mp h)))]
  rw [Dat.leavesExact_idle (dat7 V c) 6 t (idleAt7_6_B t (fun h => h0 ((hcond7_0 t).mp h)) (fun h => h1 ((hcond7_1 t).mp h))) (noFlush7_6_B t (fun h => h0 ((hcond7_0 t).mp h)) (fun h => h1 ((hcond7_1 t).mp h)))]
  rw [outsAt7_B V c t h0 h1]
  unfold sout7_B_0; (try dsimp only)
  have hz : t.val ≠ 0 := fun e => h0 (by rw [e])
  rw [PhiS7_castSucc V c t, PhiS7_pos V c _ _ hz]
  iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩⟩
  iapply ((kernelRun7_B c (grid7.coords t) _ _ _ _ _ _ _ _ _ _ _ _ _ _ _ _ (fun h => h0 ((hcond7_0 t).mp h)) (fun h => h1 ((hcond7_1 t).mp h)) (iblk7 V c 0 t) (iblk7 V c 1 t) (iblk7 V c 2 t) (iblk7 V c 3 t) (iblk7 V c 4 t) _).2.2.2 _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  iintro ⟨H0, H1, H2, H3, H4, H5, H6, ⟨%es0, HS0⟩⟩
  isplitl [HS0 Hr Hg]
  · isplitl [HS0 Hr]
    · isplitl [HS0]
      · unfold owns; iexists _; isplitr
        swap; · iexact HS0
        ipureintro; exact View.read_writes_of_cover _ _ _ _ _ (scover7_B_0 c _ _ _ _ _ _ _ _ _ _ _ _ _ _ _ _ _ _ _ _ _ _ _ _ _)
      iexact Hr
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexists _; iexact H5
  iexists _; iexact H6

set_option maxHeartbeats 4800000 in
/-- The body at a point of case C. -/
theorem sound_body7_C (c : Dev nD) (t : Fin cfg7.N) (h0 : ¬t.val % 4 = 0) (h1 : t.val % 4 = 3) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4]
  rw [show (dat7 V c).owesAt () t.succ = (dat7 V c).owesAt () t.castSucc from rfl]
  rw [show (dat7 V c).Φ t.succ = PhiS7 V c (t.val + 1) t.isLt from rfl, PhiS7_succ]
  rw [show (dat7 V c).leavesExact 0 t = owns (c : Thread nD τ) (ms7_0 t) fullShare ((dat7 V c).after 0 t) from by
    unfold Dat.leavesExact; rw [liveAt7_0 t], after7_0]
  rw [show (dat7 V c).leavesExact 1 t = owns (c : Thread nD τ) (ms7_1 t) fullShare ((dat7 V c).after 1 t) from by
    unfold Dat.leavesExact; rw [liveAt7_1 t], after7_1]
  rw [show (dat7 V c).leavesExact 2 t = owns (c : Thread nD τ) (ms7_2 t) fullShare ((dat7 V c).after 2 t) from by
    unfold Dat.leavesExact; rw [liveAt7_2 t], after7_2]
  rw [show (dat7 V c).leavesExact 3 t = owns (c : Thread nD τ) (ms7_3 t) fullShare ((dat7 V c).after 3 t) from by
    unfold Dat.leavesExact; rw [liveAt7_3 t], after7_3]
  rw [show (dat7 V c).leavesExact 4 t = owns (c : Thread nD τ) (ms7_4 t) fullShare ((dat7 V c).after 4 t) from by
    unfold Dat.leavesExact; rw [liveAt7_4 t], after7_4]
  rw [show (dat7 V c).leavesExact 5 t = owns (c : Thread nD τ) (ms7_5 t) fullShare ((dat7 V c).after 5 t) from by
    unfold Dat.leavesExact; rw [liveAt7_5_C t (fun h => h0 ((hcond7_0 t).mp h)) ((hcond7_1 t).mpr h1)], after7_5]
  rw [show (dat7 V c).leavesExact 6 t = owns (c : Thread nD τ) (ms7_6 t) fullShare ((dat7 V c).after 6 t) from by
    unfold Dat.leavesExact; rw [liveAt7_6_C t (fun h => h0 ((hcond7_0 t).mp h)) ((hcond7_1 t).mpr h1)], after7_6]
  rw [outsAt7_C V c t h0 h1]
  unfold out7_C_5 out7_C_6 sout7_C_0; (try dsimp only)
  have hz : t.val ≠ 0 := fun e => h0 (by rw [e])
  rw [PhiS7_castSucc V c t, PhiS7_pos V c _ _ hz]
  iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩⟩
  iapply ((kernelRun7_C c (grid7.coords t) _ _ _ _ _ _ _ _ _ _ _ _ _ _ _ _ (fun h => h0 ((hcond7_0 t).mp h)) ((hcond7_1 t).mpr h1) (iblk7 V c 0 t) (iblk7 V c 1 t) (iblk7 V c 2 t) (iblk7 V c 3 t) (iblk7 V c 4 t) _).2.2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [HS0]; · iexact HS0
  iintro ⟨H0, H1, H2, H3, H4, ⟨%e5, H5⟩, ⟨%e6, H6⟩, ⟨%es0, HS0⟩⟩
  isplitl [HS0 Hr Hg]
  · isplitl [HS0 Hr]
    · isplitl [HS0]
      · unfold owns; iexists _; isplitr
        swap; · iexact HS0
        ipureintro; exact View.read_writes_of_cover _ _ _ _ _ (scover7_C_0 c _ _ _ _ _ _ _ _ _ _ _ _ _ _ _ _ _ _ _ _ _ _ _ _ _)
      iexact Hr
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_of_cover _ _ _ _ _ (cover7_C_5 c _ _ _ _ _ _ _ _ _ _ _ _ _ _ _ _ _ _ _ _ _ _ _ _ _)
  unfold owns; iexists _; isplitr
  swap; · iexact H6
  ipureintro; exact View.read_writes_of_cover _ _ _ _ _ (cover7_C_6 c _ _ _ _ _ _ _ _ _ _ _ _ _ _ _ _ _ _ _ _ _ _ _ _ _)

/-- The body at any point: the point is in exactly one of the three cases. -/
theorem sound_body7 (c : Dev nD) (t : Fin cfg7.N) :
    bodyPre7 V c t ⊢ wp frame (wpE (defs₀ (F := F)) Variants.none c none) Set.univ (bodyAt7 t) (fun _ => bodyPost7 V c t) := by
  by_cases h0 : t.val % 4 = 0
  · have h1 : ¬t.val % 4 = 3 := by omega
    by_cases hz : t.val = 0
    · exact sound_body7_A0 V c t h0 h1 hz
    · exact sound_body7_A V c t h0 h1 hz
  · by_cases h1 : t.val % 4 = 3
    · exact sound_body7_C V c t h0 h1
    · exact sound_body7_B V c t h0 h1

/-- The library's body obligation, at every point. -/
theorem body_obligation7 (c : Dev nD) : BodyObligation (dat7 (F := F) V c) (defs₀ (F := F)) Variants.none () Set.univ := fun t => by
  rw [bigSep_W7, bigSep_W7]
  exact sound_body7 V c t

/-- What the launch hands the call is the invariant before the first point. -/
theorem hin7 (c : Dev nD) : Pipeline.ΦA spec7 c ⊢ (dat7 V c).Φ 0 := by
  rw [show (dat7 V c).Φ 0 = PhiS7 V c 0 (Nat.zero_le _) from rfl, PhiS7_zero V c 0 _ rfl]
  try exact Idealize.SL.BI.Entails.refl _

/-- After any point but the first the invariant gives back what the launch handed over: the accumulator's contents
    are forgotten. -/
theorem Phi_out7 (c : Dev nD) (t : Fin (cfg7.N + 1)) (ht : t.val ≠ 0) : (dat7 V c).Φ t ⊢ Pipeline.ΦA spec7 c := by
  rw [show (dat7 V c).Φ t = PhiS7 V c t.val (Nat.le_of_lt_succ t.isLt) from rfl, PhiS7_pos V c _ _ ht, PhiA7_eq]
  iintro ⟨⟨HS0, Hr⟩, Hg⟩
  isplitl [HS0 Hr]
  · isplitl [HS0]
    · iexists _; iexact HS0
    iexact Hr
  iexact Hg

/-- The same after the last point. -/
theorem hout7 (c : Dev nD) : (dat7 V c).Φ (Fin.last cfg7.N) ⊢ Pipeline.ΦA spec7 c :=
  Phi_out7 V c _ (by rw [Fin.val_last]; have : cfg7.N = 32 := N_7; omega)

end Cert.Kernel.Hand

end
-- ==== Proof.K.Prop8Runs.lean ====
import proofs.«131271_j4982162063661_2_alg».proof.Proof.Gen.Kernel.Launch
import proofs.«131271_j4982162063661_2_alg».proof.Proof.Gen.Kernel.Skeleton
import proofs.«131271_j4982162063661_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The propagate call number 8: what its three control cases share

The call runs on a grid of 8 x 4 points; point `t` has row tile `i = t / 4` and column tile `k = t % 4`.
The body zeroes its accumulator when `k = 0`, adds the product of the current tile of the matrix with the
matching 2048 rows of the propagated signal at every `k`, and when `k = 3` stores the accumulator into the
two outputs. So there are three control cases: `k = 0` (reset, no output stored), `k = 1, 2` (neither),
`k = 3` (outputs stored). Everything here is stated at the buffer contents `V` the call is entered with. -/

-- the buffer contents when the call is entered
variable (V : (c : Dev nD) → (b : Ref sig .tc) → Buf (Elt F) ((c : Thread nD τ).loc b))

/-- Window `w`'s block at point `t`, read off the window's array as the call finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0's current staging buffer holds the window's block at every point, whether the pipeline fetched
    it there or not: where it was not fetched the block index has not moved since the point before. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- Input window 1's current staging buffer holds the window's block at every point, whether the pipeline fetched
    it there or not: where it was not fetched the block index has not moved since the point before. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-- Input window 2's current staging buffer holds the window's block at every point, whether the pipeline fetched
    it there or not: where it was not fetched the block index has not moved since the point before. -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

/-- Input window 3's current staging buffer holds the window's block at every point, whether the pipeline fetched
    it there or not: where it was not fetched the block index has not moved since the point before. -/
theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)

/-- Input window 4's current staging buffer holds the window's block at every point, whether the pipeline fetched
    it there or not: where it was not fetched the block index has not moved since the point before. -/
theorem before8_4_of {c : Dev nD} (dat : Dat τ (Elt F) Unit ℕ (UR sig nD τ) ℕ cfg8 c) (hA : dat.A 4 = V c (Pipeline.arrRef spec8 4))
    (hafter : ∀ t, dat.after 4 t = iblk8 V c 4 t) (t : Fin cfg8.N) (d) : dat.before 4 t d = iblk8 V c 4 t :=
  (dat.before_in_eq_fetched 4 rfl (fun _ => rfl) (fun _ _ _ => rfl) (fun t => by rw [hafter]; unfold Dat.blockOf iblk8; rw [hA]; try rfl) t d).trans
    (by unfold Dat.fetched Dat.blockOf iblk8; rw [hA]; try rfl)

/-! ## The body's two conditions, in closed form over the grid -/

/-- The condition of the first `scf.if` (the reset): the column tile is the first. -/
abbrev cond8_0 (i : grid8.Coords) : Prop := (Scalar.cmpi .ne (Scalar.extui (Scalar.cmpi .eq (BitVec.ofNat 32 (i 1).val) 0#32)) 0#32) = 1#1
theorem hcond8_0 : ∀ t : Fin cfg8.N, cond8_0 (grid8.coords t) ↔ t.val % 4 = 0 :=
  (by decide +kernel : ∀ t : Fin grid8.N, cond8_0 (grid8.coords t) ↔ t.val % 4 = 0)

/-- The condition of the second `scf.if` (the outputs' stores): the column tile is the last. -/
abbrev cond8_1 (i : grid8.Coords) : Prop := k8_cond2 i = 1#1
theorem hcond8_1 : ∀ t : Fin cfg8.N, cond8_1 (grid8.coords t) ↔ t.val % 4 = 3 :=
  (by decide +kernel : ∀ t : Fin grid8.N, cond8_1 (grid8.coords t) ↔ t.val % 4 = 3)

/-! ## Where the two outputs are idle -/

/-- At the points with k = 0 output 5 is idle: the body stores nothing into it and the pipeline does not write it back. -/
theorem idleAt8_5_A : ∀ t : Fin cfg8.N, cond8_0 (grid8.coords t) → ¬cond8_1 (grid8.coords t) → cfg8.idle 5 (grid8.coords t) = true := by decide +kernel
theorem noFlush8_5_A : ∀ t : Fin cfg8.N, cond8_0 (grid8.coords t) → ¬cond8_1 (grid8.coords t) → (cfg8.win 5).flush t = false := by decide +kernel
/-- The same at the points with k = 1 and k = 2. -/
theorem idleAt8_5_B : ∀ t : Fin cfg8.N, ¬cond8_0 (grid8.coords t) → ¬cond8_1 (grid8.coords t) → cfg8.idle 5 (grid8.coords t) = true := by decide +kernel
theorem noFlush8_5_B : ∀ t : Fin cfg8.N, ¬cond8_0 (grid8.coords t) → ¬cond8_1 (grid8.coords t) → (cfg8.win 5).flush t = false := by decide +kernel
/-- At the points with k = 3 output 5 is live: the body stores its whole block. -/
theorem liveAt8_5_C : ∀ t : Fin cfg8.N, ¬cond8_0 (grid8.coords t) → cond8_1 (grid8.coords t) → cfg8.idle 5 (grid8.coords t) = false := by decide +kernel

/-- At the points with k = 0 output 6 is idle: the body stores nothing into it and the pipeline does not write it back. -/
theorem idleAt8_6_A : ∀ t : Fin cfg8.N, cond8_0 (grid8.coords t) → ¬cond8_1 (grid8.coords t) → cfg8.idle 6 (grid8.coords t) = true := by decide +kernel
theorem noFlush8_6_A : ∀ t : Fin cfg8.N, cond8_0 (grid8.coords t) → ¬cond8_1 (grid8.coords t) → (cfg8.win 6).flush t = false := by decide +kernel
/-- The same at the points with k = 1 and k = 2. -/
theorem idleAt8_6_B : ∀ t : Fin cfg8.N, ¬cond8_0 (grid8.coords t) → ¬cond8_1 (grid8.coords t) → cfg8.idle 6 (grid8.coords t) = true := by decide +kernel
theorem noFlush8_6_B : ∀ t : Fin cfg8.N, ¬cond8_0 (grid8.coords t) → ¬cond8_1 (grid8.coords t) → (cfg8.win 6).flush t = false := by decide +kernel
/-- At the points with k = 3 output 6 is live: the body stores its whole block. -/
theorem liveAt8_6_C : ∀ t : Fin cfg8.N, ¬cond8_0 (grid8.coords t) → cond8_1 (grid8.coords t) → cfg8.idle 6 (grid8.coords t) = false := by decide +kernel

/-! ## The memrefs the body is called with -/

/-- One staging buffer of each output, through which its contents are stated (the choice does not matter). -/
abbrev VO8_5 : View sig .tc .vmem S1024x64 .bf16 := (Memref.whole cc8_stg5_0 : Memref sig .tc .vmem S1024x64 .bf16).view
abbrev VO8_6 : View sig .tc .vmem S1024x64 .f32 := (Memref.whole cc8_stg6_0 : Memref sig .tc .vmem S1024x64 .f32).view
abbrev ms8_0 (t : Fin cfg8.N) : Memref sig .tc .vmem S1024x2048 .bf16 := win8_0.stage (cfg8.slots t 0)
abbrev hs8_0 (t : Fin cfg8.N) : (ms8_0 t).IsWhole := hstage8_0 ((cfg8.slots t 0).cast nbuf8_0)
abbrev ms8_1 (t : Fin cfg8.N) : Memref sig .tc .vmem S8192x64 .bf16 := win8_1.stage (cfg8.slots t 1)
abbrev hs8_1 (t : Fin cfg8.N) : (ms8_1 t).IsWhole := hstage8_1 ((cfg8.slots t 1).cast nbuf8_1)
abbrev ms8_2 (t : Fin cfg8.N) : Memref sig .tc .vmem S1024x64 .f32 := win8_2.stage (cfg8.slots t 2)
abbrev hs8_2 (t : Fin cfg8.N) : (ms8_2 t).IsWhole := hstage8_2 ((cfg8.slots t 2).cast nbuf8_2)
abbrev ms8_3 (t : Fin cfg8.N) : Memref sig .tc .vmem S1x64 .f32 := win8_3.stage (cfg8.slots t 3)
abbrev hs8_3 (t : Fin cfg8.N) : (ms8_3 t).IsWhole := hstage8_3 ((cfg8.slots t 3).cast nbuf8_3)
abbrev ms8_4 (t : Fin cfg8.N) : Memref sig .tc .vmem S1x1 .f32 := win8_4.stage (cfg8.slots t 4)
abbrev hs8_4 (t : Fin cfg8.N) : (ms8_4 t).IsWhole := hstage8_4 ((cfg8.slots t 4).cast nbuf8_4)
abbrev ms8_5 (t : Fin cfg8.N) : Memref sig .tc .vmem S1024x64 .bf16 := win8_5.stage (cfg8.slots t 5)
abbrev hs8_5 (t : Fin cfg8.N) : (ms8_5 t).IsWhole := hstage8_5 ((cfg8.slots t 5).cast nbuf8_5)
abbrev ms8_6 (t : Fin cfg8.N) : Memref sig .tc .vmem S1024x64 .f32 := win8_6.stage (cfg8.slots t 6)
abbrev hs8_6 (t : Fin cfg8.N) : (ms8_6 t).IsWhole := hstage8_6 ((cfg8.slots t 6).cast nbuf8_6)
/-- The accumulator: a whole scoped buffer of the call's own, carried from point to point. -/
abbrev scM8_0 : Memref sig .tc .vmem S1024x64 .f32 := Memref.whole cc8_scratch0
abbrev VS8_0 : View sig .tc .vmem S1024x64 .f32 := scM8_0.view

/-- The invariant the launch hands the call, with the accumulator split out of the scoped buffers: the accumulator
    owned at some contents, every other scoped buffer unopened, the generator register at some state. -/
theorem PhiA8_eq (c : Dev nD) :
    (Pipeline.ΦA spec8 c : sProp 𝕄)
      = iprop(iprop(iprop((∃ d, owns (c : Thread nD τ) scM8_0 fullShare d))
          ∗ Pipeline.scopedRestBut (Ix := Unit) (Name := ℕ) (U := UR sig nD τ) (Lvl := ℕ) (Val := Elt F) spec8 c [cc8_scratch0]) ∗ (∃ r, prngReg c r)) := by
  unfold Pipeline.ΦA; rw [scopedRest8_split]; simp only [scM8_0, owns_whole]; try rfl

end Cert.Kernel.Hand

end
-- ==== Proof.K.Prop8RunA.lean ====
import proofs.«131271_j4982162063661_2_alg».proof.Proof.K.Prop8Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run when the column tile is the first (the accumulator is reset, then accumulated into; no output is stored): the lists of stores each buffer ends with, together with the proof that on whole
    staging memrefs — the inputs' at their contents, the outputs' at contents handed back untouched, the accumulator
    at anything — the body runs to the continuation holding the inputs' as they were,
    the accumulator with its stores written. The lists are found by running the body. -/
noncomputable def kernelRun8_A (c : Dev nD) (i : grid8.Coords) (arg2 : Memref sig .tc .vmem S1024x2048 .bf16) (harg2 : arg2.IsWhole) (arg3 : Memref sig .tc .vmem S8192x64 .bf16) (harg3 : arg3.IsWhole) (arg4 : Memref sig .tc .vmem S1024x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S1024x64 .bf16) (harg7 : arg7.IsWhole) (arg8 : Memref sig .tc .vmem S1024x64 .f32) (harg8 : arg8.IsWhole) (arg9 : Memref sig .tc .vmem S1024x64 .f32) (harg9 : arg9.IsWhole) (hc0 : cond8_0 i) (hc1 : ¬cond8_1 i)
    (x0 : Vec F S1024x2048 .bf16) (x1 : Vec F S8192x64 .bf16) (x2 : Vec F S1024x64 .f32) (x3 : Vec F S1x64 .f32) (x4 : Vec F S1x1 .f32) :
    Σ' (L5 : List (View.Piece (Elt F) S1024x64 .bf16)) (L6 : List (View.Piece (Elt F) S1024x64 .f32)), { LS0 : List (View.Piece (Elt F) S1024x64 .f32) //
      ∀ (xi5 : Vec F S1024x64 .bf16) (xi6 : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc8__propagate_kernel i arg2 harg2 arg3 harg3 arg4 harg4 arg5 harg5 arg6 harg6 arg7 harg7 arg8 harg8 arg9 harg9) K } := by
  refine ⟨[], [], ?_, fun xi5 xi6 E K => ?run⟩
  case run =>
    simp only [cc8__propagate_kernel_eq_skeleton]; unfold cc8__propagate_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

end Cert.Kernel.Hand

end
-- ==== Proof.K.Prop8RunB.lean ====
import proofs.«131271_j4982162063661_2_alg».proof.Proof.K.Prop8RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run when the column tile is neither the first nor the last (the accumulator is accumulated into; no output is stored): the lists of stores each buffer ends with, together with the proof that on whole
    staging memrefs — the inputs' at their contents, the outputs' at contents handed back untouched, the accumulator
    at the contents the point before left — the body runs to the continuation holding the inputs' as they were,
    the accumulator with its stores written. The lists are found by running the body. -/
noncomputable def kernelRun8_B (c : Dev nD) (i : grid8.Coords) (arg2 : Memref sig .tc .vmem S1024x2048 .bf16) (harg2 : arg2.IsWhole) (arg3 : Memref sig .tc .vmem S8192x64 .bf16) (harg3 : arg3.IsWhole) (arg4 : Memref sig .tc .vmem S1024x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S1024x64 .bf16) (harg7 : arg7.IsWhole) (arg8 : Memref sig .tc .vmem S1024x64 .f32) (harg8 : arg8.IsWhole) (arg9 : Memref sig .tc .vmem S1024x64 .f32) (harg9 : arg9.IsWhole) (hc0 : ¬cond8_0 i) (hc1 : ¬cond8_1 i)
    (x0 : Vec F S1024x2048 .bf16) (x1 : Vec F S8192x64 .bf16) (x2 : Vec F S1024x64 .f32) (x3 : Vec F S1x64 .f32) (x4 : Vec F S1x1 .f32) (xs0 : Vec F S1024x64 .f32) :
    Σ' (L5 : List (View.Piece (Elt F) S1024x64 .bf16)) (L6 : List (View.Piece (Elt F) S1024x64 .f32)), { LS0 : List (View.Piece (Elt F) S1024x64 .f32) //
      ∀ (xi5 : Vec F S1024x64 .bf16) (xi6 : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc8__propagate_kernel i arg2 harg2 arg3 harg3 arg4 harg4 arg5 harg5 arg6 harg6 arg7 harg7 arg8 harg8 arg9 harg9) K } := by
  refine ⟨[], [], ?_, fun xi5 xi6 E K => ?run⟩
  case run =>
    simp only [cc8__propagate_kernel_eq_skeleton]; unfold cc8__propagate_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

end Cert.Kernel.Hand

end
-- ==== Proof.K.Prop8RunC.lean ====
import proofs.«131271_j4982162063661_2_alg».proof.Proof.K.Prop8RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run when the column tile is the last (the accumulator is accumulated into, then stored into both outputs): the lists of stores each buffer ends with, together with the proof that on whole
    staging memrefs — the inputs' at their contents, the outputs' at anything, the accumulator
    at the contents the point before left — the body runs to the continuation holding the inputs' as they were,
    the accumulator with its stores written and each output's buffer with its stores written. The lists are found by running the body. -/
noncomputable def kernelRun8_C (c : Dev nD) (i : grid8.Coords) (arg2 : Memref sig .tc .vmem S1024x2048 .bf16) (harg2 : arg2.IsWhole) (arg3 : Memref sig .tc .vmem S8192x64 .bf16) (harg3 : arg3.IsWhole) (arg4 : Memref sig .tc .vmem S1024x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S1024x64 .bf16) (harg7 : arg7.IsWhole) (arg8 : Memref sig .tc .vmem S1024x64 .f32) (harg8 : arg8.IsWhole) (arg9 : Memref sig .tc .vmem S1024x64 .f32) (harg9 : arg9.IsWhole) (hc0 : ¬cond8_0 i) (hc1 : cond8_1 i)
    (x0 : Vec F S1024x2048 .bf16) (x1 : Vec F S8192x64 .bf16) (x2 : Vec F S1024x64 .f32) (x3 : Vec F S1x64 .f32) (x4 : Vec F S1x1 .f32) (xs0 : Vec F S1024x64 .f32) :
    Σ' (L5 : List (View.Piece (Elt F) S1024x64 .bf16)) (L6 : List (View.Piece (Elt F) S1024x64 .f32)), { LS0 : List (View.Piece (Elt F) S1024x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0)) -∗ K ⟨⟩))
          ⊢ wp frame (wpE (defs₀ (F := F)) Variants.none c none) E (cc8__propagate_kernel i arg2 harg2 arg3 harg3 arg4 harg4 arg5 harg5 arg6 harg6 arg7 harg7 arg8 harg8 arg9 harg9) K } := by
  refine ⟨?_, ?_, ?_, fun E K => ?run⟩
  case run =>
    simp only [cc8__propagate_kernel_eq_skeleton]; unfold cc8__propagate_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    iexists _; iexact HS0

end Cert.Kernel.Hand

end
-- ==== Proof.K.Prop8.lean ====
import proofs.«131271_j4982162063661_2_alg».proof.Proof.K.Prop8RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The propagate call number 8: its proof data and body obligation at the entry contents `V`

What the two outputs' staging buffers and the accumulator hold after each point is defined by recursion on the
point (`outsAt8`): the case the point is in, run on the point's memrefs and input blocks, over what the point
before left in the accumulator. The invariant between points keeps the accumulator at exactly those contents. -/

variable (V : (c : Dev nD) → (b : Ref sig .tc) → Buf (Elt F) ((c : Thread nD τ).loc b))

/-! ## What each case leaves -/

/-- What case A leaves in output 5's staging buffer: its stores read back over arbitrary contents (there are none: the output is idle in this case and nothing consults this value). -/
def out8_A_5 (c : Dev nD) (i : grid8.Coords) (arg2 : Memref sig .tc .vmem S1024x2048 .bf16) (harg2 : arg2.IsWhole) (arg3 : Memref sig .tc .vmem S8192x64 .bf16) (harg3 : arg3.IsWhole) (arg4 : Memref sig .tc .vmem S1024x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S1024x64 .bf16) (harg7 : arg7.IsWhole) (arg8 : Memref sig .tc .vmem S1024x64 .f32) (harg8 : arg8.IsWhole) (arg9 : Memref sig .tc .vmem S1024x64 .f32) (harg9 : arg9.IsWhole) (hc0 : cond8_0 i) (hc1 : ¬cond8_1 i)
    (x0 : Vec F S1024x2048 .bf16) (x1 : Vec F S8192x64 .bf16) (x2 : Vec F S1024x64 .f32) (x3 : Vec F S1x64 .f32) (x4 : Vec F S1x1 .f32) : Vec F S1024x64 .bf16 :=
  VO8_5.read (Elt F) (VO8_5.writes (Elt F) VO8_5.junk (kernelRun8_A c i arg2 harg2 arg3 harg3 arg4 harg4 arg5 harg5 arg6 harg6 arg7 harg7 arg8 harg8 arg9 harg9 hc0 hc1 x0 x1 x2 x3 x4).1)
/-- The same for output 6. -/
def out8_A_6 (c : Dev nD) (i : grid8.Coords) (arg2 : Memref sig .tc .vmem S1024x2048 .bf16) (harg2 : arg2.IsWhole) (arg3 : Memref sig .tc .vmem S8192x64 .bf16) (harg3 : arg3.IsWhole) (arg4 : Memref sig .tc .vmem S1024x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S1024x64 .bf16) (harg7 : arg7.IsWhole) (arg8 : Memref sig .tc .vmem S1024x64 .f32) (harg8 : arg8.IsWhole) (arg9 : Memref sig .tc .vmem S1024x64 .f32) (harg9 : arg9.IsWhole) (hc0 : cond8_0 i) (hc1 : ¬cond8_1 i)
    (x0 : Vec F S1024x2048 .bf16) (x1 : Vec F S8192x64 .bf16) (x2 : Vec F S1024x64 .f32) (x3 : Vec F S1x64 .f32) (x4 : Vec F S1x1 .f32) : Vec F S1024x64 .f32 :=
  VO8_6.read (Elt F) (VO8_6.writes (Elt F) VO8_6.junk (kernelRun8_A c i arg2 harg2 arg3 harg3 arg4 harg4 arg5 harg5 arg6 harg6 arg7 harg7 arg8 harg8 arg9 harg9 hc0 hc1 x0 x1 x2 x3 x4).2.1)
/-- Case A's stores into the accumulator are of the whole buffer, so they cover it. -/
theorem scover8_A_0 (c : Dev nD) (i : grid8.Coords) (arg2 : Memref sig .tc .vmem S1024x2048 .bf16) (harg2 : arg2.IsWhole) (arg3 : Memref sig .tc .vmem S8192x64 .bf16) (harg3 : arg3.IsWhole) (arg4 : Memref sig .tc .vmem S1024x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S1024x64 .bf16) (harg7 : arg7.IsWhole) (arg8 : Memref sig .tc .vmem S1024x64 .f32) (harg8 : arg8.IsWhole) (arg9 : Memref sig .tc .vmem S1024x64 .f32) (harg9 : arg9.IsWhole) (hc0 : cond8_0 i) (hc1 : ¬cond8_1 i)
    (x0 : Vec F S1024x2048 .bf16) (x1 : Vec F S8192x64 .bf16) (x2 : Vec F S1024x64 .f32) (x3 : Vec F S1x64 .f32) (x4 : Vec F S1x1 .f32) (y : S1024x64.Idx) :
    ∃ pc ∈ (kernelRun8_A c i arg2 harg2 arg3 harg3 arg4 harg4 arg5 harg5 arg6 harg6 arg7 harg7 arg8 harg8 arg9 harg9 hc0 hc1 x0 x1 x2 x3 x4).2.2.1, y ∈ pc.1.set :=
  View.cover_of_tiledL (kernelRun8_A c i arg2 harg2 arg3 harg3 arg4 harg4 arg5 harg5 arg6 harg6 arg7 harg7 arg8 harg8 arg9 harg9 hc0 hc1 x0 x1 x2 x3 x4).2.2.1 S1024x64.size (by sl_kernel_rfl) y
/-- What case A leaves in the accumulator. -/
def sout8_A_0 (c : Dev nD) (i : grid8.Coords) (arg2 : Memref sig .tc .vmem S1024x2048 .bf16) (harg2 : arg2.IsWhole) (arg3 : Memref sig .tc .vmem S8192x64 .bf16) (harg3 : arg3.IsWhole) (arg4 : Memref sig .tc .vmem S1024x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S1024x64 .bf16) (harg7 : arg7.IsWhole) (arg8 : Memref sig .tc .vmem S1024x64 .f32) (harg8 : arg8.IsWhole) (arg9 : Memref sig .tc .vmem S1024x64 .f32) (harg9 : arg9.IsWhole) (hc0 : cond8_0 i) (hc1 : ¬cond8_1 i)
    (x0 : Vec F S1024x2048 .bf16) (x1 : Vec F S8192x64 .bf16) (x2 : Vec F S1024x64 .f32) (x3 : Vec F S1x64 .f32) (x4 : Vec F S1x1 .f32) : Vec F S1024x64 .f32 :=
  VS8_0.read (Elt F) (VS8_0.writes (Elt F) VS8_0.junk (kernelRun8_A c i arg2 harg2 arg3 harg3 arg4 harg4 arg5 harg5 arg6 harg6 arg7 harg7 arg8 harg8 arg9 harg9 hc0 hc1 x0 x1 x2 x3 x4).2.2.1)

/-- What case B leaves in output 5's staging buffer: its stores read back over arbitrary contents (there are none: the output is idle in this case and nothing consults this value). -/
def out8_B_5 (c : Dev nD) (i : grid8.Coords) (arg2 : Memref sig .tc .vmem S1024x2048 .bf16) (harg2 : arg2.IsWhole) (arg3 : Memref sig .tc .vmem S8192x64 .bf16) (harg3 : arg3.IsWhole) (arg4 : Memref sig .tc .vmem S1024x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S1024x64 .bf16) (harg7 : arg7.IsWhole) (arg8 : Memref sig .tc .vmem S1024x64 .f32) (harg8 : arg8.IsWhole) (arg9 : Memref sig .tc .vmem S1024x64 .f32) (harg9 : arg9.IsWhole) (hc0 : ¬cond8_0 i) (hc1 : ¬cond8_1 i)
    (x0 : Vec F S1024x2048 .bf16) (x1 : Vec F S8192x64 .bf16) (x2 : Vec F S1024x64 .f32) (x3 : Vec F S1x64 .f32) (x4 : Vec F S1x1 .f32) (xs0 : Vec F S1024x64 .f32) : Vec F S1024x64 .bf16 :=
  VO8_5.read (Elt F) (VO8_5.writes (Elt F) VO8_5.junk (kernelRun8_B c i arg2 harg2 arg3 harg3 arg4 harg4 arg5 harg5 arg6 harg6 arg7 harg7 arg8 harg8 arg9 harg9 hc0 hc1 x0 x1 x2 x3 x4 xs0).1)
/-- The same for output 6. -/
def out8_B_6 (c : Dev nD) (i : grid8.Coords) (arg2 : Memref sig .tc .vmem S1024x2048 .bf16) (harg2 : arg2.IsWhole) (arg3 : Memref sig .tc .vmem S8192x64 .bf16) (harg3 : arg3.IsWhole) (arg4 : Memref sig .tc .vmem S1024x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S1024x64 .bf16) (harg7 : arg7.IsWhole) (arg8 : Memref sig .tc .vmem S1024x64 .f32) (harg8 : arg8.IsWhole) (arg9 : Memref sig .tc .vmem S1024x64 .f32) (harg9 : arg9.IsWhole) (hc0 : ¬cond8_0 i) (hc1 : ¬cond8_1 i)
    (x0 : Vec F S1024x2048 .bf16) (x1 : Vec F S8192x64 .bf16) (x2 : Vec F S1024x64 .f32) (x3 : Vec F S1x64 .f32) (x4 : Vec F S1x1 .f32) (xs0 : Vec F S1024x64 .f32) : Vec F S1024x64 .f32 :=
  VO8_6.read (Elt F) (VO8_6.writes (Elt F) VO8_6.junk (kernelRun8_B c i arg2 harg2 arg3 harg3 arg4 harg4 arg5 harg5 arg6 harg6 arg7 harg7 arg8 harg8 arg9 harg9 hc0 hc1 x0 x1 x2 x3 x4 xs0).2.1)
/-- Case B's stores into the accumulator are of the whole buffer, so they cover it. -/
theorem scover8_B_0 (c : Dev nD) (i : grid8.Coords) (arg2 : Memref sig .tc .vmem S1024x2048 .bf16) (harg2 : arg2.IsWhole) (arg3 : Memref sig .tc .vmem S8192x64 .bf16) (harg3 : arg3.IsWhole) (arg4 : Memref sig .tc .vmem S1024x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S1024x64 .bf16) (harg7 : arg7.IsWhole) (arg8 : Memref sig .tc .vmem S1024x64 .f32) (harg8 : arg8.IsWhole) (arg9 : Memref sig .tc .vmem S1024x64 .f32) (harg9 : arg9.IsWhole) (hc0 : ¬cond8_0 i) (hc1 : ¬cond8_1 i)
    (x0 : Vec F S1024x2048 .bf16) (x1 : Vec F S8192x64 .bf16) (x2 : Vec F S1024x64 .f32) (x3 : Vec F S1x64 .f32) (x4 : Vec F S1x1 .f32) (xs0 : Vec F S1024x64 .f32) (y : S1024x64.Idx) :
    ∃ pc ∈ (kernelRun8_B c i arg2 harg2 arg3 harg3 arg4 harg4 arg5 harg5 arg6 harg6 arg7 harg7 arg8 harg8 arg9 harg9 hc0 hc1 x0 x1 x2 x3 x4 xs0).2.2.1, y ∈ pc.1.set :=
  View.cover_of_tiledL (kernelRun8_B c i arg2 harg2 arg3 harg3 arg4 harg4 arg5 harg5 arg6 harg6 arg7 harg7 arg8 harg8 arg9 harg9 hc0 hc1 x0 x1 x2 x3 x4 xs0).2.2.1 S1024x64.size (by sl_kernel_rfl) y
/-- What case B leaves in the accumulator. -/
def sout8_B_0 (c : Dev nD) (i : grid8.Coords) (arg2 : Memref sig .tc .vmem S1024x2048 .bf16) (harg2 : arg2.IsWhole) (arg3 : Memref sig .tc .vmem S8192x64 .bf16) (harg3 : arg3.IsWhole) (arg4 : Memref sig .tc .vmem S1024x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S1024x64 .bf16) (harg7 : arg7.IsWhole) (arg8 : Memref sig .tc .vmem S1024x64 .f32) (harg8 : arg8.IsWhole) (arg9 : Memref sig .tc .vmem S1024x64 .f32) (harg9 : arg9.IsWhole) (hc0 : ¬cond8_0 i) (hc1 : ¬cond8_1 i)
    (x0 : Vec F S1024x2048 .bf16) (x1 : Vec F S8192x64 .bf16) (x2 : Vec F S1024x64 .f32) (x3 : Vec F S1x64 .f32) (x4 : Vec F S1x1 .f32) (xs0 : Vec F S1024x64 .f32) : Vec F S1024x64 .f32 :=
  VS8_0.read (Elt F) (VS8_0.writes (Elt F) VS8_0.junk (kernelRun8_B c i arg2 harg2 arg3 harg3 arg4 harg4 arg5 harg5 arg6 harg6 arg7 harg7 arg8 harg8 arg9 harg9 hc0 hc1 x0 x1 x2 x3 x4 xs0).2.2.1)

/-- What case C leaves in output 5's staging buffer: its stores read back over arbitrary contents. -/
def out8_C_5 (c : Dev nD) (i : grid8.Coords) (arg2 : Memref sig .tc .vmem S1024x2048 .bf16) (harg2 : arg2.IsWhole) (arg3 : Memref sig .tc .vmem S8192x64 .bf16) (harg3 : arg3.IsWhole) (arg4 : Memref sig .tc .vmem S1024x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S1024x64 .bf16) (harg7 : arg7.IsWhole) (arg8 : Memref sig .tc .vmem S1024x64 .f32) (harg8 : arg8.IsWhole) (arg9 : Memref sig .tc .vmem S1024x64 .f32) (harg9 : arg9.IsWhole) (hc0 : ¬cond8_0 i) (hc1 : cond8_1 i)
    (x0 : Vec F S1024x2048 .bf16) (x1 : Vec F S8192x64 .bf16) (x2 : Vec F S1024x64 .f32) (x3 : Vec F S1x64 .f32) (x4 : Vec F S1x1 .f32) (xs0 : Vec F S1024x64 .f32) : Vec F S1024x64 .bf16 :=
  VO8_5.read (Elt F) (VO8_5.writes (Elt F) VO8_5.junk (kernelRun8_C c i arg2 harg2 arg3 harg3 arg4 harg4 arg5 harg5 arg6 harg6 arg7 harg7 arg8 harg8 arg9 harg9 hc0 hc1 x0 x1 x2 x3 x4 xs0).1)
/-- The same for output 6. -/
def out8_C_6 (c : Dev nD) (i : grid8.Coords) (arg2 : Memref sig .tc .vmem S1024x2048 .bf16) (harg2 : arg2.IsWhole) (arg3 : Memref sig .tc .vmem S8192x64 .bf16) (harg3 : arg3.IsWhole) (arg4 : Memref sig .tc .vmem S1024x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S1024x64 .bf16) (harg7 : arg7.IsWhole) (arg8 : Memref sig .tc .vmem S1024x64 .f32) (harg8 : arg8.IsWhole) (arg9 : Memref sig .tc .vmem S1024x64 .f32) (harg9 : arg9.IsWhole) (hc0 : ¬cond8_0 i) (hc1 : cond8_1 i)
    (x0 : Vec F S1024x2048 .bf16) (x1 : Vec F S8192x64 .bf16) (x2 : Vec F S1024x64 .f32) (x3 : Vec F S1x64 .f32) (x4 : Vec F S1x1 .f32) (xs0 : Vec F S1024x64 .f32) : Vec F S1024x64 .f32 :=
  VO8_6.read (Elt F) (VO8_6.writes (Elt F) VO8_6.junk (kernelRun8_C c i arg2 harg2 arg3 harg3 arg4 harg4 arg5 harg5 arg6 harg6 arg7 harg7 arg8 harg8 arg9 harg9 hc0 hc1 x0 x1 x2 x3 x4 xs0).2.1)
/-- Case C's one store into output 5 is of the whole block, so it covers it. -/
theorem cover8_C_5 (c : Dev nD) (i : grid8.Coords) (arg2 : Memref sig .tc .vmem S1024x2048 .bf16) (harg2 : arg2.IsWhole) (arg3 : Memref sig .tc .vmem S8192x64 .bf16) (harg3 : arg3.IsWhole) (arg4 : Memref sig .tc .vmem S1024x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S1024x64 .bf16) (harg7 : arg7.IsWhole) (arg8 : Memref sig .tc .vmem S1024x64 .f32) (harg8 : arg8.IsWhole) (arg9 : Memref sig .tc .vmem S1024x64 .f32) (harg9 : arg9.IsWhole) (hc0 : ¬cond8_0 i) (hc1 : cond8_1 i)
    (x0 : Vec F S1024x2048 .bf16) (x1 : Vec F S8192x64 .bf16) (x2 : Vec F S1024x64 .f32) (x3 : Vec F S1x64 .f32) (x4 : Vec F S1x1 .f32) (xs0 : Vec F S1024x64 .f32) (y : S1024x64.Idx) :
    ∃ pc ∈ (kernelRun8_C c i arg2 harg2 arg3 harg3 arg4 harg4 arg5 harg5 arg6 harg6 arg7 harg7 arg8 harg8 arg9 harg9 hc0 hc1 x0 x1 x2 x3 x4 xs0).1, y ∈ pc.1.set :=
  View.cover_of_tiledL (kernelRun8_C c i arg2 harg2 arg3 harg3 arg4 harg4 arg5 harg5 arg6 harg6 arg7 harg7 arg8 harg8 arg9 harg9 hc0 hc1 x0 x1 x2 x3 x4 xs0).1 S1024x64.size (by sl_kernel_rfl) y
/-- The same for output 6. -/
theorem cover8_C_6 (c : Dev nD) (i : grid8.Coords) (arg2 : Memref sig .tc .vmem S1024x2048 .bf16) (harg2 : arg2.IsWhole) (arg3 : Memref sig .tc .vmem S8192x64 .bf16) (harg3 : arg3.IsWhole) (arg4 : Memref sig .tc .vmem S1024x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S1024x64 .bf16) (harg7 : arg7.IsWhole) (arg8 : Memref sig .tc .vmem S1024x64 .f32) (harg8 : arg8.IsWhole) (arg9 : Memref sig .tc .vmem S1024x64 .f32) (harg9 : arg9.IsWhole) (hc0 : ¬cond8_0 i) (hc1 : cond8_1 i)
    (x0 : Vec F S1024x2048 .bf16) (x1 : Vec F S8192x64 .bf16) (x2 : Vec F S1024x64 .f32) (x3 : Vec F S1x64 .f32) (x4 : Vec F S1x1 .f32) (xs0 : Vec F S1024x64 .f32) (y : S1024x64.Idx) :
    ∃ pc ∈ (kernelRun8_C c i arg2 harg2 arg3 harg3 arg4 harg4 arg5 harg5 arg6 harg6 arg7 harg7 arg8 harg8 arg9 harg9 hc0 hc1 x0 x1 x2 x3 x4 xs0).2.1, y ∈ pc.1.set :=
  View.cover_of_tiledL (kernelRun8_C c i arg2 harg2 arg3 harg3 arg4 harg4 arg5 harg5 arg6 harg6 arg7 harg7 arg8 harg8 arg9 harg9 hc0 hc1 x0 x1 x2 x3 x4 xs0).2.1 S1024x64.size (by sl_kernel_rfl) y
/-- Case C's stores into the accumulator are of the whole buffer, so they cover it. -/
theorem scover8_C_0 (c : Dev nD) (i : grid8.Coords) (arg2 : Memref sig .tc .vmem S1024x2048 .bf16) (harg2 : arg2.IsWhole) (arg3 : Memref sig .tc .vmem S8192x64 .bf16) (harg3 : arg3.IsWhole) (arg4 : Memref sig .tc .vmem S1024x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S1024x64 .bf16) (harg7 : arg7.IsWhole) (arg8 : Memref sig .tc .vmem S1024x64 .f32) (harg8 : arg8.IsWhole) (arg9 : Memref sig .tc .vmem S1024x64 .f32) (harg9 : arg9.IsWhole) (hc0 : ¬cond8_0 i) (hc1 : cond8_1 i)
    (x0 : Vec F S1024x2048 .bf16) (x1 : Vec F S8192x64 .bf16) (x2 : Vec F S1024x64 .f32) (x3 : Vec F S1x64 .f32) (x4 : Vec F S1x1 .f32) (xs0 : Vec F S1024x64 .f32) (y : S1024x64.Idx) :
    ∃ pc ∈ (kernelRun8_C c i arg2 harg2 arg3 harg3 arg4 harg4 arg5 harg5 arg6 harg6 arg7 harg7 arg8 harg8 arg9 harg9 hc0 hc1 x0 x1 x2 x3 x4 xs0).2.2.1, y ∈ pc.1.set :=
  View.cover_of_tiledL (kernelRun8_C c i arg2 harg2 arg3 harg3 arg4 harg4 arg5 harg5 arg6 harg6 arg7 harg7 arg8 harg8 arg9 harg9 hc0 hc1 x0 x1 x2 x3 x4 xs0).2.2.1 S1024x64.size (by sl_kernel_rfl) y
/-- What case C leaves in the accumulator. -/
def sout8_C_0 (c : Dev nD) (i : grid8.Coords) (arg2 : Memref sig .tc .vmem S1024x2048 .bf16) (harg2 : arg2.IsWhole) (arg3 : Memref sig .tc .vmem S8192x64 .bf16) (harg3 : arg3.IsWhole) (arg4 : Memref sig .tc .vmem S1024x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S1024x64 .bf16) (harg7 : arg7.IsWhole) (arg8 : Memref sig .tc .vmem S1024x64 .f32) (harg8 : arg8.IsWhole) (arg9 : Memref sig .tc .vmem S1024x64 .f32) (harg9 : arg9.IsWhole) (hc0 : ¬cond8_0 i) (hc1 : cond8_1 i)
    (x0 : Vec F S1024x2048 .bf16) (x1 : Vec F S8192x64 .bf16) (x2 : Vec F S1024x64 .f32) (x3 : Vec F S1x64 .f32) (x4 : Vec F S1x1 .f32) (xs0 : Vec F S1024x64 .f32) : Vec F S1024x64 .f32 :=
  VS8_0.read (Elt F) (VS8_0.writes (Elt F) VS8_0.junk (kernelRun8_C c i arg2 harg2 arg3 harg3 arg4 harg4 arg5 harg5 arg6 harg6 arg7 harg7 arg8 harg8 arg9 harg9 hc0 hc1 x0 x1 x2 x3 x4 xs0).2.2.1)

/-! ## What the outputs and the accumulator hold after each point -/

/-- After the body at position `n`: output 5's buffer, output 6's buffer, the accumulator. -/
def outsAt8 (c : Dev nD) : (n : ℕ) → n < cfg8.N → Vec F S1024x64 .bf16 × Vec F S1024x64 .f32 × Vec F S1024x64 .f32
  | 0, hn => (out8_A_5 c (grid8.coords ⟨0, hn⟩) (ms8_0 ⟨0, hn⟩) (hs8_0 ⟨0, hn⟩) (ms8_1 ⟨0, hn⟩) (hs8_1 ⟨0, hn⟩) (ms8_2 ⟨0, hn⟩) (hs8_2 ⟨0, hn⟩) (ms8_3 ⟨0, hn⟩) (hs8_3 ⟨0, hn⟩) (ms8_4 ⟨0, hn⟩) (hs8_4 ⟨0, hn⟩) (ms8_5 ⟨0, hn⟩) (hs8_5 ⟨0, hn⟩) (ms8_6 ⟨0, hn⟩) (hs8_6 ⟨0, hn⟩) scM8_0 (Memref.isWhole_whole _) ((hcond8_0 ⟨0, hn⟩).mpr (Nat.zero_mod _)) (fun h => (fun h => by (try dsimp only at h); omega) ((hcond8_1 ⟨0, hn⟩).mp h)) (iblk8 V c 0 ⟨0, hn⟩) (iblk8 V c 1 ⟨0, hn⟩) (iblk8 V c 2 ⟨0, hn⟩) (iblk8 V c 3 ⟨0, hn⟩) (iblk8 V c 4 ⟨0, hn⟩), out8_A_6 c (grid8.coords ⟨0, hn⟩) (ms8_0 ⟨0, hn⟩) (hs8_0 ⟨0, hn⟩) (ms8_1 ⟨0, hn⟩) (hs8_1 ⟨0, hn⟩) (ms8_2 ⟨0, hn⟩) (hs8_2 ⟨0, hn⟩) (ms8_3 ⟨0, hn⟩) (hs8_3 ⟨0, hn⟩) (ms8_4 ⟨0, hn⟩) (hs8_4 ⟨0, hn⟩) (ms8_5 ⟨0, hn⟩) (hs8_5 ⟨0, hn⟩) (ms8_6 ⟨0, hn⟩) (hs8_6 ⟨0, hn⟩) scM8_0 (Memref.isWhole_whole _) ((hcond8_0 ⟨0, hn⟩).mpr (Nat.zero_mod _)) (fun h => (fun h => by (try dsimp only at h); omega) ((hcond8_1 ⟨0, hn⟩).mp h)) (iblk8 V c 0 ⟨0, hn⟩) (iblk8 V c 1 ⟨0, hn⟩) (iblk8 V c 2 ⟨0, hn⟩) (iblk8 V c 3 ⟨0, hn⟩) (iblk8 V c 4 ⟨0, hn⟩), sout8_A_0 c (grid8.coords ⟨0, hn⟩) (ms8_0 ⟨0, hn⟩) (hs8_0 ⟨0, hn⟩) (ms8_1 ⟨0, hn⟩) (hs8_1 ⟨0, hn⟩) (ms8_2 ⟨0, hn⟩) (hs8_2 ⟨0, hn⟩) (ms8_3 ⟨0, hn⟩) (hs8_3 ⟨0, hn⟩) (ms8_4 ⟨0, hn⟩) (hs8_4 ⟨0, hn⟩) (ms8_5 ⟨0, hn⟩) (hs8_5 ⟨0, hn⟩) (ms8_6 ⟨0, hn⟩) (hs8_6 ⟨0, hn⟩) scM8_0 (Memref.isWhole_whole _) ((hcond8_0 ⟨0, hn⟩).mpr (Nat.zero_mod _)) (fun h => (fun h => by (try dsimp only at h); omega) ((hcond8_1 ⟨0, hn⟩).mp h)) (iblk8 V c 0 ⟨0, hn⟩) (iblk8 V c 1 ⟨0, hn⟩) (iblk8 V c 2 ⟨0, hn⟩) (iblk8 V c 3 ⟨0, hn⟩) (iblk8 V c 4 ⟨0, hn⟩))
  | n + 1, hn =>
    if h0 : (n + 1) % 4 = 0 then
      if h1 : (n + 1) % 4 = 3 then
        False.elim (by omega)
      else
        (out8_A_5 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) (ms8_3 ⟨n + 1, hn⟩) (hs8_3 ⟨n + 1, hn⟩) (ms8_4 ⟨n + 1, hn⟩) (hs8_4 ⟨n + 1, hn⟩) (ms8_5 ⟨n + 1, hn⟩) (hs8_5 ⟨n + 1, hn⟩) (ms8_6 ⟨n + 1, hn⟩) (hs8_6 ⟨n + 1, hn⟩) scM8_0 (Memref.isWhole_whole _) ((hcond8_0 ⟨n + 1, hn⟩).mpr h0) (fun h => h1 ((hcond8_1 ⟨n + 1, hn⟩).mp h)) (iblk8 V c 0 ⟨n + 1, hn⟩) (iblk8 V c 1 ⟨n + 1, hn⟩) (iblk8 V c 2 ⟨n + 1, hn⟩) (iblk8 V c 3 ⟨n + 1, hn⟩) (iblk8 V c 4 ⟨n + 1, hn⟩), out8_A_6 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) (ms8_3 ⟨n + 1, hn⟩) (hs8_3 ⟨n + 1, hn⟩) (ms8_4 ⟨n + 1, hn⟩) (hs8_4 ⟨n + 1, hn⟩) (ms8_5 ⟨n + 1, hn⟩) (hs8_5 ⟨n + 1, hn⟩) (ms8_6 ⟨n + 1, hn⟩) (hs8_6 ⟨n + 1, hn⟩) scM8_0 (Memref.isWhole_whole _) ((hcond8_0 ⟨n + 1, hn⟩).mpr h0) (fun h => h1 ((hcond8_1 ⟨n + 1, hn⟩).mp h)) (iblk8 V c 0 ⟨n + 1, hn⟩) (iblk8 V c 1 ⟨n + 1, hn⟩) (iblk8 V c 2 ⟨n + 1, hn⟩) (iblk8 V c 3 ⟨n + 1, hn⟩) (iblk8 V c 4 ⟨n + 1, hn⟩), sout8_A_0 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) (ms8_3 ⟨n + 1, hn⟩) (hs8_3 ⟨n + 1, hn⟩) (ms8_4 ⟨n + 1, hn⟩) (hs8_4 ⟨n + 1, hn⟩) (ms8_5 ⟨n + 1, hn⟩) (hs8_5 ⟨n + 1, hn⟩) (ms8_6 ⟨n + 1, hn⟩) (hs8_6 ⟨n + 1, hn⟩) scM8_0 (Memref.isWhole_whole _) ((hcond8_0 ⟨n + 1, hn⟩).mpr h0) (fun h => h1 ((hcond8_1 ⟨n + 1, hn⟩).mp h)) (iblk8 V c 0 ⟨n + 1, hn⟩) (iblk8 V c 1 ⟨n + 1, hn⟩) (iblk8 V c 2 ⟨n + 1, hn⟩) (iblk8 V c 3 ⟨n + 1, hn⟩) (iblk8 V c 4 ⟨n + 1, hn⟩))
    else
      if h1 : (n + 1) % 4 = 3 then
        (out8_C_5 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) (ms8_3 ⟨n + 1, hn⟩) (hs8_3 ⟨n + 1, hn⟩) (ms8_4 ⟨n + 1, hn⟩) (hs8_4 ⟨n + 1, hn⟩) (ms8_5 ⟨n + 1, hn⟩) (hs8_5 ⟨n + 1, hn⟩) (ms8_6 ⟨n + 1, hn⟩) (hs8_6 ⟨n + 1, hn⟩) scM8_0 (Memref.isWhole_whole _) (fun h => h0 ((hcond8_0 ⟨n + 1, hn⟩).mp h)) ((hcond8_1 ⟨n + 1, hn⟩).mpr h1) (iblk8 V c 0 ⟨n + 1, hn⟩) (iblk8 V c 1 ⟨n + 1, hn⟩) (iblk8 V c 2 ⟨n + 1, hn⟩) (iblk8 V c 3 ⟨n + 1, hn⟩) (iblk8 V c 4 ⟨n + 1, hn⟩) (outsAt8 c n (Nat.lt_of_succ_lt hn)).2.2, out8_C_6 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) (ms8_3 ⟨n + 1, hn⟩) (hs8_3 ⟨n + 1, hn⟩) (ms8_4 ⟨n + 1, hn⟩) (hs8_4 ⟨n + 1, hn⟩) (ms8_5 ⟨n + 1, hn⟩) (hs8_5 ⟨n + 1, hn⟩) (ms8_6 ⟨n + 1, hn⟩) (hs8_6 ⟨n + 1, hn⟩) scM8_0 (Memref.isWhole_whole _) (fun h => h0 ((hcond8_0 ⟨n + 1, hn⟩).mp h)) ((hcond8_1 ⟨n + 1, hn⟩).mpr h1) (iblk8 V c 0 ⟨n + 1, hn⟩) (iblk8 V c 1 ⟨n + 1, hn⟩) (iblk8 V c 2 ⟨n + 1, hn⟩) (iblk8 V c 3 ⟨n + 1, hn⟩) (iblk8 V c 4 ⟨n + 1, hn⟩) (outsAt8 c n (Nat.lt_of_succ_lt hn)).2.2, sout8_C_0 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) (ms8_3 ⟨n + 1, hn⟩) (hs8_3 ⟨n + 1, hn⟩) (ms8_4 ⟨n + 1, hn⟩) (hs8_4 ⟨n + 1, hn⟩) (ms8_5 ⟨n + 1, hn⟩) (hs8_5 ⟨n + 1, hn⟩) (ms8_6 ⟨n + 1, hn⟩) (hs8_6 ⟨n + 1, hn⟩) scM8_0 (Memref.isWhole_whole _) (fun h => h0 ((hcond8_0 ⟨n + 1, hn⟩).mp h)) ((hcond8_1 ⟨n + 1, hn⟩).mpr h1) (iblk8 V c 0 ⟨n + 1, hn⟩) (iblk8 V c 1 ⟨n + 1, hn⟩) (iblk8 V c 2 ⟨n + 1, hn⟩) (iblk8 V c 3 ⟨n + 1, hn⟩) (iblk8 V c 4 ⟨n + 1, hn⟩) (outsAt8 c n (Nat.lt_of_succ_lt hn)).2.2)
      else
        (out8_B_5 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) (ms8_3 ⟨n + 1, hn⟩) (hs8_3 ⟨n + 1, hn⟩) (ms8_4 ⟨n + 1, hn⟩) (hs8_4 ⟨n + 1, hn⟩) (ms8_5 ⟨n + 1, hn⟩) (hs8_5 ⟨n + 1, hn⟩) (ms8_6 ⟨n + 1, hn⟩) (hs8_6 ⟨n + 1, hn⟩) scM8_0 (Memref.isWhole_whole _) (fun h => h0 ((hcond8_0 ⟨n + 1, hn⟩).mp h)) (fun h => h1 ((hcond8_1 ⟨n + 1, hn⟩).mp h)) (iblk8 V c 0 ⟨n + 1, hn⟩) (iblk8 V c 1 ⟨n + 1, hn⟩) (iblk8 V c 2 ⟨n + 1, hn⟩) (iblk8 V c 3 ⟨n + 1, hn⟩) (iblk8 V c 4 ⟨n + 1, hn⟩) (outsAt8 c n (Nat.lt_of_succ_lt hn)).2.2, out8_B_6 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) (ms8_3 ⟨n + 1, hn⟩) (hs8_3 ⟨n + 1, hn⟩) (ms8_4 ⟨n + 1, hn⟩) (hs8_4 ⟨n + 1, hn⟩) (ms8_5 ⟨n + 1, hn⟩) (hs8_5 ⟨n + 1, hn⟩) (ms8_6 ⟨n + 1, hn⟩) (hs8_6 ⟨n + 1, hn⟩) scM8_0 (Memref.isWhole_whole _) (fun h => h0 ((hcond8_0 ⟨n + 1, hn⟩).mp h)) (fun h => h1 ((hcond8_1 ⟨n + 1, hn⟩).mp h)) (iblk8 V c 0 ⟨n + 1, hn⟩) (iblk8 V c 1 ⟨n + 1, hn⟩) (iblk8 V c 2 ⟨n + 1, hn⟩) (iblk8 V c 3 ⟨n + 1, hn⟩) (iblk8 V c 4 ⟨n + 1, hn⟩) (outsAt8 c n (Nat.lt_of_succ_lt hn)).2.2, sout8_B_0 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) (ms8_3 ⟨n + 1, hn⟩) (hs8_3 ⟨n + 1, hn⟩) (ms8_4 ⟨n + 1, hn⟩) (hs8_4 ⟨n + 1, hn⟩) (ms8_5 ⟨n + 1, hn⟩) (hs8_5 ⟨n + 1, hn⟩) (ms8_6 ⟨n + 1, hn⟩) (hs8_6 ⟨n + 1, hn⟩) scM8_0 (Memref.isWhole_whole _) (fun h => h0 ((hcond8_0 ⟨n + 1, hn⟩).mp h)) (fun h => h1 ((hcond8_1 ⟨n + 1, hn⟩).mp h)) (iblk8 V c 0 ⟨n + 1, hn⟩) (iblk8 V c 1 ⟨n + 1, hn⟩) (iblk8 V c 2 ⟨n + 1, hn⟩) (iblk8 V c 3 ⟨n + 1, hn⟩) (iblk8 V c 4 ⟨n + 1, hn⟩) (outsAt8 c n (Nat.lt_of_succ_lt hn)).2.2)

theorem outsAt8_A (c : Dev nD) (t : Fin cfg8.N) (h0 : t.val % 4 = 0) (h1 : ¬t.val % 4 = 3) :
    outsAt8 V c t.val t.isLt = (out8_A_5 c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) scM8_0 (Memref.isWhole_whole _) ((hcond8_0 t).mpr h0) (fun h => h1 ((hcond8_1 t).mp h)) (iblk8 V c 0 t) (iblk8 V c 1 t) (iblk8 V c 2 t) (iblk8 V c 3 t) (iblk8 V c 4 t), out8_A_6 c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) scM8_0 (Memref.isWhole_whole _) ((hcond8_0 t).mpr h0) (fun h => h1 ((hcond8_1 t).mp h)) (iblk8 V c 0 t) (iblk8 V c 1 t) (iblk8 V c 2 t) (iblk8 V c 3 t) (iblk8 V c 4 t), sout8_A_0 c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) scM8_0 (Memref.isWhole_whole _) ((hcond8_0 t).mpr h0) (fun h => h1 ((hcond8_1 t).mp h)) (iblk8 V c 0 t) (iblk8 V c 1 t) (iblk8 V c 2 t) (iblk8 V c 3 t) (iblk8 V c 4 t)) := by
  obtain ⟨n, hn⟩ := t
  cases n with
  | zero => exact rfl
  | succ n => exact (dif_pos h0).trans ((dif_neg h1).trans rfl)

theorem outsAt8_B (c : Dev nD) (t : Fin cfg8.N) (h0 : ¬t.val % 4 = 0) (h1 : ¬t.val % 4 = 3) :
    outsAt8 V c t.val t.isLt = (out8_B_5 c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) scM8_0 (Memref.isWhole_whole _) (fun h => h0 ((hcond8_0 t).mp h)) (fun h => h1 ((hcond8_1 t).mp h)) (iblk8 V c 0 t) (iblk8 V c 1 t) (iblk8 V c 2 t) (iblk8 V c 3 t) (iblk8 V c 4 t) (outsAt8 V c (t.val - 1) (Nat.lt_of_le_of_lt (Nat.sub_le _ _) t.isLt)).2.2, out8_B_6 c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) scM8_0 (Memref.isWhole_whole _) (fun h => h0 ((hcond8_0 t).mp h)) (fun h => h1 ((hcond8_1 t).mp h)) (iblk8 V c 0 t) (iblk8 V c 1 t) (iblk8 V c 2 t) (iblk8 V c 3 t) (iblk8 V c 4 t) (outsAt8 V c (t.val - 1) (Nat.lt_of_le_of_lt (Nat.sub_le _ _) t.isLt)).2.2, sout8_B_0 c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) scM8_0 (Memref.isWhole_whole _) (fun h => h0 ((hcond8_0 t).mp h)) (fun h => h1 ((hcond8_1 t).mp h)) (iblk8 V c 0 t) (iblk8 V c 1 t) (iblk8 V c 2 t) (iblk8 V c 3 t) (iblk8 V c 4 t) (outsAt8 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt8_C (c : Dev nD) (t : Fin cfg8.N) (h0 : ¬t.val % 4 = 0) (h1 : t.val % 4 = 3) :
    outsAt8 V c t.val t.isLt = (out8_C_5 c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) scM8_0 (Memref.isWhole_whole _) (fun h => h0 ((hcond8_0 t).mp h)) ((hcond8_1 t).mpr h1) (iblk8 V c 0 t) (iblk8 V c 1 t) (iblk8 V c 2 t) (iblk8 V c 3 t) (iblk8 V c 4 t) (outsAt8 V c (t.val - 1) (Nat.lt_of_le_of_lt (Nat.sub_le _ _) t.isLt)).2.2, out8_C_6 c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) scM8_0 (Memref.isWhole_whole _) (fun h => h0 ((hcond8_0 t).mp h)) ((hcond8_1 t).mpr h1) (iblk8 V c 0 t) (iblk8 V c 1 t) (iblk8 V c 2 t) (iblk8 V c 3 t) (iblk8 V c 4 t) (outsAt8 V c (t.val - 1) (Nat.lt_of_le_of_lt (Nat.sub_le _ _) t.isLt)).2.2, sout8_C_0 c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) scM8_0 (Memref.isWhole_whole _) (fun h => h0 ((hcond8_0 t).mp h)) ((hcond8_1 t).mpr h1) (iblk8 V c 0 t) (iblk8 V c 1 t) (iblk8 V c 2 t) (iblk8 V c 3 t) (iblk8 V c 4 t) (outsAt8 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before the first point: what the launch hands the call. Before any later point: the accumulator at what the
    point before left in it, every other scoped buffer unopened, the generator register at some state. -/
def PhiS8 (c : Dev nD) : (n : ℕ) → n ≤ cfg8.N → sProp 𝕄
  | 0, _ => Pipeline.ΦA spec8 c
  | n + 1, hn => iprop(iprop(iprop(owns (c : Thread nD τ) scM8_0 fullShare ((outsAt8 V c n hn).2.2))
      ∗ Pipeline.scopedRestBut (Ix := Unit) (Name := ℕ) (U := UR sig nD τ) (Lvl := ℕ) (Val := Elt F) spec8 c [cc8_scratch0]) ∗ (∃ r, prngReg c r))

theorem PhiS8_zero (c : Dev nD) (n : ℕ) (h : n ≤ cfg8.N) (hz : n = 0) : PhiS8 V c n h = Pipeline.ΦA spec8 c := by
  subst hz; rfl

theorem PhiS8_succ (c : Dev nD) (n : ℕ) (hn : n < cfg8.N) :
    PhiS8 V c (n + 1) hn = iprop(iprop(iprop(owns (c : Thread nD τ) scM8_0 fullShare ((outsAt8 V c n hn).2.2))
      ∗ Pipeline.scopedRestBut (Ix := Unit) (Name := ℕ) (U := UR sig nD τ) (Lvl := ℕ) (Val := Elt F) spec8 c [cc8_scratch0]) ∗ (∃ r, prngReg c r)) := rfl

theorem PhiS8_pos (c : Dev nD) (n : ℕ) (h : n ≤ cfg8.N) (hz : n ≠ 0) :
    PhiS8 V c n h = iprop(iprop(iprop(owns (c : Thread nD τ) scM8_0 fullShare ((outsAt8 V c (n - 1) (by omega)).2.2))
      ∗ Pipeline.scopedRestBut (Ix := Unit) (Name := ℕ) (U := UR sig nD τ) (Lvl := ℕ) (Val := Elt F) spec8 c [cc8_scratch0]) ∗ (∃ r, prngReg c r)) := by
  cases n with
  | zero => exact absurd rfl hz
  | succ n => rfl

/-! ## The proof data -/

/-- The proof data of the call on core `c`: the arrays as the call finds them; after the body at point `t` each
    input's buffer at its block and the outputs' at `outsAt8`; the invariant `PhiS8`; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => (outsAt8 V c t.val t.isLt).1
    | ⟨6, _⟩ => (outsAt8 V c t.val t.isLt).2.1
  Φ t := PhiS8 V c t.val (Nat.le_of_lt_succ t.isLt)
  q _ := fullShare
  owed _ := 0

theorem A_eq8 (c : Dev nD) (w : Fin cfg8.W) : (dat8 V c).A w = V c (Pipeline.arrRef spec8 w) := by
  dsimp only [dat8]

theorem PhiS8_castSucc (c : Dev nD) (t : Fin cfg8.N) :
    (dat8 V c).Φ t.castSucc = PhiS8 V c t.val (Nat.le_of_lt t.isLt) := by
  dsimp only [dat8]; simp only [Fin.coe_castSucc]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) : (dat8 V c).after 5 t = (outsAt8 V c t.val t.isLt).1 := by dsimp only [dat8]
theorem after8_6 (c : Dev nD) (t : Fin cfg8.N) : (dat8 V c).after 6 t = (outsAt8 V c t.val t.isLt).2.1 := by dsimp only [dat8]

theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d
theorem before8_4 (c : Dev nD) (t : Fin cfg8.N) (d) : (dat8 V c).before 4 t d = iblk8 V c 4 t :=
  before8_4_of V (dat8 V c) (A_eq8 V c 4) (after8_4 V c) t d

theorem liveAt8_0 : ∀ t : Fin cfg8.N, cfg8.idle 0 (grid8.coords t) = false := fun _ => rfl
theorem liveAt8_1 : ∀ t : Fin cfg8.N, cfg8.idle 1 (grid8.coords t) = false := fun _ => rfl
theorem liveAt8_2 : ∀ t : Fin cfg8.N, cfg8.idle 2 (grid8.coords t) = false := fun _ => rfl
theorem liveAt8_3 : ∀ t : Fin cfg8.N, cfg8.idle 3 (grid8.coords t) = false := fun _ => rfl
theorem liveAt8_4 : ∀ t : Fin cfg8.N, cfg8.idle 4 (grid8.coords t) = false := fun _ => rfl

/-! ## The body obligation -/

/-- What the body is called with at point `t`, the windows one by one, -/
def bodyPre8 (c : Dev nD) (t : Fin cfg8.N) : sProp 𝕄 :=
  iprop((dat8 V c).Φ t.castSucc ∗ (dat8 V c).owesAt () t.castSucc
    ∗ (∃ d, owns (c : Thread nD τ) (ms8_0 t) fullShare ((dat8 V c).before 0 t d))
    ∗ (∃ d, owns (c : Thread nD τ) (ms8_1 t) fullShare ((dat8 V c).before 1 t d))
    ∗ (∃ d, owns (c : Thread nD τ) (ms8_2 t) fullShare ((dat8 V c).before 2 t d))
    ∗ (∃ d, owns (c : Thread nD τ) (ms8_3 t) fullShare ((dat8 V c).before 3 t d))
    ∗ (∃ d, owns (c : Thread nD τ) (ms8_4 t) fullShare ((dat8 V c).before 4 t d))
    ∗ (∃ d, owns (c : Thread nD τ) (ms8_5 t) fullShare ((dat8 V c).before 5 t d))
    ∗ (∃ d, owns (c : Thread nD τ) (ms8_6 t) fullShare ((dat8 V c).before 6 t d)))

/-- and what it returns. -/
def bodyPost8 (c : Dev nD) (t : Fin cfg8.N) : sProp 𝕄 :=
  iprop((dat8 V c).Φ t.succ ∗ (dat8 V c).owesAt () t.succ
    ∗ (dat8 V c).leavesExact 0 t
    ∗ (dat8 V c).leavesExact 1 t
    ∗ (dat8 V c).leavesExact 2 t
    ∗ (dat8 V c).leavesExact 3 t
    ∗ (dat8 V c).leavesExact 4 t
    ∗ (dat8 V c).leavesExact 5 t
    ∗ (dat8 V c).leavesExact 6 t)

set_option maxHeartbeats 4800000 in
/-- The body at a point of case A that is the first of the grid (the accumulator is found at anything). -/
theorem sound_body8_A0 (c : Dev nD) (t : Fin cfg8.N) (h0 : t.val % 4 = 0) (h1 : ¬t.val % 4 = 3) (hz : t.val = 0) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4]
  rw [show (dat8 V c).owesAt () t.succ = (dat8 V c).owesAt () t.castSucc from rfl]
  rw [show (dat8 V c).Φ t.succ = PhiS8 V c (t.val + 1) t.isLt from rfl, PhiS8_succ]
  rw [show (dat8 V c).leavesExact 0 t = owns (c : Thread nD τ) (ms8_0 t) fullShare ((dat8 V c).after 0 t) from by
    unfold Dat.leavesExact; rw [liveAt8_0 t], after8_0]
  rw [show (dat8 V c).leavesExact 1 t = owns (c : Thread nD τ) (ms8_1 t) fullShare ((dat8 V c).after 1 t) from by
    unfold Dat.leavesExact; rw [liveAt8_1 t], after8_1]
  rw [show (dat8 V c).leavesExact 2 t = owns (c : Thread nD τ) (ms8_2 t) fullShare ((dat8 V c).after 2 t) from by
    unfold Dat.leavesExact; rw [liveAt8_2 t], after8_2]
  rw [show (dat8 V c).leavesExact 3 t = owns (c : Thread nD τ) (ms8_3 t) fullShare ((dat8 V c).after 3 t) from by
    unfold Dat.leavesExact; rw [liveAt8_3 t], after8_3]
  rw [show (dat8 V c).leavesExact 4 t = owns (c : Thread nD τ) (ms8_4 t) fullShare ((dat8 V c).after 4 t) from by
    unfold Dat.leavesExact; rw [liveAt8_4 t], after8_4]
  rw [Dat.leavesExact_idle (dat8 V c) 5 t (idleAt8_5_A t ((hcond8_0 t).mpr h0) (fun h => h1 ((hcond8_1 t).mp h))) (noFlush8_5_A t ((hcond8_0 t).mpr h0) (fun h => h1 ((hcond8_1 t).mp h)))]
  rw [Dat.leavesExact_idle (dat8 V c) 6 t (idleAt8_6_A t ((hcond8_0 t).mpr h0) (fun h => h1 ((hcond8_1 t).mp h))) (noFlush8_6_A t ((hcond8_0 t).mpr h0) (fun h => h1 ((hcond8_1 t).mp h)))]
  rw [outsAt8_A V c t h0 h1]
  unfold sout8_A_0; (try dsimp only)
  rw [PhiS8_castSucc V c t, PhiS8_zero V c _ _ hz, PhiA8_eq]
  iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩⟩
  iapply ((kernelRun8_A c (grid8.coords t) _ _ _ _ _ _ _ _ _ _ _ _ _ _ _ _ ((hcond8_0 t).mpr h0) (fun h => h1 ((hcond8_1 t).mp h)) (iblk8 V c 0 t) (iblk8 V c 1 t) (iblk8 V c 2 t) (iblk8 V c 3 t) (iblk8 V c 4 t)).2.2.2 _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  iintro ⟨H0, H1, H2, H3, H4, H5, H6, ⟨%es0, HS0⟩⟩
  isplitl [HS0 Hr Hg]
  · isplitl [HS0 Hr]
    · isplitl [HS0]
      · unfold owns; iexists _; isplitr
        swap; · iexact HS0
        ipureintro; exact View.read_writes_of_cover _ _ _ _ _ (scover8_A_0 c _ _ _ _ _ _ _ _ _ _ _ _ _ _ _ _ _ _ _ _ _ _ _ _)
      iexact Hr
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexists _; iexact H5
  iexists _; iexact H6

set_option maxHeartbeats 4800000 in
/-- The body at a point of case A that is not the first of the grid (the accumulator is found at what the point before left; the reset overwrites it). -/
theorem sound_body8_A (c : Dev nD) (t : Fin cfg8.N) (h0 : t.val % 4 = 0) (h1 : ¬t.val % 4 = 3) (hz : t.val ≠ 0) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4]
  rw [show (dat8 V c).owesAt () t.succ = (dat8 V c).owesAt () t.castSucc from rfl]
  rw [show (dat8 V c).Φ t.succ = PhiS8 V c (t.val + 1) t.isLt from rfl, PhiS8_succ]
  rw [show (dat8 V c).leavesExact 0 t = owns (c : Thread nD τ) (ms8_0 t) fullShare ((dat8 V c).after 0 t) from by
    unfold Dat.leavesExact; rw [liveAt8_0 t], after8_0]
  rw [show (dat8 V c).leavesExact 1 t = owns (c : Thread nD τ) (ms8_1 t) fullShare ((dat8 V c).after 1 t) from by
    unfold Dat.leavesExact; rw [liveAt8_1 t], after8_1]
  rw [show (dat8 V c).leavesExact 2 t = owns (c : Thread nD τ) (ms8_2 t) fullShare ((dat8 V c).after 2 t) from by
    unfold Dat.leavesExact; rw [liveAt8_2 t], after8_2]
  rw [show (dat8 V c).leavesExact 3 t = owns (c : Thread nD τ) (ms8_3 t) fullShare ((dat8 V c).after 3 t) from by
    unfold Dat.leavesExact; rw [liveAt8_3 t], after8_3]
  rw [show (dat8 V c).leavesExact 4 t = owns (c : Thread nD τ) (ms8_4 t) fullShare ((dat8 V c).after 4 t) from by
    unfold Dat.leavesExact; rw [liveAt8_4 t], after8_4]
  rw [Dat.leavesExact_idle (dat8 V c) 5 t (idleAt8_5_A t ((hcond8_0 t).mpr h0) (fun h => h1 ((hcond8_1 t).mp h))) (noFlush8_5_A t ((hcond8_0 t).mpr h0) (fun h => h1 ((hcond8_1 t).mp h)))]
  rw [Dat.leavesExact_idle (dat8 V c) 6 t (idleAt8_6_A t ((hcond8_0 t).mpr h0) (fun h => h1 ((hcond8_1 t).mp h))) (noFlush8_6_A t ((hcond8_0 t).mpr h0) (fun h => h1 ((hcond8_1 t).mp h)))]
  rw [outsAt8_A V c t h0 h1]
  unfold sout8_A_0; (try dsimp only)
  rw [PhiS8_castSucc V c t, PhiS8_pos V c _ _ hz]
  iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩⟩
  iapply ((kernelRun8_A c (grid8.coords t) _ _ _ _ _ _ _ _ _ _ _ _ _ _ _ _ ((hcond8_0 t).mpr h0) (fun h => h1 ((hcond8_1 t).mp h)) (iblk8 V c 0 t) (iblk8 V c 1 t) (iblk8 V c 2 t) (iblk8 V c 3 t) (iblk8 V c 4 t)).2.2.2 _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexists _; iexact HS0
  iintro ⟨H0, H1, H2, H3, H4, H5, H6, ⟨%es0, HS0⟩⟩
  isplitl [HS0 Hr Hg]
  · isplitl [HS0 Hr]
    · isplitl [HS0]
      · unfold owns; iexists _; isplitr
        swap; · iexact HS0
        ipureintro; exact View.read_writes_of_cover _ _ _ _ _ (scover8_A_0 c _ _ _ _ _ _ _ _ _ _ _ _ _ _ _ _ _ _ _ _ _ _ _ _)
      iexact Hr
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexists _; iexact H5
  iexists _; iexact H6

set_option maxHeartbeats 4800000 in
/-- The body at a point of case B. -/
theorem sound_body8_B (c : Dev nD) (t : Fin cfg8.N) (h0 : ¬t.val % 4 = 0) (h1 : ¬t.val % 4 = 3) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4]
  rw [show (dat8 V c).owesAt () t.succ = (dat8 V c).owesAt () t.castSucc from rfl]
  rw [show (dat8 V c).Φ t.succ = PhiS8 V c (t.val + 1) t.isLt from rfl, PhiS8_succ]
  rw [show (dat8 V c).leavesExact 0 t = owns (c : Thread nD τ) (ms8_0 t) fullShare ((dat8 V c).after 0 t) from by
    unfold Dat.leavesExact; rw [liveAt8_0 t], after8_0]
  rw [show (dat8 V c).leavesExact 1 t = owns (c : Thread nD τ) (ms8_1 t) fullShare ((dat8 V c).after 1 t) from by
    unfold Dat.leavesExact; rw [liveAt8_1 t], after8_1]
  rw [show (dat8 V c).leavesExact 2 t = owns (c : Thread nD τ) (ms8_2 t) fullShare ((dat8 V c).after 2 t) from by
    unfold Dat.leavesExact; rw [liveAt8_2 t], after8_2]
  rw [show (dat8 V c).leavesExact 3 t = owns (c : Thread nD τ) (ms8_3 t) fullShare ((dat8 V c).after 3 t) from by
    unfold Dat.leavesExact; rw [liveAt8_3 t], after8_3]
  rw [show (dat8 V c).leavesExact 4 t = owns (c : Thread nD τ) (ms8_4 t) fullShare ((dat8 V c).after 4 t) from by
    unfold Dat.leavesExact; rw [liveAt8_4 t], after8_4]
  rw [Dat.leavesExact_idle (dat8 V c) 5 t (idleAt8_5_B t (fun h => h0 ((hcond8_0 t).mp h)) (fun h => h1 ((hcond8_1 t).mp h))) (noFlush8_5_B t (fun h => h0 ((hcond8_0 t).mp h)) (fun h => h1 ((hcond8_1 t).mp h)))]
  rw [Dat.leavesExact_idle (dat8 V c) 6 t (idleAt8_6_B t (fun h => h0 ((hcond8_0 t).mp h)) (fun h => h1 ((hcond8_1 t).mp h))) (noFlush8_6_B t (fun h => h0 ((hcond8_0 t).mp h)) (fun h => h1 ((hcond8_1 t).mp h)))]
  rw [outsAt8_B V c t h0 h1]
  unfold sout8_B_0; (try dsimp only)
  have hz : t.val ≠ 0 := fun e => h0 (by rw [e])
  rw [PhiS8_castSucc V c t, PhiS8_pos V c _ _ hz]
  iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩⟩
  iapply ((kernelRun8_B c (grid8.coords t) _ _ _ _ _ _ _ _ _ _ _ _ _ _ _ _ (fun h => h0 ((hcond8_0 t).mp h)) (fun h => h1 ((hcond8_1 t).mp h)) (iblk8 V c 0 t) (iblk8 V c 1 t) (iblk8 V c 2 t) (iblk8 V c 3 t) (iblk8 V c 4 t) _).2.2.2 _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  iintro ⟨H0, H1, H2, H3, H4, H5, H6, ⟨%es0, HS0⟩⟩
  isplitl [HS0 Hr Hg]
  · isplitl [HS0 Hr]
    · isplitl [HS0]
      · unfold owns; iexists _; isplitr
        swap; · iexact HS0
        ipureintro; exact View.read_writes_of_cover _ _ _ _ _ (scover8_B_0 c _ _ _ _ _ _ _ _ _ _ _ _ _ _ _ _ _ _ _ _ _ _ _ _ _)
      iexact Hr
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexists _; iexact H5
  iexists _; iexact H6

set_option maxHeartbeats 4800000 in
/-- The body at a point of case C. -/
theorem sound_body8_C (c : Dev nD) (t : Fin cfg8.N) (h0 : ¬t.val % 4 = 0) (h1 : t.val % 4 = 3) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4]
  rw [show (dat8 V c).owesAt () t.succ = (dat8 V c).owesAt () t.castSucc from rfl]
  rw [show (dat8 V c).Φ t.succ = PhiS8 V c (t.val + 1) t.isLt from rfl, PhiS8_succ]
  rw [show (dat8 V c).leavesExact 0 t = owns (c : Thread nD τ) (ms8_0 t) fullShare ((dat8 V c).after 0 t) from by
    unfold Dat.leavesExact; rw [liveAt8_0 t], after8_0]
  rw [show (dat8 V c).leavesExact 1 t = owns (c : Thread nD τ) (ms8_1 t) fullShare ((dat8 V c).after 1 t) from by
    unfold Dat.leavesExact; rw [liveAt8_1 t], after8_1]
  rw [show (dat8 V c).leavesExact 2 t = owns (c : Thread nD τ) (ms8_2 t) fullShare ((dat8 V c).after 2 t) from by
    unfold Dat.leavesExact; rw [liveAt8_2 t], after8_2]
  rw [show (dat8 V c).leavesExact 3 t = owns (c : Thread nD τ) (ms8_3 t) fullShare ((dat8 V c).after 3 t) from by
    unfold Dat.leavesExact; rw [liveAt8_3 t], after8_3]
  rw [show (dat8 V c).leavesExact 4 t = owns (c : Thread nD τ) (ms8_4 t) fullShare ((dat8 V c).after 4 t) from by
    unfold Dat.leavesExact; rw [liveAt8_4 t], after8_4]
  rw [show (dat8 V c).leavesExact 5 t = owns (c : Thread nD τ) (ms8_5 t) fullShare ((dat8 V c).after 5 t) from by
    unfold Dat.leavesExact; rw [liveAt8_5_C t (fun h => h0 ((hcond8_0 t).mp h)) ((hcond8_1 t).mpr h1)], after8_5]
  rw [show (dat8 V c).leavesExact 6 t = owns (c : Thread nD τ) (ms8_6 t) fullShare ((dat8 V c).after 6 t) from by
    unfold Dat.leavesExact; rw [liveAt8_6_C t (fun h => h0 ((hcond8_0 t).mp h)) ((hcond8_1 t).mpr h1)], after8_6]
  rw [outsAt8_C V c t h0 h1]
  unfold out8_C_5 out8_C_6 sout8_C_0; (try dsimp only)
  have hz : t.val ≠ 0 := fun e => h0 (by rw [e])
  rw [PhiS8_castSucc V c t, PhiS8_pos V c _ _ hz]
  iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩⟩
  iapply ((kernelRun8_C c (grid8.coords t) _ _ _ _ _ _ _ _ _ _ _ _ _ _ _ _ (fun h => h0 ((hcond8_0 t).mp h)) ((hcond8_1 t).mpr h1) (iblk8 V c 0 t) (iblk8 V c 1 t) (iblk8 V c 2 t) (iblk8 V c 3 t) (iblk8 V c 4 t) _).2.2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [HS0]; · iexact HS0
  iintro ⟨H0, H1, H2, H3, H4, ⟨%e5, H5⟩, ⟨%e6, H6⟩, ⟨%es0, HS0⟩⟩
  isplitl [HS0 Hr Hg]
  · isplitl [HS0 Hr]
    · isplitl [HS0]
      · unfold owns; iexists _; isplitr
        swap; · iexact HS0
        ipureintro; exact View.read_writes_of_cover _ _ _ _ _ (scover8_C_0 c _ _ _ _ _ _ _ _ _ _ _ _ _ _ _ _ _ _ _ _ _ _ _ _ _)
      iexact Hr
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_of_cover _ _ _ _ _ (cover8_C_5 c _ _ _ _ _ _ _ _ _ _ _ _ _ _ _ _ _ _ _ _ _ _ _ _ _)
  unfold owns; iexists _; isplitr
  swap; · iexact H6
  ipureintro; exact View.read_writes_of_cover _ _ _ _ _ (cover8_C_6 c _ _ _ _ _ _ _ _ _ _ _ _ _ _ _ _ _ _ _ _ _ _ _ _ _)

/-- The body at any point: the point is in exactly one of the three cases. -/
theorem sound_body8 (c : Dev nD) (t : Fin cfg8.N) :
    bodyPre8 V c t ⊢ wp frame (wpE (defs₀ (F := F)) Variants.none c none) Set.univ (bodyAt8 t) (fun _ => bodyPost8 V c t) := by
  by_cases h0 : t.val % 4 = 0
  · have h1 : ¬t.val % 4 = 3 := by omega
    by_cases hz : t.val = 0
    · exact sound_body8_A0 V c t h0 h1 hz
    · exact sound_body8_A V c t h0 h1 hz
  · by_cases h1 : t.val % 4 = 3
    · exact sound_body8_C V c t h0 h1
    · exact sound_body8_B V c t h0 h1

/-- The library's body obligation, at every point. -/
theorem body_obligation8 (c : Dev nD) : BodyObligation (dat8 (F := F) V c) (defs₀ (F := F)) Variants.none () Set.univ := fun t => by
  rw [bigSep_W8, bigSep_W8]
  exact sound_body8 V c t

/-- What the launch hands the call is the invariant before the first point. -/
theorem hin8 (c : Dev nD) : Pipeline.ΦA spec8 c ⊢ (dat8 V c).Φ 0 := by
  rw [show (dat8 V c).Φ 0 = PhiS8 V c 0 (Nat.zero_le _) from rfl, PhiS8_zero V c 0 _ rfl]
  try exact Idealize.SL.BI.Entails.refl _

/-- After any point but the first the invariant gives back what the launch handed over: the accumulator's contents
    are forgotten. -/
theorem Phi_out8 (c : Dev nD) (t : Fin (cfg8.N + 1)) (ht : t.val ≠ 0) : (dat8 V c).Φ t ⊢ Pipeline.ΦA spec8 c := by
  rw [show (dat8 V c).Φ t = PhiS8 V c t.val (Nat.le_of_lt_succ t.isLt) from rfl, PhiS8_pos V c _ _ ht, PhiA8_eq]
  iintro ⟨⟨HS0, Hr⟩, Hg⟩
  isplitl [HS0 Hr]
  · isplitl [HS0]
    · iexists _; iexact HS0
    iexact Hr
  iexact Hg

/-- The same after the last point. -/
theorem hout8 (c : Dev nD) : (dat8 V c).Φ (Fin.last cfg8.N) ⊢ Pipeline.ΦA spec8 c :=
  Phi_out8 V c _ (by rw [Fin.val_last]; have : cfg8.N = 32 := N_8; omega)

end Cert.Kernel.Hand

end
-- ==== Proof.K.Small0.lean ====
/-
  Region 0 of the layered program: one dense product per 2048-row tile. At a grid point the body reads the
  tile's rows of the activations, the whole weight and the one-entry scale, and writes two blocks: the product
  rounded to the narrow format, and the scale times the product. Nothing is carried between points, so what each
  output block holds after the body is one function of the three input blocks, and the invariant is the scoped
  rest with the generator register, untouched.
-/
import proofs.«131271_j4982162063661_2_alg».proof.Proof.Gen.Kernel.Launch
import proofs.«131271_j4982162063661_2_alg».proof.Proof.Gen.Kernel.Skeleton
import proofs.«131271_j4982162063661_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or not: unfetched, the block
    index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is of a whole buffer -/

abbrev rX0 : Rect S2048x512 := Rect.unit (s := S2048x512) ![0, 0] S2048x512.size inb_S2048x512_S2048x512_0_0
abbrev rW0 : Rect S512x128 := Rect.unit (s := S512x128) ![0, 0] S512x128.size inb_S512x128_S512x128_0_0
abbrev rH0 : Rect S1x1 := Rect.unit (s := S1x1) ![0, 0] S1x1.size inb_S1x1_S1x1_0_0
abbrev rO0 : Rect S2048x128 := Rect.unit (s := S2048x128) ![0, 0] S2048x128.size inb_S2048x128_S2048x128_0_0

/-! ## What the body leaves in each output block -/

/-- The narrow output block after the body: the rounded product of the activation tile and the weight. -/
def out0_3 (x0 : Vec F S2048x512 .f32) (x1 : Vec F S512x128 .f32) : Vec F S2048x128 .bf16 :=
  View.canon [⟨rO0, k0_pay2 (View.ld x0 rX0) (View.ld x1 rW0)⟩]
/-- The wide output block after the body: the scale times the product. -/
def out0_4 (x0 : Vec F S2048x512 .f32) (x1 : Vec F S512x128 .f32) (x2 : Vec F S1x1 .f32) : Vec F S2048x128 .f32 :=
  View.canon [⟨rO0, k0_pay3 (View.ld x0 rX0) (View.ld x1 rW0) (View.ld x2 rH0)⟩]

/-- One store of the whole block covers it. -/
theorem cover0_3 (p0 : Vec F S2048x128 .bf16) (y : S2048x128.Idx) :
    ∃ pc ∈ ([⟨rO0, p0⟩] : List (View.Piece (Elt F) S2048x128 .bf16)), y ∈ pc.1.set :=
  View.cover_of_tiled [⟨rO0, p0⟩] S2048x128.size (by rfl) y
theorem cover0_4 (p0 : Vec F S2048x128 .f32) (y : S2048x128.Idx) :
    ∃ pc ∈ ([⟨rO0, p0⟩] : List (View.Piece (Elt F) S2048x128 .f32)), y ∈ pc.1.set :=
  View.cover_of_tiled [⟨rO0, p0⟩] S2048x128.size (by rfl) y

/-! ## The body's triple -/

set_option maxHeartbeats 4000000 in
/-- The body on whole staging buffers — the inputs' at known contents, the outputs' at anything — runs to the end,
    leaves the inputs as they were and each output at its function of the inputs. -/
theorem sound_kernel0 (c : Dev nD) (E : Set ℕ) (i : grid0.Coords)
    (arg1 : Memref sig .tc .vmem S2048x512 .f32) (harg1 : arg1.IsWhole) (arg2 : Memref sig .tc .vmem S512x128 .f32) (harg2 : arg2.IsWhole)
    (arg3 : Memref sig .tc .vmem S1x1 .f32) (harg3 : arg3.IsWhole) (arg4 : Memref sig .tc .vmem S2048x128 .bf16) (harg4 : arg4.IsWhole)
    (arg5 : Memref sig .tc .vmem S2048x128 .f32) (harg5 : arg5.IsWhole)
    (x0 : Vec F S2048x512 .f32) (x1 : Vec F S512x128 .f32) (x2 : Vec F S1x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1) ∗ owns (c : Thread nD τ) arg5 fullShare (out0_4 x0 x1 x2)) -∗ K ⟨⟩))
      ⊢ wp frame (wpE (defs₀ (F := F)) Variants.none c none) E (cc0__small_matmul_kernel i arg1 harg1 arg2 harg2 arg3 harg3 arg4 harg4 arg5 harg5) K := by
  simp only [cc0__small_matmul_kernel_eq_skeleton]; unfold cc0__small_matmul_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_3 _)
  iexists _; isplitr
  swap; · iexact H4
  ipureintro
  exact View.read_writes_eq_canon _ _ _ (cover0_4 _)

/-! ## The proof data -/

/-- The arrays as the region finds them; after the body each input's buffer at its block, each output's at its
    function of the input blocks; the invariant the scoped rest and the generator register; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t)
    | ⟨4, _⟩ => out0_4 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ (grid0.coords t) _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := .rfl
theorem hout0 (c : Dev nD) : (dat0 V c).Φ (Fin.last cfg0.N) ⊢ Pipeline.ΦA spec0 c := .rfl

end Cert.Kernel.Hand

end
-- ==== Proof.K.Small3.lean ====
/-
  Region 3 of the layered program: one dense product per 2048-row tile. At a grid point the body reads the
  tile's rows of the activations, the whole weight and the one-entry scale, and writes two blocks: the product
  rounded to the narrow format, and the scale times the product. Nothing is carried between points, so what each
  output block holds after the body is one function of the three input blocks, and the invariant is the scoped
  rest with the generator register, untouched.
-/
import proofs.«131271_j4982162063661_2_alg».proof.Proof.Gen.Kernel.Launch
import proofs.«131271_j4982162063661_2_alg».proof.Proof.Gen.Kernel.Skeleton
import proofs.«131271_j4982162063661_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's staging buffer holds its block at every point, fetched there or not: unfetched, the block
    index has not moved. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: every load and store is of a whole buffer -/

abbrev rX3 : Rect S2048x128 := Rect.unit (s := S2048x128) ![0, 0] S2048x128.size inb_S2048x128_S2048x128_0_0
abbrev rW3 : Rect S128x128 := Rect.unit (s := S128x128) ![0, 0] S128x128.size inb_S128x128_S128x128_0_0
abbrev rH3 : Rect S1x1 := Rect.unit (s := S1x1) ![0, 0] S1x1.size inb_S1x1_S1x1_0_0
abbrev rO3 : Rect S2048x128 := Rect.unit (s := S2048x128) ![0, 0] S2048x128.size inb_S2048x128_S2048x128_0_0

/-! ## What the body leaves in each output block -/

/-- The narrow output block after the body: the rounded product of the activation tile and the weight. -/
def out3_3 (x0 : Vec F S2048x128 .f32) (x1 : Vec F S128x128 .f32) : Vec F S2048x128 .bf16 :=
  View.canon [⟨rO3, k3_pay2 (View.ld x0 rX3) (View.ld x1 rW3)⟩]
/-- The wide output block after the body: the scale times the product. -/
def out3_4 (x0 : Vec F S2048x128 .f32) (x1 : Vec F S128x128 .f32) (x2 : Vec F S1x1 .f32) : Vec F S2048x128 .f32 :=
  View.canon [⟨rO3, k3_pay3 (View.ld x0 rX3) (View.ld x1 rW3) (View.ld x2 rH3)⟩]

/-- One store of the whole block covers it. -/
theorem cover3_3 (p0 : Vec F S2048x128 .bf16) (y : S2048x128.Idx) :
    ∃ pc ∈ ([⟨rO3, p0⟩] : List (View.Piece (Elt F) S2048x128 .bf16)), y ∈ pc.1.set :=
  View.cover_of_tiled [⟨rO3, p0⟩] S2048x128.size (by rfl) y
theorem cover3_4 (p0 : Vec F S2048x128 .f32) (y : S2048x128.Idx) :
    ∃ pc ∈ ([⟨rO3, p0⟩] : List (View.Piece (Elt F) S2048x128 .f32)), y ∈ pc.1.set :=
  View.cover_of_tiled [⟨rO3, p0⟩] S2048x128.size (by rfl) y

/-! ## The body's triple -/

set_option maxHeartbeats 4000000 in
/-- The body on whole staging buffers — the inputs' at known contents, the outputs' at anything — runs to the end,
    leaves the inputs as they were and each output at its function of the inputs. -/
theorem sound_kernel3 (c : Dev nD) (E : Set ℕ) (i : grid3.Coords)
    (arg1 : Memref sig .tc .vmem S2048x128 .f32) (harg1 : arg1.IsWhole) (arg2 : Memref sig .tc .vmem S128x128 .f32) (harg2 : arg2.IsWhole)
    (arg3 : Memref sig .tc .vmem S1x1 .f32) (harg3 : arg3.IsWhole) (arg4 : Memref sig .tc .vmem S2048x128 .bf16) (harg4 : arg4.IsWhole)
    (arg5 : Memref sig .tc .vmem S2048x128 .f32) (harg5 : arg5.IsWhole)
    (x0 : Vec F S2048x128 .f32) (x1 : Vec F S128x128 .f32) (x2 : Vec F S1x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3_3 x0 x1) ∗ owns (c : Thread nD τ) arg5 fullShare (out3_4 x0 x1 x2)) -∗ K ⟨⟩))
      ⊢ wp frame (wpE (defs₀ (F := F)) Variants.none c none) E (cc3__small_matmul_kernel i arg1 harg1 arg2 harg2 arg3 harg3 arg4 harg4 arg5 harg5) K := by
  simp only [cc3__small_matmul_kernel_eq_skeleton]; unfold cc3__small_matmul_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover3_3 _)
  iexists _; isplitr
  swap; · iexact H4
  ipureintro
  exact View.read_writes_eq_canon _ _ _ (cover3_4 _)

/-! ## The proof data -/

/-- The arrays as the region finds them; after the body each input's buffer at its block, each output's at its
    function of the input blocks; the invariant the scoped rest and the generator register; nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t)
    | ⟨4, _⟩ => out3_4 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 (iblk3 V c 0 t) (iblk3 V c 1 t) := by dsimp only [dat3]
theorem after3_4 (c : Dev nD) (t : Fin cfg3.N) : (dat3 V c).after 4 t = out3_4 (iblk3 V c 0 t) (iblk3 V c 1 t) (iblk3 V c 2 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ (grid3.coords t) _ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation3 (c : Dev nD) : BodyObligation (dat3 (F := F) V c) (defs₀ (F := F)) Variants.none () Set.univ := fun t => by
  rw [bigSep_W3, bigSep_W3]
  exact sound_body3 V c t

theorem hin3 (c : Dev nD) : Pipeline.ΦA spec3 c ⊢ (dat3 V c).Φ 0 := .rfl
theorem hout3 (c : Dev nD) : (dat3 V c).Φ (Fin.last cfg3.N) ⊢ Pipeline.ΦA spec3 c := .rfl

end Cert.Kernel.Hand

end
-- ==== Proof.K.Small6.lean ====
/-
  Region 6 of the layered program: one dense product per 2048-row tile. At a grid point the body reads the
  tile's rows of the activations, the whole weight and the one-entry scale, and writes two blocks: the product
  rounded to the narrow format, and the scale times the product. Nothing is carried between points, so what each
  output block holds after the body is one function of the three input blocks, and the invariant is the scoped
  rest with the generator register, untouched.
-/
import proofs.«131271_j4982162063661_2_alg».proof.Proof.Gen.Kernel.Launch
import proofs.«131271_j4982162063661_2_alg».proof.Proof.Gen.Kernel.Skeleton
import proofs.«131271_j4982162063661_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- An input window's staging buffer holds its block at every point, fetched there or not: unfetched, the block
    index has not moved. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses: every load and store is of a whole buffer -/

abbrev rX6 : Rect S2048x128 := Rect.unit (s := S2048x128) ![0, 0] S2048x128.size inb_S2048x128_S2048x128_0_0
abbrev rW6 : Rect S128x64 := Rect.unit (s := S128x64) ![0, 0] S128x64.size inb_S128x64_S128x64_0_0
abbrev rH6 : Rect S1x1 := Rect.unit (s := S1x1) ![0, 0] S1x1.size inb_S1x1_S1x1_0_0
abbrev rO6 : Rect S2048x64 := Rect.unit (s := S2048x64) ![0, 0] S2048x64.size inb_S2048x64_S2048x64_0_0

/-! ## What the body leaves in each output block -/

/-- The narrow output block after the body: the rounded product of the activation tile and the weight. -/
def out6_3 (x0 : Vec F S2048x128 .f32) (x1 : Vec F S128x64 .f32) : Vec F S2048x64 .bf16 :=
  View.canon [⟨rO6, k6_pay2 (View.ld x0 rX6) (View.ld x1 rW6)⟩]
/-- The wide output block after the body: the scale times the product. -/
def out6_4 (x0 : Vec F S2048x128 .f32) (x1 : Vec F S128x64 .f32) (x2 : Vec F S1x1 .f32) : Vec F S2048x64 .f32 :=
  View.canon [⟨rO6, k6_pay3 (View.ld x0 rX6) (View.ld x1 rW6) (View.ld x2 rH6)⟩]

/-- One store of the whole block covers it. -/
theorem cover6_3 (p0 : Vec F S2048x64 .bf16) (y : S2048x64.Idx) :
    ∃ pc ∈ ([⟨rO6, p0⟩] : List (View.Piece (Elt F) S2048x64 .bf16)), y ∈ pc.1.set :=
  View.cover_of_tiled [⟨rO6, p0⟩] S2048x64.size (by rfl) y
theorem cover6_4 (p0 : Vec F S2048x64 .f32) (y : S2048x64.Idx) :
    ∃ pc ∈ ([⟨rO6, p0⟩] : List (View.Piece (Elt F) S2048x64 .f32)), y ∈ pc.1.set :=
  View.cover_of_tiled [⟨rO6, p0⟩] S2048x64.size (by rfl) y

/-! ## The body's triple -/

set_option maxHeartbeats 4000000 in
/-- The body on whole staging buffers — the inputs' at known contents, the outputs' at anything — runs to the end,
    leaves the inputs as they were and each output at its function of the inputs. -/
theorem sound_kernel6 (c : Dev nD) (E : Set ℕ) (i : grid6.Coords)
    (arg1 : Memref sig .tc .vmem S2048x128 .f32) (harg1 : arg1.IsWhole) (arg2 : Memref sig .tc .vmem S128x64 .f32) (harg2 : arg2.IsWhole)
    (arg3 : Memref sig .tc .vmem S1x1 .f32) (harg3 : arg3.IsWhole) (arg4 : Memref sig .tc .vmem S2048x64 .bf16) (harg4 : arg4.IsWhole)
    (arg5 : Memref sig .tc .vmem S2048x64 .f32) (harg5 : arg5.IsWhole)
    (x0 : Vec F S2048x128 .f32) (x1 : Vec F S128x64 .f32) (x2 : Vec F S1x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out6_3 x0 x1) ∗ owns (c : Thread nD τ) arg5 fullShare (out6_4 x0 x1 x2)) -∗ K ⟨⟩))
      ⊢ wp frame (wpE (defs₀ (F := F)) Variants.none c none) E (cc6__small_matmul_kernel i arg1 harg1 arg2 harg2 arg3 harg3 arg4 harg4 arg5 harg5) K := by
  simp only [cc6__small_matmul_kernel_eq_skeleton]; unfold cc6__small_matmul_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover6_3 _)
  iexists _; isplitr
  swap; · iexact H4
  ipureintro
  exact View.read_writes_eq_canon _ _ _ (cover6_4 _)

/-! ## The proof data -/

/-- The arrays as the region finds them; after the body each input's buffer at its block, each output's at its
    function of the input blocks; the invariant the scoped rest and the generator register; nothing owed. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (iblk6 V c 0 t) (iblk6 V c 1 t)
    | ⟨4, _⟩ => out6_4 (iblk6 V c 0 t) (iblk6 V c 1 t) (iblk6 V c 2 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = out6_3 (iblk6 V c 0 t) (iblk6 V c 1 t) := by dsimp only [dat6]
theorem after6_4 (c : Dev nD) (t : Fin cfg6.N) : (dat6 V c).after 4 t = out6_4 (iblk6 V c 0 t) (iblk6 V c 1 t) (iblk6 V c 2 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

/-! ## The body obligation, at a generic point -/

def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d)))

def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t))

theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).Φ t.succ = (dat6 V c).Φ t.castSucc from rfl,
    show (dat6 V c).owesAt () t.succ = (dat6 V c).owesAt () t.castSucc from rfl,
    after6_0, after6_1, after6_2, after6_3, after6_4]
  iintro ⟨HΦ, Ho, ⟨%d0, H0⟩, ⟨%d1, H1⟩, ⟨%d2, H2⟩, ⟨%d3, H3⟩, ⟨%d4, H4⟩⟩
  iapply (sound_kernel6 c Set.univ (grid6.coords t) _ _ _ _ _ _ _ _ _ _ (iblk6 V c 0 t) (iblk6 V c 1 t) (iblk6 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation6 (c : Dev nD) : BodyObligation (dat6 (F := F) V c) (defs₀ (F := F)) Variants.none () Set.univ := fun t => by
  rw [bigSep_W6, bigSep_W6]
  exact sound_body6 V c t

theorem hin6 (c : Dev nD) : Pipeline.ΦA spec6 c ⊢ (dat6 V c).Φ 0 := .rfl
theorem hout6 (c : Dev nD) : (dat6 V c).Φ (Fin.last cfg6.N) ⊢ Pipeline.ΦA spec6 c := .rfl

end Cert.Kernel.Hand

end
-- ==== Proof.K.Run.lean ====
/-
  The whole program as twelve items in order — three stretches of host operations (each layer's slices of its
  three scales and the reshape of its bias into a row) and nine kernel regions — and what the buffers hold
  between items: the launch contents, then after a host stretch its operations applied, after a region its
  windows' arrays at what the write-backs leave and every other buffer as it was. Every region is entered
  from "all unscoped buffers at the boundary's contents, the generator register at some state, nothing owed"
  and left in the same form, so the items chain. The run reads the result and the arguments off the last
  boundary: the result is region 8's wide output array, each argument walks back to the launch memory.
-/
import proofs.«131271_j4982162063661_2_alg».proof.Proof.K.Cast1
import proofs.«131271_j4982162063661_2_alg».proof.Proof.K.Prop2
import proofs.«131271_j4982162063661_2_alg».proof.Proof.K.Prop4
import proofs.«131271_j4982162063661_2_alg».proof.Proof.K.Prop5
import proofs.«131271_j4982162063661_2_alg».proof.Proof.K.Prop7
import proofs.«131271_j4982162063661_2_alg».proof.Proof.K.Prop8
import proofs.«131271_j4982162063661_2_alg».proof.Proof.Gen.Kernel.Regions
import proofs.«131271_j4982162063661_2_alg».proof.Proof.K.Small0
import proofs.«131271_j4982162063661_2_alg».proof.Proof.K.Small3
import proofs.«131271_j4982162063661_2_alg».proof.Proof.K.Small6

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

/-- Core `c`'s buffers at launch. -/
abbrev B0 : Dev nD → Valuation τ sig (Elt F) := fun c b => m ((c : Dev nD), b)
abbrev E0 : (c : Dev nD) → (b : Ref sig .tc) → Buf (Elt F) ((c : Thread nD τ).loc b) := fun c b => B0 m c b

/-- After the host stretch `hostOps0`. -/
abbrev B1 : Dev nD → Valuation τ sig (Elt F) := fun c => StableHlo.after hostOps0 (B0 m c)
abbrev E1 : (c : Dev nD) → (b : Ref sig .tc) → Buf (Elt F) ((c : Thread nD τ).loc b) := fun c b => B1 m c b
theorem B1_of (c : Dev nD) (r : Ref sig .tc) (h : r ∉ hostOps0_W) : B1 m c r = B0 m c r :=
  StableHlo.after_of_writes_sub hostOps0 _ hostOps0_writes h

/-- After region 0: its windows' arrays at what the write-backs leave, every other buffer as entered. -/
def B2 (c : Dev nD) : Valuation τ sig (Elt F) :=
  Pipeline.withArrays spec0 c (B1 m c) fun w => (dat0 (E1 m) c).arrAt w cfg0.N
theorem B2_arr (c : Dev nD) (w : Fin cfg0.W) :
    B2 m c (Proc.devRef .tc (Pipeline.arrRef spec0 w)) = (dat0 (E1 m) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m c (Proc.devRef .tc b) = B1 m c (Proc.devRef .tc b) := by
  unfold B2; exact Pipeline.withArrays_of_ne spec0 c _ _ b hb
abbrev E2 : (c : Dev nD) → (b : Ref sig .tc) → Buf (Elt F) ((c : Thread nD τ).loc b) := fun c b => B2 m c b
theorem hF0 (c : Dev nD) (w : Fin cfg0.W) : (dat0 (E1 m) c).arrAt w cfg0.N = E2 m c (Pipeline.arrRef spec0 w) :=
  (B2_arr m c w).symm
theorem hrest0 (c : Dev nD) : ∀ b, b ∉ Finset.univ.image (Pipeline.arrRef spec0) → E2 m c b = E1 m c b :=
  fun b hb => B2_of_ne m c b fun w e => hb (Finset.mem_image.mpr ⟨w, Finset.mem_univ _, e⟩)

/-- After region 1: its windows' arrays at what the write-backs leave, every other buffer as entered. -/
def B3 (c : Dev nD) : Valuation τ sig (Elt F) :=
  Pipeline.withArrays spec1 c (B2 m c) fun w => (dat1 (E2 m) c).arrAt w cfg1.N
theorem B3_arr (c : Dev nD) (w : Fin cfg1.W) :
    B3 m c (Proc.devRef .tc (Pipeline.arrRef spec1 w)) = (dat1 (E2 m) c).arrAt w cfg1.N := by
  unfold B3; exact Pipeline.withArrays_arr spec1 launch1.win.arr_inj c _ _ w
theorem B3_of_ne (c : Dev nD) (b : Ref sig .tc) (hb : ∀ w, Pipeline.arrRef spec1 w ≠ b) :
    B3 m c (Proc.devRef .tc b) = B2 m c (Proc.devRef .tc b) := by
  unfold B3; exact Pipeline.withArrays_of_ne spec1 c _ _ b hb
abbrev E3 : (c : Dev nD) → (b : Ref sig .tc) → Buf (Elt F) ((c : Thread nD τ).loc b) := fun c b => B3 m c b
theorem hF1 (c : Dev nD) (w : Fin cfg1.W) : (dat1 (E2 m) c).arrAt w cfg1.N = E3 m c (Pipeline.arrRef spec1 w) :=
  (B3_arr m c w).symm
theorem hrest1 (c : Dev nD) : ∀ b, b ∉ Finset.univ.image (Pipeline.arrRef spec1) → E3 m c b = E2 m c b :=
  fun b hb => B3_of_ne m c b fun w e => hb (Finset.mem_image.mpr ⟨w, Finset.mem_univ _, e⟩)

/-- After region 2: its windows' arrays at what the write-backs leave, every other buffer as entered. -/
def B4 (c : Dev nD) : Valuation τ sig (Elt F) :=
  Pipeline.withArrays spec2 c (B3 m c) fun w => (dat2 (E3 m) c).arrAt w cfg2.N
theorem B4_arr (c : Dev nD) (w : Fin cfg2.W) :
    B4 m c (Proc.devRef .tc (Pipeline.arrRef spec2 w)) = (dat2 (E3 m) c).arrAt w cfg2.N := by
  unfold B4; exact Pipeline.withArrays_arr spec2 launch2.win.arr_inj c _ _ w
theorem B4_of_ne (c : Dev nD) (b : Ref sig .tc) (hb : ∀ w, Pipeline.arrRef spec2 w ≠ b) :
    B4 m c (Proc.devRef .tc b) = B3 m c (Proc.devRef .tc b) := by
  unfold B4; exact Pipeline.withArrays_of_ne spec2 c _ _ b hb
abbrev E4 : (c : Dev nD) → (b : Ref sig .tc) → Buf (Elt F) ((c : Thread nD τ).loc b) := fun c b => B4 m c b
theorem hF2 (c : Dev nD) (w : Fin cfg2.W) : (dat2 (E3 m) c).arrAt w cfg2.N = E4 m c (Pipeline.arrRef spec2 w) :=
  (B4_arr m c w).symm
theorem hrest2 (c : Dev nD) : ∀ b, b ∉ Finset.univ.image (Pipeline.arrRef spec2) → E4 m c b = E3 m c b :=
  fun b hb => B4_of_ne m c b fun w e => hb (Finset.mem_image.mpr ⟨w, Finset.mem_univ _, e⟩)

/-- After the host stretch `hostOps3`. -/
abbrev B5 : Dev nD → Valuation τ sig (Elt F) := fun c => StableHlo.after hostOps3 (B4 m c)
abbrev E5 : (c : Dev nD) → (b : Ref sig .tc) → Buf (Elt F) ((c : Thread nD τ).loc b) := fun c b => B5 m c b
theorem B5_of (c : Dev nD) (r : Ref sig .tc) (h : r ∉ hostOps3_W) : B5 m c r = B4 m c r :=
  StableHlo.after_of_writes_sub hostOps3 _ hostOps3_writes h

/-- After region 3: its windows' arrays at what the write-backs leave, every other buffer as entered. -/
def B6 (c : Dev nD) : Valuation τ sig (Elt F) :=
  Pipeline.withArrays spec3 c (B5 m c) fun w => (dat3 (E5 m) c).arrAt w cfg3.N
theorem B6_arr (c : Dev nD) (w : Fin cfg3.W) :
    B6 m c (Proc.devRef .tc (Pipeline.arrRef spec3 w)) = (dat3 (E5 m) c).arrAt w cfg3.N := by
  unfold B6; exact Pipeline.withArrays_arr spec3 launch3.win.arr_inj c _ _ w
theorem B6_of_ne (c : Dev nD) (b : Ref sig .tc) (hb : ∀ w, Pipeline.arrRef spec3 w ≠ b) :
    B6 m c (Proc.devRef .tc b) = B5 m c (Proc.devRef .tc b) := by
  unfold B6; exact Pipeline.withArrays_of_ne spec3 c _ _ b hb
abbrev E6 : (c : Dev nD) → (b : Ref sig .tc) → Buf (Elt F) ((c : Thread nD τ).loc b) := fun c b => B6 m c b
theorem hF3 (c : Dev nD) (w : Fin cfg3.W) : (dat3 (E5 m) c).arrAt w cfg3.N = E6 m c (Pipeline.arrRef spec3 w) :=
  (B6_arr m c w).symm
theorem hrest3 (c : Dev nD) : ∀ b, b ∉ Finset.univ.image (Pipeline.arrRef spec3) → E6 m c b = E5 m c b :=
  fun b hb => B6_of_ne m c b fun w e => hb (Finset.mem_image.mpr ⟨w, Finset.mem_univ _, e⟩)

/-- After region 4: its windows' arrays at what the write-backs leave, every other buffer as entered. -/
def B7 (c : Dev nD) : Valuation τ sig (Elt F) :=
  Pipeline.withArrays spec4 c (B6 m c) fun w => (dat4 (E6 m) c).arrAt w cfg4.N
theorem B7_arr (c : Dev nD) (w : Fin cfg4.W) :
    B7 m c (Proc.devRef .tc (Pipeline.arrRef spec4 w)) = (dat4 (E6 m) c).arrAt w cfg4.N := by
  unfold B7; exact Pipeline.withArrays_arr spec4 launch4.win.arr_inj c _ _ w
theorem B7_of_ne (c : Dev nD) (b : Ref sig .tc) (hb : ∀ w, Pipeline.arrRef spec4 w ≠ b) :
    B7 m c (Proc.devRef .tc b) = B6 m c (Proc.devRef .tc b) := by
  unfold B7; exact Pipeline.withArrays_of_ne spec4 c _ _ b hb
abbrev E7 : (c : Dev nD) → (b : Ref sig .tc) → Buf (Elt F) ((c : Thread nD τ).loc b) := fun c b => B7 m c b
theorem hF4 (c : Dev nD) (w : Fin cfg4.W) : (dat4 (E6 m) c).arrAt w cfg4.N = E7 m c (Pipeline.arrRef spec4 w) :=
  (B7_arr m c w).symm
theorem hrest4 (c : Dev nD) : ∀ b, b ∉ Finset.univ.image (Pipeline.arrRef spec4) → E7 m c b = E6 m c b :=
  fun b hb => B7_of_ne m c b fun w e => hb (Finset.mem_image.mpr ⟨w, Finset.mem_univ _, e⟩)

/-- After region 5: its windows' arrays at what the write-backs leave, every other buffer as entered. -/
def B8 (c : Dev nD) : Valuation τ sig (Elt F) :=
  Pipeline.withArrays spec5 c (B7 m c) fun w => (dat5 (E7 m) c).arrAt w cfg5.N
theorem B8_arr (c : Dev nD) (w : Fin cfg5.W) :
    B8 m c (Proc.devRef .tc (Pipeline.arrRef spec5 w)) = (dat5 (E7 m) c).arrAt w cfg5.N := by
  unfold B8; exact Pipeline.withArrays_arr spec5 launch5.win.arr_inj c _ _ w
theorem B8_of_ne (c : Dev nD) (b : Ref sig .tc) (hb : ∀ w, Pipeline.arrRef spec5 w ≠ b) :
    B8 m c (Proc.devRef .tc b) = B7 m c (Proc.devRef .tc b) := by
  unfold B8; exact Pipeline.withArrays_of_ne spec5 c _ _ b hb
abbrev E8 : (c : Dev nD) → (b : Ref sig .tc) → Buf (Elt F) ((c : Thread nD τ).loc b) := fun c b => B8 m c b
theorem hF5 (c : Dev nD) (w : Fin cfg5.W) : (dat5 (E7 m) c).arrAt w cfg5.N = E8 m c (Pipeline.arrRef spec5 w) :=
  (B8_arr m c w).symm
theorem hrest5 (c : Dev nD) : ∀ b, b ∉ Finset.univ.image (Pipeline.arrRef spec5) → E8 m c b = E7 m c b :=
  fun b hb => B8_of_ne m c b fun w e => hb (Finset.mem_image.mpr ⟨w, Finset.mem_univ _, e⟩)

/-- After the host stretch `hostOps6`. -/
abbrev B9 : Dev nD → Valuation τ sig (Elt F) := fun c => StableHlo.after hostOps6 (B8 m c)
abbrev E9 : (c : Dev nD) → (b : Ref sig .tc) → Buf (Elt F) ((c : Thread nD τ).loc b) := fun c b => B9 m c b
theorem B9_of (c : Dev nD) (r : Ref sig .tc) (h : r ∉ hostOps6_W) : B9 m c r = B8 m c r :=
  StableHlo.after_of_writes_sub hostOps6 _ hostOps6_writes h

/-- After region 6: its windows' arrays at what the write-backs leave, every other buffer as entered. -/
def B10 (c : Dev nD) : Valuation τ sig (Elt F) :=
  Pipeline.withArrays spec6 c (B9 m c) fun w => (dat6 (E9 m) c).arrAt w cfg6.N
theorem B10_arr (c : Dev nD) (w : Fin cfg6.W) :
    B10 m c (Proc.devRef .tc (Pipeline.arrRef spec6 w)) = (dat6 (E9 m) c).arrAt w cfg6.N := by
  unfold B10; exact Pipeline.withArrays_arr spec6 launch6.win.arr_inj c _ _ w
theorem B10_of_ne (c : Dev nD) (b : Ref sig .tc) (hb : ∀ w, Pipeline.arrRef spec6 w ≠ b) :
    B10 m c (Proc.devRef .tc b) = B9 m c (Proc.devRef .tc b) := by
  unfold B10; exact Pipeline.withArrays_of_ne spec6 c _ _ b hb
abbrev E10 : (c : Dev nD) → (b : Ref sig .tc) → Buf (Elt F) ((c : Thread nD τ).loc b) := fun c b => B10 m c b
theorem hF6 (c : Dev nD) (w : Fin cfg6.W) : (dat6 (E9 m) c).arrAt w cfg6.N = E10 m c (Pipeline.arrRef spec6 w) :=
  (B10_arr m c w).symm
theorem hrest6 (c : Dev nD) : ∀ b, b ∉ Finset.univ.image (Pipeline.arrRef spec6) → E10 m c b = E9 m c b :=
  fun b hb => B10_of_ne m c b fun w e => hb (Finset.mem_image.mpr ⟨w, Finset.mem_univ _, e⟩)

/-- After region 7: its windows' arrays at what the write-backs leave, every other buffer as entered. -/
def B11 (c : Dev nD) : Valuation τ sig (Elt F) :=
  Pipeline.withArrays spec7 c (B10 m c) fun w => (dat7 (E10 m) c).arrAt w cfg7.N
theorem B11_arr (c : Dev nD) (w : Fin cfg7.W) :
    B11 m c (Proc.devRef .tc (Pipeline.arrRef spec7 w)) = (dat7 (E10 m) c).arrAt w cfg7.N := by
  unfold B11; exact Pipeline.withArrays_arr spec7 launch7.win.arr_inj c _ _ w
theorem B11_of_ne (c : Dev nD) (b : Ref sig .tc) (hb : ∀ w, Pipeline.arrRef spec7 w ≠ b) :
    B11 m c (Proc.devRef .tc b) = B10 m c (Proc.devRef .tc b) := by
  unfold B11; exact Pipeline.withArrays_of_ne spec7 c _ _ b hb
abbrev E11 : (c : Dev nD) → (b : Ref sig .tc) → Buf (Elt F) ((c : Thread nD τ).loc b) := fun c b => B11 m c b
theorem hF7 (c : Dev nD) (w : Fin cfg7.W) : (dat7 (E10 m) c).arrAt w cfg7.N = E11 m c (Pipeline.arrRef spec7 w) :=
  (B11_arr m c w).symm
theorem hrest7 (c : Dev nD) : ∀ b, b ∉ Finset.univ.image (Pipeline.arrRef spec7) → E11 m c b = E10 m c b :=
  fun b hb => B11_of_ne m c b fun w e => hb (Finset.mem_image.mpr ⟨w, Finset.mem_univ _, e⟩)

/-- After region 8: its windows' arrays at what the write-backs leave, every other buffer as entered. -/
def B12 (c : Dev nD) : Valuation τ sig (Elt F) :=
  Pipeline.withArrays spec8 c (B11 m c) fun w => (dat8 (E11 m) c).arrAt w cfg8.N
theorem B12_arr (c : Dev nD) (w : Fin cfg8.W) :
    B12 m c (Proc.devRef .tc (Pipeline.arrRef spec8 w)) = (dat8 (E11 m) c).arrAt w cfg8.N := by
  unfold B12; exact Pipeline.withArrays_arr spec8 launch8.win.arr_inj c _ _ w
theorem B12_of_ne (c : Dev nD) (b : Ref sig .tc) (hb : ∀ w, Pipeline.arrRef spec8 w ≠ b) :
    B12 m c (Proc.devRef .tc b) = B11 m c (Proc.devRef .tc b) := by
  unfold B12; exact Pipeline.withArrays_of_ne spec8 c _ _ b hb
abbrev E12 : (c : Dev nD) → (b : Ref sig .tc) → Buf (Elt F) ((c : Thread nD τ).loc b) := fun c b => B12 m c b
theorem hF8 (c : Dev nD) (w : Fin cfg8.W) : (dat8 (E11 m) c).arrAt w cfg8.N = E12 m c (Pipeline.arrRef spec8 w) :=
  (B12_arr m c w).symm
theorem hrest8 (c : Dev nD) : ∀ b, b ∉ Finset.univ.image (Pipeline.arrRef spec8) → E12 m c b = E11 m c b :=
  fun b hb => B12_of_ne m c b fun w e => hb (Finset.mem_image.mpr ⟨w, Finset.mem_univ _, e⟩)

/-! ## Every argument ends as launched: no host operation writes one, and a region either reads it through an
    input window (whose array the write-backs leave as entered) or does not touch it -/

theorem B12_main_arg0 (c : Dev nD) : B12 m c (Proc.devRef .tc main_arg0) = m ((c : Thread nD τ).loc main_arg0) :=
  calc B12 m c (Proc.devRef .tc main_arg0)
    _ = B11 m c (Proc.devRef .tc main_arg0) := B12_of_ne m c main_arg0 (by decide)
    _ = B10 m c (Proc.devRef .tc main_arg0) := B11_of_ne m c main_arg0 (by decide)
    _ = B9 m c (Proc.devRef .tc main_arg0) := B10_of_ne m c main_arg0 (by decide)
    _ = B8 m c (Proc.devRef .tc main_arg0) := B9_of m c main_arg0 (by decide)
    _ = B7 m c (Proc.devRef .tc main_arg0) := B8_of_ne m c main_arg0 (by decide)
    _ = B6 m c (Proc.devRef .tc main_arg0) := B7_of_ne m c main_arg0 (by decide)
    _ = B5 m c (Proc.devRef .tc main_arg0) := B6_of_ne m c main_arg0 (by decide)
    _ = B4 m c (Proc.devRef .tc main_arg0) := B5_of m c main_arg0 (by decide)
    _ = B3 m c (Proc.devRef .tc main_arg0) := B4_of_ne m c main_arg0 (by decide)
    _ = B2 m c (Proc.devRef .tc main_arg0) := (B3_arr m c 0).trans (((dat1 (E2 m) c).arrAt_in 0 rfl _).trans (A_eq1 (E2 m) c 0))
    _ = B1 m c (Proc.devRef .tc main_arg0) := B2_of_ne m c main_arg0 (by decide)
    _ = B0 m c (Proc.devRef .tc main_arg0) := B1_of m c main_arg0 (by decide)
    _ = m ((c : Thread nD τ).loc main_arg0) := rfl

theorem B12_main_arg1 (c : Dev nD) : B12 m c (Proc.devRef .tc main_arg1) = m ((c : Thread nD τ).loc main_arg1) :=
  calc B12 m c (Proc.devRef .tc main_arg1)
    _ = B11 m c (Proc.devRef .tc main_arg1) := B12_of_ne m c main_arg1 (by decide)
    _ = B10 m c (Proc.devRef .tc main_arg1) := B11_of_ne m c main_arg1 (by decide)
    _ = B9 m c (Proc.devRef .tc main_arg1) := B10_of_ne m c main_arg1 (by decide)
    _ = B8 m c (Proc.devRef .tc main_arg1) := B9_of m c main_arg1 (by decide)
    _ = B7 m c (Proc.devRef .tc main_arg1) := B8_of_ne m c main_arg1 (by decide)
    _ = B6 m c (Proc.devRef .tc main_arg1) := B7_of_ne m c main_arg1 (by decide)
    _ = B5 m c (Proc.devRef .tc main_arg1) := B6_of_ne m c main_arg1 (by decide)
    _ = B4 m c (Proc.devRef .tc main_arg1) := B5_of m c main_arg1 (by decide)
    _ = B3 m c (Proc.devRef .tc main_arg1) := B4_of_ne m c main_arg1 (by decide)
    _ = B2 m c (Proc.devRef .tc main_arg1) := B3_of_ne m c main_arg1 (by decide)
    _ = B1 m c (Proc.devRef .tc main_arg1) := (B2_arr m c 0).trans (((dat0 (E1 m) c).arrAt_in 0 rfl _).trans (A_eq0 (E1 m) c 0))
    _ = B0 m c (Proc.devRef .tc main_arg1) := B1_of m c main_arg1 (by decide)
    _ = m ((c : Thread nD τ).loc main_arg1) := rfl

theorem B12_main_arg2 (c : Dev nD) : B12 m c (Proc.devRef .tc main_arg2) = m ((c : Thread nD τ).loc main_arg2) :=
  calc B12 m c (Proc.devRef .tc main_arg2)
    _ = B11 m c (Proc.devRef .tc main_arg2) := B12_of_ne m c main_arg2 (by decide)
    _ = B10 m c (Proc.devRef .tc main_arg2) := B11_of_ne m c main_arg2 (by decide)
    _ = B9 m c (Proc.devRef .tc main_arg2) := B10_of_ne m c main_arg2 (by decide)
    _ = B8 m c (Proc.devRef .tc main_arg2) := B9_of m c main_arg2 (by decide)
    _ = B7 m c (Proc.devRef .tc main_arg2) := B8_of_ne m c main_arg2 (by decide)
    _ = B6 m c (Proc.devRef .tc main_arg2) := B7_of_ne m c main_arg2 (by decide)
    _ = B5 m c (Proc.devRef .tc main_arg2) := B6_of_ne m c main_arg2 (by decide)
    _ = B4 m c (Proc.devRef .tc main_arg2) := B5_of m c main_arg2 (by decide)
    _ = B3 m c (Proc.devRef .tc main_arg2) := B4_of_ne m c main_arg2 (by decide)
    _ = B2 m c (Proc.devRef .tc main_arg2) := B3_of_ne m c main_arg2 (by decide)
    _ = B1 m c (Proc.devRef .tc main_arg2) := (B2_arr m c 1).trans (((dat0 (E1 m) c).arrAt_in 1 rfl _).trans (A_eq0 (E1 m) c 1))
    _ = B0 m c (Proc.devRef .tc main_arg2) := B1_of m c main_arg2 (by decide)
    _ = m ((c : Thread nD τ).loc main_arg2) := rfl

theorem B12_main_arg3 (c : Dev nD) : B12 m c (Proc.devRef .tc main_arg3) = m ((c : Thread nD τ).loc main_arg3) :=
  calc B12 m c (Proc.devRef .tc main_arg3)
    _ = B11 m c (Proc.devRef .tc main_arg3) := B12_of_ne m c main_arg3 (by decide)
    _ = B10 m c (Proc.devRef .tc main_arg3) := B11_of_ne m c main_arg3 (by decide)
    _ = B9 m c (Proc.devRef .tc main_arg3) := B10_of_ne m c main_arg3 (by decide)
    _ = B8 m c (Proc.devRef .tc main_arg3) := B9_of m c main_arg3 (by decide)
    _ = B7 m c (Proc.devRef .tc main_arg3) := B8_of_ne m c main_arg3 (by decide)
    _ = B6 m c (Proc.devRef .tc main_arg3) := B7_of_ne m c main_arg3 (by decide)
    _ = B5 m c (Proc.devRef .tc main_arg3) := B6_of_ne m c main_arg3 (by decide)
    _ = B4 m c (Proc.devRef .tc main_arg3) := B5_of m c main_arg3 (by decide)
    _ = B3 m c (Proc.devRef .tc main_arg3) := B4_of_ne m c main_arg3 (by decide)
    _ = B2 m c (Proc.devRef .tc main_arg3) := B3_of_ne m c main_arg3 (by decide)
    _ = B1 m c (Proc.devRef .tc main_arg3) := B2_of_ne m c main_arg3 (by decide)
    _ = B0 m c (Proc.devRef .tc main_arg3) := B1_of m c main_arg3 (by decide)
    _ = m ((c : Thread nD τ).loc main_arg3) := rfl

theorem B12_main_arg4 (c : Dev nD) : B12 m c (Proc.devRef .tc main_arg4) = m ((c : Thread nD τ).loc main_arg4) :=
  calc B12 m c (Proc.devRef .tc main_arg4)
    _ = B11 m c (Proc.devRef .tc main_arg4) := B12_of_ne m c main_arg4 (by decide)
    _ = B10 m c (Proc.devRef .tc main_arg4) := B11_of_ne m c main_arg4 (by decide)
    _ = B9 m c (Proc.devRef .tc main_arg4) := B10_of_ne m c main_arg4 (by decide)
    _ = B8 m c (Proc.devRef .tc main_arg4) := B9_of m c main_arg4 (by decide)
    _ = B7 m c (Proc.devRef .tc main_arg4) := B8_of_ne m c main_arg4 (by decide)
    _ = B6 m c (Proc.devRef .tc main_arg4) := B7_of_ne m c main_arg4 (by decide)
    _ = B5 m c (Proc.devRef .tc main_arg4) := B6_of_ne m c main_arg4 (by decide)
    _ = B4 m c (Proc.devRef .tc main_arg4) := B5_of m c main_arg4 (by decide)
    _ = B3 m c (Proc.devRef .tc main_arg4) := B4_of_ne m c main_arg4 (by decide)
    _ = B2 m c (Proc.devRef .tc main_arg4) := B3_of_ne m c main_arg4 (by decide)
    _ = B1 m c (Proc.devRef .tc main_arg4) := B2_of_ne m c main_arg4 (by decide)
    _ = B0 m c (Proc.devRef .tc main_arg4) := B1_of m c main_arg4 (by decide)
    _ = m ((c : Thread nD τ).loc main_arg4) := rfl

theorem B12_main_arg5 (c : Dev nD) : B12 m c (Proc.devRef .tc main_arg5) = m ((c : Thread nD τ).loc main_arg5) :=
  calc B12 m c (Proc.devRef .tc main_arg5)
    _ = B11 m c (Proc.devRef .tc main_arg5) := B12_of_ne m c main_arg5 (by decide)
    _ = B10 m c (Proc.devRef .tc main_arg5) := B11_of_ne m c main_arg5 (by decide)
    _ = B9 m c (Proc.devRef .tc main_arg5) := B10_of_ne m c main_arg5 (by decide)
    _ = B8 m c (Proc.devRef .tc main_arg5) := B9_of m c main_arg5 (by decide)
    _ = B7 m c (Proc.devRef .tc main_arg5) := B8_of_ne m c main_arg5 (by decide)
    _ = B6 m c (Proc.devRef .tc main_arg5) := B7_of_ne m c main_arg5 (by decide)
    _ = B5 m c (Proc.devRef .tc main_arg5) := (B6_arr m c 1).trans (((dat3 (E5 m) c).arrAt_in 1 rfl _).trans (A_eq3 (E5 m) c 1))
    _ = B4 m c (Proc.devRef .tc main_arg5) := B5_of m c main_arg5 (by decide)
    _ = B3 m c (Proc.devRef .tc main_arg5) := B4_of_ne m c main_arg5 (by decide)
    _ = B2 m c (Proc.devRef .tc main_arg5) := B3_of_ne m c main_arg5 (by decide)
    _ = B1 m c (Proc.devRef .tc main_arg5) := B2_of_ne m c main_arg5 (by decide)
    _ = B0 m c (Proc.devRef .tc main_arg5) := B1_of m c main_arg5 (by decide)
    _ = m ((c : Thread nD τ).loc main_arg5) := rfl

theorem B12_main_arg6 (c : Dev nD) : B12 m c (Proc.devRef .tc main_arg6) = m ((c : Thread nD τ).loc main_arg6) :=
  calc B12 m c (Proc.devRef .tc main_arg6)
    _ = B11 m c (Proc.devRef .tc main_arg6) := B12_of_ne m c main_arg6 (by decide)
    _ = B10 m c (Proc.devRef .tc main_arg6) := B11_of_ne m c main_arg6 (by decide)
    _ = B9 m c (Proc.devRef .tc main_arg6) := B10_of_ne m c main_arg6 (by decide)
    _ = B8 m c (Proc.devRef .tc main_arg6) := B9_of m c main_arg6 (by decide)
    _ = B7 m c (Proc.devRef .tc main_arg6) := B8_of_ne m c main_arg6 (by decide)
    _ = B6 m c (Proc.devRef .tc main_arg6) := B7_of_ne m c main_arg6 (by decide)
    _ = B5 m c (Proc.devRef .tc main_arg6) := B6_of_ne m c main_arg6 (by decide)
    _ = B4 m c (Proc.devRef .tc main_arg6) := B5_of m c main_arg6 (by decide)
    _ = B3 m c (Proc.devRef .tc main_arg6) := B4_of_ne m c main_arg6 (by decide)
    _ = B2 m c (Proc.devRef .tc main_arg6) := B3_of_ne m c main_arg6 (by decide)
    _ = B1 m c (Proc.devRef .tc main_arg6) := B2_of_ne m c main_arg6 (by decide)
    _ = B0 m c (Proc.devRef .tc main_arg6) := B1_of m c main_arg6 (by decide)
    _ = m ((c : Thread nD τ).loc main_arg6) := rfl

theorem B12_main_arg7 (c : Dev nD) : B12 m c (Proc.devRef .tc main_arg7) = m ((c : Thread nD τ).loc main_arg7) :=
  calc B12 m c (Proc.devRef .tc main_arg7)
    _ = B11 m c (Proc.devRef .tc main_arg7) := B12_of_ne m c main_arg7 (by decide)
    _ = B10 m c (Proc.devRef .tc main_arg7) := B11_of_ne m c main_arg7 (by decide)
    _ = B9 m c (Proc.devRef .tc main_arg7) := B10_of_ne m c main_arg7 (by decide)
    _ = B8 m c (Proc.devRef .tc main_arg7) := B9_of m c main_arg7 (by decide)
    _ = B7 m c (Proc.devRef .tc main_arg7) := B8_of_ne m c main_arg7 (by decide)
    _ = B6 m c (Proc.devRef .tc main_arg7) := B7_of_ne m c main_arg7 (by decide)
    _ = B5 m c (Proc.devRef .tc main_arg7) := B6_of_ne m c main_arg7 (by decide)
    _ = B4 m c (Proc.devRef .tc main_arg7) := B5_of m c main_arg7 (by decide)
    _ = B3 m c (Proc.devRef .tc main_arg7) := B4_of_ne m c main_arg7 (by decide)
    _ = B2 m c (Proc.devRef .tc main_arg7) := B3_of_ne m c main_arg7 (by decide)
    _ = B1 m c (Proc.devRef .tc main_arg7) := B2_of_ne m c main_arg7 (by decide)
    _ = B0 m c (Proc.devRef .tc main_arg7) := B1_of m c main_arg7 (by decide)
    _ = m ((c : Thread nD τ).loc main_arg7) := rfl

theorem B12_main_arg8 (c : Dev nD) : B12 m c (Proc.devRef .tc main_arg8) = m ((c : Thread nD τ).loc main_arg8) :=
  calc B12 m c (Proc.devRef .tc main_arg8)
    _ = B11 m c (Proc.devRef .tc main_arg8) := B12_of_ne m c main_arg8 (by decide)
    _ = B10 m c (Proc.devRef .tc main_arg8) := B11_of_ne m c main_arg8 (by decide)
    _ = B9 m c (Proc.devRef .tc main_arg8) := (B10_arr m c 1).trans (((dat6 (E9 m) c).arrAt_in 1 rfl _).trans (A_eq6 (E9 m) c 1))
    _ = B8 m c (Proc.devRef .tc main_arg8) := B9_of m c main_arg8 (by decide)
    _ = B7 m c (Proc.devRef .tc main_arg8) := B8_of_ne m c main_arg8 (by decide)
    _ = B6 m c (Proc.devRef .tc main_arg8) := B7_of_ne m c main_arg8 (by decide)
    _ = B5 m c (Proc.devRef .tc main_arg8) := B6_of_ne m c main_arg8 (by decide)
    _ = B4 m c (Proc.devRef .tc main_arg8) := B5_of m c main_arg8 (by decide)
    _ = B3 m c (Proc.devRef .tc main_arg8) := B4_of_ne m c main_arg8 (by decide)
    _ = B2 m c (Proc.devRef .tc main_arg8) := B3_of_ne m c main_arg8 (by decide)
    _ = B1 m c (Proc.devRef .tc main_arg8) := B2_of_ne m c main_arg8 (by decide)
    _ = B0 m c (Proc.devRef .tc main_arg8) := B1_of m c main_arg8 (by decide)
    _ = m ((c : Thread nD τ).loc main_arg8) := rfl

theorem B12_main_arg9 (c : Dev nD) : B12 m c (Proc.devRef .tc main_arg9) = m ((c : Thread nD τ).loc main_arg9) :=
  calc B12 m c (Proc.devRef .tc main_arg9)
    _ = B11 m c (Proc.devRef .tc main_arg9) := B12_of_ne m c main_arg9 (by decide)
    _ = B10 m c (Proc.devRef .tc main_arg9) := B11_of_ne m c main_arg9 (by decide)
    _ = B9 m c (Proc.devRef .tc main_arg9) := B10_of_ne m c main_arg9 (by decide)
    _ = B8 m c (Proc.devRef .tc main_arg9) := B9_of m c main_arg9 (by decide)
    _ = B7 m c (Proc.devRef .tc main_arg9) := B8_of_ne m c main_arg9 (by decide)
    _ = B6 m c (Proc.devRef .tc main_arg9) := B7_of_ne m c main_arg9 (by decide)
    _ = B5 m c (Proc.devRef .tc main_arg9) := B6_of_ne m c main_arg9 (by decide)
    _ = B4 m c (Proc.devRef .tc main_arg9) := B5_of m c main_arg9 (by decide)
    _ = B3 m c (Proc.devRef .tc main_arg9) := B4_of_ne m c main_arg9 (by decide)
    _ = B2 m c (Proc.devRef .tc main_arg9) := B3_of_ne m c main_arg9 (by decide)
    _ = B1 m c (Proc.devRef .tc main_arg9) := B2_of_ne m c main_arg9 (by decide)
    _ = B0 m c (Proc.devRef .tc main_arg9) := B1_of m c main_arg9 (by decide)
    _ = m ((c : Thread nD τ).loc main_arg9) := rfl

theorem B12_main_arg10 (c : Dev nD) : B12 m c (Proc.devRef .tc main_arg10) = m ((c : Thread nD τ).loc main_arg10) :=
  calc B12 m c (Proc.devRef .tc main_arg10)
    _ = B11 m c (Proc.devRef .tc main_arg10) := B12_of_ne m c main_arg10 (by decide)
    _ = B10 m c (Proc.devRef .tc main_arg10) := B11_of_ne m c main_arg10 (by decide)
    _ = B9 m c (Proc.devRef .tc main_arg10) := B10_of_ne m c main_arg10 (by decide)
    _ = B8 m c (Proc.devRef .tc main_arg10) := B9_of m c main_arg10 (by decide)
    _ = B7 m c (Proc.devRef .tc main_arg10) := B8_of_ne m c main_arg10 (by decide)
    _ = B6 m c (Proc.devRef .tc main_arg10) := B7_of_ne m c main_arg10 (by decide)
    _ = B5 m c (Proc.devRef .tc main_arg10) := B6_of_ne m c main_arg10 (by decide)
    _ = B4 m c (Proc.devRef .tc main_arg10) := B5_of m c main_arg10 (by decide)
    _ = B3 m c (Proc.devRef .tc main_arg10) := B4_of_ne m c main_arg10 (by decide)
    _ = B2 m c (Proc.devRef .tc main_arg10) := B3_of_ne m c main_arg10 (by decide)
    _ = B1 m c (Proc.devRef .tc main_arg10) := B2_of_ne m c main_arg10 (by decide)
    _ = B0 m c (Proc.devRef .tc main_arg10) := B1_of m c main_arg10 (by decide)
    _ = m ((c : Thread nD τ).loc main_arg10) := rfl

/-! ## The proof data family and the thread state -/

abbrev adm : (p : Fin 9) → (pcfgs (F := F) p).Adm := fun p => (cfgs p).toPCfg_adm
/-- Every region's proof data at its entry contents. -/
def pdats : (p : Fin 9) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E2 m) c
  | ⟨2, _⟩ => fun c => dat2 (E3 m) c
  | ⟨3, _⟩ => fun c => dat3 (E5 m) c
  | ⟨4, _⟩ => fun c => dat4 (E6 m) c
  | ⟨5, _⟩ => fun c => dat5 (E7 m) c
  | ⟨6, _⟩ => fun c => dat6 (E9 m) c
  | ⟨7, _⟩ => fun c => dat7 (E10 m) c
  | ⟨8, _⟩ => fun c => dat8 (E11 m) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (B12 m c) ∗ ∃ r, prngReg c r)

/-! ## The regions as segments -/

set_option backward.isDefEq.respectTransparency.types false in
/-- Region 0: entered from the buffers at boundary 1, left at boundary 2. Its windows' arrays are split out of the
    unscoped buffers and put back at the exit contents; the generator register goes into the region's invariant
    with the scoped rest and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (B1 m c) ∗ R c)
  post c := iprop(StableHlo.held (c : Thread nD τ) (Pipeline.ucRefs τ sig) (B2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec0 c ⊢ (pdats m 0 c).Φ 0 from hin0 (E1 m) c)
    unfold Pipeline.ΦA
    iintro ⟨Hp, -, Hr⟩
    isplitl [Hr]; · iexact Hr
    iexact Hp
  hout c := by
    rw [Pipeline.ownSems0_none]
    refine BIBase.Entails.trans (show (pdats m 0 c).Φ (Fin.last _) ⊢ Pipeline.ΦA spec0 c from hout0 (E1 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from the buffers at boundary 2, left at boundary 3. Its windows' arrays are split out of the
    unscoped buffers and put back at the exit contents; the generator register goes into the region's invariant
    with the scoped rest and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E2 m) c).loose
  hwaits := Pipeline.hwaits_of_owed_zero _ _ _ _ L lv 1 fun _ _ => rfl
  pre c := iprop(StableHlo.held (c : Thread nD τ) (Pipeline.ucRefs τ sig) (B2 m c) ∗ R c)
  post c := iprop(StableHlo.held (c : Thread nD τ) (Pipeline.ucRefs τ sig) (B3 m c) ∗ R c)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec1 c ⊢ (pdats m 1 c).Φ 0 from hin1 (E2 m) c)
    unfold Pipeline.ΦA
    iintro ⟨Hp, -, Hr⟩
    isplitl [Hr]; · iexact Hr
    iexact Hp
  hout c := by
    rw [Pipeline.ownSems0_none]
    refine BIBase.Entails.trans (show (pdats m 1 c).Φ (Fin.last _) ⊢ Pipeline.ΦA spec1 c from hout1 (E2 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E2 m c) (E3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: entered from the buffers at boundary 3, left at boundary 4. Its windows' arrays are split out of the
    unscoped buffers and put back at the exit contents; the generator register goes into the region's invariant
    with the scoped rest and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E3 m) c).loose
  hwaits := Pipeline.hwaits_of_owed_zero _ _ _ _ L lv 2 fun _ _ => rfl
  pre c := iprop(StableHlo.held (c : Thread nD τ) (Pipeline.ucRefs τ sig) (B3 m c) ∗ R c)
  post c := iprop(StableHlo.held (c : Thread nD τ) (Pipeline.ucRefs τ sig) (B4 m c) ∗ R c)
  X c := iprop(∃ r, prngReg c r)
  Y c := iprop(∃ r, prngReg c r)
  Z c := Pipeline.unscopedRest (Ix := Unit) (Name := ℕ) (U := UR sig nD τ) (Lvl := ℕ) spec2 c (E3 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec2 c ⊢ (pdats m 2 c).Φ 0 from hin2 (E3 m) c)
    unfold Pipeline.ΦA
    iintro ⟨Hp, -, Hr⟩
    isplitl [Hr]; · iexact Hr
    iexact Hp
  hout c := by
    rw [Pipeline.ownSems0_none]
    refine BIBase.Entails.trans (show (pdats m 2 c).Φ (Fin.last _) ⊢ Pipeline.ΦA spec2 c from hout2 (E3 m) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E3 m c) (E4 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3: entered from the buffers at boundary 5, left at boundary 6. Its windows' arrays are split out of the
    unscoped buffers and put back at the exit contents; the generator register goes into the region's invariant
    with the scoped rest and comes back; nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (E5 m) c).loose
  hwaits := Pipeline.hwaits_of_owed_zero _ _ _ _ L lv 3 fun _ _ => rfl
  pre c := iprop(StableHlo.held (c : Thread nD τ) (Pipeline.ucRefs τ sig) (B5 m c) ∗ R c)
  post c := iprop(StableHlo.held (c : Thread nD τ) (Pipeline.ucRefs τ sig) (B6 m c) ∗ R c)
  X c := iprop(∃ r, prngReg c r)
  Y c := iprop(∃ r, prngReg c r)
  Z c := Pipeline.unscopedRest (Ix := Unit) (Name := ℕ) (U := UR sig nD τ) (Lvl := ℕ) spec3 c (E5 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec3 c ⊢ (pdats m 3 c).Φ 0 from hin3 (E5 m) c)
    unfold Pipeline.ΦA
    iintro ⟨Hp, -, Hr⟩
    isplitl [Hr]; · iexact Hr
    iexact Hp
  hout c := by
    rw [Pipeline.ownSems0_none]
    refine BIBase.Entails.trans (show (pdats m 3 c).Φ (Fin.last _) ⊢ Pipeline.ΦA spec3 c from hout3 (E5 m) c) ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (E5 m c) (E6 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4: entered from the buffers at boundary 6, left at boundary 7. Its windows' arrays are split out of the
    unscoped buffers and put back at the exit contents; the generator register goes into the region's invariant
    with the scoped rest and comes back; nothing is owed; the kernel has no semaphore of its own. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (E6 m) c).loose
  hwaits := Pipeline.hwaits_of_owed_zero _ _ _ _ L lv 4 fun _ _ => rfl
  pre c := iprop(StableHlo.held (c : Thread nD τ) (Pipeline.ucRefs τ sig) (B6 m c) ∗ R c)
  post c := iprop(StableHlo.held (c : Thread nD τ) (Pipeline.ucRefs τ sig) (B7 m c) ∗ R c)
  X c := iprop(∃ r, prngReg c r)
  Y c := iprop(∃ r, prngReg c r)
  Z c := Pipeline.unscopedRest (Ix := Unit) (Name := ℕ) (U := UR sig nD τ) (Lvl := ℕ) spec4 c (E6 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (E6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec4 c ⊢ (pdats m 4 c).Φ 0 from hin4 (E6 m) c)
    unfold Pipeline.ΦA
    iintro ⟨Hp, -, Hr⟩
    isplitl [Hr]; · iexact Hr
    iexact Hp
  hout c := by
    rw [Pipeline.ownSems0_none]
    refine BIBase.Entails.trans (show (pdats m 4 c).Φ (Fin.last _) ⊢ Pipeline.ΦA spec4 c from hout4 (E6 m) c) ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (E6 m c) (E7 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5: entered from the buffers at boundary 7, left at boundary 8. Its windows' arrays are split out of the
    unscoped buffers and put back at the exit contents; the generator register goes into the region's invariant
    with the scoped rest and comes back; nothing is owed; the kernel has no semaphore of its own. -/
def reg5 : Pipeline.RegionSeg (pcfgs (F := F)) adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (E7 m) c).loose
  hwaits := Pipeline.hwaits_of_owed_zero _ _ _ _ L lv 5 fun _ _ => rfl
  pre c := iprop(StableHlo.held (c : Thread nD τ) (Pipeline.ucRefs τ sig) (B7 m c) ∗ R c)
  post c := iprop(StableHlo.held (c : Thread nD τ) (Pipeline.ucRefs τ sig) (B8 m c) ∗ R c)
  X c := iprop(∃ r, prngReg c r)
  Y c := iprop(∃ r, prngReg c r)
  Z c := Pipeline.unscopedRest (Ix := Unit) (Name := ℕ) (U := UR sig nD τ) (Lvl := ℕ) spec5 c (E7 m c)
  hentry c := by
    rw [Pipeline.ownSems0_none]
    have hsplit := Pipeline.arrays_of_unscopedBufs (p := 5) (pcfgs (F := F)) adm (pdats m) launch5.win launch5.arr_whole c
      ((pdats m 5 c).share_full fun _ => rfl) (E7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec5 c ⊢ (pdats m 5 c).Φ 0 from hin5 (E7 m) c)
    unfold Pipeline.ΦA
    iintro ⟨Hp, -, Hr⟩
    isplitl [Hr]; · iexact Hr
    iexact Hp
  hout c := by
    rw [Pipeline.ownSems0_none]
    refine BIBase.Entails.trans (show (pdats m 5 c).Φ (Fin.last _) ⊢ Pipeline.ΦA spec5 c from hout5 (E7 m) c) ?_
    unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (E7 m c) (E8 m c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6: entered from the buffers at boundary 9, left at boundary 10. Its windows' arrays are split out of the
    unscoped buffers and put back at the exit contents; the generator register goes into the region's invariant
    with the scoped rest and comes back; nothing is owed; the kernel has no semaphore of its own. -/
def reg6 : Pipeline.RegionSeg (pcfgs (F := F)) adm (pdats m) () defs₀ 𝒱₀ L lv 6 where
  win := launch6.win.to₀
  block_pos := launch6.block_pos
  stage_whole := launch6.stage_whole
  K := PEmpty
  osem k := k.elim
  ho := Pipeline.OwnSemFacts.none _
  hbody c := (body_obligation6 (E9 m) c).loose
  hwaits := Pipeline.hwaits_of_owed_zero _ _ _ _ L lv 6 fun _ _ => rfl
  pre c := iprop(StableHlo.held (c : Thread nD τ) (Pipeline.ucRefs τ sig) (B9 m c) ∗ R c)
  post c := iprop(StableHlo.held (c : Thread nD τ) (Pipeline.ucRefs τ sig) (B10 m c) ∗ R c)
  X c := iprop(∃ r, prngReg c r)
  Y c := iprop(∃ r, prngReg c r)
  Z c := Pipeline.unscopedRest (Ix := Unit) (Name := ℕ) (U := UR sig nD τ) (Lvl := ℕ) spec6 c (E9 m c)
  hentry c := by
    rw [Pipeline.ownSems0_none]
    have hsplit := Pipeline.arrays_of_unscopedBufs (p := 6) (pcfgs (F := F)) adm (pdats m) launch6.win launch6.arr_whole c
      ((pdats m 6 c).share_full fun _ => rfl) (E9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec6 c ⊢ (pdats m 6 c).Φ 0 from hin6 (E9 m) c)
    unfold Pipeline.ΦA
    iintro ⟨Hp, -, Hr⟩
    isplitl [Hr]; · iexact Hr
    iexact Hp
  hout c := by
    rw [Pipeline.ownSems0_none]
    refine BIBase.Entails.trans (show (pdats m 6 c).Φ (Fin.last _) ⊢ Pipeline.ΦA spec6 c from hout6 (E9 m) c) ?_
    unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full fun _ => rfl)
      (E9 m c) (E10 m c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 7: entered from the buffers at boundary 10, left at boundary 11. Its windows' arrays are split out of the
    unscoped buffers and put back at the exit contents; the generator register goes into the region's invariant
    with the scoped rest and comes back; nothing is owed; the kernel has no semaphore of its own. -/
def reg7 : Pipeline.RegionSeg (pcfgs (F := F)) adm (pdats m) () defs₀ 𝒱₀ L lv 7 where
  win := launch7.win.to₀
  block_pos := launch7.block_pos
  stage_whole := launch7.stage_whole
  K := PEmpty
  osem k := k.elim
  ho := Pipeline.OwnSemFacts.none _
  hbody c := (body_obligation7 (E10 m) c).loose
  hwaits := Pipeline.hwaits_of_owed_zero _ _ _ _ L lv 7 fun _ _ => rfl
  pre c := iprop(StableHlo.held (c : Thread nD τ) (Pipeline.ucRefs τ sig) (B10 m c) ∗ R c)
  post c := iprop(StableHlo.held (c : Thread nD τ) (Pipeline.ucRefs τ sig) (B11 m c) ∗ R c)
  X c := iprop(∃ r, prngReg c r)
  Y c := iprop(∃ r, prngReg c r)
  Z c := Pipeline.unscopedRest (Ix := Unit) (Name := ℕ) (U := UR sig nD τ) (Lvl := ℕ) spec7 c (E10 m c)
  hentry c := by
    rw [Pipeline.ownSems0_none]
    have hsplit := Pipeline.arrays_of_unscopedBufs (p := 7) (pcfgs (F := F)) adm (pdats m) launch7.win launch7.arr_whole c
      ((pdats m 7 c).share_full fun _ => rfl) (E10 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec7 c ⊢ (pdats m 7 c).Φ 0 from hin7 (E10 m) c)
    unfold Pipeline.ΦA
    iintro ⟨Hp, -, Hr⟩
    isplitl [Hr]; · iexact Hr
    iexact Hp
  hout c := by
    rw [Pipeline.ownSems0_none]
    refine BIBase.Entails.trans (show (pdats m 7 c).Φ (Fin.last _) ⊢ Pipeline.ΦA spec7 c from hout7 (E10 m) c) ?_
    unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m) ((pdats m 7 c).share_full fun _ => rfl)
      (E10 m c) (E11 m c) ((pdats m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 8: entered from the buffers at boundary 11, left at boundary 12. Its windows' arrays are split out of the
    unscoped buffers and put back at the exit contents; the generator register goes into the region's invariant
    with the scoped rest and comes back; nothing is owed; the kernel has no semaphore of its own. -/
def reg8 : Pipeline.RegionSeg (pcfgs (F := F)) adm (pdats m) () defs₀ 𝒱₀ L lv 8 where
  win := launch8.win.to₀
  block_pos := launch8.block_pos
  stage_whole := launch8.stage_whole
  K := PEmpty
  osem k := k.elim
  ho := Pipeline.OwnSemFacts.none _
  hbody c := (body_obligation8 (E11 m) c).loose
  hwaits := Pipeline.hwaits_of_owed_zero _ _ _ _ L lv 8 fun _ _ => rfl
  pre c := iprop(StableHlo.held (c : Thread nD τ) (Pipeline.ucRefs τ sig) (B11 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec8 c (E11 m c)
  hentry c := by
    rw [Pipeline.ownSems0_none]
    have hsplit := Pipeline.arrays_of_unscopedBufs (p := 8) (pcfgs (F := F)) adm (pdats m) launch8.win launch8.arr_whole c
      ((pdats m 8 c).share_full fun _ => rfl) (E11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec8 c ⊢ (pdats m 8 c).Φ 0 from hin8 (E11 m) c)
    unfold Pipeline.ΦA
    iintro ⟨Hp, -, Hr⟩
    isplitl [Hr]; · iexact Hr
    iexact Hp
  hout c := by
    rw [Pipeline.ownSems0_none]
    refine BIBase.Entails.trans (show (pdats m 8 c).Φ (Fin.last _) ⊢ Pipeline.ΦA spec8 c from hout8 (E11 m) c) ?_
    unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m) ((pdats m 8 c).share_full fun _ => rfl)
      (E11 m c) (E12 m c) ((pdats m 8 c).arrAt · cfg8.N) (hF8 m c) (hrest8 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its items, and the run -/

abbrev segs : List (Pipeline.Seg (pcfgs (F := F)) adm (pdats m) () defs₀ 𝒱₀ L lv) :=
  [ .host (hseg hostOps0 hostOps0_sub hostOps0_fresh (B0 m)),
    .region (reg0 m),
    .region (reg1 m),
    .region (reg2 m),
    .host (hseg hostOps3 hostOps3_sub hostOps3_fresh (B4 m)),
    .region (reg3 m),
    .region (reg4 m),
    .region (reg5 m),
    .host (hseg hostOps6 hostOps6_sub hostOps6_fresh (B8 m)),
    .region (reg6 m),
    .region (reg7 m),
    .region (reg8 m) ]
theorem main_run (c : Dev nD) : main (F := F) c = Pipeline.Seg.run (segs m) := (main_chain c).trans (by chain_rfl)

variable (ρ : Dev nD → PrngReg)

set_option backward.isDefEq.respectTransparency.types false in
/-- From any memory with zero counters every weakly fair execution of the program terminates, nothing faulting;
    the result buffer ends at what region 8's write-backs leave in its wide output array, and every argument ends
    as launched. -/
theorem run : θ_run defs (onTc (τ := τ) (main (F := F))) ⟨m, fun _ => 0, ρ⟩ (fun r => ∀ c : Dev nD,
      r.2.mem ((c.tc : Thread nD τ).loc main_v29_1) = B12 m c (Proc.devRef .tc main_v29_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B12 m c b)
    (hfin := fun c s' => by
      iintro ⟨⟨Hh, -⟩, HSI⟩
      unfold StableHlo.held
      imodintro
      iapply (pointsTo_read_all (Pipeline.ucRefs τ sig) (fun b => (((c : Thread nD τ)).1, b)) (B12 m c) s')
      isplitl [Hh] <;> iassumption)
    (hQ := fun s h c =>
      ⟨h c _ (mem_uc main_v29_1 (by decide)),
       (h c _ (mem_uc main_arg0 (by decide))).trans (B12_main_arg0 m c),
       (h c _ (mem_uc main_arg1 (by decide))).trans (B12_main_arg1 m c),
       (h c _ (mem_uc main_arg2 (by decide))).trans (B12_main_arg2 m c),
       (h c _ (mem_uc main_arg3 (by decide))).trans (B12_main_arg3 m c),
       (h c _ (mem_uc main_arg4 (by decide))).trans (B12_main_arg4 m c),
       (h c _ (mem_uc main_arg5 (by decide))).trans (B12_main_arg5 m c),
       (h c _ (mem_uc main_arg6 (by decide))).trans (B12_main_arg6 m c),
       (h c _ (mem_uc main_arg7 (by decide))).trans (B12_main_arg7 m c),
       (h c _ (mem_uc main_arg8 (by decide))).trans (B12_main_arg8 m c),
       (h c _ (mem_uc main_arg9 (by decide))).trans (B12_main_arg9 m c),
       (h c _ (mem_uc main_arg10 (by decide))).trans (B12_main_arg10 m c)⟩)

end Cert.Kernel.Hand

end
-- ==== Proof.KI.Cast1Runs.lean ====
/- The casting propagate call (region 1 of @main): what its three control cases share.
   The body has two conditionals on the second grid coordinate k (the column-tile index, 0..3):
   the accumulator is zeroed when k = 0, and the two row-tile outputs are stored when k = 3.
   So a point is in exactly one of three cases: first tile (k = 0), middle tiles (k = 1, 2),
   last tile (k = 3). Everything here is stated at the contents `V` the call is entered with. -/
import proofs.«131271_j4982162063661_2_alg».proof.Proof.Gen.KernelIdeal.Launch
import proofs.«131271_j4982162063661_2_alg».proof.Proof.Gen.KernelIdeal.Skeleton
import proofs.«131271_j4982162063661_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each input window's current staging buffer holds its block at every point, fetched there or not:
    where it is not fetched the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The two branch conditions, in closed form over the 32 grid points -/

/-- The first conditional: the column-tile index is 0. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- The second conditional: the column-tile index is 3, the last. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
/-- Output 6 is stored only at the last column tile: idle, and not written back, in the other two cases. -/
theorem idleAt1_6_A : ∀ t : Fin cfg1.N, cond1_0 (grid1.coords t) → ¬cond1_1 (grid1.coords t) → cfg1.idle 6 (grid1.coords t) = true := by decide +kernel
theorem noFlush1_6_A : ∀ t : Fin cfg1.N, cond1_0 (grid1.coords t) → ¬cond1_1 (grid1.coords t) → (cfg1.win 6).flush t = false := by decide +kernel
theorem idleAt1_6_B : ∀ t : Fin cfg1.N, ¬cond1_0 (grid1.coords t) → ¬cond1_1 (grid1.coords t) → cfg1.idle 6 (grid1.coords t) = true := by decide +kernel
theorem noFlush1_6_B : ∀ t : Fin cfg1.N, ¬cond1_0 (grid1.coords t) → ¬cond1_1 (grid1.coords t) → (cfg1.win 6).flush t = false := by decide +kernel
theorem liveAt1_6_C : ∀ t : Fin cfg1.N, ¬cond1_0 (grid1.coords t) → cond1_1 (grid1.coords t) → cfg1.idle 6 (grid1.coords t) = false := by decide +kernel
/-- Output 7 is stored only at the last column tile: idle, and not written back, in the other two cases. -/
theorem idleAt1_7_A : ∀ t : Fin cfg1.N, cond1_0 (grid1.coords t) → ¬cond1_1 (grid1.coords t) → cfg1.idle 7 (grid1.coords t) = true := by decide +kernel
theorem noFlush1_7_A : ∀ t : Fin cfg1.N, cond1_0 (grid1.coords t) → ¬cond1_1 (grid1.coords t) → (cfg1.win 7).flush t = false := by decide +kernel
theorem idleAt1_7_B : ∀ t : Fin cfg1.N, ¬cond1_0 (grid1.coords t) → ¬cond1_1 (grid1.coords t) → cfg1.idle 7 (grid1.coords t) = true := by decide +kernel
theorem noFlush1_7_B : ∀ t : Fin cfg1.N, ¬cond1_0 (grid1.coords t) → ¬cond1_1 (grid1.coords t) → (cfg1.win 7).flush t = false := by decide +kernel
theorem liveAt1_7_C : ∀ t : Fin cfg1.N, ¬cond1_0 (grid1.coords t) → cond1_1 (grid1.coords t) → cfg1.idle 7 (grid1.coords t) = false := by decide +kernel

/-! ## The staging memrefs the body is called with, and the scratch accumulator -/

abbrev VO1_5 : View sig .tc .vmem S1024x2048 .bf16 := (Memref.whole cc1_stg5_0 : Memref sig .tc .vmem S1024x2048 .bf16).view
abbrev VO1_6 : View sig .tc .vmem S1024x128 .bf16 := (Memref.whole cc1_stg6_0 : Memref sig .tc .vmem S1024x128 .bf16).view
abbrev VO1_7 : View sig .tc .vmem S1024x128 .f32 := (Memref.whole cc1_stg7_0 : Memref sig .tc .vmem S1024x128 .f32).view
abbrev ms1_0 (t : Fin cfg1.N) : Memref sig .tc .vmem S1024x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8192x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1024x2048 .bf16 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1024x128 .bf16 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1024x128 .f32 := win1_7.stage (cfg1.slots t 7)
abbrev hs1_7 (t : Fin cfg1.N) : (ms1_7 t).IsWhole := hstage1_7 ((cfg1.slots t 7).cast nbuf1_7)
/-- The accumulator: a whole scoped buffer of the call's own, carried from one grid point to the next. -/
abbrev scM1_0 : Memref sig .tc .vmem S1024x128 .f32 := Memref.whole cc1_scratch0
abbrev VS1_0 : View sig .tc .vmem S1024x128 .f32 := scM1_0.view

/-- The call's region invariant with the accumulator split out as a memref owned at some contents;
    every other scoped buffer stays unopened. -/
theorem PhiA1_eq (c : Dev nD) :
    (Pipeline.ΦA spec1 c : sProp 𝕄)
      = iprop(iprop(iprop((∃ d, owns (c : Thread nD τ) scM1_0 fullShare d))
          ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1_0, owns_whole]; try rfl

end Cert.KernelIdeal.Hand

end
-- ==== Proof.KI.Cast1RunA.lean ====
/- The body of the casting propagate call run whole at the first column tile (k = 0): the accumulator is zeroed, then receives the first partial product; the two row-tile outputs are not stored.
   At every point the tile of S is read, rounded to the narrow format and stored to the third output.
   The run is a triple over whole staging memrefs; the pieces each stored buffer ends with are found by the run. -/
import proofs.«131271_j4982162063661_2_alg».proof.Proof.KI.Cast1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
noncomputable def kernelRun1_A (c : Dev nD) (i : grid1.Coords) (arg2 : Memref sig .tc .vmem S1024x2048 .f32) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1024x2048 .bf16) (harg7 : arg7.IsWhole) (arg8 : Memref sig .tc .vmem S1024x128 .bf16) (harg8 : arg8.IsWhole) (arg9 : Memref sig .tc .vmem S1024x128 .f32) (harg9 : arg9.IsWhole) (arg10 : Memref sig .tc .vmem S1024x128 .f32) (harg10 : arg10.IsWhole) (hc0 : cond1_0 i) (hc1 : ¬cond1_1 i)
    (x0 : Vec F S1024x2048 .f32) (x1 : Vec F S8192x128 .bf16) :
    Σ' (L5 : List (View.Piece (Elt F) S1024x2048 .bf16)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ (∃ d, owns (c : Thread nD τ) arg7 fullShare d) ∗ (∃ d, owns (c : Thread nD τ) arg10 fullShare d)
            ∗ (iprop(owns (c : Thread nD τ) arg2 fullShare x0 ∗ owns (c : Thread nD τ) arg3 fullShare x1 ∗ (∃ f, arg7.view.loc (c : Thread nD τ) ↦[arg7.view.set]{fullShare} arg7.view.writes (Elt F) f L5) ∗ (∃ f, arg10.view.loc (c : Thread nD τ) ↦[arg10.view.set]{fullShare} arg10.view.writes (Elt F) f LS0)) -∗ K ⟨⟩))
          ⊢ wp frame (wpE (defs₀ (F := F)) Variants.none c none) E (cc1__propagate_kernel_cast i arg2 harg2 arg3 harg3 arg4 harg4 arg5 harg5 arg6 harg6 arg7 harg7 arg8 harg8 arg9 harg9 arg10 harg10) K } := by
  refine ⟨?_, ?_, fun E K => ?run⟩
  case run =>
    simp only [cc1__propagate_kernel_cast_eq_skeleton]; unfold cc1__propagate_kernel_cast_skel
    unfold owns
    iintro ⟨⟨%f0, %hf0, H0⟩, ⟨%f1, %hf1, H1⟩, ⟨%d5, %f5, -, H5⟩, ⟨%ds0, %fs0, -, HS0⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H5]; · iexists _; iexact H5
    iexists _; iexact HS0

end Cert.KernelIdeal.Hand

end
-- ==== Proof.KI.Cast1RunB.lean ====
/- The body of the casting propagate call run whole at a middle column tile (k = 1, 2): the accumulator, holding what the point before left, receives the next partial product; the two row-tile outputs are not stored.
   At every point the tile of S is read, rounded to the narrow format and stored to the third output.
   The run is a triple over whole staging memrefs; the pieces each stored buffer ends with are found by the run. -/
import proofs.«131271_j4982162063661_2_alg».proof.Proof.KI.Cast1RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
noncomputable def kernelRun1_B (c : Dev nD) (i : grid1.Coords) (arg2 : Memref sig .tc .vmem S1024x2048 .f32) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1024x2048 .bf16) (harg7 : arg7.IsWhole) (arg8 : Memref sig .tc .vmem S1024x128 .bf16) (harg8 : arg8.IsWhole) (arg9 : Memref sig .tc .vmem S1024x128 .f32) (harg9 : arg9.IsWhole) (arg10 : Memref sig .tc .vmem S1024x128 .f32) (harg10 : arg10.IsWhole) (hc0 : ¬cond1_0 i) (hc1 : ¬cond1_1 i)
    (x0 : Vec F S1024x2048 .f32) (x1 : Vec F S8192x128 .bf16) (xs0 : Vec F S1024x128 .f32) :
    Σ' (L5 : List (View.Piece (Elt F) S1024x2048 .bf16)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ (∃ d, owns (c : Thread nD τ) arg7 fullShare d) ∗ owns (c : Thread nD τ) arg10 fullShare xs0
            ∗ (iprop(owns (c : Thread nD τ) arg2 fullShare x0 ∗ owns (c : Thread nD τ) arg3 fullShare x1 ∗ (∃ f, arg7.view.loc (c : Thread nD τ) ↦[arg7.view.set]{fullShare} arg7.view.writes (Elt F) f L5) ∗ (∃ f, arg10.view.loc (c : Thread nD τ) ↦[arg10.view.set]{fullShare} arg10.view.writes (Elt F) f LS0)) -∗ K ⟨⟩))
          ⊢ wp frame (wpE (defs₀ (F := F)) Variants.none c none) E (cc1__propagate_kernel_cast i arg2 harg2 arg3 harg3 arg4 harg4 arg5 harg5 arg6 harg6 arg7 harg7 arg8 harg8 arg9 harg9 arg10 harg10) K } := by
  refine ⟨?_, ?_, fun E K => ?run⟩
  case run =>
    simp only [cc1__propagate_kernel_cast_eq_skeleton]; unfold cc1__propagate_kernel_cast_skel
    unfold owns
    iintro ⟨⟨%f0, %hf0, H0⟩, ⟨%f1, %hf1, H1⟩, ⟨%d5, %f5, -, H5⟩, ⟨%fs0, %hfs0, HS0⟩, Hk⟩
    obtain rfl := harg2.eq_unread hf0; obtain rfl := harg3.eq_unread hf1; obtain rfl := harg10.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H5]; · iexists _; iexact H5
    iexists _; iexact HS0

end Cert.KernelIdeal.Hand

end
-- ==== Proof.KI.Cast1RunC.lean ====
/- The body of the casting propagate call run whole at the last column tile (k = 3): the accumulator receives the last partial product and the two row-tile outputs are stored from it.
   At every point the tile of S is read, rounded to the narrow format and stored to the third output.
   The run is a triple over whole staging memrefs; the pieces each stored buffer ends with are found by the run. -/
import proofs.«131271_j4982162063661_2_alg».proof.Proof.KI.Cast1RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
noncomputable def kernelRun1_C (c : Dev nD) (i : grid1.Coords) (arg2 : Memref sig .tc .vmem S1024x2048 .f32) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1024x2048 .bf16) (harg7 : arg7.IsWhole) (arg8 : Memref sig .tc .vmem S1024x128 .bf16) (harg8 : arg8.IsWhole) (arg9 : Memref sig .tc .vmem S1024x128 .f32) (harg9 : arg9.IsWhole) (arg10 : Memref sig .tc .vmem S1024x128 .f32) (harg10 : arg10.IsWhole) (hc0 : ¬cond1_0 i) (hc1 : cond1_1 i)
    (x0 : Vec F S1024x2048 .f32) (x1 : Vec F S8192x128 .bf16) (x2 : Vec F S1024x128 .f32) (x4 : Vec F S1x1 .f32) (xs0 : Vec F S1024x128 .f32) :
    Σ' (L5 : List (View.Piece (Elt F) S1024x2048 .bf16)) (L6 : List (View.Piece (Elt F) S1024x128 .bf16)) (L7 : List (View.Piece (Elt F) S1024x128 .f32)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs0
            ∗ (iprop(owns (c : Thread nD τ) arg2 fullShare x0 ∗ owns (c : Thread nD τ) arg3 fullShare x1 ∗ owns (c : Thread nD τ) arg4 fullShare x2 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0)) -∗ K ⟨⟩))
          ⊢ wp frame (wpE (defs₀ (F := F)) Variants.none c none) E (cc1__propagate_kernel_cast i arg2 harg2 arg3 harg3 arg4 harg4 arg5 harg5 arg6 harg6 arg7 harg7 arg8 harg8 arg9 harg9 arg10 harg10) K } := by
  refine ⟨?_, ?_, ?_, ?_, fun E K => ?run⟩
  case run =>
    simp only [cc1__propagate_kernel_cast_eq_skeleton]; unfold cc1__propagate_kernel_cast_skel
    unfold owns
    iintro ⟨⟨%f0, %hf0, H0⟩, ⟨%f1, %hf1, H1⟩, ⟨%f2, %hf2, H2⟩, ⟨%f4, %hf4, H4⟩, ⟨%d5, %f5, -, H5⟩, ⟨%d6, %f6, -, H6⟩, ⟨%d7, %f7, -, H7⟩, ⟨%fs0, %hfs0, HS0⟩, Hk⟩
    obtain rfl := harg2.eq_unread hf0; obtain rfl := harg3.eq_unread hf1; obtain rfl := harg4.eq_unread hf2; obtain rfl := harg6.eq_unread hf4; obtain rfl := harg10.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H4]
    · iexists _; isplitr; · ipureintro; exact harg6.read_unread _
      iexact H4
    isplitl [H5]; · iexists _; iexact H5
    isplitl [H6]; · iexists _; iexact H6
    isplitl [H7]; · iexists _; iexact H7
    iexists _; iexact HS0

end Cert.KernelIdeal.Hand

end
-- ==== Proof.KI.Cast1Dat.lean ====
/- The casting propagate call: what its buffers hold point by point, and the proof data of its pipeline.
   The accumulator is carried along the four column tiles of a row tile: zeroed and filled at the first,
   added to at the middle two, added to and read out at the last. The bf16 copy of the S tile is stored at
   every point; the two row-tile outputs only at the last column tile. -/
import proofs.«131271_j4982162063661_2_alg».proof.Proof.KI.Cast1RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- Case A: the pieces stored into output 5 tile its block, so they cover it. -/
theorem cover1_A_5 (c : Dev nD) (i : grid1.Coords) (arg2 : Memref sig .tc .vmem S1024x2048 .f32) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1024x2048 .bf16) (harg7 : arg7.IsWhole) (arg8 : Memref sig .tc .vmem S1024x128 .bf16) (harg8 : arg8.IsWhole) (arg9 : Memref sig .tc .vmem S1024x128 .f32) (harg9 : arg9.IsWhole) (arg10 : Memref sig .tc .vmem S1024x128 .f32) (harg10 : arg10.IsWhole) (hc0 : cond1_0 i) (hc1 : ¬cond1_1 i)
    (x0 : Vec F S1024x2048 .f32) (x1 : Vec F S8192x128 .bf16) (y : S1024x2048.Idx) :
    ∃ pc ∈ (kernelRun1_A c i arg2 harg2 arg3 harg3 arg4 harg4 arg5 harg5 arg6 harg6 arg7 harg7 arg8 harg8 arg9 harg9 arg10 harg10 hc0 hc1 x0 x1).1, y ∈ pc.1.set :=
  View.cover_of_tiledL (kernelRun1_A c i arg2 harg2 arg3 harg3 arg4 harg4 arg5 harg5 arg6 harg6 arg7 harg7 arg8 harg8 arg9 harg9 arg10 harg10 hc0 hc1 x0 x1).1 S1024x2048.size (by sl_kernel_rfl) y

/-- What case A leaves in output 5's staging buffer: its pieces read back. -/
def out1_A_5 (c : Dev nD) (i : grid1.Coords) (arg2 : Memref sig .tc .vmem S1024x2048 .f32) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1024x2048 .bf16) (harg7 : arg7.IsWhole) (arg8 : Memref sig .tc .vmem S1024x128 .bf16) (harg8 : arg8.IsWhole) (arg9 : Memref sig .tc .vmem S1024x128 .f32) (harg9 : arg9.IsWhole) (arg10 : Memref sig .tc .vmem S1024x128 .f32) (harg10 : arg10.IsWhole) (hc0 : cond1_0 i) (hc1 : ¬cond1_1 i)
    (x0 : Vec F S1024x2048 .f32) (x1 : Vec F S8192x128 .bf16) : Vec F S1024x2048 .bf16 :=
  VO1_5.read (Elt F) (VO1_5.writes (Elt F) VO1_5.junk (kernelRun1_A c i arg2 harg2 arg3 harg3 arg4 harg4 arg5 harg5 arg6 harg6 arg7 harg7 arg8 harg8 arg9 harg9 arg10 harg10 hc0 hc1 x0 x1).1)

/-- Case A: the pieces stored into the accumulator cover it. -/
theorem scover1_A_0 (c : Dev nD) (i : grid1.Coords) (arg2 : Memref sig .tc .vmem S1024x2048 .f32) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1024x2048 .bf16) (harg7 : arg7.IsWhole) (arg8 : Memref sig .tc .vmem S1024x128 .bf16) (harg8 : arg8.IsWhole) (arg9 : Memref sig .tc .vmem S1024x128 .f32) (harg9 : arg9.IsWhole) (arg10 : Memref sig .tc .vmem S1024x128 .f32) (harg10 : arg10.IsWhole) (hc0 : cond1_0 i) (hc1 : ¬cond1_1 i)
    (x0 : Vec F S1024x2048 .f32) (x1 : Vec F S8192x128 .bf16) (y : S1024x128.Idx) :
    ∃ pc ∈ (kernelRun1_A c i arg2 harg2 arg3 harg3 arg4 harg4 arg5 harg5 arg6 harg6 arg7 harg7 arg8 harg8 arg9 harg9 arg10 harg10 hc0 hc1 x0 x1).2.1, y ∈ pc.1.set :=
  View.cover_of_tiledL (kernelRun1_A c i arg2 harg2 arg3 harg3 arg4 harg4 arg5 harg5 arg6 harg6 arg7 harg7 arg8 harg8 arg9 harg9 arg10 harg10 hc0 hc1 x0 x1).2.1 S1024x128.size (by sl_kernel_rfl) y

/-- What case A leaves in the accumulator. -/
def sout1_A_0 (c : Dev nD) (i : grid1.Coords) (arg2 : Memref sig .tc .vmem S1024x2048 .f32) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1024x2048 .bf16) (harg7 : arg7.IsWhole) (arg8 : Memref sig .tc .vmem S1024x128 .bf16) (harg8 : arg8.IsWhole) (arg9 : Memref sig .tc .vmem S1024x128 .f32) (harg9 : arg9.IsWhole) (arg10 : Memref sig .tc .vmem S1024x128 .f32) (harg10 : arg10.IsWhole) (hc0 : cond1_0 i) (hc1 : ¬cond1_1 i)
    (x0 : Vec F S1024x2048 .f32) (x1 : Vec F S8192x128 .bf16) : Vec F S1024x128 .f32 :=
  VS1_0.read (Elt F) (VS1_0.writes (Elt F) VS1_0.junk (kernelRun1_A c i arg2 harg2 arg3 harg3 arg4 harg4 arg5 harg5 arg6 harg6 arg7 harg7 arg8 harg8 arg9 harg9 arg10 harg10 hc0 hc1 x0 x1).2.1)

/-- Case B: the pieces stored into output 5 tile its block, so they cover it. -/
theorem cover1_B_5 (c : Dev nD) (i : grid1.Coords) (arg2 : Memref sig .tc .vmem S1024x2048 .f32) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1024x2048 .bf16) (harg7 : arg7.IsWhole) (arg8 : Memref sig .tc .vmem S1024x128 .bf16) (harg8 : arg8.IsWhole) (arg9 : Memref sig .tc .vmem S1024x128 .f32) (harg9 : arg9.IsWhole) (arg10 : Memref sig .tc .vmem S1024x128 .f32) (harg10 : arg10.IsWhole) (hc0 : ¬cond1_0 i) (hc1 : ¬cond1_1 i)
    (x0 : Vec F S1024x2048 .f32) (x1 : Vec F S8192x128 .bf16) (xs0 : Vec F S1024x128 .f32) (y : S1024x2048.Idx) :
    ∃ pc ∈ (kernelRun1_B c i arg2 harg2 arg3 harg3 arg4 harg4 arg5 harg5 arg6 harg6 arg7 harg7 arg8 harg8 arg9 harg9 arg10 harg10 hc0 hc1 x0 x1 xs0).1, y ∈ pc.1.set :=
  View.cover_of_tiledL (kernelRun1_B c i arg2 harg2 arg3 harg3 arg4 harg4 arg5 harg5 arg6 harg6 arg7 harg7 arg8 harg8 arg9 harg9 arg10 harg10 hc0 hc1 x0 x1 xs0).1 S1024x2048.size (by sl_kernel_rfl) y

/-- What case B leaves in output 5's staging buffer: its pieces read back. -/
def out1_B_5 (c : Dev nD) (i : grid1.Coords) (arg2 : Memref sig .tc .vmem S1024x2048 .f32) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1024x2048 .bf16) (harg7 : arg7.IsWhole) (arg8 : Memref sig .tc .vmem S1024x128 .bf16) (harg8 : arg8.IsWhole) (arg9 : Memref sig .tc .vmem S1024x128 .f32) (harg9 : arg9.IsWhole) (arg10 : Memref sig .tc .vmem S1024x128 .f32) (harg10 : arg10.IsWhole) (hc0 : ¬cond1_0 i) (hc1 : ¬cond1_1 i)
    (x0 : Vec F S1024x2048 .f32) (x1 : Vec F S8192x128 .bf16) (xs0 : Vec F S1024x128 .f32) : Vec F S1024x2048 .bf16 :=
  VO1_5.read (Elt F) (VO1_5.writes (Elt F) VO1_5.junk (kernelRun1_B c i arg2 harg2 arg3 harg3 arg4 harg4 arg5 harg5 arg6 harg6 arg7 harg7 arg8 harg8 arg9 harg9 arg10 harg10 hc0 hc1 x0 x1 xs0).1)

/-- Case B: the pieces stored into the accumulator cover it. -/
theorem scover1_B_0 (c : Dev nD) (i : grid1.Coords) (arg2 : Memref sig .tc .vmem S1024x2048 .f32) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1024x2048 .bf16) (harg7 : arg7.IsWhole) (arg8 : Memref sig .tc .vmem S1024x128 .bf16) (harg8 : arg8.IsWhole) (arg9 : Memref sig .tc .vmem S1024x128 .f32) (harg9 : arg9.IsWhole) (arg10 : Memref sig .tc .vmem S1024x128 .f32) (harg10 : arg10.IsWhole) (hc0 : ¬cond1_0 i) (hc1 : ¬cond1_1 i)
    (x0 : Vec F S1024x2048 .f32) (x1 : Vec F S8192x128 .bf16) (xs0 : Vec F S1024x128 .f32) (y : S1024x128.Idx) :
    ∃ pc ∈ (kernelRun1_B c i arg2 harg2 arg3 harg3 arg4 harg4 arg5 harg5 arg6 harg6 arg7 harg7 arg8 harg8 arg9 harg9 arg10 harg10 hc0 hc1 x0 x1 xs0).2.1, y ∈ pc.1.set :=
  View.cover_of_tiledL (kernelRun1_B c i arg2 harg2 arg3 harg3 arg4 harg4 arg5 harg5 arg6 harg6 arg7 harg7 arg8 harg8 arg9 harg9 arg10 harg10 hc0 hc1 x0 x1 xs0).2.1 S1024x128.size (by sl_kernel_rfl) y

/-- What case B leaves in the accumulator. -/
def sout1_B_0 (c : Dev nD) (i : grid1.Coords) (arg2 : Memref sig .tc .vmem S1024x2048 .f32) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1024x2048 .bf16) (harg7 : arg7.IsWhole) (arg8 : Memref sig .tc .vmem S1024x128 .bf16) (harg8 : arg8.IsWhole) (arg9 : Memref sig .tc .vmem S1024x128 .f32) (harg9 : arg9.IsWhole) (arg10 : Memref sig .tc .vmem S1024x128 .f32) (harg10 : arg10.IsWhole) (hc0 : ¬cond1_0 i) (hc1 : ¬cond1_1 i)
    (x0 : Vec F S1024x2048 .f32) (x1 : Vec F S8192x128 .bf16) (xs0 : Vec F S1024x128 .f32) : Vec F S1024x128 .f32 :=
  VS1_0.read (Elt F) (VS1_0.writes (Elt F) VS1_0.junk (kernelRun1_B c i arg2 harg2 arg3 harg3 arg4 harg4 arg5 harg5 arg6 harg6 arg7 harg7 arg8 harg8 arg9 harg9 arg10 harg10 hc0 hc1 x0 x1 xs0).2.1)

/-- Case C: the pieces stored into output 5 tile its block, so they cover it. -/
theorem cover1_C_5 (c : Dev nD) (i : grid1.Coords) (arg2 : Memref sig .tc .vmem S1024x2048 .f32) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1024x2048 .bf16) (harg7 : arg7.IsWhole) (arg8 : Memref sig .tc .vmem S1024x128 .bf16) (harg8 : arg8.IsWhole) (arg9 : Memref sig .tc .vmem S1024x128 .f32) (harg9 : arg9.IsWhole) (arg10 : Memref sig .tc .vmem S1024x128 .f32) (harg10 : arg10.IsWhole) (hc0 : ¬cond1_0 i) (hc1 : cond1_1 i)
    (x0 : Vec F S1024x2048 .f32) (x1 : Vec F S8192x128 .bf16) (x2 : Vec F S1024x128 .f32) (x4 : Vec F S1x1 .f32) (xs0 : Vec F S1024x128 .f32) (y : S1024x2048.Idx) :
    ∃ pc ∈ (kernelRun1_C c i arg2 harg2 arg3 harg3 arg4 harg4 arg5 harg5 arg6 harg6 arg7 harg7 arg8 harg8 arg9 harg9 arg10 harg10 hc0 hc1 x0 x1 x2 x4 xs0).1, y ∈ pc.1.set :=
  View.cover_of_tiledL (kernelRun1_C c i arg2 harg2 arg3 harg3 arg4 harg4 arg5 harg5 arg6 harg6 arg7 harg7 arg8 harg8 arg9 harg9 arg10 harg10 hc0 hc1 x0 x1 x2 x4 xs0).1 S1024x2048.size (by sl_kernel_rfl) y

/-- What case C leaves in output 5's staging buffer: its pieces read back. -/
def out1_C_5 (c : Dev nD) (i : grid1.Coords) (arg2 : Memref sig .tc .vmem S1024x2048 .f32) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1024x2048 .bf16) (harg7 : arg7.IsWhole) (arg8 : Memref sig .tc .vmem S1024x128 .bf16) (harg8 : arg8.IsWhole) (arg9 : Memref sig .tc .vmem S1024x128 .f32) (harg9 : arg9.IsWhole) (arg10 : Memref sig .tc .vmem S1024x128 .f32) (harg10 : arg10.IsWhole) (hc0 : ¬cond1_0 i) (hc1 : cond1_1 i)
    (x0 : Vec F S1024x2048 .f32) (x1 : Vec F S8192x128 .bf16) (x2 : Vec F S1024x128 .f32) (x4 : Vec F S1x1 .f32) (xs0 : Vec F S1024x128 .f32) : Vec F S1024x2048 .bf16 :=
  VO1_5.read (Elt F) (VO1_5.writes (Elt F) VO1_5.junk (kernelRun1_C c i arg2 harg2 arg3 harg3 arg4 harg4 arg5 harg5 arg6 harg6 arg7 harg7 arg8 harg8 arg9 harg9 arg10 harg10 hc0 hc1 x0 x1 x2 x4 xs0).1)

/-- Case C: the pieces stored into output 6 tile its block, so they cover it. -/
theorem cover1_C_6 (c : Dev nD) (i : grid1.Coords) (arg2 : Memref sig .tc .vmem S1024x2048 .f32) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1024x2048 .bf16) (harg7 : arg7.IsWhole) (arg8 : Memref sig .tc .vmem S1024x128 .bf16) (harg8 : arg8.IsWhole) (arg9 : Memref sig .tc .vmem S1024x128 .f32) (harg9 : arg9.IsWhole) (arg10 : Memref sig .tc .vmem S1024x128 .f32) (harg10 : arg10.IsWhole) (hc0 : ¬cond1_0 i) (hc1 : cond1_1 i)
    (x0 : Vec F S1024x2048 .f32) (x1 : Vec F S8192x128 .bf16) (x2 : Vec F S1024x128 .f32) (x4 : Vec F S1x1 .f32) (xs0 : Vec F S1024x128 .f32) (y : S1024x128.Idx) :
    ∃ pc ∈ (kernelRun1_C c i arg2 harg2 arg3 harg3 arg4 harg4 arg5 harg5 arg6 harg6 arg7 harg7 arg8 harg8 arg9 harg9 arg10 harg10 hc0 hc1 x0 x1 x2 x4 xs0).2.1, y ∈ pc.1.set :=
  View.cover_of_tiledL (kernelRun1_C c i arg2 harg2 arg3 harg3 arg4 harg4 arg5 harg5 arg6 harg6 arg7 harg7 arg8 harg8 arg9 harg9 arg10 harg10 hc0 hc1 x0 x1 x2 x4 xs0).2.1 S1024x128.size (by sl_kernel_rfl) y

/-- What case C leaves in output 6's staging buffer: its pieces read back. -/
def out1_C_6 (c : Dev nD) (i : grid1.Coords) (arg2 : Memref sig .tc .vmem S1024x2048 .f32) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1024x2048 .bf16) (harg7 : arg7.IsWhole) (arg8 : Memref sig .tc .vmem S1024x128 .bf16) (harg8 : arg8.IsWhole) (arg9 : Memref sig .tc .vmem S1024x128 .f32) (harg9 : arg9.IsWhole) (arg10 : Memref sig .tc .vmem S1024x128 .f32) (harg10 : arg10.IsWhole) (hc0 : ¬cond1_0 i) (hc1 : cond1_1 i)
    (x0 : Vec F S1024x2048 .f32) (x1 : Vec F S8192x128 .bf16) (x2 : Vec F S1024x128 .f32) (x4 : Vec F S1x1 .f32) (xs0 : Vec F S1024x128 .f32) : Vec F S1024x128 .bf16 :=
  VO1_6.read (Elt F) (VO1_6.writes (Elt F) VO1_6.junk (kernelRun1_C c i arg2 harg2 arg3 harg3 arg4 harg4 arg5 harg5 arg6 harg6 arg7 harg7 arg8 harg8 arg9 harg9 arg10 harg10 hc0 hc1 x0 x1 x2 x4 xs0).2.1)

/-- Case C: the pieces stored into output 7 tile its block, so they cover it. -/
theorem cover1_C_7 (c : Dev nD) (i : grid1.Coords) (arg2 : Memref sig .tc .vmem S1024x2048 .f32) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1024x2048 .bf16) (harg7 : arg7.IsWhole) (arg8 : Memref sig .tc .vmem S1024x128 .bf16) (harg8 : arg8.IsWhole) (arg9 : Memref sig .tc .vmem S1024x128 .f32) (harg9 : arg9.IsWhole) (arg10 : Memref sig .tc .vmem S1024x128 .f32) (harg10 : arg10.IsWhole) (hc0 : ¬cond1_0 i) (hc1 : cond1_1 i)
    (x0 : Vec F S1024x2048 .f32) (x1 : Vec F S8192x128 .bf16) (x2 : Vec F S1024x128 .f32) (x4 : Vec F S1x1 .f32) (xs0 : Vec F S1024x128 .f32) (y : S1024x128.Idx) :
    ∃ pc ∈ (kernelRun1_C c i arg2 harg2 arg3 harg3 arg4 harg4 arg5 harg5 arg6 harg6 arg7 harg7 arg8 harg8 arg9 harg9 arg10 harg10 hc0 hc1 x0 x1 x2 x4 xs0).2.2.1, y ∈ pc.1.set :=
  View.cover_of_tiledL (kernelRun1_C c i arg2 harg2 arg3 harg3 arg4 harg4 arg5 harg5 arg6 harg6 arg7 harg7 arg8 harg8 arg9 harg9 arg10 harg10 hc0 hc1 x0 x1 x2 x4 xs0).2.2.1 S1024x128.size (by sl_kernel_rfl) y

/-- What case C leaves in output 7's staging buffer: its pieces read back. -/
def out1_C_7 (c : Dev nD) (i : grid1.Coords) (arg2 : Memref sig .tc .vmem S1024x2048 .f32) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1024x2048 .bf16) (harg7 : arg7.IsWhole) (arg8 : Memref sig .tc .vmem S1024x128 .bf16) (harg8 : arg8.IsWhole) (arg9 : Memref sig .tc .vmem S1024x128 .f32) (harg9 : arg9.IsWhole) (arg10 : Memref sig .tc .vmem S1024x128 .f32) (harg10 : arg10.IsWhole) (hc0 : ¬cond1_0 i) (hc1 : cond1_1 i)
    (x0 : Vec F S1024x2048 .f32) (x1 : Vec F S8192x128 .bf16) (x2 : Vec F S1024x128 .f32) (x4 : Vec F S1x1 .f32) (xs0 : Vec F S1024x128 .f32) : Vec F S1024x128 .f32 :=
  VO1_7.read (Elt F) (VO1_7.writes (Elt F) VO1_7.junk (kernelRun1_C c i arg2 harg2 arg3 harg3 arg4 harg4 arg5 harg5 arg6 harg6 arg7 harg7 arg8 harg8 arg9 harg9 arg10 harg10 hc0 hc1 x0 x1 x2 x4 xs0).2.2.1)

/-- Case C: the pieces stored into the accumulator cover it. -/
theorem scover1_C_0 (c : Dev nD) (i : grid1.Coords) (arg2 : Memref sig .tc .vmem S1024x2048 .f32) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1024x2048 .bf16) (harg7 : arg7.IsWhole) (arg8 : Memref sig .tc .vmem S1024x128 .bf16) (harg8 : arg8.IsWhole) (arg9 : Memref sig .tc .vmem S1024x128 .f32) (harg9 : arg9.IsWhole) (arg10 : Memref sig .tc .vmem S1024x128 .f32) (harg10 : arg10.IsWhole) (hc0 : ¬cond1_0 i) (hc1 : cond1_1 i)
    (x0 : Vec F S1024x2048 .f32) (x1 : Vec F S8192x128 .bf16) (x2 : Vec F S1024x128 .f32) (x4 : Vec F S1x1 .f32) (xs0 : Vec F S1024x128 .f32) (y : S1024x128.Idx) :
    ∃ pc ∈ (kernelRun1_C c i arg2 harg2 arg3 harg3 arg4 harg4 arg5 harg5 arg6 harg6 arg7 harg7 arg8 harg8 arg9 harg9 arg10 harg10 hc0 hc1 x0 x1 x2 x4 xs0).2.2.2.1, y ∈ pc.1.set :=
  View.cover_of_tiledL (kernelRun1_C c i arg2 harg2 arg3 harg3 arg4 harg4 arg5 harg5 arg6 harg6 arg7 harg7 arg8 harg8 arg9 harg9 arg10 harg10 hc0 hc1 x0 x1 x2 x4 xs0).2.2.2.1 S1024x128.size (by sl_kernel_rfl) y

/-- What case C leaves in the accumulator. -/
def sout1_C_0 (c : Dev nD) (i : grid1.Coords) (arg2 : Memref sig .tc .vmem S1024x2048 .f32) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1024x2048 .bf16) (harg7 : arg7.IsWhole) (arg8 : Memref sig .tc .vmem S1024x128 .bf16) (harg8 : arg8.IsWhole) (arg9 : Memref sig .tc .vmem S1024x128 .f32) (harg9 : arg9.IsWhole) (arg10 : Memref sig .tc .vmem S1024x128 .f32) (harg10 : arg10.IsWhole) (hc0 : ¬cond1_0 i) (hc1 : cond1_1 i)
    (x0 : Vec F S1024x2048 .f32) (x1 : Vec F S8192x128 .bf16) (x2 : Vec F S1024x128 .f32) (x4 : Vec F S1x1 .f32) (xs0 : Vec F S1024x128 .f32) : Vec F S1024x128 .f32 :=
  VS1_0.read (Elt F) (VS1_0.writes (Elt F) VS1_0.junk (kernelRun1_C c i arg2 harg2 arg3 harg3 arg4 harg4 arg5 harg5 arg6 harg6 arg7 harg7 arg8 harg8 arg9 harg9 arg10 harg10 hc0 hc1 x0 x1 x2 x4 xs0).2.2.2.1)

/-! ## The accumulator point by point -/

/-- What the accumulator holds after the body at position `n`: the case of `n` (its column tile is `n % 4`) run on the
    point's blocks, from what position `n - 1` left when the tile is not the first. -/
def accAt1 (c : Dev nD) : (n : ℕ) → n < cfg1.N → Vec F S1024x128 .f32
  | 0, hn => sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) scM1_0 (Memref.isWhole_whole _) ((hcond1_0 ⟨0, hn⟩).mpr (Nat.zero_mod _)) (fun h => (fun h' => by (try dsimp only at h'); omega) ((hcond1_1 ⟨0, hn⟩).mp h)) (iblk1 V c 0 ⟨0, hn⟩) (iblk1 V c 1 ⟨0, hn⟩)
  | n + 1, hn =>
    if h0 : (n + 1) % 4 = 0 then
      sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) ((hcond1_0 ⟨n + 1, hn⟩).mpr h0) (fun h => (fun h' => by (try dsimp only at h'); omega) ((hcond1_1 ⟨n + 1, hn⟩).mp h)) (iblk1 V c 0 ⟨n + 1, hn⟩) (iblk1 V c 1 ⟨n + 1, hn⟩)
    else if h1 : (n + 1) % 4 = 3 then
      sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 4 ⟨n + 1, hn⟩) (accAt1 c n (Nat.lt_of_succ_lt hn))
    else
      sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (accAt1 c n (Nat.lt_of_succ_lt hn))

theorem accAt1_A (c : Dev nD) (t : Fin cfg1.N) (h0 : t.val % 4 = 0) :
    accAt1 V c t.val t.isLt = sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) ((hcond1_0 t).mpr h0) (fun h => (fun h' => by (try dsimp only at h'); omega) ((hcond1_1 t).mp h)) (iblk1 V c 0 t) (iblk1 V c 1 t) := by
  obtain ⟨n, hn⟩ := t
  cases n with
  | zero => exact rfl
  | succ n => exact (dif_pos h0).trans rfl

theorem accAt1_B (c : Dev nD) (t : Fin cfg1.N) (h0 : ¬t.val % 4 = 0) (h1 : ¬t.val % 4 = 3) :
    accAt1 V c t.val t.isLt = sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) (fun h => h1 ((hcond1_1 t).mp h)) (iblk1 V c 0 t) (iblk1 V c 1 t) (accAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem accAt1_C (c : Dev nD) (t : Fin cfg1.N) (h0 : ¬t.val % 4 = 0) (h1 : t.val % 4 = 3) :
    accAt1 V c t.val t.isLt = sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) ((hcond1_1 t).mpr h1) (iblk1 V c 0 t) (iblk1 V c 1 t) (iblk1 V c 2 t) (iblk1 V c 4 t) (accAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-! ## The outputs point by point -/

/-- The bf16 copy of the S tile after the body at point `t` (stored in every case). -/
def out5At1 (c : Dev nD) (t : Fin cfg1.N) : Vec F S1024x2048 .bf16 :=
  if h0 : t.val % 4 = 0 then out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) ((hcond1_0 t).mpr h0) (fun h => (fun h' => by (try dsimp only at h'); omega) ((hcond1_1 t).mp h)) (iblk1 V c 0 t) (iblk1 V c 1 t)
  else if h1 : t.val % 4 = 3 then out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) ((hcond1_1 t).mpr h1) (iblk1 V c 0 t) (iblk1 V c 1 t) (iblk1 V c 2 t) (iblk1 V c 4 t) (accAt1 V c (t.val - 1) (Nat.lt_of_le_of_lt (Nat.sub_le _ _) t.isLt))
  else out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) (fun h => h1 ((hcond1_1 t).mp h)) (iblk1 V c 0 t) (iblk1 V c 1 t) (accAt1 V c (t.val - 1) (Nat.lt_of_le_of_lt (Nat.sub_le _ _) t.isLt))

theorem out5At1_A (c : Dev nD) (t : Fin cfg1.N) (h0 : t.val % 4 = 0) :
    out5At1 V c t = out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) ((hcond1_0 t).mpr h0) (fun h => (fun h' => by (try dsimp only at h'); omega) ((hcond1_1 t).mp h)) (iblk1 V c 0 t) (iblk1 V c 1 t) := dif_pos h0
theorem out5At1_B (c : Dev nD) (t : Fin cfg1.N) (h0 : ¬t.val % 4 = 0) (h1 : ¬t.val % 4 = 3) :
    out5At1 V c t = out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) (fun h => h1 ((hcond1_1 t).mp h)) (iblk1 V c 0 t) (iblk1 V c 1 t) (accAt1 V c (t.val - 1) (Nat.lt_of_le_of_lt (Nat.sub_le _ _) t.isLt)) := (dif_neg h0).trans (dif_neg h1)
theorem out5At1_C (c : Dev nD) (t : Fin cfg1.N) (h0 : ¬t.val % 4 = 0) (h1 : t.val % 4 = 3) :
    out5At1 V c t = out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) ((hcond1_1 t).mpr h1) (iblk1 V c 0 t) (iblk1 V c 1 t) (iblk1 V c 2 t) (iblk1 V c 4 t) (accAt1 V c (t.val - 1) (Nat.lt_of_le_of_lt (Nat.sub_le _ _) t.isLt)) := (dif_neg h0).trans (dif_pos h1)

/-- The propagated features' row tile after the body at point `t`: stored at the last column tile; elsewhere the window is
    idle and this value is consulted by nothing. -/
def out6At1 (c : Dev nD) (t : Fin cfg1.N) : Vec F S1024x128 .bf16 :=
  if h : ¬t.val % 4 = 0 ∧ t.val % 4 = 3 then out1_C_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun hh => h.1 ((hcond1_0 t).mp hh)) ((hcond1_1 t).mpr h.2) (iblk1 V c 0 t) (iblk1 V c 1 t) (iblk1 V c 2 t) (iblk1 V c 4 t) (accAt1 V c (t.val - 1) (Nat.lt_of_le_of_lt (Nat.sub_le _ _) t.isLt))
  else VO1_6.read (Elt F) VO1_6.junk
theorem out6At1_C (c : Dev nD) (t : Fin cfg1.N) (h0 : ¬t.val % 4 = 0) (h1 : t.val % 4 = 3) :
    out6At1 V c t = out1_C_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) ((hcond1_1 t).mpr h1) (iblk1 V c 0 t) (iblk1 V c 1 t) (iblk1 V c 2 t) (iblk1 V c 4 t) (accAt1 V c (t.val - 1) (Nat.lt_of_le_of_lt (Nat.sub_le _ _) t.isLt)) := dif_pos ⟨h0, h1⟩

/-- The filter output's row tile after the body at point `t`: as the one before. -/
def out7At1 (c : Dev nD) (t : Fin cfg1.N) : Vec F S1024x128 .f32 :=
  if h : ¬t.val % 4 = 0 ∧ t.val % 4 = 3 then out1_C_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun hh => h.1 ((hcond1_0 t).mp hh)) ((hcond1_1 t).mpr h.2) (iblk1 V c 0 t) (iblk1 V c 1 t) (iblk1 V c 2 t) (iblk1 V c 4 t) (accAt1 V c (t.val - 1) (Nat.lt_of_le_of_lt (Nat.sub_le _ _) t.isLt))
  else VO1_7.read (Elt F) VO1_7.junk
theorem out7At1_C (c : Dev nD) (t : Fin cfg1.N) (h0 : ¬t.val % 4 = 0) (h1 : t.val % 4 = 3) :
    out7At1 V c t = out1_C_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) ((hcond1_1 t).mpr h1) (iblk1 V c 0 t) (iblk1 V c 1 t) (iblk1 V c 2 t) (iblk1 V c 4 t) (accAt1 V c (t.val - 1) (Nat.lt_of_le_of_lt (Nat.sub_le _ _) t.isLt)) := dif_pos ⟨h0, h1⟩

/-! ## The region invariant with the accumulator carried -/

/-- Before position `n`: before the first point what the launch hands the call; afterwards the accumulator at what the
    point before left, every other scoped buffer unopened, the generator register at some state. -/
def PhiS1 (c : Dev nD) : (n : ℕ) → n ≤ cfg1.N → sProp 𝕄
  | 0, _ => Pipeline.ΦA spec1 c
  | n + 1, hn => iprop(iprop(iprop(owns (c : Thread nD τ) scM1_0 fullShare (accAt1 V c n hn))
      ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(iprop(owns (c : Thread nD τ) scM1_0 fullShare (accAt1 V c n hn))
      ∗ Pipeline.scopedRestBut (Ix := Unit) (Name := ℕ) (U := UR sig nD τ) (Lvl := ℕ) (Val := Elt F) spec1 c [cc1_scratch0]) ∗ (∃ r, prngReg c r)) := rfl

theorem PhiS1_pos (c : Dev nD) (n : ℕ) (h : n ≤ cfg1.N) (hz : n ≠ 0) :
    PhiS1 V c n h = iprop(iprop(iprop(owns (c : Thread nD τ) scM1_0 fullShare (accAt1 V c (n - 1) (by omega)))
      ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-! ## The pipeline's proof data -/

/-- The proof data of the call's pipeline on core `c` at the entry contents `V`: after the body at point `t` each input's
    buffer at its block and each output's at what the point's case stored; the invariant carries the accumulator;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out5At1 V c t
    | ⟨6, _⟩ => out6At1 V c t
    | ⟨7, _⟩ => out7At1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out5At1 V c t := by dsimp only [dat1]
theorem after1_6 (c : Dev nD) (t : Fin cfg1.N) : (dat1 V c).after 6 t = out6At1 V c t := by dsimp only [dat1]
theorem after1_7 (c : Dev nD) (t : Fin cfg1.N) : (dat1 V c).after 7 t = out7At1 V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

theorem leaves1_0 (c : Dev nD) (t : Fin cfg1.N) :
    (dat1 V c).leavesExact 0 t = owns (c : Thread nD τ) (ms1_0 t) fullShare ((dat1 V c).after 0 t) := by
  unfold Dat.leavesExact; rw [liveAt1_0 t]
theorem leaves1_1 (c : Dev nD) (t : Fin cfg1.N) :
    (dat1 V c).leavesExact 1 t = owns (c : Thread nD τ) (ms1_1 t) fullShare ((dat1 V c).after 1 t) := by
  unfold Dat.leavesExact; rw [liveAt1_1 t]
theorem leaves1_2 (c : Dev nD) (t : Fin cfg1.N) :
    (dat1 V c).leavesExact 2 t = owns (c : Thread nD τ) (ms1_2 t) fullShare ((dat1 V c).after 2 t) := by
  unfold Dat.leavesExact; rw [liveAt1_2 t]
theorem leaves1_3 (c : Dev nD) (t : Fin cfg1.N) :
    (dat1 V c).leavesExact 3 t = owns (c : Thread nD τ) (ms1_3 t) fullShare ((dat1 V c).after 3 t) := by
  unfold Dat.leavesExact; rw [liveAt1_3 t]
theorem leaves1_4 (c : Dev nD) (t : Fin cfg1.N) :
    (dat1 V c).leavesExact 4 t = owns (c : Thread nD τ) (ms1_4 t) fullShare ((dat1 V c).after 4 t) := by
  unfold Dat.leavesExact; rw [liveAt1_4 t]
theorem leaves1_5 (c : Dev nD) (t : Fin cfg1.N) :
    (dat1 V c).leavesExact 5 t = owns (c : Thread nD τ) (ms1_5 t) fullShare ((dat1 V c).after 5 t) := by
  unfold Dat.leavesExact; rw [liveAt1_5 t]
theorem leaves1_6_C (c : Dev nD) (t : Fin cfg1.N) (hc0 : ¬cond1_0 (grid1.coords t)) (hc1 : cond1_1 (grid1.coords t)) :
    (dat1 V c).leavesExact 6 t = owns (c : Thread nD τ) (ms1_6 t) fullShare ((dat1 V c).after 6 t) := by
  unfold Dat.leavesExact; rw [liveAt1_6_C t hc0 hc1]
theorem leaves1_7_C (c : Dev nD) (t : Fin cfg1.N) (hc0 : ¬cond1_0 (grid1.coords t)) (hc1 : cond1_1 (grid1.coords t)) :
    (dat1 V c).leavesExact 7 t = owns (c : Thread nD τ) (ms1_7 t) fullShare ((dat1 V c).after 7 t) := by
  unfold Dat.leavesExact; rw [liveAt1_7_C t hc0 hc1]

end Cert.KernelIdeal.Hand

end
-- ==== Proof.KI.Cast1.lean ====
/- The casting propagate call: the body obligation of its pipeline at every grid point, and the passage of the
   region invariant into the first point and out of the last. The closed forms of the two branch conditions say which
   of the three cases a point is in; the case's whole-body run applies; the accumulator is handed over at what the
   point before left (at anything at the very first point) and taken back at what this point leaves. -/
import proofs.«131271_j4982162063661_2_alg».proof.Proof.KI.Cast1Dat

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`. -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))

/-- What it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

set_option maxHeartbeats 8000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2, leaves1_3, leaves1_4, leaves1_5, after1_0, after1_1, after1_2, after1_3, after1_4, after1_5]
  have hN : t.val < 32 := lt_of_lt_of_eq t.isLt (show cfg1.N = 32 from N_1)
  by_cases h0 : t.val % 4 = 0
  · have hc0 : cond1_0 (grid1.coords t) := (hcond1_0 t).mpr h0
    have hc1 : ¬cond1_1 (grid1.coords t) := fun h => by have := (hcond1_1 t).mp h; omega
    rw [Dat.leavesExact_idle (dat1 V c) 6 t (idleAt1_6_A t hc0 hc1) (noFlush1_6_A t hc0 hc1)]
    rw [Dat.leavesExact_idle (dat1 V c) 7 t (idleAt1_7_A t hc0 hc1) (noFlush1_7_A t hc0 hc1)]
    rw [out5At1_A V c t h0, accAt1_A V c t h0]
    unfold out1_A_5 sout1_A_0; (try dsimp only)
    by_cases hz : t.val = 0
    · rw [PhiS1_castSucc V c t, PhiS1_zero V c _ _ hz, PhiA1_eq]
      iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun1_A c (grid1.coords t) _ _ _ _ _ _ _ _ _ _ _ _ _ _ _ _ _ _ ((hcond1_0 t).mpr h0) (fun h => (fun h' => by (try dsimp only at h'); omega) ((hcond1_1 t).mp h)) (iblk1 V c 0 t) (iblk1 V c 1 t)).2.2 Set.univ _)
      isplitl [H0]; · iexact H0
      isplitl [H1]; · iexact H1
      isplitl [H5]; · iexists _; iexact H5
      isplitl [HS0]; · iexact HS0
      iintro ⟨H0, H1, ⟨%e5, H5⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover1_A_5 c _ _ _ _ _ _ _ _ _ _ _ _ _ _ _ _ _ _ _ _ _ _ _)
      isplitl [H6]; · iexists _; iexact H6
      iexists _; iexact H7
    · rw [PhiS1_castSucc V c t, PhiS1_pos V c _ _ hz]
      iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun1_A c (grid1.coords t) _ _ _ _ _ _ _ _ _ _ _ _ _ _ _ _ _ _ ((hcond1_0 t).mpr h0) (fun h => (fun h' => by (try dsimp only at h'); omega) ((hcond1_1 t).mp h)) (iblk1 V c 0 t) (iblk1 V c 1 t)).2.2 Set.univ _)
      isplitl [H0]; · iexact H0
      isplitl [H1]; · iexact H1
      isplitl [H5]; · iexists _; iexact H5
      isplitl [HS0]; · iexists _; iexact HS0
      iintro ⟨H0, H1, ⟨%e5, H5⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover1_A_5 c _ _ _ _ _ _ _ _ _ _ _ _ _ _ _ _ _ _ _ _ _ _ _)
      isplitl [H6]; · iexists _; iexact H6
      iexists _; iexact H7
  · have hz : t.val ≠ 0 := fun h => h0 (by rw [h])
    have hc0 : ¬cond1_0 (grid1.coords t) := fun h => h0 ((hcond1_0 t).mp h)
    by_cases h1 : t.val % 4 = 3
    · have hc1 : cond1_1 (grid1.coords t) := (hcond1_1 t).mpr h1
      rw [leaves1_6_C V c t hc0 hc1, leaves1_7_C V c t hc0 hc1, after1_6, after1_7]
      rw [out5At1_C V c t h0 h1, out6At1_C V c t h0 h1, out7At1_C V c t h0 h1, accAt1_C V c t h0 h1]
      unfold out1_C_5 out1_C_6 out1_C_7 sout1_C_0; (try dsimp only)
      rw [PhiS1_castSucc V c t, PhiS1_pos V c _ _ hz]
      iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun1_C c (grid1.coords t) _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 4 t) _).2.2.2.2 Set.univ _)
      isplitl [H0]; · iexact H0
      isplitl [H1]; · iexact H1
      isplitl [H2]; · iexact H2
      isplitl [H4]; · iexact H4
      isplitl [H5]; · iexists _; iexact H5
      isplitl [H6]; · iexists _; iexact H6
      isplitl [H7]; · iexists _; iexact H7
      isplitl [HS0]; · iexact HS0
      iintro ⟨H0, H1, H2, H4, ⟨%e5, H5⟩, ⟨%e6, H6⟩, ⟨%e7, H7⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover1_C_0 c _ _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover1_C_5 c _ _ _ _ _ _ _ _ _ _ _ _ _ _ _ _ _ _ _ _ _ _ _ _ _ _)
      isplitl [H6]
      · unfold owns; iexists _; isplitr
        swap; · iexact H6
        ipureintro; exact View.read_writes_of_cover _ _ _ _ _ (cover1_C_6 c _ _ _ _ _ _ _ _ _ _ _ _ _ _ _ _ _ _ _ _ _ _ _ _ _ _)
      unfold owns; iexists _; isplitr
      swap; · iexact H7
      ipureintro; exact View.read_writes_of_cover _ _ _ _ _ (cover1_C_7 c _ _ _ _ _ _ _ _ _ _ _ _ _ _ _ _ _ _ _ _ _ _ _ _ _ _)
    · have hc1 : ¬cond1_1 (grid1.coords t) := fun h => h1 ((hcond1_1 t).mp h)
      rw [Dat.leavesExact_idle (dat1 V c) 6 t (idleAt1_6_B t hc0 hc1) (noFlush1_6_B t hc0 hc1)]
      rw [Dat.leavesExact_idle (dat1 V c) 7 t (idleAt1_7_B t hc0 hc1) (noFlush1_7_B t hc0 hc1)]
      rw [out5At1_B V c t h0 h1, accAt1_B V c t h0 h1]
      unfold out1_B_5 sout1_B_0; (try dsimp only)
      rw [PhiS1_castSucc V c t, PhiS1_pos V c _ _ hz]
      iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun1_B c (grid1.coords t) _ _ _ _ _ _ _ _ _ _ _ _ _ _ _ _ _ _ (fun h => h0 ((hcond1_0 t).mp h)) (fun h => h1 ((hcond1_1 t).mp h)) (iblk1 V c 0 t) (iblk1 V c 1 t) _).2.2 Set.univ _)
      isplitl [H0]; · iexact H0
      isplitl [H1]; · iexact H1
      isplitl [H5]; · iexists _; iexact H5
      isplitl [HS0]; · iexact HS0
      iintro ⟨H0, H1, ⟨%e5, H5⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover1_B_0 c _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover1_B_5 c _ _ _ _ _ _ _ _ _ _ _ _ _ _ _ _ _ _ _ _ _ _ _ _)
      isplitl [H6]; · iexists _; iexact H6
      iexists _; iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the call is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the launch's back: the accumulator's contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, Hr⟩, Hg⟩
  isplitl [HS0 Hr]
  · isplitl [HS0]
    · iexists _; iexact HS0
    iexact Hr
  iexact Hg

/-- The same after the last point. -/
theorem hout1 (c : Dev nD) : (dat1 V c).Φ (Fin.last cfg1.N) ⊢ Pipeline.ΦA spec1 c :=
  Phi_out1 V c _ (by rw [Fin.val_last]; have : cfg1.N = 32 := N_1; omega)

end Cert.KernelIdeal.Hand

end
-- ==== Proof.KI.Prop2Runs.lean ====
import proofs.«131271_j4982162063661_2_alg».proof.Proof.Gen.KernelIdeal.Launch
import proofs.«131271_j4982162063661_2_alg».proof.Proof.Gen.KernelIdeal.Skeleton
import proofs.«131271_j4982162063661_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The propagate call number 2: what its three control cases share

The call runs on a grid of 8 x 4 points; point `t` has row tile `i = t / 4` and column tile `k = t % 4`.
The body zeroes its accumulator when `k = 0`, adds the product of the current tile of the matrix with the
matching 2048 rows of the propagated signal at every `k`, and when `k = 3` stores the accumulator into the
two outputs. So there are three control cases: `k = 0` (reset, no output stored), `k = 1, 2` (neither),
`k = 3` (outputs stored). Everything here is stated at the buffer contents `V` the call is entered with. -/

-- the buffer contents when the call is entered
variable (V : (c : Dev nD) → (b : Ref sig .tc) → Buf (Elt F) ((c : Thread nD τ).loc b))

/-- Window `w`'s block at point `t`, read off the window's array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds the window's block at every point, whether the pipeline fetched
    it there or not: where it was not fetched the block index has not moved since the point before. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds the window's block at every point, whether the pipeline fetched
    it there or not: where it was not fetched the block index has not moved since the point before. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds the window's block at every point, whether the pipeline fetched
    it there or not: where it was not fetched the block index has not moved since the point before. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds the window's block at every point, whether the pipeline fetched
    it there or not: where it was not fetched the block index has not moved since the point before. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds the window's block at every point, whether the pipeline fetched
    it there or not: where it was not fetched the block index has not moved since the point before. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's two conditions, in closed form over the grid -/

/-- The condition of the first `scf.if` (the reset): the column tile is the first. -/
abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 4 = 0 :=
  (by decide +kernel : ∀ t : Fin grid2.N, cond2_0 (grid2.coords t) ↔ t.val % 4 = 0)

/-- The condition of the second `scf.if` (the outputs' stores): the column tile is the last. -/
abbrev cond2_1 (i : grid2.Coords) : Prop := k2_cond2 i = 1#1
theorem hcond2_1 : ∀ t : Fin cfg2.N, cond2_1 (grid2.coords t) ↔ t.val % 4 = 3 :=
  (by decide +kernel : ∀ t : Fin grid2.N, cond2_1 (grid2.coords t) ↔ t.val % 4 = 3)

/-! ## Where the two outputs are idle -/

/-- At the points with k = 0 output 5 is idle: the body stores nothing into it and the pipeline does not write it back. -/
theorem idleAt2_5_A : ∀ t : Fin cfg2.N, cond2_0 (grid2.coords t) → ¬cond2_1 (grid2.coords t) → cfg2.idle 5 (grid2.coords t) = true := by decide +kernel
theorem noFlush2_5_A : ∀ t : Fin cfg2.N, cond2_0 (grid2.coords t) → ¬cond2_1 (grid2.coords t) → (cfg2.win 5).flush t = false := by decide +kernel
/-- The same at the points with k = 1 and k = 2. -/
theorem idleAt2_5_B : ∀ t : Fin cfg2.N, ¬cond2_0 (grid2.coords t) → ¬cond2_1 (grid2.coords t) → cfg2.idle 5 (grid2.coords t) = true := by decide +kernel
theorem noFlush2_5_B : ∀ t : Fin cfg2.N, ¬cond2_0 (grid2.coords t) → ¬cond2_1 (grid2.coords t) → (cfg2.win 5).flush t = false := by decide +kernel
/-- At the points with k = 3 output 5 is live: the body stores its whole block. -/
theorem liveAt2_5_C : ∀ t : Fin cfg2.N, ¬cond2_0 (grid2.coords t) → cond2_1 (grid2.coords t) → cfg2.idle 5 (grid2.coords t) = false := by decide +kernel

/-- At the points with k = 0 output 6 is idle: the body stores nothing into it and the pipeline does not write it back. -/
theorem idleAt2_6_A : ∀ t : Fin cfg2.N, cond2_0 (grid2.coords t) → ¬cond2_1 (grid2.coords t) → cfg2.idle 6 (grid2.coords t) = true := by decide +kernel
theorem noFlush2_6_A : ∀ t : Fin cfg2.N, cond2_0 (grid2.coords t) → ¬cond2_1 (grid2.coords t) → (cfg2.win 6).flush t = false := by decide +kernel
/-- The same at the points with k = 1 and k = 2. -/
theorem idleAt2_6_B : ∀ t : Fin cfg2.N, ¬cond2_0 (grid2.coords t) → ¬cond2_1 (grid2.coords t) → cfg2.idle 6 (grid2.coords t) = true := by decide +kernel
theorem noFlush2_6_B : ∀ t : Fin cfg2.N, ¬cond2_0 (grid2.coords t) → ¬cond2_1 (grid2.coords t) → (cfg2.win 6).flush t = false := by decide +kernel
/-- At the points with k = 3 output 6 is live: the body stores its whole block. -/
theorem liveAt2_6_C : ∀ t : Fin cfg2.N, ¬cond2_0 (grid2.coords t) → cond2_1 (grid2.coords t) → cfg2.idle 6 (grid2.coords t) = false := by decide +kernel

/-! ## The memrefs the body is called with -/

/-- One staging buffer of each output, through which its contents are stated (the choice does not matter). -/
abbrev VO2_5 : View sig .tc .vmem S1024x128 .bf16 := (Memref.whole cc2_stg5_0 : Memref sig .tc .vmem S1024x128 .bf16).view
abbrev VO2_6 : View sig .tc .vmem S1024x128 .f32 := (Memref.whole cc2_stg6_0 : Memref sig .tc .vmem S1024x128 .f32).view
abbrev ms2_0 (t : Fin cfg2.N) : Memref sig .tc .vmem S1024x2048 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S8192x128 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x128 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x128 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x1 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1024x128 .bf16 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S1024x128 .f32 := win2_6.stage (cfg2.slots t 6)
abbrev hs2_6 (t : Fin cfg2.N) : (ms2_6 t).IsWhole := hstage2_6 ((cfg2.slots t 6).cast nbuf2_6)
/-- The accumulator: a whole scoped buffer of the call's own, carried from point to point. -/
abbrev scM2_0 : Memref sig .tc .vmem S1024x128 .f32 := Memref.whole cc2_scratch0
abbrev VS2_0 : View sig .tc .vmem S1024x128 .f32 := scM2_0.view

/-- The invariant the launch hands the call, with the accumulator split out of the scoped buffers: the accumulator
    owned at some contents, every other scoped buffer unopened, the generator register at some state. -/
theorem PhiA2_eq (c : Dev nD) :
    (Pipeline.ΦA spec2 c : sProp 𝕄)
      = iprop(iprop(iprop((∃ d, owns (c : Thread nD τ) scM2_0 fullShare d))
          ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2_0, owns_whole]; try rfl

end Cert.KernelIdeal.Hand

end
-- ==== Proof.KI.Prop2RunA.lean ====
import proofs.«131271_j4982162063661_2_alg».proof.Proof.KI.Prop2Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run when the column tile is the first (the accumulator is reset, then accumulated into; no output is stored): the lists of stores each buffer ends with, together with the proof that on whole
    staging memrefs — the inputs' at their contents, the outputs' at contents handed back untouched, the accumulator
    at anything — the body runs to the continuation holding the inputs' as they were,
    the accumulator with its stores written. The lists are found by running the body. -/
noncomputable def kernelRun2_A (c : Dev nD) (i : grid2.Coords) (arg2 : Memref sig .tc .vmem S1024x2048 .bf16) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .f32) (harg9 : arg9.IsWhole) (hc0 : cond2_0 i) (hc1 : ¬cond2_1 i)
    (x0 : Vec F S1024x2048 .bf16) (x1 : Vec F S8192x128 .bf16) (x2 : Vec F S1024x128 .f32) (x3 : Vec F S1x128 .f32) (x4 : Vec F S1x1 .f32) :
    Σ' (L5 : List (View.Piece (Elt F) S1024x128 .bf16)) (L6 : List (View.Piece (Elt F) S1024x128 .f32)), { LS0 : List (View.Piece (Elt F) S1024x128 .f32) //
      ∀ (xi5 : Vec F S1024x128 .bf16) (xi6 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc2__propagate_kernel i arg2 harg2 arg3 harg3 arg4 harg4 arg5 harg5 arg6 harg6 arg7 harg7 arg8 harg8 arg9 harg9) K } := by
  refine ⟨[], [], ?_, fun xi5 xi6 E K => ?run⟩
  case run =>
    simp only [cc2__propagate_kernel_eq_skeleton]; unfold cc2__propagate_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

end Cert.KernelIdeal.Hand

end
-- ==== Proof.KI.Prop2RunB.lean ====
import proofs.«131271_j4982162063661_2_alg».proof.Proof.KI.Prop2RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run when the column tile is neither the first nor the last (the accumulator is accumulated into; no output is stored): the lists of stores each buffer ends with, together with the proof that on whole
    staging memrefs — the inputs' at their contents, the outputs' at contents handed back untouched, the accumulator
    at the contents the point before left — the body runs to the continuation holding the inputs' as they were,
    the accumulator with its stores written. The lists are found by running the body. -/
noncomputable def kernelRun2_B (c : Dev nD) (i : grid2.Coords) (arg2 : Memref sig .tc .vmem S1024x2048 .bf16) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .f32) (harg9 : arg9.IsWhole) (hc0 : ¬cond2_0 i) (hc1 : ¬cond2_1 i)
    (x0 : Vec F S1024x2048 .bf16) (x1 : Vec F S8192x128 .bf16) (x2 : Vec F S1024x128 .f32) (x3 : Vec F S1x128 .f32) (x4 : Vec F S1x1 .f32) (xs0 : Vec F S1024x128 .f32) :
    Σ' (L5 : List (View.Piece (Elt F) S1024x128 .bf16)) (L6 : List (View.Piece (Elt F) S1024x128 .f32)), { LS0 : List (View.Piece (Elt F) S1024x128 .f32) //
      ∀ (xi5 : Vec F S1024x128 .bf16) (xi6 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc2__propagate_kernel i arg2 harg2 arg3 harg3 arg4 harg4 arg5 harg5 arg6 harg6 arg7 harg7 arg8 harg8 arg9 harg9) K } := by
  refine ⟨[], [], ?_, fun xi5 xi6 E K => ?run⟩
  case run =>
    simp only [cc2__propagate_kernel_eq_skeleton]; unfold cc2__propagate_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

end Cert.KernelIdeal.Hand

end
-- ==== Proof.KI.Prop2RunC.lean ====
import proofs.«131271_j4982162063661_2_alg».proof.Proof.KI.Prop2RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run when the column tile is the last (the accumulator is accumulated into, then stored into both outputs): the lists of stores each buffer ends with, together with the proof that on whole
    staging memrefs — the inputs' at their contents, the outputs' at anything, the accumulator
    at the contents the point before left — the body runs to the continuation holding the inputs' as they were,
    the accumulator with its stores written and each output's buffer with its stores written. The lists are found by running the body. -/
noncomputable def kernelRun2_C (c : Dev nD) (i : grid2.Coords) (arg2 : Memref sig .tc .vmem S1024x2048 .bf16) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .f32) (harg9 : arg9.IsWhole) (hc0 : ¬cond2_0 i) (hc1 : cond2_1 i)
    (x0 : Vec F S1024x2048 .bf16) (x1 : Vec F S8192x128 .bf16) (x2 : Vec F S1024x128 .f32) (x3 : Vec F S1x128 .f32) (x4 : Vec F S1x1 .f32) (xs0 : Vec F S1024x128 .f32) :
    Σ' (L5 : List (View.Piece (Elt F) S1024x128 .bf16)) (L6 : List (View.Piece (Elt F) S1024x128 .f32)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0)) -∗ K ⟨⟩))
          ⊢ wp frame (wpE (defs₀ (F := F)) Variants.none c none) E (cc2__propagate_kernel i arg2 harg2 arg3 harg3 arg4 harg4 arg5 harg5 arg6 harg6 arg7 harg7 arg8 harg8 arg9 harg9) K } := by
  refine ⟨?_, ?_, ?_, fun E K => ?run⟩
  case run =>
    simp only [cc2__propagate_kernel_eq_skeleton]; unfold cc2__propagate_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    iexists _; iexact HS0

end Cert.KernelIdeal.Hand

end
-- ==== Proof.KI.Prop2.lean ====
import proofs.«131271_j4982162063661_2_alg».proof.Proof.KI.Prop2RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The propagate call number 2: its proof data and body obligation at the entry contents `V`

What the two outputs' staging buffers and the accumulator hold after each point is defined by recursion on the
point (`outsAt2`): the case the point is in, run on the point's memrefs and input blocks, over what the point
before left in the accumulator. The invariant between points keeps the accumulator at exactly those contents. -/

variable (V : (c : Dev nD) → (b : Ref sig .tc) → Buf (Elt F) ((c : Thread nD τ).loc b))

/-! ## What each case leaves -/

/-- What case A leaves in output 5's staging buffer: its stores read back over arbitrary contents (there are none: the output is idle in this case and nothing consults this value). -/
def out2_A_5 (c : Dev nD) (i : grid2.Coords) (arg2 : Memref sig .tc .vmem S1024x2048 .bf16) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .f32) (harg9 : arg9.IsWhole) (hc0 : cond2_0 i) (hc1 : ¬cond2_1 i)
    (x0 : Vec F S1024x2048 .bf16) (x1 : Vec F S8192x128 .bf16) (x2 : Vec F S1024x128 .f32) (x3 : Vec F S1x128 .f32) (x4 : Vec F S1x1 .f32) : Vec F S1024x128 .bf16 :=
  VO2_5.read (Elt F) (VO2_5.writes (Elt F) VO2_5.junk (kernelRun2_A c i arg2 harg2 arg3 harg3 arg4 harg4 arg5 harg5 arg6 harg6 arg7 harg7 arg8 harg8 arg9 harg9 hc0 hc1 x0 x1 x2 x3 x4).1)
/-- The same for output 6. -/
def out2_A_6 (c : Dev nD) (i : grid2.Coords) (arg2 : Memref sig .tc .vmem S1024x2048 .bf16) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .f32) (harg9 : arg9.IsWhole) (hc0 : cond2_0 i) (hc1 : ¬cond2_1 i)
    (x0 : Vec F S1024x2048 .bf16) (x1 : Vec F S8192x128 .bf16) (x2 : Vec F S1024x128 .f32) (x3 : Vec F S1x128 .f32) (x4 : Vec F S1x1 .f32) : Vec F S1024x128 .f32 :=
  VO2_6.read (Elt F) (VO2_6.writes (Elt F) VO2_6.junk (kernelRun2_A c i arg2 harg2 arg3 harg3 arg4 harg4 arg5 harg5 arg6 harg6 arg7 harg7 arg8 harg8 arg9 harg9 hc0 hc1 x0 x1 x2 x3 x4).2.1)
/-- Case A's stores into the accumulator are of the whole buffer, so they cover it. -/
theorem scover2_A_0 (c : Dev nD) (i : grid2.Coords) (arg2 : Memref sig .tc .vmem S1024x2048 .bf16) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .f32) (harg9 : arg9.IsWhole) (hc0 : cond2_0 i) (hc1 : ¬cond2_1 i)
    (x0 : Vec F S1024x2048 .bf16) (x1 : Vec F S8192x128 .bf16) (x2 : Vec F S1024x128 .f32) (x3 : Vec F S1x128 .f32) (x4 : Vec F S1x1 .f32) (y : S1024x128.Idx) :
    ∃ pc ∈ (kernelRun2_A c i arg2 harg2 arg3 harg3 arg4 harg4 arg5 harg5 arg6 harg6 arg7 harg7 arg8 harg8 arg9 harg9 hc0 hc1 x0 x1 x2 x3 x4).2.2.1, y ∈ pc.1.set :=
  View.cover_of_tiledL (kernelRun2_A c i arg2 harg2 arg3 harg3 arg4 harg4 arg5 harg5 arg6 harg6 arg7 harg7 arg8 harg8 arg9 harg9 hc0 hc1 x0 x1 x2 x3 x4).2.2.1 S1024x128.size (by sl_kernel_rfl) y
/-- What case A leaves in the accumulator. -/
def sout2_A_0 (c : Dev nD) (i : grid2.Coords) (arg2 : Memref sig .tc .vmem S1024x2048 .bf16) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .f32) (harg9 : arg9.IsWhole) (hc0 : cond2_0 i) (hc1 : ¬cond2_1 i)
    (x0 : Vec F S1024x2048 .bf16) (x1 : Vec F S8192x128 .bf16) (x2 : Vec F S1024x128 .f32) (x3 : Vec F S1x128 .f32) (x4 : Vec F S1x1 .f32) : Vec F S1024x128 .f32 :=
  VS2_0.read (Elt F) (VS2_0.writes (Elt F) VS2_0.junk (kernelRun2_A c i arg2 harg2 arg3 harg3 arg4 harg4 arg5 harg5 arg6 harg6 arg7 harg7 arg8 harg8 arg9 harg9 hc0 hc1 x0 x1 x2 x3 x4).2.2.1)

/-- What case B leaves in output 5's staging buffer: its stores read back over arbitrary contents (there are none: the output is idle in this case and nothing consults this value). -/
def out2_B_5 (c : Dev nD) (i : grid2.Coords) (arg2 : Memref sig .tc .vmem S1024x2048 .bf16) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .f32) (harg9 : arg9.IsWhole) (hc0 : ¬cond2_0 i) (hc1 : ¬cond2_1 i)
    (x0 : Vec F S1024x2048 .bf16) (x1 : Vec F S8192x128 .bf16) (x2 : Vec F S1024x128 .f32) (x3 : Vec F S1x128 .f32) (x4 : Vec F S1x1 .f32) (xs0 : Vec F S1024x128 .f32) : Vec F S1024x128 .bf16 :=
  VO2_5.read (Elt F) (VO2_5.writes (Elt F) VO2_5.junk (kernelRun2_B c i arg2 harg2 arg3 harg3 arg4 harg4 arg5 harg5 arg6 harg6 arg7 harg7 arg8 harg8 arg9 harg9 hc0 hc1 x0 x1 x2 x3 x4 xs0).1)
/-- The same for output 6. -/
def out2_B_6 (c : Dev nD) (i : grid2.Coords) (arg2 : Memref sig .tc .vmem S1024x2048 .bf16) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .f32) (harg9 : arg9.IsWhole) (hc0 : ¬cond2_0 i) (hc1 : ¬cond2_1 i)
    (x0 : Vec F S1024x2048 .bf16) (x1 : Vec F S8192x128 .bf16) (x2 : Vec F S1024x128 .f32) (x3 : Vec F S1x128 .f32) (x4 : Vec F S1x1 .f32) (xs0 : Vec F S1024x128 .f32) : Vec F S1024x128 .f32 :=
  VO2_6.read (Elt F) (VO2_6.writes (Elt F) VO2_6.junk (kernelRun2_B c i arg2 harg2 arg3 harg3 arg4 harg4 arg5 harg5 arg6 harg6 arg7 harg7 arg8 harg8 arg9 harg9 hc0 hc1 x0 x1 x2 x3 x4 xs0).2.1)
/-- Case B's stores into the accumulator are of the whole buffer, so they cover it. -/
theorem scover2_B_0 (c : Dev nD) (i : grid2.Coords) (arg2 : Memref sig .tc .vmem S1024x2048 .bf16) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .f32) (harg9 : arg9.IsWhole) (hc0 : ¬cond2_0 i) (hc1 : ¬cond2_1 i)
    (x0 : Vec F S1024x2048 .bf16) (x1 : Vec F S8192x128 .bf16) (x2 : Vec F S1024x128 .f32) (x3 : Vec F S1x128 .f32) (x4 : Vec F S1x1 .f32) (xs0 : Vec F S1024x128 .f32) (y : S1024x128.Idx) :
    ∃ pc ∈ (kernelRun2_B c i arg2 harg2 arg3 harg3 arg4 harg4 arg5 harg5 arg6 harg6 arg7 harg7 arg8 harg8 arg9 harg9 hc0 hc1 x0 x1 x2 x3 x4 xs0).2.2.1, y ∈ pc.1.set :=
  View.cover_of_tiledL (kernelRun2_B c i arg2 harg2 arg3 harg3 arg4 harg4 arg5 harg5 arg6 harg6 arg7 harg7 arg8 harg8 arg9 harg9 hc0 hc1 x0 x1 x2 x3 x4 xs0).2.2.1 S1024x128.size (by sl_kernel_rfl) y
/-- What case B leaves in the accumulator. -/
def sout2_B_0 (c : Dev nD) (i : grid2.Coords) (arg2 : Memref sig .tc .vmem S1024x2048 .bf16) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .f32) (harg9 : arg9.IsWhole) (hc0 : ¬cond2_0 i) (hc1 : ¬cond2_1 i)
    (x0 : Vec F S1024x2048 .bf16) (x1 : Vec F S8192x128 .bf16) (x2 : Vec F S1024x128 .f32) (x3 : Vec F S1x128 .f32) (x4 : Vec F S1x1 .f32) (xs0 : Vec F S1024x128 .f32) : Vec F S1024x128 .f32 :=
  VS2_0.read (Elt F) (VS2_0.writes (Elt F) VS2_0.junk (kernelRun2_B c i arg2 harg2 arg3 harg3 arg4 harg4 arg5 harg5 arg6 harg6 arg7 harg7 arg8 harg8 arg9 harg9 hc0 hc1 x0 x1 x2 x3 x4 xs0).2.2.1)

/-- What case C leaves in output 5's staging buffer: its stores read back over arbitrary contents. -/
def out2_C_5 (c : Dev nD) (i : grid2.Coords) (arg2 : Memref sig .tc .vmem S1024x2048 .bf16) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .f32) (harg9 : arg9.IsWhole) (hc0 : ¬cond2_0 i) (hc1 : cond2_1 i)
    (x0 : Vec F S1024x2048 .bf16) (x1 : Vec F S8192x128 .bf16) (x2 : Vec F S1024x128 .f32) (x3 : Vec F S1x128 .f32) (x4 : Vec F S1x1 .f32) (xs0 : Vec F S1024x128 .f32) : Vec F S1024x128 .bf16 :=
  VO2_5.read (Elt F) (VO2_5.writes (Elt F) VO2_5.junk (kernelRun2_C c i arg2 harg2 arg3 harg3 arg4 harg4 arg5 harg5 arg6 harg6 arg7 harg7 arg8 harg8 arg9 harg9 hc0 hc1 x0 x1 x2 x3 x4 xs0).1)
/-- The same for output 6. -/
def out2_C_6 (c : Dev nD) (i : grid2.Coords) (arg2 : Memref sig .tc .vmem S1024x2048 .bf16) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .f32) (harg9 : arg9.IsWhole) (hc0 : ¬cond2_0 i) (hc1 : cond2_1 i)
    (x0 : Vec F S1024x2048 .bf16) (x1 : Vec F S8192x128 .bf16) (x2 : Vec F S1024x128 .f32) (x3 : Vec F S1x128 .f32) (x4 : Vec F S1x1 .f32) (xs0 : Vec F S1024x128 .f32) : Vec F S1024x128 .f32 :=
  VO2_6.read (Elt F) (VO2_6.writes (Elt F) VO2_6.junk (kernelRun2_C c i arg2 harg2 arg3 harg3 arg4 harg4 arg5 harg5 arg6 harg6 arg7 harg7 arg8 harg8 arg9 harg9 hc0 hc1 x0 x1 x2 x3 x4 xs0).2.1)
/-- Case C's one store into output 5 is of the whole block, so it covers it. -/
theorem cover2_C_5 (c : Dev nD) (i : grid2.Coords) (arg2 : Memref sig .tc .vmem S1024x2048 .bf16) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .f32) (harg9 : arg9.IsWhole) (hc0 : ¬cond2_0 i) (hc1 : cond2_1 i)
    (x0 : Vec F S1024x2048 .bf16) (x1 : Vec F S8192x128 .bf16) (x2 : Vec F S1024x128 .f32) (x3 : Vec F S1x128 .f32) (x4 : Vec F S1x1 .f32) (xs0 : Vec F S1024x128 .f32) (y : S1024x128.Idx) :
    ∃ pc ∈ (kernelRun2_C c i arg2 harg2 arg3 harg3 arg4 harg4 arg5 harg5 arg6 harg6 arg7 harg7 arg8 harg8 arg9 harg9 hc0 hc1 x0 x1 x2 x3 x4 xs0).1, y ∈ pc.1.set :=
  View.cover_of_tiledL (kernelRun2_C c i arg2 harg2 arg3 harg3 arg4 harg4 arg5 harg5 arg6 harg6 arg7 harg7 arg8 harg8 arg9 harg9 hc0 hc1 x0 x1 x2 x3 x4 xs0).1 S1024x128.size (by sl_kernel_rfl) y
/-- The same for output 6. -/
theorem cover2_C_6 (c : Dev nD) (i : grid2.Coords) (arg2 : Memref sig .tc .vmem S1024x2048 .bf16) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .f32) (harg9 : arg9.IsWhole) (hc0 : ¬cond2_0 i) (hc1 : cond2_1 i)
    (x0 : Vec F S1024x2048 .bf16) (x1 : Vec F S8192x128 .bf16) (x2 : Vec F S1024x128 .f32) (x3 : Vec F S1x128 .f32) (x4 : Vec F S1x1 .f32) (xs0 : Vec F S1024x128 .f32) (y : S1024x128.Idx) :
    ∃ pc ∈ (kernelRun2_C c i arg2 harg2 arg3 harg3 arg4 harg4 arg5 harg5 arg6 harg6 arg7 harg7 arg8 harg8 arg9 harg9 hc0 hc1 x0 x1 x2 x3 x4 xs0).2.1, y ∈ pc.1.set :=
  View.cover_of_tiledL (kernelRun2_C c i arg2 harg2 arg3 harg3 arg4 harg4 arg5 harg5 arg6 harg6 arg7 harg7 arg8 harg8 arg9 harg9 hc0 hc1 x0 x1 x2 x3 x4 xs0).2.1 S1024x128.size (by sl_kernel_rfl) y
/-- Case C's stores into the accumulator are of the whole buffer, so they cover it. -/
theorem scover2_C_0 (c : Dev nD) (i : grid2.Coords) (arg2 : Memref sig .tc .vmem S1024x2048 .bf16) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .f32) (harg9 : arg9.IsWhole) (hc0 : ¬cond2_0 i) (hc1 : cond2_1 i)
    (x0 : Vec F S1024x2048 .bf16) (x1 : Vec F S8192x128 .bf16) (x2 : Vec F S1024x128 .f32) (x3 : Vec F S1x128 .f32) (x4 : Vec F S1x1 .f32) (xs0 : Vec F S1024x128 .f32) (y : S1024x128.Idx) :
    ∃ pc ∈ (kernelRun2_C c i arg2 harg2 arg3 harg3 arg4 harg4 arg5 harg5 arg6 harg6 arg7 harg7 arg8 harg8 arg9 harg9 hc0 hc1 x0 x1 x2 x3 x4 xs0).2.2.1, y ∈ pc.1.set :=
  View.cover_of_tiledL (kernelRun2_C c i arg2 harg2 arg3 harg3 arg4 harg4 arg5 harg5 arg6 harg6 arg7 harg7 arg8 harg8 arg9 harg9 hc0 hc1 x0 x1 x2 x3 x4 xs0).2.2.1 S1024x128.size (by sl_kernel_rfl) y
/-- What case C leaves in the accumulator. -/
def sout2_C_0 (c : Dev nD) (i : grid2.Coords) (arg2 : Memref sig .tc .vmem S1024x2048 .bf16) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .f32) (harg9 : arg9.IsWhole) (hc0 : ¬cond2_0 i) (hc1 : cond2_1 i)
    (x0 : Vec F S1024x2048 .bf16) (x1 : Vec F S8192x128 .bf16) (x2 : Vec F S1024x128 .f32) (x3 : Vec F S1x128 .f32) (x4 : Vec F S1x1 .f32) (xs0 : Vec F S1024x128 .f32) : Vec F S1024x128 .f32 :=
  VS2_0.read (Elt F) (VS2_0.writes (Elt F) VS2_0.junk (kernelRun2_C c i arg2 harg2 arg3 harg3 arg4 harg4 arg5 harg5 arg6 harg6 arg7 harg7 arg8 harg8 arg9 harg9 hc0 hc1 x0 x1 x2 x3 x4 xs0).2.2.1)

/-! ## What the outputs and the accumulator hold after each point -/

/-- After the body at position `n`: output 5's buffer, output 6's buffer, the accumulator. -/
def outsAt2 (c : Dev nD) : (n : ℕ) → n < cfg2.N → Vec F S1024x128 .bf16 × Vec F S1024x128 .f32 × Vec F S1024x128 .f32
  | 0, hn => (out2_A_5 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩), out2_A_6 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩))
  | n + 1, hn =>
    if h0 : (n + 1) % 4 = 0 then
      if h1 : (n + 1) % 4 = 3 then
        False.elim (by omega)
      else
        (out2_A_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩), out2_A_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩))
    else
      if h1 : (n + 1) % 4 = 3 then
        (out2_C_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.2, out2_C_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.2)
      else
        (out2_B_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.2, out2_B_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.2)

theorem outsAt2_A (c : Dev nD) (t : Fin cfg2.N) (h0 : t.val % 4 = 0) (h1 : ¬t.val % 4 = 3) :
    outsAt2 V c t.val t.isLt = (out2_A_5 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) ((hcond2_0 t).mpr h0) (fun h => h1 ((hcond2_1 t).mp h)) (iblk2 V c 0 t) (iblk2 V c 1 t) (iblk2 V c 2 t) (iblk2 V c 3 t) (iblk2 V c 4 t), out2_A_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) ((hcond2_0 t).mpr h0) (fun h => h1 ((hcond2_1 t).mp h)) (iblk2 V c 0 t) (iblk2 V c 1 t) (iblk2 V c 2 t) (iblk2 V c 3 t) (iblk2 V c 4 t), sout2_A_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) ((hcond2_0 t).mpr h0) (fun h => h1 ((hcond2_1 t).mp h)) (iblk2 V c 0 t) (iblk2 V c 1 t) (iblk2 V c 2 t) (iblk2 V c 3 t) (iblk2 V c 4 t)) := by
  obtain ⟨n, hn⟩ := t
  cases n with
  | zero => exact rfl
  | succ n => exact (dif_pos h0).trans ((dif_neg h1).trans rfl)

theorem outsAt2_B (c : Dev nD) (t : Fin cfg2.N) (h0 : ¬t.val % 4 = 0) (h1 : ¬t.val % 4 = 3) :
    outsAt2 V c t.val t.isLt = (out2_B_5 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2.2, out2_B_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2.2, sout2_B_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt2_C (c : Dev nD) (t : Fin cfg2.N) (h0 : ¬t.val % 4 = 0) (h1 : t.val % 4 = 3) :
    outsAt2 V c t.val t.isLt = (out2_C_5 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2.2, out2_C_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2.2, sout2_C_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before the first point: what the launch hands the call. Before any later point: the accumulator at what the
    point before left in it, every other scoped buffer unopened, the generator register at some state. -/
def PhiS2 (c : Dev nD) : (n : ℕ) → n ≤ cfg2.N → sProp 𝕄
  | 0, _ => Pipeline.ΦA spec2 c
  | n + 1, hn => iprop(iprop(iprop(owns (c : Thread nD τ) scM2_0 fullShare ((outsAt2 V c n hn).2.2))
      ∗ Pipeline.scopedRestBut (Ix := Unit) (Name := ℕ) (U := UR sig nD τ) (Lvl := ℕ) (Val := Elt F) spec2 c [cc2_scratch0]) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(iprop(owns (c : Thread nD τ) scM2_0 fullShare ((outsAt2 V c n hn).2.2))
      ∗ Pipeline.scopedRestBut (Ix := Unit) (Name := ℕ) (U := UR sig nD τ) (Lvl := ℕ) (Val := Elt F) spec2 c [cc2_scratch0]) ∗ (∃ r, prngReg c r)) := rfl

theorem PhiS2_pos (c : Dev nD) (n : ℕ) (h : n ≤ cfg2.N) (hz : n ≠ 0) :
    PhiS2 V c n h = iprop(iprop(iprop(owns (c : Thread nD τ) scM2_0 fullShare ((outsAt2 V c (n - 1) (by omega)).2.2))
      ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

/-! ## The proof data -/

/-- The proof data of the call on core `c`: the arrays as the call finds them; after the body at point `t` each
    input's buffer at its block and the outputs' at `outsAt2`; the invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => (outsAt2 V c t.val t.isLt).1
    | ⟨6, _⟩ => (outsAt2 V c t.val t.isLt).2.1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = (outsAt2 V c t.val t.isLt).1 := by dsimp only [dat2]
theorem after2_6 (c : Dev nD) (t : Fin cfg2.N) : (dat2 V c).after 6 t = (outsAt2 V c t.val t.isLt).2.1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

theorem liveAt2_0 : ∀ t : Fin cfg2.N, cfg2.idle 0 (grid2.coords t) = false := fun _ => rfl
theorem liveAt2_1 : ∀ t : Fin cfg2.N, cfg2.idle 1 (grid2.coords t) = false := fun _ => rfl
theorem liveAt2_2 : ∀ t : Fin cfg2.N, cfg2.idle 2 (grid2.coords t) = false := fun _ => rfl
theorem liveAt2_3 : ∀ t : Fin cfg2.N, cfg2.idle 3 (grid2.coords t) = false := fun _ => rfl
theorem liveAt2_4 : ∀ t : Fin cfg2.N, cfg2.idle 4 (grid2.coords t) = false := fun _ => rfl

/-! ## The body obligation -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t)

set_option maxHeartbeats 4800000 in
/-- The body at a point of case A that is the first of the grid (the accumulator is found at anything). -/
theorem sound_body2_A0 (c : Dev nD) (t : Fin cfg2.N) (h0 : t.val % 4 = 0) (h1 : ¬t.val % 4 = 3) (hz : t.val = 0) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  rw [show (dat2 V c).leavesExact 4 t = owns (c : Thread nD τ) (ms2_4 t) fullShare ((dat2 V c).after 4 t) from by
    unfold Dat.leavesExact; rw [liveAt2_4 t], after2_4]
  rw [Dat.leavesExact_idle (dat2 V c) 5 t (idleAt2_5_A t ((hcond2_0 t).mpr h0) (fun h => h1 ((hcond2_1 t).mp h))) (noFlush2_5_A t ((hcond2_0 t).mpr h0) (fun h => h1 ((hcond2_1 t).mp h)))]
  rw [Dat.leavesExact_idle (dat2 V c) 6 t (idleAt2_6_A t ((hcond2_0 t).mpr h0) (fun h => h1 ((hcond2_1 t).mp h))) (noFlush2_6_A t ((hcond2_0 t).mpr h0) (fun h => h1 ((hcond2_1 t).mp h)))]
  rw [outsAt2_A V c t h0 h1]
  unfold sout2_A_0; (try dsimp only)
  rw [PhiS2_castSucc V c t, PhiS2_zero V c _ _ hz, PhiA2_eq]
  iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩⟩
  iapply ((kernelRun2_A c (grid2.coords t) _ _ _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t)).2.2.2 _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  iintro ⟨H0, H1, H2, H3, H4, H5, H6, ⟨%es0, HS0⟩⟩
  isplitl [HS0 Hr Hg]
  · isplitl [HS0 Hr]
    · isplitl [HS0]
      · unfold owns; iexists _; isplitr
        swap; · iexact HS0
        ipureintro; exact View.read_writes_of_cover _ _ _ _ _ (scover2_A_0 c _ _ _ _ _ _ _ _ _ _ _ _ _ _ _ _ _ _ _ _ _ _ _ _)
      iexact Hr
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexists _; iexact H5
  iexists _; iexact H6

set_option maxHeartbeats 4800000 in
/-- The body at a point of case A that is not the first of the grid (the accumulator is found at what the point before left; the reset overwrites it). -/
theorem sound_body2_A (c : Dev nD) (t : Fin cfg2.N) (h0 : t.val % 4 = 0) (h1 : ¬t.val % 4 = 3) (hz : t.val ≠ 0) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  rw [show (dat2 V c).leavesExact 4 t = owns (c : Thread nD τ) (ms2_4 t) fullShare ((dat2 V c).after 4 t) from by
    unfold Dat.leavesExact; rw [liveAt2_4 t], after2_4]
  rw [Dat.leavesExact_idle (dat2 V c) 5 t (idleAt2_5_A t ((hcond2_0 t).mpr h0) (fun h => h1 ((hcond2_1 t).mp h))) (noFlush2_5_A t ((hcond2_0 t).mpr h0) (fun h => h1 ((hcond2_1 t).mp h)))]
  rw [Dat.leavesExact_idle (dat2 V c) 6 t (idleAt2_6_A t ((hcond2_0 t).mpr h0) (fun h => h1 ((hcond2_1 t).mp h))) (noFlush2_6_A t ((hcond2_0 t).mpr h0) (fun h => h1 ((hcond2_1 t).mp h)))]
  rw [outsAt2_A V c t h0 h1]
  unfold sout2_A_0; (try dsimp only)
  rw [PhiS2_castSucc V c t, PhiS2_pos V c _ _ hz]
  iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩⟩
  iapply ((kernelRun2_A c (grid2.coords t) _ _ _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t)).2.2.2 _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexists _; iexact HS0
  iintro ⟨H0, H1, H2, H3, H4, H5, H6, ⟨%es0, HS0⟩⟩
  isplitl [HS0 Hr Hg]
  · isplitl [HS0 Hr]
    · isplitl [HS0]
      · unfold owns; iexists _; isplitr
        swap; · iexact HS0
        ipureintro; exact View.read_writes_of_cover _ _ _ _ _ (scover2_A_0 c _ _ _ _ _ _ _ _ _ _ _ _ _ _ _ _ _ _ _ _ _ _ _ _)
      iexact Hr
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexists _; iexact H5
  iexists _; iexact H6

set_option maxHeartbeats 4800000 in
/-- The body at a point of case B. -/
theorem sound_body2_B (c : Dev nD) (t : Fin cfg2.N) (h0 : ¬t.val % 4 = 0) (h1 : ¬t.val % 4 = 3) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  rw [show (dat2 V c).leavesExact 4 t = owns (c : Thread nD τ) (ms2_4 t) fullShare ((dat2 V c).after 4 t) from by
    unfold Dat.leavesExact; rw [liveAt2_4 t], after2_4]
  rw [Dat.leavesExact_idle (dat2 V c) 5 t (idleAt2_5_B t (fun h => h0 ((hcond2_0 t).mp h)) (fun h => h1 ((hcond2_1 t).mp h))) (noFlush2_5_B t (fun h => h0 ((hcond2_0 t).mp h)) (fun h => h1 ((hcond2_1 t).mp h)))]
  rw [Dat.leavesExact_idle (dat2 V c) 6 t (idleAt2_6_B t (fun h => h0 ((hcond2_0 t).mp h)) (fun h => h1 ((hcond2_1 t).mp h))) (noFlush2_6_B t (fun h => h0 ((hcond2_0 t).mp h)) (fun h => h1 ((hcond2_1 t).mp h)))]
  rw [outsAt2_B V c t h0 h1]
  unfold sout2_B_0; (try dsimp only)
  have hz : t.val ≠ 0 := fun e => h0 (by rw [e])
  rw [PhiS2_castSucc V c t, PhiS2_pos V c _ _ hz]
  iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩⟩
  iapply ((kernelRun2_B c (grid2.coords t) _ _ _ _ _ _ _ _ _ _ _ _ _ _ _ _ (fun h => h0 ((hcond2_0 t).mp h)) (fun h => h1 ((hcond2_1 t).mp h)) (iblk2 V c 0 t) (iblk2 V c 1 t) (iblk2 V c 2 t) (iblk2 V c 3 t) (iblk2 V c 4 t) _).2.2.2 _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  iintro ⟨H0, H1, H2, H3, H4, H5, H6, ⟨%es0, HS0⟩⟩
  isplitl [HS0 Hr Hg]
  · isplitl [HS0 Hr]
    · isplitl [HS0]
      · unfold owns; iexists _; isplitr
        swap; · iexact HS0
        ipureintro; exact View.read_writes_of_cover _ _ _ _ _ (scover2_B_0 c _ _ _ _ _ _ _ _ _ _ _ _ _ _ _ _ _ _ _ _ _ _ _ _ _)
      iexact Hr
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexists _; iexact H5
  iexists _; iexact H6

set_option maxHeartbeats 4800000 in
/-- The body at a point of case C. -/
theorem sound_body2_C (c : Dev nD) (t : Fin cfg2.N) (h0 : ¬t.val % 4 = 0) (h1 : t.val % 4 = 3) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  rw [show (dat2 V c).leavesExact 4 t = owns (c : Thread nD τ) (ms2_4 t) fullShare ((dat2 V c).after 4 t) from by
    unfold Dat.leavesExact; rw [liveAt2_4 t], after2_4]
  rw [show (dat2 V c).leavesExact 5 t = owns (c : Thread nD τ) (ms2_5 t) fullShare ((dat2 V c).after 5 t) from by
    unfold Dat.leavesExact; rw [liveAt2_5_C t (fun h => h0 ((hcond2_0 t).mp h)) ((hcond2_1 t).mpr h1)], after2_5]
  rw [show (dat2 V c).leavesExact 6 t = owns (c : Thread nD τ) (ms2_6 t) fullShare ((dat2 V c).after 6 t) from by
    unfold Dat.leavesExact; rw [liveAt2_6_C t (fun h => h0 ((hcond2_0 t).mp h)) ((hcond2_1 t).mpr h1)], after2_6]
  rw [outsAt2_C V c t h0 h1]
  unfold out2_C_5 out2_C_6 sout2_C_0; (try dsimp only)
  have hz : t.val ≠ 0 := fun e => h0 (by rw [e])
  rw [PhiS2_castSucc V c t, PhiS2_pos V c _ _ hz]
  iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩⟩
  iapply ((kernelRun2_C c (grid2.coords t) _ _ _ _ _ _ _ _ _ _ _ _ _ _ _ _ (fun h => h0 ((hcond2_0 t).mp h)) ((hcond2_1 t).mpr h1) (iblk2 V c 0 t) (iblk2 V c 1 t) (iblk2 V c 2 t) (iblk2 V c 3 t) (iblk2 V c 4 t) _).2.2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [HS0]; · iexact HS0
  iintro ⟨H0, H1, H2, H3, H4, ⟨%e5, H5⟩, ⟨%e6, H6⟩, ⟨%es0, HS0⟩⟩
  isplitl [HS0 Hr Hg]
  · isplitl [HS0 Hr]
    · isplitl [HS0]
      · unfold owns; iexists _; isplitr
        swap; · iexact HS0
        ipureintro; exact View.read_writes_of_cover _ _ _ _ _ (scover2_C_0 c _ _ _ _ _ _ _ _ _ _ _ _ _ _ _ _ _ _ _ _ _ _ _ _ _)
      iexact Hr
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_of_cover _ _ _ _ _ (cover2_C_5 c _ _ _ _ _ _ _ _ _ _ _ _ _ _ _ _ _ _ _ _ _ _ _ _ _)
  unfold owns; iexists _; isplitr
  swap; · iexact H6
  ipureintro; exact View.read_writes_of_cover _ _ _ _ _ (cover2_C_6 c _ _ _ _ _ _ _ _ _ _ _ _ _ _ _ _ _ _ _ _ _ _ _ _ _)

/-- The body at any point: the point is in exactly one of the three cases. -/
theorem sound_body2 (c : Dev nD) (t : Fin cfg2.N) :
    bodyPre2 V c t ⊢ wp frame (wpE (defs₀ (F := F)) Variants.none c none) Set.univ (bodyAt2 t) (fun _ => bodyPost2 V c t) := by
  by_cases h0 : t.val % 4 = 0
  · have h1 : ¬t.val % 4 = 3 := by omega
    by_cases hz : t.val = 0
    · exact sound_body2_A0 V c t h0 h1 hz
    · exact sound_body2_A V c t h0 h1 hz
  · by_cases h1 : t.val % 4 = 3
    · exact sound_body2_C V c t h0 h1
    · exact sound_body2_B V c t h0 h1

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the call is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives back what the launch handed over: the accumulator's contents
    are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HS0, Hr⟩, Hg⟩
  isplitl [HS0 Hr]
  · isplitl [HS0]
    · iexists _; iexact HS0
    iexact Hr
  iexact Hg

/-- The same after the last point. -/
theorem hout2 (c : Dev nD) : (dat2 V c).Φ (Fin.last cfg2.N) ⊢ Pipeline.ΦA spec2 c :=
  Phi_out2 V c _ (by rw [Fin.val_last]; have : cfg2.N = 32 := N_2; omega)

end Cert.KernelIdeal.Hand

end
-- ==== Proof.KI.Prop4Runs.lean ====
import proofs.«131271_j4982162063661_2_alg».proof.Proof.Gen.KernelIdeal.Launch
import proofs.«131271_j4982162063661_2_alg».proof.Proof.Gen.KernelIdeal.Skeleton
import proofs.«131271_j4982162063661_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The propagate call number 4: what its three control cases share

The call runs on a grid of 8 x 4 points; point `t` has row tile `i = t / 4` and column tile `k = t % 4`.
The body zeroes its accumulator when `k = 0`, adds the product of the current tile of the matrix with the
matching 2048 rows of the propagated signal at every `k`, and when `k = 3` stores the accumulator into the
two outputs. So there are three control cases: `k = 0` (reset, no output stored), `k = 1, 2` (neither),
`k = 3` (outputs stored). Everything here is stated at the buffer contents `V` the call is entered with. -/

-- the buffer contents when the call is entered
variable (V : (c : Dev nD) → (b : Ref sig .tc) → Buf (Elt F) ((c : Thread nD τ).loc b))

/-- Window `w`'s block at point `t`, read off the window's array as the call finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds the window's block at every point, whether the pipeline fetched
    it there or not: where it was not fetched the block index has not moved since the point before. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds the window's block at every point, whether the pipeline fetched
    it there or not: where it was not fetched the block index has not moved since the point before. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds the window's block at every point, whether the pipeline fetched
    it there or not: where it was not fetched the block index has not moved since the point before. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's current staging buffer holds the window's block at every point, whether the pipeline fetched
    it there or not: where it was not fetched the block index has not moved since the point before. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Input window 4's current staging buffer holds the window's block at every point, whether the pipeline fetched
    it there or not: where it was not fetched the block index has not moved since the point before. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-! ## The body's two conditions, in closed form over the grid -/

/-- The condition of the first `scf.if` (the reset): the column tile is the first. -/
abbrev cond4_0 (i : grid4.Coords) : Prop := (Scalar.cmpi .ne (Scalar.extui (Scalar.cmpi .eq (BitVec.ofNat 32 (i 1).val) 0#32)) 0#32) = 1#1
theorem hcond4_0 : ∀ t : Fin cfg4.N, cond4_0 (grid4.coords t) ↔ t.val % 4 = 0 :=
  (by decide +kernel : ∀ t : Fin grid4.N, cond4_0 (grid4.coords t) ↔ t.val % 4 = 0)

/-- The condition of the second `scf.if` (the outputs' stores): the column tile is the last. -/
abbrev cond4_1 (i : grid4.Coords) : Prop := k4_cond2 i = 1#1
theorem hcond4_1 : ∀ t : Fin cfg4.N, cond4_1 (grid4.coords t) ↔ t.val % 4 = 3 :=
  (by decide +kernel : ∀ t : Fin grid4.N, cond4_1 (grid4.coords t) ↔ t.val % 4 = 3)

/-! ## Where the two outputs are idle -/

/-- At the points with k = 0 output 5 is idle: the body stores nothing into it and the pipeline does not write it back. -/
theorem idleAt4_5_A : ∀ t : Fin cfg4.N, cond4_0 (grid4.coords t) → ¬cond4_1 (grid4.coords t) → cfg4.idle 5 (grid4.coords t) = true := by decide +kernel
theorem noFlush4_5_A : ∀ t : Fin cfg4.N, cond4_0 (grid4.coords t) → ¬cond4_1 (grid4.coords t) → (cfg4.win 5).flush t = false := by decide +kernel
/-- The same at the points with k = 1 and k = 2. -/
theorem idleAt4_5_B : ∀ t : Fin cfg4.N, ¬cond4_0 (grid4.coords t) → ¬cond4_1 (grid4.coords t) → cfg4.idle 5 (grid4.coords t) = true := by decide +kernel
theorem noFlush4_5_B : ∀ t : Fin cfg4.N, ¬cond4_0 (grid4.coords t) → ¬cond4_1 (grid4.coords t) → (cfg4.win 5).flush t = false := by decide +kernel
/-- At the points with k = 3 output 5 is live: the body stores its whole block. -/
theorem liveAt4_5_C : ∀ t : Fin cfg4.N, ¬cond4_0 (grid4.coords t) → cond4_1 (grid4.coords t) → cfg4.idle 5 (grid4.coords t) = false := by decide +kernel

/-- At the points with k = 0 output 6 is idle: the body stores nothing into it and the pipeline does not write it back. -/
theorem idleAt4_6_A : ∀ t : Fin cfg4.N, cond4_0 (grid4.coords t) → ¬cond4_1 (grid4.coords t) → cfg4.idle 6 (grid4.coords t) = true := by decide +kernel
theorem noFlush4_6_A : ∀ t : Fin cfg4.N, cond4_0 (grid4.coords t) → ¬cond4_1 (grid4.coords t) → (cfg4.win 6).flush t = false := by decide +kernel
/-- The same at the points with k = 1 and k = 2. -/
theorem idleAt4_6_B : ∀ t : Fin cfg4.N, ¬cond4_0 (grid4.coords t) → ¬cond4_1 (grid4.coords t) → cfg4.idle 6 (grid4.coords t) = true := by decide +kernel
theorem noFlush4_6_B : ∀ t : Fin cfg4.N, ¬cond4_0 (grid4.coords t) → ¬cond4_1 (grid4.coords t) → (cfg4.win 6).flush t = false := by decide +kernel
/-- At the points with k = 3 output 6 is live: the body stores its whole block. -/
theorem liveAt4_6_C : ∀ t : Fin cfg4.N, ¬cond4_0 (grid4.coords t) → cond4_1 (grid4.coords t) → cfg4.idle 6 (grid4.coords t) = false := by decide +kernel

/-! ## The memrefs the body is called with -/

/-- One staging buffer of each output, through which its contents are stated (the choice does not matter). -/
abbrev VO4_5 : View sig .tc .vmem S1024x128 .bf16 := (Memref.whole cc4_stg5_0 : Memref sig .tc .vmem S1024x128 .bf16).view
abbrev VO4_6 : View sig .tc .vmem S1024x128 .f32 := (Memref.whole cc4_stg6_0 : Memref sig .tc .vmem S1024x128 .f32).view
abbrev ms4_0 (t : Fin cfg4.N) : Memref sig .tc .vmem S1024x2048 .bf16 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S8192x128 .bf16 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1024x128 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1x128 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S1x1 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S1024x128 .bf16 := win4_5.stage (cfg4.slots t 5)
abbrev hs4_5 (t : Fin cfg4.N) : (ms4_5 t).IsWhole := hstage4_5 ((cfg4.slots t 5).cast nbuf4_5)
abbrev ms4_6 (t : Fin cfg4.N) : Memref sig .tc .vmem S1024x128 .f32 := win4_6.stage (cfg4.slots t 6)
abbrev hs4_6 (t : Fin cfg4.N) : (ms4_6 t).IsWhole := hstage4_6 ((cfg4.slots t 6).cast nbuf4_6)
/-- The accumulator: a whole scoped buffer of the call's own, carried from point to point. -/
abbrev scM4_0 : Memref sig .tc .vmem S1024x128 .f32 := Memref.whole cc4_scratch0
abbrev VS4_0 : View sig .tc .vmem S1024x128 .f32 := scM4_0.view

/-- The invariant the launch hands the call, with the accumulator split out of the scoped buffers: the accumulator
    owned at some contents, every other scoped buffer unopened, the generator register at some state. -/
theorem PhiA4_eq (c : Dev nD) :
    (Pipeline.ΦA spec4 c : sProp 𝕄)
      = iprop(iprop(iprop((∃ d, owns (c : Thread nD τ) scM4_0 fullShare d))
          ∗ Pipeline.scopedRestBut (Ix := Unit) (Name := ℕ) (U := UR sig nD τ) (Lvl := ℕ) (Val := Elt F) spec4 c [cc4_scratch0]) ∗ (∃ r, prngReg c r)) := by
  unfold Pipeline.ΦA; rw [scopedRest4_split]; simp only [scM4_0, owns_whole]; try rfl

end Cert.KernelIdeal.Hand

end
-- ==== Proof.KI.Prop4RunA.lean ====
import proofs.«131271_j4982162063661_2_alg».proof.Proof.KI.Prop4Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run when the column tile is the first (the accumulator is reset, then accumulated into; no output is stored): the lists of stores each buffer ends with, together with the proof that on whole
    staging memrefs — the inputs' at their contents, the outputs' at contents handed back untouched, the accumulator
    at anything — the body runs to the continuation holding the inputs' as they were,
    the accumulator with its stores written. The lists are found by running the body. -/
noncomputable def kernelRun4_A (c : Dev nD) (i : grid4.Coords) (arg2 : Memref sig .tc .vmem S1024x2048 .bf16) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .f32) (harg9 : arg9.IsWhole) (hc0 : cond4_0 i) (hc1 : ¬cond4_1 i)
    (x0 : Vec F S1024x2048 .bf16) (x1 : Vec F S8192x128 .bf16) (x2 : Vec F S1024x128 .f32) (x3 : Vec F S1x128 .f32) (x4 : Vec F S1x1 .f32) :
    Σ' (L5 : List (View.Piece (Elt F) S1024x128 .bf16)) (L6 : List (View.Piece (Elt F) S1024x128 .f32)), { LS0 : List (View.Piece (Elt F) S1024x128 .f32) //
      ∀ (xi5 : Vec F S1024x128 .bf16) (xi6 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc4__propagate_kernel i arg2 harg2 arg3 harg3 arg4 harg4 arg5 harg5 arg6 harg6 arg7 harg7 arg8 harg8 arg9 harg9) K } := by
  refine ⟨[], [], ?_, fun xi5 xi6 E K => ?run⟩
  case run =>
    simp only [cc4__propagate_kernel_eq_skeleton]; unfold cc4__propagate_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

end Cert.KernelIdeal.Hand

end
-- ==== Proof.KI.Prop4RunB.lean ====
import proofs.«131271_j4982162063661_2_alg».proof.Proof.KI.Prop4RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run when the column tile is neither the first nor the last (the accumulator is accumulated into; no output is stored): the lists of stores each buffer ends with, together with the proof that on whole
    staging memrefs — the inputs' at their contents, the outputs' at contents handed back untouched, the accumulator
    at the contents the point before left — the body runs to the continuation holding the inputs' as they were,
    the accumulator with its stores written. The lists are found by running the body. -/
noncomputable def kernelRun4_B (c : Dev nD) (i : grid4.Coords) (arg2 : Memref sig .tc .vmem S1024x2048 .bf16) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .f32) (harg9 : arg9.IsWhole) (hc0 : ¬cond4_0 i) (hc1 : ¬cond4_1 i)
    (x0 : Vec F S1024x2048 .bf16) (x1 : Vec F S8192x128 .bf16) (x2 : Vec F S1024x128 .f32) (x3 : Vec F S1x128 .f32) (x4 : Vec F S1x1 .f32) (xs0 : Vec F S1024x128 .f32) :
    Σ' (L5 : List (View.Piece (Elt F) S1024x128 .bf16)) (L6 : List (View.Piece (Elt F) S1024x128 .f32)), { LS0 : List (View.Piece (Elt F) S1024x128 .f32) //
      ∀ (xi5 : Vec F S1024x128 .bf16) (xi6 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc4__propagate_kernel i arg2 harg2 arg3 harg3 arg4 harg4 arg5 harg5 arg6 harg6 arg7 harg7 arg8 harg8 arg9 harg9) K } := by
  refine ⟨[], [], ?_, fun xi5 xi6 E K => ?run⟩
  case run =>
    simp only [cc4__propagate_kernel_eq_skeleton]; unfold cc4__propagate_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

end Cert.KernelIdeal.Hand

end
-- ==== Proof.KI.Prop4RunC.lean ====
import proofs.«131271_j4982162063661_2_alg».proof.Proof.KI.Prop4RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run when the column tile is the last (the accumulator is accumulated into, then stored into both outputs): the lists of stores each buffer ends with, together with the proof that on whole
    staging memrefs — the inputs' at their contents, the outputs' at anything, the accumulator
    at the contents the point before left — the body runs to the continuation holding the inputs' as they were,
    the accumulator with its stores written and each output's buffer with its stores written. The lists are found by running the body. -/
noncomputable def kernelRun4_C (c : Dev nD) (i : grid4.Coords) (arg2 : Memref sig .tc .vmem S1024x2048 .bf16) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .f32) (harg9 : arg9.IsWhole) (hc0 : ¬cond4_0 i) (hc1 : cond4_1 i)
    (x0 : Vec F S1024x2048 .bf16) (x1 : Vec F S8192x128 .bf16) (x2 : Vec F S1024x128 .f32) (x3 : Vec F S1x128 .f32) (x4 : Vec F S1x1 .f32) (xs0 : Vec F S1024x128 .f32) :
    Σ' (L5 : List (View.Piece (Elt F) S1024x128 .bf16)) (L6 : List (View.Piece (Elt F) S1024x128 .f32)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0)) -∗ K ⟨⟩))
          ⊢ wp frame (wpE (defs₀ (F := F)) Variants.none c none) E (cc4__propagate_kernel i arg2 harg2 arg3 harg3 arg4 harg4 arg5 harg5 arg6 harg6 arg7 harg7 arg8 harg8 arg9 harg9) K } := by
  refine ⟨?_, ?_, ?_, fun E K => ?run⟩
  case run =>
    simp only [cc4__propagate_kernel_eq_skeleton]; unfold cc4__propagate_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    iexists _; iexact HS0

end Cert.KernelIdeal.Hand

end
-- ==== Proof.KI.Prop4.lean ====
import proofs.«131271_j4982162063661_2_alg».proof.Proof.KI.Prop4RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The propagate call number 4: its proof data and body obligation at the entry contents `V`

What the two outputs' staging buffers and the accumulator hold after each point is defined by recursion on the
point (`outsAt4`): the case the point is in, run on the point's memrefs and input blocks, over what the point
before left in the accumulator. The invariant between points keeps the accumulator at exactly those contents. -/

variable (V : (c : Dev nD) → (b : Ref sig .tc) → Buf (Elt F) ((c : Thread nD τ).loc b))

/-! ## What each case leaves -/

/-- What case A leaves in output 5's staging buffer: its stores read back over arbitrary contents (there are none: the output is idle in this case and nothing consults this value). -/
def out4_A_5 (c : Dev nD) (i : grid4.Coords) (arg2 : Memref sig .tc .vmem S1024x2048 .bf16) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .f32) (harg9 : arg9.IsWhole) (hc0 : cond4_0 i) (hc1 : ¬cond4_1 i)
    (x0 : Vec F S1024x2048 .bf16) (x1 : Vec F S8192x128 .bf16) (x2 : Vec F S1024x128 .f32) (x3 : Vec F S1x128 .f32) (x4 : Vec F S1x1 .f32) : Vec F S1024x128 .bf16 :=
  VO4_5.read (Elt F) (VO4_5.writes (Elt F) VO4_5.junk (kernelRun4_A c i arg2 harg2 arg3 harg3 arg4 harg4 arg5 harg5 arg6 harg6 arg7 harg7 arg8 harg8 arg9 harg9 hc0 hc1 x0 x1 x2 x3 x4).1)
/-- The same for output 6. -/
def out4_A_6 (c : Dev nD) (i : grid4.Coords) (arg2 : Memref sig .tc .vmem S1024x2048 .bf16) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .f32) (harg9 : arg9.IsWhole) (hc0 : cond4_0 i) (hc1 : ¬cond4_1 i)
    (x0 : Vec F S1024x2048 .bf16) (x1 : Vec F S8192x128 .bf16) (x2 : Vec F S1024x128 .f32) (x3 : Vec F S1x128 .f32) (x4 : Vec F S1x1 .f32) : Vec F S1024x128 .f32 :=
  VO4_6.read (Elt F) (VO4_6.writes (Elt F) VO4_6.junk (kernelRun4_A c i arg2 harg2 arg3 harg3 arg4 harg4 arg5 harg5 arg6 harg6 arg7 harg7 arg8 harg8 arg9 harg9 hc0 hc1 x0 x1 x2 x3 x4).2.1)
/-- Case A's stores into the accumulator are of the whole buffer, so they cover it. -/
theorem scover4_A_0 (c : Dev nD) (i : grid4.Coords) (arg2 : Memref sig .tc .vmem S1024x2048 .bf16) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .f32) (harg9 : arg9.IsWhole) (hc0 : cond4_0 i) (hc1 : ¬cond4_1 i)
    (x0 : Vec F S1024x2048 .bf16) (x1 : Vec F S8192x128 .bf16) (x2 : Vec F S1024x128 .f32) (x3 : Vec F S1x128 .f32) (x4 : Vec F S1x1 .f32) (y : S1024x128.Idx) :
    ∃ pc ∈ (kernelRun4_A c i arg2 harg2 arg3 harg3 arg4 harg4 arg5 harg5 arg6 harg6 arg7 harg7 arg8 harg8 arg9 harg9 hc0 hc1 x0 x1 x2 x3 x4).2.2.1, y ∈ pc.1.set :=
  View.cover_of_tiledL (kernelRun4_A c i arg2 harg2 arg3 harg3 arg4 harg4 arg5 harg5 arg6 harg6 arg7 harg7 arg8 harg8 arg9 harg9 hc0 hc1 x0 x1 x2 x3 x4).2.2.1 S1024x128.size (by sl_kernel_rfl) y
/-- What case A leaves in the accumulator. -/
def sout4_A_0 (c : Dev nD) (i : grid4.Coords) (arg2 : Memref sig .tc .vmem S1024x2048 .bf16) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .f32) (harg9 : arg9.IsWhole) (hc0 : cond4_0 i) (hc1 : ¬cond4_1 i)
    (x0 : Vec F S1024x2048 .bf16) (x1 : Vec F S8192x128 .bf16) (x2 : Vec F S1024x128 .f32) (x3 : Vec F S1x128 .f32) (x4 : Vec F S1x1 .f32) : Vec F S1024x128 .f32 :=
  VS4_0.read (Elt F) (VS4_0.writes (Elt F) VS4_0.junk (kernelRun4_A c i arg2 harg2 arg3 harg3 arg4 harg4 arg5 harg5 arg6 harg6 arg7 harg7 arg8 harg8 arg9 harg9 hc0 hc1 x0 x1 x2 x3 x4).2.2.1)

/-- What case B leaves in output 5's staging buffer: its stores read back over arbitrary contents (there are none: the output is idle in this case and nothing consults this value). -/
def out4_B_5 (c : Dev nD) (i : grid4.Coords) (arg2 : Memref sig .tc .vmem S1024x2048 .bf16) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .f32) (harg9 : arg9.IsWhole) (hc0 : ¬cond4_0 i) (hc1 : ¬cond4_1 i)
    (x0 : Vec F S1024x2048 .bf16) (x1 : Vec F S8192x128 .bf16) (x2 : Vec F S1024x128 .f32) (x3 : Vec F S1x128 .f32) (x4 : Vec F S1x1 .f32) (xs0 : Vec F S1024x128 .f32) : Vec F S1024x128 .bf16 :=
  VO4_5.read (Elt F) (VO4_5.writes (Elt F) VO4_5.junk (kernelRun4_B c i arg2 harg2 arg3 harg3 arg4 harg4 arg5 harg5 arg6 harg6 arg7 harg7 arg8 harg8 arg9 harg9 hc0 hc1 x0 x1 x2 x3 x4 xs0).1)
/-- The same for output 6. -/
def out4_B_6 (c : Dev nD) (i : grid4.Coords) (arg2 : Memref sig .tc .vmem S1024x2048 .bf16) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .f32) (harg9 : arg9.IsWhole) (hc0 : ¬cond4_0 i) (hc1 : ¬cond4_1 i)
    (x0 : Vec F S1024x2048 .bf16) (x1 : Vec F S8192x128 .bf16) (x2 : Vec F S1024x128 .f32) (x3 : Vec F S1x128 .f32) (x4 : Vec F S1x1 .f32) (xs0 : Vec F S1024x128 .f32) : Vec F S1024x128 .f32 :=
  VO4_6.read (Elt F) (VO4_6.writes (Elt F) VO4_6.junk (kernelRun4_B c i arg2 harg2 arg3 harg3 arg4 harg4 arg5 harg5 arg6 harg6 arg7 harg7 arg8 harg8 arg9 harg9 hc0 hc1 x0 x1 x2 x3 x4 xs0).2.1)
/-- Case B's stores into the accumulator are of the whole buffer, so they cover it. -/
theorem scover4_B_0 (c : Dev nD) (i : grid4.Coords) (arg2 : Memref sig .tc .vmem S1024x2048 .bf16) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .f32) (harg9 : arg9.IsWhole) (hc0 : ¬cond4_0 i) (hc1 : ¬cond4_1 i)
    (x0 : Vec F S1024x2048 .bf16) (x1 : Vec F S8192x128 .bf16) (x2 : Vec F S1024x128 .f32) (x3 : Vec F S1x128 .f32) (x4 : Vec F S1x1 .f32) (xs0 : Vec F S1024x128 .f32) (y : S1024x128.Idx) :
    ∃ pc ∈ (kernelRun4_B c i arg2 harg2 arg3 harg3 arg4 harg4 arg5 harg5 arg6 harg6 arg7 harg7 arg8 harg8 arg9 harg9 hc0 hc1 x0 x1 x2 x3 x4 xs0).2.2.1, y ∈ pc.1.set :=
  View.cover_of_tiledL (kernelRun4_B c i arg2 harg2 arg3 harg3 arg4 harg4 arg5 harg5 arg6 harg6 arg7 harg7 arg8 harg8 arg9 harg9 hc0 hc1 x0 x1 x2 x3 x4 xs0).2.2.1 S1024x128.size (by sl_kernel_rfl) y
/-- What case B leaves in the accumulator. -/
def sout4_B_0 (c : Dev nD) (i : grid4.Coords) (arg2 : Memref sig .tc .vmem S1024x2048 .bf16) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .f32) (harg9 : arg9.IsWhole) (hc0 : ¬cond4_0 i) (hc1 : ¬cond4_1 i)
    (x0 : Vec F S1024x2048 .bf16) (x1 : Vec F S8192x128 .bf16) (x2 : Vec F S1024x128 .f32) (x3 : Vec F S1x128 .f32) (x4 : Vec F S1x1 .f32) (xs0 : Vec F S1024x128 .f32) : Vec F S1024x128 .f32 :=
  VS4_0.read (Elt F) (VS4_0.writes (Elt F) VS4_0.junk (kernelRun4_B c i arg2 harg2 arg3 harg3 arg4 harg4 arg5 harg5 arg6 harg6 arg7 harg7 arg8 harg8 arg9 harg9 hc0 hc1 x0 x1 x2 x3 x4 xs0).2.2.1)

/-- What case C leaves in output 5's staging buffer: its stores read back over arbitrary contents. -/
def out4_C_5 (c : Dev nD) (i : grid4.Coords) (arg2 : Memref sig .tc .vmem S1024x2048 .bf16) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .f32) (harg9 : arg9.IsWhole) (hc0 : ¬cond4_0 i) (hc1 : cond4_1 i)
    (x0 : Vec F S1024x2048 .bf16) (x1 : Vec F S8192x128 .bf16) (x2 : Vec F S1024x128 .f32) (x3 : Vec F S1x128 .f32) (x4 : Vec F S1x1 .f32) (xs0 : Vec F S1024x128 .f32) : Vec F S1024x128 .bf16 :=
  VO4_5.read (Elt F) (VO4_5.writes (Elt F) VO4_5.junk (kernelRun4_C c i arg2 harg2 arg3 harg3 arg4 harg4 arg5 harg5 arg6 harg6 arg7 harg7 arg8 harg8 arg9 harg9 hc0 hc1 x0 x1 x2 x3 x4 xs0).1)
/-- The same for output 6. -/
def out4_C_6 (c : Dev nD) (i : grid4.Coords) (arg2 : Memref sig .tc .vmem S1024x2048 .bf16) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .f32) (harg9 : arg9.IsWhole) (hc0 : ¬cond4_0 i) (hc1 : cond4_1 i)
    (x0 : Vec F S1024x2048 .bf16) (x1 : Vec F S8192x128 .bf16) (x2 : Vec F S1024x128 .f32) (x3 : Vec F S1x128 .f32) (x4 : Vec F S1x1 .f32) (xs0 : Vec F S1024x128 .f32) : Vec F S1024x128 .f32 :=
  VO4_6.read (Elt F) (VO4_6.writes (Elt F) VO4_6.junk (kernelRun4_C c i arg2 harg2 arg3 harg3 arg4 harg4 arg5 harg5 arg6 harg6 arg7 harg7 arg8 harg8 arg9 harg9 hc0 hc1 x0 x1 x2 x3 x4 xs0).2.1)
/-- Case C's one store into output 5 is of the whole block, so it covers it. -/
theorem cover4_C_5 (c : Dev nD) (i : grid4.Coords) (arg2 : Memref sig .tc .vmem S1024x2048 .bf16) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .f32) (harg9 : arg9.IsWhole) (hc0 : ¬cond4_0 i) (hc1 : cond4_1 i)
    (x0 : Vec F S1024x2048 .bf16) (x1 : Vec F S8192x128 .bf16) (x2 : Vec F S1024x128 .f32) (x3 : Vec F S1x128 .f32) (x4 : Vec F S1x1 .f32) (xs0 : Vec F S1024x128 .f32) (y : S1024x128.Idx) :
    ∃ pc ∈ (kernelRun4_C c i arg2 harg2 arg3 harg3 arg4 harg4 arg5 harg5 arg6 harg6 arg7 harg7 arg8 harg8 arg9 harg9 hc0 hc1 x0 x1 x2 x3 x4 xs0).1, y ∈ pc.1.set :=
  View.cover_of_tiledL (kernelRun4_C c i arg2 harg2 arg3 harg3 arg4 harg4 arg5 harg5 arg6 harg6 arg7 harg7 arg8 harg8 arg9 harg9 hc0 hc1 x0 x1 x2 x3 x4 xs0).1 S1024x128.size (by sl_kernel_rfl) y
/-- The same for output 6. -/
theorem cover4_C_6 (c : Dev nD) (i : grid4.Coords) (arg2 : Memref sig .tc .vmem S1024x2048 .bf16) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .f32) (harg9 : arg9.IsWhole) (hc0 : ¬cond4_0 i) (hc1 : cond4_1 i)
    (x0 : Vec F S1024x2048 .bf16) (x1 : Vec F S8192x128 .bf16) (x2 : Vec F S1024x128 .f32) (x3 : Vec F S1x128 .f32) (x4 : Vec F S1x1 .f32) (xs0 : Vec F S1024x128 .f32) (y : S1024x128.Idx) :
    ∃ pc ∈ (kernelRun4_C c i arg2 harg2 arg3 harg3 arg4 harg4 arg5 harg5 arg6 harg6 arg7 harg7 arg8 harg8 arg9 harg9 hc0 hc1 x0 x1 x2 x3 x4 xs0).2.1, y ∈ pc.1.set :=
  View.cover_of_tiledL (kernelRun4_C c i arg2 harg2 arg3 harg3 arg4 harg4 arg5 harg5 arg6 harg6 arg7 harg7 arg8 harg8 arg9 harg9 hc0 hc1 x0 x1 x2 x3 x4 xs0).2.1 S1024x128.size (by sl_kernel_rfl) y
/-- Case C's stores into the accumulator are of the whole buffer, so they cover it. -/
theorem scover4_C_0 (c : Dev nD) (i : grid4.Coords) (arg2 : Memref sig .tc .vmem S1024x2048 .bf16) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .f32) (harg9 : arg9.IsWhole) (hc0 : ¬cond4_0 i) (hc1 : cond4_1 i)
    (x0 : Vec F S1024x2048 .bf16) (x1 : Vec F S8192x128 .bf16) (x2 : Vec F S1024x128 .f32) (x3 : Vec F S1x128 .f32) (x4 : Vec F S1x1 .f32) (xs0 : Vec F S1024x128 .f32) (y : S1024x128.Idx) :
    ∃ pc ∈ (kernelRun4_C c i arg2 harg2 arg3 harg3 arg4 harg4 arg5 harg5 arg6 harg6 arg7 harg7 arg8 harg8 arg9 harg9 hc0 hc1 x0 x1 x2 x3 x4 xs0).2.2.1, y ∈ pc.1.set :=
  View.cover_of_tiledL (kernelRun4_C c i arg2 harg2 arg3 harg3 arg4 harg4 arg5 harg5 arg6 harg6 arg7 harg7 arg8 harg8 arg9 harg9 hc0 hc1 x0 x1 x2 x3 x4 xs0).2.2.1 S1024x128.size (by sl_kernel_rfl) y
/-- What case C leaves in the accumulator. -/
def sout4_C_0 (c : Dev nD) (i : grid4.Coords) (arg2 : Memref sig .tc .vmem S1024x2048 .bf16) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .f32) (harg9 : arg9.IsWhole) (hc0 : ¬cond4_0 i) (hc1 : cond4_1 i)
    (x0 : Vec F S1024x2048 .bf16) (x1 : Vec F S8192x128 .bf16) (x2 : Vec F S1024x128 .f32) (x3 : Vec F S1x128 .f32) (x4 : Vec F S1x1 .f32) (xs0 : Vec F S1024x128 .f32) : Vec F S1024x128 .f32 :=
  VS4_0.read (Elt F) (VS4_0.writes (Elt F) VS4_0.junk (kernelRun4_C c i arg2 harg2 arg3 harg3 arg4 harg4 arg5 harg5 arg6 harg6 arg7 harg7 arg8 harg8 arg9 harg9 hc0 hc1 x0 x1 x2 x3 x4 xs0).2.2.1)

/-! ## What the outputs and the accumulator hold after each point -/

/-- After the body at position `n`: output 5's buffer, output 6's buffer, the accumulator. -/
def outsAt4 (c : Dev nD) : (n : ℕ) → n < cfg4.N → Vec F S1024x128 .bf16 × Vec F S1024x128 .f32 × Vec F S1024x128 .f32
  | 0, hn => (out4_A_5 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) scM4_0 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩) (iblk4 V c 3 ⟨0, hn⟩) (iblk4 V c 4 ⟨0, hn⟩), out4_A_6 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) scM4_0 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩) (iblk4 V c 3 ⟨0, hn⟩) (iblk4 V c 4 ⟨0, hn⟩), sout4_A_0 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) scM4_0 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩) (iblk4 V c 3 ⟨0, hn⟩) (iblk4 V c 4 ⟨0, hn⟩))
  | n + 1, hn =>
    if h0 : (n + 1) % 4 = 0 then
      if h1 : (n + 1) % 4 = 3 then
        False.elim (by omega)
      else
        (out4_A_5 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩), out4_A_6 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩), sout4_A_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩))
    else
      if h1 : (n + 1) % 4 = 3 then
        (out4_C_5 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (outsAt4 c n (Nat.lt_of_succ_lt hn)).2.2, out4_C_6 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (outsAt4 c n (Nat.lt_of_succ_lt hn)).2.2, sout4_C_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (outsAt4 c n (Nat.lt_of_succ_lt hn)).2.2)
      else
        (out4_B_5 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (outsAt4 c n (Nat.lt_of_succ_lt hn)).2.2, out4_B_6 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (outsAt4 c n (Nat.lt_of_succ_lt hn)).2.2, sout4_B_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (outsAt4 c n (Nat.lt_of_succ_lt hn)).2.2)

theorem outsAt4_A (c : Dev nD) (t : Fin cfg4.N) (h0 : t.val % 4 = 0) (h1 : ¬t.val % 4 = 3) :
    outsAt4 V c t.val t.isLt = (out4_A_5 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) ((hcond4_0 t).mpr h0) (fun h => h1 ((hcond4_1 t).mp h)) (iblk4 V c 0 t) (iblk4 V c 1 t) (iblk4 V c 2 t) (iblk4 V c 3 t) (iblk4 V c 4 t), out4_A_6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) ((hcond4_0 t).mpr h0) (fun h => h1 ((hcond4_1 t).mp h)) (iblk4 V c 0 t) (iblk4 V c 1 t) (iblk4 V c 2 t) (iblk4 V c 3 t) (iblk4 V c 4 t), sout4_A_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) ((hcond4_0 t).mpr h0) (fun h => h1 ((hcond4_1 t).mp h)) (iblk4 V c 0 t) (iblk4 V c 1 t) (iblk4 V c 2 t) (iblk4 V c 3 t) (iblk4 V c 4 t)) := by
  obtain ⟨n, hn⟩ := t
  cases n with
  | zero => exact rfl
  | succ n => exact (dif_pos h0).trans ((dif_neg h1).trans rfl)

theorem outsAt4_B (c : Dev nD) (t : Fin cfg4.N) (h0 : ¬t.val % 4 = 0) (h1 : ¬t.val % 4 = 3) :
    outsAt4 V c t.val t.isLt = (out4_B_5 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) (fun h => h0 ((hcond4_0 t).mp h)) (fun h => h1 ((hcond4_1 t).mp h)) (iblk4 V c 0 t) (iblk4 V c 1 t) (iblk4 V c 2 t) (iblk4 V c 3 t) (iblk4 V c 4 t) (outsAt4 V c (t.val - 1) (Nat.lt_of_le_of_lt (Nat.sub_le _ _) t.isLt)).2.2, out4_B_6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) (fun h => h0 ((hcond4_0 t).mp h)) (fun h => h1 ((hcond4_1 t).mp h)) (iblk4 V c 0 t) (iblk4 V c 1 t) (iblk4 V c 2 t) (iblk4 V c 3 t) (iblk4 V c 4 t) (outsAt4 V c (t.val - 1) (Nat.lt_of_le_of_lt (Nat.sub_le _ _) t.isLt)).2.2, sout4_B_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) (fun h => h0 ((hcond4_0 t).mp h)) (fun h => h1 ((hcond4_1 t).mp h)) (iblk4 V c 0 t) (iblk4 V c 1 t) (iblk4 V c 2 t) (iblk4 V c 3 t) (iblk4 V c 4 t) (outsAt4 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt4_C (c : Dev nD) (t : Fin cfg4.N) (h0 : ¬t.val % 4 = 0) (h1 : t.val % 4 = 3) :
    outsAt4 V c t.val t.isLt = (out4_C_5 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) (fun h => h0 ((hcond4_0 t).mp h)) ((hcond4_1 t).mpr h1) (iblk4 V c 0 t) (iblk4 V c 1 t) (iblk4 V c 2 t) (iblk4 V c 3 t) (iblk4 V c 4 t) (outsAt4 V c (t.val - 1) (Nat.lt_of_le_of_lt (Nat.sub_le _ _) t.isLt)).2.2, out4_C_6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) (fun h => h0 ((hcond4_0 t).mp h)) ((hcond4_1 t).mpr h1) (iblk4 V c 0 t) (iblk4 V c 1 t) (iblk4 V c 2 t) (iblk4 V c 3 t) (iblk4 V c 4 t) (outsAt4 V c (t.val - 1) (Nat.lt_of_le_of_lt (Nat.sub_le _ _) t.isLt)).2.2, sout4_C_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) (fun h => h0 ((hcond4_0 t).mp h)) ((hcond4_1 t).mpr h1) (iblk4 V c 0 t) (iblk4 V c 1 t) (iblk4 V c 2 t) (iblk4 V c 3 t) (iblk4 V c 4 t) (outsAt4 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before the first point: what the launch hands the call. Before any later point: the accumulator at what the
    point before left in it, every other scoped buffer unopened, the generator register at some state. -/
def PhiS4 (c : Dev nD) : (n : ℕ) → n ≤ cfg4.N → sProp 𝕄
  | 0, _ => Pipeline.ΦA spec4 c
  | n + 1, hn => iprop(iprop(iprop(owns (c : Thread nD τ) scM4_0 fullShare ((outsAt4 V c n hn).2.2))
      ∗ Pipeline.scopedRestBut (Ix := Unit) (Name := ℕ) (U := UR sig nD τ) (Lvl := ℕ) (Val := Elt F) spec4 c [cc4_scratch0]) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(iprop(owns (c : Thread nD τ) scM4_0 fullShare ((outsAt4 V c n hn).2.2))
      ∗ Pipeline.scopedRestBut (Ix := Unit) (Name := ℕ) (U := UR sig nD τ) (Lvl := ℕ) (Val := Elt F) spec4 c [cc4_scratch0]) ∗ (∃ r, prngReg c r)) := rfl

theorem PhiS4_pos (c : Dev nD) (n : ℕ) (h : n ≤ cfg4.N) (hz : n ≠ 0) :
    PhiS4 V c n h = iprop(iprop(iprop(owns (c : Thread nD τ) scM4_0 fullShare ((outsAt4 V c (n - 1) (by omega)).2.2))
      ∗ Pipeline.scopedRestBut (Ix := Unit) (Name := ℕ) (U := UR sig nD τ) (Lvl := ℕ) (Val := Elt F) spec4 c [cc4_scratch0]) ∗ (∃ r, prngReg c r)) := by
  cases n with
  | zero => exact absurd rfl hz
  | succ n => rfl

/-! ## The proof data -/

/-- The proof data of the call on core `c`: the arrays as the call finds them; after the body at point `t` each
    input's buffer at its block and the outputs' at `outsAt4`; the invariant `PhiS4`; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => (outsAt4 V c t.val t.isLt).1
    | ⟨6, _⟩ => (outsAt4 V c t.val t.isLt).2.1
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = (outsAt4 V c t.val t.isLt).1 := by dsimp only [dat4]
theorem after4_6 (c : Dev nD) (t : Fin cfg4.N) : (dat4 V c).after 6 t = (outsAt4 V c t.val t.isLt).2.1 := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d

theorem liveAt4_0 : ∀ t : Fin cfg4.N, cfg4.idle 0 (grid4.coords t) = false := fun _ => rfl
theorem liveAt4_1 : ∀ t : Fin cfg4.N, cfg4.idle 1 (grid4.coords t) = false := fun _ => rfl
theorem liveAt4_2 : ∀ t : Fin cfg4.N, cfg4.idle 2 (grid4.coords t) = false := fun _ => rfl
theorem liveAt4_3 : ∀ t : Fin cfg4.N, cfg4.idle 3 (grid4.coords t) = false := fun _ => rfl
theorem liveAt4_4 : ∀ t : Fin cfg4.N, cfg4.idle 4 (grid4.coords t) = false := fun _ => rfl

/-! ## The body obligation -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d))
    ∗ (∃ d, owns (c : Thread nD τ) (ms4_6 t) fullShare ((dat4 V c).before 6 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t
    ∗ (dat4 V c).leavesExact 6 t)

set_option maxHeartbeats 4800000 in
/-- The body at a point of case A that is the first of the grid (the accumulator is found at anything). -/
theorem sound_body4_A0 (c : Dev nD) (t : Fin cfg4.N) (h0 : t.val % 4 = 0) (h1 : ¬t.val % 4 = 3) (hz : t.val = 0) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).owesAt () t.succ = (dat4 V c).owesAt () t.castSucc from rfl]
  rw [show (dat4 V c).Φ t.succ = PhiS4 V c (t.val + 1) t.isLt from rfl, PhiS4_succ]
  rw [show (dat4 V c).leavesExact 0 t = owns (c : Thread nD τ) (ms4_0 t) fullShare ((dat4 V c).after 0 t) from by
    unfold Dat.leavesExact; rw [liveAt4_0 t], after4_0]
  rw [show (dat4 V c).leavesExact 1 t = owns (c : Thread nD τ) (ms4_1 t) fullShare ((dat4 V c).after 1 t) from by
    unfold Dat.leavesExact; rw [liveAt4_1 t], after4_1]
  rw [show (dat4 V c).leavesExact 2 t = owns (c : Thread nD τ) (ms4_2 t) fullShare ((dat4 V c).after 2 t) from by
    unfold Dat.leavesExact; rw [liveAt4_2 t], after4_2]
  rw [show (dat4 V c).leavesExact 3 t = owns (c : Thread nD τ) (ms4_3 t) fullShare ((dat4 V c).after 3 t) from by
    unfold Dat.leavesExact; rw [liveAt4_3 t], after4_3]
  rw [show (dat4 V c).leavesExact 4 t = owns (c : Thread nD τ) (ms4_4 t) fullShare ((dat4 V c).after 4 t) from by
    unfold Dat.leavesExact; rw [liveAt4_4 t], after4_4]
  rw [Dat.leavesExact_idle (dat4 V c) 5 t (idleAt4_5_A t ((hcond4_0 t).mpr h0) (fun h => h1 ((hcond4_1 t).mp h))) (noFlush4_5_A t ((hcond4_0 t).mpr h0) (fun h => h1 ((hcond4_1 t).mp h)))]
  rw [Dat.leavesExact_idle (dat4 V c) 6 t (idleAt4_6_A t ((hcond4_0 t).mpr h0) (fun h => h1 ((hcond4_1 t).mp h))) (noFlush4_6_A t ((hcond4_0 t).mpr h0) (fun h => h1 ((hcond4_1 t).mp h)))]
  rw [outsAt4_A V c t h0 h1]
  unfold sout4_A_0; (try dsimp only)
  rw [PhiS4_castSucc V c t, PhiS4_zero V c _ _ hz, PhiA4_eq]
  iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩⟩
  iapply ((kernelRun4_A c (grid4.coords t) _ _ _ _ _ _ _ _ _ _ _ _ _ _ _ _ ((hcond4_0 t).mpr h0) (fun h => h1 ((hcond4_1 t).mp h)) (iblk4 V c 0 t) (iblk4 V c 1 t) (iblk4 V c 2 t) (iblk4 V c 3 t) (iblk4 V c 4 t)).2.2.2 _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  iintro ⟨H0, H1, H2, H3, H4, H5, H6, ⟨%es0, HS0⟩⟩
  isplitl [HS0 Hr Hg]
  · isplitl [HS0 Hr]
    · isplitl [HS0]
      · unfold owns; iexists _; isplitr
        swap; · iexact HS0
        ipureintro; exact View.read_writes_of_cover _ _ _ _ _ (scover4_A_0 c _ _ _ _ _ _ _ _ _ _ _ _ _ _ _ _ _ _ _ _ _ _ _ _)
      iexact Hr
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexists _; iexact H5
  iexists _; iexact H6

set_option maxHeartbeats 4800000 in
/-- The body at a point of case A that is not the first of the grid (the accumulator is found at what the point before left; the reset overwrites it). -/
theorem sound_body4_A (c : Dev nD) (t : Fin cfg4.N) (h0 : t.val % 4 = 0) (h1 : ¬t.val % 4 = 3) (hz : t.val ≠ 0) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).owesAt () t.succ = (dat4 V c).owesAt () t.castSucc from rfl]
  rw [show (dat4 V c).Φ t.succ = PhiS4 V c (t.val + 1) t.isLt from rfl, PhiS4_succ]
  rw [show (dat4 V c).leavesExact 0 t = owns (c : Thread nD τ) (ms4_0 t) fullShare ((dat4 V c).after 0 t) from by
    unfold Dat.leavesExact; rw [liveAt4_0 t], after4_0]
  rw [show (dat4 V c).leavesExact 1 t = owns (c : Thread nD τ) (ms4_1 t) fullShare ((dat4 V c).after 1 t) from by
    unfold Dat.leavesExact; rw [liveAt4_1 t], after4_1]
  rw [show (dat4 V c).leavesExact 2 t = owns (c : Thread nD τ) (ms4_2 t) fullShare ((dat4 V c).after 2 t) from by
    unfold Dat.leavesExact; rw [liveAt4_2 t], after4_2]
  rw [show (dat4 V c).leavesExact 3 t = owns (c : Thread nD τ) (ms4_3 t) fullShare ((dat4 V c).after 3 t) from by
    unfold Dat.leavesExact; rw [liveAt4_3 t], after4_3]
  rw [show (dat4 V c).leavesExact 4 t = owns (c : Thread nD τ) (ms4_4 t) fullShare ((dat4 V c).after 4 t) from by
    unfold Dat.leavesExact; rw [liveAt4_4 t], after4_4]
  rw [Dat.leavesExact_idle (dat4 V c) 5 t (idleAt4_5_A t ((hcond4_0 t).mpr h0) (fun h => h1 ((hcond4_1 t).mp h))) (noFlush4_5_A t ((hcond4_0 t).mpr h0) (fun h => h1 ((hcond4_1 t).mp h)))]
  rw [Dat.leavesExact_idle (dat4 V c) 6 t (idleAt4_6_A t ((hcond4_0 t).mpr h0) (fun h => h1 ((hcond4_1 t).mp h))) (noFlush4_6_A t ((hcond4_0 t).mpr h0) (fun h => h1 ((hcond4_1 t).mp h)))]
  rw [outsAt4_A V c t h0 h1]
  unfold sout4_A_0; (try dsimp only)
  rw [PhiS4_castSucc V c t, PhiS4_pos V c _ _ hz]
  iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩⟩
  iapply ((kernelRun4_A c (grid4.coords t) _ _ _ _ _ _ _ _ _ _ _ _ _ _ _ _ ((hcond4_0 t).mpr h0) (fun h => h1 ((hcond4_1 t).mp h)) (iblk4 V c 0 t) (iblk4 V c 1 t) (iblk4 V c 2 t) (iblk4 V c 3 t) (iblk4 V c 4 t)).2.2.2 _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexists _; iexact HS0
  iintro ⟨H0, H1, H2, H3, H4, H5, H6, ⟨%es0, HS0⟩⟩
  isplitl [HS0 Hr Hg]
  · isplitl [HS0 Hr]
    · isplitl [HS0]
      · unfold owns; iexists _; isplitr
        swap; · iexact HS0
        ipureintro; exact View.read_writes_of_cover _ _ _ _ _ (scover4_A_0 c _ _ _ _ _ _ _ _ _ _ _ _ _ _ _ _ _ _ _ _ _ _ _ _)
      iexact Hr
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexists _; iexact H5
  iexists _; iexact H6

set_option maxHeartbeats 4800000 in
/-- The body at a point of case B. -/
theorem sound_body4_B (c : Dev nD) (t : Fin cfg4.N) (h0 : ¬t.val % 4 = 0) (h1 : ¬t.val % 4 = 3) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).owesAt () t.succ = (dat4 V c).owesAt () t.castSucc from rfl]
  rw [show (dat4 V c).Φ t.succ = PhiS4 V c (t.val + 1) t.isLt from rfl, PhiS4_succ]
  rw [show (dat4 V c).leavesExact 0 t = owns (c : Thread nD τ) (ms4_0 t) fullShare ((dat4 V c).after 0 t) from by
    unfold Dat.leavesExact; rw [liveAt4_0 t], after4_0]
  rw [show (dat4 V c).leavesExact 1 t = owns (c : Thread nD τ) (ms4_1 t) fullShare ((dat4 V c).after 1 t) from by
    unfold Dat.leavesExact; rw [liveAt4_1 t], after4_1]
  rw [show (dat4 V c).leavesExact 2 t = owns (c : Thread nD τ) (ms4_2 t) fullShare ((dat4 V c).after 2 t) from by
    unfold Dat.leavesExact; rw [liveAt4_2 t], after4_2]
  rw [show (dat4 V c).leavesExact 3 t = owns (c : Thread nD τ) (ms4_3 t) fullShare ((dat4 V c).after 3 t) from by
    unfold Dat.leavesExact; rw [liveAt4_3 t], after4_3]
  rw [show (dat4 V c).leavesExact 4 t = owns (c : Thread nD τ) (ms4_4 t) fullShare ((dat4 V c).after 4 t) from by
    unfold Dat.leavesExact; rw [liveAt4_4 t], after4_4]
  rw [Dat.leavesExact_idle (dat4 V c) 5 t (idleAt4_5_B t (fun h => h0 ((hcond4_0 t).mp h)) (fun h => h1 ((hcond4_1 t).mp h))) (noFlush4_5_B t (fun h => h0 ((hcond4_0 t).mp h)) (fun h => h1 ((hcond4_1 t).mp h)))]
  rw [Dat.leavesExact_idle (dat4 V c) 6 t (idleAt4_6_B t (fun h => h0 ((hcond4_0 t).mp h)) (fun h => h1 ((hcond4_1 t).mp h))) (noFlush4_6_B t (fun h => h0 ((hcond4_0 t).mp h)) (fun h => h1 ((hcond4_1 t).mp h)))]
  rw [outsAt4_B V c t h0 h1]
  unfold sout4_B_0; (try dsimp only)
  have hz : t.val ≠ 0 := fun e => h0 (by rw [e])
  rw [PhiS4_castSucc V c t, PhiS4_pos V c _ _ hz]
  iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩⟩
  iapply ((kernelRun4_B c (grid4.coords t) _ _ _ _ _ _ _ _ _ _ _ _ _ _ _ _ (fun h => h0 ((hcond4_0 t).mp h)) (fun h => h1 ((hcond4_1 t).mp h)) (iblk4 V c 0 t) (iblk4 V c 1 t) (iblk4 V c 2 t) (iblk4 V c 3 t) (iblk4 V c 4 t) _).2.2.2 _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  iintro ⟨H0, H1, H2, H3, H4, H5, H6, ⟨%es0, HS0⟩⟩
  isplitl [HS0 Hr Hg]
  · isplitl [HS0 Hr]
    · isplitl [HS0]
      · unfold owns; iexists _; isplitr
        swap; · iexact HS0
        ipureintro; exact View.read_writes_of_cover _ _ _ _ _ (scover4_B_0 c _ _ _ _ _ _ _ _ _ _ _ _ _ _ _ _ _ _ _ _ _ _ _ _ _)
      iexact Hr
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexists _; iexact H5
  iexists _; iexact H6

set_option maxHeartbeats 4800000 in
/-- The body at a point of case C. -/
theorem sound_body4_C (c : Dev nD) (t : Fin cfg4.N) (h0 : ¬t.val % 4 = 0) (h1 : t.val % 4 = 3) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).owesAt () t.succ = (dat4 V c).owesAt () t.castSucc from rfl]
  rw [show (dat4 V c).Φ t.succ = PhiS4 V c (t.val + 1) t.isLt from rfl, PhiS4_succ]
  rw [show (dat4 V c).leavesExact 0 t = owns (c : Thread nD τ) (ms4_0 t) fullShare ((dat4 V c).after 0 t) from by
    unfold Dat.leavesExact; rw [liveAt4_0 t], after4_0]
  rw [show (dat4 V c).leavesExact 1 t = owns (c : Thread nD τ) (ms4_1 t) fullShare ((dat4 V c).after 1 t) from by
    unfold Dat.leavesExact; rw [liveAt4_1 t], after4_1]
  rw [show (dat4 V c).leavesExact 2 t = owns (c : Thread nD τ) (ms4_2 t) fullShare ((dat4 V c).after 2 t) from by
    unfold Dat.leavesExact; rw [liveAt4_2 t], after4_2]
  rw [show (dat4 V c).leavesExact 3 t = owns (c : Thread nD τ) (ms4_3 t) fullShare ((dat4 V c).after 3 t) from by
    unfold Dat.leavesExact; rw [liveAt4_3 t], after4_3]
  rw [show (dat4 V c).leavesExact 4 t = owns (c : Thread nD τ) (ms4_4 t) fullShare ((dat4 V c).after 4 t) from by
    unfold Dat.leavesExact; rw [liveAt4_4 t], after4_4]
  rw [show (dat4 V c).leavesExact 5 t = owns (c : Thread nD τ) (ms4_5 t) fullShare ((dat4 V c).after 5 t) from by
    unfold Dat.leavesExact; rw [liveAt4_5_C t (fun h => h0 ((hcond4_0 t).mp h)) ((hcond4_1 t).mpr h1)], after4_5]
  rw [show (dat4 V c).leavesExact 6 t = owns (c : Thread nD τ) (ms4_6 t) fullShare ((dat4 V c).after 6 t) from by
    unfold Dat.leavesExact; rw [liveAt4_6_C t (fun h => h0 ((hcond4_0 t).mp h)) ((hcond4_1 t).mpr h1)], after4_6]
  rw [outsAt4_C V c t h0 h1]
  unfold out4_C_5 out4_C_6 sout4_C_0; (try dsimp only)
  have hz : t.val ≠ 0 := fun e => h0 (by rw [e])
  rw [PhiS4_castSucc V c t, PhiS4_pos V c _ _ hz]
  iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩⟩
  iapply ((kernelRun4_C c (grid4.coords t) _ _ _ _ _ _ _ _ _ _ _ _ _ _ _ _ (fun h => h0 ((hcond4_0 t).mp h)) ((hcond4_1 t).mpr h1) (iblk4 V c 0 t) (iblk4 V c 1 t) (iblk4 V c 2 t) (iblk4 V c 3 t) (iblk4 V c 4 t) _).2.2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [HS0]; · iexact HS0
  iintro ⟨H0, H1, H2, H3, H4, ⟨%e5, H5⟩, ⟨%e6, H6⟩, ⟨%es0, HS0⟩⟩
  isplitl [HS0 Hr Hg]
  · isplitl [HS0 Hr]
    · isplitl [HS0]
      · unfold owns; iexists _; isplitr
        swap; · iexact HS0
        ipureintro; exact View.read_writes_of_cover _ _ _ _ _ (scover4_C_0 c _ _ _ _ _ _ _ _ _ _ _ _ _ _ _ _ _ _ _ _ _ _ _ _ _)
      iexact Hr
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_of_cover _ _ _ _ _ (cover4_C_5 c _ _ _ _ _ _ _ _ _ _ _ _ _ _ _ _ _ _ _ _ _ _ _ _ _)
  unfold owns; iexists _; isplitr
  swap; · iexact H6
  ipureintro; exact View.read_writes_of_cover _ _ _ _ _ (cover4_C_6 c _ _ _ _ _ _ _ _ _ _ _ _ _ _ _ _ _ _ _ _ _ _ _ _ _)

/-- The body at any point: the point is in exactly one of the three cases. -/
theorem sound_body4 (c : Dev nD) (t : Fin cfg4.N) :
    bodyPre4 V c t ⊢ wp frame (wpE (defs₀ (F := F)) Variants.none c none) Set.univ (bodyAt4 t) (fun _ => bodyPost4 V c t) := by
  by_cases h0 : t.val % 4 = 0
  · have h1 : ¬t.val % 4 = 3 := by omega
    by_cases hz : t.val = 0
    · exact sound_body4_A0 V c t h0 h1 hz
    · exact sound_body4_A V c t h0 h1 hz
  · by_cases h1 : t.val % 4 = 3
    · exact sound_body4_C V c t h0 h1
    · exact sound_body4_B V c t h0 h1

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- What the launch hands the call is the invariant before the first point. -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- After any point but the first the invariant gives back what the launch handed over: the accumulator's contents
    are forgotten. -/
theorem Phi_out4 (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨⟨HS0, Hr⟩, Hg⟩
  isplitl [HS0 Hr]
  · isplitl [HS0]
    · iexists _; iexact HS0
    iexact Hr
  iexact Hg

/-- The same after the last point. -/
theorem hout4 (c : Dev nD) : (dat4 V c).Φ (Fin.last cfg4.N) ⊢ Pipeline.ΦA spec4 c :=
  Phi_out4 V c _ (by rw [Fin.val_last]; have : cfg4.N = 32 := N_4; omega)

end Cert.KernelIdeal.Hand

end
-- ==== Proof.KI.Prop5Runs.lean ====
import proofs.«131271_j4982162063661_2_alg».proof.Proof.Gen.KernelIdeal.Launch
import proofs.«131271_j4982162063661_2_alg».proof.Proof.Gen.KernelIdeal.Skeleton
import proofs.«131271_j4982162063661_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The propagate call number 5: what its three control cases share

The call runs on a grid of 8 x 4 points; point `t` has row tile `i = t / 4` and column tile `k = t % 4`.
The body zeroes its accumulator when `k = 0`, adds the product of the current tile of the matrix with the
matching 2048 rows of the propagated signal at every `k`, and when `k = 3` stores the accumulator into the
two outputs. So there are three control cases: `k = 0` (reset, no output stored), `k = 1, 2` (neither),
`k = 3` (outputs stored). Everything here is stated at the buffer contents `V` the call is entered with. -/

-- the buffer contents when the call is entered
variable (V : (c : Dev nD) → (b : Ref sig .tc) → Buf (Elt F) ((c : Thread nD τ).loc b))

/-- Window `w`'s block at point `t`, read off the window's array as the call finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds the window's block at every point, whether the pipeline fetched
    it there or not: where it was not fetched the block index has not moved since the point before. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds the window's block at every point, whether the pipeline fetched
    it there or not: where it was not fetched the block index has not moved since the point before. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds the window's block at every point, whether the pipeline fetched
    it there or not: where it was not fetched the block index has not moved since the point before. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's current staging buffer holds the window's block at every point, whether the pipeline fetched
    it there or not: where it was not fetched the block index has not moved since the point before. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4's current staging buffer holds the window's block at every point, whether the pipeline fetched
    it there or not: where it was not fetched the block index has not moved since the point before. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-! ## The body's two conditions, in closed form over the grid -/

/-- The condition of the first `scf.if` (the reset): the column tile is the first. -/
abbrev cond5_0 (i : grid5.Coords) : Prop := (Scalar.cmpi .ne (Scalar.extui (Scalar.cmpi .eq (BitVec.ofNat 32 (i 1).val) 0#32)) 0#32) = 1#1
theorem hcond5_0 : ∀ t : Fin cfg5.N, cond5_0 (grid5.coords t) ↔ t.val % 4 = 0 :=
  (by decide +kernel : ∀ t : Fin grid5.N, cond5_0 (grid5.coords t) ↔ t.val % 4 = 0)

/-- The condition of the second `scf.if` (the outputs' stores): the column tile is the last. -/
abbrev cond5_1 (i : grid5.Coords) : Prop := k5_cond2 i = 1#1
theorem hcond5_1 : ∀ t : Fin cfg5.N, cond5_1 (grid5.coords t) ↔ t.val % 4 = 3 :=
  (by decide +kernel : ∀ t : Fin grid5.N, cond5_1 (grid5.coords t) ↔ t.val % 4 = 3)

/-! ## Where the two outputs are idle -/

/-- At the points with k = 0 output 5 is idle: the body stores nothing into it and the pipeline does not write it back. -/
theorem idleAt5_5_A : ∀ t : Fin cfg5.N, cond5_0 (grid5.coords t) → ¬cond5_1 (grid5.coords t) → cfg5.idle 5 (grid5.coords t) = true := by decide +kernel
theorem noFlush5_5_A : ∀ t : Fin cfg5.N, cond5_0 (grid5.coords t) → ¬cond5_1 (grid5.coords t) → (cfg5.win 5).flush t = false := by decide +kernel
/-- The same at the points with k = 1 and k = 2. -/
theorem idleAt5_5_B : ∀ t : Fin cfg5.N, ¬cond5_0 (grid5.coords t) → ¬cond5_1 (grid5.coords t) → cfg5.idle 5 (grid5.coords t) = true := by decide +kernel
theorem noFlush5_5_B : ∀ t : Fin cfg5.N, ¬cond5_0 (grid5.coords t) → ¬cond5_1 (grid5.coords t) → (cfg5.win 5).flush t = false := by decide +kernel
/-- At the points with k = 3 output 5 is live: the body stores its whole block. -/
theorem liveAt5_5_C : ∀ t : Fin cfg5.N, ¬cond5_0 (grid5.coords t) → cond5_1 (grid5.coords t) → cfg5.idle 5 (grid5.coords t) = false := by decide +kernel

/-- At the points with k = 0 output 6 is idle: the body stores nothing into it and the pipeline does not write it back. -/
theorem idleAt5_6_A : ∀ t : Fin cfg5.N, cond5_0 (grid5.coords t) → ¬cond5_1 (grid5.coords t) → cfg5.idle 6 (grid5.coords t) = true := by decide +kernel
theorem noFlush5_6_A : ∀ t : Fin cfg5.N, cond5_0 (grid5.coords t) → ¬cond5_1 (grid5.coords t) → (cfg5.win 6).flush t = false := by decide +kernel
/-- The same at the points with k = 1 and k = 2. -/
theorem idleAt5_6_B : ∀ t : Fin cfg5.N, ¬cond5_0 (grid5.coords t) → ¬cond5_1 (grid5.coords t) → cfg5.idle 6 (grid5.coords t) = true := by decide +kernel
theorem noFlush5_6_B : ∀ t : Fin cfg5.N, ¬cond5_0 (grid5.coords t) → ¬cond5_1 (grid5.coords t) → (cfg5.win 6).flush t = false := by decide +kernel
/-- At the points with k = 3 output 6 is live: the body stores its whole block. -/
theorem liveAt5_6_C : ∀ t : Fin cfg5.N, ¬cond5_0 (grid5.coords t) → cond5_1 (grid5.coords t) → cfg5.idle 6 (grid5.coords t) = false := by decide +kernel

/-! ## The memrefs the body is called with -/

/-- One staging buffer of each output, through which its contents are stated (the choice does not matter). -/
abbrev VO5_5 : View sig .tc .vmem S1024x128 .bf16 := (Memref.whole cc5_stg5_0 : Memref sig .tc .vmem S1024x128 .bf16).view
abbrev VO5_6 : View sig .tc .vmem S1024x128 .f32 := (Memref.whole cc5_stg6_0 : Memref sig .tc .vmem S1024x128 .f32).view
abbrev ms5_0 (t : Fin cfg5.N) : Memref sig .tc .vmem S1024x2048 .bf16 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S8192x128 .bf16 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S1024x128 .f32 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S1x128 .f32 := win5_3.stage (cfg5.slots t 3)
abbrev hs5_3 (t : Fin cfg5.N) : (ms5_3 t).IsWhole := hstage5_3 ((cfg5.slots t 3).cast nbuf5_3)
abbrev ms5_4 (t : Fin cfg5.N) : Memref sig .tc .vmem S1x1 .f32 := win5_4.stage (cfg5.slots t 4)
abbrev hs5_4 (t : Fin cfg5.N) : (ms5_4 t).IsWhole := hstage5_4 ((cfg5.slots t 4).cast nbuf5_4)
abbrev ms5_5 (t : Fin cfg5.N) : Memref sig .tc .vmem S1024x128 .bf16 := win5_5.stage (cfg5.slots t 5)
abbrev hs5_5 (t : Fin cfg5.N) : (ms5_5 t).IsWhole := hstage5_5 ((cfg5.slots t 5).cast nbuf5_5)
abbrev ms5_6 (t : Fin cfg5.N) : Memref sig .tc .vmem S1024x128 .f32 := win5_6.stage (cfg5.slots t 6)
abbrev hs5_6 (t : Fin cfg5.N) : (ms5_6 t).IsWhole := hstage5_6 ((cfg5.slots t 6).cast nbuf5_6)
/-- The accumulator: a whole scoped buffer of the call's own, carried from point to point. -/
abbrev scM5_0 : Memref sig .tc .vmem S1024x128 .f32 := Memref.whole cc5_scratch0
abbrev VS5_0 : View sig .tc .vmem S1024x128 .f32 := scM5_0.view

/-- The invariant the launch hands the call, with the accumulator split out of the scoped buffers: the accumulator
    owned at some contents, every other scoped buffer unopened, the generator register at some state. -/
theorem PhiA5_eq (c : Dev nD) :
    (Pipeline.ΦA spec5 c : sProp 𝕄)
      = iprop(iprop(iprop((∃ d, owns (c : Thread nD τ) scM5_0 fullShare d))
          ∗ Pipeline.scopedRestBut (Ix := Unit) (Name := ℕ) (U := UR sig nD τ) (Lvl := ℕ) (Val := Elt F) spec5 c [cc5_scratch0]) ∗ (∃ r, prngReg c r)) := by
  unfold Pipeline.ΦA; rw [scopedRest5_split]; simp only [scM5_0, owns_whole]; try rfl

end Cert.KernelIdeal.Hand

end
-- ==== Proof.KI.Prop5RunA.lean ====
import proofs.«131271_j4982162063661_2_alg».proof.Proof.KI.Prop5Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run when the column tile is the first (the accumulator is reset, then accumulated into; no output is stored): the lists of stores each buffer ends with, together with the proof that on whole
    staging memrefs — the inputs' at their contents, the outputs' at contents handed back untouched, the accumulator
    at anything — the body runs to the continuation holding the inputs' as they were,
    the accumulator with its stores written. The lists are found by running the body. -/
noncomputable def kernelRun5_A (c : Dev nD) (i : grid5.Coords) (arg2 : Memref sig .tc .vmem S1024x2048 .bf16) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .f32) (harg9 : arg9.IsWhole) (hc0 : cond5_0 i) (hc1 : ¬cond5_1 i)
    (x0 : Vec F S1024x2048 .bf16) (x1 : Vec F S8192x128 .bf16) (x2 : Vec F S1024x128 .f32) (x3 : Vec F S1x128 .f32) (x4 : Vec F S1x1 .f32) :
    Σ' (L5 : List (View.Piece (Elt F) S1024x128 .bf16)) (L6 : List (View.Piece (Elt F) S1024x128 .f32)), { LS0 : List (View.Piece (Elt F) S1024x128 .f32) //
      ∀ (xi5 : Vec F S1024x128 .bf16) (xi6 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc5__propagate_kernel i arg2 harg2 arg3 harg3 arg4 harg4 arg5 harg5 arg6 harg6 arg7 harg7 arg8 harg8 arg9 harg9) K } := by
  refine ⟨[], [], ?_, fun xi5 xi6 E K => ?run⟩
  case run =>
    simp only [cc5__propagate_kernel_eq_skeleton]; unfold cc5__propagate_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

end Cert.KernelIdeal.Hand

end
-- ==== Proof.KI.Prop5RunB.lean ====
import proofs.«131271_j4982162063661_2_alg».proof.Proof.KI.Prop5RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run when the column tile is neither the first nor the last (the accumulator is accumulated into; no output is stored): the lists of stores each buffer ends with, together with the proof that on whole
    staging memrefs — the inputs' at their contents, the outputs' at contents handed back untouched, the accumulator
    at the contents the point before left — the body runs to the continuation holding the inputs' as they were,
    the accumulator with its stores written. The lists are found by running the body. -/
noncomputable def kernelRun5_B (c : Dev nD) (i : grid5.Coords) (arg2 : Memref sig .tc .vmem S1024x2048 .bf16) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .f32) (harg9 : arg9.IsWhole) (hc0 : ¬cond5_0 i) (hc1 : ¬cond5_1 i)
    (x0 : Vec F S1024x2048 .bf16) (x1 : Vec F S8192x128 .bf16) (x2 : Vec F S1024x128 .f32) (x3 : Vec F S1x128 .f32) (x4 : Vec F S1x1 .f32) (xs0 : Vec F S1024x128 .f32) :
    Σ' (L5 : List (View.Piece (Elt F) S1024x128 .bf16)) (L6 : List (View.Piece (Elt F) S1024x128 .f32)), { LS0 : List (View.Piece (Elt F) S1024x128 .f32) //
      ∀ (xi5 : Vec F S1024x128 .bf16) (xi6 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc5__propagate_kernel i arg2 harg2 arg3 harg3 arg4 harg4 arg5 harg5 arg6 harg6 arg7 harg7 arg8 harg8 arg9 harg9) K } := by
  refine ⟨[], [], ?_, fun xi5 xi6 E K => ?run⟩
  case run =>
    simp only [cc5__propagate_kernel_eq_skeleton]; unfold cc5__propagate_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

end Cert.KernelIdeal.Hand

end
-- ==== Proof.KI.Prop5RunC.lean ====
import proofs.«131271_j4982162063661_2_alg».proof.Proof.KI.Prop5RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run when the column tile is the last (the accumulator is accumulated into, then stored into both outputs): the lists of stores each buffer ends with, together with the proof that on whole
    staging memrefs — the inputs' at their contents, the outputs' at anything, the accumulator
    at the contents the point before left — the body runs to the continuation holding the inputs' as they were,
    the accumulator with its stores written and each output's buffer with its stores written. The lists are found by running the body. -/
noncomputable def kernelRun5_C (c : Dev nD) (i : grid5.Coords) (arg2 : Memref sig .tc .vmem S1024x2048 .bf16) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .f32) (harg9 : arg9.IsWhole) (hc0 : ¬cond5_0 i) (hc1 : cond5_1 i)
    (x0 : Vec F S1024x2048 .bf16) (x1 : Vec F S8192x128 .bf16) (x2 : Vec F S1024x128 .f32) (x3 : Vec F S1x128 .f32) (x4 : Vec F S1x1 .f32) (xs0 : Vec F S1024x128 .f32) :
    Σ' (L5 : List (View.Piece (Elt F) S1024x128 .bf16)) (L6 : List (View.Piece (Elt F) S1024x128 .f32)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0)) -∗ K ⟨⟩))
          ⊢ wp frame (wpE (defs₀ (F := F)) Variants.none c none) E (cc5__propagate_kernel i arg2 harg2 arg3 harg3 arg4 harg4 arg5 harg5 arg6 harg6 arg7 harg7 arg8 harg8 arg9 harg9) K } := by
  refine ⟨?_, ?_, ?_, fun E K => ?run⟩
  case run =>
    simp only [cc5__propagate_kernel_eq_skeleton]; unfold cc5__propagate_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    iexists _; iexact HS0

end Cert.KernelIdeal.Hand

end
-- ==== Proof.KI.Prop5.lean ====
import proofs.«131271_j4982162063661_2_alg».proof.Proof.KI.Prop5RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The propagate call number 5: its proof data and body obligation at the entry contents `V`

What the two outputs' staging buffers and the accumulator hold after each point is defined by recursion on the
point (`outsAt5`): the case the point is in, run on the point's memrefs and input blocks, over what the point
before left in the accumulator. The invariant between points keeps the accumulator at exactly those contents. -/

variable (V : (c : Dev nD) → (b : Ref sig .tc) → Buf (Elt F) ((c : Thread nD τ).loc b))

/-! ## What each case leaves -/

/-- What case A leaves in output 5's staging buffer: its stores read back over arbitrary contents (there are none: the output is idle in this case and nothing consults this value). -/
def out5_A_5 (c : Dev nD) (i : grid5.Coords) (arg2 : Memref sig .tc .vmem S1024x2048 .bf16) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .f32) (harg9 : arg9.IsWhole) (hc0 : cond5_0 i) (hc1 : ¬cond5_1 i)
    (x0 : Vec F S1024x2048 .bf16) (x1 : Vec F S8192x128 .bf16) (x2 : Vec F S1024x128 .f32) (x3 : Vec F S1x128 .f32) (x4 : Vec F S1x1 .f32) : Vec F S1024x128 .bf16 :=
  VO5_5.read (Elt F) (VO5_5.writes (Elt F) VO5_5.junk (kernelRun5_A c i arg2 harg2 arg3 harg3 arg4 harg4 arg5 harg5 arg6 harg6 arg7 harg7 arg8 harg8 arg9 harg9 hc0 hc1 x0 x1 x2 x3 x4).1)
/-- The same for output 6. -/
def out5_A_6 (c : Dev nD) (i : grid5.Coords) (arg2 : Memref sig .tc .vmem S1024x2048 .bf16) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .f32) (harg9 : arg9.IsWhole) (hc0 : cond5_0 i) (hc1 : ¬cond5_1 i)
    (x0 : Vec F S1024x2048 .bf16) (x1 : Vec F S8192x128 .bf16) (x2 : Vec F S1024x128 .f32) (x3 : Vec F S1x128 .f32) (x4 : Vec F S1x1 .f32) : Vec F S1024x128 .f32 :=
  VO5_6.read (Elt F) (VO5_6.writes (Elt F) VO5_6.junk (kernelRun5_A c i arg2 harg2 arg3 harg3 arg4 harg4 arg5 harg5 arg6 harg6 arg7 harg7 arg8 harg8 arg9 harg9 hc0 hc1 x0 x1 x2 x3 x4).2.1)
/-- Case A's stores into the accumulator are of the whole buffer, so they cover it. -/
theorem scover5_A_0 (c : Dev nD) (i : grid5.Coords) (arg2 : Memref sig .tc .vmem S1024x2048 .bf16) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .f32) (harg9 : arg9.IsWhole) (hc0 : cond5_0 i) (hc1 : ¬cond5_1 i)
    (x0 : Vec F S1024x2048 .bf16) (x1 : Vec F S8192x128 .bf16) (x2 : Vec F S1024x128 .f32) (x3 : Vec F S1x128 .f32) (x4 : Vec F S1x1 .f32) (y : S1024x128.Idx) :
    ∃ pc ∈ (kernelRun5_A c i arg2 harg2 arg3 harg3 arg4 harg4 arg5 harg5 arg6 harg6 arg7 harg7 arg8 harg8 arg9 harg9 hc0 hc1 x0 x1 x2 x3 x4).2.2.1, y ∈ pc.1.set :=
  View.cover_of_tiledL (kernelRun5_A c i arg2 harg2 arg3 harg3 arg4 harg4 arg5 harg5 arg6 harg6 arg7 harg7 arg8 harg8 arg9 harg9 hc0 hc1 x0 x1 x2 x3 x4).2.2.1 S1024x128.size (by sl_kernel_rfl) y
/-- What case A leaves in the accumulator. -/
def sout5_A_0 (c : Dev nD) (i : grid5.Coords) (arg2 : Memref sig .tc .vmem S1024x2048 .bf16) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .f32) (harg9 : arg9.IsWhole) (hc0 : cond5_0 i) (hc1 : ¬cond5_1 i)
    (x0 : Vec F S1024x2048 .bf16) (x1 : Vec F S8192x128 .bf16) (x2 : Vec F S1024x128 .f32) (x3 : Vec F S1x128 .f32) (x4 : Vec F S1x1 .f32) : Vec F S1024x128 .f32 :=
  VS5_0.read (Elt F) (VS5_0.writes (Elt F) VS5_0.junk (kernelRun5_A c i arg2 harg2 arg3 harg3 arg4 harg4 arg5 harg5 arg6 harg6 arg7 harg7 arg8 harg8 arg9 harg9 hc0 hc1 x0 x1 x2 x3 x4).2.2.1)

/-- What case B leaves in output 5's staging buffer: its stores read back over arbitrary contents (there are none: the output is idle in this case and nothing consults this value). -/
def out5_B_5 (c : Dev nD) (i : grid5.Coords) (arg2 : Memref sig .tc .vmem S1024x2048 .bf16) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .f32) (harg9 : arg9.IsWhole) (hc0 : ¬cond5_0 i) (hc1 : ¬cond5_1 i)
    (x0 : Vec F S1024x2048 .bf16) (x1 : Vec F S8192x128 .bf16) (x2 : Vec F S1024x128 .f32) (x3 : Vec F S1x128 .f32) (x4 : Vec F S1x1 .f32) (xs0 : Vec F S1024x128 .f32) : Vec F S1024x128 .bf16 :=
  VO5_5.read (Elt F) (VO5_5.writes (Elt F) VO5_5.junk (kernelRun5_B c i arg2 harg2 arg3 harg3 arg4 harg4 arg5 harg5 arg6 harg6 arg7 harg7 arg8 harg8 arg9 harg9 hc0 hc1 x0 x1 x2 x3 x4 xs0).1)
/-- The same for output 6. -/
def out5_B_6 (c : Dev nD) (i : grid5.Coords) (arg2 : Memref sig .tc .vmem S1024x2048 .bf16) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .f32) (harg9 : arg9.IsWhole) (hc0 : ¬cond5_0 i) (hc1 : ¬cond5_1 i)
    (x0 : Vec F S1024x2048 .bf16) (x1 : Vec F S8192x128 .bf16) (x2 : Vec F S1024x128 .f32) (x3 : Vec F S1x128 .f32) (x4 : Vec F S1x1 .f32) (xs0 : Vec F S1024x128 .f32) : Vec F S1024x128 .f32 :=
  VO5_6.read (Elt F) (VO5_6.writes (Elt F) VO5_6.junk (kernelRun5_B c i arg2 harg2 arg3 harg3 arg4 harg4 arg5 harg5 arg6 harg6 arg7 harg7 arg8 harg8 arg9 harg9 hc0 hc1 x0 x1 x2 x3 x4 xs0).2.1)
/-- Case B's stores into the accumulator are of the whole buffer, so they cover it. -/
theorem scover5_B_0 (c : Dev nD) (i : grid5.Coords) (arg2 : Memref sig .tc .vmem S1024x2048 .bf16) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .f32) (harg9 : arg9.IsWhole) (hc0 : ¬cond5_0 i) (hc1 : ¬cond5_1 i)
    (x0 : Vec F S1024x2048 .bf16) (x1 : Vec F S8192x128 .bf16) (x2 : Vec F S1024x128 .f32) (x3 : Vec F S1x128 .f32) (x4 : Vec F S1x1 .f32) (xs0 : Vec F S1024x128 .f32) (y : S1024x128.Idx) :
    ∃ pc ∈ (kernelRun5_B c i arg2 harg2 arg3 harg3 arg4 harg4 arg5 harg5 arg6 harg6 arg7 harg7 arg8 harg8 arg9 harg9 hc0 hc1 x0 x1 x2 x3 x4 xs0).2.2.1, y ∈ pc.1.set :=
  View.cover_of_tiledL (kernelRun5_B c i arg2 harg2 arg3 harg3 arg4 harg4 arg5 harg5 arg6 harg6 arg7 harg7 arg8 harg8 arg9 harg9 hc0 hc1 x0 x1 x2 x3 x4 xs0).2.2.1 S1024x128.size (by sl_kernel_rfl) y
/-- What case B leaves in the accumulator. -/
def sout5_B_0 (c : Dev nD) (i : grid5.Coords) (arg2 : Memref sig .tc .vmem S1024x2048 .bf16) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .f32) (harg9 : arg9.IsWhole) (hc0 : ¬cond5_0 i) (hc1 : ¬cond5_1 i)
    (x0 : Vec F S1024x2048 .bf16) (x1 : Vec F S8192x128 .bf16) (x2 : Vec F S1024x128 .f32) (x3 : Vec F S1x128 .f32) (x4 : Vec F S1x1 .f32) (xs0 : Vec F S1024x128 .f32) : Vec F S1024x128 .f32 :=
  VS5_0.read (Elt F) (VS5_0.writes (Elt F) VS5_0.junk (kernelRun5_B c i arg2 harg2 arg3 harg3 arg4 harg4 arg5 harg5 arg6 harg6 arg7 harg7 arg8 harg8 arg9 harg9 hc0 hc1 x0 x1 x2 x3 x4 xs0).2.2.1)

/-- What case C leaves in output 5's staging buffer: its stores read back over arbitrary contents. -/
def out5_C_5 (c : Dev nD) (i : grid5.Coords) (arg2 : Memref sig .tc .vmem S1024x2048 .bf16) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .f32) (harg9 : arg9.IsWhole) (hc0 : ¬cond5_0 i) (hc1 : cond5_1 i)
    (x0 : Vec F S1024x2048 .bf16) (x1 : Vec F S8192x128 .bf16) (x2 : Vec F S1024x128 .f32) (x3 : Vec F S1x128 .f32) (x4 : Vec F S1x1 .f32) (xs0 : Vec F S1024x128 .f32) : Vec F S1024x128 .bf16 :=
  VO5_5.read (Elt F) (VO5_5.writes (Elt F) VO5_5.junk (kernelRun5_C c i arg2 harg2 arg3 harg3 arg4 harg4 arg5 harg5 arg6 harg6 arg7 harg7 arg8 harg8 arg9 harg9 hc0 hc1 x0 x1 x2 x3 x4 xs0).1)
/-- The same for output 6. -/
def out5_C_6 (c : Dev nD) (i : grid5.Coords) (arg2 : Memref sig .tc .vmem S1024x2048 .bf16) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .f32) (harg9 : arg9.IsWhole) (hc0 : ¬cond5_0 i) (hc1 : cond5_1 i)
    (x0 : Vec F S1024x2048 .bf16) (x1 : Vec F S8192x128 .bf16) (x2 : Vec F S1024x128 .f32) (x3 : Vec F S1x128 .f32) (x4 : Vec F S1x1 .f32) (xs0 : Vec F S1024x128 .f32) : Vec F S1024x128 .f32 :=
  VO5_6.read (Elt F) (VO5_6.writes (Elt F) VO5_6.junk (kernelRun5_C c i arg2 harg2 arg3 harg3 arg4 harg4 arg5 harg5 arg6 harg6 arg7 harg7 arg8 harg8 arg9 harg9 hc0 hc1 x0 x1 x2 x3 x4 xs0).2.1)
/-- Case C's one store into output 5 is of the whole block, so it covers it. -/
theorem cover5_C_5 (c : Dev nD) (i : grid5.Coords) (arg2 : Memref sig .tc .vmem S1024x2048 .bf16) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .f32) (harg9 : arg9.IsWhole) (hc0 : ¬cond5_0 i) (hc1 : cond5_1 i)
    (x0 : Vec F S1024x2048 .bf16) (x1 : Vec F S8192x128 .bf16) (x2 : Vec F S1024x128 .f32) (x3 : Vec F S1x128 .f32) (x4 : Vec F S1x1 .f32) (xs0 : Vec F S1024x128 .f32) (y : S1024x128.Idx) :
    ∃ pc ∈ (kernelRun5_C c i arg2 harg2 arg3 harg3 arg4 harg4 arg5 harg5 arg6 harg6 arg7 harg7 arg8 harg8 arg9 harg9 hc0 hc1 x0 x1 x2 x3 x4 xs0).1, y ∈ pc.1.set :=
  View.cover_of_tiledL (kernelRun5_C c i arg2 harg2 arg3 harg3 arg4 harg4 arg5 harg5 arg6 harg6 arg7 harg7 arg8 harg8 arg9 harg9 hc0 hc1 x0 x1 x2 x3 x4 xs0).1 S1024x128.size (by sl_kernel_rfl) y
/-- The same for output 6. -/
theorem cover5_C_6 (c : Dev nD) (i : grid5.Coords) (arg2 : Memref sig .tc .vmem S1024x2048 .bf16) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .f32) (harg9 : arg9.IsWhole) (hc0 : ¬cond5_0 i) (hc1 : cond5_1 i)
    (x0 : Vec F S1024x2048 .bf16) (x1 : Vec F S8192x128 .bf16) (x2 : Vec F S1024x128 .f32) (x3 : Vec F S1x128 .f32) (x4 : Vec F S1x1 .f32) (xs0 : Vec F S1024x128 .f32) (y : S1024x128.Idx) :
    ∃ pc ∈ (kernelRun5_C c i arg2 harg2 arg3 harg3 arg4 harg4 arg5 harg5 arg6 harg6 arg7 harg7 arg8 harg8 arg9 harg9 hc0 hc1 x0 x1 x2 x3 x4 xs0).2.1, y ∈ pc.1.set :=
  View.cover_of_tiledL (kernelRun5_C c i arg2 harg2 arg3 harg3 arg4 harg4 arg5 harg5 arg6 harg6 arg7 harg7 arg8 harg8 arg9 harg9 hc0 hc1 x0 x1 x2 x3 x4 xs0).2.1 S1024x128.size (by sl_kernel_rfl) y
/-- Case C's stores into the accumulator are of the whole buffer, so they cover it. -/
theorem scover5_C_0 (c : Dev nD) (i : grid5.Coords) (arg2 : Memref sig .tc .vmem S1024x2048 .bf16) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .f32) (harg9 : arg9.IsWhole) (hc0 : ¬cond5_0 i) (hc1 : cond5_1 i)
    (x0 : Vec F S1024x2048 .bf16) (x1 : Vec F S8192x128 .bf16) (x2 : Vec F S1024x128 .f32) (x3 : Vec F S1x128 .f32) (x4 : Vec F S1x1 .f32) (xs0 : Vec F S1024x128 .f32) (y : S1024x128.Idx) :
    ∃ pc ∈ (kernelRun5_C c i arg2 harg2 arg3 harg3 arg4 harg4 arg5 harg5 arg6 harg6 arg7 harg7 arg8 harg8 arg9 harg9 hc0 hc1 x0 x1 x2 x3 x4 xs0).2.2.1, y ∈ pc.1.set :=
  View.cover_of_tiledL (kernelRun5_C c i arg2 harg2 arg3 harg3 arg4 harg4 arg5 harg5 arg6 harg6 arg7 harg7 arg8 harg8 arg9 harg9 hc0 hc1 x0 x1 x2 x3 x4 xs0).2.2.1 S1024x128.size (by sl_kernel_rfl) y
/-- What case C leaves in the accumulator. -/
def sout5_C_0 (c : Dev nD) (i : grid5.Coords) (arg2 : Memref sig .tc .vmem S1024x2048 .bf16) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .f32) (harg9 : arg9.IsWhole) (hc0 : ¬cond5_0 i) (hc1 : cond5_1 i)
    (x0 : Vec F S1024x2048 .bf16) (x1 : Vec F S8192x128 .bf16) (x2 : Vec F S1024x128 .f32) (x3 : Vec F S1x128 .f32) (x4 : Vec F S1x1 .f32) (xs0 : Vec F S1024x128 .f32) : Vec F S1024x128 .f32 :=
  VS5_0.read (Elt F) (VS5_0.writes (Elt F) VS5_0.junk (kernelRun5_C c i arg2 harg2 arg3 harg3 arg4 harg4 arg5 harg5 arg6 harg6 arg7 harg7 arg8 harg8 arg9 harg9 hc0 hc1 x0 x1 x2 x3 x4 xs0).2.2.1)

/-! ## What the outputs and the accumulator hold after each point -/

/-- After the body at position `n`: output 5's buffer, output 6's buffer, the accumulator. -/
def outsAt5 (c : Dev nD) : (n : ℕ) → n < cfg5.N → Vec F S1024x128 .bf16 × Vec F S1024x128 .f32 × Vec F S1024x128 .f32
  | 0, hn => (out5_A_5 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) (ms5_4 ⟨0, hn⟩) (hs5_4 ⟨0, hn⟩) (ms5_5 ⟨0, hn⟩) (hs5_5 ⟨0, hn⟩) (ms5_6 ⟨0, hn⟩) (hs5_6 ⟨0, hn⟩) scM5_0 (Memref.isWhole_whole _) ((hcond5_0 ⟨0, hn⟩).mpr (Nat.zero_mod _)) (fun h => (fun h => by (try dsimp only at h); omega) ((hcond5_1 ⟨0, hn⟩).mp h)) (iblk5 V c 0 ⟨0, hn⟩) (iblk5 V c 1 ⟨0, hn⟩) (iblk5 V c 2 ⟨0, hn⟩) (iblk5 V c 3 ⟨0, hn⟩) (iblk5 V c 4 ⟨0, hn⟩), out5_A_6 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) (ms5_4 ⟨0, hn⟩) (hs5_4 ⟨0, hn⟩) (ms5_5 ⟨0, hn⟩) (hs5_5 ⟨0, hn⟩) (ms5_6 ⟨0, hn⟩) (hs5_6 ⟨0, hn⟩) scM5_0 (Memref.isWhole_whole _) ((hcond5_0 ⟨0, hn⟩).mpr (Nat.zero_mod _)) (fun h => (fun h => by (try dsimp only at h); omega) ((hcond5_1 ⟨0, hn⟩).mp h)) (iblk5 V c 0 ⟨0, hn⟩) (iblk5 V c 1 ⟨0, hn⟩) (iblk5 V c 2 ⟨0, hn⟩) (iblk5 V c 3 ⟨0, hn⟩) (iblk5 V c 4 ⟨0, hn⟩), sout5_A_0 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) (ms5_4 ⟨0, hn⟩) (hs5_4 ⟨0, hn⟩) (ms5_5 ⟨0, hn⟩) (hs5_5 ⟨0, hn⟩) (ms5_6 ⟨0, hn⟩) (hs5_6 ⟨0, hn⟩) scM5_0 (Memref.isWhole_whole _) ((hcond5_0 ⟨0, hn⟩).mpr (Nat.zero_mod _)) (fun h => (fun h => by (try dsimp only at h); omega) ((hcond5_1 ⟨0, hn⟩).mp h)) (iblk5 V c 0 ⟨0, hn⟩) (iblk5 V c 1 ⟨0, hn⟩) (iblk5 V c 2 ⟨0, hn⟩) (iblk5 V c 3 ⟨0, hn⟩) (iblk5 V c 4 ⟨0, hn⟩))
  | n + 1, hn =>
    if h0 : (n + 1) % 4 = 0 then
      if h1 : (n + 1) % 4 = 3 then
        False.elim (by omega)
      else
        (out5_A_5 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) scM5_0 (Memref.isWhole_whole _) ((hcond5_0 ⟨n + 1, hn⟩).mpr h0) (fun h => h1 ((hcond5_1 ⟨n + 1, hn⟩).mp h)) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩), out5_A_6 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) scM5_0 (Memref.isWhole_whole _) ((hcond5_0 ⟨n + 1, hn⟩).mpr h0) (fun h => h1 ((hcond5_1 ⟨n + 1, hn⟩).mp h)) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩), sout5_A_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) scM5_0 (Memref.isWhole_whole _) ((hcond5_0 ⟨n + 1, hn⟩).mpr h0) (fun h => h1 ((hcond5_1 ⟨n + 1, hn⟩).mp h)) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩))
    else
      if h1 : (n + 1) % 4 = 3 then
        (out5_C_5 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) scM5_0 (Memref.isWhole_whole _) (fun h => h0 ((hcond5_0 ⟨n + 1, hn⟩).mp h)) ((hcond5_1 ⟨n + 1, hn⟩).mpr h1) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (outsAt5 c n (Nat.lt_of_succ_lt hn)).2.2, out5_C_6 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) scM5_0 (Memref.isWhole_whole _) (fun h => h0 ((hcond5_0 ⟨n + 1, hn⟩).mp h)) ((hcond5_1 ⟨n + 1, hn⟩).mpr h1) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (outsAt5 c n (Nat.lt_of_succ_lt hn)).2.2, sout5_C_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) scM5_0 (Memref.isWhole_whole _) (fun h => h0 ((hcond5_0 ⟨n + 1, hn⟩).mp h)) ((hcond5_1 ⟨n + 1, hn⟩).mpr h1) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (outsAt5 c n (Nat.lt_of_succ_lt hn)).2.2)
      else
        (out5_B_5 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) scM5_0 (Memref.isWhole_whole _) (fun h => h0 ((hcond5_0 ⟨n + 1, hn⟩).mp h)) (fun h => h1 ((hcond5_1 ⟨n + 1, hn⟩).mp h)) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (outsAt5 c n (Nat.lt_of_succ_lt hn)).2.2, out5_B_6 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) scM5_0 (Memref.isWhole_whole _) (fun h => h0 ((hcond5_0 ⟨n + 1, hn⟩).mp h)) (fun h => h1 ((hcond5_1 ⟨n + 1, hn⟩).mp h)) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (outsAt5 c n (Nat.lt_of_succ_lt hn)).2.2, sout5_B_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) scM5_0 (Memref.isWhole_whole _) (fun h => h0 ((hcond5_0 ⟨n + 1, hn⟩).mp h)) (fun h => h1 ((hcond5_1 ⟨n + 1, hn⟩).mp h)) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (outsAt5 c n (Nat.lt_of_succ_lt hn)).2.2)

theorem outsAt5_A (c : Dev nD) (t : Fin cfg5.N) (h0 : t.val % 4 = 0) (h1 : ¬t.val % 4 = 3) :
    outsAt5 V c t.val t.isLt = (out5_A_5 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) scM5_0 (Memref.isWhole_whole _) ((hcond5_0 t).mpr h0) (fun h => h1 ((hcond5_1 t).mp h)) (iblk5 V c 0 t) (iblk5 V c 1 t) (iblk5 V c 2 t) (iblk5 V c 3 t) (iblk5 V c 4 t), out5_A_6 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) scM5_0 (Memref.isWhole_whole _) ((hcond5_0 t).mpr h0) (fun h => h1 ((hcond5_1 t).mp h)) (iblk5 V c 0 t) (iblk5 V c 1 t) (iblk5 V c 2 t) (iblk5 V c 3 t) (iblk5 V c 4 t), sout5_A_0 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) scM5_0 (Memref.isWhole_whole _) ((hcond5_0 t).mpr h0) (fun h => h1 ((hcond5_1 t).mp h)) (iblk5 V c 0 t) (iblk5 V c 1 t) (iblk5 V c 2 t) (iblk5 V c 3 t) (iblk5 V c 4 t)) := by
  obtain ⟨n, hn⟩ := t
  cases n with
  | zero => exact rfl
  | succ n => exact (dif_pos h0).trans ((dif_neg h1).trans rfl)

theorem outsAt5_B (c : Dev nD) (t : Fin cfg5.N) (h0 : ¬t.val % 4 = 0) (h1 : ¬t.val % 4 = 3) :
    outsAt5 V c t.val t.isLt = (out5_B_5 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) scM5_0 (Memref.isWhole_whole _) (fun h => h0 ((hcond5_0 t).mp h)) (fun h => h1 ((hcond5_1 t).mp h)) (iblk5 V c 0 t) (iblk5 V c 1 t) (iblk5 V c 2 t) (iblk5 V c 3 t) (iblk5 V c 4 t) (outsAt5 V c (t.val - 1) (Nat.lt_of_le_of_lt (Nat.sub_le _ _) t.isLt)).2.2, out5_B_6 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) scM5_0 (Memref.isWhole_whole _) (fun h => h0 ((hcond5_0 t).mp h)) (fun h => h1 ((hcond5_1 t).mp h)) (iblk5 V c 0 t) (iblk5 V c 1 t) (iblk5 V c 2 t) (iblk5 V c 3 t) (iblk5 V c 4 t) (outsAt5 V c (t.val - 1) (Nat.lt_of_le_of_lt (Nat.sub_le _ _) t.isLt)).2.2, sout5_B_0 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) scM5_0 (Memref.isWhole_whole _) (fun h => h0 ((hcond5_0 t).mp h)) (fun h => h1 ((hcond5_1 t).mp h)) (iblk5 V c 0 t) (iblk5 V c 1 t) (iblk5 V c 2 t) (iblk5 V c 3 t) (iblk5 V c 4 t) (outsAt5 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt5_C (c : Dev nD) (t : Fin cfg5.N) (h0 : ¬t.val % 4 = 0) (h1 : t.val % 4 = 3) :
    outsAt5 V c t.val t.isLt = (out5_C_5 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) scM5_0 (Memref.isWhole_whole _) (fun h => h0 ((hcond5_0 t).mp h)) ((hcond5_1 t).mpr h1) (iblk5 V c 0 t) (iblk5 V c 1 t) (iblk5 V c 2 t) (iblk5 V c 3 t) (iblk5 V c 4 t) (outsAt5 V c (t.val - 1) (Nat.lt_of_le_of_lt (Nat.sub_le _ _) t.isLt)).2.2, out5_C_6 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) scM5_0 (Memref.isWhole_whole _) (fun h => h0 ((hcond5_0 t).mp h)) ((hcond5_1 t).mpr h1) (iblk5 V c 0 t) (iblk5 V c 1 t) (iblk5 V c 2 t) (iblk5 V c 3 t) (iblk5 V c 4 t) (outsAt5 V c (t.val - 1) (Nat.lt_of_le_of_lt (Nat.sub_le _ _) t.isLt)).2.2, sout5_C_0 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) scM5_0 (Memref.isWhole_whole _) (fun h => h0 ((hcond5_0 t).mp h)) ((hcond5_1 t).mpr h1) (iblk5 V c 0 t) (iblk5 V c 1 t) (iblk5 V c 2 t) (iblk5 V c 3 t) (iblk5 V c 4 t) (outsAt5 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before the first point: what the launch hands the call. Before any later point: the accumulator at what the
    point before left in it, every other scoped buffer unopened, the generator register at some state. -/
def PhiS5 (c : Dev nD) : (n : ℕ) → n ≤ cfg5.N → sProp 𝕄
  | 0, _ => Pipeline.ΦA spec5 c
  | n + 1, hn => iprop(iprop(iprop(owns (c : Thread nD τ) scM5_0 fullShare ((outsAt5 V c n hn).2.2))
      ∗ Pipeline.scopedRestBut (Ix := Unit) (Name := ℕ) (U := UR sig nD τ) (Lvl := ℕ) (Val := Elt F) spec5 c [cc5_scratch0]) ∗ (∃ r, prngReg c r))

theorem PhiS5_zero (c : Dev nD) (n : ℕ) (h : n ≤ cfg5.N) (hz : n = 0) : PhiS5 V c n h = Pipeline.ΦA spec5 c := by
  subst hz; rfl

theorem PhiS5_succ (c : Dev nD) (n : ℕ) (hn : n < cfg5.N) :
    PhiS5 V c (n + 1) hn = iprop(iprop(iprop(owns (c : Thread nD τ) scM5_0 fullShare ((outsAt5 V c n hn).2.2))
      ∗ Pipeline.scopedRestBut (Ix := Unit) (Name := ℕ) (U := UR sig nD τ) (Lvl := ℕ) (Val := Elt F) spec5 c [cc5_scratch0]) ∗ (∃ r, prngReg c r)) := rfl

theorem PhiS5_pos (c : Dev nD) (n : ℕ) (h : n ≤ cfg5.N) (hz : n ≠ 0) :
    PhiS5 V c n h = iprop(iprop(iprop(owns (c : Thread nD τ) scM5_0 fullShare ((outsAt5 V c (n - 1) (by omega)).2.2))
      ∗ Pipeline.scopedRestBut (Ix := Unit) (Name := ℕ) (U := UR sig nD τ) (Lvl := ℕ) (Val := Elt F) spec5 c [cc5_scratch0]) ∗ (∃ r, prngReg c r)) := by
  cases n with
  | zero => exact absurd rfl hz
  | succ n => rfl

/-! ## The proof data -/

/-- The proof data of the call on core `c`: the arrays as the call finds them; after the body at point `t` each
    input's buffer at its block and the outputs' at `outsAt5`; the invariant `PhiS5`; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => (outsAt5 V c t.val t.isLt).1
    | ⟨6, _⟩ => (outsAt5 V c t.val t.isLt).2.1
  Φ t := PhiS5 V c t.val (Nat.le_of_lt_succ t.isLt)
  q _ := fullShare
  owed _ := 0

theorem A_eq5 (c : Dev nD) (w : Fin cfg5.W) : (dat5 V c).A w = V c (Pipeline.arrRef spec5 w) := by
  dsimp only [dat5]

theorem PhiS5_castSucc (c : Dev nD) (t : Fin cfg5.N) :
    (dat5 V c).Φ t.castSucc = PhiS5 V c t.val (Nat.le_of_lt t.isLt) := by
  dsimp only [dat5]; simp only [Fin.coe_castSucc]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = (outsAt5 V c t.val t.isLt).1 := by dsimp only [dat5]
theorem after5_6 (c : Dev nD) (t : Fin cfg5.N) : (dat5 V c).after 6 t = (outsAt5 V c t.val t.isLt).2.1 := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

theorem liveAt5_0 : ∀ t : Fin cfg5.N, cfg5.idle 0 (grid5.coords t) = false := fun _ => rfl
theorem liveAt5_1 : ∀ t : Fin cfg5.N, cfg5.idle 1 (grid5.coords t) = false := fun _ => rfl
theorem liveAt5_2 : ∀ t : Fin cfg5.N, cfg5.idle 2 (grid5.coords t) = false := fun _ => rfl
theorem liveAt5_3 : ∀ t : Fin cfg5.N, cfg5.idle 3 (grid5.coords t) = false := fun _ => rfl
theorem liveAt5_4 : ∀ t : Fin cfg5.N, cfg5.idle 4 (grid5.coords t) = false := fun _ => rfl

/-! ## The body obligation -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d))
    ∗ (∃ d, owns (c : Thread nD τ) (ms5_3 t) fullShare ((dat5 V c).before 3 t d))
    ∗ (∃ d, owns (c : Thread nD τ) (ms5_4 t) fullShare ((dat5 V c).before 4 t d))
    ∗ (∃ d, owns (c : Thread nD τ) (ms5_5 t) fullShare ((dat5 V c).before 5 t d))
    ∗ (∃ d, owns (c : Thread nD τ) (ms5_6 t) fullShare ((dat5 V c).before 6 t d)))

/-- and what it returns. -/
def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t
    ∗ (dat5 V c).leavesExact 4 t
    ∗ (dat5 V c).leavesExact 5 t
    ∗ (dat5 V c).leavesExact 6 t)

set_option maxHeartbeats 4800000 in
/-- The body at a point of case A that is the first of the grid (the accumulator is found at anything). -/
theorem sound_body5_A0 (c : Dev nD) (t : Fin cfg5.N) (h0 : t.val % 4 = 0) (h1 : ¬t.val % 4 = 3) (hz : t.val = 0) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).owesAt () t.succ = (dat5 V c).owesAt () t.castSucc from rfl]
  rw [show (dat5 V c).Φ t.succ = PhiS5 V c (t.val + 1) t.isLt from rfl, PhiS5_succ]
  rw [show (dat5 V c).leavesExact 0 t = owns (c : Thread nD τ) (ms5_0 t) fullShare ((dat5 V c).after 0 t) from by
    unfold Dat.leavesExact; rw [liveAt5_0 t], after5_0]
  rw [show (dat5 V c).leavesExact 1 t = owns (c : Thread nD τ) (ms5_1 t) fullShare ((dat5 V c).after 1 t) from by
    unfold Dat.leavesExact; rw [liveAt5_1 t], after5_1]
  rw [show (dat5 V c).leavesExact 2 t = owns (c : Thread nD τ) (ms5_2 t) fullShare ((dat5 V c).after 2 t) from by
    unfold Dat.leavesExact; rw [liveAt5_2 t], after5_2]
  rw [show (dat5 V c).leavesExact 3 t = owns (c : Thread nD τ) (ms5_3 t) fullShare ((dat5 V c).after 3 t) from by
    unfold Dat.leavesExact; rw [liveAt5_3 t], after5_3]
  rw [show (dat5 V c).leavesExact 4 t = owns (c : Thread nD τ) (ms5_4 t) fullShare ((dat5 V c).after 4 t) from by
    unfold Dat.leavesExact; rw [liveAt5_4 t], after5_4]
  rw [Dat.leavesExact_idle (dat5 V c) 5 t (idleAt5_5_A t ((hcond5_0 t).mpr h0) (fun h => h1 ((hcond5_1 t).mp h))) (noFlush5_5_A t ((hcond5_0 t).mpr h0) (fun h => h1 ((hcond5_1 t).mp h)))]
  rw [Dat.leavesExact_idle (dat5 V c) 6 t (idleAt5_6_A t ((hcond5_0 t).mpr h0) (fun h => h1 ((hcond5_1 t).mp h))) (noFlush5_6_A t ((hcond5_0 t).mpr h0) (fun h => h1 ((hcond5_1 t).mp h)))]
  rw [outsAt5_A V c t h0 h1]
  unfold sout5_A_0; (try dsimp only)
  rw [PhiS5_castSucc V c t, PhiS5_zero V c _ _ hz, PhiA5_eq]
  iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩⟩
  iapply ((kernelRun5_A c (grid5.coords t) _ _ _ _ _ _ _ _ _ _ _ _ _ _ _ _ ((hcond5_0 t).mpr h0) (fun h => h1 ((hcond5_1 t).mp h)) (iblk5 V c 0 t) (iblk5 V c 1 t) (iblk5 V c 2 t) (iblk5 V c 3 t) (iblk5 V c 4 t)).2.2.2 _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  iintro ⟨H0, H1, H2, H3, H4, H5, H6, ⟨%es0, HS0⟩⟩
  isplitl [HS0 Hr Hg]
  · isplitl [HS0 Hr]
    · isplitl [HS0]
      · unfold owns; iexists _; isplitr
        swap; · iexact HS0
        ipureintro; exact View.read_writes_of_cover _ _ _ _ _ (scover5_A_0 c _ _ _ _ _ _ _ _ _ _ _ _ _ _ _ _ _ _ _ _ _ _ _ _)
      iexact Hr
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexists _; iexact H5
  iexists _; iexact H6

set_option maxHeartbeats 4800000 in
/-- The body at a point of case A that is not the first of the grid (the accumulator is found at what the point before left; the reset overwrites it). -/
theorem sound_body5_A (c : Dev nD) (t : Fin cfg5.N) (h0 : t.val % 4 = 0) (h1 : ¬t.val % 4 = 3) (hz : t.val ≠ 0) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).owesAt () t.succ = (dat5 V c).owesAt () t.castSucc from rfl]
  rw [show (dat5 V c).Φ t.succ = PhiS5 V c (t.val + 1) t.isLt from rfl, PhiS5_succ]
  rw [show (dat5 V c).leavesExact 0 t = owns (c : Thread nD τ) (ms5_0 t) fullShare ((dat5 V c).after 0 t) from by
    unfold Dat.leavesExact; rw [liveAt5_0 t], after5_0]
  rw [show (dat5 V c).leavesExact 1 t = owns (c : Thread nD τ) (ms5_1 t) fullShare ((dat5 V c).after 1 t) from by
    unfold Dat.leavesExact; rw [liveAt5_1 t], after5_1]
  rw [show (dat5 V c).leavesExact 2 t = owns (c : Thread nD τ) (ms5_2 t) fullShare ((dat5 V c).after 2 t) from by
    unfold Dat.leavesExact; rw [liveAt5_2 t], after5_2]
  rw [show (dat5 V c).leavesExact 3 t = owns (c : Thread nD τ) (ms5_3 t) fullShare ((dat5 V c).after 3 t) from by
    unfold Dat.leavesExact; rw [liveAt5_3 t], after5_3]
  rw [show (dat5 V c).leavesExact 4 t = owns (c : Thread nD τ) (ms5_4 t) fullShare ((dat5 V c).after 4 t) from by
    unfold Dat.leavesExact; rw [liveAt5_4 t], after5_4]
  rw [Dat.leavesExact_idle (dat5 V c) 5 t (idleAt5_5_A t ((hcond5_0 t).mpr h0) (fun h => h1 ((hcond5_1 t).mp h))) (noFlush5_5_A t ((hcond5_0 t).mpr h0) (fun h => h1 ((hcond5_1 t).mp h)))]
  rw [Dat.leavesExact_idle (dat5 V c) 6 t (idleAt5_6_A t ((hcond5_0 t).mpr h0) (fun h => h1 ((hcond5_1 t).mp h))) (noFlush5_6_A t ((hcond5_0 t).mpr h0) (fun h => h1 ((hcond5_1 t).mp h)))]
  rw [outsAt5_A V c t h0 h1]
  unfold sout5_A_0; (try dsimp only)
  rw [PhiS5_castSucc V c t, PhiS5_pos V c _ _ hz]
  iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩⟩
  iapply ((kernelRun5_A c (grid5.coords t) _ _ _ _ _ _ _ _ _ _ _ _ _ _ _ _ ((hcond5_0 t).mpr h0) (fun h => h1 ((hcond5_1 t).mp h)) (iblk5 V c 0 t) (iblk5 V c 1 t) (iblk5 V c 2 t) (iblk5 V c 3 t) (iblk5 V c 4 t)).2.2.2 _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexists _; iexact HS0
  iintro ⟨H0, H1, H2, H3, H4, H5, H6, ⟨%es0, HS0⟩⟩
  isplitl [HS0 Hr Hg]
  · isplitl [HS0 Hr]
    · isplitl [HS0]
      · unfold owns; iexists _; isplitr
        swap; · iexact HS0
        ipureintro; exact View.read_writes_of_cover _ _ _ _ _ (scover5_A_0 c _ _ _ _ _ _ _ _ _ _ _ _ _ _ _ _ _ _ _ _ _ _ _ _)
      iexact Hr
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexists _; iexact H5
  iexists _; iexact H6

set_option maxHeartbeats 4800000 in
/-- The body at a point of case B. -/
theorem sound_body5_B (c : Dev nD) (t : Fin cfg5.N) (h0 : ¬t.val % 4 = 0) (h1 : ¬t.val % 4 = 3) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).owesAt () t.succ = (dat5 V c).owesAt () t.castSucc from rfl]
  rw [show (dat5 V c).Φ t.succ = PhiS5 V c (t.val + 1) t.isLt from rfl, PhiS5_succ]
  rw [show (dat5 V c).leavesExact 0 t = owns (c : Thread nD τ) (ms5_0 t) fullShare ((dat5 V c).after 0 t) from by
    unfold Dat.leavesExact; rw [liveAt5_0 t], after5_0]
  rw [show (dat5 V c).leavesExact 1 t = owns (c : Thread nD τ) (ms5_1 t) fullShare ((dat5 V c).after 1 t) from by
    unfold Dat.leavesExact; rw [liveAt5_1 t], after5_1]
  rw [show (dat5 V c).leavesExact 2 t = owns (c : Thread nD τ) (ms5_2 t) fullShare ((dat5 V c).after 2 t) from by
    unfold Dat.leavesExact; rw [liveAt5_2 t], after5_2]
  rw [show (dat5 V c).leavesExact 3 t = owns (c : Thread nD τ) (ms5_3 t) fullShare ((dat5 V c).after 3 t) from by
    unfold Dat.leavesExact; rw [liveAt5_3 t], after5_3]
  rw [show (dat5 V c).leavesExact 4 t = owns (c : Thread nD τ) (ms5_4 t) fullShare ((dat5 V c).after 4 t) from by
    unfold Dat.leavesExact; rw [liveAt5_4 t], after5_4]
  rw [Dat.leavesExact_idle (dat5 V c) 5 t (idleAt5_5_B t (fun h => h0 ((hcond5_0 t).mp h)) (fun h => h1 ((hcond5_1 t).mp h))) (noFlush5_5_B t (fun h => h0 ((hcond5_0 t).mp h)) (fun h => h1 ((hcond5_1 t).mp h)))]
  rw [Dat.leavesExact_idle (dat5 V c) 6 t (idleAt5_6_B t (fun h => h0 ((hcond5_0 t).mp h)) (fun h => h1 ((hcond5_1 t).mp h))) (noFlush5_6_B t (fun h => h0 ((hcond5_0 t).mp h)) (fun h => h1 ((hcond5_1 t).mp h)))]
  rw [outsAt5_B V c t h0 h1]
  unfold sout5_B_0; (try dsimp only)
  have hz : t.val ≠ 0 := fun e => h0 (by rw [e])
  rw [PhiS5_castSucc V c t, PhiS5_pos V c _ _ hz]
  iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩⟩
  iapply ((kernelRun5_B c (grid5.coords t) _ _ _ _ _ _ _ _ _ _ _ _ _ _ _ _ (fun h => h0 ((hcond5_0 t).mp h)) (fun h => h1 ((hcond5_1 t).mp h)) (iblk5 V c 0 t) (iblk5 V c 1 t) (iblk5 V c 2 t) (iblk5 V c 3 t) (iblk5 V c 4 t) _).2.2.2 _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  iintro ⟨H0, H1, H2, H3, H4, H5, H6, ⟨%es0, HS0⟩⟩
  isplitl [HS0 Hr Hg]
  · isplitl [HS0 Hr]
    · isplitl [HS0]
      · unfold owns; iexists _; isplitr
        swap; · iexact HS0
        ipureintro; exact View.read_writes_of_cover _ _ _ _ _ (scover5_B_0 c _ _ _ _ _ _ _ _ _ _ _ _ _ _ _ _ _ _ _ _ _ _ _ _ _)
      iexact Hr
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexists _; iexact H5
  iexists _; iexact H6

set_option maxHeartbeats 4800000 in
/-- The body at a point of case C. -/
theorem sound_body5_C (c : Dev nD) (t : Fin cfg5.N) (h0 : ¬t.val % 4 = 0) (h1 : t.val % 4 = 3) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).owesAt () t.succ = (dat5 V c).owesAt () t.castSucc from rfl]
  rw [show (dat5 V c).Φ t.succ = PhiS5 V c (t.val + 1) t.isLt from rfl, PhiS5_succ]
  rw [show (dat5 V c).leavesExact 0 t = owns (c : Thread nD τ) (ms5_0 t) fullShare ((dat5 V c).after 0 t) from by
    unfold Dat.leavesExact; rw [liveAt5_0 t], after5_0]
  rw [show (dat5 V c).leavesExact 1 t = owns (c : Thread nD τ) (ms5_1 t) fullShare ((dat5 V c).after 1 t) from by
    unfold Dat.leavesExact; rw [liveAt5_1 t], after5_1]
  rw [show (dat5 V c).leavesExact 2 t = owns (c : Thread nD τ) (ms5_2 t) fullShare ((dat5 V c).after 2 t) from by
    unfold Dat.leavesExact; rw [liveAt5_2 t], after5_2]
  rw [show (dat5 V c).leavesExact 3 t = owns (c : Thread nD τ) (ms5_3 t) fullShare ((dat5 V c).after 3 t) from by
    unfold Dat.leavesExact; rw [liveAt5_3 t], after5_3]
  rw [show (dat5 V c).leavesExact 4 t = owns (c : Thread nD τ) (ms5_4 t) fullShare ((dat5 V c).after 4 t) from by
    unfold Dat.leavesExact; rw [liveAt5_4 t], after5_4]
  rw [show (dat5 V c).leavesExact 5 t = owns (c : Thread nD τ) (ms5_5 t) fullShare ((dat5 V c).after 5 t) from by
    unfold Dat.leavesExact; rw [liveAt5_5_C t (fun h => h0 ((hcond5_0 t).mp h)) ((hcond5_1 t).mpr h1)], after5_5]
  rw [show (dat5 V c).leavesExact 6 t = owns (c : Thread nD τ) (ms5_6 t) fullShare ((dat5 V c).after 6 t) from by
    unfold Dat.leavesExact; rw [liveAt5_6_C t (fun h => h0 ((hcond5_0 t).mp h)) ((hcond5_1 t).mpr h1)], after5_6]
  rw [outsAt5_C V c t h0 h1]
  unfold out5_C_5 out5_C_6 sout5_C_0; (try dsimp only)
  have hz : t.val ≠ 0 := fun e => h0 (by rw [e])
  rw [PhiS5_castSucc V c t, PhiS5_pos V c _ _ hz]
  iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩⟩
  iapply ((kernelRun5_C c (grid5.coords t) _ _ _ _ _ _ _ _ _ _ _ _ _ _ _ _ (fun h => h0 ((hcond5_0 t).mp h)) ((hcond5_1 t).mpr h1) (iblk5 V c 0 t) (iblk5 V c 1 t) (iblk5 V c 2 t) (iblk5 V c 3 t) (iblk5 V c 4 t) _).2.2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [HS0]; · iexact HS0
  iintro ⟨H0, H1, H2, H3, H4, ⟨%e5, H5⟩, ⟨%e6, H6⟩, ⟨%es0, HS0⟩⟩
  isplitl [HS0 Hr Hg]
  · isplitl [HS0 Hr]
    · isplitl [HS0]
      · unfold owns; iexists _; isplitr
        swap; · iexact HS0
        ipureintro; exact View.read_writes_of_cover _ _ _ _ _ (scover5_C_0 c _ _ _ _ _ _ _ _ _ _ _ _ _ _ _ _ _ _ _ _ _ _ _ _ _)
      iexact Hr
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_of_cover _ _ _ _ _ (cover5_C_5 c _ _ _ _ _ _ _ _ _ _ _ _ _ _ _ _ _ _ _ _ _ _ _ _ _)
  unfold owns; iexists _; isplitr
  swap; · iexact H6
  ipureintro; exact View.read_writes_of_cover _ _ _ _ _ (cover5_C_6 c _ _ _ _ _ _ _ _ _ _ _ _ _ _ _ _ _ _ _ _ _ _ _ _ _)

/-- The body at any point: the point is in exactly one of the three cases. -/
theorem sound_body5 (c : Dev nD) (t : Fin cfg5.N) :
    bodyPre5 V c t ⊢ wp frame (wpE (defs₀ (F := F)) Variants.none c none) Set.univ (bodyAt5 t) (fun _ => bodyPost5 V c t) := by
  by_cases h0 : t.val % 4 = 0
  · have h1 : ¬t.val % 4 = 3 := by omega
    by_cases hz : t.val = 0
    · exact sound_body5_A0 V c t h0 h1 hz
    · exact sound_body5_A V c t h0 h1 hz
  · by_cases h1 : t.val % 4 = 3
    · exact sound_body5_C V c t h0 h1
    · exact sound_body5_B V c t h0 h1

/-- The library's body obligation, at every point. -/
theorem body_obligation5 (c : Dev nD) : BodyObligation (dat5 (F := F) V c) (defs₀ (F := F)) Variants.none () Set.univ := fun t => by
  rw [bigSep_W5, bigSep_W5]
  exact sound_body5 V c t

/-- What the launch hands the call is the invariant before the first point. -/
theorem hin5 (c : Dev nD) : Pipeline.ΦA spec5 c ⊢ (dat5 V c).Φ 0 := by
  rw [show (dat5 V c).Φ 0 = PhiS5 V c 0 (Nat.zero_le _) from rfl, PhiS5_zero V c 0 _ rfl]
  try exact Idealize.SL.BI.Entails.refl _

/-- After any point but the first the invariant gives back what the launch handed over: the accumulator's contents
    are forgotten. -/
theorem Phi_out5 (c : Dev nD) (t : Fin (cfg5.N + 1)) (ht : t.val ≠ 0) : (dat5 V c).Φ t ⊢ Pipeline.ΦA spec5 c := by
  rw [show (dat5 V c).Φ t = PhiS5 V c t.val (Nat.le_of_lt_succ t.isLt) from rfl, PhiS5_pos V c _ _ ht, PhiA5_eq]
  iintro ⟨⟨HS0, Hr⟩, Hg⟩
  isplitl [HS0 Hr]
  · isplitl [HS0]
    · iexists _; iexact HS0
    iexact Hr
  iexact Hg

/-- The same after the last point. -/
theorem hout5 (c : Dev nD) : (dat5 V c).Φ (Fin.last cfg5.N) ⊢ Pipeline.ΦA spec5 c :=
  Phi_out5 V c _ (by rw [Fin.val_last]; have : cfg5.N = 32 := N_5; omega)

end Cert.KernelIdeal.Hand

end
-- ==== Proof.KI.Prop7Runs.lean ====
import proofs.«131271_j4982162063661_2_alg».proof.Proof.Gen.KernelIdeal.Launch
import proofs.«131271_j4982162063661_2_alg».proof.Proof.Gen.KernelIdeal.Skeleton
import proofs.«131271_j4982162063661_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The propagate call number 7: what its three control cases share

The call runs on a grid of 8 x 4 points; point `t` has row tile `i = t / 4` and column tile `k = t % 4`.
The body zeroes its accumulator when `k = 0`, adds the product of the current tile of the matrix with the
matching 2048 rows of the propagated signal at every `k`, and when `k = 3` stores the accumulator into the
two outputs. So there are three control cases: `k = 0` (reset, no output stored), `k = 1, 2` (neither),
`k = 3` (outputs stored). Everything here is stated at the buffer contents `V` the call is entered with. -/

-- the buffer contents when the call is entered
variable (V : (c : Dev nD) → (b : Ref sig .tc) → Buf (Elt F) ((c : Thread nD τ).loc b))

/-- Window `w`'s block at point `t`, read off the window's array as the call finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's current staging buffer holds the window's block at every point, whether the pipeline fetched
    it there or not: where it was not fetched the block index has not moved since the point before. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1's current staging buffer holds the window's block at every point, whether the pipeline fetched
    it there or not: where it was not fetched the block index has not moved since the point before. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- Input window 2's current staging buffer holds the window's block at every point, whether the pipeline fetched
    it there or not: where it was not fetched the block index has not moved since the point before. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- Input window 3's current staging buffer holds the window's block at every point, whether the pipeline fetched
    it there or not: where it was not fetched the block index has not moved since the point before. -/
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

/-- Input window 4's current staging buffer holds the window's block at every point, whether the pipeline fetched
    it there or not: where it was not fetched the block index has not moved since the point before. -/
theorem before7_4_of {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)

/-! ## The body's two conditions, in closed form over the grid -/

/-- The condition of the first `scf.if` (the reset): the column tile is the first. -/
abbrev cond7_0 (i : grid7.Coords) : Prop := (Scalar.cmpi .ne (Scalar.extui (Scalar.cmpi .eq (BitVec.ofNat 32 (i 1).val) 0#32)) 0#32) = 1#1
theorem hcond7_0 : ∀ t : Fin cfg7.N, cond7_0 (grid7.coords t) ↔ t.val % 4 = 0 :=
  (by decide +kernel : ∀ t : Fin grid7.N, cond7_0 (grid7.coords t) ↔ t.val % 4 = 0)

/-- The condition of the second `scf.if` (the outputs' stores): the column tile is the last. -/
abbrev cond7_1 (i : grid7.Coords) : Prop := k7_cond2 i = 1#1
theorem hcond7_1 : ∀ t : Fin cfg7.N, cond7_1 (grid7.coords t) ↔ t.val % 4 = 3 :=
  (by decide +kernel : ∀ t : Fin grid7.N, cond7_1 (grid7.coords t) ↔ t.val % 4 = 3)

/-! ## Where the two outputs are idle -/

/-- At the points with k = 0 output 5 is idle: the body stores nothing into it and the pipeline does not write it back. -/
theorem idleAt7_5_A : ∀ t : Fin cfg7.N, cond7_0 (grid7.coords t) → ¬cond7_1 (grid7.coords t) → cfg7.idle 5 (grid7.coords t) = true := by decide +kernel
theorem noFlush7_5_A : ∀ t : Fin cfg7.N, cond7_0 (grid7.coords t) → ¬cond7_1 (grid7.coords t) → (cfg7.win 5).flush t = false := by decide +kernel
/-- The same at the points with k = 1 and k = 2. -/
theorem idleAt7_5_B : ∀ t : Fin cfg7.N, ¬cond7_0 (grid7.coords t) → ¬cond7_1 (grid7.coords t) → cfg7.idle 5 (grid7.coords t) = true := by decide +kernel
theorem noFlush7_5_B : ∀ t : Fin cfg7.N, ¬cond7_0 (grid7.coords t) → ¬cond7_1 (grid7.coords t) → (cfg7.win 5).flush t = false := by decide +kernel
/-- At the points with k = 3 output 5 is live: the body stores its whole block. -/
theorem liveAt7_5_C : ∀ t : Fin cfg7.N, ¬cond7_0 (grid7.coords t) → cond7_1 (grid7.coords t) → cfg7.idle 5 (grid7.coords t) = false := by decide +kernel

/-- At the points with k = 0 output 6 is idle: the body stores nothing into it and the pipeline does not write it back. -/
theorem idleAt7_6_A : ∀ t : Fin cfg7.N, cond7_0 (grid7.coords t) → ¬cond7_1 (grid7.coords t) → cfg7.idle 6 (grid7.coords t) = true := by decide +kernel
theorem noFlush7_6_A : ∀ t : Fin cfg7.N, cond7_0 (grid7.coords t) → ¬cond7_1 (grid7.coords t) → (cfg7.win 6).flush t = false := by decide +kernel
/-- The same at the points with k = 1 and k = 2. -/
theorem idleAt7_6_B : ∀ t : Fin cfg7.N, ¬cond7_0 (grid7.coords t) → ¬cond7_1 (grid7.coords t) → cfg7.idle 6 (grid7.coords t) = true := by decide +kernel
theorem noFlush7_6_B : ∀ t : Fin cfg7.N, ¬cond7_0 (grid7.coords t) → ¬cond7_1 (grid7.coords t) → (cfg7.win 6).flush t = false := by decide +kernel
/-- At the points with k = 3 output 6 is live: the body stores its whole block. -/
theorem liveAt7_6_C : ∀ t : Fin cfg7.N, ¬cond7_0 (grid7.coords t) → cond7_1 (grid7.coords t) → cfg7.idle 6 (grid7.coords t) = false := by decide +kernel

/-! ## The memrefs the body is called with -/

/-- One staging buffer of each output, through which its contents are stated (the choice does not matter). -/
abbrev VO7_5 : View sig .tc .vmem S1024x64 .bf16 := (Memref.whole cc7_stg5_0 : Memref sig .tc .vmem S1024x64 .bf16).view
abbrev VO7_6 : View sig .tc .vmem S1024x64 .f32 := (Memref.whole cc7_stg6_0 : Memref sig .tc .vmem S1024x64 .f32).view
abbrev ms7_0 (t : Fin cfg7.N) : Memref sig .tc .vmem S1024x2048 .bf16 := win7_0.stage (cfg7.slots t 0)
abbrev hs7_0 (t : Fin cfg7.N) : (ms7_0 t).IsWhole := hstage7_0 ((cfg7.slots t 0).cast nbuf7_0)
abbrev ms7_1 (t : Fin cfg7.N) : Memref sig .tc .vmem S8192x64 .bf16 := win7_1.stage (cfg7.slots t 1)
abbrev hs7_1 (t : Fin cfg7.N) : (ms7_1 t).IsWhole := hstage7_1 ((cfg7.slots t 1).cast nbuf7_1)
abbrev ms7_2 (t : Fin cfg7.N) : Memref sig .tc .vmem S1024x64 .f32 := win7_2.stage (cfg7.slots t 2)
abbrev hs7_2 (t : Fin cfg7.N) : (ms7_2 t).IsWhole := hstage7_2 ((cfg7.slots t 2).cast nbuf7_2)
abbrev ms7_3 (t : Fin cfg7.N) : Memref sig .tc .vmem S1x64 .f32 := win7_3.stage (cfg7.slots t 3)
abbrev hs7_3 (t : Fin cfg7.N) : (ms7_3 t).IsWhole := hstage7_3 ((cfg7.slots t 3).cast nbuf7_3)
abbrev ms7_4 (t : Fin cfg7.N) : Memref sig .tc .vmem S1x1 .f32 := win7_4.stage (cfg7.slots t 4)
abbrev hs7_4 (t : Fin cfg7.N) : (ms7_4 t).IsWhole := hstage7_4 ((cfg7.slots t 4).cast nbuf7_4)
abbrev ms7_5 (t : Fin cfg7.N) : Memref sig .tc .vmem S1024x64 .bf16 := win7_5.stage (cfg7.slots t 5)
abbrev hs7_5 (t : Fin cfg7.N) : (ms7_5 t).IsWhole := hstage7_5 ((cfg7.slots t 5).cast nbuf7_5)
abbrev ms7_6 (t : Fin cfg7.N) : Memref sig .tc .vmem S1024x64 .f32 := win7_6.stage (cfg7.slots t 6)
abbrev hs7_6 (t : Fin cfg7.N) : (ms7_6 t).IsWhole := hstage7_6 ((cfg7.slots t 6).cast nbuf7_6)
/-- The accumulator: a whole scoped buffer of the call's own, carried from point to point. -/
abbrev scM7_0 : Memref sig .tc .vmem S1024x64 .f32 := Memref.whole cc7_scratch0
abbrev VS7_0 : View sig .tc .vmem S1024x64 .f32 := scM7_0.view

/-- The invariant the launch hands the call, with the accumulator split out of the scoped buffers: the accumulator
    owned at some contents, every other scoped buffer unopened, the generator register at some state. -/
theorem PhiA7_eq (c : Dev nD) :
    (Pipeline.ΦA spec7 c : sProp 𝕄)
      = iprop(iprop(iprop((∃ d, owns (c : Thread nD τ) scM7_0 fullShare d))
          ∗ Pipeline.scopedRestBut (Ix := Unit) (Name := ℕ) (U := UR sig nD τ) (Lvl := ℕ) (Val := Elt F) spec7 c [cc7_scratch0]) ∗ (∃ r, prngReg c r)) := by
  unfold Pipeline.ΦA; rw [scopedRest7_split]; simp only [scM7_0, owns_whole]; try rfl

end Cert.KernelIdeal.Hand

end
-- ==== Proof.KI.Prop7RunA.lean ====
import proofs.«131271_j4982162063661_2_alg».proof.Proof.KI.Prop7Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run when the column tile is the first (the accumulator is reset, then accumulated into; no output is stored): the lists of stores each buffer ends with, together with the proof that on whole
    staging memrefs — the inputs' at their contents, the outputs' at contents handed back untouched, the accumulator
    at anything — the body runs to the continuation holding the inputs' as they were,
    the accumulator with its stores written. The lists are found by running the body. -/
noncomputable def kernelRun7_A (c : Dev nD) (i : grid7.Coords) (arg2 : Memref sig .tc .vmem S1024x2048 .bf16) (harg2 : arg2.IsWhole) (arg3 : Memref sig .tc .vmem S8192x64 .bf16) (harg3 : arg3.IsWhole) (arg4 : Memref sig .tc .vmem S1024x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S1024x64 .bf16) (harg7 : arg7.IsWhole) (arg8 : Memref sig .tc .vmem S1024x64 .f32) (harg8 : arg8.IsWhole) (arg9 : Memref sig .tc .vmem S1024x64 .f32) (harg9 : arg9.IsWhole) (hc0 : cond7_0 i) (hc1 : ¬cond7_1 i)
    (x0 : Vec F S1024x2048 .bf16) (x1 : Vec F S8192x64 .bf16) (x2 : Vec F S1024x64 .f32) (x3 : Vec F S1x64 .f32) (x4 : Vec F S1x1 .f32) :
    Σ' (L5 : List (View.Piece (Elt F) S1024x64 .bf16)) (L6 : List (View.Piece (Elt F) S1024x64 .f32)), { LS0 : List (View.Piece (Elt F) S1024x64 .f32) //
      ∀ (xi5 : Vec F S1024x64 .bf16) (xi6 : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc7__propagate_kernel i arg2 harg2 arg3 harg3 arg4 harg4 arg5 harg5 arg6 harg6 arg7 harg7 arg8 harg8 arg9 harg9) K } := by
  refine ⟨[], [], ?_, fun xi5 xi6 E K => ?run⟩
  case run =>
    simp only [cc7__propagate_kernel_eq_skeleton]; unfold cc7__propagate_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

end Cert.KernelIdeal.Hand

end
-- ==== Proof.KI.Prop7RunB.lean ====
import proofs.«131271_j4982162063661_2_alg».proof.Proof.KI.Prop7RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run when the column tile is neither the first nor the last (the accumulator is accumulated into; no output is stored): the lists of stores each buffer ends with, together with the proof that on whole
    staging memrefs — the inputs' at their contents, the outputs' at contents handed back untouched, the accumulator
    at the contents the point before left — the body runs to the continuation holding the inputs' as they were,
    the accumulator with its stores written. The lists are found by running the body. -/
noncomputable def kernelRun7_B (c : Dev nD) (i : grid7.Coords) (arg2 : Memref sig .tc .vmem S1024x2048 .bf16) (harg2 : arg2.IsWhole) (arg3 : Memref sig .tc .vmem S8192x64 .bf16) (harg3 : arg3.IsWhole) (arg4 : Memref sig .tc .vmem S1024x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S1024x64 .bf16) (harg7 : arg7.IsWhole) (arg8 : Memref sig .tc .vmem S1024x64 .f32) (harg8 : arg8.IsWhole) (arg9 : Memref sig .tc .vmem S1024x64 .f32) (harg9 : arg9.IsWhole) (hc0 : ¬cond7_0 i) (hc1 : ¬cond7_1 i)
    (x0 : Vec F S1024x2048 .bf16) (x1 : Vec F S8192x64 .bf16) (x2 : Vec F S1024x64 .f32) (x3 : Vec F S1x64 .f32) (x4 : Vec F S1x1 .f32) (xs0 : Vec F S1024x64 .f32) :
    Σ' (L5 : List (View.Piece (Elt F) S1024x64 .bf16)) (L6 : List (View.Piece (Elt F) S1024x64 .f32)), { LS0 : List (View.Piece (Elt F) S1024x64 .f32) //
      ∀ (xi5 : Vec F S1024x64 .bf16) (xi6 : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc7__propagate_kernel i arg2 harg2 arg3 harg3 arg4 harg4 arg5 harg5 arg6 harg6 arg7 harg7 arg8 harg8 arg9 harg9) K } := by
  refine ⟨[], [], ?_, fun xi5 xi6 E K => ?run⟩
  case run =>
    simp only [cc7__propagate_kernel_eq_skeleton]; unfold cc7__propagate_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

end Cert.KernelIdeal.Hand

end
-- ==== Proof.KI.Prop7RunC.lean ====
import proofs.«131271_j4982162063661_2_alg».proof.Proof.KI.Prop7RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run when the column tile is the last (the accumulator is accumulated into, then stored into both outputs): the lists of stores each buffer ends with, together with the proof that on whole
    staging memrefs — the inputs' at their contents, the outputs' at anything, the accumulator
    at the contents the point before left — the body runs to the continuation holding the inputs' as they were,
    the accumulator with its stores written and each output's buffer with its stores written. The lists are found by running the body. -/
noncomputable def kernelRun7_C (c : Dev nD) (i : grid7.Coords) (arg2 : Memref sig .tc .vmem S1024x2048 .bf16) (harg2 : arg2.IsWhole) (arg3 : Memref sig .tc .vmem S8192x64 .bf16) (harg3 : arg3.IsWhole) (arg4 : Memref sig .tc .vmem S1024x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S1024x64 .bf16) (harg7 : arg7.IsWhole) (arg8 : Memref sig .tc .vmem S1024x64 .f32) (harg8 : arg8.IsWhole) (arg9 : Memref sig .tc .vmem S1024x64 .f32) (harg9 : arg9.IsWhole) (hc0 : ¬cond7_0 i) (hc1 : cond7_1 i)
    (x0 : Vec F S1024x2048 .bf16) (x1 : Vec F S8192x64 .bf16) (x2 : Vec F S1024x64 .f32) (x3 : Vec F S1x64 .f32) (x4 : Vec F S1x1 .f32) (xs0 : Vec F S1024x64 .f32) :
    Σ' (L5 : List (View.Piece (Elt F) S1024x64 .bf16)) (L6 : List (View.Piece (Elt F) S1024x64 .f32)), { LS0 : List (View.Piece (Elt F) S1024x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0)) -∗ K ⟨⟩))
          ⊢ wp frame (wpE (defs₀ (F := F)) Variants.none c none) E (cc7__propagate_kernel i arg2 harg2 arg3 harg3 arg4 harg4 arg5 harg5 arg6 harg6 arg7 harg7 arg8 harg8 arg9 harg9) K } := by
  refine ⟨?_, ?_, ?_, fun E K => ?run⟩
  case run =>
    simp only [cc7__propagate_kernel_eq_skeleton]; unfold cc7__propagate_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    iexists _; iexact HS0

end Cert.KernelIdeal.Hand

end
-- ==== Proof.KI.Prop7.lean ====
import proofs.«131271_j4982162063661_2_alg».proof.Proof.KI.Prop7RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The propagate call number 7: its proof data and body obligation at the entry contents `V`

What the two outputs' staging buffers and the accumulator hold after each point is defined by recursion on the
point (`outsAt7`): the case the point is in, run on the point's memrefs and input blocks, over what the point
before left in the accumulator. The invariant between points keeps the accumulator at exactly those contents. -/

variable (V : (c : Dev nD) → (b : Ref sig .tc) → Buf (Elt F) ((c : Thread nD τ).loc b))

/-! ## What each case leaves -/

/-- What case A leaves in output 5's staging buffer: its stores read back over arbitrary contents (there are none: the output is idle in this case and nothing consults this value). -/
def out7_A_5 (c : Dev nD) (i : grid7.Coords) (arg2 : Memref sig .tc .vmem S1024x2048 .bf16) (harg2 : arg2.IsWhole) (arg3 : Memref sig .tc .vmem S8192x64 .bf16) (harg3 : arg3.IsWhole) (arg4 : Memref sig .tc .vmem S1024x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S1024x64 .bf16) (harg7 : arg7.IsWhole) (arg8 : Memref sig .tc .vmem S1024x64 .f32) (harg8 : arg8.IsWhole) (arg9 : Memref sig .tc .vmem S1024x64 .f32) (harg9 : arg9.IsWhole) (hc0 : cond7_0 i) (hc1 : ¬cond7_1 i)
    (x0 : Vec F S1024x2048 .bf16) (x1 : Vec F S8192x64 .bf16) (x2 : Vec F S1024x64 .f32) (x3 : Vec F S1x64 .f32) (x4 : Vec F S1x1 .f32) : Vec F S1024x64 .bf16 :=
  VO7_5.read (Elt F) (VO7_5.writes (Elt F) VO7_5.junk (kernelRun7_A c i arg2 harg2 arg3 harg3 arg4 harg4 arg5 harg5 arg6 harg6 arg7 harg7 arg8 harg8 arg9 harg9 hc0 hc1 x0 x1 x2 x3 x4).1)
/-- The same for output 6. -/
def out7_A_6 (c : Dev nD) (i : grid7.Coords) (arg2 : Memref sig .tc .vmem S1024x2048 .bf16) (harg2 : arg2.IsWhole) (arg3 : Memref sig .tc .vmem S8192x64 .bf16) (harg3 : arg3.IsWhole) (arg4 : Memref sig .tc .vmem S1024x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S1024x64 .bf16) (harg7 : arg7.IsWhole) (arg8 : Memref sig .tc .vmem S1024x64 .f32) (harg8 : arg8.IsWhole) (arg9 : Memref sig .tc .vmem S1024x64 .f32) (harg9 : arg9.IsWhole) (hc0 : cond7_0 i) (hc1 : ¬cond7_1 i)
    (x0 : Vec F S1024x2048 .bf16) (x1 : Vec F S8192x64 .bf16) (x2 : Vec F S1024x64 .f32) (x3 : Vec F S1x64 .f32) (x4 : Vec F S1x1 .f32) : Vec F S1024x64 .f32 :=
  VO7_6.read (Elt F) (VO7_6.writes (Elt F) VO7_6.junk (kernelRun7_A c i arg2 harg2 arg3 harg3 arg4 harg4 arg5 harg5 arg6 harg6 arg7 harg7 arg8 harg8 arg9 harg9 hc0 hc1 x0 x1 x2 x3 x4).2.1)
/-- Case A's stores into the accumulator are of the whole buffer, so they cover it. -/
theorem scover7_A_0 (c : Dev nD) (i : grid7.Coords) (arg2 : Memref sig .tc .vmem S1024x2048 .bf16) (harg2 : arg2.IsWhole) (arg3 : Memref sig .tc .vmem S8192x64 .bf16) (harg3 : arg3.IsWhole) (arg4 : Memref sig .tc .vmem S1024x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S1024x64 .bf16) (harg7 : arg7.IsWhole) (arg8 : Memref sig .tc .vmem S1024x64 .f32) (harg8 : arg8.IsWhole) (arg9 : Memref sig .tc .vmem S1024x64 .f32) (harg9 : arg9.IsWhole) (hc0 : cond7_0 i) (hc1 : ¬cond7_1 i)
    (x0 : Vec F S1024x2048 .bf16) (x1 : Vec F S8192x64 .bf16) (x2 : Vec F S1024x64 .f32) (x3 : Vec F S1x64 .f32) (x4 : Vec F S1x1 .f32) (y : S1024x64.Idx) :
    ∃ pc ∈ (kernelRun7_A c i arg2 harg2 arg3 harg3 arg4 harg4 arg5 harg5 arg6 harg6 arg7 harg7 arg8 harg8 arg9 harg9 hc0 hc1 x0 x1 x2 x3 x4).2.2.1, y ∈ pc.1.set :=
  View.cover_of_tiledL (kernelRun7_A c i arg2 harg2 arg3 harg3 arg4 harg4 arg5 harg5 arg6 harg6 arg7 harg7 arg8 harg8 arg9 harg9 hc0 hc1 x0 x1 x2 x3 x4).2.2.1 S1024x64.size (by sl_kernel_rfl) y
/-- What case A leaves in the accumulator. -/
def sout7_A_0 (c : Dev nD) (i : grid7.Coords) (arg2 : Memref sig .tc .vmem S1024x2048 .bf16) (harg2 : arg2.IsWhole) (arg3 : Memref sig .tc .vmem S8192x64 .bf16) (harg3 : arg3.IsWhole) (arg4 : Memref sig .tc .vmem S1024x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S1024x64 .bf16) (harg7 : arg7.IsWhole) (arg8 : Memref sig .tc .vmem S1024x64 .f32) (harg8 : arg8.IsWhole) (arg9 : Memref sig .tc .vmem S1024x64 .f32) (harg9 : arg9.IsWhole) (hc0 : cond7_0 i) (hc1 : ¬cond7_1 i)
    (x0 : Vec F S1024x2048 .bf16) (x1 : Vec F S8192x64 .bf16) (x2 : Vec F S1024x64 .f32) (x3 : Vec F S1x64 .f32) (x4 : Vec F S1x1 .f32) : Vec F S1024x64 .f32 :=
  VS7_0.read (Elt F) (VS7_0.writes (Elt F) VS7_0.junk (kernelRun7_A c i arg2 harg2 arg3 harg3 arg4 harg4 arg5 harg5 arg6 harg6 arg7 harg7 arg8 harg8 arg9 harg9 hc0 hc1 x0 x1 x2 x3 x4).2.2.1)

/-- What case B leaves in output 5's staging buffer: its stores read back over arbitrary contents (there are none: the output is idle in this case and nothing consults this value). -/
def out7_B_5 (c : Dev nD) (i : grid7.Coords) (arg2 : Memref sig .tc .vmem S1024x2048 .bf16) (harg2 : arg2.IsWhole) (arg3 : Memref sig .tc .vmem S8192x64 .bf16) (harg3 : arg3.IsWhole) (arg4 : Memref sig .tc .vmem S1024x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S1024x64 .bf16) (harg7 : arg7.IsWhole) (arg8 : Memref sig .tc .vmem S1024x64 .f32) (harg8 : arg8.IsWhole) (arg9 : Memref sig .tc .vmem S1024x64 .f32) (harg9 : arg9.IsWhole) (hc0 : ¬cond7_0 i) (hc1 : ¬cond7_1 i)
    (x0 : Vec F S1024x2048 .bf16) (x1 : Vec F S8192x64 .bf16) (x2 : Vec F S1024x64 .f32) (x3 : Vec F S1x64 .f32) (x4 : Vec F S1x1 .f32) (xs0 : Vec F S1024x64 .f32) : Vec F S1024x64 .bf16 :=
  VO7_5.read (Elt F) (VO7_5.writes (Elt F) VO7_5.junk (kernelRun7_B c i arg2 harg2 arg3 harg3 arg4 harg4 arg5 harg5 arg6 harg6 arg7 harg7 arg8 harg8 arg9 harg9 hc0 hc1 x0 x1 x2 x3 x4 xs0).1)
/-- The same for output 6. -/
def out7_B_6 (c : Dev nD) (i : grid7.Coords) (arg2 : Memref sig .tc .vmem S1024x2048 .bf16) (harg2 : arg2.IsWhole) (arg3 : Memref sig .tc .vmem S8192x64 .bf16) (harg3 : arg3.IsWhole) (arg4 : Memref sig .tc .vmem S1024x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S1024x64 .bf16) (harg7 : arg7.IsWhole) (arg8 : Memref sig .tc .vmem S1024x64 .f32) (harg8 : arg8.IsWhole) (arg9 : Memref sig .tc .vmem S1024x64 .f32) (harg9 : arg9.IsWhole) (hc0 : ¬cond7_0 i) (hc1 : ¬cond7_1 i)
    (x0 : Vec F S1024x2048 .bf16) (x1 : Vec F S8192x64 .bf16) (x2 : Vec F S1024x64 .f32) (x3 : Vec F S1x64 .f32) (x4 : Vec F S1x1 .f32) (xs0 : Vec F S1024x64 .f32) : Vec F S1024x64 .f32 :=
  VO7_6.read (Elt F) (VO7_6.writes (Elt F) VO7_6.junk (kernelRun7_B c i arg2 harg2 arg3 harg3 arg4 harg4 arg5 harg5 arg6 harg6 arg7 harg7 arg8 harg8 arg9 harg9 hc0 hc1 x0 x1 x2 x3 x4 xs0).2.1)
/-- Case B's stores into the accumulator are of the whole buffer, so they cover it. -/
theorem scover7_B_0 (c : Dev nD) (i : grid7.Coords) (arg2 : Memref sig .tc .vmem S1024x2048 .bf16) (harg2 : arg2.IsWhole) (arg3 : Memref sig .tc .vmem S8192x64 .bf16) (harg3 : arg3.IsWhole) (arg4 : Memref sig .tc .vmem S1024x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S1024x64 .bf16) (harg7 : arg7.IsWhole) (arg8 : Memref sig .tc .vmem S1024x64 .f32) (harg8 : arg8.IsWhole) (arg9 : Memref sig .tc .vmem S1024x64 .f32) (harg9 : arg9.IsWhole) (hc0 : ¬cond7_0 i) (hc1 : ¬cond7_1 i)
    (x0 : Vec F S1024x2048 .bf16) (x1 : Vec F S8192x64 .bf16) (x2 : Vec F S1024x64 .f32) (x3 : Vec F S1x64 .f32) (x4 : Vec F S1x1 .f32) (xs0 : Vec F S1024x64 .f32) (y : S1024x64.Idx) :
    ∃ pc ∈ (kernelRun7_B c i arg2 harg2 arg3 harg3 arg4 harg4 arg5 harg5 arg6 harg6 arg7 harg7 arg8 harg8 arg9 harg9 hc0 hc1 x0 x1 x2 x3 x4 xs0).2.2.1, y ∈ pc.1.set :=
  View.cover_of_tiledL (kernelRun7_B c i arg2 harg2 arg3 harg3 arg4 harg4 arg5 harg5 arg6 harg6 arg7 harg7 arg8 harg8 arg9 harg9 hc0 hc1 x0 x1 x2 x3 x4 xs0).2.2.1 S1024x64.size (by sl_kernel_rfl) y
/-- What case B leaves in the accumulator. -/
def sout7_B_0 (c : Dev nD) (i : grid7.Coords) (arg2 : Memref sig .tc .vmem S1024x2048 .bf16) (harg2 : arg2.IsWhole) (arg3 : Memref sig .tc .vmem S8192x64 .bf16) (harg3 : arg3.IsWhole) (arg4 : Memref sig .tc .vmem S1024x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S1024x64 .bf16) (harg7 : arg7.IsWhole) (arg8 : Memref sig .tc .vmem S1024x64 .f32) (harg8 : arg8.IsWhole) (arg9 : Memref sig .tc .vmem S1024x64 .f32) (harg9 : arg9.IsWhole) (hc0 : ¬cond7_0 i) (hc1 : ¬cond7_1 i)
    (x0 : Vec F S1024x2048 .bf16) (x1 : Vec F S8192x64 .bf16) (x2 : Vec F S1024x64 .f32) (x3 : Vec F S1x64 .f32) (x4 : Vec F S1x1 .f32) (xs0 : Vec F S1024x64 .f32) : Vec F S1024x64 .f32 :=
  VS7_0.read (Elt F) (VS7_0.writes (Elt F) VS7_0.junk (kernelRun7_B c i arg2 harg2 arg3 harg3 arg4 harg4 arg5 harg5 arg6 harg6 arg7 harg7 arg8 harg8 arg9 harg9 hc0 hc1 x0 x1 x2 x3 x4 xs0).2.2.1)

/-- What case C leaves in output 5's staging buffer: its stores read back over arbitrary contents. -/
def out7_C_5 (c : Dev nD) (i : grid7.Coords) (arg2 : Memref sig .tc .vmem S1024x2048 .bf16) (harg2 : arg2.IsWhole) (arg3 : Memref sig .tc .vmem S8192x64 .bf16) (harg3 : arg3.IsWhole) (arg4 : Memref sig .tc .vmem S1024x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S1024x64 .bf16) (harg7 : arg7.IsWhole) (arg8 : Memref sig .tc .vmem S1024x64 .f32) (harg8 : arg8.IsWhole) (arg9 : Memref sig .tc .vmem S1024x64 .f32) (harg9 : arg9.IsWhole) (hc0 : ¬cond7_0 i) (hc1 : cond7_1 i)
    (x0 : Vec F S1024x2048 .bf16) (x1 : Vec F S8192x64 .bf16) (x2 : Vec F S1024x64 .f32) (x3 : Vec F S1x64 .f32) (x4 : Vec F S1x1 .f32) (xs0 : Vec F S1024x64 .f32) : Vec F S1024x64 .bf16 :=
  VO7_5.read (Elt F) (VO7_5.writes (Elt F) VO7_5.junk (kernelRun7_C c i arg2 harg2 arg3 harg3 arg4 harg4 arg5 harg5 arg6 harg6 arg7 harg7 arg8 harg8 arg9 harg9 hc0 hc1 x0 x1 x2 x3 x4 xs0).1)
/-- The same for output 6. -/
def out7_C_6 (c : Dev nD) (i : grid7.Coords) (arg2 : Memref sig .tc .vmem S1024x2048 .bf16) (harg2 : arg2.IsWhole) (arg3 : Memref sig .tc .vmem S8192x64 .bf16) (harg3 : arg3.IsWhole) (arg4 : Memref sig .tc .vmem S1024x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S1024x64 .bf16) (harg7 : arg7.IsWhole) (arg8 : Memref sig .tc .vmem S1024x64 .f32) (harg8 : arg8.IsWhole) (arg9 : Memref sig .tc .vmem S1024x64 .f32) (harg9 : arg9.IsWhole) (hc0 : ¬cond7_0 i) (hc1 : cond7_1 i)
    (x0 : Vec F S1024x2048 .bf16) (x1 : Vec F S8192x64 .bf16) (x2 : Vec F S1024x64 .f32) (x3 : Vec F S1x64 .f32) (x4 : Vec F S1x1 .f32) (xs0 : Vec F S1024x64 .f32) : Vec F S1024x64 .f32 :=
  VO7_6.read (Elt F) (VO7_6.writes (Elt F) VO7_6.junk (kernelRun7_C c i arg2 harg2 arg3 harg3 arg4 harg4 arg5 harg5 arg6 harg6 arg7 harg7 arg8 harg8 arg9 harg9 hc0 hc1 x0 x1 x2 x3 x4 xs0).2.1)
/-- Case C's one store into output 5 is of the whole block, so it covers it. -/
theorem cover7_C_5 (c : Dev nD) (i : grid7.Coords) (arg2 : Memref sig .tc .vmem S1024x2048 .bf16) (harg2 : arg2.IsWhole) (arg3 : Memref sig .tc .vmem S8192x64 .bf16) (harg3 : arg3.IsWhole) (arg4 : Memref sig .tc .vmem S1024x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S1024x64 .bf16) (harg7 : arg7.IsWhole) (arg8 : Memref sig .tc .vmem S1024x64 .f32) (harg8 : arg8.IsWhole) (arg9 : Memref sig .tc .vmem S1024x64 .f32) (harg9 : arg9.IsWhole) (hc0 : ¬cond7_0 i) (hc1 : cond7_1 i)
    (x0 : Vec F S1024x2048 .bf16) (x1 : Vec F S8192x64 .bf16) (x2 : Vec F S1024x64 .f32) (x3 : Vec F S1x64 .f32) (x4 : Vec F S1x1 .f32) (xs0 : Vec F S1024x64 .f32) (y : S1024x64.Idx) :
    ∃ pc ∈ (kernelRun7_C c i arg2 harg2 arg3 harg3 arg4 harg4 arg5 harg5 arg6 harg6 arg7 harg7 arg8 harg8 arg9 harg9 hc0 hc1 x0 x1 x2 x3 x4 xs0).1, y ∈ pc.1.set :=
  View.cover_of_tiledL (kernelRun7_C c i arg2 harg2 arg3 harg3 arg4 harg4 arg5 harg5 arg6 harg6 arg7 harg7 arg8 harg8 arg9 harg9 hc0 hc1 x0 x1 x2 x3 x4 xs0).1 S1024x64.size (by sl_kernel_rfl) y
/-- The same for output 6. -/
theorem cover7_C_6 (c : Dev nD) (i : grid7.Coords) (arg2 : Memref sig .tc .vmem S1024x2048 .bf16) (harg2 : arg2.IsWhole) (arg3 : Memref sig .tc .vmem S8192x64 .bf16) (harg3 : arg3.IsWhole) (arg4 : Memref sig .tc .vmem S1024x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S1024x64 .bf16) (harg7 : arg7.IsWhole) (arg8 : Memref sig .tc .vmem S1024x64 .f32) (harg8 : arg8.IsWhole) (arg9 : Memref sig .tc .vmem S1024x64 .f32) (harg9 : arg9.IsWhole) (hc0 : ¬cond7_0 i) (hc1 : cond7_1 i)
    (x0 : Vec F S1024x2048 .bf16) (x1 : Vec F S8192x64 .bf16) (x2 : Vec F S1024x64 .f32) (x3 : Vec F S1x64 .f32) (x4 : Vec F S1x1 .f32) (xs0 : Vec F S1024x64 .f32) (y : S1024x64.Idx) :
    ∃ pc ∈ (kernelRun7_C c i arg2 harg2 arg3 harg3 arg4 harg4 arg5 harg5 arg6 harg6 arg7 harg7 arg8 harg8 arg9 harg9 hc0 hc1 x0 x1 x2 x3 x4 xs0).2.1, y ∈ pc.1.set :=
  View.cover_of_tiledL (kernelRun7_C c i arg2 harg2 arg3 harg3 arg4 harg4 arg5 harg5 arg6 harg6 arg7 harg7 arg8 harg8 arg9 harg9 hc0 hc1 x0 x1 x2 x3 x4 xs0).2.1 S1024x64.size (by sl_kernel_rfl) y
/-- Case C's stores into the accumulator are of the whole buffer, so they cover it. -/
theorem scover7_C_0 (c : Dev nD) (i : grid7.Coords) (arg2 : Memref sig .tc .vmem S1024x2048 .bf16) (harg2 : arg2.IsWhole) (arg3 : Memref sig .tc .vmem S8192x64 .bf16) (harg3 : arg3.IsWhole) (arg4 : Memref sig .tc .vmem S1024x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S1024x64 .bf16) (harg7 : arg7.IsWhole) (arg8 : Memref sig .tc .vmem S1024x64 .f32) (harg8 : arg8.IsWhole) (arg9 : Memref sig .tc .vmem S1024x64 .f32) (harg9 : arg9.IsWhole) (hc0 : ¬cond7_0 i) (hc1 : cond7_1 i)
    (x0 : Vec F S1024x2048 .bf16) (x1 : Vec F S8192x64 .bf16) (x2 : Vec F S1024x64 .f32) (x3 : Vec F S1x64 .f32) (x4 : Vec F S1x1 .f32) (xs0 : Vec F S1024x64 .f32) (y : S1024x64.Idx) :
    ∃ pc ∈ (kernelRun7_C c i arg2 harg2 arg3 harg3 arg4 harg4 arg5 harg5 arg6 harg6 arg7 harg7 arg8 harg8 arg9 harg9 hc0 hc1 x0 x1 x2 x3 x4 xs0).2.2.1, y ∈ pc.1.set :=
  View.cover_of_tiledL (kernelRun7_C c i arg2 harg2 arg3 harg3 arg4 harg4 arg5 harg5 arg6 harg6 arg7 harg7 arg8 harg8 arg9 harg9 hc0 hc1 x0 x1 x2 x3 x4 xs0).2.2.1 S1024x64.size (by sl_kernel_rfl) y
/-- What case C leaves in the accumulator. -/
def sout7_C_0 (c : Dev nD) (i : grid7.Coords) (arg2 : Memref sig .tc .vmem S1024x2048 .bf16) (harg2 : arg2.IsWhole) (arg3 : Memref sig .tc .vmem S8192x64 .bf16) (harg3 : arg3.IsWhole) (arg4 : Memref sig .tc .vmem S1024x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S1024x64 .bf16) (harg7 : arg7.IsWhole) (arg8 : Memref sig .tc .vmem S1024x64 .f32) (harg8 : arg8.IsWhole) (arg9 : Memref sig .tc .vmem S1024x64 .f32) (harg9 : arg9.IsWhole) (hc0 : ¬cond7_0 i) (hc1 : cond7_1 i)
    (x0 : Vec F S1024x2048 .bf16) (x1 : Vec F S8192x64 .bf16) (x2 : Vec F S1024x64 .f32) (x3 : Vec F S1x64 .f32) (x4 : Vec F S1x1 .f32) (xs0 : Vec F S1024x64 .f32) : Vec F S1024x64 .f32 :=
  VS7_0.read (Elt F) (VS7_0.writes (Elt F) VS7_0.junk (kernelRun7_C c i arg2 harg2 arg3 harg3 arg4 harg4 arg5 harg5 arg6 harg6 arg7 harg7 arg8 harg8 arg9 harg9 hc0 hc1 x0 x1 x2 x3 x4 xs0).2.2.1)

/-! ## What the outputs and the accumulator hold after each point -/

/-- After the body at position `n`: output 5's buffer, output 6's buffer, the accumulator. -/
def outsAt7 (c : Dev nD) : (n : ℕ) → n < cfg7.N → Vec F S1024x64 .bf16 × Vec F S1024x64 .f32 × Vec F S1024x64 .f32
  | 0, hn => (out7_A_5 c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) (ms7_3 ⟨0, hn⟩) (hs7_3 ⟨0, hn⟩) (ms7_4 ⟨0, hn⟩) (hs7_4 ⟨0, hn⟩) (ms7_5 ⟨0, hn⟩) (hs7_5 ⟨0, hn⟩) (ms7_6 ⟨0, hn⟩) (hs7_6 ⟨0, hn⟩) scM7_0 (Memref.isWhole_whole _) ((hcond7_0 ⟨0, hn⟩).mpr (Nat.zero_mod _)) (fun h => (fun h => by (try dsimp only at h); omega) ((hcond7_1 ⟨0, hn⟩).mp h)) (iblk7 V c 0 ⟨0, hn⟩) (iblk7 V c 1 ⟨0, hn⟩) (iblk7 V c 2 ⟨0, hn⟩) (iblk7 V c 3 ⟨0, hn⟩) (iblk7 V c 4 ⟨0, hn⟩), out7_A_6 c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) (ms7_3 ⟨0, hn⟩) (hs7_3 ⟨0, hn⟩) (ms7_4 ⟨0, hn⟩) (hs7_4 ⟨0, hn⟩) (ms7_5 ⟨0, hn⟩) (hs7_5 ⟨0, hn⟩) (ms7_6 ⟨0, hn⟩) (hs7_6 ⟨0, hn⟩) scM7_0 (Memref.isWhole_whole _) ((hcond7_0 ⟨0, hn⟩).mpr (Nat.zero_mod _)) (fun h => (fun h => by (try dsimp only at h); omega) ((hcond7_1 ⟨0, hn⟩).mp h)) (iblk7 V c 0 ⟨0, hn⟩) (iblk7 V c 1 ⟨0, hn⟩) (iblk7 V c 2 ⟨0, hn⟩) (iblk7 V c 3 ⟨0, hn⟩) (iblk7 V c 4 ⟨0, hn⟩), sout7_A_0 c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) (ms7_3 ⟨0, hn⟩) (hs7_3 ⟨0, hn⟩) (ms7_4 ⟨0, hn⟩) (hs7_4 ⟨0, hn⟩) (ms7_5 ⟨0, hn⟩) (hs7_5 ⟨0, hn⟩) (ms7_6 ⟨0, hn⟩) (hs7_6 ⟨0, hn⟩) scM7_0 (Memref.isWhole_whole _) ((hcond7_0 ⟨0, hn⟩).mpr (Nat.zero_mod _)) (fun h => (fun h => by (try dsimp only at h); omega) ((hcond7_1 ⟨0, hn⟩).mp h)) (iblk7 V c 0 ⟨0, hn⟩) (iblk7 V c 1 ⟨0, hn⟩) (iblk7 V c 2 ⟨0, hn⟩) (iblk7 V c 3 ⟨0, hn⟩) (iblk7 V c 4 ⟨0, hn⟩))
  | n + 1, hn =>
    if h0 : (n + 1) % 4 = 0 then
      if h1 : (n + 1) % 4 = 3 then
        False.elim (by omega)
      else
        (out7_A_5 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) (ms7_6 ⟨n + 1, hn⟩) (hs7_6 ⟨n + 1, hn⟩) scM7_0 (Memref.isWhole_whole _) ((hcond7_0 ⟨n + 1, hn⟩).mpr h0) (fun h => h1 ((hcond7_1 ⟨n + 1, hn⟩).mp h)) (iblk7 V c 0 ⟨n + 1, hn⟩) (iblk7 V c 1 ⟨n + 1, hn⟩) (iblk7 V c 2 ⟨n + 1, hn⟩) (iblk7 V c 3 ⟨n + 1, hn⟩) (iblk7 V c 4 ⟨n + 1, hn⟩), out7_A_6 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) (ms7_6 ⟨n + 1, hn⟩) (hs7_6 ⟨n + 1, hn⟩) scM7_0 (Memref.isWhole_whole _) ((hcond7_0 ⟨n + 1, hn⟩).mpr h0) (fun h => h1 ((hcond7_1 ⟨n + 1, hn⟩).mp h)) (iblk7 V c 0 ⟨n + 1, hn⟩) (iblk7 V c 1 ⟨n + 1, hn⟩) (iblk7 V c 2 ⟨n + 1, hn⟩) (iblk7 V c 3 ⟨n + 1, hn⟩) (iblk7 V c 4 ⟨n + 1, hn⟩), sout7_A_0 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) (ms7_6 ⟨n + 1, hn⟩) (hs7_6 ⟨n + 1, hn⟩) scM7_0 (Memref.isWhole_whole _) ((hcond7_0 ⟨n + 1, hn⟩).mpr h0) (fun h => h1 ((hcond7_1 ⟨n + 1, hn⟩).mp h)) (iblk7 V c 0 ⟨n + 1, hn⟩) (iblk7 V c 1 ⟨n + 1, hn⟩) (iblk7 V c 2 ⟨n + 1, hn⟩) (iblk7 V c 3 ⟨n + 1, hn⟩) (iblk7 V c 4 ⟨n + 1, hn⟩))
    else
      if h1 : (n + 1) % 4 = 3 then
        (out7_C_5 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) (ms7_6 ⟨n + 1, hn⟩) (hs7_6 ⟨n + 1, hn⟩) scM7_0 (Memref.isWhole_whole _) (fun h => h0 ((hcond7_0 ⟨n + 1, hn⟩).mp h)) ((hcond7_1 ⟨n + 1, hn⟩).mpr h1) (iblk7 V c 0 ⟨n + 1, hn⟩) (iblk7 V c 1 ⟨n + 1, hn⟩) (iblk7 V c 2 ⟨n + 1, hn⟩) (iblk7 V c 3 ⟨n + 1, hn⟩) (iblk7 V c 4 ⟨n + 1, hn⟩) (outsAt7 c n (Nat.lt_of_succ_lt hn)).2.2, out7_C_6 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) (ms7_6 ⟨n + 1, hn⟩) (hs7_6 ⟨n + 1, hn⟩) scM7_0 (Memref.isWhole_whole _) (fun h => h0 ((hcond7_0 ⟨n + 1, hn⟩).mp h)) ((hcond7_1 ⟨n + 1, hn⟩).mpr h1) (iblk7 V c 0 ⟨n + 1, hn⟩) (iblk7 V c 1 ⟨n + 1, hn⟩) (iblk7 V c 2 ⟨n + 1, hn⟩) (iblk7 V c 3 ⟨n + 1, hn⟩) (iblk7 V c 4 ⟨n + 1, hn⟩) (outsAt7 c n (Nat.lt_of_succ_lt hn)).2.2, sout7_C_0 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) (ms7_6 ⟨n + 1, hn⟩) (hs7_6 ⟨n + 1, hn⟩) scM7_0 (Memref.isWhole_whole _) (fun h => h0 ((hcond7_0 ⟨n + 1, hn⟩).mp h)) ((hcond7_1 ⟨n + 1, hn⟩).mpr h1) (iblk7 V c 0 ⟨n + 1, hn⟩) (iblk7 V c 1 ⟨n + 1, hn⟩) (iblk7 V c 2 ⟨n + 1, hn⟩) (iblk7 V c 3 ⟨n + 1, hn⟩) (iblk7 V c 4 ⟨n + 1, hn⟩) (outsAt7 c n (Nat.lt_of_succ_lt hn)).2.2)
      else
        (out7_B_5 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) (ms7_6 ⟨n + 1, hn⟩) (hs7_6 ⟨n + 1, hn⟩) scM7_0 (Memref.isWhole_whole _) (fun h => h0 ((hcond7_0 ⟨n + 1, hn⟩).mp h)) (fun h => h1 ((hcond7_1 ⟨n + 1, hn⟩).mp h)) (iblk7 V c 0 ⟨n + 1, hn⟩) (iblk7 V c 1 ⟨n + 1, hn⟩) (iblk7 V c 2 ⟨n + 1, hn⟩) (iblk7 V c 3 ⟨n + 1, hn⟩) (iblk7 V c 4 ⟨n + 1, hn⟩) (outsAt7 c n (Nat.lt_of_succ_lt hn)).2.2, out7_B_6 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) (ms7_6 ⟨n + 1, hn⟩) (hs7_6 ⟨n + 1, hn⟩) scM7_0 (Memref.isWhole_whole _) (fun h => h0 ((hcond7_0 ⟨n + 1, hn⟩).mp h)) (fun h => h1 ((hcond7_1 ⟨n + 1, hn⟩).mp h)) (iblk7 V c 0 ⟨n + 1, hn⟩) (iblk7 V c 1 ⟨n + 1, hn⟩) (iblk7 V c 2 ⟨n + 1, hn⟩) (iblk7 V c 3 ⟨n + 1, hn⟩) (iblk7 V c 4 ⟨n + 1, hn⟩) (outsAt7 c n (Nat.lt_of_succ_lt hn)).2.2, sout7_B_0 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) (ms7_6 ⟨n + 1, hn⟩) (hs7_6 ⟨n + 1, hn⟩) scM7_0 (Memref.isWhole_whole _) (fun h => h0 ((hcond7_0 ⟨n + 1, hn⟩).mp h)) (fun h => h1 ((hcond7_1 ⟨n + 1, hn⟩).mp h)) (iblk7 V c 0 ⟨n + 1, hn⟩) (iblk7 V c 1 ⟨n + 1, hn⟩) (iblk7 V c 2 ⟨n + 1, hn⟩) (iblk7 V c 3 ⟨n + 1, hn⟩) (iblk7 V c 4 ⟨n + 1, hn⟩) (outsAt7 c n (Nat.lt_of_succ_lt hn)).2.2)

theorem outsAt7_A (c : Dev nD) (t : Fin cfg7.N) (h0 : t.val % 4 = 0) (h1 : ¬t.val % 4 = 3) :
    outsAt7 V c t.val t.isLt = (out7_A_5 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) ((hcond7_0 t).mpr h0) (fun h => h1 ((hcond7_1 t).mp h)) (iblk7 V c 0 t) (iblk7 V c 1 t) (iblk7 V c 2 t) (iblk7 V c 3 t) (iblk7 V c 4 t), out7_A_6 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) ((hcond7_0 t).mpr h0) (fun h => h1 ((hcond7_1 t).mp h)) (iblk7 V c 0 t) (iblk7 V c 1 t) (iblk7 V c 2 t) (iblk7 V c 3 t) (iblk7 V c 4 t), sout7_A_0 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) ((hcond7_0 t).mpr h0) (fun h => h1 ((hcond7_1 t).mp h)) (iblk7 V c 0 t) (iblk7 V c 1 t) (iblk7 V c 2 t) (iblk7 V c 3 t) (iblk7 V c 4 t)) := by
  obtain ⟨n, hn⟩ := t
  cases n with
  | zero => exact rfl
  | succ n => exact (dif_pos h0).trans ((dif_neg h1).trans rfl)

theorem outsAt7_B (c : Dev nD) (t : Fin cfg7.N) (h0 : ¬t.val % 4 = 0) (h1 : ¬t.val % 4 = 3) :
    outsAt7 V c t.val t.isLt = (out7_B_5 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) (fun h => h0 ((hcond7_0 t).mp h)) (fun h => h1 ((hcond7_1 t).mp h)) (iblk7 V c 0 t) (iblk7 V c 1 t) (iblk7 V c 2 t) (iblk7 V c 3 t) (iblk7 V c 4 t) (outsAt7 V c (t.val - 1) (Nat.lt_of_le_of_lt (Nat.sub_le _ _) t.isLt)).2.2, out7_B_6 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) (fun h => h0 ((hcond7_0 t).mp h)) (fun h => h1 ((hcond7_1 t).mp h)) (iblk7 V c 0 t) (iblk7 V c 1 t) (iblk7 V c 2 t) (iblk7 V c 3 t) (iblk7 V c 4 t) (outsAt7 V c (t.val - 1) (Nat.lt_of_le_of_lt (Nat.sub_le _ _) t.isLt)).2.2, sout7_B_0 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) (fun h => h0 ((hcond7_0 t).mp h)) (fun h => h1 ((hcond7_1 t).mp h)) (iblk7 V c 0 t) (iblk7 V c 1 t) (iblk7 V c 2 t) (iblk7 V c 3 t) (iblk7 V c 4 t) (outsAt7 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt7_C (c : Dev nD) (t : Fin cfg7.N) (h0 : ¬t.val % 4 = 0) (h1 : t.val % 4 = 3) :
    outsAt7 V c t.val t.isLt = (out7_C_5 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) (fun h => h0 ((hcond7_0 t).mp h)) ((hcond7_1 t).mpr h1) (iblk7 V c 0 t) (iblk7 V c 1 t) (iblk7 V c 2 t) (iblk7 V c 3 t) (iblk7 V c 4 t) (outsAt7 V c (t.val - 1) (Nat.lt_of_le_of_lt (Nat.sub_le _ _) t.isLt)).2.2, out7_C_6 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) (fun h => h0 ((hcond7_0 t).mp h)) ((hcond7_1 t).mpr h1) (iblk7 V c 0 t) (iblk7 V c 1 t) (iblk7 V c 2 t) (iblk7 V c 3 t) (iblk7 V c 4 t) (outsAt7 V c (t.val - 1) (Nat.lt_of_le_of_lt (Nat.sub_le _ _) t.isLt)).2.2, sout7_C_0 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) (fun h => h0 ((hcond7_0 t).mp h)) ((hcond7_1 t).mpr h1) (iblk7 V c 0 t) (iblk7 V c 1 t) (iblk7 V c 2 t) (iblk7 V c 3 t) (iblk7 V c 4 t) (outsAt7 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before the first point: what the launch hands the call. Before any later point: the accumulator at what the
    point before left in it, every other scoped buffer unopened, the generator register at some state. -/
def PhiS7 (c : Dev nD) : (n : ℕ) → n ≤ cfg7.N → sProp 𝕄
  | 0, _ => Pipeline.ΦA spec7 c
  | n + 1, hn => iprop(iprop(iprop(owns (c : Thread nD τ) scM7_0 fullShare ((outsAt7 V c n hn).2.2))
      ∗ Pipeline.scopedRestBut (Ix := Unit) (Name := ℕ) (U := UR sig nD τ) (Lvl := ℕ) (Val := Elt F) spec7 c [cc7_scratch0]) ∗ (∃ r, prngReg c r))

theorem PhiS7_zero (c : Dev nD) (n : ℕ) (h : n ≤ cfg7.N) (hz : n = 0) : PhiS7 V c n h = Pipeline.ΦA spec7 c := by
  subst hz; rfl

theorem PhiS7_succ (c : Dev nD) (n : ℕ) (hn : n < cfg7.N) :
    PhiS7 V c (n + 1) hn = iprop(iprop(iprop(owns (c : Thread nD τ) scM7_0 fullShare ((outsAt7 V c n hn).2.2))
      ∗ Pipeline.scopedRestBut (Ix := Unit) (Name := ℕ) (U := UR sig nD τ) (Lvl := ℕ) (Val := Elt F) spec7 c [cc7_scratch0]) ∗ (∃ r, prngReg c r)) := rfl

theorem PhiS7_pos (c : Dev nD) (n : ℕ) (h : n ≤ cfg7.N) (hz : n ≠ 0) :
    PhiS7 V c n h = iprop(iprop(iprop(owns (c : Thread nD τ) scM7_0 fullShare ((outsAt7 V c (n - 1) (by omega)).2.2))
      ∗ Pipeline.scopedRestBut (Ix := Unit) (Name := ℕ) (U := UR sig nD τ) (Lvl := ℕ) (Val := Elt F) spec7 c [cc7_scratch0]) ∗ (∃ r, prngReg c r)) := by
  cases n with
  | zero => exact absurd rfl hz
  | succ n => rfl

/-! ## The proof data -/

/-- The proof data of the call on core `c`: the arrays as the call finds them; after the body at point `t` each
    input's buffer at its block and the outputs' at `outsAt7`; the invariant `PhiS7`; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => (outsAt7 V c t.val t.isLt).1
    | ⟨6, _⟩ => (outsAt7 V c t.val t.isLt).2.1
  Φ t := PhiS7 V c t.val (Nat.le_of_lt_succ t.isLt)
  q _ := fullShare
  owed _ := 0

theorem A_eq7 (c : Dev nD) (w : Fin cfg7.W) : (dat7 V c).A w = V c (Pipeline.arrRef spec7 w) := by
  dsimp only [dat7]

theorem PhiS7_castSucc (c : Dev nD) (t : Fin cfg7.N) :
    (dat7 V c).Φ t.castSucc = PhiS7 V c t.val (Nat.le_of_lt t.isLt) := by
  dsimp only [dat7]; simp only [Fin.coe_castSucc]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = (outsAt7 V c t.val t.isLt).1 := by dsimp only [dat7]
theorem after7_6 (c : Dev nD) (t : Fin cfg7.N) : (dat7 V c).after 6 t = (outsAt7 V c t.val t.isLt).2.1 := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d

theorem liveAt7_0 : ∀ t : Fin cfg7.N, cfg7.idle 0 (grid7.coords t) = false := fun _ => rfl
theorem liveAt7_1 : ∀ t : Fin cfg7.N, cfg7.idle 1 (grid7.coords t) = false := fun _ => rfl
theorem liveAt7_2 : ∀ t : Fin cfg7.N, cfg7.idle 2 (grid7.coords t) = false := fun _ => rfl
theorem liveAt7_3 : ∀ t : Fin cfg7.N, cfg7.idle 3 (grid7.coords t) = false := fun _ => rfl
theorem liveAt7_4 : ∀ t : Fin cfg7.N, cfg7.idle 4 (grid7.coords t) = false := fun _ => rfl

/-! ## The body obligation -/

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (ms7_0 t) fullShare ((dat7 V c).before 0 t d))
    ∗ (∃ d, owns (c : Thread nD τ) (ms7_1 t) fullShare ((dat7 V c).before 1 t d))
    ∗ (∃ d, owns (c : Thread nD τ) (ms7_2 t) fullShare ((dat7 V c).before 2 t d))
    ∗ (∃ d, owns (c : Thread nD τ) (ms7_3 t) fullShare ((dat7 V c).before 3 t d))
    ∗ (∃ d, owns (c : Thread nD τ) (ms7_4 t) fullShare ((dat7 V c).before 4 t d))
    ∗ (∃ d, owns (c : Thread nD τ) (ms7_5 t) fullShare ((dat7 V c).before 5 t d))
    ∗ (∃ d, owns (c : Thread nD τ) (ms7_6 t) fullShare ((dat7 V c).before 6 t d)))

/-- and what it returns. -/
def bodyPost7 (c : Dev nD) (t : Fin cfg7.N) : sProp 𝕄 :=
  iprop((dat7 V c).Φ t.succ ∗ (dat7 V c).owesAt () t.succ
    ∗ (dat7 V c).leavesExact 0 t
    ∗ (dat7 V c).leavesExact 1 t
    ∗ (dat7 V c).leavesExact 2 t
    ∗ (dat7 V c).leavesExact 3 t
    ∗ (dat7 V c).leavesExact 4 t
    ∗ (dat7 V c).leavesExact 5 t
    ∗ (dat7 V c).leavesExact 6 t)

set_option maxHeartbeats 4800000 in
/-- The body at a point of case A that is the first of the grid (the accumulator is found at anything). -/
theorem sound_body7_A0 (c : Dev nD) (t : Fin cfg7.N) (h0 : t.val % 4 = 0) (h1 : ¬t.val % 4 = 3) (hz : t.val = 0) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4]
  rw [show (dat7 V c).owesAt () t.succ = (dat7 V c).owesAt () t.castSucc from rfl]
  rw [show (dat7 V c).Φ t.succ = PhiS7 V c (t.val + 1) t.isLt from rfl, PhiS7_succ]
  rw [show (dat7 V c).leavesExact 0 t = owns (c : Thread nD τ) (ms7_0 t) fullShare ((dat7 V c).after 0 t) from by
    unfold Dat.leavesExact; rw [liveAt7_0 t], after7_0]
  rw [show (dat7 V c).leavesExact 1 t = owns (c : Thread nD τ) (ms7_1 t) fullShare ((dat7 V c).after 1 t) from by
    unfold Dat.leavesExact; rw [liveAt7_1 t], after7_1]
  rw [show (dat7 V c).leavesExact 2 t = owns (c : Thread nD τ) (ms7_2 t) fullShare ((dat7 V c).after 2 t) from by
    unfold Dat.leavesExact; rw [liveAt7_2 t], after7_2]
  rw [show (dat7 V c).leavesExact 3 t = owns (c : Thread nD τ) (ms7_3 t) fullShare ((dat7 V c).after 3 t) from by
    unfold Dat.leavesExact; rw [liveAt7_3 t], after7_3]
  rw [show (dat7 V c).leavesExact 4 t = owns (c : Thread nD τ) (ms7_4 t) fullShare ((dat7 V c).after 4 t) from by
    unfold Dat.leavesExact; rw [liveAt7_4 t], after7_4]
  rw [Dat.leavesExact_idle (dat7 V c) 5 t (idleAt7_5_A t ((hcond7_0 t).mpr h0) (fun h => h1 ((hcond7_1 t).mp h))) (noFlush7_5_A t ((hcond7_0 t).mpr h0) (fun h => h1 ((hcond7_1 t).mp h)))]
  rw [Dat.leavesExact_idle (dat7 V c) 6 t (idleAt7_6_A t ((hcond7_0 t).mpr h0) (fun h => h1 ((hcond7_1 t).mp h))) (noFlush7_6_A t ((hcond7_0 t).mpr h0) (fun h => h1 ((hcond7_1 t).mp h)))]
  rw [outsAt7_A V c t h0 h1]
  unfold sout7_A_0; (try dsimp only)
  rw [PhiS7_castSucc V c t, PhiS7_zero V c _ _ hz, PhiA7_eq]
  iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩⟩
  iapply ((kernelRun7_A c (grid7.coords t) _ _ _ _ _ _ _ _ _ _ _ _ _ _ _ _ ((hcond7_0 t).mpr h0) (fun h => h1 ((hcond7_1 t).mp h)) (iblk7 V c 0 t) (iblk7 V c 1 t) (iblk7 V c 2 t) (iblk7 V c 3 t) (iblk7 V c 4 t)).2.2.2 _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  iintro ⟨H0, H1, H2, H3, H4, H5, H6, ⟨%es0, HS0⟩⟩
  isplitl [HS0 Hr Hg]
  · isplitl [HS0 Hr]
    · isplitl [HS0]
      · unfold owns; iexists _; isplitr
        swap; · iexact HS0
        ipureintro; exact View.read_writes_of_cover _ _ _ _ _ (scover7_A_0 c _ _ _ _ _ _ _ _ _ _ _ _ _ _ _ _ _ _ _ _ _ _ _ _)
      iexact Hr
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexists _; iexact H5
  iexists _; iexact H6

set_option maxHeartbeats 4800000 in
/-- The body at a point of case A that is not the first of the grid (the accumulator is found at what the point before left; the reset overwrites it). -/
theorem sound_body7_A (c : Dev nD) (t : Fin cfg7.N) (h0 : t.val % 4 = 0) (h1 : ¬t.val % 4 = 3) (hz : t.val ≠ 0) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4]
  rw [show (dat7 V c).owesAt () t.succ = (dat7 V c).owesAt () t.castSucc from rfl]
  rw [show (dat7 V c).Φ t.succ = PhiS7 V c (t.val + 1) t.isLt from rfl, PhiS7_succ]
  rw [show (dat7 V c).leavesExact 0 t = owns (c : Thread nD τ) (ms7_0 t) fullShare ((dat7 V c).after 0 t) from by
    unfold Dat.leavesExact; rw [liveAt7_0 t], after7_0]
  rw [show (dat7 V c).leavesExact 1 t = owns (c : Thread nD τ) (ms7_1 t) fullShare ((dat7 V c).after 1 t) from by
    unfold Dat.leavesExact; rw [liveAt7_1 t], after7_1]
  rw [show (dat7 V c).leavesExact 2 t = owns (c : Thread nD τ) (ms7_2 t) fullShare ((dat7 V c).after 2 t) from by
    unfold Dat.leavesExact; rw [liveAt7_2 t], after7_2]
  rw [show (dat7 V c).leavesExact 3 t = owns (c : Thread nD τ) (ms7_3 t) fullShare ((dat7 V c).after 3 t) from by
    unfold Dat.leavesExact; rw [liveAt7_3 t], after7_3]
  rw [show (dat7 V c).leavesExact 4 t = owns (c : Thread nD τ) (ms7_4 t) fullShare ((dat7 V c).after 4 t) from by
    unfold Dat.leavesExact; rw [liveAt7_4 t], after7_4]
  rw [Dat.leavesExact_idle (dat7 V c) 5 t (idleAt7_5_A t ((hcond7_0 t).mpr h0) (fun h => h1 ((hcond7_1 t).mp h))) (noFlush7_5_A t ((hcond7_0 t).mpr h0) (fun h => h1 ((hcond7_1 t).mp h)))]
  rw [Dat.leavesExact_idle (dat7 V c) 6 t (idleAt7_6_A t ((hcond7_0 t).mpr h0) (fun h => h1 ((hcond7_1 t).mp h))) (noFlush7_6_A t ((hcond7_0 t).mpr h0) (fun h => h1 ((hcond7_1 t).mp h)))]
  rw [outsAt7_A V c t h0 h1]
  unfold sout7_A_0; (try dsimp only)
  rw [PhiS7_castSucc V c t, PhiS7_pos V c _ _ hz]
  iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩⟩
  iapply ((kernelRun7_A c (grid7.coords t) _ _ _ _ _ _ _ _ _ _ _ _ _ _ _ _ ((hcond7_0 t).mpr h0) (fun h => h1 ((hcond7_1 t).mp h)) (iblk7 V c 0 t) (iblk7 V c 1 t) (iblk7 V c 2 t) (iblk7 V c 3 t) (iblk7 V c 4 t)).2.2.2 _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexists _; iexact HS0
  iintro ⟨H0, H1, H2, H3, H4, H5, H6, ⟨%es0, HS0⟩⟩
  isplitl [HS0 Hr Hg]
  · isplitl [HS0 Hr]
    · isplitl [HS0]
      · unfold owns; iexists _; isplitr
        swap; · iexact HS0
        ipureintro; exact View.read_writes_of_cover _ _ _ _ _ (scover7_A_0 c _ _ _ _ _ _ _ _ _ _ _ _ _ _ _ _ _ _ _ _ _ _ _ _)
      iexact Hr
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexists _; iexact H5
  iexists _; iexact H6

set_option maxHeartbeats 4800000 in
/-- The body at a point of case B. -/
theorem sound_body7_B (c : Dev nD) (t : Fin cfg7.N) (h0 : ¬t.val % 4 = 0) (h1 : ¬t.val % 4 = 3) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4]
  rw [show (dat7 V c).owesAt () t.succ = (dat7 V c).owesAt () t.castSucc from rfl]
  rw [show (dat7 V c).Φ t.succ = PhiS7 V c (t.val + 1) t.isLt from rfl, PhiS7_succ]
  rw [show (dat7 V c).leavesExact 0 t = owns (c : Thread nD τ) (ms7_0 t) fullShare ((dat7 V c).after 0 t) from by
    unfold Dat.leavesExact; rw [liveAt7_0 t], after7_0]
  rw [show (dat7 V c).leavesExact 1 t = owns (c : Thread nD τ) (ms7_1 t) fullShare ((dat7 V c).after 1 t) from by
    unfold Dat.leavesExact; rw [liveAt7_1 t], after7_1]
  rw [show (dat7 V c).leavesExact 2 t = owns (c : Thread nD τ) (ms7_2 t) fullShare ((dat7 V c).after 2 t) from by
    unfold Dat.leavesExact; rw [liveAt7_2 t], after7_2]
  rw [show (dat7 V c).leavesExact 3 t = owns (c : Thread nD τ) (ms7_3 t) fullShare ((dat7 V c).after 3 t) from by
    unfold Dat.leavesExact; rw [liveAt7_3 t], after7_3]
  rw [show (dat7 V c).leavesExact 4 t = owns (c : Thread nD τ) (ms7_4 t) fullShare ((dat7 V c).after 4 t) from by
    unfold Dat.leavesExact; rw [liveAt7_4 t], after7_4]
  rw [Dat.leavesExact_idle (dat7 V c) 5 t (idleAt7_5_B t (fun h => h0 ((hcond7_0 t).mp h)) (fun h => h1 ((hcond7_1 t).mp h))) (noFlush7_5_B t (fun h => h0 ((hcond7_0 t).mp h)) (fun h => h1 ((hcond7_1 t).mp h)))]
  rw [Dat.leavesExact_idle (dat7 V c) 6 t (idleAt7_6_B t (fun h => h0 ((hcond7_0 t).mp h)) (fun h => h1 ((hcond7_1 t).mp h))) (noFlush7_6_B t (fun h => h0 ((hcond7_0 t).mp h)) (fun h => h1 ((hcond7_1 t).mp h)))]
  rw [outsAt7_B V c t h0 h1]
  unfold sout7_B_0; (try dsimp only)
  have hz : t.val ≠ 0 := fun e => h0 (by rw [e])
  rw [PhiS7_castSucc V c t, PhiS7_pos V c _ _ hz]
  iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩⟩
  iapply ((kernelRun7_B c (grid7.coords t) _ _ _ _ _ _ _ _ _ _ _ _ _ _ _ _ (fun h => h0 ((hcond7_0 t).mp h)) (fun h => h1 ((hcond7_1 t).mp h)) (iblk7 V c 0 t) (iblk7 V c 1 t) (iblk7 V c 2 t) (iblk7 V c 3 t) (iblk7 V c 4 t) _).2.2.2 _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  iintro ⟨H0, H1, H2, H3, H4, H5, H6, ⟨%es0, HS0⟩⟩
  isplitl [HS0 Hr Hg]
  · isplitl [HS0 Hr]
    · isplitl [HS0]
      · unfold owns; iexists _; isplitr
        swap; · iexact HS0
        ipureintro; exact View.read_writes_of_cover _ _ _ _ _ (scover7_B_0 c _ _ _ _ _ _ _ _ _ _ _ _ _ _ _ _ _ _ _ _ _ _ _ _ _)
      iexact Hr
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexists _; iexact H5
  iexists _; iexact H6

set_option maxHeartbeats 4800000 in
/-- The body at a point of case C. -/
theorem sound_body7_C (c : Dev nD) (t : Fin cfg7.N) (h0 : ¬t.val % 4 = 0) (h1 : t.val % 4 = 3) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4]
  rw [show (dat7 V c).owesAt () t.succ = (dat7 V c).owesAt () t.castSucc from rfl]
  rw [show (dat7 V c).Φ t.succ = PhiS7 V c (t.val + 1) t.isLt from rfl, PhiS7_succ]
  rw [show (dat7 V c).leavesExact 0 t = owns (c : Thread nD τ) (ms7_0 t) fullShare ((dat7 V c).after 0 t) from by
    unfold Dat.leavesExact; rw [liveAt7_0 t], after7_0]
  rw [show (dat7 V c).leavesExact 1 t = owns (c : Thread nD τ) (ms7_1 t) fullShare ((dat7 V c).after 1 t) from by
    unfold Dat.leavesExact; rw [liveAt7_1 t], after7_1]
  rw [show (dat7 V c).leavesExact 2 t = owns (c : Thread nD τ) (ms7_2 t) fullShare ((dat7 V c).after 2 t) from by
    unfold Dat.leavesExact; rw [liveAt7_2 t], after7_2]
  rw [show (dat7 V c).leavesExact 3 t = owns (c : Thread nD τ) (ms7_3 t) fullShare ((dat7 V c).after 3 t) from by
    unfold Dat.leavesExact; rw [liveAt7_3 t], after7_3]
  rw [show (dat7 V c).leavesExact 4 t = owns (c : Thread nD τ) (ms7_4 t) fullShare ((dat7 V c).after 4 t) from by
    unfold Dat.leavesExact; rw [liveAt7_4 t], after7_4]
  rw [show (dat7 V c).leavesExact 5 t = owns (c : Thread nD τ) (ms7_5 t) fullShare ((dat7 V c).after 5 t) from by
    unfold Dat.leavesExact; rw [liveAt7_5_C t (fun h => h0 ((hcond7_0 t).mp h)) ((hcond7_1 t).mpr h1)], after7_5]
  rw [show (dat7 V c).leavesExact 6 t = owns (c : Thread nD τ) (ms7_6 t) fullShare ((dat7 V c).after 6 t) from by
    unfold Dat.leavesExact; rw [liveAt7_6_C t (fun h => h0 ((hcond7_0 t).mp h)) ((hcond7_1 t).mpr h1)], after7_6]
  rw [outsAt7_C V c t h0 h1]
  unfold out7_C_5 out7_C_6 sout7_C_0; (try dsimp only)
  have hz : t.val ≠ 0 := fun e => h0 (by rw [e])
  rw [PhiS7_castSucc V c t, PhiS7_pos V c _ _ hz]
  iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩⟩
  iapply ((kernelRun7_C c (grid7.coords t) _ _ _ _ _ _ _ _ _ _ _ _ _ _ _ _ (fun h => h0 ((hcond7_0 t).mp h)) ((hcond7_1 t).mpr h1) (iblk7 V c 0 t) (iblk7 V c 1 t) (iblk7 V c 2 t) (iblk7 V c 3 t) (iblk7 V c 4 t) _).2.2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [HS0]; · iexact HS0
  iintro ⟨H0, H1, H2, H3, H4, ⟨%e5, H5⟩, ⟨%e6, H6⟩, ⟨%es0, HS0⟩⟩
  isplitl [HS0 Hr Hg]
  · isplitl [HS0 Hr]
    · isplitl [HS0]
      · unfold owns; iexists _; isplitr
        swap; · iexact HS0
        ipureintro; exact View.read_writes_of_cover _ _ _ _ _ (scover7_C_0 c _ _ _ _ _ _ _ _ _ _ _ _ _ _ _ _ _ _ _ _ _ _ _ _ _)
      iexact Hr
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_of_cover _ _ _ _ _ (cover7_C_5 c _ _ _ _ _ _ _ _ _ _ _ _ _ _ _ _ _ _ _ _ _ _ _ _ _)
  unfold owns; iexists _; isplitr
  swap; · iexact H6
  ipureintro; exact View.read_writes_of_cover _ _ _ _ _ (cover7_C_6 c _ _ _ _ _ _ _ _ _ _ _ _ _ _ _ _ _ _ _ _ _ _ _ _ _)

/-- The body at any point: the point is in exactly one of the three cases. -/
theorem sound_body7 (c : Dev nD) (t : Fin cfg7.N) :
    bodyPre7 V c t ⊢ wp frame (wpE (defs₀ (F := F)) Variants.none c none) Set.univ (bodyAt7 t) (fun _ => bodyPost7 V c t) := by
  by_cases h0 : t.val % 4 = 0
  · have h1 : ¬t.val % 4 = 3 := by omega
    by_cases hz : t.val = 0
    · exact sound_body7_A0 V c t h0 h1 hz
    · exact sound_body7_A V c t h0 h1 hz
  · by_cases h1 : t.val % 4 = 3
    · exact sound_body7_C V c t h0 h1
    · exact sound_body7_B V c t h0 h1

/-- The library's body obligation, at every point. -/
theorem body_obligation7 (c : Dev nD) : BodyObligation (dat7 (F := F) V c) (defs₀ (F := F)) Variants.none () Set.univ := fun t => by
  rw [bigSep_W7, bigSep_W7]
  exact sound_body7 V c t

/-- What the launch hands the call is the invariant before the first point. -/
theorem hin7 (c : Dev nD) : Pipeline.ΦA spec7 c ⊢ (dat7 V c).Φ 0 := by
  rw [show (dat7 V c).Φ 0 = PhiS7 V c 0 (Nat.zero_le _) from rfl, PhiS7_zero V c 0 _ rfl]
  try exact Idealize.SL.BI.Entails.refl _

/-- After any point but the first the invariant gives back what the launch handed over: the accumulator's contents
    are forgotten. -/
theorem Phi_out7 (c : Dev nD) (t : Fin (cfg7.N + 1)) (ht : t.val ≠ 0) : (dat7 V c).Φ t ⊢ Pipeline.ΦA spec7 c := by
  rw [show (dat7 V c).Φ t = PhiS7 V c t.val (Nat.le_of_lt_succ t.isLt) from rfl, PhiS7_pos V c _ _ ht, PhiA7_eq]
  iintro ⟨⟨HS0, Hr⟩, Hg⟩
  isplitl [HS0 Hr]
  · isplitl [HS0]
    · iexists _; iexact HS0
    iexact Hr
  iexact Hg

/-- The same after the last point. -/
theorem hout7 (c : Dev nD) : (dat7 V c).Φ (Fin.last cfg7.N) ⊢ Pipeline.ΦA spec7 c :=
  Phi_out7 V c _ (by rw [Fin.val_last]; have : cfg7.N = 32 := N_7; omega)

end Cert.KernelIdeal.Hand

end
-- ==== Proof.KI.Prop8Runs.lean ====
import proofs.«131271_j4982162063661_2_alg».proof.Proof.Gen.KernelIdeal.Launch
import proofs.«131271_j4982162063661_2_alg».proof.Proof.Gen.KernelIdeal.Skeleton
import proofs.«131271_j4982162063661_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The propagate call number 8: what its three control cases share

The call runs on a grid of 8 x 4 points; point `t` has row tile `i = t / 4` and column tile `k = t % 4`.
The body zeroes its accumulator when `k = 0`, adds the product of the current tile of the matrix with the
matching 2048 rows of the propagated signal at every `k`, and when `k = 3` stores the accumulator into the
two outputs. So there are three control cases: `k = 0` (reset, no output stored), `k = 1, 2` (neither),
`k = 3` (outputs stored). Everything here is stated at the buffer contents `V` the call is entered with. -/

-- the buffer contents when the call is entered
variable (V : (c : Dev nD) → (b : Ref sig .tc) → Buf (Elt F) ((c : Thread nD τ).loc b))

/-- Window `w`'s block at point `t`, read off the window's array as the call finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0's current staging buffer holds the window's block at every point, whether the pipeline fetched
    it there or not: where it was not fetched the block index has not moved since the point before. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- Input window 1's current staging buffer holds the window's block at every point, whether the pipeline fetched
    it there or not: where it was not fetched the block index has not moved since the point before. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-- Input window 2's current staging buffer holds the window's block at every point, whether the pipeline fetched
    it there or not: where it was not fetched the block index has not moved since the point before. -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

/-- Input window 3's current staging buffer holds the window's block at every point, whether the pipeline fetched
    it there or not: where it was not fetched the block index has not moved since the point before. -/
theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)

/-- Input window 4's current staging buffer holds the window's block at every point, whether the pipeline fetched
    it there or not: where it was not fetched the block index has not moved since the point before. -/
theorem before8_4_of {c : Dev nD} (dat : Dat τ (Elt F) Unit ℕ (UR sig nD τ) ℕ cfg8 c) (hA : dat.A 4 = V c (Pipeline.arrRef spec8 4))
    (hafter : ∀ t, dat.after 4 t = iblk8 V c 4 t) (t : Fin cfg8.N) (d) : dat.before 4 t d = iblk8 V c 4 t :=
  (dat.before_in_eq_fetched 4 rfl (fun _ => rfl) (fun _ _ _ => rfl) (fun t => by rw [hafter]; unfold Dat.blockOf iblk8; rw [hA]; try rfl) t d).trans
    (by unfold Dat.fetched Dat.blockOf iblk8; rw [hA]; try rfl)

/-! ## The body's two conditions, in closed form over the grid -/

/-- The condition of the first `scf.if` (the reset): the column tile is the first. -/
abbrev cond8_0 (i : grid8.Coords) : Prop := (Scalar.cmpi .ne (Scalar.extui (Scalar.cmpi .eq (BitVec.ofNat 32 (i 1).val) 0#32)) 0#32) = 1#1
theorem hcond8_0 : ∀ t : Fin cfg8.N, cond8_0 (grid8.coords t) ↔ t.val % 4 = 0 :=
  (by decide +kernel : ∀ t : Fin grid8.N, cond8_0 (grid8.coords t) ↔ t.val % 4 = 0)

/-- The condition of the second `scf.if` (the outputs' stores): the column tile is the last. -/
abbrev cond8_1 (i : grid8.Coords) : Prop := k8_cond2 i = 1#1
theorem hcond8_1 : ∀ t : Fin cfg8.N, cond8_1 (grid8.coords t) ↔ t.val % 4 = 3 :=
  (by decide +kernel : ∀ t : Fin grid8.N, cond8_1 (grid8.coords t) ↔ t.val % 4 = 3)

/-! ## Where the two outputs are idle -/

/-- At the points with k = 0 output 5 is idle: the body stores nothing into it and the pipeline does not write it back. -/
theorem idleAt8_5_A : ∀ t : Fin cfg8.N, cond8_0 (grid8.coords t) → ¬cond8_1 (grid8.coords t) → cfg8.idle 5 (grid8.coords t) = true := by decide +kernel
theorem noFlush8_5_A : ∀ t : Fin cfg8.N, cond8_0 (grid8.coords t) → ¬cond8_1 (grid8.coords t) → (cfg8.win 5).flush t = false := by decide +kernel
/-- The same at the points with k = 1 and k = 2. -/
theorem idleAt8_5_B : ∀ t : Fin cfg8.N, ¬cond8_0 (grid8.coords t) → ¬cond8_1 (grid8.coords t) → cfg8.idle 5 (grid8.coords t) = true := by decide +kernel
theorem noFlush8_5_B : ∀ t : Fin cfg8.N, ¬cond8_0 (grid8.coords t) → ¬cond8_1 (grid8.coords t) → (cfg8.win 5).flush t = false := by decide +kernel
/-- At the points with k = 3 output 5 is live: the body stores its whole block. -/
theorem liveAt8_5_C : ∀ t : Fin cfg8.N, ¬cond8_0 (grid8.coords t) → cond8_1 (grid8.coords t) → cfg8.idle 5 (grid8.coords t) = false := by decide +kernel

/-- At the points with k = 0 output 6 is idle: the body stores nothing into it and the pipeline does not write it back. -/
theorem idleAt8_6_A : ∀ t : Fin cfg8.N, cond8_0 (grid8.coords t) → ¬cond8_1 (grid8.coords t) → cfg8.idle 6 (grid8.coords t) = true := by decide +kernel
theorem noFlush8_6_A : ∀ t : Fin cfg8.N, cond8_0 (grid8.coords t) → ¬cond8_1 (grid8.coords t) → (cfg8.win 6).flush t = false := by decide +kernel
/-- The same at the points with k = 1 and k = 2. -/
theorem idleAt8_6_B : ∀ t : Fin cfg8.N, ¬cond8_0 (grid8.coords t) → ¬cond8_1 (grid8.coords t) → cfg8.idle 6 (grid8.coords t) = true := by decide +kernel
theorem noFlush8_6_B : ∀ t : Fin cfg8.N, ¬cond8_0 (grid8.coords t) → ¬cond8_1 (grid8.coords t) → (cfg8.win 6).flush t = false := by decide +kernel
/-- At the points with k = 3 output 6 is live: the body stores its whole block. -/
theorem liveAt8_6_C : ∀ t : Fin cfg8.N, ¬cond8_0 (grid8.coords t) → cond8_1 (grid8.coords t) → cfg8.idle 6 (grid8.coords t) = false := by decide +kernel

/-! ## The memrefs the body is called with -/

/-- One staging buffer of each output, through which its contents are stated (the choice does not matter). -/
abbrev VO8_5 : View sig .tc .vmem S1024x64 .bf16 := (Memref.whole cc8_stg5_0 : Memref sig .tc .vmem S1024x64 .bf16).view
abbrev VO8_6 : View sig .tc .vmem S1024x64 .f32 := (Memref.whole cc8_stg6_0 : Memref sig .tc .vmem S1024x64 .f32).view
abbrev ms8_0 (t : Fin cfg8.N) : Memref sig .tc .vmem S1024x2048 .bf16 := win8_0.stage (cfg8.slots t 0)
abbrev hs8_0 (t : Fin cfg8.N) : (ms8_0 t).IsWhole := hstage8_0 ((cfg8.slots t 0).cast nbuf8_0)
abbrev ms8_1 (t : Fin cfg8.N) : Memref sig .tc .vmem S8192x64 .bf16 := win8_1.stage (cfg8.slots t 1)
abbrev hs8_1 (t : Fin cfg8.N) : (ms8_1 t).IsWhole := hstage8_1 ((cfg8.slots t 1).cast nbuf8_1)
abbrev ms8_2 (t : Fin cfg8.N) : Memref sig .tc .vmem S1024x64 .f32 := win8_2.stage (cfg8.slots t 2)
abbrev hs8_2 (t : Fin cfg8.N) : (ms8_2 t).IsWhole := hstage8_2 ((cfg8.slots t 2).cast nbuf8_2)
abbrev ms8_3 (t : Fin cfg8.N) : Memref sig .tc .vmem S1x64 .f32 := win8_3.stage (cfg8.slots t 3)
abbrev hs8_3 (t : Fin cfg8.N) : (ms8_3 t).IsWhole := hstage8_3 ((cfg8.slots t 3).cast nbuf8_3)
abbrev ms8_4 (t : Fin cfg8.N) : Memref sig .tc .vmem S1x1 .f32 := win8_4.stage (cfg8.slots t 4)
abbrev hs8_4 (t : Fin cfg8.N) : (ms8_4 t).IsWhole := hstage8_4 ((cfg8.slots t 4).cast nbuf8_4)
abbrev ms8_5 (t : Fin cfg8.N) : Memref sig .tc .vmem S1024x64 .bf16 := win8_5.stage (cfg8.slots t 5)
abbrev hs8_5 (t : Fin cfg8.N) : (ms8_5 t).IsWhole := hstage8_5 ((cfg8.slots t 5).cast nbuf8_5)
abbrev ms8_6 (t : Fin cfg8.N) : Memref sig .tc .vmem S1024x64 .f32 := win8_6.stage (cfg8.slots t 6)
abbrev hs8_6 (t : Fin cfg8.N) : (ms8_6 t).IsWhole := hstage8_6 ((cfg8.slots t 6).cast nbuf8_6)
/-- The accumulator: a whole scoped buffer of the call's own, carried from point to point. -/
abbrev scM8_0 : Memref sig .tc .vmem S1024x64 .f32 := Memref.whole cc8_scratch0
abbrev VS8_0 : View sig .tc .vmem S1024x64 .f32 := scM8_0.view

/-- The invariant the launch hands the call, with the accumulator split out of the scoped buffers: the accumulator
    owned at some contents, every other scoped buffer unopened, the generator register at some state. -/
theorem PhiA8_eq (c : Dev nD) :
    (Pipeline.ΦA spec8 c : sProp 𝕄)
      = iprop(iprop(iprop((∃ d, owns (c : Thread nD τ) scM8_0 fullShare d))
          ∗ Pipeline.scopedRestBut (Ix := Unit) (Name := ℕ) (U := UR sig nD τ) (Lvl := ℕ) (Val := Elt F) spec8 c [cc8_scratch0]) ∗ (∃ r, prngReg c r)) := by
  unfold Pipeline.ΦA; rw [scopedRest8_split]; simp only [scM8_0, owns_whole]; try rfl

end Cert.KernelIdeal.Hand

end
-- ==== Proof.KI.Prop8RunA.lean ====
import proofs.«131271_j4982162063661_2_alg».proof.Proof.KI.Prop8Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run when the column tile is the first (the accumulator is reset, then accumulated into; no output is stored): the lists of stores each buffer ends with, together with the proof that on whole
    staging memrefs — the inputs' at their contents, the outputs' at contents handed back untouched, the accumulator
    at anything — the body runs to the continuation holding the inputs' as they were,
    the accumulator with its stores written. The lists are found by running the body. -/
noncomputable def kernelRun8_A (c : Dev nD) (i : grid8.Coords) (arg2 : Memref sig .tc .vmem S1024x2048 .bf16) (harg2 : arg2.IsWhole) (arg3 : Memref sig .tc .vmem S8192x64 .bf16) (harg3 : arg3.IsWhole) (arg4 : Memref sig .tc .vmem S1024x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S1024x64 .bf16) (harg7 : arg7.IsWhole) (arg8 : Memref sig .tc .vmem S1024x64 .f32) (harg8 : arg8.IsWhole) (arg9 : Memref sig .tc .vmem S1024x64 .f32) (harg9 : arg9.IsWhole) (hc0 : cond8_0 i) (hc1 : ¬cond8_1 i)
    (x0 : Vec F S1024x2048 .bf16) (x1 : Vec F S8192x64 .bf16) (x2 : Vec F S1024x64 .f32) (x3 : Vec F S1x64 .f32) (x4 : Vec F S1x1 .f32) :
    Σ' (L5 : List (View.Piece (Elt F) S1024x64 .bf16)) (L6 : List (View.Piece (Elt F) S1024x64 .f32)), { LS0 : List (View.Piece (Elt F) S1024x64 .f32) //
      ∀ (xi5 : Vec F S1024x64 .bf16) (xi6 : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc8__propagate_kernel i arg2 harg2 arg3 harg3 arg4 harg4 arg5 harg5 arg6 harg6 arg7 harg7 arg8 harg8 arg9 harg9) K } := by
  refine ⟨[], [], ?_, fun xi5 xi6 E K => ?run⟩
  case run =>
    simp only [cc8__propagate_kernel_eq_skeleton]; unfold cc8__propagate_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

end Cert.KernelIdeal.Hand

end
-- ==== Proof.KI.Prop8RunB.lean ====
import proofs.«131271_j4982162063661_2_alg».proof.Proof.KI.Prop8RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run when the column tile is neither the first nor the last (the accumulator is accumulated into; no output is stored): the lists of stores each buffer ends with, together with the proof that on whole
    staging memrefs — the inputs' at their contents, the outputs' at contents handed back untouched, the accumulator
    at the contents the point before left — the body runs to the continuation holding the inputs' as they were,
    the accumulator with its stores written. The lists are found by running the body. -/
noncomputable def kernelRun8_B (c : Dev nD) (i : grid8.Coords) (arg2 : Memref sig .tc .vmem S1024x2048 .bf16) (harg2 : arg2.IsWhole) (arg3 : Memref sig .tc .vmem S8192x64 .bf16) (harg3 : arg3.IsWhole) (arg4 : Memref sig .tc .vmem S1024x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S1024x64 .bf16) (harg7 : arg7.IsWhole) (arg8 : Memref sig .tc .vmem S1024x64 .f32) (harg8 : arg8.IsWhole) (arg9 : Memref sig .tc .vmem S1024x64 .f32) (harg9 : arg9.IsWhole) (hc0 : ¬cond8_0 i) (hc1 : ¬cond8_1 i)
    (x0 : Vec F S1024x2048 .bf16) (x1 : Vec F S8192x64 .bf16) (x2 : Vec F S1024x64 .f32) (x3 : Vec F S1x64 .f32) (x4 : Vec F S1x1 .f32) (xs0 : Vec F S1024x64 .f32) :
    Σ' (L5 : List (View.Piece (Elt F) S1024x64 .bf16)) (L6 : List (View.Piece (Elt F) S1024x64 .f32)), { LS0 : List (View.Piece (Elt F) S1024x64 .f32) //
      ∀ (xi5 : Vec F S1024x64 .bf16) (xi6 : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc8__propagate_kernel i arg2 harg2 arg3 harg3 arg4 harg4 arg5 harg5 arg6 harg6 arg7 harg7 arg8 harg8 arg9 harg9) K } := by
  refine ⟨[], [], ?_, fun xi5 xi6 E K => ?run⟩
  case run =>
    simp only [cc8__propagate_kernel_eq_skeleton]; unfold cc8__propagate_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

end Cert.KernelIdeal.Hand

end
-- ==== Proof.KI.Prop8RunC.lean ====
import proofs.«131271_j4982162063661_2_alg».proof.Proof.KI.Prop8RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run when the column tile is the last (the accumulator is accumulated into, then stored into both outputs): the lists of stores each buffer ends with, together with the proof that on whole
    staging memrefs — the inputs' at their contents, the outputs' at anything, the accumulator
    at the contents the point before left — the body runs to the continuation holding the inputs' as they were,
    the accumulator with its stores written and each output's buffer with its stores written. The lists are found by running the body. -/
noncomputable def kernelRun8_C (c : Dev nD) (i : grid8.Coords) (arg2 : Memref sig .tc .vmem S1024x2048 .bf16) (harg2 : arg2.IsWhole) (arg3 : Memref sig .tc .vmem S8192x64 .bf16) (harg3 : arg3.IsWhole) (arg4 : Memref sig .tc .vmem S1024x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S1024x64 .bf16) (harg7 : arg7.IsWhole) (arg8 : Memref sig .tc .vmem S1024x64 .f32) (harg8 : arg8.IsWhole) (arg9 : Memref sig .tc .vmem S1024x64 .f32) (harg9 : arg9.IsWhole) (hc0 : ¬cond8_0 i) (hc1 : cond8_1 i)
    (x0 : Vec F S1024x2048 .bf16) (x1 : Vec F S8192x64 .bf16) (x2 : Vec F S1024x64 .f32) (x3 : Vec F S1x64 .f32) (x4 : Vec F S1x1 .f32) (xs0 : Vec F S1024x64 .f32) :
    Σ' (L5 : List (View.Piece (Elt F) S1024x64 .bf16)) (L6 : List (View.Piece (Elt F) S1024x64 .f32)), { LS0 : List (View.Piece (Elt F) S1024x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0)) -∗ K ⟨⟩))
          ⊢ wp frame (wpE (defs₀ (F := F)) Variants.none c none) E (cc8__propagate_kernel i arg2 harg2 arg3 harg3 arg4 harg4 arg5 harg5 arg6 harg6 arg7 harg7 arg8 harg8 arg9 harg9) K } := by
  refine ⟨?_, ?_, ?_, fun E K => ?run⟩
  case run =>
    simp only [cc8__propagate_kernel_eq_skeleton]; unfold cc8__propagate_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    iexists _; iexact HS0

end Cert.KernelIdeal.Hand

end
-- ==== Proof.KI.Prop8.lean ====
import proofs.«131271_j4982162063661_2_alg».proof.Proof.KI.Prop8RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The propagate call number 8: its proof data and body obligation at the entry contents `V`

What the two outputs' staging buffers and the accumulator hold after each point is defined by recursion on the
point (`outsAt8`): the case the point is in, run on the point's memrefs and input blocks, over what the point
before left in the accumulator. The invariant between points keeps the accumulator at exactly those contents. -/

variable (V : (c : Dev nD) → (b : Ref sig .tc) → Buf (Elt F) ((c : Thread nD τ).loc b))

/-! ## What each case leaves -/

/-- What case A leaves in output 5's staging buffer: its stores read back over arbitrary contents (there are none: the output is idle in this case and nothing consults this value). -/
def out8_A_5 (c : Dev nD) (i : grid8.Coords) (arg2 : Memref sig .tc .vmem S1024x2048 .bf16) (harg2 : arg2.IsWhole) (arg3 : Memref sig .tc .vmem S8192x64 .bf16) (harg3 : arg3.IsWhole) (arg4 : Memref sig .tc .vmem S1024x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S1024x64 .bf16) (harg7 : arg7.IsWhole) (arg8 : Memref sig .tc .vmem S1024x64 .f32) (harg8 : arg8.IsWhole) (arg9 : Memref sig .tc .vmem S1024x64 .f32) (harg9 : arg9.IsWhole) (hc0 : cond8_0 i) (hc1 : ¬cond8_1 i)
    (x0 : Vec F S1024x2048 .bf16) (x1 : Vec F S8192x64 .bf16) (x2 : Vec F S1024x64 .f32) (x3 : Vec F S1x64 .f32) (x4 : Vec F S1x1 .f32) : Vec F S1024x64 .bf16 :=
  VO8_5.read (Elt F) (VO8_5.writes (Elt F) VO8_5.junk (kernelRun8_A c i arg2 harg2 arg3 harg3 arg4 harg4 arg5 harg5 arg6 harg6 arg7 harg7 arg8 harg8 arg9 harg9 hc0 hc1 x0 x1 x2 x3 x4).1)
/-- The same for output 6. -/
def out8_A_6 (c : Dev nD) (i : grid8.Coords) (arg2 : Memref sig .tc .vmem S1024x2048 .bf16) (harg2 : arg2.IsWhole) (arg3 : Memref sig .tc .vmem S8192x64 .bf16) (harg3 : arg3.IsWhole) (arg4 : Memref sig .tc .vmem S1024x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S1024x64 .bf16) (harg7 : arg7.IsWhole) (arg8 : Memref sig .tc .vmem S1024x64 .f32) (harg8 : arg8.IsWhole) (arg9 : Memref sig .tc .vmem S1024x64 .f32) (harg9 : arg9.IsWhole) (hc0 : cond8_0 i) (hc1 : ¬cond8_1 i)
    (x0 : Vec F S1024x2048 .bf16) (x1 : Vec F S8192x64 .bf16) (x2 : Vec F S1024x64 .f32) (x3 : Vec F S1x64 .f32) (x4 : Vec F S1x1 .f32) : Vec F S1024x64 .f32 :=
  VO8_6.read (Elt F) (VO8_6.writes (Elt F) VO8_6.junk (kernelRun8_A c i arg2 harg2 arg3 harg3 arg4 harg4 arg5 harg5 arg6 harg6 arg7 harg7 arg8 harg8 arg9 harg9 hc0 hc1 x0 x1 x2 x3 x4).2.1)
/-- Case A's stores into the accumulator are of the whole buffer, so they cover it. -/
theorem scover8_A_0 (c : Dev nD) (i : grid8.Coords) (arg2 : Memref sig .tc .vmem S1024x2048 .bf16) (harg2 : arg2.IsWhole) (arg3 : Memref sig .tc .vmem S8192x64 .bf16) (harg3 : arg3.IsWhole) (arg4 : Memref sig .tc .vmem S1024x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S1024x64 .bf16) (harg7 : arg7.IsWhole) (arg8 : Memref sig .tc .vmem S1024x64 .f32) (harg8 : arg8.IsWhole) (arg9 : Memref sig .tc .vmem S1024x64 .f32) (harg9 : arg9.IsWhole) (hc0 : cond8_0 i) (hc1 : ¬cond8_1 i)
    (x0 : Vec F S1024x2048 .bf16) (x1 : Vec F S8192x64 .bf16) (x2 : Vec F S1024x64 .f32) (x3 : Vec F S1x64 .f32) (x4 : Vec F S1x1 .f32) (y : S1024x64.Idx) :
    ∃ pc ∈ (kernelRun8_A c i arg2 harg2 arg3 harg3 arg4 harg4 arg5 harg5 arg6 harg6 arg7 harg7 arg8 harg8 arg9 harg9 hc0 hc1 x0 x1 x2 x3 x4).2.2.1, y ∈ pc.1.set :=
  View.cover_of_tiledL (kernelRun8_A c i arg2 harg2 arg3 harg3 arg4 harg4 arg5 harg5 arg6 harg6 arg7 harg7 arg8 harg8 arg9 harg9 hc0 hc1 x0 x1 x2 x3 x4).2.2.1 S1024x64.size (by sl_kernel_rfl) y
/-- What case A leaves in the accumulator. -/
def sout8_A_0 (c : Dev nD) (i : grid8.Coords) (arg2 : Memref sig .tc .vmem S1024x2048 .bf16) (harg2 : arg2.IsWhole) (arg3 : Memref sig .tc .vmem S8192x64 .bf16) (harg3 : arg3.IsWhole) (arg4 : Memref sig .tc .vmem S1024x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S1024x64 .bf16) (harg7 : arg7.IsWhole) (arg8 : Memref sig .tc .vmem S1024x64 .f32) (harg8 : arg8.IsWhole) (arg9 : Memref sig .tc .vmem S1024x64 .f32) (harg9 : arg9.IsWhole) (hc0 : cond8_0 i) (hc1 : ¬cond8_1 i)
    (x0 : Vec F S1024x2048 .bf16) (x1 : Vec F S8192x64 .bf16) (x2 : Vec F S1024x64 .f32) (x3 : Vec F S1x64 .f32) (x4 : Vec F S1x1 .f32) : Vec F S1024x64 .f32 :=
  VS8_0.read (Elt F) (VS8_0.writes (Elt F) VS8_0.junk (kernelRun8_A c i arg2 harg2 arg3 harg3 arg4 harg4 arg5 harg5 arg6 harg6 arg7 harg7 arg8 harg8 arg9 harg9 hc0 hc1 x0 x1 x2 x3 x4).2.2.1)

/-- What case B leaves in output 5's staging buffer: its stores read back over arbitrary contents (there are none: the output is idle in this case and nothing consults this value). -/
def out8_B_5 (c : Dev nD) (i : grid8.Coords) (arg2 : Memref sig .tc .vmem S1024x2048 .bf16) (harg2 : arg2.IsWhole) (arg3 : Memref sig .tc .vmem S8192x64 .bf16) (harg3 : arg3.IsWhole) (arg4 : Memref sig .tc .vmem S1024x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S1024x64 .bf16) (harg7 : arg7.IsWhole) (arg8 : Memref sig .tc .vmem S1024x64 .f32) (harg8 : arg8.IsWhole) (arg9 : Memref sig .tc .vmem S1024x64 .f32) (harg9 : arg9.IsWhole) (hc0 : ¬cond8_0 i) (hc1 : ¬cond8_1 i)
    (x0 : Vec F S1024x2048 .bf16) (x1 : Vec F S8192x64 .bf16) (x2 : Vec F S1024x64 .f32) (x3 : Vec F S1x64 .f32) (x4 : Vec F S1x1 .f32) (xs0 : Vec F S1024x64 .f32) : Vec F S1024x64 .bf16 :=
  VO8_5.read (Elt F) (VO8_5.writes (Elt F) VO8_5.junk (kernelRun8_B c i arg2 harg2 arg3 harg3 arg4 harg4 arg5 harg5 arg6 harg6 arg7 harg7 arg8 harg8 arg9 harg9 hc0 hc1 x0 x1 x2 x3 x4 xs0).1)
/-- The same for output 6. -/
def out8_B_6 (c : Dev nD) (i : grid8.Coords) (arg2 : Memref sig .tc .vmem S1024x2048 .bf16) (harg2 : arg2.IsWhole) (arg3 : Memref sig .tc .vmem S8192x64 .bf16) (harg3 : arg3.IsWhole) (arg4 : Memref sig .tc .vmem S1024x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S1024x64 .bf16) (harg7 : arg7.IsWhole) (arg8 : Memref sig .tc .vmem S1024x64 .f32) (harg8 : arg8.IsWhole) (arg9 : Memref sig .tc .vmem S1024x64 .f32) (harg9 : arg9.IsWhole) (hc0 : ¬cond8_0 i) (hc1 : ¬cond8_1 i)
    (x0 : Vec F S1024x2048 .bf16) (x1 : Vec F S8192x64 .bf16) (x2 : Vec F S1024x64 .f32) (x3 : Vec F S1x64 .f32) (x4 : Vec F S1x1 .f32) (xs0 : Vec F S1024x64 .f32) : Vec F S1024x64 .f32 :=
  VO8_6.read (Elt F) (VO8_6.writes (Elt F) VO8_6.junk (kernelRun8_B c i arg2 harg2 arg3 harg3 arg4 harg4 arg5 harg5 arg6 harg6 arg7 harg7 arg8 harg8 arg9 harg9 hc0 hc1 x0 x1 x2 x3 x4 xs0).2.1)
/-- Case B's stores into the accumulator are of the whole buffer, so they cover it. -/
theorem scover8_B_0 (c : Dev nD) (i : grid8.Coords) (arg2 : Memref sig .tc .vmem S1024x2048 .bf16) (harg2 : arg2.IsWhole) (arg3 : Memref sig .tc .vmem S8192x64 .bf16) (harg3 : arg3.IsWhole) (arg4 : Memref sig .tc .vmem S1024x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S1024x64 .bf16) (harg7 : arg7.IsWhole) (arg8 : Memref sig .tc .vmem S1024x64 .f32) (harg8 : arg8.IsWhole) (arg9 : Memref sig .tc .vmem S1024x64 .f32) (harg9 : arg9.IsWhole) (hc0 : ¬cond8_0 i) (hc1 : ¬cond8_1 i)
    (x0 : Vec F S1024x2048 .bf16) (x1 : Vec F S8192x64 .bf16) (x2 : Vec F S1024x64 .f32) (x3 : Vec F S1x64 .f32) (x4 : Vec F S1x1 .f32) (xs0 : Vec F S1024x64 .f32) (y : S1024x64.Idx) :
    ∃ pc ∈ (kernelRun8_B c i arg2 harg2 arg3 harg3 arg4 harg4 arg5 harg5 arg6 harg6 arg7 harg7 arg8 harg8 arg9 harg9 hc0 hc1 x0 x1 x2 x3 x4 xs0).2.2.1, y ∈ pc.1.set :=
  View.cover_of_tiledL (kernelRun8_B c i arg2 harg2 arg3 harg3 arg4 harg4 arg5 harg5 arg6 harg6 arg7 harg7 arg8 harg8 arg9 harg9 hc0 hc1 x0 x1 x2 x3 x4 xs0).2.2.1 S1024x64.size (by sl_kernel_rfl) y
/-- What case B leaves in the accumulator. -/
def sout8_B_0 (c : Dev nD) (i : grid8.Coords) (arg2 : Memref sig .tc .vmem S1024x2048 .bf16) (harg2 : arg2.IsWhole) (arg3 : Memref sig .tc .vmem S8192x64 .bf16) (harg3 : arg3.IsWhole) (arg4 : Memref sig .tc .vmem S1024x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S1024x64 .bf16) (harg7 : arg7.IsWhole) (arg8 : Memref sig .tc .vmem S1024x64 .f32) (harg8 : arg8.IsWhole) (arg9 : Memref sig .tc .vmem S1024x64 .f32) (harg9 : arg9.IsWhole) (hc0 : ¬cond8_0 i) (hc1 : ¬cond8_1 i)
    (x0 : Vec F S1024x2048 .bf16) (x1 : Vec F S8192x64 .bf16) (x2 : Vec F S1024x64 .f32) (x3 : Vec F S1x64 .f32) (x4 : Vec F S1x1 .f32) (xs0 : Vec F S1024x64 .f32) : Vec F S1024x64 .f32 :=
  VS8_0.read (Elt F) (VS8_0.writes (Elt F) VS8_0.junk (kernelRun8_B c i arg2 harg2 arg3 harg3 arg4 harg4 arg5 harg5 arg6 harg6 arg7 harg7 arg8 harg8 arg9 harg9 hc0 hc1 x0 x1 x2 x3 x4 xs0).2.2.1)

/-- What case C leaves in output 5's staging buffer: its stores read back over arbitrary contents. -/
def out8_C_5 (c : Dev nD) (i : grid8.Coords) (arg2 : Memref sig .tc .vmem S1024x2048 .bf16) (harg2 : arg2.IsWhole) (arg3 : Memref sig .tc .vmem S8192x64 .bf16) (harg3 : arg3.IsWhole) (arg4 : Memref sig .tc .vmem S1024x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S1024x64 .bf16) (harg7 : arg7.IsWhole) (arg8 : Memref sig .tc .vmem S1024x64 .f32) (harg8 : arg8.IsWhole) (arg9 : Memref sig .tc .vmem S1024x64 .f32) (harg9 : arg9.IsWhole) (hc0 : ¬cond8_0 i) (hc1 : cond8_1 i)
    (x0 : Vec F S1024x2048 .bf16) (x1 : Vec F S8192x64 .bf16) (x2 : Vec F S1024x64 .f32) (x3 : Vec F S1x64 .f32) (x4 : Vec F S1x1 .f32) (xs0 : Vec F S1024x64 .f32) : Vec F S1024x64 .bf16 :=
  VO8_5.read (Elt F) (VO8_5.writes (Elt F) VO8_5.junk (kernelRun8_C c i arg2 harg2 arg3 harg3 arg4 harg4 arg5 harg5 arg6 harg6 arg7 harg7 arg8 harg8 arg9 harg9 hc0 hc1 x0 x1 x2 x3 x4 xs0).1)
/-- The same for output 6. -/
def out8_C_6 (c : Dev nD) (i : grid8.Coords) (arg2 : Memref sig .tc .vmem S1024x2048 .bf16) (harg2 : arg2.IsWhole) (arg3 : Memref sig .tc .vmem S8192x64 .bf16) (harg3 : arg3.IsWhole) (arg4 : Memref sig .tc .vmem S1024x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S1024x64 .bf16) (harg7 : arg7.IsWhole) (arg8 : Memref sig .tc .vmem S1024x64 .f32) (harg8 : arg8.IsWhole) (arg9 : Memref sig .tc .vmem S1024x64 .f32) (harg9 : arg9.IsWhole) (hc0 : ¬cond8_0 i) (hc1 : cond8_1 i)
    (x0 : Vec F S1024x2048 .bf16) (x1 : Vec F S8192x64 .bf16) (x2 : Vec F S1024x64 .f32) (x3 : Vec F S1x64 .f32) (x4 : Vec F S1x1 .f32) (xs0 : Vec F S1024x64 .f32) : Vec F S1024x64 .f32 :=
  VO8_6.read (Elt F) (VO8_6.writes (Elt F) VO8_6.junk (kernelRun8_C c i arg2 harg2 arg3 harg3 arg4 harg4 arg5 harg5 arg6 harg6 arg7 harg7 arg8 harg8 arg9 harg9 hc0 hc1 x0 x1 x2 x3 x4 xs0).2.1)
/-- Case C's one store into output 5 is of the whole block, so it covers it. -/
theorem cover8_C_5 (c : Dev nD) (i : grid8.Coords) (arg2 : Memref sig .tc .vmem S1024x2048 .bf16) (harg2 : arg2.IsWhole) (arg3 : Memref sig .tc .vmem S8192x64 .bf16) (harg3 : arg3.IsWhole) (arg4 : Memref sig .tc .vmem S1024x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S1024x64 .bf16) (harg7 : arg7.IsWhole) (arg8 : Memref sig .tc .vmem S1024x64 .f32) (harg8 : arg8.IsWhole) (arg9 : Memref sig .tc .vmem S1024x64 .f32) (harg9 : arg9.IsWhole) (hc0 : ¬cond8_0 i) (hc1 : cond8_1 i)
    (x0 : Vec F S1024x2048 .bf16) (x1 : Vec F S8192x64 .bf16) (x2 : Vec F S1024x64 .f32) (x3 : Vec F S1x64 .f32) (x4 : Vec F S1x1 .f32) (xs0 : Vec F S1024x64 .f32) (y : S1024x64.Idx) :
    ∃ pc ∈ (kernelRun8_C c i arg2 harg2 arg3 harg3 arg4 harg4 arg5 harg5 arg6 harg6 arg7 harg7 arg8 harg8 arg9 harg9 hc0 hc1 x0 x1 x2 x3 x4 xs0).1, y ∈ pc.1.set :=
  View.cover_of_tiledL (kernelRun8_C c i arg2 harg2 arg3 harg3 arg4 harg4 arg5 harg5 arg6 harg6 arg7 harg7 arg8 harg8 arg9 harg9 hc0 hc1 x0 x1 x2 x3 x4 xs0).1 S1024x64.size (by sl_kernel_rfl) y
/-- The same for output 6. -/
theorem cover8_C_6 (c : Dev nD) (i : grid8.Coords) (arg2 : Memref sig .tc .vmem S1024x2048 .bf16) (harg2 : arg2.IsWhole) (arg3 : Memref sig .tc .vmem S8192x64 .bf16) (harg3 : arg3.IsWhole) (arg4 : Memref sig .tc .vmem S1024x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S1024x64 .bf16) (harg7 : arg7.IsWhole) (arg8 : Memref sig .tc .vmem S1024x64 .f32) (harg8 : arg8.IsWhole) (arg9 : Memref sig .tc .vmem S1024x64 .f32) (harg9 : arg9.IsWhole) (hc0 : ¬cond8_0 i) (hc1 : cond8_1 i)
    (x0 : Vec F S1024x2048 .bf16) (x1 : Vec F S8192x64 .bf16) (x2 : Vec F S1024x64 .f32) (x3 : Vec F S1x64 .f32) (x4 : Vec F S1x1 .f32) (xs0 : Vec F S1024x64 .f32) (y : S1024x64.Idx) :
    ∃ pc ∈ (kernelRun8_C c i arg2 harg2 arg3 harg3 arg4 harg4 arg5 harg5 arg6 harg6 arg7 harg7 arg8 harg8 arg9 harg9 hc0 hc1 x0 x1 x2 x3 x4 xs0).2.1, y ∈ pc.1.set :=
  View.cover_of_tiledL (kernelRun8_C c i arg2 harg2 arg3 harg3 arg4 harg4 arg5 harg5 arg6 harg6 arg7 harg7 arg8 harg8 arg9 harg9 hc0 hc1 x0 x1 x2 x3 x4 xs0).2.1 S1024x64.size (by sl_kernel_rfl) y
/-- Case C's stores into the accumulator are of the whole buffer, so they cover it. -/
theorem scover8_C_0 (c : Dev nD) (i : grid8.Coords) (arg2 : Memref sig .tc .vmem S1024x2048 .bf16) (harg2 : arg2.IsWhole) (arg3 : Memref sig .tc .vmem S8192x64 .bf16) (harg3 : arg3.IsWhole) (arg4 : Memref sig .tc .vmem S1024x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S1024x64 .bf16) (harg7 : arg7.IsWhole) (arg8 : Memref sig .tc .vmem S1024x64 .f32) (harg8 : arg8.IsWhole) (arg9 : Memref sig .tc .vmem S1024x64 .f32) (harg9 : arg9.IsWhole) (hc0 : ¬cond8_0 i) (hc1 : cond8_1 i)
    (x0 : Vec F S1024x2048 .bf16) (x1 : Vec F S8192x64 .bf16) (x2 : Vec F S1024x64 .f32) (x3 : Vec F S1x64 .f32) (x4 : Vec F S1x1 .f32) (xs0 : Vec F S1024x64 .f32) (y : S1024x64.Idx) :
    ∃ pc ∈ (kernelRun8_C c i arg2 harg2 arg3 harg3 arg4 harg4 arg5 harg5 arg6 harg6 arg7 harg7 arg8 harg8 arg9 harg9 hc0 hc1 x0 x1 x2 x3 x4 xs0).2.2.1, y ∈ pc.1.set :=
  View.cover_of_tiledL (kernelRun8_C c i arg2 harg2 arg3 harg3 arg4 harg4 arg5 harg5 arg6 harg6 arg7 harg7 arg8 harg8 arg9 harg9 hc0 hc1 x0 x1 x2 x3 x4 xs0).2.2.1 S1024x64.size (by sl_kernel_rfl) y
/-- What case C leaves in the accumulator. -/
def sout8_C_0 (c : Dev nD) (i : grid8.Coords) (arg2 : Memref sig .tc .vmem S1024x2048 .bf16) (harg2 : arg2.IsWhole) (arg3 : Memref sig .tc .vmem S8192x64 .bf16) (harg3 : arg3.IsWhole) (arg4 : Memref sig .tc .vmem S1024x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S1024x64 .bf16) (harg7 : arg7.IsWhole) (arg8 : Memref sig .tc .vmem S1024x64 .f32) (harg8 : arg8.IsWhole) (arg9 : Memref sig .tc .vmem S1024x64 .f32) (harg9 : arg9.IsWhole) (hc0 : ¬cond8_0 i) (hc1 : cond8_1 i)
    (x0 : Vec F S1024x2048 .bf16) (x1 : Vec F S8192x64 .bf16) (x2 : Vec F S1024x64 .f32) (x3 : Vec F S1x64 .f32) (x4 : Vec F S1x1 .f32) (xs0 : Vec F S1024x64 .f32) : Vec F S1024x64 .f32 :=
  VS8_0.read (Elt F) (VS8_0.writes (Elt F) VS8_0.junk (kernelRun8_C c i arg2 harg2 arg3 harg3 arg4 harg4 arg5 harg5 arg6 harg6 arg7 harg7 arg8 harg8 arg9 harg9 hc0 hc1 x0 x1 x2 x3 x4 xs0).2.2.1)

/-! ## What the outputs and the accumulator hold after each point -/

/-- After the body at position `n`: output 5's buffer, output 6's buffer, the accumulator. -/
def outsAt8 (c : Dev nD) : (n : ℕ) → n < cfg8.N → Vec F S1024x64 .bf16 × Vec F S1024x64 .f32 × Vec F S1024x64 .f32
  | 0, hn => (out8_A_5 c (grid8.coords ⟨0, hn⟩) (ms8_0 ⟨0, hn⟩) (hs8_0 ⟨0, hn⟩) (ms8_1 ⟨0, hn⟩) (hs8_1 ⟨0, hn⟩) (ms8_2 ⟨0, hn⟩) (hs8_2 ⟨0, hn⟩) (ms8_3 ⟨0, hn⟩) (hs8_3 ⟨0, hn⟩) (ms8_4 ⟨0, hn⟩) (hs8_4 ⟨0, hn⟩) (ms8_5 ⟨0, hn⟩) (hs8_5 ⟨0, hn⟩) (ms8_6 ⟨0, hn⟩) (hs8_6 ⟨0, hn⟩) scM8_0 (Memref.isWhole_whole _) ((hcond8_0 ⟨0, hn⟩).mpr (Nat.zero_mod _)) (fun h => (fun h => by (try dsimp only at h); omega) ((hcond8_1 ⟨0, hn⟩).mp h)) (iblk8 V c 0 ⟨0, hn⟩) (iblk8 V c 1 ⟨0, hn⟩) (iblk8 V c 2 ⟨0, hn⟩) (iblk8 V c 3 ⟨0, hn⟩) (iblk8 V c 4 ⟨0, hn⟩), out8_A_6 c (grid8.coords ⟨0, hn⟩) (ms8_0 ⟨0, hn⟩) (hs8_0 ⟨0, hn⟩) (ms8_1 ⟨0, hn⟩) (hs8_1 ⟨0, hn⟩) (ms8_2 ⟨0, hn⟩) (hs8_2 ⟨0, hn⟩) (ms8_3 ⟨0, hn⟩) (hs8_3 ⟨0, hn⟩) (ms8_4 ⟨0, hn⟩) (hs8_4 ⟨0, hn⟩) (ms8_5 ⟨0, hn⟩) (hs8_5 ⟨0, hn⟩) (ms8_6 ⟨0, hn⟩) (hs8_6 ⟨0, hn⟩) scM8_0 (Memref.isWhole_whole _) ((hcond8_0 ⟨0, hn⟩).mpr (Nat.zero_mod _)) (fun h => (fun h => by (try dsimp only at h); omega) ((hcond8_1 ⟨0, hn⟩).mp h)) (iblk8 V c 0 ⟨0, hn⟩) (iblk8 V c 1 ⟨0, hn⟩) (iblk8 V c 2 ⟨0, hn⟩) (iblk8 V c 3 ⟨0, hn⟩) (iblk8 V c 4 ⟨0, hn⟩), sout8_A_0 c (grid8.coords ⟨0, hn⟩) (ms8_0 ⟨0, hn⟩) (hs8_0 ⟨0, hn⟩) (ms8_1 ⟨0, hn⟩) (hs8_1 ⟨0, hn⟩) (ms8_2 ⟨0, hn⟩) (hs8_2 ⟨0, hn⟩) (ms8_3 ⟨0, hn⟩) (hs8_3 ⟨0, hn⟩) (ms8_4 ⟨0, hn⟩) (hs8_4 ⟨0, hn⟩) (ms8_5 ⟨0, hn⟩) (hs8_5 ⟨0, hn⟩) (ms8_6 ⟨0, hn⟩) (hs8_6 ⟨0, hn⟩) scM8_0 (Memref.isWhole_whole _) ((hcond8_0 ⟨0, hn⟩).mpr (Nat.zero_mod _)) (fun h => (fun h => by (try dsimp only at h); omega) ((hcond8_1 ⟨0, hn⟩).mp h)) (iblk8 V c 0 ⟨0, hn⟩) (iblk8 V c 1 ⟨0, hn⟩) (iblk8 V c 2 ⟨0, hn⟩) (iblk8 V c 3 ⟨0, hn⟩) (iblk8 V c 4 ⟨0, hn⟩))
  | n + 1, hn =>
    if h0 : (n + 1) % 4 = 0 then
      if h1 : (n + 1) % 4 = 3 then
        False.elim (by omega)
      else
        (out8_A_5 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) (ms8_3 ⟨n + 1, hn⟩) (hs8_3 ⟨n + 1, hn⟩) (ms8_4 ⟨n + 1, hn⟩) (hs8_4 ⟨n + 1, hn⟩) (ms8_5 ⟨n + 1, hn⟩) (hs8_5 ⟨n + 1, hn⟩) (ms8_6 ⟨n + 1, hn⟩) (hs8_6 ⟨n + 1, hn⟩) scM8_0 (Memref.isWhole_whole _) ((hcond8_0 ⟨n + 1, hn⟩).mpr h0) (fun h => h1 ((hcond8_1 ⟨n + 1, hn⟩).mp h)) (iblk8 V c 0 ⟨n + 1, hn⟩) (iblk8 V c 1 ⟨n + 1, hn⟩) (iblk8 V c 2 ⟨n + 1, hn⟩) (iblk8 V c 3 ⟨n + 1, hn⟩) (iblk8 V c 4 ⟨n + 1, hn⟩), out8_A_6 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) (ms8_3 ⟨n + 1, hn⟩) (hs8_3 ⟨n + 1, hn⟩) (ms8_4 ⟨n + 1, hn⟩) (hs8_4 ⟨n + 1, hn⟩) (ms8_5 ⟨n + 1, hn⟩) (hs8_5 ⟨n + 1, hn⟩) (ms8_6 ⟨n + 1, hn⟩) (hs8_6 ⟨n + 1, hn⟩) scM8_0 (Memref.isWhole_whole _) ((hcond8_0 ⟨n + 1, hn⟩).mpr h0) (fun h => h1 ((hcond8_1 ⟨n + 1, hn⟩).mp h)) (iblk8 V c 0 ⟨n + 1, hn⟩) (iblk8 V c 1 ⟨n + 1, hn⟩) (iblk8 V c 2 ⟨n + 1, hn⟩) (iblk8 V c 3 ⟨n + 1, hn⟩) (iblk8 V c 4 ⟨n + 1, hn⟩), sout8_A_0 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) (ms8_3 ⟨n + 1, hn⟩) (hs8_3 ⟨n + 1, hn⟩) (ms8_4 ⟨n + 1, hn⟩) (hs8_4 ⟨n + 1, hn⟩) (ms8_5 ⟨n + 1, hn⟩) (hs8_5 ⟨n + 1, hn⟩) (ms8_6 ⟨n + 1, hn⟩) (hs8_6 ⟨n + 1, hn⟩) scM8_0 (Memref.isWhole_whole _) ((hcond8_0 ⟨n + 1, hn⟩).mpr h0) (fun h => h1 ((hcond8_1 ⟨n + 1, hn⟩).mp h)) (iblk8 V c 0 ⟨n + 1, hn⟩) (iblk8 V c 1 ⟨n + 1, hn⟩) (iblk8 V c 2 ⟨n + 1, hn⟩) (iblk8 V c 3 ⟨n + 1, hn⟩) (iblk8 V c 4 ⟨n + 1, hn⟩))
    else
      if h1 : (n + 1) % 4 = 3 then
        (out8_C_5 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) (ms8_3 ⟨n + 1, hn⟩) (hs8_3 ⟨n + 1, hn⟩) (ms8_4 ⟨n + 1, hn⟩) (hs8_4 ⟨n + 1, hn⟩) (ms8_5 ⟨n + 1, hn⟩) (hs8_5 ⟨n + 1, hn⟩) (ms8_6 ⟨n + 1, hn⟩) (hs8_6 ⟨n + 1, hn⟩) scM8_0 (Memref.isWhole_whole _) (fun h => h0 ((hcond8_0 ⟨n + 1, hn⟩).mp h)) ((hcond8_1 ⟨n + 1, hn⟩).mpr h1) (iblk8 V c 0 ⟨n + 1, hn⟩) (iblk8 V c 1 ⟨n + 1, hn⟩) (iblk8 V c 2 ⟨n + 1, hn⟩) (iblk8 V c 3 ⟨n + 1, hn⟩) (iblk8 V c 4 ⟨n + 1, hn⟩) (outsAt8 c n (Nat.lt_of_succ_lt hn)).2.2, out8_C_6 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) (ms8_3 ⟨n + 1, hn⟩) (hs8_3 ⟨n + 1, hn⟩) (ms8_4 ⟨n + 1, hn⟩) (hs8_4 ⟨n + 1, hn⟩) (ms8_5 ⟨n + 1, hn⟩) (hs8_5 ⟨n + 1, hn⟩) (ms8_6 ⟨n + 1, hn⟩) (hs8_6 ⟨n + 1, hn⟩) scM8_0 (Memref.isWhole_whole _) (fun h => h0 ((hcond8_0 ⟨n + 1, hn⟩).mp h)) ((hcond8_1 ⟨n + 1, hn⟩).mpr h1) (iblk8 V c 0 ⟨n + 1, hn⟩) (iblk8 V c 1 ⟨n + 1, hn⟩) (iblk8 V c 2 ⟨n + 1, hn⟩) (iblk8 V c 3 ⟨n + 1, hn⟩) (iblk8 V c 4 ⟨n + 1, hn⟩) (outsAt8 c n (Nat.lt_of_succ_lt hn)).2.2, sout8_C_0 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) (ms8_3 ⟨n + 1, hn⟩) (hs8_3 ⟨n + 1, hn⟩) (ms8_4 ⟨n + 1, hn⟩) (hs8_4 ⟨n + 1, hn⟩) (ms8_5 ⟨n + 1, hn⟩) (hs8_5 ⟨n + 1, hn⟩) (ms8_6 ⟨n + 1, hn⟩) (hs8_6 ⟨n + 1, hn⟩) scM8_0 (Memref.isWhole_whole _) (fun h => h0 ((hcond8_0 ⟨n + 1, hn⟩).mp h)) ((hcond8_1 ⟨n + 1, hn⟩).mpr h1) (iblk8 V c 0 ⟨n + 1, hn⟩) (iblk8 V c 1 ⟨n + 1, hn⟩) (iblk8 V c 2 ⟨n + 1, hn⟩) (iblk8 V c 3 ⟨n + 1, hn⟩) (iblk8 V c 4 ⟨n + 1, hn⟩) (outsAt8 c n (Nat.lt_of_succ_lt hn)).2.2)
      else
        (out8_B_5 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) (ms8_3 ⟨n + 1, hn⟩) (hs8_3 ⟨n + 1, hn⟩) (ms8_4 ⟨n + 1, hn⟩) (hs8_4 ⟨n + 1, hn⟩) (ms8_5 ⟨n + 1, hn⟩) (hs8_5 ⟨n + 1, hn⟩) (ms8_6 ⟨n + 1, hn⟩) (hs8_6 ⟨n + 1, hn⟩) scM8_0 (Memref.isWhole_whole _) (fun h => h0 ((hcond8_0 ⟨n + 1, hn⟩).mp h)) (fun h => h1 ((hcond8_1 ⟨n + 1, hn⟩).mp h)) (iblk8 V c 0 ⟨n + 1, hn⟩) (iblk8 V c 1 ⟨n + 1, hn⟩) (iblk8 V c 2 ⟨n + 1, hn⟩) (iblk8 V c 3 ⟨n + 1, hn⟩) (iblk8 V c 4 ⟨n + 1, hn⟩) (outsAt8 c n (Nat.lt_of_succ_lt hn)).2.2, out8_B_6 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) (ms8_3 ⟨n + 1, hn⟩) (hs8_3 ⟨n + 1, hn⟩) (ms8_4 ⟨n + 1, hn⟩) (hs8_4 ⟨n + 1, hn⟩) (ms8_5 ⟨n + 1, hn⟩) (hs8_5 ⟨n + 1, hn⟩) (ms8_6 ⟨n + 1, hn⟩) (hs8_6 ⟨n + 1, hn⟩) scM8_0 (Memref.isWhole_whole _) (fun h => h0 ((hcond8_0 ⟨n + 1, hn⟩).mp h)) (fun h => h1 ((hcond8_1 ⟨n + 1, hn⟩).mp h)) (iblk8 V c 0 ⟨n + 1, hn⟩) (iblk8 V c 1 ⟨n + 1, hn⟩) (iblk8 V c 2 ⟨n + 1, hn⟩) (iblk8 V c 3 ⟨n + 1, hn⟩) (iblk8 V c 4 ⟨n + 1, hn⟩) (outsAt8 c n (Nat.lt_of_succ_lt hn)).2.2, sout8_B_0 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) (ms8_3 ⟨n + 1, hn⟩) (hs8_3 ⟨n + 1, hn⟩) (ms8_4 ⟨n + 1, hn⟩) (hs8_4 ⟨n + 1, hn⟩) (ms8_5 ⟨n + 1, hn⟩) (hs8_5 ⟨n + 1, hn⟩) (ms8_6 ⟨n + 1, hn⟩) (hs8_6 ⟨n + 1, hn⟩) scM8_0 (Memref.isWhole_whole _) (fun h => h0 ((hcond8_0 ⟨n + 1, hn⟩).mp h)) (fun h => h1 ((hcond8_1 ⟨n + 1, hn⟩).mp h)) (iblk8 V c 0 ⟨n + 1, hn⟩) (iblk8 V c 1 ⟨n + 1, hn⟩) (iblk8 V c 2 ⟨n + 1, hn⟩) (iblk8 V c 3 ⟨n + 1, hn⟩) (iblk8 V c 4 ⟨n + 1, hn⟩) (outsAt8 c n (Nat.lt_of_succ_lt hn)).2.2)

theorem outsAt8_A (c : Dev nD) (t : Fin cfg8.N) (h0 : t.val % 4 = 0) (h1 : ¬t.val % 4 = 3) :
    outsAt8 V c t.val t.isLt = (out8_A_5 c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) scM8_0 (Memref.isWhole_whole _) ((hcond8_0 t).mpr h0) (fun h => h1 ((hcond8_1 t).mp h)) (iblk8 V c 0 t) (iblk8 V c 1 t) (iblk8 V c 2 t) (iblk8 V c 3 t) (iblk8 V c 4 t), out8_A_6 c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) scM8_0 (Memref.isWhole_whole _) ((hcond8_0 t).mpr h0) (fun h => h1 ((hcond8_1 t).mp h)) (iblk8 V c 0 t) (iblk8 V c 1 t) (iblk8 V c 2 t) (iblk8 V c 3 t) (iblk8 V c 4 t), sout8_A_0 c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) scM8_0 (Memref.isWhole_whole _) ((hcond8_0 t).mpr h0) (fun h => h1 ((hcond8_1 t).mp h)) (iblk8 V c 0 t) (iblk8 V c 1 t) (iblk8 V c 2 t) (iblk8 V c 3 t) (iblk8 V c 4 t)) := by
  obtain ⟨n, hn⟩ := t
  cases n with
  | zero => exact rfl
  | succ n => exact (dif_pos h0).trans ((dif_neg h1).trans rfl)

theorem outsAt8_B (c : Dev nD) (t : Fin cfg8.N) (h0 : ¬t.val % 4 = 0) (h1 : ¬t.val % 4 = 3) :
    outsAt8 V c t.val t.isLt = (out8_B_5 c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) scM8_0 (Memref.isWhole_whole _) (fun h => h0 ((hcond8_0 t).mp h)) (fun h => h1 ((hcond8_1 t).mp h)) (iblk8 V c 0 t) (iblk8 V c 1 t) (iblk8 V c 2 t) (iblk8 V c 3 t) (iblk8 V c 4 t) (outsAt8 V c (t.val - 1) (Nat.lt_of_le_of_lt (Nat.sub_le _ _) t.isLt)).2.2, out8_B_6 c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) scM8_0 (Memref.isWhole_whole _) (fun h => h0 ((hcond8_0 t).mp h)) (fun h => h1 ((hcond8_1 t).mp h)) (iblk8 V c 0 t) (iblk8 V c 1 t) (iblk8 V c 2 t) (iblk8 V c 3 t) (iblk8 V c 4 t) (outsAt8 V c (t.val - 1) (Nat.lt_of_le_of_lt (Nat.sub_le _ _) t.isLt)).2.2, sout8_B_0 c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) scM8_0 (Memref.isWhole_whole _) (fun h => h0 ((hcond8_0 t).mp h)) (fun h => h1 ((hcond8_1 t).mp h)) (iblk8 V c 0 t) (iblk8 V c 1 t) (iblk8 V c 2 t) (iblk8 V c 3 t) (iblk8 V c 4 t) (outsAt8 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt8_C (c : Dev nD) (t : Fin cfg8.N) (h0 : ¬t.val % 4 = 0) (h1 : t.val % 4 = 3) :
    outsAt8 V c t.val t.isLt = (out8_C_5 c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) scM8_0 (Memref.isWhole_whole _) (fun h => h0 ((hcond8_0 t).mp h)) ((hcond8_1 t).mpr h1) (iblk8 V c 0 t) (iblk8 V c 1 t) (iblk8 V c 2 t) (iblk8 V c 3 t) (iblk8 V c 4 t) (outsAt8 V c (t.val - 1) (Nat.lt_of_le_of_lt (Nat.sub_le _ _) t.isLt)).2.2, out8_C_6 c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) scM8_0 (Memref.isWhole_whole _) (fun h => h0 ((hcond8_0 t).mp h)) ((hcond8_1 t).mpr h1) (iblk8 V c 0 t) (iblk8 V c 1 t) (iblk8 V c 2 t) (iblk8 V c 3 t) (iblk8 V c 4 t) (outsAt8 V c (t.val - 1) (Nat.lt_of_le_of_lt (Nat.sub_le _ _) t.isLt)).2.2, sout8_C_0 c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) scM8_0 (Memref.isWhole_whole _) (fun h => h0 ((hcond8_0 t).mp h)) ((hcond8_1 t).mpr h1) (iblk8 V c 0 t) (iblk8 V c 1 t) (iblk8 V c 2 t) (iblk8 V c 3 t) (iblk8 V c 4 t) (outsAt8 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before the first point: what the launch hands the call. Before any later point: the accumulator at what the
    point before left in it, every other scoped buffer unopened, the generator register at some state. -/
def PhiS8 (c : Dev nD) : (n : ℕ) → n ≤ cfg8.N → sProp 𝕄
  | 0, _ => Pipeline.ΦA spec8 c
  | n + 1, hn => iprop(iprop(iprop(owns (c : Thread nD τ) scM8_0 fullShare ((outsAt8 V c n hn).2.2))
      ∗ Pipeline.scopedRestBut (Ix := Unit) (Name := ℕ) (U := UR sig nD τ) (Lvl := ℕ) (Val := Elt F) spec8 c [cc8_scratch0]) ∗ (∃ r, prngReg c r))

theorem PhiS8_zero (c : Dev nD) (n : ℕ) (h : n ≤ cfg8.N) (hz : n = 0) : PhiS8 V c n h = Pipeline.ΦA spec8 c := by
  subst hz; rfl

theorem PhiS8_succ (c : Dev nD) (n : ℕ) (hn : n < cfg8.N) :
    PhiS8 V c (n + 1) hn = iprop(iprop(iprop(owns (c : Thread nD τ) scM8_0 fullShare ((outsAt8 V c n hn).2.2))
      ∗ Pipeline.scopedRestBut (Ix := Unit) (Name := ℕ) (U := UR sig nD τ) (Lvl := ℕ) (Val := Elt F) spec8 c [cc8_scratch0]) ∗ (∃ r, prngReg c r)) := rfl

theorem PhiS8_pos (c : Dev nD) (n : ℕ) (h : n ≤ cfg8.N) (hz : n ≠ 0) :
    PhiS8 V c n h = iprop(iprop(iprop(owns (c : Thread nD τ) scM8_0 fullShare ((outsAt8 V c (n - 1) (by omega)).2.2))
      ∗ Pipeline.scopedRestBut (Ix := Unit) (Name := ℕ) (U := UR sig nD τ) (Lvl := ℕ) (Val := Elt F) spec8 c [cc8_scratch0]) ∗ (∃ r, prngReg c r)) := by
  cases n with
  | zero => exact absurd rfl hz
  | succ n => rfl

/-! ## The proof data -/

/-- The proof data of the call on core `c`: the arrays as the call finds them; after the body at point `t` each
    input's buffer at its block and the outputs' at `outsAt8`; the invariant `PhiS8`; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => (outsAt8 V c t.val t.isLt).1
    | ⟨6, _⟩ => (outsAt8 V c t.val t.isLt).2.1
  Φ t := PhiS8 V c t.val (Nat.le_of_lt_succ t.isLt)
  q _ := fullShare
  owed _ := 0

theorem A_eq8 (c : Dev nD) (w : Fin cfg8.W) : (dat8 V c).A w = V c (Pipeline.arrRef spec8 w) := by
  dsimp only [dat8]

theorem PhiS8_castSucc (c : Dev nD) (t : Fin cfg8.N) :
    (dat8 V c).Φ t.castSucc = PhiS8 V c t.val (Nat.le_of_lt t.isLt) := by
  dsimp only [dat8]; simp only [Fin.coe_castSucc]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) : (dat8 V c).after 5 t = (outsAt8 V c t.val t.isLt).1 := by dsimp only [dat8]
theorem after8_6 (c : Dev nD) (t : Fin cfg8.N) : (dat8 V c).after 6 t = (outsAt8 V c t.val t.isLt).2.1 := by dsimp only [dat8]

theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d
theorem before8_4 (c : Dev nD) (t : Fin cfg8.N) (d) : (dat8 V c).before 4 t d = iblk8 V c 4 t :=
  before8_4_of V (dat8 V c) (A_eq8 V c 4) (after8_4 V c) t d

theorem liveAt8_0 : ∀ t : Fin cfg8.N, cfg8.idle 0 (grid8.coords t) = false := fun _ => rfl
theorem liveAt8_1 : ∀ t : Fin cfg8.N, cfg8.idle 1 (grid8.coords t) = false := fun _ => rfl
theorem liveAt8_2 : ∀ t : Fin cfg8.N, cfg8.idle 2 (grid8.coords t) = false := fun _ => rfl
theorem liveAt8_3 : ∀ t : Fin cfg8.N, cfg8.idle 3 (grid8.coords t) = false := fun _ => rfl
theorem liveAt8_4 : ∀ t : Fin cfg8.N, cfg8.idle 4 (grid8.coords t) = false := fun _ => rfl

/-! ## The body obligation -/

/-- What the body is called with at point `t`, the windows one by one, -/
def bodyPre8 (c : Dev nD) (t : Fin cfg8.N) : sProp 𝕄 :=
  iprop((dat8 V c).Φ t.castSucc ∗ (dat8 V c).owesAt () t.castSucc
    ∗ (∃ d, owns (c : Thread nD τ) (ms8_0 t) fullShare ((dat8 V c).before 0 t d))
    ∗ (∃ d, owns (c : Thread nD τ) (ms8_1 t) fullShare ((dat8 V c).before 1 t d))
    ∗ (∃ d, owns (c : Thread nD τ) (ms8_2 t) fullShare ((dat8 V c).before 2 t d))
    ∗ (∃ d, owns (c : Thread nD τ) (ms8_3 t) fullShare ((dat8 V c).before 3 t d))
    ∗ (∃ d, owns (c : Thread nD τ) (ms8_4 t) fullShare ((dat8 V c).before 4 t d))
    ∗ (∃ d, owns (c : Thread nD τ) (ms8_5 t) fullShare ((dat8 V c).before 5 t d))
    ∗ (∃ d, owns (c : Thread nD τ) (ms8_6 t) fullShare ((dat8 V c).before 6 t d)))

/-- and what it returns. -/
def bodyPost8 (c : Dev nD) (t : Fin cfg8.N) : sProp 𝕄 :=
  iprop((dat8 V c).Φ t.succ ∗ (dat8 V c).owesAt () t.succ
    ∗ (dat8 V c).leavesExact 0 t
    ∗ (dat8 V c).leavesExact 1 t
    ∗ (dat8 V c).leavesExact 2 t
    ∗ (dat8 V c).leavesExact 3 t
    ∗ (dat8 V c).leavesExact 4 t
    ∗ (dat8 V c).leavesExact 5 t
    ∗ (dat8 V c).leavesExact 6 t)

set_option maxHeartbeats 4800000 in
/-- The body at a point of case A that is the first of the grid (the accumulator is found at anything). -/
theorem sound_body8_A0 (c : Dev nD) (t : Fin cfg8.N) (h0 : t.val % 4 = 0) (h1 : ¬t.val % 4 = 3) (hz : t.val = 0) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4]
  rw [show (dat8 V c).owesAt () t.succ = (dat8 V c).owesAt () t.castSucc from rfl]
  rw [show (dat8 V c).Φ t.succ = PhiS8 V c (t.val + 1) t.isLt from rfl, PhiS8_succ]
  rw [show (dat8 V c).leavesExact 0 t = owns (c : Thread nD τ) (ms8_0 t) fullShare ((dat8 V c).after 0 t) from by
    unfold Dat.leavesExact; rw [liveAt8_0 t], after8_0]
  rw [show (dat8 V c).leavesExact 1 t = owns (c : Thread nD τ) (ms8_1 t) fullShare ((dat8 V c).after 1 t) from by
    unfold Dat.leavesExact; rw [liveAt8_1 t], after8_1]
  rw [show (dat8 V c).leavesExact 2 t = owns (c : Thread nD τ) (ms8_2 t) fullShare ((dat8 V c).after 2 t) from by
    unfold Dat.leavesExact; rw [liveAt8_2 t], after8_2]
  rw [show (dat8 V c).leavesExact 3 t = owns (c : Thread nD τ) (ms8_3 t) fullShare ((dat8 V c).after 3 t) from by
    unfold Dat.leavesExact; rw [liveAt8_3 t], after8_3]
  rw [show (dat8 V c).leavesExact 4 t = owns (c : Thread nD τ) (ms8_4 t) fullShare ((dat8 V c).after 4 t) from by
    unfold Dat.leavesExact; rw [liveAt8_4 t], after8_4]
  rw [Dat.leavesExact_idle (dat8 V c) 5 t (idleAt8_5_A t ((hcond8_0 t).mpr h0) (fun h => h1 ((hcond8_1 t).mp h))) (noFlush8_5_A t ((hcond8_0 t).mpr h0) (fun h => h1 ((hcond8_1 t).mp h)))]
  rw [Dat.leavesExact_idle (dat8 V c) 6 t (idleAt8_6_A t ((hcond8_0 t).mpr h0) (fun h => h1 ((hcond8_1 t).mp h))) (noFlush8_6_A t ((hcond8_0 t).mpr h0) (fun h => h1 ((hcond8_1 t).mp h)))]
  rw [outsAt8_A V c t h0 h1]
  unfold sout8_A_0; (try dsimp only)
  rw [PhiS8_castSucc V c t, PhiS8_zero V c _ _ hz, PhiA8_eq]
  iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩⟩
  iapply ((kernelRun8_A c (grid8.coords t) _ _ _ _ _ _ _ _ _ _ _ _ _ _ _ _ ((hcond8_0 t).mpr h0) (fun h => h1 ((hcond8_1 t).mp h)) (iblk8 V c 0 t) (iblk8 V c 1 t) (iblk8 V c 2 t) (iblk8 V c 3 t) (iblk8 V c 4 t)).2.2.2 _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  iintro ⟨H0, H1, H2, H3, H4, H5, H6, ⟨%es0, HS0⟩⟩
  isplitl [HS0 Hr Hg]
  · isplitl [HS0 Hr]
    · isplitl [HS0]
      · unfold owns; iexists _; isplitr
        swap; · iexact HS0
        ipureintro; exact View.read_writes_of_cover _ _ _ _ _ (scover8_A_0 c _ _ _ _ _ _ _ _ _ _ _ _ _ _ _ _ _ _ _ _ _ _ _ _)
      iexact Hr
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexists _; iexact H5
  iexists _; iexact H6

set_option maxHeartbeats 4800000 in
/-- The body at a point of case A that is not the first of the grid (the accumulator is found at what the point before left; the reset overwrites it). -/
theorem sound_body8_A (c : Dev nD) (t : Fin cfg8.N) (h0 : t.val % 4 = 0) (h1 : ¬t.val % 4 = 3) (hz : t.val ≠ 0) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4]
  rw [show (dat8 V c).owesAt () t.succ = (dat8 V c).owesAt () t.castSucc from rfl]
  rw [show (dat8 V c).Φ t.succ = PhiS8 V c (t.val + 1) t.isLt from rfl, PhiS8_succ]
  rw [show (dat8 V c).leavesExact 0 t = owns (c : Thread nD τ) (ms8_0 t) fullShare ((dat8 V c).after 0 t) from by
    unfold Dat.leavesExact; rw [liveAt8_0 t], after8_0]
  rw [show (dat8 V c).leavesExact 1 t = owns (c : Thread nD τ) (ms8_1 t) fullShare ((dat8 V c).after 1 t) from by
    unfold Dat.leavesExact; rw [liveAt8_1 t], after8_1]
  rw [show (dat8 V c).leavesExact 2 t = owns (c : Thread nD τ) (ms8_2 t) fullShare ((dat8 V c).after 2 t) from by
    unfold Dat.leavesExact; rw [liveAt8_2 t], after8_2]
  rw [show (dat8 V c).leavesExact 3 t = owns (c : Thread nD τ) (ms8_3 t) fullShare ((dat8 V c).after 3 t) from by
    unfold Dat.leavesExact; rw [liveAt8_3 t], after8_3]
  rw [show (dat8 V c).leavesExact 4 t = owns (c : Thread nD τ) (ms8_4 t) fullShare ((dat8 V c).after 4 t) from by
    unfold Dat.leavesExact; rw [liveAt8_4 t], after8_4]
  rw [Dat.leavesExact_idle (dat8 V c) 5 t (idleAt8_5_A t ((hcond8_0 t).mpr h0) (fun h => h1 ((hcond8_1 t).mp h))) (noFlush8_5_A t ((hcond8_0 t).mpr h0) (fun h => h1 ((hcond8_1 t).mp h)))]
  rw [Dat.leavesExact_idle (dat8 V c) 6 t (idleAt8_6_A t ((hcond8_0 t).mpr h0) (fun h => h1 ((hcond8_1 t).mp h))) (noFlush8_6_A t ((hcond8_0 t).mpr h0) (fun h => h1 ((hcond8_1 t).mp h)))]
  rw [outsAt8_A V c t h0 h1]
  unfold sout8_A_0; (try dsimp only)
  rw [PhiS8_castSucc V c t, PhiS8_pos V c _ _ hz]
  iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩⟩
  iapply ((kernelRun8_A c (grid8.coords t) _ _ _ _ _ _ _ _ _ _ _ _ _ _ _ _ ((hcond8_0 t).mpr h0) (fun h => h1 ((hcond8_1 t).mp h)) (iblk8 V c 0 t) (iblk8 V c 1 t) (iblk8 V c 2 t) (iblk8 V c 3 t) (iblk8 V c 4 t)).2.2.2 _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexists _; iexact HS0
  iintro ⟨H0, H1, H2, H3, H4, H5, H6, ⟨%es0, HS0⟩⟩
  isplitl [HS0 Hr Hg]
  · isplitl [HS0 Hr]
    · isplitl [HS0]
      · unfold owns; iexists _; isplitr
        swap; · iexact HS0
        ipureintro; exact View.read_writes_of_cover _ _ _ _ _ (scover8_A_0 c _ _ _ _ _ _ _ _ _ _ _ _ _ _ _ _ _ _ _ _ _ _ _ _)
      iexact Hr
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexists _; iexact H5
  iexists _; iexact H6

set_option maxHeartbeats 4800000 in
/-- The body at a point of case B. -/
theorem sound_body8_B (c : Dev nD) (t : Fin cfg8.N) (h0 : ¬t.val % 4 = 0) (h1 : ¬t.val % 4 = 3) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4]
  rw [show (dat8 V c).owesAt () t.succ = (dat8 V c).owesAt () t.castSucc from rfl]
  rw [show (dat8 V c).Φ t.succ = PhiS8 V c (t.val + 1) t.isLt from rfl, PhiS8_succ]
  rw [show (dat8 V c).leavesExact 0 t = owns (c : Thread nD τ) (ms8_0 t) fullShare ((dat8 V c).after 0 t) from by
    unfold Dat.leavesExact; rw [liveAt8_0 t], after8_0]
  rw [show (dat8 V c).leavesExact 1 t = owns (c : Thread nD τ) (ms8_1 t) fullShare ((dat8 V c).after 1 t) from by
    unfold Dat.leavesExact; rw [liveAt8_1 t], after8_1]
  rw [show (dat8 V c).leavesExact 2 t = owns (c : Thread nD τ) (ms8_2 t) fullShare ((dat8 V c).after 2 t) from by
    unfold Dat.leavesExact; rw [liveAt8_2 t], after8_2]
  rw [show (dat8 V c).leavesExact 3 t = owns (c : Thread nD τ) (ms8_3 t) fullShare ((dat8 V c).after 3 t) from by
    unfold Dat.leavesExact; rw [liveAt8_3 t], after8_3]
  rw [show (dat8 V c).leavesExact 4 t = owns (c : Thread nD τ) (ms8_4 t) fullShare ((dat8 V c).after 4 t) from by
    unfold Dat.leavesExact; rw [liveAt8_4 t], after8_4]
  rw [Dat.leavesExact_idle (dat8 V c) 5 t (idleAt8_5_B t (fun h => h0 ((hcond8_0 t).mp h)) (fun h => h1 ((hcond8_1 t).mp h))) (noFlush8_5_B t (fun h => h0 ((hcond8_0 t).mp h)) (fun h => h1 ((hcond8_1 t).mp h)))]
  rw [Dat.leavesExact_idle (dat8 V c) 6 t (idleAt8_6_B t (fun h => h0 ((hcond8_0 t).mp h)) (fun h => h1 ((hcond8_1 t).mp h))) (noFlush8_6_B t (fun h => h0 ((hcond8_0 t).mp h)) (fun h => h1 ((hcond8_1 t).mp h)))]
  rw [outsAt8_B V c t h0 h1]
  unfold sout8_B_0; (try dsimp only)
  have hz : t.val ≠ 0 := fun e => h0 (by rw [e])
  rw [PhiS8_castSucc V c t, PhiS8_pos V c _ _ hz]
  iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩⟩
  iapply ((kernelRun8_B c (grid8.coords t) _ _ _ _ _ _ _ _ _ _ _ _ _ _ _ _ (fun h => h0 ((hcond8_0 t).mp h)) (fun h => h1 ((hcond8_1 t).mp h)) (iblk8 V c 0 t) (iblk8 V c 1 t) (iblk8 V c 2 t) (iblk8 V c 3 t) (iblk8 V c 4 t) _).2.2.2 _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  iintro ⟨H0, H1, H2, H3, H4, H5, H6, ⟨%es0, HS0⟩⟩
  isplitl [HS0 Hr Hg]
  · isplitl [HS0 Hr]
    · isplitl [HS0]
      · unfold owns; iexists _; isplitr
        swap; · iexact HS0
        ipureintro; exact View.read_writes_of_cover _ _ _ _ _ (scover8_B_0 c _ _ _ _ _ _ _ _ _ _ _ _ _ _ _ _ _ _ _ _ _ _ _ _ _)
      iexact Hr
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexists _; iexact H5
  iexists _; iexact H6

set_option maxHeartbeats 4800000 in
/-- The body at a point of case C. -/
theorem sound_body8_C (c : Dev nD) (t : Fin cfg8.N) (h0 : ¬t.val % 4 = 0) (h1 : t.val % 4 = 3) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4]
  rw [show (dat8 V c).owesAt () t.succ = (dat8 V c).owesAt () t.castSucc from rfl]
  rw [show (dat8 V c).Φ t.succ = PhiS8 V c (t.val + 1) t.isLt from rfl, PhiS8_succ]
  rw [show (dat8 V c).leavesExact 0 t = owns (c : Thread nD τ) (ms8_0 t) fullShare ((dat8 V c).after 0 t) from by
    unfold Dat.leavesExact; rw [liveAt8_0 t], after8_0]
  rw [show (dat8 V c).leavesExact 1 t = owns (c : Thread nD τ) (ms8_1 t) fullShare ((dat8 V c).after 1 t) from by
    unfold Dat.leavesExact; rw [liveAt8_1 t], after8_1]
  rw [show (dat8 V c).leavesExact 2 t = owns (c : Thread nD τ) (ms8_2 t) fullShare ((dat8 V c).after 2 t) from by
    unfold Dat.leavesExact; rw [liveAt8_2 t], after8_2]
  rw [show (dat8 V c).leavesExact 3 t = owns (c : Thread nD τ) (ms8_3 t) fullShare ((dat8 V c).after 3 t) from by
    unfold Dat.leavesExact; rw [liveAt8_3 t], after8_3]
  rw [show (dat8 V c).leavesExact 4 t = owns (c : Thread nD τ) (ms8_4 t) fullShare ((dat8 V c).after 4 t) from by
    unfold Dat.leavesExact; rw [liveAt8_4 t], after8_4]
  rw [show (dat8 V c).leavesExact 5 t = owns (c : Thread nD τ) (ms8_5 t) fullShare ((dat8 V c).after 5 t) from by
    unfold Dat.leavesExact; rw [liveAt8_5_C t (fun h => h0 ((hcond8_0 t).mp h)) ((hcond8_1 t).mpr h1)], after8_5]
  rw [show (dat8 V c).leavesExact 6 t = owns (c : Thread nD τ) (ms8_6 t) fullShare ((dat8 V c).after 6 t) from by
    unfold Dat.leavesExact; rw [liveAt8_6_C t (fun h => h0 ((hcond8_0 t).mp h)) ((hcond8_1 t).mpr h1)], after8_6]
  rw [outsAt8_C V c t h0 h1]
  unfold out8_C_5 out8_C_6 sout8_C_0; (try dsimp only)
  have hz : t.val ≠ 0 := fun e => h0 (by rw [e])
  rw [PhiS8_castSucc V c t, PhiS8_pos V c _ _ hz]
  iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩⟩
  iapply ((kernelRun8_C c (grid8.coords t) _ _ _ _ _ _ _ _ _ _ _ _ _ _ _ _ (fun h => h0 ((hcond8_0 t).mp h)) ((hcond8_1 t).mpr h1) (iblk8 V c 0 t) (iblk8 V c 1 t) (iblk8 V c 2 t) (iblk8 V c 3 t) (iblk8 V c 4 t) _).2.2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [HS0]; · iexact HS0
  iintro ⟨H0, H1, H2, H3, H4, ⟨%e5, H5⟩, ⟨%e6, H6⟩, ⟨%es0, HS0⟩⟩
  isplitl [HS0 Hr Hg]
  · isplitl [HS0 Hr]
    · isplitl [HS0]
      · unfold owns; iexists _; isplitr
        swap; · iexact HS0
        ipureintro; exact View.read_writes_of_cover _ _ _ _ _ (scover8_C_0 c _ _ _ _ _ _ _ _ _ _ _ _ _ _ _ _ _ _ _ _ _ _ _ _ _)
      iexact Hr
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_of_cover _ _ _ _ _ (cover8_C_5 c _ _ _ _ _ _ _ _ _ _ _ _ _ _ _ _ _ _ _ _ _ _ _ _ _)
  unfold owns; iexists _; isplitr
  swap; · iexact H6
  ipureintro; exact View.read_writes_of_cover _ _ _ _ _ (cover8_C_6 c _ _ _ _ _ _ _ _ _ _ _ _ _ _ _ _ _ _ _ _ _ _ _ _ _)

/-- The body at any point: the point is in exactly one of the three cases. -/
theorem sound_body8 (c : Dev nD) (t : Fin cfg8.N) :
    bodyPre8 V c t ⊢ wp frame (wpE (defs₀ (F := F)) Variants.none c none) Set.univ (bodyAt8 t) (fun _ => bodyPost8 V c t) := by
  by_cases h0 : t.val % 4 = 0
  · have h1 : ¬t.val % 4 = 3 := by omega
    by_cases hz : t.val = 0
    · exact sound_body8_A0 V c t h0 h1 hz
    · exact sound_body8_A V c t h0 h1 hz
  · by_cases h1 : t.val % 4 = 3
    · exact sound_body8_C V c t h0 h1
    · exact sound_body8_B V c t h0 h1

/-- The library's body obligation, at every point. -/
theorem body_obligation8 (c : Dev nD) : BodyObligation (dat8 (F := F) V c) (defs₀ (F := F)) Variants.none () Set.univ := fun t => by
  rw [bigSep_W8, bigSep_W8]
  exact sound_body8 V c t

/-- What the launch hands the call is the invariant before the first point. -/
theorem hin8 (c : Dev nD) : Pipeline.ΦA spec8 c ⊢ (dat8 V c).Φ 0 := by
  rw [show (dat8 V c).Φ 0 = PhiS8 V c 0 (Nat.zero_le _) from rfl, PhiS8_zero V c 0 _ rfl]
  try exact Idealize.SL.BI.Entails.refl _

/-- After any point but the first the invariant gives back what the launch handed over: the accumulator's contents
    are forgotten. -/
theorem Phi_out8 (c : Dev nD) (t : Fin (cfg8.N + 1)) (ht : t.val ≠ 0) : (dat8 V c).Φ t ⊢ Pipeline.ΦA spec8 c := by
  rw [show (dat8 V c).Φ t = PhiS8 V c t.val (Nat.le_of_lt_succ t.isLt) from rfl, PhiS8_pos V c _ _ ht, PhiA8_eq]
  iintro ⟨⟨HS0, Hr⟩, Hg⟩
  isplitl [HS0 Hr]
  · isplitl [HS0]
    · iexists _; iexact HS0
    iexact Hr
  iexact Hg

/-- The same after the last point. -/
theorem hout8 (c : Dev nD) : (dat8 V c).Φ (Fin.last cfg8.N) ⊢ Pipeline.ΦA spec8 c :=
  Phi_out8 V c _ (by rw [Fin.val_last]; have : cfg8.N = 32 := N_8; omega)

end Cert.KernelIdeal.Hand

end
-- ==== Proof.KI.Small0.lean ====
/-
  Region 0 of the layered program: one dense product per 2048-row tile. At a grid point the body reads the
  tile's rows of the activations, the whole weight and the one-entry scale, and writes two blocks: the product
  rounded to the narrow format, and the scale times the product. Nothing is carried between points, so what each
  output block holds after the body is one function of the three input blocks, and the invariant is the scoped
  rest with the generator register, untouched.
-/
import proofs.«131271_j4982162063661_2_alg».proof.Proof.Gen.KernelIdeal.Launch
import proofs.«131271_j4982162063661_2_alg».proof.Proof.Gen.KernelIdeal.Skeleton
import proofs.«131271_j4982162063661_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or not: unfetched, the block
    index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is of a whole buffer -/

abbrev rX0 : Rect S2048x512 := Rect.unit (s := S2048x512) ![0, 0] S2048x512.size inb_S2048x512_S2048x512_0_0
abbrev rW0 : Rect S512x128 := Rect.unit (s := S512x128) ![0, 0] S512x128.size inb_S512x128_S512x128_0_0
abbrev rH0 : Rect S1x1 := Rect.unit (s := S1x1) ![0, 0] S1x1.size inb_S1x1_S1x1_0_0
abbrev rO0 : Rect S2048x128 := Rect.unit (s := S2048x128) ![0, 0] S2048x128.size inb_S2048x128_S2048x128_0_0

/-! ## What the body leaves in each output block -/

/-- The narrow output block after the body: the rounded product of the activation tile and the weight. -/
def out0_3 (x0 : Vec F S2048x512 .f32) (x1 : Vec F S512x128 .f32) : Vec F S2048x128 .bf16 :=
  View.canon [⟨rO0, k0_pay2 (View.ld x0 rX0) (View.ld x1 rW0)⟩]
/-- The wide output block after the body: the scale times the product. -/
def out0_4 (x0 : Vec F S2048x512 .f32) (x1 : Vec F S512x128 .f32) (x2 : Vec F S1x1 .f32) : Vec F S2048x128 .f32 :=
  View.canon [⟨rO0, k0_pay3 (View.ld x0 rX0) (View.ld x1 rW0) (View.ld x2 rH0)⟩]

/-- One store of the whole block covers it. -/
theorem cover0_3 (p0 : Vec F S2048x128 .bf16) (y : S2048x128.Idx) :
    ∃ pc ∈ ([⟨rO0, p0⟩] : List (View.Piece (Elt F) S2048x128 .bf16)), y ∈ pc.1.set :=
  View.cover_of_tiled [⟨rO0, p0⟩] S2048x128.size (by rfl) y
theorem cover0_4 (p0 : Vec F S2048x128 .f32) (y : S2048x128.Idx) :
    ∃ pc ∈ ([⟨rO0, p0⟩] : List (View.Piece (Elt F) S2048x128 .f32)), y ∈ pc.1.set :=
  View.cover_of_tiled [⟨rO0, p0⟩] S2048x128.size (by rfl) y

/-! ## The body's triple -/

set_option maxHeartbeats 4000000 in
/-- The body on whole staging buffers — the inputs' at known contents, the outputs' at anything — runs to the end,
    leaves the inputs as they were and each output at its function of the inputs. -/
theorem sound_kernel0 (c : Dev nD) (E : Set ℕ) (i : grid0.Coords)
    (arg1 : Memref sig .tc .vmem S2048x512 .f32) (harg1 : arg1.IsWhole) (arg2 : Memref sig .tc .vmem S512x128 .f32) (harg2 : arg2.IsWhole)
    (arg3 : Memref sig .tc .vmem S1x1 .f32) (harg3 : arg3.IsWhole) (arg4 : Memref sig .tc .vmem S2048x128 .bf16) (harg4 : arg4.IsWhole)
    (arg5 : Memref sig .tc .vmem S2048x128 .f32) (harg5 : arg5.IsWhole)
    (x0 : Vec F S2048x512 .f32) (x1 : Vec F S512x128 .f32) (x2 : Vec F S1x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1) ∗ owns (c : Thread nD τ) arg5 fullShare (out0_4 x0 x1 x2)) -∗ K ⟨⟩))
      ⊢ wp frame (wpE (defs₀ (F := F)) Variants.none c none) E (cc0__small_matmul_kernel i arg1 harg1 arg2 harg2 arg3 harg3 arg4 harg4 arg5 harg5) K := by
  simp only [cc0__small_matmul_kernel_eq_skeleton]; unfold cc0__small_matmul_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_3 _)
  iexists _; isplitr
  swap; · iexact H4
  ipureintro
  exact View.read_writes_eq_canon _ _ _ (cover0_4 _)

/-! ## The proof data -/

/-- The arrays as the region finds them; after the body each input's buffer at its block, each output's at its
    function of the input blocks; the invariant the scoped rest and the generator register; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t)
    | ⟨4, _⟩ => out0_4 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ (grid0.coords t) _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := .rfl
theorem hout0 (c : Dev nD) : (dat0 V c).Φ (Fin.last cfg0.N) ⊢ Pipeline.ΦA spec0 c := .rfl

end Cert.KernelIdeal.Hand

end
-- ==== Proof.KI.Small3.lean ====
/-
  Region 3 of the layered program: one dense product per 2048-row tile. At a grid point the body reads the
  tile's rows of the activations, the whole weight and the one-entry scale, and writes two blocks: the product
  rounded to the narrow format, and the scale times the product. Nothing is carried between points, so what each
  output block holds after the body is one function of the three input blocks, and the invariant is the scoped
  rest with the generator register, untouched.
-/
import proofs.«131271_j4982162063661_2_alg».proof.Proof.Gen.KernelIdeal.Launch
import proofs.«131271_j4982162063661_2_alg».proof.Proof.Gen.KernelIdeal.Skeleton
import proofs.«131271_j4982162063661_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's staging buffer holds its block at every point, fetched there or not: unfetched, the block
    index has not moved. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: every load and store is of a whole buffer -/

abbrev rX3 : Rect S2048x128 := Rect.unit (s := S2048x128) ![0, 0] S2048x128.size inb_S2048x128_S2048x128_0_0
abbrev rW3 : Rect S128x128 := Rect.unit (s := S128x128) ![0, 0] S128x128.size inb_S128x128_S128x128_0_0
abbrev rH3 : Rect S1x1 := Rect.unit (s := S1x1) ![0, 0] S1x1.size inb_S1x1_S1x1_0_0
abbrev rO3 : Rect S2048x128 := Rect.unit (s := S2048x128) ![0, 0] S2048x128.size inb_S2048x128_S2048x128_0_0

/-! ## What the body leaves in each output block -/

/-- The narrow output block after the body: the rounded product of the activation tile and the weight. -/
def out3_3 (x0 : Vec F S2048x128 .f32) (x1 : Vec F S128x128 .f32) : Vec F S2048x128 .bf16 :=
  View.canon [⟨rO3, k3_pay2 (View.ld x0 rX3) (View.ld x1 rW3)⟩]
/-- The wide output block after the body: the scale times the product. -/
def out3_4 (x0 : Vec F S2048x128 .f32) (x1 : Vec F S128x128 .f32) (x2 : Vec F S1x1 .f32) : Vec F S2048x128 .f32 :=
  View.canon [⟨rO3, k3_pay3 (View.ld x0 rX3) (View.ld x1 rW3) (View.ld x2 rH3)⟩]

/-- One store of the whole block covers it. -/
theorem cover3_3 (p0 : Vec F S2048x128 .bf16) (y : S2048x128.Idx) :
    ∃ pc ∈ ([⟨rO3, p0⟩] : List (View.Piece (Elt F) S2048x128 .bf16)), y ∈ pc.1.set :=
  View.cover_of_tiled [⟨rO3, p0⟩] S2048x128.size (by rfl) y
theorem cover3_4 (p0 : Vec F S2048x128 .f32) (y : S2048x128.Idx) :
    ∃ pc ∈ ([⟨rO3, p0⟩] : List (View.Piece (Elt F) S2048x128 .f32)), y ∈ pc.1.set :=
  View.cover_of_tiled [⟨rO3, p0⟩] S2048x128.size (by rfl) y

/-! ## The body's triple -/

set_option maxHeartbeats 4000000 in
/-- The body on whole staging buffers — the inputs' at known contents, the outputs' at anything — runs to the end,
    leaves the inputs as they were and each output at its function of the inputs. -/
theorem sound_kernel3 (c : Dev nD) (E : Set ℕ) (i : grid3.Coords)
    (arg1 : Memref sig .tc .vmem S2048x128 .f32) (harg1 : arg1.IsWhole) (arg2 : Memref sig .tc .vmem S128x128 .f32) (harg2 : arg2.IsWhole)
    (arg3 : Memref sig .tc .vmem S1x1 .f32) (harg3 : arg3.IsWhole) (arg4 : Memref sig .tc .vmem S2048x128 .bf16) (harg4 : arg4.IsWhole)
    (arg5 : Memref sig .tc .vmem S2048x128 .f32) (harg5 : arg5.IsWhole)
    (x0 : Vec F S2048x128 .f32) (x1 : Vec F S128x128 .f32) (x2 : Vec F S1x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3_3 x0 x1) ∗ owns (c : Thread nD τ) arg5 fullShare (out3_4 x0 x1 x2)) -∗ K ⟨⟩))
      ⊢ wp frame (wpE (defs₀ (F := F)) Variants.none c none) E (cc3__small_matmul_kernel i arg1 harg1 arg2 harg2 arg3 harg3 arg4 harg4 arg5 harg5) K := by
  simp only [cc3__small_matmul_kernel_eq_skeleton]; unfold cc3__small_matmul_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover3_3 _)
  iexists _; isplitr
  swap; · iexact H4
  ipureintro
  exact View.read_writes_eq_canon _ _ _ (cover3_4 _)

/-! ## The proof data -/

/-- The arrays as the region finds them; after the body each input's buffer at its block, each output's at its
    function of the input blocks; the invariant the scoped rest and the generator register; nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t)
    | ⟨4, _⟩ => out3_4 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 (iblk3 V c 0 t) (iblk3 V c 1 t) := by dsimp only [dat3]
theorem after3_4 (c : Dev nD) (t : Fin cfg3.N) : (dat3 V c).after 4 t = out3_4 (iblk3 V c 0 t) (iblk3 V c 1 t) (iblk3 V c 2 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ (grid3.coords t) _ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation3 (c : Dev nD) : BodyObligation (dat3 (F := F) V c) (defs₀ (F := F)) Variants.none () Set.univ := fun t => by
  rw [bigSep_W3, bigSep_W3]
  exact sound_body3 V c t

theorem hin3 (c : Dev nD) : Pipeline.ΦA spec3 c ⊢ (dat3 V c).Φ 0 := .rfl
theorem hout3 (c : Dev nD) : (dat3 V c).Φ (Fin.last cfg3.N) ⊢ Pipeline.ΦA spec3 c := .rfl

end Cert.KernelIdeal.Hand

end
-- ==== Proof.KI.Small6.lean ====
/-
  Region 6 of the layered program: one dense product per 2048-row tile. At a grid point the body reads the
  tile's rows of the activations, the whole weight and the one-entry scale, and writes two blocks: the product
  rounded to the narrow format, and the scale times the product. Nothing is carried between points, so what each
  output block holds after the body is one function of the three input blocks, and the invariant is the scoped
  rest with the generator register, untouched.
-/
import proofs.«131271_j4982162063661_2_alg».proof.Proof.Gen.KernelIdeal.Launch
import proofs.«131271_j4982162063661_2_alg».proof.Proof.Gen.KernelIdeal.Skeleton
import proofs.«131271_j4982162063661_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- An input window's staging buffer holds its block at every point, fetched there or not: unfetched, the block
    index has not moved. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses: every load and store is of a whole buffer -/

abbrev rX6 : Rect S2048x128 := Rect.unit (s := S2048x128) ![0, 0] S2048x128.size inb_S2048x128_S2048x128_0_0
abbrev rW6 : Rect S128x64 := Rect.unit (s := S128x64) ![0, 0] S128x64.size inb_S128x64_S128x64_0_0
abbrev rH6 : Rect S1x1 := Rect.unit (s := S1x1) ![0, 0] S1x1.size inb_S1x1_S1x1_0_0
abbrev rO6 : Rect S2048x64 := Rect.unit (s := S2048x64) ![0, 0] S2048x64.size inb_S2048x64_S2048x64_0_0

/-! ## What the body leaves in each output block -/

/-- The narrow output block after the body: the rounded product of the activation tile and the weight. -/
def out6_3 (x0 : Vec F S2048x128 .f32) (x1 : Vec F S128x64 .f32) : Vec F S2048x64 .bf16 :=
  View.canon [⟨rO6, k6_pay2 (View.ld x0 rX6) (View.ld x1 rW6)⟩]
/-- The wide output block after the body: the scale times the product. -/
def out6_4 (x0 : Vec F S2048x128 .f32) (x1 : Vec F S128x64 .f32) (x2 : Vec F S1x1 .f32) : Vec F S2048x64 .f32 :=
  View.canon [⟨rO6, k6_pay3 (View.ld x0 rX6) (View.ld x1 rW6) (View.ld x2 rH6)⟩]

/-- One store of the whole block covers it. -/
theorem cover6_3 (p0 : Vec F S2048x64 .bf16) (y : S2048x64.Idx) :
    ∃ pc ∈ ([⟨rO6, p0⟩] : List (View.Piece (Elt F) S2048x64 .bf16)), y ∈ pc.1.set :=
  View.cover_of_tiled [⟨rO6, p0⟩] S2048x64.size (by rfl) y
theorem cover6_4 (p0 : Vec F S2048x64 .f32) (y : S2048x64.Idx) :
    ∃ pc ∈ ([⟨rO6, p0⟩] : List (View.Piece (Elt F) S2048x64 .f32)), y ∈ pc.1.set :=
  View.cover_of_tiled [⟨rO6, p0⟩] S2048x64.size (by rfl) y

/-! ## The body's triple -/

set_option maxHeartbeats 4000000 in
/-- The body on whole staging buffers — the inputs' at known contents, the outputs' at anything — runs to the end,
    leaves the inputs as they were and each output at its function of the inputs. -/
theorem sound_kernel6 (c : Dev nD) (E : Set ℕ) (i : grid6.Coords)
    (arg1 : Memref sig .tc .vmem S2048x128 .f32) (harg1 : arg1.IsWhole) (arg2 : Memref sig .tc .vmem S128x64 .f32) (harg2 : arg2.IsWhole)
    (arg3 : Memref sig .tc .vmem S1x1 .f32) (harg3 : arg3.IsWhole) (arg4 : Memref sig .tc .vmem S2048x64 .bf16) (harg4 : arg4.IsWhole)
    (arg5 : Memref sig .tc .vmem S2048x64 .f32) (harg5 : arg5.IsWhole)
    (x0 : Vec F S2048x128 .f32) (x1 : Vec F S128x64 .f32) (x2 : Vec F S1x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out6_3 x0 x1) ∗ owns (c : Thread nD τ) arg5 fullShare (out6_4 x0 x1 x2)) -∗ K ⟨⟩))
      ⊢ wp frame (wpE (defs₀ (F := F)) Variants.none c none) E (cc6__small_matmul_kernel i arg1 harg1 arg2 harg2 arg3 harg3 arg4 harg4 arg5 harg5) K := by
  simp only [cc6__small_matmul_kernel_eq_skeleton]; unfold cc6__small_matmul_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover6_3 _)
  iexists _; isplitr
  swap; · iexact H4
  ipureintro
  exact View.read_writes_eq_canon _ _ _ (cover6_4 _)

/-! ## The proof data -/

/-- The arrays as the region finds them; after the body each input's buffer at its block, each output's at its
    function of the input blocks; the invariant the scoped rest and the generator register; nothing owed. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (iblk6 V c 0 t) (iblk6 V c 1 t)
    | ⟨4, _⟩ => out6_4 (iblk6 V c 0 t) (iblk6 V c 1 t) (iblk6 V c 2 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = out6_3 (iblk6 V c 0 t) (iblk6 V c 1 t) := by dsimp only [dat6]
theorem after6_4 (c : Dev nD) (t : Fin cfg6.N) : (dat6 V c).after 4 t = out6_4 (iblk6 V c 0 t) (iblk6 V c 1 t) (iblk6 V c 2 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

/-! ## The body obligation, at a generic point -/

def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d)))

def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t))

theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).Φ t.succ = (dat6 V c).Φ t.castSucc from rfl,
    show (dat6 V c).owesAt () t.succ = (dat6 V c).owesAt () t.castSucc from rfl,
    after6_0, after6_1, after6_2, after6_3, after6_4]
  iintro ⟨HΦ, Ho, ⟨%d0, H0⟩, ⟨%d1, H1⟩, ⟨%d2, H2⟩, ⟨%d3, H3⟩, ⟨%d4, H4⟩⟩
  iapply (sound_kernel6 c Set.univ (grid6.coords t) _ _ _ _ _ _ _ _ _ _ (iblk6 V c 0 t) (iblk6 V c 1 t) (iblk6 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation6 (c : Dev nD) : BodyObligation (dat6 (F := F) V c) (defs₀ (F := F)) Variants.none () Set.univ := fun t => by
  rw [bigSep_W6, bigSep_W6]
  exact sound_body6 V c t

theorem hin6 (c : Dev nD) : Pipeline.ΦA spec6 c ⊢ (dat6 V c).Φ 0 := .rfl
theorem hout6 (c : Dev nD) : (dat6 V c).Φ (Fin.last cfg6.N) ⊢ Pipeline.ΦA spec6 c := .rfl

end Cert.KernelIdeal.Hand

end
-- ==== Proof.KI.Run.lean ====
/-
  The whole program as twelve items in order — three stretches of host operations (each layer's slices of its
  three scales and the reshape of its bias into a row) and nine kernel regions — and what the buffers hold
  between items: the launch contents, then after a host stretch its operations applied, after a region its
  windows' arrays at what the write-backs leave and every other buffer as it was. Every region is entered
  from "all unscoped buffers at the boundary's contents, the generator register at some state, nothing owed"
  and left in the same form, so the items chain. The run reads the result and the arguments off the last
  boundary: the result is region 8's wide output array, each argument walks back to the launch memory.
-/
import proofs.«131271_j4982162063661_2_alg».proof.Proof.KI.Cast1
import proofs.«131271_j4982162063661_2_alg».proof.Proof.KI.Prop2
import proofs.«131271_j4982162063661_2_alg».proof.Proof.KI.Prop4
import proofs.«131271_j4982162063661_2_alg».proof.Proof.KI.Prop5
import proofs.«131271_j4982162063661_2_alg».proof.Proof.KI.Prop7
import proofs.«131271_j4982162063661_2_alg».proof.Proof.KI.Prop8
import proofs.«131271_j4982162063661_2_alg».proof.Proof.Gen.KernelIdeal.Regions
import proofs.«131271_j4982162063661_2_alg».proof.Proof.KI.Small0
import proofs.«131271_j4982162063661_2_alg».proof.Proof.KI.Small3
import proofs.«131271_j4982162063661_2_alg».proof.Proof.KI.Small6

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

/-- Core `c`'s buffers at launch. -/
abbrev B0 : Dev nD → Valuation τ sig (Elt F) := fun c b => m ((c : Dev nD), b)
abbrev E0 : (c : Dev nD) → (b : Ref sig .tc) → Buf (Elt F) ((c : Thread nD τ).loc b) := fun c b => B0 m c b

/-- After the host stretch `hostOps0`. -/
abbrev B1 : Dev nD → Valuation τ sig (Elt F) := fun c => StableHlo.after hostOps0 (B0 m c)
abbrev E1 : (c : Dev nD) → (b : Ref sig .tc) → Buf (Elt F) ((c : Thread nD τ).loc b) := fun c b => B1 m c b
theorem B1_of (c : Dev nD) (r : Ref sig .tc) (h : r ∉ hostOps0_W) : B1 m c r = B0 m c r :=
  StableHlo.after_of_writes_sub hostOps0 _ hostOps0_writes h

/-- After region 0: its windows' arrays at what the write-backs leave, every other buffer as entered. -/
def B2 (c : Dev nD) : Valuation τ sig (Elt F) :=
  Pipeline.withArrays spec0 c (B1 m c) fun w => (dat0 (E1 m) c).arrAt w cfg0.N
theorem B2_arr (c : Dev nD) (w : Fin cfg0.W) :
    B2 m c (Proc.devRef .tc (Pipeline.arrRef spec0 w)) = (dat0 (E1 m) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m c (Proc.devRef .tc b) = B1 m c (Proc.devRef .tc b) := by
  unfold B2; exact Pipeline.withArrays_of_ne spec0 c _ _ b hb
abbrev E2 : (c : Dev nD) → (b : Ref sig .tc) → Buf (Elt F) ((c : Thread nD τ).loc b) := fun c b => B2 m c b
theorem hF0 (c : Dev nD) (w : Fin cfg0.W) : (dat0 (E1 m) c).arrAt w cfg0.N = E2 m c (Pipeline.arrRef spec0 w) :=
  (B2_arr m c w).symm
theorem hrest0 (c : Dev nD) : ∀ b, b ∉ Finset.univ.image (Pipeline.arrRef spec0) → E2 m c b = E1 m c b :=
  fun b hb => B2_of_ne m c b fun w e => hb (Finset.mem_image.mpr ⟨w, Finset.mem_univ _, e⟩)

/-- After region 1: its windows' arrays at what the write-backs leave, every other buffer as entered. -/
def B3 (c : Dev nD) : Valuation τ sig (Elt F) :=
  Pipeline.withArrays spec1 c (B2 m c) fun w => (dat1 (E2 m) c).arrAt w cfg1.N
theorem B3_arr (c : Dev nD) (w : Fin cfg1.W) :
    B3 m c (Proc.devRef .tc (Pipeline.arrRef spec1 w)) = (dat1 (E2 m) c).arrAt w cfg1.N := by
  unfold B3; exact Pipeline.withArrays_arr spec1 launch1.win.arr_inj c _ _ w
theorem B3_of_ne (c : Dev nD) (b : Ref sig .tc) (hb : ∀ w, Pipeline.arrRef spec1 w ≠ b) :
    B3 m c (Proc.devRef .tc b) = B2 m c (Proc.devRef .tc b) := by
  unfold B3; exact Pipeline.withArrays_of_ne spec1 c _ _ b hb
abbrev E3 : (c : Dev nD) → (b : Ref sig .tc) → Buf (Elt F) ((c : Thread nD τ).loc b) := fun c b => B3 m c b
theorem hF1 (c : Dev nD) (w : Fin cfg1.W) : (dat1 (E2 m) c).arrAt w cfg1.N = E3 m c (Pipeline.arrRef spec1 w) :=
  (B3_arr m c w).symm
theorem hrest1 (c : Dev nD) : ∀ b, b ∉ Finset.univ.image (Pipeline.arrRef spec1) → E3 m c b = E2 m c b :=
  fun b hb => B3_of_ne m c b fun w e => hb (Finset.mem_image.mpr ⟨w, Finset.mem_univ _, e⟩)

/-- After region 2: its windows' arrays at what the write-backs leave, every other buffer as entered. -/
def B4 (c : Dev nD) : Valuation τ sig (Elt F) :=
  Pipeline.withArrays spec2 c (B3 m c) fun w => (dat2 (E3 m) c).arrAt w cfg2.N
theorem B4_arr (c : Dev nD) (w : Fin cfg2.W) :
    B4 m c (Proc.devRef .tc (Pipeline.arrRef spec2 w)) = (dat2 (E3 m) c).arrAt w cfg2.N := by
  unfold B4; exact Pipeline.withArrays_arr spec2 launch2.win.arr_inj c _ _ w
theorem B4_of_ne (c : Dev nD) (b : Ref sig .tc) (hb : ∀ w, Pipeline.arrRef spec2 w ≠ b) :
    B4 m c (Proc.devRef .tc b) = B3 m c (Proc.devRef .tc b) := by
  unfold B4; exact Pipeline.withArrays_of_ne spec2 c _ _ b hb
abbrev E4 : (c : Dev nD) → (b : Ref sig .tc) → Buf (Elt F) ((c : Thread nD τ).loc b) := fun c b => B4 m c b
theorem hF2 (c : Dev nD) (w : Fin cfg2.W) : (dat2 (E3 m) c).arrAt w cfg2.N = E4 m c (Pipeline.arrRef spec2 w) :=
  (B4_arr m c w).symm
theorem hrest2 (c : Dev nD) : ∀ b, b ∉ Finset.univ.image (Pipeline.arrRef spec2) → E4 m c b = E3 m c b :=
  fun b hb => B4_of_ne m c b fun w e => hb (Finset.mem_image.mpr ⟨w, Finset.mem_univ _, e⟩)

/-- After the host stretch `hostOps3`. -/
abbrev B5 : Dev nD → Valuation τ sig (Elt F) := fun c => StableHlo.after hostOps3 (B4 m c)
abbrev E5 : (c : Dev nD) → (b : Ref sig .tc) → Buf (Elt F) ((c : Thread nD τ).loc b) := fun c b => B5 m c b
theorem B5_of (c : Dev nD) (r : Ref sig .tc) (h : r ∉ hostOps3_W) : B5 m c r = B4 m c r :=
  StableHlo.after_of_writes_sub hostOps3 _ hostOps3_writes h

/-- After region 3: its windows' arrays at what the write-backs leave, every other buffer as entered. -/
def B6 (c : Dev nD) : Valuation τ sig (Elt F) :=
  Pipeline.withArrays spec3 c (B5 m c) fun w => (dat3 (E5 m) c).arrAt w cfg3.N
theorem B6_arr (c : Dev nD) (w : Fin cfg3.W) :
    B6 m c (Proc.devRef .tc (Pipeline.arrRef spec3 w)) = (dat3 (E5 m) c).arrAt w cfg3.N := by
  unfold B6; exact Pipeline.withArrays_arr spec3 launch3.win.arr_inj c _ _ w
theorem B6_of_ne (c : Dev nD) (b : Ref sig .tc) (hb : ∀ w, Pipeline.arrRef spec3 w ≠ b) :
    B6 m c (Proc.devRef .tc b) = B5 m c (Proc.devRef .tc b) := by
  unfold B6; exact Pipeline.withArrays_of_ne spec3 c _ _ b hb
abbrev E6 : (c : Dev nD) → (b : Ref sig .tc) → Buf (Elt F) ((c : Thread nD τ).loc b) := fun c b => B6 m c b
theorem hF3 (c : Dev nD) (w : Fin cfg3.W) : (dat3 (E5 m) c).arrAt w cfg3.N = E6 m c (Pipeline.arrRef spec3 w) :=
  (B6_arr m c w).symm
theorem hrest3 (c : Dev nD) : ∀ b, b ∉ Finset.univ.image (Pipeline.arrRef spec3) → E6 m c b = E5 m c b :=
  fun b hb => B6_of_ne m c b fun w e => hb (Finset.mem_image.mpr ⟨w, Finset.mem_univ _, e⟩)

/-- After region 4: its windows' arrays at what the write-backs leave, every other buffer as entered. -/
def B7 (c : Dev nD) : Valuation τ sig (Elt F) :=
  Pipeline.withArrays spec4 c (B6 m c) fun w => (dat4 (E6 m) c).arrAt w cfg4.N
theorem B7_arr (c : Dev nD) (w : Fin cfg4.W) :
    B7 m c (Proc.devRef .tc (Pipeline.arrRef spec4 w)) = (dat4 (E6 m) c).arrAt w cfg4.N := by
  unfold B7; exact Pipeline.withArrays_arr spec4 launch4.win.arr_inj c _ _ w
theorem B7_of_ne (c : Dev nD) (b : Ref sig .tc) (hb : ∀ w, Pipeline.arrRef spec4 w ≠ b) :
    B7 m c (Proc.devRef .tc b) = B6 m c (Proc.devRef .tc b) := by
  unfold B7; exact Pipeline.withArrays_of_ne spec4 c _ _ b hb
abbrev E7 : (c : Dev nD) → (b : Ref sig .tc) → Buf (Elt F) ((c : Thread nD τ).loc b) := fun c b => B7 m c b
theorem hF4 (c : Dev nD) (w : Fin cfg4.W) : (dat4 (E6 m) c).arrAt w cfg4.N = E7 m c (Pipeline.arrRef spec4 w) :=
  (B7_arr m c w).symm
theorem hrest4 (c : Dev nD) : ∀ b, b ∉ Finset.univ.image (Pipeline.arrRef spec4) → E7 m c b = E6 m c b :=
  fun b hb => B7_of_ne m c b fun w e => hb (Finset.mem_image.mpr ⟨w, Finset.mem_univ _, e⟩)

/-- After region 5: its windows' arrays at what the write-backs leave, every other buffer as entered. -/
def B8 (c : Dev nD) : Valuation τ sig (Elt F) :=
  Pipeline.withArrays spec5 c (B7 m c) fun w => (dat5 (E7 m) c).arrAt w cfg5.N
theorem B8_arr (c : Dev nD) (w : Fin cfg5.W) :
    B8 m c (Proc.devRef .tc (Pipeline.arrRef spec5 w)) = (dat5 (E7 m) c).arrAt w cfg5.N := by
  unfold B8; exact Pipeline.withArrays_arr spec5 launch5.win.arr_inj c _ _ w
theorem B8_of_ne (c : Dev nD) (b : Ref sig .tc) (hb : ∀ w, Pipeline.arrRef spec5 w ≠ b) :
    B8 m c (Proc.devRef .tc b) = B7 m c (Proc.devRef .tc b) := by
  unfold B8; exact Pipeline.withArrays_of_ne spec5 c _ _ b hb
abbrev E8 : (c : Dev nD) → (b : Ref sig .tc) → Buf (Elt F) ((c : Thread nD τ).loc b) := fun c b => B8 m c b
theorem hF5 (c : Dev nD) (w : Fin cfg5.W) : (dat5 (E7 m) c).arrAt w cfg5.N = E8 m c (Pipeline.arrRef spec5 w) :=
  (B8_arr m c w).symm
theorem hrest5 (c : Dev nD) : ∀ b, b ∉ Finset.univ.image (Pipeline.arrRef spec5) → E8 m c b = E7 m c b :=
  fun b hb => B8_of_ne m c b fun w e => hb (Finset.mem_image.mpr ⟨w, Finset.mem_univ _, e⟩)

/-- After the host stretch `hostOps6`. -/
abbrev B9 : Dev nD → Valuation τ sig (Elt F) := fun c => StableHlo.after hostOps6 (B8 m c)
abbrev E9 : (c : Dev nD) → (b : Ref sig .tc) → Buf (Elt F) ((c : Thread nD τ).loc b) := fun c b => B9 m c b
theorem B9_of (c : Dev nD) (r : Ref sig .tc) (h : r ∉ hostOps6_W) : B9 m c r = B8 m c r :=
  StableHlo.after_of_writes_sub hostOps6 _ hostOps6_writes h

/-- After region 6: its windows' arrays at what the write-backs leave, every other buffer as entered. -/
def B10 (c : Dev nD) : Valuation τ sig (Elt F) :=
  Pipeline.withArrays spec6 c (B9 m c) fun w => (dat6 (E9 m) c).arrAt w cfg6.N
theorem B10_arr (c : Dev nD) (w : Fin cfg6.W) :
    B10 m c (Proc.devRef .tc (Pipeline.arrRef spec6 w)) = (dat6 (E9 m) c).arrAt w cfg6.N := by
  unfold B10; exact Pipeline.withArrays_arr spec6 launch6.win.arr_inj c _ _ w
theorem B10_of_ne (c : Dev nD) (b : Ref sig .tc) (hb : ∀ w, Pipeline.arrRef spec6 w ≠ b) :
    B10 m c (Proc.devRef .tc b) = B9 m c (Proc.devRef .tc b) := by
  unfold B10; exact Pipeline.withArrays_of_ne spec6 c _ _ b hb
abbrev E10 : (c : Dev nD) → (b : Ref sig .tc) → Buf (Elt F) ((c : Thread nD τ).loc b) := fun c b => B10 m c b
theorem hF6 (c : Dev nD) (w : Fin cfg6.W) : (dat6 (E9 m) c).arrAt w cfg6.N = E10 m c (Pipeline.arrRef spec6 w) :=
  (B10_arr m c w).symm
theorem hrest6 (c : Dev nD) : ∀ b, b ∉ Finset.univ.image (Pipeline.arrRef spec6) → E10 m c b = E9 m c b :=
  fun b hb => B10_of_ne m c b fun w e => hb (Finset.mem_image.mpr ⟨w, Finset.mem_univ _, e⟩)

/-- After region 7: its windows' arrays at what the write-backs leave, every other buffer as entered. -/
def B11 (c : Dev nD) : Valuation τ sig (Elt F) :=
  Pipeline.withArrays spec7 c (B10 m c) fun w => (dat7 (E10 m) c).arrAt w cfg7.N
theorem B11_arr (c : Dev nD) (w : Fin cfg7.W) :
    B11 m c (Proc.devRef .tc (Pipeline.arrRef spec7 w)) = (dat7 (E10 m) c).arrAt w cfg7.N := by
  unfold B11; exact Pipeline.withArrays_arr spec7 launch7.win.arr_inj c _ _ w
theorem B11_of_ne (c : Dev nD) (b : Ref sig .tc) (hb : ∀ w, Pipeline.arrRef spec7 w ≠ b) :
    B11 m c (Proc.devRef .tc b) = B10 m c (Proc.devRef .tc b) := by
  unfold B11; exact Pipeline.withArrays_of_ne spec7 c _ _ b hb
abbrev E11 : (c : Dev nD) → (b : Ref sig .tc) → Buf (Elt F) ((c : Thread nD τ).loc b) := fun c b => B11 m c b
theorem hF7 (c : Dev nD) (w : Fin cfg7.W) : (dat7 (E10 m) c).arrAt w cfg7.N = E11 m c (Pipeline.arrRef spec7 w) :=
  (B11_arr m c w).symm
theorem hrest7 (c : Dev nD) : ∀ b, b ∉ Finset.univ.image (Pipeline.arrRef spec7) → E11 m c b = E10 m c b :=
  fun b hb => B11_of_ne m c b fun w e => hb (Finset.mem_image.mpr ⟨w, Finset.mem_univ _, e⟩)

/-- After region 8: its windows' arrays at what the write-backs leave, every other buffer as entered. -/
def B12 (c : Dev nD) : Valuation τ sig (Elt F) :=
  Pipeline.withArrays spec8 c (B11 m c) fun w => (dat8 (E11 m) c).arrAt w cfg8.N
theorem B12_arr (c : Dev nD) (w : Fin cfg8.W) :
    B12 m c (Proc.devRef .tc (Pipeline.arrRef spec8 w)) = (dat8 (E11 m) c).arrAt w cfg8.N := by
  unfold B12; exact Pipeline.withArrays_arr spec8 launch8.win.arr_inj c _ _ w
theorem B12_of_ne (c : Dev nD) (b : Ref sig .tc) (hb : ∀ w, Pipeline.arrRef spec8 w ≠ b) :
    B12 m c (Proc.devRef .tc b) = B11 m c (Proc.devRef .tc b) := by
  unfold B12; exact Pipeline.withArrays_of_ne spec8 c _ _ b hb
abbrev E12 : (c : Dev nD) → (b : Ref sig .tc) → Buf (Elt F) ((c : Thread nD τ).loc b) := fun c b => B12 m c b
theorem hF8 (c : Dev nD) (w : Fin cfg8.W) : (dat8 (E11 m) c).arrAt w cfg8.N = E12 m c (Pipeline.arrRef spec8 w) :=
  (B12_arr m c w).symm
theorem hrest8 (c : Dev nD) : ∀ b, b ∉ Finset.univ.image (Pipeline.arrRef spec8) → E12 m c b = E11 m c b :=
  fun b hb => B12_of_ne m c b fun w e => hb (Finset.mem_image.mpr ⟨w, Finset.mem_univ _, e⟩)

/-! ## Every argument ends as launched: no host operation writes one, and a region either reads it through an
    input window (whose array the write-backs leave as entered) or does not touch it -/

theorem B12_main_arg0 (c : Dev nD) : B12 m c (Proc.devRef .tc main_arg0) = m ((c : Thread nD τ).loc main_arg0) :=
  calc B12 m c (Proc.devRef .tc main_arg0)
    _ = B11 m c (Proc.devRef .tc main_arg0) := B12_of_ne m c main_arg0 (by decide)
    _ = B10 m c (Proc.devRef .tc main_arg0) := B11_of_ne m c main_arg0 (by decide)
    _ = B9 m c (Proc.devRef .tc main_arg0) := B10_of_ne m c main_arg0 (by decide)
    _ = B8 m c (Proc.devRef .tc main_arg0) := B9_of m c main_arg0 (by decide)
    _ = B7 m c (Proc.devRef .tc main_arg0) := B8_of_ne m c main_arg0 (by decide)
    _ = B6 m c (Proc.devRef .tc main_arg0) := B7_of_ne m c main_arg0 (by decide)
    _ = B5 m c (Proc.devRef .tc main_arg0) := B6_of_ne m c main_arg0 (by decide)
    _ = B4 m c (Proc.devRef .tc main_arg0) := B5_of m c main_arg0 (by decide)
    _ = B3 m c (Proc.devRef .tc main_arg0) := B4_of_ne m c main_arg0 (by decide)
    _ = B2 m c (Proc.devRef .tc main_arg0) := (B3_arr m c 0).trans (((dat1 (E2 m) c).arrAt_in 0 rfl _).trans (A_eq1 (E2 m) c 0))
    _ = B1 m c (Proc.devRef .tc main_arg0) := B2_of_ne m c main_arg0 (by decide)
    _ = B0 m c (Proc.devRef .tc main_arg0) := B1_of m c main_arg0 (by decide)
    _ = m ((c : Thread nD τ).loc main_arg0) := rfl

theorem B12_main_arg1 (c : Dev nD) : B12 m c (Proc.devRef .tc main_arg1) = m ((c : Thread nD τ).loc main_arg1) :=
  calc B12 m c (Proc.devRef .tc main_arg1)
    _ = B11 m c (Proc.devRef .tc main_arg1) := B12_of_ne m c main_arg1 (by decide)
    _ = B10 m c (Proc.devRef .tc main_arg1) := B11_of_ne m c main_arg1 (by decide)
    _ = B9 m c (Proc.devRef .tc main_arg1) := B10_of_ne m c main_arg1 (by decide)
    _ = B8 m c (Proc.devRef .tc main_arg1) := B9_of m c main_arg1 (by decide)
    _ = B7 m c (Proc.devRef .tc main_arg1) := B8_of_ne m c main_arg1 (by decide)
    _ = B6 m c (Proc.devRef .tc main_arg1) := B7_of_ne m c main_arg1 (by decide)
    _ = B5 m c (Proc.devRef .tc main_arg1) := B6_of_ne m c main_arg1 (by decide)
    _ = B4 m c (Proc.devRef .tc main_arg1) := B5_of m c main_arg1 (by decide)
    _ = B3 m c (Proc.devRef .tc main_arg1) := B4_of_ne m c main_arg1 (by decide)
    _ = B2 m c (Proc.devRef .tc main_arg1) := B3_of_ne m c main_arg1 (by decide)
    _ = B1 m c (Proc.devRef .tc main_arg1) := (B2_arr m c 0).trans (((dat0 (E1 m) c).arrAt_in 0 rfl _).trans (A_eq0 (E1 m) c 0))
    _ = B0 m c (Proc.devRef .tc main_arg1) := B1_of m c main_arg1 (by decide)
    _ = m ((c : Thread nD τ).loc main_arg1) := rfl

theorem B12_main_arg2 (c : Dev nD) : B12 m c (Proc.devRef .tc main_arg2) = m ((c : Thread nD τ).loc main_arg2) :=
  calc B12 m c (Proc.devRef .tc main_arg2)
    _ = B11 m c (Proc.devRef .tc main_arg2) := B12_of_ne m c main_arg2 (by decide)
    _ = B10 m c (Proc.devRef .tc main_arg2) := B11_of_ne m c main_arg2 (by decide)
    _ = B9 m c (Proc.devRef .tc main_arg2) := B10_of_ne m c main_arg2 (by decide)
    _ = B8 m c (Proc.devRef .tc main_arg2) := B9_of m c main_arg2 (by decide)
    _ = B7 m c (Proc.devRef .tc main_arg2) := B8_of_ne m c main_arg2 (by decide)
    _ = B6 m c (Proc.devRef .tc main_arg2) := B7_of_ne m c main_arg2 (by decide)
    _ = B5 m c (Proc.devRef .tc main_arg2) := B6_of_ne m c main_arg2 (by decide)
    _ = B4 m c (Proc.devRef .tc main_arg2) := B5_of m c main_arg2 (by decide)
    _ = B3 m c (Proc.devRef .tc main_arg2) := B4_of_ne m c main_arg2 (by decide)
    _ = B2 m c (Proc.devRef .tc main_arg2) := B3_of_ne m c main_arg2 (by decide)
    _ = B1 m c (Proc.devRef .tc main_arg2) := (B2_arr m c 1).trans (((dat0 (E1 m) c).arrAt_in 1 rfl _).trans (A_eq0 (E1 m) c 1))
    _ = B0 m c (Proc.devRef .tc main_arg2) := B1_of m c main_arg2 (by decide)
    _ = m ((c : Thread nD τ).loc main_arg2) := rfl

theorem B12_main_arg3 (c : Dev nD) : B12 m c (Proc.devRef .tc main_arg3) = m ((c : Thread nD τ).loc main_arg3) :=
  calc B12 m c (Proc.devRef .tc main_arg3)
    _ = B11 m c (Proc.devRef .tc main_arg3) := B12_of_ne m c main_arg3 (by decide)
    _ = B10 m c (Proc.devRef .tc main_arg3) := B11_of_ne m c main_arg3 (by decide)
    _ = B9 m c (Proc.devRef .tc main_arg3) := B10_of_ne m c main_arg3 (by decide)
    _ = B8 m c (Proc.devRef .tc main_arg3) := B9_of m c main_arg3 (by decide)
    _ = B7 m c (Proc.devRef .tc main_arg3) := B8_of_ne m c main_arg3 (by decide)
    _ = B6 m c (Proc.devRef .tc main_arg3) := B7_of_ne m c main_arg3 (by decide)
    _ = B5 m c (Proc.devRef .tc main_arg3) := B6_of_ne m c main_arg3 (by decide)
    _ = B4 m c (Proc.devRef .tc main_arg3) := B5_of m c main_arg3 (by decide)
    _ = B3 m c (Proc.devRef .tc main_arg3) := B4_of_ne m c main_arg3 (by decide)
    _ = B2 m c (Proc.devRef .tc main_arg3) := B3_of_ne m c main_arg3 (by decide)
    _ = B1 m c (Proc.devRef .tc main_arg3) := B2_of_ne m c main_arg3 (by decide)
    _ = B0 m c (Proc.devRef .tc main_arg3) := B1_of m c main_arg3 (by decide)
    _ = m ((c : Thread nD τ).loc main_arg3) := rfl

theorem B12_main_arg4 (c : Dev nD) : B12 m c (Proc.devRef .tc main_arg4) = m ((c : Thread nD τ).loc main_arg4) :=
  calc B12 m c (Proc.devRef .tc main_arg4)
    _ = B11 m c (Proc.devRef .tc main_arg4) := B12_of_ne m c main_arg4 (by decide)
    _ = B10 m c (Proc.devRef .tc main_arg4) := B11_of_ne m c main_arg4 (by decide)
    _ = B9 m c (Proc.devRef .tc main_arg4) := B10_of_ne m c main_arg4 (by decide)
    _ = B8 m c (Proc.devRef .tc main_arg4) := B9_of m c main_arg4 (by decide)
    _ = B7 m c (Proc.devRef .tc main_arg4) := B8_of_ne m c main_arg4 (by decide)
    _ = B6 m c (Proc.devRef .tc main_arg4) := B7_of_ne m c main_arg4 (by decide)
    _ = B5 m c (Proc.devRef .tc main_arg4) := B6_of_ne m c main_arg4 (by decide)
    _ = B4 m c (Proc.devRef .tc main_arg4) := B5_of m c main_arg4 (by decide)
    _ = B3 m c (Proc.devRef .tc main_arg4) := B4_of_ne m c main_arg4 (by decide)
    _ = B2 m c (Proc.devRef .tc main_arg4) := B3_of_ne m c main_arg4 (by decide)
    _ = B1 m c (Proc.devRef .tc main_arg4) := B2_of_ne m c main_arg4 (by decide)
    _ = B0 m c (Proc.devRef .tc main_arg4) := B1_of m c main_arg4 (by decide)
    _ = m ((c : Thread nD τ).loc main_arg4) := rfl

theorem B12_main_arg5 (c : Dev nD) : B12 m c (Proc.devRef .tc main_arg5) = m ((c : Thread nD τ).loc main_arg5) :=
  calc B12 m c (Proc.devRef .tc main_arg5)
    _ = B11 m c (Proc.devRef .tc main_arg5) := B12_of_ne m c main_arg5 (by decide)
    _ = B10 m c (Proc.devRef .tc main_arg5) := B11_of_ne m c main_arg5 (by decide)
    _ = B9 m c (Proc.devRef .tc main_arg5) := B10_of_ne m c main_arg5 (by decide)
    _ = B8 m c (Proc.devRef .tc main_arg5) := B9_of m c main_arg5 (by decide)
    _ = B7 m c (Proc.devRef .tc main_arg5) := B8_of_ne m c main_arg5 (by decide)
    _ = B6 m c (Proc.devRef .tc main_arg5) := B7_of_ne m c main_arg5 (by decide)
    _ = B5 m c (Proc.devRef .tc main_arg5) := (B6_arr m c 1).trans (((dat3 (E5 m) c).arrAt_in 1 rfl _).trans (A_eq3 (E5 m) c 1))
    _ = B4 m c (Proc.devRef .tc main_arg5) := B5_of m c main_arg5 (by decide)
    _ = B3 m c (Proc.devRef .tc main_arg5) := B4_of_ne m c main_arg5 (by decide)
    _ = B2 m c (Proc.devRef .tc main_arg5) := B3_of_ne m c main_arg5 (by decide)
    _ = B1 m c (Proc.devRef .tc main_arg5) := B2_of_ne m c main_arg5 (by decide)
    _ = B0 m c (Proc.devRef .tc main_arg5) := B1_of m c main_arg5 (by decide)
    _ = m ((c : Thread nD τ).loc main_arg5) := rfl

theorem B12_main_arg6 (c : Dev nD) : B12 m c (Proc.devRef .tc main_arg6) = m ((c : Thread nD τ).loc main_arg6) :=
  calc B12 m c (Proc.devRef .tc main_arg6)
    _ = B11 m c (Proc.devRef .tc main_arg6) := B12_of_ne m c main_arg6 (by decide)
    _ = B10 m c (Proc.devRef .tc main_arg6) := B11_of_ne m c main_arg6 (by decide)
    _ = B9 m c (Proc.devRef .tc main_arg6) := B10_of_ne m c main_arg6 (by decide)
    _ = B8 m c (Proc.devRef .tc main_arg6) := B9_of m c main_arg6 (by decide)
    _ = B7 m c (Proc.devRef .tc main_arg6) := B8_of_ne m c main_arg6 (by decide)
    _ = B6 m c (Proc.devRef .tc main_arg6) := B7_of_ne m c main_arg6 (by decide)
    _ = B5 m c (Proc.devRef .tc main_arg6) := B6_of_ne m c main_arg6 (by decide)
    _ = B4 m c (Proc.devRef .tc main_arg6) := B5_of m c main_arg6 (by decide)
    _ = B3 m c (Proc.devRef .tc main_arg6) := B4_of_ne m c main_arg6 (by decide)
    _ = B2 m c (Proc.devRef .tc main_arg6) := B3_of_ne m c main_arg6 (by decide)
    _ = B1 m c (Proc.devRef .tc main_arg6) := B2_of_ne m c main_arg6 (by decide)
    _ = B0 m c (Proc.devRef .tc main_arg6) := B1_of m c main_arg6 (by decide)
    _ = m ((c : Thread nD τ).loc main_arg6) := rfl

theorem B12_main_arg7 (c : Dev nD) : B12 m c (Proc.devRef .tc main_arg7) = m ((c : Thread nD τ).loc main_arg7) :=
  calc B12 m c (Proc.devRef .tc main_arg7)
    _ = B11 m c (Proc.devRef .tc main_arg7) := B12_of_ne m c main_arg7 (by decide)
    _ = B10 m c (Proc.devRef .tc main_arg7) := B11_of_ne m c main_arg7 (by decide)
    _ = B9 m c (Proc.devRef .tc main_arg7) := B10_of_ne m c main_arg7 (by decide)
    _ = B8 m c (Proc.devRef .tc main_arg7) := B9_of m c main_arg7 (by decide)
    _ = B7 m c (Proc.devRef .tc main_arg7) := B8_of_ne m c main_arg7 (by decide)
    _ = B6 m c (Proc.devRef .tc main_arg7) := B7_of_ne m c main_arg7 (by decide)
    _ = B5 m c (Proc.devRef .tc main_arg7) := B6_of_ne m c main_arg7 (by decide)
    _ = B4 m c (Proc.devRef .tc main_arg7) := B5_of m c main_arg7 (by decide)
    _ = B3 m c (Proc.devRef .tc main_arg7) := B4_of_ne m c main_arg7 (by decide)
    _ = B2 m c (Proc.devRef .tc main_arg7) := B3_of_ne m c main_arg7 (by decide)
    _ = B1 m c (Proc.devRef .tc main_arg7) := B2_of_ne m c main_arg7 (by decide)
    _ = B0 m c (Proc.devRef .tc main_arg7) := B1_of m c main_arg7 (by decide)
    _ = m ((c : Thread nD τ).loc main_arg7) := rfl

theorem B12_main_arg8 (c : Dev nD) : B12 m c (Proc.devRef .tc main_arg8) = m ((c : Thread nD τ).loc main_arg8) :=
  calc B12 m c (Proc.devRef .tc main_arg8)
    _ = B11 m c (Proc.devRef .tc main_arg8) := B12_of_ne m c main_arg8 (by decide)
    _ = B10 m c (Proc.devRef .tc main_arg8) := B11_of_ne m c main_arg8 (by decide)
    _ = B9 m c (Proc.devRef .tc main_arg8) := (B10_arr m c 1).trans (((dat6 (E9 m) c).arrAt_in 1 rfl _).trans (A_eq6 (E9 m) c 1))
    _ = B8 m c (Proc.devRef .tc main_arg8) := B9_of m c main_arg8 (by decide)
    _ = B7 m c (Proc.devRef .tc main_arg8) := B8_of_ne m c main_arg8 (by decide)
    _ = B6 m c (Proc.devRef .tc main_arg8) := B7_of_ne m c main_arg8 (by decide)
    _ = B5 m c (Proc.devRef .tc main_arg8) := B6_of_ne m c main_arg8 (by decide)
    _ = B4 m c (Proc.devRef .tc main_arg8) := B5_of m c main_arg8 (by decide)
    _ = B3 m c (Proc.devRef .tc main_arg8) := B4_of_ne m c main_arg8 (by decide)
    _ = B2 m c (Proc.devRef .tc main_arg8) := B3_of_ne m c main_arg8 (by decide)
    _ = B1 m c (Proc.devRef .tc main_arg8) := B2_of_ne m c main_arg8 (by decide)
    _ = B0 m c (Proc.devRef .tc main_arg8) := B1_of m c main_arg8 (by decide)
    _ = m ((c : Thread nD τ).loc main_arg8) := rfl

theorem B12_main_arg9 (c : Dev nD) : B12 m c (Proc.devRef .tc main_arg9) = m ((c : Thread nD τ).loc main_arg9) :=
  calc B12 m c (Proc.devRef .tc main_arg9)
    _ = B11 m c (Proc.devRef .tc main_arg9) := B12_of_ne m c main_arg9 (by decide)
    _ = B10 m c (Proc.devRef .tc main_arg9) := B11_of_ne m c main_arg9 (by decide)
    _ = B9 m c (Proc.devRef .tc main_arg9) := B10_of_ne m c main_arg9 (by decide)
    _ = B8 m c (Proc.devRef .tc main_arg9) := B9_of m c main_arg9 (by decide)
    _ = B7 m c (Proc.devRef .tc main_arg9) := B8_of_ne m c main_arg9 (by decide)
    _ = B6 m c (Proc.devRef .tc main_arg9) := B7_of_ne m c main_arg9 (by decide)
    _ = B5 m c (Proc.devRef .tc main_arg9) := B6_of_ne m c main_arg9 (by decide)
    _ = B4 m c (Proc.devRef .tc main_arg9) := B5_of m c main_arg9 (by decide)
    _ = B3 m c (Proc.devRef .tc main_arg9) := B4_of_ne m c main_arg9 (by decide)
    _ = B2 m c (Proc.devRef .tc main_arg9) := B3_of_ne m c main_arg9 (by decide)
    _ = B1 m c (Proc.devRef .tc main_arg9) := B2_of_ne m c main_arg9 (by decide)
    _ = B0 m c (Proc.devRef .tc main_arg9) := B1_of m c main_arg9 (by decide)
    _ = m ((c : Thread nD τ).loc main_arg9) := rfl

theorem B12_main_arg10 (c : Dev nD) : B12 m c (Proc.devRef .tc main_arg10) = m ((c : Thread nD τ).loc main_arg10) :=
  calc B12 m c (Proc.devRef .tc main_arg10)
    _ = B11 m c (Proc.devRef .tc main_arg10) := B12_of_ne m c main_arg10 (by decide)
    _ = B10 m c (Proc.devRef .tc main_arg10) := B11_of_ne m c main_arg10 (by decide)
    _ = B9 m c (Proc.devRef .tc main_arg10) := B10_of_ne m c main_arg10 (by decide)
    _ = B8 m c (Proc.devRef .tc main_arg10) := B9_of m c main_arg10 (by decide)
    _ = B7 m c (Proc.devRef .tc main_arg10) := B8_of_ne m c main_arg10 (by decide)
    _ = B6 m c (Proc.devRef .tc main_arg10) := B7_of_ne m c main_arg10 (by decide)
    _ = B5 m c (Proc.devRef .tc main_arg10) := B6_of_ne m c main_arg10 (by decide)
    _ = B4 m c (Proc.devRef .tc main_arg10) := B5_of m c main_arg10 (by decide)
    _ = B3 m c (Proc.devRef .tc main_arg10) := B4_of_ne m c main_arg10 (by decide)
    _ = B2 m c (Proc.devRef .tc main_arg10) := B3_of_ne m c main_arg10 (by decide)
    _ = B1 m c (Proc.devRef .tc main_arg10) := B2_of_ne m c main_arg10 (by decide)
    _ = B0 m c (Proc.devRef .tc main_arg10) := B1_of m c main_arg10 (by decide)
    _ = m ((c : Thread nD τ).loc main_arg10) := rfl

/-! ## The proof data family and the thread state -/

abbrev adm : (p : Fin 9) → (pcfgs (F := F) p).Adm := fun p => (cfgs p).toPCfg_adm
/-- Every region's proof data at its entry contents. -/
def pdats : (p : Fin 9) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E2 m) c
  | ⟨2, _⟩ => fun c => dat2 (E3 m) c
  | ⟨3, _⟩ => fun c => dat3 (E5 m) c
  | ⟨4, _⟩ => fun c => dat4 (E6 m) c
  | ⟨5, _⟩ => fun c => dat5 (E7 m) c
  | ⟨6, _⟩ => fun c => dat6 (E9 m) c
  | ⟨7, _⟩ => fun c => dat7 (E10 m) c
  | ⟨8, _⟩ => fun c => dat8 (E11 m) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (B12 m c) ∗ ∃ r, prngReg c r)

/-! ## The regions as segments -/

set_option backward.isDefEq.respectTransparency.types false in
/-- Region 0: entered from the buffers at boundary 1, left at boundary 2. Its windows' arrays are split out of the
    unscoped buffers and put back at the exit contents; the generator register goes into the region's invariant
    with the scoped rest and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (B1 m c) ∗ R c)
  post c := iprop(StableHlo.held (c : Thread nD τ) (Pipeline.ucRefs τ sig) (B2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec0 c ⊢ (pdats m 0 c).Φ 0 from hin0 (E1 m) c)
    unfold Pipeline.ΦA
    iintro ⟨Hp, -, Hr⟩
    isplitl [Hr]; · iexact Hr
    iexact Hp
  hout c := by
    rw [Pipeline.ownSems0_none]
    refine BIBase.Entails.trans (show (pdats m 0 c).Φ (Fin.last _) ⊢ Pipeline.ΦA spec0 c from hout0 (E1 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from the buffers at boundary 2, left at boundary 3. Its windows' arrays are split out of the
    unscoped buffers and put back at the exit contents; the generator register goes into the region's invariant
    with the scoped rest and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E2 m) c).loose
  hwaits := Pipeline.hwaits_of_owed_zero _ _ _ _ L lv 1 fun _ _ => rfl
  pre c := iprop(StableHlo.held (c : Thread nD τ) (Pipeline.ucRefs τ sig) (B2 m c) ∗ R c)
  post c := iprop(StableHlo.held (c : Thread nD τ) (Pipeline.ucRefs τ sig) (B3 m c) ∗ R c)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec1 c ⊢ (pdats m 1 c).Φ 0 from hin1 (E2 m) c)
    unfold Pipeline.ΦA
    iintro ⟨Hp, -, Hr⟩
    isplitl [Hr]; · iexact Hr
    iexact Hp
  hout c := by
    rw [Pipeline.ownSems0_none]
    refine BIBase.Entails.trans (show (pdats m 1 c).Φ (Fin.last _) ⊢ Pipeline.ΦA spec1 c from hout1 (E2 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E2 m c) (E3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: entered from the buffers at boundary 3, left at boundary 4. Its windows' arrays are split out of the
    unscoped buffers and put back at the exit contents; the generator register goes into the region's invariant
    with the scoped rest and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E3 m) c).loose
  hwaits := Pipeline.hwaits_of_owed_zero _ _ _ _ L lv 2 fun _ _ => rfl
  pre c := iprop(StableHlo.held (c : Thread nD τ) (Pipeline.ucRefs τ sig) (B3 m c) ∗ R c)
  post c := iprop(StableHlo.held (c : Thread nD τ) (Pipeline.ucRefs τ sig) (B4 m c) ∗ R c)
  X c := iprop(∃ r, prngReg c r)
  Y c := iprop(∃ r, prngReg c r)
  Z c := Pipeline.unscopedRest (Ix := Unit) (Name := ℕ) (U := UR sig nD τ) (Lvl := ℕ) spec2 c (E3 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec2 c ⊢ (pdats m 2 c).Φ 0 from hin2 (E3 m) c)
    unfold Pipeline.ΦA
    iintro ⟨Hp, -, Hr⟩
    isplitl [Hr]; · iexact Hr
    iexact Hp
  hout c := by
    rw [Pipeline.ownSems0_none]
    refine BIBase.Entails.trans (show (pdats m 2 c).Φ (Fin.last _) ⊢ Pipeline.ΦA spec2 c from hout2 (E3 m) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E3 m c) (E4 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3: entered from the buffers at boundary 5, left at boundary 6. Its windows' arrays are split out of the
    unscoped buffers and put back at the exit contents; the generator register goes into the region's invariant
    with the scoped rest and comes back; nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (E5 m) c).loose
  hwaits := Pipeline.hwaits_of_owed_zero _ _ _ _ L lv 3 fun _ _ => rfl
  pre c := iprop(StableHlo.held (c : Thread nD τ) (Pipeline.ucRefs τ sig) (B5 m c) ∗ R c)
  post c := iprop(StableHlo.held (c : Thread nD τ) (Pipeline.ucRefs τ sig) (B6 m c) ∗ R c)
  X c := iprop(∃ r, prngReg c r)
  Y c := iprop(∃ r, prngReg c r)
  Z c := Pipeline.unscopedRest (Ix := Unit) (Name := ℕ) (U := UR sig nD τ) (Lvl := ℕ) spec3 c (E5 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec3 c ⊢ (pdats m 3 c).Φ 0 from hin3 (E5 m) c)
    unfold Pipeline.ΦA
    iintro ⟨Hp, -, Hr⟩
    isplitl [Hr]; · iexact Hr
    iexact Hp
  hout c := by
    rw [Pipeline.ownSems0_none]
    refine BIBase.Entails.trans (show (pdats m 3 c).Φ (Fin.last _) ⊢ Pipeline.ΦA spec3 c from hout3 (E5 m) c) ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (E5 m c) (E6 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4: entered from the buffers at boundary 6, left at boundary 7. Its windows' arrays are split out of the
    unscoped buffers and put back at the exit contents; the generator register goes into the region's invariant
    with the scoped rest and comes back; nothing is owed; the kernel has no semaphore of its own. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (E6 m) c).loose
  hwaits := Pipeline.hwaits_of_owed_zero _ _ _ _ L lv 4 fun _ _ => rfl
  pre c := iprop(StableHlo.held (c : Thread nD τ) (Pipeline.ucRefs τ sig) (B6 m c) ∗ R c)
  post c := iprop(StableHlo.held (c : Thread nD τ) (Pipeline.ucRefs τ sig) (B7 m c) ∗ R c)
  X c := iprop(∃ r, prngReg c r)
  Y c := iprop(∃ r, prngReg c r)
  Z c := Pipeline.unscopedRest (Ix := Unit) (Name := ℕ) (U := UR sig nD τ) (Lvl := ℕ) spec4 c (E6 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (E6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec4 c ⊢ (pdats m 4 c).Φ 0 from hin4 (E6 m) c)
    unfold Pipeline.ΦA
    iintro ⟨Hp, -, Hr⟩
    isplitl [Hr]; · iexact Hr
    iexact Hp
  hout c := by
    rw [Pipeline.ownSems0_none]
    refine BIBase.Entails.trans (show (pdats m 4 c).Φ (Fin.last _) ⊢ Pipeline.ΦA spec4 c from hout4 (E6 m) c) ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (E6 m c) (E7 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5: entered from the buffers at boundary 7, left at boundary 8. Its windows' arrays are split out of the
    unscoped buffers and put back at the exit contents; the generator register goes into the region's invariant
    with the scoped rest and comes back; nothing is owed; the kernel has no semaphore of its own. -/
def reg5 : Pipeline.RegionSeg (pcfgs (F := F)) adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (E7 m) c).loose
  hwaits := Pipeline.hwaits_of_owed_zero _ _ _ _ L lv 5 fun _ _ => rfl
  pre c := iprop(StableHlo.held (c : Thread nD τ) (Pipeline.ucRefs τ sig) (B7 m c) ∗ R c)
  post c := iprop(StableHlo.held (c : Thread nD τ) (Pipeline.ucRefs τ sig) (B8 m c) ∗ R c)
  X c := iprop(∃ r, prngReg c r)
  Y c := iprop(∃ r, prngReg c r)
  Z c := Pipeline.unscopedRest (Ix := Unit) (Name := ℕ) (U := UR sig nD τ) (Lvl := ℕ) spec5 c (E7 m c)
  hentry c := by
    rw [Pipeline.ownSems0_none]
    have hsplit := Pipeline.arrays_of_unscopedBufs (p := 5) (pcfgs (F := F)) adm (pdats m) launch5.win launch5.arr_whole c
      ((pdats m 5 c).share_full fun _ => rfl) (E7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec5 c ⊢ (pdats m 5 c).Φ 0 from hin5 (E7 m) c)
    unfold Pipeline.ΦA
    iintro ⟨Hp, -, Hr⟩
    isplitl [Hr]; · iexact Hr
    iexact Hp
  hout c := by
    rw [Pipeline.ownSems0_none]
    refine BIBase.Entails.trans (show (pdats m 5 c).Φ (Fin.last _) ⊢ Pipeline.ΦA spec5 c from hout5 (E7 m) c) ?_
    unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (E7 m c) (E8 m c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6: entered from the buffers at boundary 9, left at boundary 10. Its windows' arrays are split out of the
    unscoped buffers and put back at the exit contents; the generator register goes into the region's invariant
    with the scoped rest and comes back; nothing is owed; the kernel has no semaphore of its own. -/
def reg6 : Pipeline.RegionSeg (pcfgs (F := F)) adm (pdats m) () defs₀ 𝒱₀ L lv 6 where
  win := launch6.win.to₀
  block_pos := launch6.block_pos
  stage_whole := launch6.stage_whole
  K := PEmpty
  osem k := k.elim
  ho := Pipeline.OwnSemFacts.none _
  hbody c := (body_obligation6 (E9 m) c).loose
  hwaits := Pipeline.hwaits_of_owed_zero _ _ _ _ L lv 6 fun _ _ => rfl
  pre c := iprop(StableHlo.held (c : Thread nD τ) (Pipeline.ucRefs τ sig) (B9 m c) ∗ R c)
  post c := iprop(StableHlo.held (c : Thread nD τ) (Pipeline.ucRefs τ sig) (B10 m c) ∗ R c)
  X c := iprop(∃ r, prngReg c r)
  Y c := iprop(∃ r, prngReg c r)
  Z c := Pipeline.unscopedRest (Ix := Unit) (Name := ℕ) (U := UR sig nD τ) (Lvl := ℕ) spec6 c (E9 m c)
  hentry c := by
    rw [Pipeline.ownSems0_none]
    have hsplit := Pipeline.arrays_of_unscopedBufs (p := 6) (pcfgs (F := F)) adm (pdats m) launch6.win launch6.arr_whole c
      ((pdats m 6 c).share_full fun _ => rfl) (E9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec6 c ⊢ (pdats m 6 c).Φ 0 from hin6 (E9 m) c)
    unfold Pipeline.ΦA
    iintro ⟨Hp, -, Hr⟩
    isplitl [Hr]; · iexact Hr
    iexact Hp
  hout c := by
    rw [Pipeline.ownSems0_none]
    refine BIBase.Entails.trans (show (pdats m 6 c).Φ (Fin.last _) ⊢ Pipeline.ΦA spec6 c from hout6 (E9 m) c) ?_
    unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full fun _ => rfl)
      (E9 m c) (E10 m c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 7: entered from the buffers at boundary 10, left at boundary 11. Its windows' arrays are split out of the
    unscoped buffers and put back at the exit contents; the generator register goes into the region's invariant
    with the scoped rest and comes back; nothing is owed; the kernel has no semaphore of its own. -/
def reg7 : Pipeline.RegionSeg (pcfgs (F := F)) adm (pdats m) () defs₀ 𝒱₀ L lv 7 where
  win := launch7.win.to₀
  block_pos := launch7.block_pos
  stage_whole := launch7.stage_whole
  K := PEmpty
  osem k := k.elim
  ho := Pipeline.OwnSemFacts.none _
  hbody c := (body_obligation7 (E10 m) c).loose
  hwaits := Pipeline.hwaits_of_owed_zero _ _ _ _ L lv 7 fun _ _ => rfl
  pre c := iprop(StableHlo.held (c : Thread nD τ) (Pipeline.ucRefs τ sig) (B10 m c) ∗ R c)
  post c := iprop(StableHlo.held (c : Thread nD τ) (Pipeline.ucRefs τ sig) (B11 m c) ∗ R c)
  X c := iprop(∃ r, prngReg c r)
  Y c := iprop(∃ r, prngReg c r)
  Z c := Pipeline.unscopedRest (Ix := Unit) (Name := ℕ) (U := UR sig nD τ) (Lvl := ℕ) spec7 c (E10 m c)
  hentry c := by
    rw [Pipeline.ownSems0_none]
    have hsplit := Pipeline.arrays_of_unscopedBufs (p := 7) (pcfgs (F := F)) adm (pdats m) launch7.win launch7.arr_whole c
      ((pdats m 7 c).share_full fun _ => rfl) (E10 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec7 c ⊢ (pdats m 7 c).Φ 0 from hin7 (E10 m) c)
    unfold Pipeline.ΦA
    iintro ⟨Hp, -, Hr⟩
    isplitl [Hr]; · iexact Hr
    iexact Hp
  hout c := by
    rw [Pipeline.ownSems0_none]
    refine BIBase.Entails.trans (show (pdats m 7 c).Φ (Fin.last _) ⊢ Pipeline.ΦA spec7 c from hout7 (E10 m) c) ?_
    unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m) ((pdats m 7 c).share_full fun _ => rfl)
      (E10 m c) (E11 m c) ((pdats m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 8: entered from the buffers at boundary 11, left at boundary 12. Its windows' arrays are split out of the
    unscoped buffers and put back at the exit contents; the generator register goes into the region's invariant
    with the scoped rest and comes back; nothing is owed; the kernel has no semaphore of its own. -/
def reg8 : Pipeline.RegionSeg (pcfgs (F := F)) adm (pdats m) () defs₀ 𝒱₀ L lv 8 where
  win := launch8.win.to₀
  block_pos := launch8.block_pos
  stage_whole := launch8.stage_whole
  K := PEmpty
  osem k := k.elim
  ho := Pipeline.OwnSemFacts.none _
  hbody c := (body_obligation8 (E11 m) c).loose
  hwaits := Pipeline.hwaits_of_owed_zero _ _ _ _ L lv 8 fun _ _ => rfl
  pre c := iprop(StableHlo.held (c : Thread nD τ) (Pipeline.ucRefs τ sig) (B11 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec8 c (E11 m c)
  hentry c := by
    rw [Pipeline.ownSems0_none]
    have hsplit := Pipeline.arrays_of_unscopedBufs (p := 8) (pcfgs (F := F)) adm (pdats m) launch8.win launch8.arr_whole c
      ((pdats m 8 c).share_full fun _ => rfl) (E11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec8 c ⊢ (pdats m 8 c).Φ 0 from hin8 (E11 m) c)
    unfold Pipeline.ΦA
    iintro ⟨Hp, -, Hr⟩
    isplitl [Hr]; · iexact Hr
    iexact Hp
  hout c := by
    rw [Pipeline.ownSems0_none]
    refine BIBase.Entails.trans (show (pdats m 8 c).Φ (Fin.last _) ⊢ Pipeline.ΦA spec8 c from hout8 (E11 m) c) ?_
    unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m) ((pdats m 8 c).share_full fun _ => rfl)
      (E11 m c) (E12 m c) ((pdats m 8 c).arrAt · cfg8.N) (hF8 m c) (hrest8 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its items, and the run -/

abbrev segs : List (Pipeline.Seg (pcfgs (F := F)) adm (pdats m) () defs₀ 𝒱₀ L lv) :=
  [ .host (hseg hostOps0 hostOps0_sub hostOps0_fresh (B0 m)),
    .region (reg0 m),
    .region (reg1 m),
    .region (reg2 m),
    .host (hseg hostOps3 hostOps3_sub hostOps3_fresh (B4 m)),
    .region (reg3 m),
    .region (reg4 m),
    .region (reg5 m),
    .host (hseg hostOps6 hostOps6_sub hostOps6_fresh (B8 m)),
    .region (reg6 m),
    .region (reg7 m),
    .region (reg8 m) ]
theorem main_run (c : Dev nD) : main (F := F) c = Pipeline.Seg.run (segs m) := (main_chain c).trans (by chain_rfl)

variable (ρ : Dev nD → PrngReg)

set_option backward.isDefEq.respectTransparency.types false in
/-- From any memory with zero counters every weakly fair execution of the program terminates, nothing faulting;
    the result buffer ends at what region 8's write-backs leave in its wide output array, and every argument ends
    as launched. -/
theorem run : θ_run defs (onTc (τ := τ) (main (F := F))) ⟨m, fun _ => 0, ρ⟩ (fun r => ∀ c : Dev nD,
      r.2.mem ((c.tc : Thread nD τ).loc main_v29_1) = B12 m c (Proc.devRef .tc main_v29_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B12 m c b)
    (hfin := fun c s' => by
      iintro ⟨⟨Hh, -⟩, HSI⟩
      unfold StableHlo.held
      imodintro
      iapply (pointsTo_read_all (Pipeline.ucRefs τ sig) (fun b => (((c : Thread nD τ)).1, b)) (B12 m c) s')
      isplitl [Hh] <;> iassumption)
    (hQ := fun s h c =>
      ⟨h c _ (mem_uc main_v29_1 (by decide)),
       (h c _ (mem_uc main_arg0 (by decide))).trans (B12_main_arg0 m c),
       (h c _ (mem_uc main_arg1 (by decide))).trans (B12_main_arg1 m c),
       (h c _ (mem_uc main_arg2 (by decide))).trans (B12_main_arg2 m c),
       (h c _ (mem_uc main_arg3 (by decide))).trans (B12_main_arg3 m c),
       (h c _ (mem_uc main_arg4 (by decide))).trans (B12_main_arg4 m c),
       (h c _ (mem_uc main_arg5 (by decide))).trans (B12_main_arg5 m c),
       (h c _ (mem_uc main_arg6 (by decide))).trans (B12_main_arg6 m c),
       (h c _ (mem_uc main_arg7 (by decide))).trans (B12_main_arg7 m c),
       (h c _ (mem_uc main_arg8 (by decide))).trans (B12_main_arg8 m c),
       (h c _ (mem_uc main_arg9 (by decide))).trans (B12_main_arg9 m c),
       (h c _ (mem_uc main_arg10 (by decide))).trans (B12_main_arg10 m c)⟩)

end Cert.KernelIdeal.Hand

end
-- ==== Proof.Spec.lean ====
/-
  The specification shared by both sides of the certificate, over the extended reals and index by index.

  A matrix is a function on the rank-2 index set of a literal shape; `prod A B` is the textbook product,
  at (r, q) the sum over the whole contraction range of A (r, k) * B (k, q). A contraction of length 8192 that is
  accumulated in four consecutive runs of 2048 terms, starting from zero, is the whole sum (`sum_tiles`): addition
  of extended reals is commutative and associative, so no finiteness is used.

  One layer of the network applies the polynomial graph filter of order three to X W:
      sx0 = X W,  sx1 = S sx0,  sx2 = S sx1,
      out = ((h 0 * sx0 + h 1 * sx1) + h 2 * sx2) + b   (b added to every row),
  followed, for the first two layers, by the maximum with zero. The products by the filter taps stand to the LEFT of
  the propagated features and the sums associate to the left, as written. `net` composes the three layers.
-/
import Idealize.ShloMosaic.PureOps.Ideal
import Idealize.ShloMosaic.Lib.ValueIdx

noncomputable section

open scoped BigOperators

namespace Cert.Spec

open Idealize.ShloMosaic Idealize.ShloMosaic.ValueIdx

/-- An n × d matrix of extended reals, indexed by the rank-2 index set of the shape [n, d]. -/
abbrev Mat (n d : ℕ) : Type := (⟨2, ![n, d]⟩ : Shape).Idx → EReal
/-- A vector of n extended reals, indexed by the rank-1 index set of the shape [n]. -/
abbrev Vec1 (n : ℕ) : Type := (⟨1, ![n]⟩ : Shape).Idx → EReal

/-- The float word of +0.0 read as an extended real: the constant the rectifier compares with. -/
abbrev zeroWord : EReal := Ideal.ofBits .f32 0x00000000#32

/-- The matrix product: at (r, q) the sum over the contraction range of A (r, k) * B (k, q). -/
def prod {n k d : ℕ} (A : Mat n k) (B : Mat k d) : Mat n d :=
  fun i => ∑ j : Fin k, A (ix2 (i 0) j) * B (ix2 j (i 1))

theorem prod_apply {n k d : ℕ} (A : Mat n k) (B : Mat k d) (r : Fin n) (q : Fin d) :
    prod A B (ix2 r q) = ∑ j : Fin k, A (ix2 r j) * B (ix2 j q) := rfl

/-- A sum over 8192 terms taken in four consecutive runs of 2048, each added to what was accumulated before,
    starting from zero, is the whole sum. -/
theorem sum_tiles (f : Fin 8192 → EReal) :
    ((((0 + ∑ i : Fin 2048, f ⟨i.val, by omega⟩) + ∑ i : Fin 2048, f ⟨2048 + i.val, by omega⟩)
        + ∑ i : Fin 2048, f ⟨4096 + i.val, by omega⟩) + ∑ i : Fin 2048, f ⟨6144 + i.val, by omega⟩)
      = ∑ j : Fin 8192, f j := by
  have e : ∑ j : Fin 8192, f j = ∑ j : Fin (2048 + 2048 + 2048 + 2048), f j := rfl
  rw [e, Fin.sum_univ_add, Fin.sum_univ_add, Fin.sum_univ_add, zero_add]
  rfl

/-- The same law for the products of a row of S with a column of Sx: the four partial products over the column
    tiles of S, accumulated from zero, are the entry of the whole product. -/
theorem prod_tiles {d : ℕ} (S : Mat 8192 8192) (Sx : Mat 8192 d) (r : Fin 8192) (q : Fin d) :
    ((((0 + ∑ i : Fin 2048, S (ix2 r ⟨i.val, by omega⟩) * Sx (ix2 ⟨i.val, by omega⟩ q))
          + ∑ i : Fin 2048, S (ix2 r ⟨2048 + i.val, by omega⟩) * Sx (ix2 ⟨2048 + i.val, by omega⟩ q))
        + ∑ i : Fin 2048, S (ix2 r ⟨4096 + i.val, by omega⟩) * Sx (ix2 ⟨4096 + i.val, by omega⟩ q))
      + ∑ i : Fin 2048, S (ix2 r ⟨6144 + i.val, by omega⟩) * Sx (ix2 ⟨6144 + i.val, by omega⟩ q))
      = prod S Sx (ix2 r q) :=
  sum_tiles fun j => S (ix2 r j) * Sx (ix2 j q)

section Layer
variable {k d : ℕ}

/-- The features after the dense map: X W. -/
def sx0 (X : Mat 8192 k) (W : Mat k d) : Mat 8192 d := prod X W
/-- The first term of the filter: h 0 * (X W). -/
def out0 (X : Mat 8192 k) (W : Mat k d) (h : Vec1 3) : Mat 8192 d :=
  fun i => h (ix1 0) * sx0 X W i
/-- One propagation: S (X W). -/
def sx1 (S : Mat 8192 8192) (X : Mat 8192 k) (W : Mat k d) : Mat 8192 d := prod S (sx0 X W)
/-- The filter up to its second term. -/
def out1 (S : Mat 8192 8192) (X : Mat 8192 k) (W : Mat k d) (h : Vec1 3) : Mat 8192 d :=
  fun i => out0 X W h i + h (ix1 1) * sx1 S X W i
/-- Two propagations: S (S (X W)). -/
def sx2 (S : Mat 8192 8192) (X : Mat 8192 k) (W : Mat k d) : Mat 8192 d := prod S (sx1 S X W)
/-- The whole filter with the bias row added, before the rectifier. -/
def out2 (S : Mat 8192 8192) (X : Mat 8192 k) (W : Mat k d) (h : Vec1 3) (b : Vec1 d) : Mat 8192 d :=
  fun i => (out1 S X W h i + h (ix1 2) * sx2 S X W i) + b (ix1 (i 1))

/-- One layer: the filter and bias, then the maximum with zero where the layer has a rectifier. -/
def layer (relu : Bool) (S : Mat 8192 8192) (X : Mat 8192 k) (W : Mat k d) (h : Vec1 3) (b : Vec1 d) : Mat 8192 d :=
  match relu with
  | true => fun i => max (out2 S X W h b i) zeroWord
  | false => out2 S X W h b

theorem layer_true (S : Mat 8192 8192) (X : Mat 8192 k) (W : Mat k d) (h : Vec1 3) (b : Vec1 d) :
    layer true S X W h b = fun i => max (out2 S X W h b i) zeroWord := rfl
theorem layer_false (S : Mat 8192 8192) (X : Mat 8192 k) (W : Mat k d) (h : Vec1 3) (b : Vec1 d) :
    layer false S X W h b = out2 S X W h b := rfl

end Layer

/-- The network: two rectified layers 512 → 128 → 128 and a last layer 128 → 64 without rectifier. -/
def net (S : Mat 8192 8192) (X : Mat 8192 512) (W1 : Mat 512 128) (h1 : Vec1 3) (b1 : Vec1 128)
    (W2 : Mat 128 128) (h2 : Vec1 3) (b2 : Vec1 128) (W3 : Mat 128 64) (h3 : Vec1 3) (b3 : Vec1 64) : Mat 8192 64 :=
  layer false S (layer true S (layer true S X W1 h1 b1) W2 h2 b2) W3 h3 b3

end Cert.Spec

end
-- ==== Proof.KI.HostValue.lean ====
/-
  The host operations between the launches, read at an index.

  Before each layer's three launches the program slices the layer's filter vector into its three entries, reshapes
  each to a 1 × 1 matrix, and reshapes the bias vector to a 1 × d matrix. Whatever the buffers hold when such a
  stretch starts, afterwards the 1 × 1 matrices hold entries 0, 1 and 2 of the filter vector and the row holds the
  bias vector: a slice reads its operand at the offset, and a reshape that only adds a leading unit axis keeps
  every entry at its last coordinate.
-/
import proofs.«131271_j4982162063661_2_alg».proof.Proof.Gen.KernelIdeal.Launch
import proofs.«131271_j4982162063661_2_alg».proof.Proof.Spec
import Idealize.ShloMosaic.Lib.StableHlo.Run
import Idealize.ShloMosaic.Lib.Pipeline.Value
import Idealize.ShloMosaic.Lib.ValueLayout

noncomputable section

namespace Cert.KernelIdeal.Hand

open Cert.KernelIdeal Cert.KernelIdeal.Gen
open Idealize.ShloMosaic Idealize.ShloMosaic.TcCoe Idealize.ShloMosaic.StableHlo Idealize.ShloMosaic.ValueIdx

/-- Entry `o` of a length-3 vector, sliced out and reshaped to a 1 × 1 matrix, is that matrix's one entry. -/
theorem tap_read (x : (⟨1, ![3]⟩ : Shape).Idx → EReal) (o : ℕ) (ho : o < 3)
    (hs : (⟨1, ![3]⟩ : Shape).Slices ![o] ⟨1, ![1]⟩) (hc : (⟨1, ![1]⟩ : Shape).ShapeCasts ⟨2, ![1, 1]⟩) :
    shapeCast ⟨2, ![1, 1]⟩ (extractStridedSlice ⟨1, ![1]⟩ ![o] x hs) hc (ix2 (0 : Fin 1) (0 : Fin 1))
      = x (ix1 (⟨o, ho⟩ : Fin 3)) := by
  rw [shapeCast_a_1a_apply]
  exact extractStridedSlice_apply ![o] x hs (ix1 (0 : Fin 1)) (ix1 (⟨o, ho⟩ : Fin 3))
    (fun a => match a with | ⟨0, _⟩ => rfl)

/-- A length-d vector reshaped to a 1 × d matrix keeps its entries. -/
theorem row_read {d : ℕ} (x : (⟨1, ![d]⟩ : Shape).Idx → EReal) (hc : (⟨1, ![d]⟩ : Shape).ShapeCasts ⟨2, ![1, d]⟩)
    (q : Fin d) : shapeCast ⟨2, ![1, d]⟩ x hc (ix2 (0 : Fin 1) q) = x (ix1 q) :=
  shapeCast_a_1a_apply x hc 0 q

/-! ## The stretch before layer 1 -/

/-- After the stretch, the matrix of tap 0 holds entry 0 of the filter vector. -/
theorem hostOps0_main_v1 (W : Valuation τ sig (Elt Ideal)) :
    (StableHlo.after hostOps0 W (Proc.devRef .tc main_v1) : S1x1.Idx → EReal) (ix2 (0 : Fin 1) (0 : Fin 1))
      = (W (Proc.devRef .tc main_arg3) : S3.Idx → EReal) (ix1 (0 : Fin 3)) := by
  after_results
  exact tap_read _ 0 (by decide) _ _

/-- After the stretch, the matrix of tap 1 holds entry 1 of the filter vector. -/
theorem hostOps0_main_v3 (W : Valuation τ sig (Elt Ideal)) :
    (StableHlo.after hostOps0 W (Proc.devRef .tc main_v3) : S1x1.Idx → EReal) (ix2 (0 : Fin 1) (0 : Fin 1))
      = (W (Proc.devRef .tc main_arg3) : S3.Idx → EReal) (ix1 (1 : Fin 3)) := by
  after_results
  exact tap_read _ 1 (by decide) _ _

/-- After the stretch, the matrix of tap 2 holds entry 2 of the filter vector. -/
theorem hostOps0_main_v5 (W : Valuation τ sig (Elt Ideal)) :
    (StableHlo.after hostOps0 W (Proc.devRef .tc main_v5) : S1x1.Idx → EReal) (ix2 (0 : Fin 1) (0 : Fin 1))
      = (W (Proc.devRef .tc main_arg3) : S3.Idx → EReal) (ix1 (2 : Fin 3)) := by
  after_results
  exact tap_read _ 2 (by decide) _ _

/-- After the stretch, the bias row holds the bias vector. -/
theorem hostOps0_main_v6 (W : Valuation τ sig (Elt Ideal)) (q : Fin 128) :
    (StableHlo.after hostOps0 W (Proc.devRef .tc main_v6) : S1x128.Idx → EReal) (ix2 (0 : Fin 1) q)
      = (W (Proc.devRef .tc main_arg4) : S128.Idx → EReal) (ix1 q) := by
  after_results
  exact row_read _ _ q

/-! ## The stretch before layer 2 -/

/-- After the stretch, the matrix of tap 0 holds entry 0 of the filter vector. -/
theorem hostOps3_main_v11 (W : Valuation τ sig (Elt Ideal)) :
    (StableHlo.after hostOps3 W (Proc.devRef .tc main_v11) : S1x1.Idx → EReal) (ix2 (0 : Fin 1) (0 : Fin 1))
      = (W (Proc.devRef .tc main_arg6) : S3.Idx → EReal) (ix1 (0 : Fin 3)) := by
  after_results
  exact tap_read _ 0 (by decide) _ _

/-- After the stretch, the matrix of tap 1 holds entry 1 of the filter vector. -/
theorem hostOps3_main_v13 (W : Valuation τ sig (Elt Ideal)) :
    (StableHlo.after hostOps3 W (Proc.devRef .tc main_v13) : S1x1.Idx → EReal) (ix2 (0 : Fin 1) (0 : Fin 1))
      = (W (Proc.devRef .tc main_arg6) : S3.Idx → EReal) (ix1 (1 : Fin 3)) := by
  after_results
  exact tap_read _ 1 (by decide) _ _

/-- After the stretch, the matrix of tap 2 holds entry 2 of the filter vector. -/
theorem hostOps3_main_v15 (W : Valuation τ sig (Elt Ideal)) :
    (StableHlo.after hostOps3 W (Proc.devRef .tc main_v15) : S1x1.Idx → EReal) (ix2 (0 : Fin 1) (0 : Fin 1))
      = (W (Proc.devRef .tc main_arg6) : S3.Idx → EReal) (ix1 (2 : Fin 3)) := by
  after_results
  exact tap_read _ 2 (by decide) _ _

/-- After the stretch, the bias row holds the bias vector. -/
theorem hostOps3_main_v16 (W : Valuation τ sig (Elt Ideal)) (q : Fin 128) :
    (StableHlo.after hostOps3 W (Proc.devRef .tc main_v16) : S1x128.Idx → EReal) (ix2 (0 : Fin 1) q)
      = (W (Proc.devRef .tc main_arg7) : S128.Idx → EReal) (ix1 q) := by
  after_results
  exact row_read _ _ q

/-! ## The stretch before layer 3 -/

/-- After the stretch, the matrix of tap 0 holds entry 0 of the filter vector. -/
theorem hostOps6_main_v21 (W : Valuation τ sig (Elt Ideal)) :
    (StableHlo.after hostOps6 W (Proc.devRef .tc main_v21) : S1x1.Idx → EReal) (ix2 (0 : Fin 1) (0 : Fin 1))
      = (W (Proc.devRef .tc main_arg9) : S3.Idx → EReal) (ix1 (0 : Fin 3)) := by
  after_results
  exact tap_read _ 0 (by decide) _ _

/-- After the stretch, the matrix of tap 1 holds entry 1 of the filter vector. -/
theorem hostOps6_main_v23 (W : Valuation τ sig (Elt Ideal)) :
    (StableHlo.after hostOps6 W (Proc.devRef .tc main_v23) : S1x1.Idx → EReal) (ix2 (0 : Fin 1) (0 : Fin 1))
      = (W (Proc.devRef .tc main_arg9) : S3.Idx → EReal) (ix1 (1 : Fin 3)) := by
  after_results
  exact tap_read _ 1 (by decide) _ _

/-- After the stretch, the matrix of tap 2 holds entry 2 of the filter vector. -/
theorem hostOps6_main_v25 (W : Valuation τ sig (Elt Ideal)) :
    (StableHlo.after hostOps6 W (Proc.devRef .tc main_v25) : S1x1.Idx → EReal) (ix2 (0 : Fin 1) (0 : Fin 1))
      = (W (Proc.devRef .tc main_arg9) : S3.Idx → EReal) (ix1 (2 : Fin 3)) := by
  after_results
  exact tap_read _ 2 (by decide) _ _

/-- After the stretch, the bias row holds the bias vector. -/
theorem hostOps6_main_v26 (W : Valuation τ sig (Elt Ideal)) (q : Fin 64) :
    (StableHlo.after hostOps6 W (Proc.devRef .tc main_v26) : S1x64.Idx → EReal) (ix2 (0 : Fin 1) q)
      = (W (Proc.devRef .tc main_arg10) : S64.Idx → EReal) (ix1 q) := by
  after_results
  exact row_read _ _ q

end Cert.KernelIdeal.Hand

end
-- ==== Proof.SpecRegions.lean ====
/-
  The nine kernel launches stated as whole-array functions, and their composition into a layer.

  A layer of the network is computed by three launches. The first forms the dense map X W and its product with the
  first filter tap; each of the other two multiplies the propagated features once more by S and adds the product with
  the next tap to what was accumulated, the last one adding the bias row and, in the first two layers, taking the
  maximum with zero. A tap reaches a launch as a 1 × 1 matrix and the bias as a 1 × d matrix. When those hold the
  entries of the layer's filter vector and bias vector, the three launches compose to the specification's layer:
  both sides are the same expression, term by term.
-/
import proofs.«131271_j4982162063661_2_alg».proof.Proof.Spec

noncomputable section

open scoped BigOperators

namespace Cert.Spec

open Idealize.ShloMosaic Idealize.ShloMosaic.ValueIdx

section Regions
variable {k d : ℕ}

/-- The dense launch's feature output: X W. -/
def smallSx (X : Mat 8192 k) (W : Mat k d) : Mat 8192 d := prod X W
/-- The dense launch's accumulated output: the tap times X W. -/
def smallOut (X : Mat 8192 k) (W : Mat k d) (H : Mat 1 1) : Mat 8192 d :=
  fun i => H (ix2 0 0) * prod X W i
/-- A propagation launch's feature output: S Sx. -/
def propSx (S : Mat 8192 8192) (Sx : Mat 8192 d) : Mat 8192 d := prod S Sx
/-- A propagation launch's accumulated output, without bias: what came in plus the tap times S Sx. -/
def propOut (S : Mat 8192 8192) (Sx : Mat 8192 d) (Xin : Mat 8192 d) (H : Mat 1 1) : Mat 8192 d :=
  fun i => Xin i + H (ix2 0 0) * prod S Sx i
/-- The same with the bias row added. -/
def propOutB (S : Mat 8192 8192) (Sx : Mat 8192 d) (Xin : Mat 8192 d) (H : Mat 1 1) (B : Mat 1 d) : Mat 8192 d :=
  fun i => (Xin i + H (ix2 0 0) * prod S Sx i) + B (ix2 0 (i 1))
/-- The same with the bias row added and the maximum with zero taken. -/
def propOutBR (S : Mat 8192 8192) (Sx : Mat 8192 d) (Xin : Mat 8192 d) (H : Mat 1 1) (B : Mat 1 d) : Mat 8192 d :=
  fun i => max ((Xin i + H (ix2 0 0) * prod S Sx i) + B (ix2 0 (i 1))) zeroWord

/-- Three launches whose taps and bias row hold the layer's filter and bias entries compute the rectified layer. -/
theorem layer_true_of_regions (S : Mat 8192 8192) (X : Mat 8192 k) (W : Mat k d) (h : Vec1 3) (b : Vec1 d)
    (H0 H1 H2 : Mat 1 1) (B : Mat 1 d)
    (h0 : H0 (ix2 0 0) = h (ix1 0)) (h1 : H1 (ix2 0 0) = h (ix1 1)) (h2 : H2 (ix2 0 0) = h (ix1 2))
    (hB : ∀ q : Fin d, B (ix2 0 q) = b (ix1 q)) :
    propOutBR S (propSx S (smallSx X W)) (propOut S (smallSx X W) (smallOut X W H0) H1) H2 B
      = layer true S X W h b := by
  funext i
  obtain ⟨r, q, rfl⟩ : ∃ (r : Fin 8192) (q : Fin d), i = ix2 r q := ⟨i 0, i 1, eq_ix2 i⟩
  show max (((H0 (ix2 0 0) * prod X W (ix2 r q) + H1 (ix2 0 0) * prod S (prod X W) (ix2 r q))
      + H2 (ix2 0 0) * prod S (prod S (prod X W)) (ix2 r q)) + B (ix2 0 q)) zeroWord = _
  rw [h0, h1, h2, hB q]
  rfl

/-- The same for the layer without rectifier. -/
theorem layer_false_of_regions (S : Mat 8192 8192) (X : Mat 8192 k) (W : Mat k d) (h : Vec1 3) (b : Vec1 d)
    (H0 H1 H2 : Mat 1 1) (B : Mat 1 d)
    (h0 : H0 (ix2 0 0) = h (ix1 0)) (h1 : H1 (ix2 0 0) = h (ix1 1)) (h2 : H2 (ix2 0 0) = h (ix1 2))
    (hB : ∀ q : Fin d, B (ix2 0 q) = b (ix1 q)) :
    propOutB S (propSx S (smallSx X W)) (propOut S (smallSx X W) (smallOut X W H0) H1) H2 B
      = layer false S X W h b := by
  funext i
  obtain ⟨r, q, rfl⟩ : ∃ (r : Fin 8192) (q : Fin d), i = ix2 r q := ⟨i 0, i 1, eq_ix2 i⟩
  show ((H0 (ix2 0 0) * prod X W (ix2 r q) + H1 (ix2 0 0) * prod S (prod X W) (ix2 r q))
      + H2 (ix2 0 0) * prod S (prod S (prod X W)) (ix2 r q)) + B (ix2 0 q) = _
  rw [h0, h1, h2, hB q]
  rfl

end Regions

end Cert.Spec

end
-- ==== Proof.KI.Value.lean ====
/-
  The program's result is the specification's network of its arguments, given what each launch leaves in its
  output arrays.

  Between the launches the buffers are followed one by one. A buffer that an item does not write keeps its
  contents; an array a launch only reads is left as it was found; an output array of a launch is the launch's
  function of the arrays it read. Each layer's three launches then compose to the specification's layer, because
  the 1 × 1 matrices and the row prepared by the host operations hold the layer's filter taps and bias, and the
  three layers compose to the network.
-/
import proofs.«131271_j4982162063661_2_alg».proof.Proof.KI.Run
import proofs.«131271_j4982162063661_2_alg».proof.Proof.KI.HostValue
import proofs.«131271_j4982162063661_2_alg».proof.Proof.SpecRegions

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-- The contents a launch is entered from: per core, every TensorCore buffer. -/
abbrev Entry : Type := (c : Dev nD) → (b : Ref sig .tc) → Buf (Elt Ideal) ((c : Thread nD τ).loc b)

set_option maxHeartbeats 2000000 in
/-- What each launch leaves in the output arrays that a later item reads, as a function of the arrays it was
    entered from. (The propagated features of each layer's last launch are read by nothing.) -/
structure RegionValues : Prop where
  r0w3 : ∀ (V : Entry) (c : Dev nD), ((dat0 (F := Ideal) V c).arrAt 3 cfg0.N : Spec.Mat 8192 128) = Spec.smallSx (V c (Pipeline.arrRef spec0 0) : Spec.Mat 8192 512) (V c (Pipeline.arrRef spec0 1) : Spec.Mat 512 128)
  r0w4 : ∀ (V : Entry) (c : Dev nD), ((dat0 (F := Ideal) V c).arrAt 4 cfg0.N : Spec.Mat 8192 128) = Spec.smallOut (V c (Pipeline.arrRef spec0 0) : Spec.Mat 8192 512) (V c (Pipeline.arrRef spec0 1) : Spec.Mat 512 128) (V c (Pipeline.arrRef spec0 2) : Spec.Mat 1 1)
  r1w5 : ∀ (V : Entry) (c : Dev nD), ((dat1 (F := Ideal) V c).arrAt 5 cfg1.N : Spec.Mat 8192 8192) = (V c (Pipeline.arrRef spec1 0) : Spec.Mat 8192 8192)
  r1w6 : ∀ (V : Entry) (c : Dev nD), ((dat1 (F := Ideal) V c).arrAt 6 cfg1.N : Spec.Mat 8192 128) = Spec.propSx (V c (Pipeline.arrRef spec1 0) : Spec.Mat 8192 8192) (V c (Pipeline.arrRef spec1 1) : Spec.Mat 8192 128)
  r1w7 : ∀ (V : Entry) (c : Dev nD), ((dat1 (F := Ideal) V c).arrAt 7 cfg1.N : Spec.Mat 8192 128) = Spec.propOut (V c (Pipeline.arrRef spec1 0) : Spec.Mat 8192 8192) (V c (Pipeline.arrRef spec1 1) : Spec.Mat 8192 128) (V c (Pipeline.arrRef spec1 2) : Spec.Mat 8192 128) (V c (Pipeline.arrRef spec1 4) : Spec.Mat 1 1)
  r2w6 : ∀ (V : Entry) (c : Dev nD), ((dat2 (F := Ideal) V c).arrAt 6 cfg2.N : Spec.Mat 8192 128) = Spec.propOutBR (V c (Pipeline.arrRef spec2 0) : Spec.Mat 8192 8192) (V c (Pipeline.arrRef spec2 1) : Spec.Mat 8192 128) (V c (Pipeline.arrRef spec2 2) : Spec.Mat 8192 128) (V c (Pipeline.arrRef spec2 4) : Spec.Mat 1 1) (V c (Pipeline.arrRef spec2 3) : Spec.Mat 1 128)
  r3w3 : ∀ (V : Entry) (c : Dev nD), ((dat3 (F := Ideal) V c).arrAt 3 cfg3.N : Spec.Mat 8192 128) = Spec.smallSx (V c (Pipeline.arrRef spec3 0) : Spec.Mat 8192 128) (V c (Pipeline.arrRef spec3 1) : Spec.Mat 128 128)
  r3w4 : ∀ (V : Entry) (c : Dev nD), ((dat3 (F := Ideal) V c).arrAt 4 cfg3.N : Spec.Mat 8192 128) = Spec.smallOut (V c (Pipeline.arrRef spec3 0) : Spec.Mat 8192 128) (V c (Pipeline.arrRef spec3 1) : Spec.Mat 128 128) (V c (Pipeline.arrRef spec3 2) : Spec.Mat 1 1)
  r4w5 : ∀ (V : Entry) (c : Dev nD), ((dat4 (F := Ideal) V c).arrAt 5 cfg4.N : Spec.Mat 8192 128) = Spec.propSx (V c (Pipeline.arrRef spec4 0) : Spec.Mat 8192 8192) (V c (Pipeline.arrRef spec4 1) : Spec.Mat 8192 128)
  r4w6 : ∀ (V : Entry) (c : Dev nD), ((dat4 (F := Ideal) V c).arrAt 6 cfg4.N : Spec.Mat 8192 128) = Spec.propOut (V c (Pipeline.arrRef spec4 0) : Spec.Mat 8192 8192) (V c (Pipeline.arrRef spec4 1) : Spec.Mat 8192 128) (V c (Pipeline.arrRef spec4 2) : Spec.Mat 8192 128) (V c (Pipeline.arrRef spec4 4) : Spec.Mat 1 1)
  r5w6 : ∀ (V : Entry) (c : Dev nD), ((dat5 (F := Ideal) V c).arrAt 6 cfg5.N : Spec.Mat 8192 128) = Spec.propOutBR (V c (Pipeline.arrRef spec5 0) : Spec.Mat 8192 8192) (V c (Pipeline.arrRef spec5 1) : Spec.Mat 8192 128) (V c (Pipeline.arrRef spec5 2) : Spec.Mat 8192 128) (V c (Pipeline.arrRef spec5 4) : Spec.Mat 1 1) (V c (Pipeline.arrRef spec5 3) : Spec.Mat 1 128)
  r6w3 : ∀ (V : Entry) (c : Dev nD), ((dat6 (F := Ideal) V c).arrAt 3 cfg6.N : Spec.Mat 8192 64) = Spec.smallSx (V c (Pipeline.arrRef spec6 0) : Spec.Mat 8192 128) (V c (Pipeline.arrRef spec6 1) : Spec.Mat 128 64)
  r6w4 : ∀ (V : Entry) (c : Dev nD), ((dat6 (F := Ideal) V c).arrAt 4 cfg6.N : Spec.Mat 8192 64) = Spec.smallOut (V c (Pipeline.arrRef spec6 0) : Spec.Mat 8192 128) (V c (Pipeline.arrRef spec6 1) : Spec.Mat 128 64) (V c (Pipeline.arrRef spec6 2) : Spec.Mat 1 1)
  r7w5 : ∀ (V : Entry) (c : Dev nD), ((dat7 (F := Ideal) V c).arrAt 5 cfg7.N : Spec.Mat 8192 64) = Spec.propSx (V c (Pipeline.arrRef spec7 0) : Spec.Mat 8192 8192) (V c (Pipeline.arrRef spec7 1) : Spec.Mat 8192 64)
  r7w6 : ∀ (V : Entry) (c : Dev nD), ((dat7 (F := Ideal) V c).arrAt 6 cfg7.N : Spec.Mat 8192 64) = Spec.propOut (V c (Pipeline.arrRef spec7 0) : Spec.Mat 8192 8192) (V c (Pipeline.arrRef spec7 1) : Spec.Mat 8192 64) (V c (Pipeline.arrRef spec7 2) : Spec.Mat 8192 64) (V c (Pipeline.arrRef spec7 4) : Spec.Mat 1 1)
  r8w6 : ∀ (V : Entry) (c : Dev nD), ((dat8 (F := Ideal) V c).arrAt 6 cfg8.N : Spec.Mat 8192 64) = Spec.propOutB (V c (Pipeline.arrRef spec8 0) : Spec.Mat 8192 8192) (V c (Pipeline.arrRef spec8 1) : Spec.Mat 8192 64) (V c (Pipeline.arrRef spec8 2) : Spec.Mat 8192 64) (V c (Pipeline.arrRef spec8 4) : Spec.Mat 1 1) (V c (Pipeline.arrRef spec8 3) : Spec.Mat 1 64)

theorem congr2 {α β ε : Type} (f : α → β → ε) {a a' : α} {b b' : β} (ha : a = a') (hb : b = b') : f a b = f a' b' := by
  subst ha hb; rfl
theorem congr3 {α β γ ε : Type} (f : α → β → γ → ε) {a a' : α} {b b' : β} {c c' : γ} (ha : a = a') (hb : b = b') (hc : c = c') :
    f a b c = f a' b' c' := by subst ha hb hc; rfl
theorem congr4 {α β γ δ ε : Type} (f : α → β → γ → δ → ε) {a a' : α} {b b' : β} {c c' : γ} {d d' : δ}
    (ha : a = a') (hb : b = b') (hc : c = c') (hd : d = d') : f a b c d = f a' b' c' d' := by subst ha hb hc hd; rfl
theorem congr5 {α β γ δ ζ ε : Type} (f : α → β → γ → δ → ζ → ε) {a a' : α} {b b' : β} {c c' : γ} {d d' : δ} {e e' : ζ}
    (ha : a = a') (hb : b = b') (hc : c = c') (hd : d = d') (he : e = e') : f a b c d e = f a' b' c' d' e' := by
  subst ha hb hc hd he; rfl

variable (m : (ℓ : Loc nD τ sig) → Buf (Elt Ideal) ℓ) (c : Dev nD)

/-! ## The arguments, and what the host operations prepare -/

abbrev a0 : Spec.Mat 8192 8192 := m ((c.tc : Thread nD τ).loc main_arg0)
abbrev a1 : Spec.Mat 8192 512 := m ((c.tc : Thread nD τ).loc main_arg1)
abbrev a2 : Spec.Mat 512 128 := m ((c.tc : Thread nD τ).loc main_arg2)
abbrev a3 : Spec.Vec1 3 := m ((c.tc : Thread nD τ).loc main_arg3)
abbrev a4 : Spec.Vec1 128 := m ((c.tc : Thread nD τ).loc main_arg4)
abbrev a5 : Spec.Mat 128 128 := m ((c.tc : Thread nD τ).loc main_arg5)
abbrev a6 : Spec.Vec1 3 := m ((c.tc : Thread nD τ).loc main_arg6)
abbrev a7 : Spec.Vec1 128 := m ((c.tc : Thread nD τ).loc main_arg7)
abbrev a8 : Spec.Mat 128 64 := m ((c.tc : Thread nD τ).loc main_arg8)
abbrev a9 : Spec.Vec1 3 := m ((c.tc : Thread nD τ).loc main_arg9)
abbrev a10 : Spec.Vec1 64 := m ((c.tc : Thread nD τ).loc main_arg10)

abbrev t1_0 : Spec.Mat 1 1 := B1 m c (Proc.devRef .tc main_v1)
abbrev t1_1 : Spec.Mat 1 1 := B1 m c (Proc.devRef .tc main_v3)
abbrev t1_2 : Spec.Mat 1 1 := B1 m c (Proc.devRef .tc main_v5)
abbrev row1 : Spec.Mat 1 128 := B1 m c (Proc.devRef .tc main_v6)
abbrev t2_0 : Spec.Mat 1 1 := B5 m c (Proc.devRef .tc main_v11)
abbrev t2_1 : Spec.Mat 1 1 := B5 m c (Proc.devRef .tc main_v13)
abbrev t2_2 : Spec.Mat 1 1 := B5 m c (Proc.devRef .tc main_v15)
abbrev row2 : Spec.Mat 1 128 := B5 m c (Proc.devRef .tc main_v16)
abbrev t3_0 : Spec.Mat 1 1 := B9 m c (Proc.devRef .tc main_v21)
abbrev t3_1 : Spec.Mat 1 1 := B9 m c (Proc.devRef .tc main_v23)
abbrev t3_2 : Spec.Mat 1 1 := B9 m c (Proc.devRef .tc main_v25)
abbrev row3 : Spec.Mat 1 64 := B9 m c (Proc.devRef .tc main_v26)

/-- The three layers of the specification, of the arguments. -/
abbrev lay1 : Spec.Mat 8192 128 := Spec.layer true (a0 m c) (a1 m c) (a2 m c) (a3 m c) (a4 m c)
abbrev lay2 : Spec.Mat 8192 128 := Spec.layer true (a0 m c) (lay1 m c) (a5 m c) (a6 m c) (a7 m c)
abbrev lay3 : Spec.Mat 8192 64 := Spec.layer false (a0 m c) (lay2 m c) (a8 m c) (a9 m c) (a10 m c)

variable (hv : RegionValues)
include hv

/-! ## The buffers between the items -/

theorem c0_main_arg8 : (B0 m c (Proc.devRef .tc main_arg8) : Spec.Mat 128 64) = a8 m c := rfl
theorem c0_main_arg9 : (B0 m c (Proc.devRef .tc main_arg9) : Spec.Vec1 3) = a9 m c := rfl
theorem c0_main_arg10 : (B0 m c (Proc.devRef .tc main_arg10) : Spec.Vec1 64) = a10 m c := rfl
theorem c0_main_arg5 : (B0 m c (Proc.devRef .tc main_arg5) : Spec.Mat 128 128) = a5 m c := rfl
theorem c0_main_arg6 : (B0 m c (Proc.devRef .tc main_arg6) : Spec.Vec1 3) = a6 m c := rfl
theorem c0_main_arg7 : (B0 m c (Proc.devRef .tc main_arg7) : Spec.Vec1 128) = a7 m c := rfl
theorem c0_main_arg0 : (B0 m c (Proc.devRef .tc main_arg0) : Spec.Mat 8192 8192) = a0 m c := rfl
theorem c0_main_arg1 : (B0 m c (Proc.devRef .tc main_arg1) : Spec.Mat 8192 512) = a1 m c := rfl
theorem c0_main_arg2 : (B0 m c (Proc.devRef .tc main_arg2) : Spec.Mat 512 128) = a2 m c := rfl
theorem c0_main_arg3 : (B0 m c (Proc.devRef .tc main_arg3) : Spec.Vec1 3) = a3 m c := rfl
theorem c0_main_arg4 : (B0 m c (Proc.devRef .tc main_arg4) : Spec.Vec1 128) = a4 m c := rfl

/-! ### After the host stretch hostOps0 -/

theorem c1_main_arg8 : (B1 m c (Proc.devRef .tc main_arg8) : Spec.Mat 128 64) = a8 m c :=
  (B1_of m c main_arg8 (by decide)).trans (c0_main_arg8 m c hv)
theorem c1_main_arg9 : (B1 m c (Proc.devRef .tc main_arg9) : Spec.Vec1 3) = a9 m c :=
  (B1_of m c main_arg9 (by decide)).trans (c0_main_arg9 m c hv)
theorem c1_main_arg10 : (B1 m c (Proc.devRef .tc main_arg10) : Spec.Vec1 64) = a10 m c :=
  (B1_of m c main_arg10 (by decide)).trans (c0_main_arg10 m c hv)
theorem c1_main_arg5 : (B1 m c (Proc.devRef .tc main_arg5) : Spec.Mat 128 128) = a5 m c :=
  (B1_of m c main_arg5 (by decide)).trans (c0_main_arg5 m c hv)
theorem c1_main_arg6 : (B1 m c (Proc.devRef .tc main_arg6) : Spec.Vec1 3) = a6 m c :=
  (B1_of m c main_arg6 (by decide)).trans (c0_main_arg6 m c hv)
theorem c1_main_arg7 : (B1 m c (Proc.devRef .tc main_arg7) : Spec.Vec1 128) = a7 m c :=
  (B1_of m c main_arg7 (by decide)).trans (c0_main_arg7 m c hv)
theorem c1_main_v5 : (B1 m c (Proc.devRef .tc main_v5) : Spec.Mat 1 1) = t1_2 m c :=
  rfl
theorem c1_main_v6 : (B1 m c (Proc.devRef .tc main_v6) : Spec.Mat 1 128) = row1 m c :=
  rfl
theorem c1_main_arg0 : (B1 m c (Proc.devRef .tc main_arg0) : Spec.Mat 8192 8192) = a0 m c :=
  (B1_of m c main_arg0 (by decide)).trans (c0_main_arg0 m c hv)
theorem c1_main_v3 : (B1 m c (Proc.devRef .tc main_v3) : Spec.Mat 1 1) = t1_1 m c :=
  rfl
theorem c1_main_arg1 : (B1 m c (Proc.devRef .tc main_arg1) : Spec.Mat 8192 512) = a1 m c :=
  (B1_of m c main_arg1 (by decide)).trans (c0_main_arg1 m c hv)
theorem c1_main_arg2 : (B1 m c (Proc.devRef .tc main_arg2) : Spec.Mat 512 128) = a2 m c :=
  (B1_of m c main_arg2 (by decide)).trans (c0_main_arg2 m c hv)
theorem c1_main_v1 : (B1 m c (Proc.devRef .tc main_v1) : Spec.Mat 1 1) = t1_0 m c :=
  rfl

/-! ### After launch 0 -/

theorem c2_main_arg8 : (B2 m c (Proc.devRef .tc main_arg8) : Spec.Mat 128 64) = a8 m c :=
  (B2_of_ne m c main_arg8 (by decide)).trans (c1_main_arg8 m c hv)
theorem c2_main_arg9 : (B2 m c (Proc.devRef .tc main_arg9) : Spec.Vec1 3) = a9 m c :=
  (B2_of_ne m c main_arg9 (by decide)).trans (c1_main_arg9 m c hv)
theorem c2_main_arg10 : (B2 m c (Proc.devRef .tc main_arg10) : Spec.Vec1 64) = a10 m c :=
  (B2_of_ne m c main_arg10 (by decide)).trans (c1_main_arg10 m c hv)
theorem c2_main_arg5 : (B2 m c (Proc.devRef .tc main_arg5) : Spec.Mat 128 128) = a5 m c :=
  (B2_of_ne m c main_arg5 (by decide)).trans (c1_main_arg5 m c hv)
theorem c2_main_arg6 : (B2 m c (Proc.devRef .tc main_arg6) : Spec.Vec1 3) = a6 m c :=
  (B2_of_ne m c main_arg6 (by decide)).trans (c1_main_arg6 m c hv)
theorem c2_main_arg7 : (B2 m c (Proc.devRef .tc main_arg7) : Spec.Vec1 128) = a7 m c :=
  (B2_of_ne m c main_arg7 (by decide)).trans (c1_main_arg7 m c hv)
theorem c2_main_v5 : (B2 m c (Proc.devRef .tc main_v5) : Spec.Mat 1 1) = t1_2 m c :=
  (B2_of_ne m c main_v5 (by decide)).trans (c1_main_v5 m c hv)
theorem c2_main_v6 : (B2 m c (Proc.devRef .tc main_v6) : Spec.Mat 1 128) = row1 m c :=
  (B2_of_ne m c main_v6 (by decide)).trans (c1_main_v6 m c hv)
theorem c2_main_arg0 : (B2 m c (Proc.devRef .tc main_arg0) : Spec.Mat 8192 8192) = a0 m c :=
  (B2_of_ne m c main_arg0 (by decide)).trans (c1_main_arg0 m c hv)
theorem c2_main_v7_0 : (B2 m c (Proc.devRef .tc main_v7_0) : Spec.Mat 8192 128) = Spec.smallSx (a1 m c) (a2 m c) :=
  (B2_arr m c 3).trans ((hv.r0w3 (E1 m) c).trans (congr2 Spec.smallSx (c1_main_arg1 m c hv) (c1_main_arg2 m c hv)))
theorem c2_main_v7_1 : (B2 m c (Proc.devRef .tc main_v7_1) : Spec.Mat 8192 128) = Spec.smallOut (a1 m c) (a2 m c) (t1_0 m c) :=
  (B2_arr m c 4).trans ((hv.r0w4 (E1 m) c).trans (congr3 Spec.smallOut (c1_main_arg1 m c hv) (c1_main_arg2 m c hv) (c1_main_v1 m c hv)))
theorem c2_main_v3 : (B2 m c (Proc.devRef .tc main_v3) : Spec.Mat 1 1) = t1_1 m c :=
  (B2_of_ne m c main_v3 (by decide)).trans (c1_main_v3 m c hv)

/-! ### After launch 1 -/

theorem c3_main_v8_0 : (B3 m c (Proc.devRef .tc main_v8_0) : Spec.Mat 8192 8192) = a0 m c :=
  (B3_arr m c 5).trans ((hv.r1w5 (E2 m) c).trans (c2_main_arg0 m c hv))
theorem c3_main_arg8 : (B3 m c (Proc.devRef .tc main_arg8) : Spec.Mat 128 64) = a8 m c :=
  (B3_of_ne m c main_arg8 (by decide)).trans (c2_main_arg8 m c hv)
theorem c3_main_arg9 : (B3 m c (Proc.devRef .tc main_arg9) : Spec.Vec1 3) = a9 m c :=
  (B3_of_ne m c main_arg9 (by decide)).trans (c2_main_arg9 m c hv)
theorem c3_main_arg10 : (B3 m c (Proc.devRef .tc main_arg10) : Spec.Vec1 64) = a10 m c :=
  (B3_of_ne m c main_arg10 (by decide)).trans (c2_main_arg10 m c hv)
theorem c3_main_arg5 : (B3 m c (Proc.devRef .tc main_arg5) : Spec.Mat 128 128) = a5 m c :=
  (B3_of_ne m c main_arg5 (by decide)).trans (c2_main_arg5 m c hv)
theorem c3_main_arg6 : (B3 m c (Proc.devRef .tc main_arg6) : Spec.Vec1 3) = a6 m c :=
  (B3_of_ne m c main_arg6 (by decide)).trans (c2_main_arg6 m c hv)
theorem c3_main_arg7 : (B3 m c (Proc.devRef .tc main_arg7) : Spec.Vec1 128) = a7 m c :=
  (B3_of_ne m c main_arg7 (by decide)).trans (c2_main_arg7 m c hv)
theorem c3_main_v8_1 : (B3 m c (Proc.devRef .tc main_v8_1) : Spec.Mat 8192 128) = Spec.propSx (a0 m c) (Spec.smallSx (a1 m c) (a2 m c)) :=
  (B3_arr m c 6).trans ((hv.r1w6 (E2 m) c).trans (congr2 Spec.propSx (c2_main_arg0 m c hv) (c2_main_v7_0 m c hv)))
theorem c3_main_v8_2 : (B3 m c (Proc.devRef .tc main_v8_2) : Spec.Mat 8192 128) = Spec.propOut (a0 m c) (Spec.smallSx (a1 m c) (a2 m c)) (Spec.smallOut (a1 m c) (a2 m c) (t1_0 m c)) (t1_1 m c) :=
  (B3_arr m c 7).trans ((hv.r1w7 (E2 m) c).trans (congr4 Spec.propOut (c2_main_arg0 m c hv) (c2_main_v7_0 m c hv) (c2_main_v7_1 m c hv) (c2_main_v3 m c hv)))
theorem c3_main_v5 : (B3 m c (Proc.devRef .tc main_v5) : Spec.Mat 1 1) = t1_2 m c :=
  (B3_of_ne m c main_v5 (by decide)).trans (c2_main_v5 m c hv)
theorem c3_main_v6 : (B3 m c (Proc.devRef .tc main_v6) : Spec.Mat 1 128) = row1 m c :=
  ((B3_arr m c 3).trans (((dat1 (E2 m) c).arrAt_in 3 rfl _).trans (A_eq1 (E2 m) c 3))).trans (c2_main_v6 m c hv)

/-! ### After launch 2 -/

theorem c4_main_v8_0 : (B4 m c (Proc.devRef .tc main_v8_0) : Spec.Mat 8192 8192) = a0 m c :=
  ((B4_arr m c 0).trans (((dat2 (E3 m) c).arrAt_in 0 rfl _).trans (A_eq2 (E3 m) c 0))).trans (c3_main_v8_0 m c hv)
theorem c4_main_arg8 : (B4 m c (Proc.devRef .tc main_arg8) : Spec.Mat 128 64) = a8 m c :=
  (B4_of_ne m c main_arg8 (by decide)).trans (c3_main_arg8 m c hv)
theorem c4_main_arg9 : (B4 m c (Proc.devRef .tc main_arg9) : Spec.Vec1 3) = a9 m c :=
  (B4_of_ne m c main_arg9 (by decide)).trans (c3_main_arg9 m c hv)
theorem c4_main_arg10 : (B4 m c (Proc.devRef .tc main_arg10) : Spec.Vec1 64) = a10 m c :=
  (B4_of_ne m c main_arg10 (by decide)).trans (c3_main_arg10 m c hv)
theorem c4_main_v9_1_raw : (B4 m c (Proc.devRef .tc main_v9_1) : Spec.Mat 8192 128) = Spec.propOutBR (a0 m c) (Spec.propSx (a0 m c) (Spec.smallSx (a1 m c) (a2 m c))) (Spec.propOut (a0 m c) (Spec.smallSx (a1 m c) (a2 m c)) (Spec.smallOut (a1 m c) (a2 m c) (t1_0 m c)) (t1_1 m c)) (t1_2 m c) (row1 m c) :=
  (B4_arr m c 6).trans ((hv.r2w6 (E3 m) c).trans (congr5 Spec.propOutBR (c3_main_v8_0 m c hv) (c3_main_v8_1 m c hv) (c3_main_v8_2 m c hv) (c3_main_v5 m c hv) (c3_main_v6 m c hv)))
/-- Layer 1: the three launches compose to the specification's layer. -/
theorem c4_main_v9_1 : (B4 m c (Proc.devRef .tc main_v9_1) : Spec.Mat 8192 128) = lay1 m c :=
  (c4_main_v9_1_raw m c hv).trans (Spec.layer_true_of_regions (a0 m c) (a1 m c) (a2 m c) (a3 m c) (a4 m c)
    (t1_0 m c) (t1_1 m c) (t1_2 m c) (row1 m c)
    ((hostOps0_main_v1 (B0 m c)).trans (congrFun (c0_main_arg3 m c hv) _))
    ((hostOps0_main_v3 (B0 m c)).trans (congrFun (c0_main_arg3 m c hv) _))
    ((hostOps0_main_v5 (B0 m c)).trans (congrFun (c0_main_arg3 m c hv) _))
    (fun q => (hostOps0_main_v6 (B0 m c) q).trans (congrFun (c0_main_arg4 m c hv) _)))
theorem c4_main_arg5 : (B4 m c (Proc.devRef .tc main_arg5) : Spec.Mat 128 128) = a5 m c :=
  (B4_of_ne m c main_arg5 (by decide)).trans (c3_main_arg5 m c hv)
theorem c4_main_arg6 : (B4 m c (Proc.devRef .tc main_arg6) : Spec.Vec1 3) = a6 m c :=
  (B4_of_ne m c main_arg6 (by decide)).trans (c3_main_arg6 m c hv)
theorem c4_main_arg7 : (B4 m c (Proc.devRef .tc main_arg7) : Spec.Vec1 128) = a7 m c :=
  (B4_of_ne m c main_arg7 (by decide)).trans (c3_main_arg7 m c hv)

/-! ### After the host stretch hostOps3 -/

theorem c5_main_v8_0 : (B5 m c (Proc.devRef .tc main_v8_0) : Spec.Mat 8192 8192) = a0 m c :=
  (B5_of m c main_v8_0 (by decide)).trans (c4_main_v8_0 m c hv)
theorem c5_main_arg8 : (B5 m c (Proc.devRef .tc main_arg8) : Spec.Mat 128 64) = a8 m c :=
  (B5_of m c main_arg8 (by decide)).trans (c4_main_arg8 m c hv)
theorem c5_main_arg9 : (B5 m c (Proc.devRef .tc main_arg9) : Spec.Vec1 3) = a9 m c :=
  (B5_of m c main_arg9 (by decide)).trans (c4_main_arg9 m c hv)
theorem c5_main_arg10 : (B5 m c (Proc.devRef .tc main_arg10) : Spec.Vec1 64) = a10 m c :=
  (B5_of m c main_arg10 (by decide)).trans (c4_main_arg10 m c hv)
theorem c5_main_v15 : (B5 m c (Proc.devRef .tc main_v15) : Spec.Mat 1 1) = t2_2 m c :=
  rfl
theorem c5_main_v16 : (B5 m c (Proc.devRef .tc main_v16) : Spec.Mat 1 128) = row2 m c :=
  rfl
theorem c5_main_v13 : (B5 m c (Proc.devRef .tc main_v13) : Spec.Mat 1 1) = t2_1 m c :=
  rfl
theorem c5_main_v9_1 : (B5 m c (Proc.devRef .tc main_v9_1) : Spec.Mat 8192 128) = lay1 m c :=
  (B5_of m c main_v9_1 (by decide)).trans (c4_main_v9_1 m c hv)
theorem c5_main_arg5 : (B5 m c (Proc.devRef .tc main_arg5) : Spec.Mat 128 128) = a5 m c :=
  (B5_of m c main_arg5 (by decide)).trans (c4_main_arg5 m c hv)
theorem c5_main_v11 : (B5 m c (Proc.devRef .tc main_v11) : Spec.Mat 1 1) = t2_0 m c :=
  rfl

/-! ### After launch 3 -/

theorem c6_main_v8_0 : (B6 m c (Proc.devRef .tc main_v8_0) : Spec.Mat 8192 8192) = a0 m c :=
  (B6_of_ne m c main_v8_0 (by decide)).trans (c5_main_v8_0 m c hv)
theorem c6_main_arg8 : (B6 m c (Proc.devRef .tc main_arg8) : Spec.Mat 128 64) = a8 m c :=
  (B6_of_ne m c main_arg8 (by decide)).trans (c5_main_arg8 m c hv)
theorem c6_main_arg9 : (B6 m c (Proc.devRef .tc main_arg9) : Spec.Vec1 3) = a9 m c :=
  (B6_of_ne m c main_arg9 (by decide)).trans (c5_main_arg9 m c hv)
theorem c6_main_arg10 : (B6 m c (Proc.devRef .tc main_arg10) : Spec.Vec1 64) = a10 m c :=
  (B6_of_ne m c main_arg10 (by decide)).trans (c5_main_arg10 m c hv)
theorem c6_main_v15 : (B6 m c (Proc.devRef .tc main_v15) : Spec.Mat 1 1) = t2_2 m c :=
  (B6_of_ne m c main_v15 (by decide)).trans (c5_main_v15 m c hv)
theorem c6_main_v16 : (B6 m c (Proc.devRef .tc main_v16) : Spec.Mat 1 128) = row2 m c :=
  (B6_of_ne m c main_v16 (by decide)).trans (c5_main_v16 m c hv)
theorem c6_main_v17_0 : (B6 m c (Proc.devRef .tc main_v17_0) : Spec.Mat 8192 128) = Spec.smallSx (lay1 m c) (a5 m c) :=
  (B6_arr m c 3).trans ((hv.r3w3 (E5 m) c).trans (congr2 Spec.smallSx (c5_main_v9_1 m c hv) (c5_main_arg5 m c hv)))
theorem c6_main_v17_1 : (B6 m c (Proc.devRef .tc main_v17_1) : Spec.Mat 8192 128) = Spec.smallOut (lay1 m c) (a5 m c) (t2_0 m c) :=
  (B6_arr m c 4).trans ((hv.r3w4 (E5 m) c).trans (congr3 Spec.smallOut (c5_main_v9_1 m c hv) (c5_main_arg5 m c hv) (c5_main_v11 m c hv)))
theorem c6_main_v13 : (B6 m c (Proc.devRef .tc main_v13) : Spec.Mat 1 1) = t2_1 m c :=
  (B6_of_ne m c main_v13 (by decide)).trans (c5_main_v13 m c hv)

/-! ### After launch 4 -/

theorem c7_main_v8_0 : (B7 m c (Proc.devRef .tc main_v8_0) : Spec.Mat 8192 8192) = a0 m c :=
  ((B7_arr m c 0).trans (((dat4 (E6 m) c).arrAt_in 0 rfl _).trans (A_eq4 (E6 m) c 0))).trans (c6_main_v8_0 m c hv)
theorem c7_main_arg8 : (B7 m c (Proc.devRef .tc main_arg8) : Spec.Mat 128 64) = a8 m c :=
  (B7_of_ne m c main_arg8 (by decide)).trans (c6_main_arg8 m c hv)
theorem c7_main_arg9 : (B7 m c (Proc.devRef .tc main_arg9) : Spec.Vec1 3) = a9 m c :=
  (B7_of_ne m c main_arg9 (by decide)).trans (c6_main_arg9 m c hv)
theorem c7_main_arg10 : (B7 m c (Proc.devRef .tc main_arg10) : Spec.Vec1 64) = a10 m c :=
  (B7_of_ne m c main_arg10 (by decide)).trans (c6_main_arg10 m c hv)
theorem c7_main_v18_0 : (B7 m c (Proc.devRef .tc main_v18_0) : Spec.Mat 8192 128) = Spec.propSx (a0 m c) (Spec.smallSx (lay1 m c) (a5 m c)) :=
  (B7_arr m c 5).trans ((hv.r4w5 (E6 m) c).trans (congr2 Spec.propSx (c6_main_v8_0 m c hv) (c6_main_v17_0 m c hv)))
theorem c7_main_v18_1 : (B7 m c (Proc.devRef .tc main_v18_1) : Spec.Mat 8192 128) = Spec.propOut (a0 m c) (Spec.smallSx (lay1 m c) (a5 m c)) (Spec.smallOut (lay1 m c) (a5 m c) (t2_0 m c)) (t2_1 m c) :=
  (B7_arr m c 6).trans ((hv.r4w6 (E6 m) c).trans (congr4 Spec.propOut (c6_main_v8_0 m c hv) (c6_main_v17_0 m c hv) (c6_main_v17_1 m c hv) (c6_main_v13 m c hv)))
theorem c7_main_v15 : (B7 m c (Proc.devRef .tc main_v15) : Spec.Mat 1 1) = t2_2 m c :=
  (B7_of_ne m c main_v15 (by decide)).trans (c6_main_v15 m c hv)
theorem c7_main_v16 : (B7 m c (Proc.devRef .tc main_v16) : Spec.Mat 1 128) = row2 m c :=
  ((B7_arr m c 3).trans (((dat4 (E6 m) c).arrAt_in 3 rfl _).trans (A_eq4 (E6 m) c 3))).trans (c6_main_v16 m c hv)

/-! ### After launch 5 -/

theorem c8_main_v8_0 : (B8 m c (Proc.devRef .tc main_v8_0) : Spec.Mat 8192 8192) = a0 m c :=
  ((B8_arr m c 0).trans (((dat5 (E7 m) c).arrAt_in 0 rfl _).trans (A_eq5 (E7 m) c 0))).trans (c7_main_v8_0 m c hv)
theorem c8_main_v19_1_raw : (B8 m c (Proc.devRef .tc main_v19_1) : Spec.Mat 8192 128) = Spec.propOutBR (a0 m c) (Spec.propSx (a0 m c) (Spec.smallSx (lay1 m c) (a5 m c))) (Spec.propOut (a0 m c) (Spec.smallSx (lay1 m c) (a5 m c)) (Spec.smallOut (lay1 m c) (a5 m c) (t2_0 m c)) (t2_1 m c)) (t2_2 m c) (row2 m c) :=
  (B8_arr m c 6).trans ((hv.r5w6 (E7 m) c).trans (congr5 Spec.propOutBR (c7_main_v8_0 m c hv) (c7_main_v18_0 m c hv) (c7_main_v18_1 m c hv) (c7_main_v15 m c hv) (c7_main_v16 m c hv)))
/-- Layer 2: the three launches compose to the specification's layer. -/
theorem c8_main_v19_1 : (B8 m c (Proc.devRef .tc main_v19_1) : Spec.Mat 8192 128) = lay2 m c :=
  (c8_main_v19_1_raw m c hv).trans (Spec.layer_true_of_regions (a0 m c) (lay1 m c) (a5 m c) (a6 m c) (a7 m c)
    (t2_0 m c) (t2_1 m c) (t2_2 m c) (row2 m c)
    ((hostOps3_main_v11 (B4 m c)).trans (congrFun (c4_main_arg6 m c hv) _))
    ((hostOps3_main_v13 (B4 m c)).trans (congrFun (c4_main_arg6 m c hv) _))
    ((hostOps3_main_v15 (B4 m c)).trans (congrFun (c4_main_arg6 m c hv) _))
    (fun q => (hostOps3_main_v16 (B4 m c) q).trans (congrFun (c4_main_arg7 m c hv) _)))
theorem c8_main_arg8 : (B8 m c (Proc.devRef .tc main_arg8) : Spec.Mat 128 64) = a8 m c :=
  (B8_of_ne m c main_arg8 (by decide)).trans (c7_main_arg8 m c hv)
theorem c8_main_arg9 : (B8 m c (Proc.devRef .tc main_arg9) : Spec.Vec1 3) = a9 m c :=
  (B8_of_ne m c main_arg9 (by decide)).trans (c7_main_arg9 m c hv)
theorem c8_main_arg10 : (B8 m c (Proc.devRef .tc main_arg10) : Spec.Vec1 64) = a10 m c :=
  (B8_of_ne m c main_arg10 (by decide)).trans (c7_main_arg10 m c hv)

/-! ### After the host stretch hostOps6 -/

theorem c9_main_v8_0 : (B9 m c (Proc.devRef .tc main_v8_0) : Spec.Mat 8192 8192) = a0 m c :=
  (B9_of m c main_v8_0 (by decide)).trans (c8_main_v8_0 m c hv)
theorem c9_main_v25 : (B9 m c (Proc.devRef .tc main_v25) : Spec.Mat 1 1) = t3_2 m c :=
  rfl
theorem c9_main_v26 : (B9 m c (Proc.devRef .tc main_v26) : Spec.Mat 1 64) = row3 m c :=
  rfl
theorem c9_main_v23 : (B9 m c (Proc.devRef .tc main_v23) : Spec.Mat 1 1) = t3_1 m c :=
  rfl
theorem c9_main_v19_1 : (B9 m c (Proc.devRef .tc main_v19_1) : Spec.Mat 8192 128) = lay2 m c :=
  (B9_of m c main_v19_1 (by decide)).trans (c8_main_v19_1 m c hv)
theorem c9_main_arg8 : (B9 m c (Proc.devRef .tc main_arg8) : Spec.Mat 128 64) = a8 m c :=
  (B9_of m c main_arg8 (by decide)).trans (c8_main_arg8 m c hv)
theorem c9_main_v21 : (B9 m c (Proc.devRef .tc main_v21) : Spec.Mat 1 1) = t3_0 m c :=
  rfl

/-! ### After launch 6 -/

theorem c10_main_v8_0 : (B10 m c (Proc.devRef .tc main_v8_0) : Spec.Mat 8192 8192) = a0 m c :=
  (B10_of_ne m c main_v8_0 (by decide)).trans (c9_main_v8_0 m c hv)
theorem c10_main_v25 : (B10 m c (Proc.devRef .tc main_v25) : Spec.Mat 1 1) = t3_2 m c :=
  (B10_of_ne m c main_v25 (by decide)).trans (c9_main_v25 m c hv)
theorem c10_main_v26 : (B10 m c (Proc.devRef .tc main_v26) : Spec.Mat 1 64) = row3 m c :=
  (B10_of_ne m c main_v26 (by decide)).trans (c9_main_v26 m c hv)
theorem c10_main_v27_0 : (B10 m c (Proc.devRef .tc main_v27_0) : Spec.Mat 8192 64) = Spec.smallSx (lay2 m c) (a8 m c) :=
  (B10_arr m c 3).trans ((hv.r6w3 (E9 m) c).trans (congr2 Spec.smallSx (c9_main_v19_1 m c hv) (c9_main_arg8 m c hv)))
theorem c10_main_v27_1 : (B10 m c (Proc.devRef .tc main_v27_1) : Spec.Mat 8192 64) = Spec.smallOut (lay2 m c) (a8 m c) (t3_0 m c) :=
  (B10_arr m c 4).trans ((hv.r6w4 (E9 m) c).trans (congr3 Spec.smallOut (c9_main_v19_1 m c hv) (c9_main_arg8 m c hv) (c9_main_v21 m c hv)))
theorem c10_main_v23 : (B10 m c (Proc.devRef .tc main_v23) : Spec.Mat 1 1) = t3_1 m c :=
  (B10_of_ne m c main_v23 (by decide)).trans (c9_main_v23 m c hv)

/-! ### After launch 7 -/

theorem c11_main_v8_0 : (B11 m c (Proc.devRef .tc main_v8_0) : Spec.Mat 8192 8192) = a0 m c :=
  ((B11_arr m c 0).trans (((dat7 (E10 m) c).arrAt_in 0 rfl _).trans (A_eq7 (E10 m) c 0))).trans (c10_main_v8_0 m c hv)
theorem c11_main_v28_0 : (B11 m c (Proc.devRef .tc main_v28_0) : Spec.Mat 8192 64) = Spec.propSx (a0 m c) (Spec.smallSx (lay2 m c) (a8 m c)) :=
  (B11_arr m c 5).trans ((hv.r7w5 (E10 m) c).trans (congr2 Spec.propSx (c10_main_v8_0 m c hv) (c10_main_v27_0 m c hv)))
theorem c11_main_v28_1 : (B11 m c (Proc.devRef .tc main_v28_1) : Spec.Mat 8192 64) = Spec.propOut (a0 m c) (Spec.smallSx (lay2 m c) (a8 m c)) (Spec.smallOut (lay2 m c) (a8 m c) (t3_0 m c)) (t3_1 m c) :=
  (B11_arr m c 6).trans ((hv.r7w6 (E10 m) c).trans (congr4 Spec.propOut (c10_main_v8_0 m c hv) (c10_main_v27_0 m c hv) (c10_main_v27_1 m c hv) (c10_main_v23 m c hv)))
theorem c11_main_v25 : (B11 m c (Proc.devRef .tc main_v25) : Spec.Mat 1 1) = t3_2 m c :=
  (B11_of_ne m c main_v25 (by decide)).trans (c10_main_v25 m c hv)
theorem c11_main_v26 : (B11 m c (Proc.devRef .tc main_v26) : Spec.Mat 1 64) = row3 m c :=
  ((B11_arr m c 3).trans (((dat7 (E10 m) c).arrAt_in 3 rfl _).trans (A_eq7 (E10 m) c 3))).trans (c10_main_v26 m c hv)

/-! ### After launch 8 -/

theorem c12_main_v29_1_raw : (B12 m c (Proc.devRef .tc main_v29_1) : Spec.Mat 8192 64) = Spec.propOutB (a0 m c) (Spec.propSx (a0 m c) (Spec.smallSx (lay2 m c) (a8 m c))) (Spec.propOut (a0 m c) (Spec.smallSx (lay2 m c) (a8 m c)) (Spec.smallOut (lay2 m c) (a8 m c) (t3_0 m c)) (t3_1 m c)) (t3_2 m c) (row3 m c) :=
  (B12_arr m c 6).trans ((hv.r8w6 (E11 m) c).trans (congr5 Spec.propOutB (c11_main_v8_0 m c hv) (c11_main_v28_0 m c hv) (c11_main_v28_1 m c hv) (c11_main_v25 m c hv) (c11_main_v26 m c hv)))
/-- Layer 3: the three launches compose to the specification's layer. -/
theorem c12_main_v29_1 : (B12 m c (Proc.devRef .tc main_v29_1) : Spec.Mat 8192 64) = lay3 m c :=
  (c12_main_v29_1_raw m c hv).trans (Spec.layer_false_of_regions (a0 m c) (lay2 m c) (a8 m c) (a9 m c) (a10 m c)
    (t3_0 m c) (t3_1 m c) (t3_2 m c) (row3 m c)
    ((hostOps6_main_v21 (B8 m c)).trans (congrFun (c8_main_arg9 m c hv) _))
    ((hostOps6_main_v23 (B8 m c)).trans (congrFun (c8_main_arg9 m c hv) _))
    ((hostOps6_main_v25 (B8 m c)).trans (congrFun (c8_main_arg9 m c hv) _))
    (fun q => (hostOps6_main_v26 (B8 m c) q).trans (congrFun (c8_main_arg10 m c hv) _)))

/-! ## The result -/

/-- The result buffer at the last boundary is the specification's network of the launch contents of the
    arguments, given the launches' values. -/
theorem result_is_net :
    (B12 m c (Proc.devRef .tc main_v29_1) : Spec.Mat 8192 64)
      = Spec.net (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
          (m ((c.tc : Thread nD τ).loc main_arg10)) :=
  c12_main_v29_1 m c hv

end Cert.KernelIdeal.Hand

end
-- ==== Proof.LibDotSum.lean ====
/-
  A sum over a one-axis contraction index, written as a sum over the axis's coordinates.

  A matrix product read at an output index is a sum over the contraction index of the dot's dimension record, a
  one-coordinate index when one axis is contracted.  Re-indexing through the bijection with `Fin n` turns it into
  the textbook sum `∑ i : Fin n, L i · R i`, once each operand is known at the operand indices the record builds.
-/
import Idealize.ShloMosaic.PureOps.Ideal
import Idealize.ShloMosaic.PureOps.Ideal.Laws
import Idealize.ShloMosaic.Lib.ValueIdx

noncomputable section

namespace Cert.LibDotSum

open Idealize.ShloMosaic Idealize.ShloMosaic.ValueIdx

/-- The sum over a one-axis contraction index of the products of two operands is the sum over `Fin n` of the
    products of their readings `L`, `R` along that axis. -/
theorem sum_contr_eq {sl sr so : Shape} (D : DotDims sl sr so) (n : Nat) (hr : D.contr.rank = 1)
    (hs : D.contr.size ⟨0, by omega⟩ = n) (f : sl.Idx → EReal) (g : sr.Idx → EReal) (j : so.Idx)
    (L R : Fin n → EReal)
    (hl : ∀ i : Fin n, f (D.lhsIdx j ((contrEquiv1 D n hr hs).symm i)) = L i)
    (hg : ∀ i : Fin n, g (D.rhsIdx j ((contrEquiv1 D n hr hs).symm i)) = R i) :
    ∑ k : D.contr.Idx, f (D.lhsIdx j k) * g (D.rhsIdx j k) = ∑ i : Fin n, L i * R i := by
  rw [← Equiv.sum_comp (contrEquiv1 D n hr hs).symm]
  exact Finset.sum_congr rfl fun i _ => by rw [hl i, hg i]

end Cert.LibDotSum

end
-- ==== Proof.LibPlainDot.lean ====
/-
  A plain matrix product read at an entry.

  A product of an [M, K] array with a [K, N] array that contracts the left operand's second axis with the right
  operand's first axis and has no batch axis: the sum over its one-axis contraction index, read at the output entry
  (p, q), is the textbook sum over i of the left operand at (p, i) times the right operand at (i, q).
-/
import Idealize.ShloMosaic.PureOps.Ideal
import Idealize.ShloMosaic.PureOps.Ideal.Laws
import Idealize.ShloMosaic.Lib.ValueIdx
import proofs.«131271_j4982162063661_2_alg».proof.Proof.LibDotSum

noncomputable section

namespace Cert.LibPlainDot

open Idealize.ShloMosaic Idealize.ShloMosaic.ValueIdx

variable {M K N : ℕ} (D : DotDims ⟨2, ![M, K]⟩ ⟨2, ![K, N]⟩ ⟨2, ![M, N]⟩)

/-- One axis is contracted. -/
theorem rank_contr_one (hlc : D.lhsContracting = [1]) : D.contr.rank = 1 := by
  rw [D.rank_contr, hlc]; rfl

/-- Its extent is the left operand's second extent. -/
theorem size_contr_K (hlc : D.lhsContracting = [1]) :
    D.contr.size ⟨0, by rw [rank_contr_one D hlc]; exact Nat.one_pos⟩ = K := by
  have h := D.size_contr 0 (by rw [hlc]; exact Nat.one_pos)
  rw [h]
  simp only [hlc, List.getElem_cons_zero]
  rfl

/-- The left operand's index at output entry (p, q) and contraction position i is (p, i). -/
theorem lhsIdx_eq (hlc : D.lhsContracting = [1]) (hlb : D.lhsBatch = []) (hln : D.lhsNonContracting = [0])
    (p : Fin M) (q : Fin N) (i : Fin K) :
    D.lhsIdx (ix2 p q) ((contrEquiv1 D K (rank_contr_one D hlc) (size_contr_K D hlc)).symm i) = ix2 p i := by
  funext a
  apply Fin.ext
  match a with
  | ⟨0, _⟩ =>
    unfold DotDims.lhsIdx
    have hb : (⟨0, by decide⟩ : Fin 2) ∉ D.lhsBatch := by rw [hlb]; exact List.not_mem_nil
    have hn : (⟨0, by decide⟩ : Fin 2) ∈ D.lhsNonContracting := by rw [hln]; exact List.mem_singleton.mpr rfl
    rw [dif_neg hb, dif_pos hn]
    simp only [Fin.val_cast]
    have key : ∀ (u : ℕ) (hu : u < 2), u = 0 → ((ix2 p q : (⟨2, ![M, N]⟩ : Shape).Idx) ⟨u, hu⟩).val = p.val :=
      fun u hu h => by subst h; rfl
    exact key _ _ (by simp [hlb, hln])
  | ⟨1, _⟩ =>
    have h := D.lhsIdx_val_of_single (cl := (1 : Fin 2)) hlc (ix2 p q)
      ((contrEquiv1 D K (rank_contr_one D hlc) (size_contr_K D hlc)).symm i)
    refine h.trans ?_
    exact contrEquiv1_symm_val D K (rank_contr_one D hlc) (size_contr_K D hlc) i

/-- The right operand's index at output entry (p, q) and contraction position i is (i, q). -/
theorem rhsIdx_eq (hlc : D.lhsContracting = [1]) (hrc : D.rhsContracting = [0]) (hlb : D.lhsBatch = [])
    (hrb : D.rhsBatch = []) (hln : D.lhsNonContracting = [0]) (hrn : D.rhsNonContracting = [1])
    (p : Fin M) (q : Fin N) (i : Fin K) :
    D.rhsIdx (ix2 p q) ((contrEquiv1 D K (rank_contr_one D hlc) (size_contr_K D hlc)).symm i) = ix2 i q := by
  funext a
  apply Fin.ext
  match a with
  | ⟨0, _⟩ =>
    have h := D.rhsIdx_val_of_single (cr := (0 : Fin 2)) hrc (ix2 p q)
      ((contrEquiv1 D K (rank_contr_one D hlc) (size_contr_K D hlc)).symm i)
    refine h.trans ?_
    exact contrEquiv1_symm_val D K (rank_contr_one D hlc) (size_contr_K D hlc) i
  | ⟨1, _⟩ =>
    unfold DotDims.rhsIdx
    have hb : (⟨1, by decide⟩ : Fin 2) ∉ D.rhsBatch := by rw [hrb]; exact List.not_mem_nil
    have hn : (⟨1, by decide⟩ : Fin 2) ∈ D.rhsNonContracting := by rw [hrn]; exact List.mem_singleton.mpr rfl
    rw [dif_neg hb, dif_pos hn]
    simp only [Fin.val_cast]
    have key : ∀ (u : ℕ) (hu : u < 2), u = 1 → ((ix2 p q : (⟨2, ![M, N]⟩ : Shape).Idx) ⟨u, hu⟩).val = q.val :=
      fun u hu h => by subst h; rfl
    exact key _ _ (by simp [hlb, hln, hrn])

/-- The product's sum at entry (p, q) is the sum over i of left (p, i) times right (i, q). -/
theorem sum_plain (hlc : D.lhsContracting = [1]) (hrc : D.rhsContracting = [0]) (hlb : D.lhsBatch = [])
    (hrb : D.rhsBatch = []) (hln : D.lhsNonContracting = [0]) (hrn : D.rhsNonContracting = [1])
    (f : (⟨2, ![M, K]⟩ : Shape).Idx → EReal) (g : (⟨2, ![K, N]⟩ : Shape).Idx → EReal) (p : Fin M) (q : Fin N) :
    ∑ k : D.contr.Idx, f (D.lhsIdx (ix2 p q) k) * g (D.rhsIdx (ix2 p q) k) = ∑ i : Fin K, f (ix2 p i) * g (ix2 i q) :=
  Cert.LibDotSum.sum_contr_eq D K (rank_contr_one D hlc) (size_contr_K D hlc) f g (ix2 p q)
    (fun i => f (ix2 p i)) (fun i => g (ix2 i q))
    (fun i => congrArg f (lhsIdx_eq D hlc hlb hln p q i))
    (fun i => congrArg g (rhsIdx_eq D hlc hrc hlb hrb hln hrn p q i))

end Cert.LibPlainDot

end
-- ==== Proof.KI.Small0Value.lean ====
/-
  What region 0 leaves in its two output arrays, over the extended reals: the narrow one is the matrix product of
  the activations with the weight, entry by entry (rounding is the identity here), the wide one the scale times that
  product. A grid point owns the 2048 rows of its tile: the body's product at row p of the tile is the sum over the
  512 columns of activation row (2048·t + p) against the weight's columns, which is the whole product at that row,
  and the four tiles cover the 8192 rows.
-/
import proofs.«131271_j4982162063661_2_alg».proof.Proof.KI.Small0
import proofs.«131271_j4982162063661_2_alg».proof.Proof.Spec
import proofs.«131271_j4982162063661_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem zero2_0 : (![0, 0] : Fin 2 → Nat) = fun _ => 0 := funext fun a => by fin_cases a <;> rfl

/-- The region's three input arrays as it finds them: activations, weight, scale. -/
abbrev actv0 (c : Dev nD) : Cert.Spec.Mat 8192 512 := V c (Pipeline.arrRef spec0 0)
abbrev wght0 (c : Dev nD) : Cert.Spec.Mat 512 128 := V c (Pipeline.arrRef spec0 1)
abbrev scal0 (c : Dev nD) : Cert.Spec.Mat 1 1 := V c (Pipeline.arrRef spec0 2)

/-- The block index maps, decided over the four points: the activations and both outputs move down the rows with
    the point, the weight and the scale stay. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

theorem row_lt0 (t : Fin cfg0.N) (p : Fin 2048) : t.val * 2048 + p.val < 8192 := by
  have hN : cfg0.N = 4 := N_0
  have := t.isLt; have := p.isLt; omega

/-- Row p of the point's activation tile is row 2048·t + p of the array. -/
theorem iblk0_0_apply (c : Dev nD) (t : Fin cfg0.N) (p : Fin 2048) (j : Fin 512) :
    iblk0 V c 0 t (ix2 p j) = actv0 V c (ix2 ⟨t.val * 2048 + p.val, row_lt0 t p⟩ j) := by
  show V c (Pipeline.arrRef spec0 0) (((cfg0.win 0).blk t).view.emb (ix2 p j)) = _
  refine congrArg _ ?_
  funext a; apply Fin.ext
  obtain ⟨e0, e1, -⟩ := idx0 t
  match a with
  | ⟨0, _⟩ => show win0_0.index t (0 : Fin 2) * 2048 + 1 * p.val = t.val * 2048 + p.val; omega
  | ⟨1, _⟩ => show win0_0.index t (1 : Fin 2) * 512 + 1 * j.val = j.val; omega

/-- The weight's block is the whole weight. -/
theorem iblk0_1_apply (c : Dev nD) (t : Fin cfg0.N) (j : Fin 512) (q : Fin 128) :
    iblk0 V c 1 t (ix2 j q) = wght0 V c (ix2 j q) := by
  show V c (Pipeline.arrRef spec0 1) (((cfg0.win 1).blk t).view.emb (ix2 j q)) = _
  refine congrArg _ ?_
  funext a; apply Fin.ext
  obtain ⟨-, -, e2, e3, -⟩ := idx0 t
  match a with
  | ⟨0, _⟩ => show win0_1.index t (0 : Fin 2) * 512 + 1 * j.val = j.val; omega
  | ⟨1, _⟩ => show win0_1.index t (1 : Fin 2) * 128 + 1 * q.val = q.val; omega

/-- The scale's block is the one-entry scale. -/
theorem iblk0_2_apply (c : Dev nD) (t : Fin cfg0.N) :
    iblk0 V c 2 t (ix2 0 0) = scal0 V c (ix2 0 0) := by
  show V c (Pipeline.arrRef spec0 2) (((cfg0.win 2).blk t).view.emb (ix2 0 0)) = _
  refine congrArg _ ?_
  funext a; apply Fin.ext
  obtain ⟨-, -, -, -, e4, e5, -⟩ := idx0 t
  match a with
  | ⟨0, _⟩ => show win0_2.index t (0 : Fin 2) * 1 + 1 * 0 = 0; omega
  | ⟨1, _⟩ => show win0_2.index t (1 : Fin 2) * 1 + 1 * 0 = 0; omega

/-- The body's product at an entry of the tile: the sum over the contraction axis. -/
theorem prodpay0_apply (x0 : Vec Ideal S2048x512 .f32) (x1 : Vec Ideal S512x128 .f32) (p : Fin 2048) (q : Fin 128) :
    k0_pay1 x0 x1 (ix2 p q) = ∑ j : Fin 512, x0 (ix2 p j) * x1 (ix2 j q) := by
  unfold k0_pay1
  refine (Ideal.matmul_constant_zero_apply _ none _ _ (ix2 p q)).trans ?_
  exact Cert.LibPlainDot.sum_plain dot_S2048x512_S512x128_S2048x128_1_0_0_1_n_n rfl rfl rfl rfl rfl rfl x0 x1 p q

/-- The scaled payload at an entry: the scale's one entry times the product there. -/
theorem scalepay0_apply (x0 : Vec Ideal S2048x512 .f32) (x1 : Vec Ideal S512x128 .f32) (x2 : Vec Ideal S1x1 .f32) (p : Fin 2048) (q : Fin 128) :
    k0_pay3 x0 x1 x2 (ix2 p q) = x2 (ix2 0 0) * k0_pay1 x0 x1 (ix2 p q) := by
  unfold k0_pay3
  show (broadcastTo S2048x128 (shapeCast S1x1 x2 shapeCasts_S1x1_S1x1) broadcasts_S1x1_S2048x128) (ix2 p q) * _ = _
  rw [broadcastTo_apply _ _ (ix2 p q) (ix2 0 0) (fun a => by match a with | ⟨0, _⟩ => rfl | ⟨1, _⟩ => rfl), shapeCast_self]

/-- Where an entry of an output tile sits in the array: row 2048·t + p, the same column. -/
theorem emb0_3 (t : Fin cfg0.N) (p : Fin 2048) (q : Fin 128) :
    ((cfg0.win 3).blk t).view.emb (ix2 p q) = ix2 ⟨t.val * 2048 + p.val, row_lt0 t p⟩ q := by
  funext a; apply Fin.ext
  obtain ⟨-, -, -, -, -, -, e6, e7, -⟩ := idx0 t
  match a with
  | ⟨0, _⟩ => show win0_3.index t (0 : Fin 2) * 2048 + 1 * p.val = t.val * 2048 + p.val; omega
  | ⟨1, _⟩ => show win0_3.index t (1 : Fin 2) * 128 + 1 * q.val = q.val; omega
theorem emb0_4 (t : Fin cfg0.N) (p : Fin 2048) (q : Fin 128) :
    ((cfg0.win 4).blk t).view.emb (ix2 p q) = ix2 ⟨t.val * 2048 + p.val, row_lt0 t p⟩ q := by
  funext a; apply Fin.ext
  obtain ⟨-, -, -, -, -, -, -, -, e8, e9⟩ := idx0 t
  match a with
  | ⟨0, _⟩ => show win0_4.index t (0 : Fin 2) * 2048 + 1 * p.val = t.val * 2048 + p.val; omega
  | ⟨1, _⟩ => show win0_4.index t (1 : Fin 2) * 128 + 1 * q.val = q.val; omega

/-- The tile's product at an entry is the whole product at the entry's place in the array. -/
theorem tileprod0 (c : Dev nD) (t : Fin cfg0.N) (p : Fin 2048) (q : Fin 128) :
    k0_pay1 (iblk0 V c 0 t) (iblk0 V c 1 t) (ix2 p q)
      = Cert.Spec.prod (actv0 V c) (wght0 V c) (ix2 ⟨t.val * 2048 + p.val, row_lt0 t p⟩ q) := by
  rw [prodpay0_apply, Cert.Spec.prod_apply]
  exact Finset.sum_congr rfl fun j _ => by rw [iblk0_0_apply, iblk0_1_apply]

/-- What point t writes back into the narrow output is block t of the product. -/
theorem flushed0_3 (c : Dev nD) (t : Fin cfg0.N) :
    (dat0 (F := Ideal) V c).flushed 3 t = ((cfg0.win 3).blk t).view.read (Elt Ideal) (Cert.Spec.prod (actv0 V c) (wght0 V c)) := by
  show (cfg0.win 3).cut (grid0.coords t) ((dat0 V c).after 3 t) = _
  rw [after0_3]
  unfold out0_3
  rw [View.canon_unit_zero zero2_0]
  simp only [View.ld_unit_zero (S := S2048x512) zero2_0, View.ld_unit_zero (S := S512x128) zero2_0]
  funext j
  obtain ⟨p, q, rfl⟩ : ∃ (p : Fin 2048) (q : Fin 128), j = ix2 p q := ⟨j 0, j 1, eq_ix2 j⟩
  show k0_pay1 (iblk0 V c 0 t) (iblk0 V c 1 t) (ix2 p q) = Cert.Spec.prod (actv0 V c) (wght0 V c) (((cfg0.win 3).blk t).view.emb (ix2 p q))
  rw [emb0_3, tileprod0]

/-- What point t writes back into the wide output is block t of the scaled product. -/
theorem flushed0_4 (c : Dev nD) (t : Fin cfg0.N) :
    (dat0 (F := Ideal) V c).flushed 4 t = ((cfg0.win 4).blk t).view.read (Elt Ideal)
      (fun i => scal0 V c (ix2 0 0) * Cert.Spec.prod (actv0 V c) (wght0 V c) i) := by
  show (cfg0.win 4).cut (grid0.coords t) ((dat0 V c).after 4 t) = _
  rw [after0_4]
  unfold out0_4
  rw [View.canon_unit_zero zero2_0]
  simp only [View.ld_unit_zero (S := S2048x512) zero2_0, View.ld_unit_zero (S := S512x128) zero2_0, View.ld_unit_zero (S := S1x1) zero2_0]
  funext j
  obtain ⟨p, q, rfl⟩ : ∃ (p : Fin 2048) (q : Fin 128), j = ix2 p q := ⟨j 0, j 1, eq_ix2 j⟩
  show k0_pay3 (iblk0 V c 0 t) (iblk0 V c 1 t) (iblk0 V c 2 t) (ix2 p q)
    = scal0 V c (ix2 0 0) * Cert.Spec.prod (actv0 V c) (wght0 V c) (((cfg0.win 4).blk t).view.emb (ix2 p q))
  rw [emb0_4, scalepay0_apply, tileprod0, iblk0_2_apply]

/-- An index of an output array lies in point t's block iff each coordinate lies in the block's range. -/
theorem mem_blk0_3 (t : Fin cfg0.N) (i : S8192x128.Idx) :
    i ∈ ((cfg0.win 3).blk t).view.set ↔ ∀ a : Fin 2, win0_3.index t a * S2048x128.size a ≤ (i a).val ∧ (i a).val < win0_3.index t a * S2048x128.size a + S2048x128.size a := by
  show i ∈ ((View.whole main_v7_0).slice (win0_3.rect t)).set ↔ _
  rw [View.set_slice_whole, Rect.mem_set_unit]
  exact Iff.rfl
theorem mem_blk0_4 (t : Fin cfg0.N) (i : S8192x128.Idx) :
    i ∈ ((cfg0.win 4).blk t).view.set ↔ ∀ a : Fin 2, win0_4.index t a * S2048x128.size a ≤ (i a).val ∧ (i a).val < win0_4.index t a * S2048x128.size a + S2048x128.size a := by
  show i ∈ ((View.whole main_v7_1).slice (win0_4.rect t)).set ↔ _
  rw [View.set_slice_whole, Rect.mem_set_unit]
  exact Iff.rfl

/-- Row r is written back by the point r / 2048. -/
theorem covered0_3 (i : S8192x128.Idx) : ∃ t : Fin cfg0.N, (cfg0.win 3).flush t = true ∧ i ∈ ((cfg0.win 3).blk t).view.set := by
  have hi0 : (i 0).val < 8192 := (i 0).isLt
  have hi1 : (i 1).val < 128 := (i 1).isLt
  have hN : cfg0.N = 4 := N_0
  refine ⟨⟨(i 0).val / 2048, by omega⟩, flush0_3 _, ?_⟩
  rw [mem_blk0_3]
  obtain ⟨-, -, -, -, -, -, e6, e7, -⟩ := idx0 ⟨(i 0).val / 2048, by omega⟩
  intro a
  match a with
  | ⟨0, _⟩ =>
    show win0_3.index _ (0 : Fin 2) * 2048 ≤ (i 0).val ∧ (i 0).val < win0_3.index _ (0 : Fin 2) * 2048 + 2048
    rw [e6]; show (i 0).val / 2048 * 2048 ≤ (i 0).val ∧ (i 0).val < (i 0).val / 2048 * 2048 + 2048; omega
  | ⟨1, _⟩ =>
    show win0_3.index _ (1 : Fin 2) * 128 ≤ (i 1).val ∧ (i 1).val < win0_3.index _ (1 : Fin 2) * 128 + 128
    rw [e7]; omega
theorem covered0_4 (i : S8192x128.Idx) : ∃ t : Fin cfg0.N, (cfg0.win 4).flush t = true ∧ i ∈ ((cfg0.win 4).blk t).view.set := by
  have hi0 : (i 0).val < 8192 := (i 0).isLt
  have hi1 : (i 1).val < 128 := (i 1).isLt
  have hN : cfg0.N = 4 := N_0
  refine ⟨⟨(i 0).val / 2048, by omega⟩, flush0_4 _, ?_⟩
  rw [mem_blk0_4]
  obtain ⟨-, -, -, -, -, -, -, -, e8, e9⟩ := idx0 ⟨(i 0).val / 2048, by omega⟩
  intro a
  match a with
  | ⟨0, _⟩ =>
    show win0_4.index _ (0 : Fin 2) * 2048 ≤ (i 0).val ∧ (i 0).val < win0_4.index _ (0 : Fin 2) * 2048 + 2048
    rw [e8]; show (i 0).val / 2048 * 2048 ≤ (i 0).val ∧ (i 0).val < (i 0).val / 2048 * 2048 + 2048; omega
  | ⟨1, _⟩ =>
    show win0_4.index _ (1 : Fin 2) * 128 ≤ (i 1).val ∧ (i 1).val < win0_4.index _ (1 : Fin 2) * 128 + 128
    rw [e9]; omega

/-- The narrow output array after the region: the product of the activations with the weight. -/
theorem value0_3 (c : Dev nD) :
    (dat0 (F := Ideal) V c).arrAt 3 cfg0.N = Cert.Spec.prod (actv0 V c) (wght0 V c) :=
  (dat0 V c).arrAt_eq_of_cover 3 _ (fun t _ => flushed0_3 V c t) (covered0_3)
/-- The wide output array after the region: the scale times the product. -/
theorem value0_4 (c : Dev nD) :
    (dat0 (F := Ideal) V c).arrAt 4 cfg0.N = fun i => scal0 V c (ix2 0 0) * Cert.Spec.prod (actv0 V c) (wght0 V c) i :=
  (dat0 V c).arrAt_eq_of_cover 4 _ (fun t _ => flushed0_4 V c t) (covered0_4)

end Cert.KernelIdeal.Hand

end
-- ==== Proof.KI.Small3Value.lean ====
/-
  What region 3 leaves in its two output arrays, over the extended reals: the narrow one is the matrix product of
  the activations with the weight, entry by entry (rounding is the identity here), the wide one the scale times that
  product. A grid point owns the 2048 rows of its tile: the body's product at row p of the tile is the sum over the
  128 columns of activation row (2048·t + p) against the weight's columns, which is the whole product at that row,
  and the four tiles cover the 8192 rows.
-/
import proofs.«131271_j4982162063661_2_alg».proof.Proof.KI.Small3
import proofs.«131271_j4982162063661_2_alg».proof.Proof.Spec
import proofs.«131271_j4982162063661_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem zero2_3 : (![0, 0] : Fin 2 → Nat) = fun _ => 0 := funext fun a => by fin_cases a <;> rfl

/-- The region's three input arrays as it finds them: activations, weight, scale. -/
abbrev actv3 (c : Dev nD) : Cert.Spec.Mat 8192 128 := V c (Pipeline.arrRef spec3 0)
abbrev wght3 (c : Dev nD) : Cert.Spec.Mat 128 128 := V c (Pipeline.arrRef spec3 1)
abbrev scal3 (c : Dev nD) : Cert.Spec.Mat 1 1 := V c (Pipeline.arrRef spec3 2)

/-- The block index maps, decided over the four points: the activations and both outputs move down the rows with
    the point, the weight and the scale stay. -/
theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0
    ∧ win3_4.index t (0 : Fin 2) = t.val ∧ win3_4.index t (1 : Fin 2) = 0 :=
  (by decide +kernel : ∀ t : Fin grid3.N, _)

theorem row_lt3 (t : Fin cfg3.N) (p : Fin 2048) : t.val * 2048 + p.val < 8192 := by
  have hN : cfg3.N = 4 := N_3
  have := t.isLt; have := p.isLt; omega

/-- Row p of the point's activation tile is row 2048·t + p of the array. -/
theorem iblk3_0_apply (c : Dev nD) (t : Fin cfg3.N) (p : Fin 2048) (j : Fin 128) :
    iblk3 V c 0 t (ix2 p j) = actv3 V c (ix2 ⟨t.val * 2048 + p.val, row_lt3 t p⟩ j) := by
  show V c (Pipeline.arrRef spec3 0) (((cfg3.win 0).blk t).view.emb (ix2 p j)) = _
  refine congrArg _ ?_
  funext a; apply Fin.ext
  obtain ⟨e0, e1, -⟩ := idx3 t
  match a with
  | ⟨0, _⟩ => show win3_0.index t (0 : Fin 2) * 2048 + 1 * p.val = t.val * 2048 + p.val; omega
  | ⟨1, _⟩ => show win3_0.index t (1 : Fin 2) * 128 + 1 * j.val = j.val; omega

/-- The weight's block is the whole weight. -/
theorem iblk3_1_apply (c : Dev nD) (t : Fin cfg3.N) (j : Fin 128) (q : Fin 128) :
    iblk3 V c 1 t (ix2 j q) = wght3 V c (ix2 j q) := by
  show V c (Pipeline.arrRef spec3 1) (((cfg3.win 1).blk t).view.emb (ix2 j q)) = _
  refine congrArg _ ?_
  funext a; apply Fin.ext
  obtain ⟨-, -, e2, e3, -⟩ := idx3 t
  match a with
  | ⟨0, _⟩ => show win3_1.index t (0 : Fin 2) * 128 + 1 * j.val = j.val; omega
  | ⟨1, _⟩ => show win3_1.index t (1 : Fin 2) * 128 + 1 * q.val = q.val; omega

/-- The scale's block is the one-entry scale. -/
theorem iblk3_2_apply (c : Dev nD) (t : Fin cfg3.N) :
    iblk3 V c 2 t (ix2 0 0) = scal3 V c (ix2 0 0) := by
  show V c (Pipeline.arrRef spec3 2) (((cfg3.win 2).blk t).view.emb (ix2 0 0)) = _
  refine congrArg _ ?_
  funext a; apply Fin.ext
  obtain ⟨-, -, -, -, e4, e5, -⟩ := idx3 t
  match a with
  | ⟨0, _⟩ => show win3_2.index t (0 : Fin 2) * 1 + 1 * 0 = 0; omega
  | ⟨1, _⟩ => show win3_2.index t (1 : Fin 2) * 1 + 1 * 0 = 0; omega

/-- The body's product at an entry of the tile: the sum over the contraction axis. -/
theorem prodpay3_apply (x0 : Vec Ideal S2048x128 .f32) (x1 : Vec Ideal S128x128 .f32) (p : Fin 2048) (q : Fin 128) :
    k3_pay1 x0 x1 (ix2 p q) = ∑ j : Fin 128, x0 (ix2 p j) * x1 (ix2 j q) := by
  unfold k3_pay1
  rw [shapeCast_self]
  refine (Ideal.matmul_constant_zero_apply _ none _ _ (ix2 p q)).trans ?_
  exact Cert.LibPlainDot.sum_plain dot_S2048x128_S128x128_S2048x128_1_0_0_1_n_n rfl rfl rfl rfl rfl rfl x0 x1 p q

/-- The scaled payload at an entry: the scale's one entry times the product there. -/
theorem scalepay3_apply (x0 : Vec Ideal S2048x128 .f32) (x1 : Vec Ideal S128x128 .f32) (x2 : Vec Ideal S1x1 .f32) (p : Fin 2048) (q : Fin 128) :
    k3_pay3 x0 x1 x2 (ix2 p q) = x2 (ix2 0 0) * k3_pay1 x0 x1 (ix2 p q) := by
  unfold k3_pay3
  show (broadcastTo S2048x128 (shapeCast S1x1 x2 shapeCasts_S1x1_S1x1) broadcasts_S1x1_S2048x128) (ix2 p q) * _ = _
  rw [broadcastTo_apply _ _ (ix2 p q) (ix2 0 0) (fun a => by match a with | ⟨0, _⟩ => rfl | ⟨1, _⟩ => rfl), shapeCast_self]

/-- Where an entry of an output tile sits in the array: row 2048·t + p, the same column. -/
theorem emb3_3 (t : Fin cfg3.N) (p : Fin 2048) (q : Fin 128) :
    ((cfg3.win 3).blk t).view.emb (ix2 p q) = ix2 ⟨t.val * 2048 + p.val, row_lt3 t p⟩ q := by
  funext a; apply Fin.ext
  obtain ⟨-, -, -, -, -, -, e6, e7, -⟩ := idx3 t
  match a with
  | ⟨0, _⟩ => show win3_3.index t (0 : Fin 2) * 2048 + 1 * p.val = t.val * 2048 + p.val; omega
  | ⟨1, _⟩ => show win3_3.index t (1 : Fin 2) * 128 + 1 * q.val = q.val; omega
theorem emb3_4 (t : Fin cfg3.N) (p : Fin 2048) (q : Fin 128) :
    ((cfg3.win 4).blk t).view.emb (ix2 p q) = ix2 ⟨t.val * 2048 + p.val, row_lt3 t p⟩ q := by
  funext a; apply Fin.ext
  obtain ⟨-, -, -, -, -, -, -, -, e8, e9⟩ := idx3 t
  match a with
  | ⟨0, _⟩ => show win3_4.index t (0 : Fin 2) * 2048 + 1 * p.val = t.val * 2048 + p.val; omega
  | ⟨1, _⟩ => show win3_4.index t (1 : Fin 2) * 128 + 1 * q.val = q.val; omega

/-- The tile's product at an entry is the whole product at the entry's place in the array. -/
theorem tileprod3 (c : Dev nD) (t : Fin cfg3.N) (p : Fin 2048) (q : Fin 128) :
    k3_pay1 (iblk3 V c 0 t) (iblk3 V c 1 t) (ix2 p q)
      = Cert.Spec.prod (actv3 V c) (wght3 V c) (ix2 ⟨t.val * 2048 + p.val, row_lt3 t p⟩ q) := by
  rw [prodpay3_apply, Cert.Spec.prod_apply]
  exact Finset.sum_congr rfl fun j _ => by rw [iblk3_0_apply, iblk3_1_apply]

/-- What point t writes back into the narrow output is block t of the product. -/
theorem flushed3_3 (c : Dev nD) (t : Fin cfg3.N) :
    (dat3 (F := Ideal) V c).flushed 3 t = ((cfg3.win 3).blk t).view.read (Elt Ideal) (Cert.Spec.prod (actv3 V c) (wght3 V c)) := by
  show (cfg3.win 3).cut (grid3.coords t) ((dat3 V c).after 3 t) = _
  rw [after3_3]
  unfold out3_3
  rw [View.canon_unit_zero zero2_3]
  simp only [View.ld_unit_zero (S := S2048x128) zero2_3, View.ld_unit_zero (S := S128x128) zero2_3]
  funext j
  obtain ⟨p, q, rfl⟩ : ∃ (p : Fin 2048) (q : Fin 128), j = ix2 p q := ⟨j 0, j 1, eq_ix2 j⟩
  show k3_pay1 (iblk3 V c 0 t) (iblk3 V c 1 t) (ix2 p q) = Cert.Spec.prod (actv3 V c) (wght3 V c) (((cfg3.win 3).blk t).view.emb (ix2 p q))
  rw [emb3_3, tileprod3]

/-- What point t writes back into the wide output is block t of the scaled product. -/
theorem flushed3_4 (c : Dev nD) (t : Fin cfg3.N) :
    (dat3 (F := Ideal) V c).flushed 4 t = ((cfg3.win 4).blk t).view.read (Elt Ideal)
      (fun i => scal3 V c (ix2 0 0) * Cert.Spec.prod (actv3 V c) (wght3 V c) i) := by
  show (cfg3.win 4).cut (grid3.coords t) ((dat3 V c).after 4 t) = _
  rw [after3_4]
  unfold out3_4
  rw [View.canon_unit_zero zero2_3]
  simp only [View.ld_unit_zero (S := S2048x128) zero2_3, View.ld_unit_zero (S := S128x128) zero2_3, View.ld_unit_zero (S := S1x1) zero2_3]
  funext j
  obtain ⟨p, q, rfl⟩ : ∃ (p : Fin 2048) (q : Fin 128), j = ix2 p q := ⟨j 0, j 1, eq_ix2 j⟩
  show k3_pay3 (iblk3 V c 0 t) (iblk3 V c 1 t) (iblk3 V c 2 t) (ix2 p q)
    = scal3 V c (ix2 0 0) * Cert.Spec.prod (actv3 V c) (wght3 V c) (((cfg3.win 4).blk t).view.emb (ix2 p q))
  rw [emb3_4, scalepay3_apply, tileprod3, iblk3_2_apply]

/-- An index of an output array lies in point t's block iff each coordinate lies in the block's range. -/
theorem mem_blk3_3 (t : Fin cfg3.N) (i : S8192x128.Idx) :
    i ∈ ((cfg3.win 3).blk t).view.set ↔ ∀ a : Fin 2, win3_3.index t a * S2048x128.size a ≤ (i a).val ∧ (i a).val < win3_3.index t a * S2048x128.size a + S2048x128.size a := by
  show i ∈ ((View.whole main_v17_0).slice (win3_3.rect t)).set ↔ _
  rw [View.set_slice_whole, Rect.mem_set_unit]
  exact Iff.rfl
theorem mem_blk3_4 (t : Fin cfg3.N) (i : S8192x128.Idx) :
    i ∈ ((cfg3.win 4).blk t).view.set ↔ ∀ a : Fin 2, win3_4.index t a * S2048x128.size a ≤ (i a).val ∧ (i a).val < win3_4.index t a * S2048x128.size a + S2048x128.size a := by
  show i ∈ ((View.whole main_v17_1).slice (win3_4.rect t)).set ↔ _
  rw [View.set_slice_whole, Rect.mem_set_unit]
  exact Iff.rfl

/-- Row r is written back by the point r / 2048. -/
theorem covered3_3 (i : S8192x128.Idx) : ∃ t : Fin cfg3.N, (cfg3.win 3).flush t = true ∧ i ∈ ((cfg3.win 3).blk t).view.set := by
  have hi0 : (i 0).val < 8192 := (i 0).isLt
  have hi1 : (i 1).val < 128 := (i 1).isLt
  have hN : cfg3.N = 4 := N_3
  refine ⟨⟨(i 0).val / 2048, by omega⟩, flush3_3 _, ?_⟩
  rw [mem_blk3_3]
  obtain ⟨-, -, -, -, -, -, e6, e7, -⟩ := idx3 ⟨(i 0).val / 2048, by omega⟩
  intro a
  match a with
  | ⟨0, _⟩ =>
    show win3_3.index _ (0 : Fin 2) * 2048 ≤ (i 0).val ∧ (i 0).val < win3_3.index _ (0 : Fin 2) * 2048 + 2048
    rw [e6]; show (i 0).val / 2048 * 2048 ≤ (i 0).val ∧ (i 0).val < (i 0).val / 2048 * 2048 + 2048; omega
  | ⟨1, _⟩ =>
    show win3_3.index _ (1 : Fin 2) * 128 ≤ (i 1).val ∧ (i 1).val < win3_3.index _ (1 : Fin 2) * 128 + 128
    rw [e7]; omega
theorem covered3_4 (i : S8192x128.Idx) : ∃ t : Fin cfg3.N, (cfg3.win 4).flush t = true ∧ i ∈ ((cfg3.win 4).blk t).view.set := by
  have hi0 : (i 0).val < 8192 := (i 0).isLt
  have hi1 : (i 1).val < 128 := (i 1).isLt
  have hN : cfg3.N = 4 := N_3
  refine ⟨⟨(i 0).val / 2048, by omega⟩, flush3_4 _, ?_⟩
  rw [mem_blk3_4]
  obtain ⟨-, -, -, -, -, -, -, -, e8, e9⟩ := idx3 ⟨(i 0).val / 2048, by omega⟩
  intro a
  match a with
  | ⟨0, _⟩ =>
    show win3_4.index _ (0 : Fin 2) * 2048 ≤ (i 0).val ∧ (i 0).val < win3_4.index _ (0 : Fin 2) * 2048 + 2048
    rw [e8]; show (i 0).val / 2048 * 2048 ≤ (i 0).val ∧ (i 0).val < (i 0).val / 2048 * 2048 + 2048; omega
  | ⟨1, _⟩ =>
    show win3_4.index _ (1 : Fin 2) * 128 ≤ (i 1).val ∧ (i 1).val < win3_4.index _ (1 : Fin 2) * 128 + 128
    rw [e9]; omega

/-- The narrow output array after the region: the product of the activations with the weight. -/
theorem value3_3 (c : Dev nD) :
    (dat3 (F := Ideal) V c).arrAt 3 cfg3.N = Cert.Spec.prod (actv3 V c) (wght3 V c) :=
  (dat3 V c).arrAt_eq_of_cover 3 _ (fun t _ => flushed3_3 V c t) (covered3_3)
/-- The wide output array after the region: the scale times the product. -/
theorem value3_4 (c : Dev nD) :
    (dat3 (F := Ideal) V c).arrAt 4 cfg3.N = fun i => scal3 V c (ix2 0 0) * Cert.Spec.prod (actv3 V c) (wght3 V c) i :=
  (dat3 V c).arrAt_eq_of_cover 4 _ (fun t _ => flushed3_4 V c t) (covered3_4)

end Cert.KernelIdeal.Hand

end
-- ==== Proof.KI.Small6Value.lean ====
/-
  What region 6 leaves in its two output arrays, over the extended reals: the narrow one is the matrix product of
  the activations with the weight, entry by entry (rounding is the identity here), the wide one the scale times that
  product. A grid point owns the 2048 rows of its tile: the body's product at row p of the tile is the sum over the
  128 columns of activation row (2048·t + p) against the weight's columns, which is the whole product at that row,
  and the four tiles cover the 8192 rows.
-/
import proofs.«131271_j4982162063661_2_alg».proof.Proof.KI.Small6
import proofs.«131271_j4982162063661_2_alg».proof.Proof.Spec
import proofs.«131271_j4982162063661_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem zero2_6 : (![0, 0] : Fin 2 → Nat) = fun _ => 0 := funext fun a => by fin_cases a <;> rfl

/-- The region's three input arrays as it finds them: activations, weight, scale. -/
abbrev actv6 (c : Dev nD) : Cert.Spec.Mat 8192 128 := V c (Pipeline.arrRef spec6 0)
abbrev wght6 (c : Dev nD) : Cert.Spec.Mat 128 64 := V c (Pipeline.arrRef spec6 1)
abbrev scal6 (c : Dev nD) : Cert.Spec.Mat 1 1 := V c (Pipeline.arrRef spec6 2)

/-- The block index maps, decided over the four points: the activations and both outputs move down the rows with
    the point, the weight and the scale stay. -/
theorem idx6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0
    ∧ win6_4.index t (0 : Fin 2) = t.val ∧ win6_4.index t (1 : Fin 2) = 0 :=
  (by decide +kernel : ∀ t : Fin grid6.N, _)

theorem row_lt6 (t : Fin cfg6.N) (p : Fin 2048) : t.val * 2048 + p.val < 8192 := by
  have hN : cfg6.N = 4 := N_6
  have := t.isLt; have := p.isLt; omega

/-- Row p of the point's activation tile is row 2048·t + p of the array. -/
theorem iblk6_0_apply (c : Dev nD) (t : Fin cfg6.N) (p : Fin 2048) (j : Fin 128) :
    iblk6 V c 0 t (ix2 p j) = actv6 V c (ix2 ⟨t.val * 2048 + p.val, row_lt6 t p⟩ j) := by
  show V c (Pipeline.arrRef spec6 0) (((cfg6.win 0).blk t).view.emb (ix2 p j)) = _
  refine congrArg _ ?_
  funext a; apply Fin.ext
  obtain ⟨e0, e1, -⟩ := idx6 t
  match a with
  | ⟨0, _⟩ => show win6_0.index t (0 : Fin 2) * 2048 + 1 * p.val = t.val * 2048 + p.val; omega
  | ⟨1, _⟩ => show win6_0.index t (1 : Fin 2) * 128 + 1 * j.val = j.val; omega

/-- The weight's block is the whole weight. -/
theorem iblk6_1_apply (c : Dev nD) (t : Fin cfg6.N) (j : Fin 128) (q : Fin 64) :
    iblk6 V c 1 t (ix2 j q) = wght6 V c (ix2 j q) := by
  show V c (Pipeline.arrRef spec6 1) (((cfg6.win 1).blk t).view.emb (ix2 j q)) = _
  refine congrArg _ ?_
  funext a; apply Fin.ext
  obtain ⟨-, -, e2, e3, -⟩ := idx6 t
  match a with
  | ⟨0, _⟩ => show win6_1.index t (0 : Fin 2) * 128 + 1 * j.val = j.val; omega
  | ⟨1, _⟩ => show win6_1.index t (1 : Fin 2) * 64 + 1 * q.val = q.val; omega

/-- The scale's block is the one-entry scale. -/
theorem iblk6_2_apply (c : Dev nD) (t : Fin cfg6.N) :
    iblk6 V c 2 t (ix2 0 0) = scal6 V c (ix2 0 0) := by
  show V c (Pipeline.arrRef spec6 2) (((cfg6.win 2).blk t).view.emb (ix2 0 0)) = _
  refine congrArg _ ?_
  funext a; apply Fin.ext
  obtain ⟨-, -, -, -, e4, e5, -⟩ := idx6 t
  match a with
  | ⟨0, _⟩ => show win6_2.index t (0 : Fin 2) * 1 + 1 * 0 = 0; omega
  | ⟨1, _⟩ => show win6_2.index t (1 : Fin 2) * 1 + 1 * 0 = 0; omega

/-- The body's product at an entry of the tile: the sum over the contraction axis. -/
theorem prodpay6_apply (x0 : Vec Ideal S2048x128 .f32) (x1 : Vec Ideal S128x64 .f32) (p : Fin 2048) (q : Fin 64) :
    k6_pay1 x0 x1 (ix2 p q) = ∑ j : Fin 128, x0 (ix2 p j) * x1 (ix2 j q) := by
  unfold k6_pay1
  rw [shapeCast_self]
  refine (Ideal.matmul_constant_zero_apply _ none _ _ (ix2 p q)).trans ?_
  exact Cert.LibPlainDot.sum_plain dot_S2048x128_S128x64_S2048x64_1_0_0_1_n_n rfl rfl rfl rfl rfl rfl x0 x1 p q

/-- The scaled payload at an entry: the scale's one entry times the product there. -/
theorem scalepay6_apply (x0 : Vec Ideal S2048x128 .f32) (x1 : Vec Ideal S128x64 .f32) (x2 : Vec Ideal S1x1 .f32) (p : Fin 2048) (q : Fin 64) :
    k6_pay3 x0 x1 x2 (ix2 p q) = x2 (ix2 0 0) * k6_pay1 x0 x1 (ix2 p q) := by
  unfold k6_pay3
  show (broadcastTo S2048x64 (shapeCast S1x1 x2 shapeCasts_S1x1_S1x1) broadcasts_S1x1_S2048x64) (ix2 p q) * _ = _
  rw [broadcastTo_apply _ _ (ix2 p q) (ix2 0 0) (fun a => by match a with | ⟨0, _⟩ => rfl | ⟨1, _⟩ => rfl), shapeCast_self]

/-- Where an entry of an output tile sits in the array: row 2048·t + p, the same column. -/
theorem emb6_3 (t : Fin cfg6.N) (p : Fin 2048) (q : Fin 64) :
    ((cfg6.win 3).blk t).view.emb (ix2 p q) = ix2 ⟨t.val * 2048 + p.val, row_lt6 t p⟩ q := by
  funext a; apply Fin.ext
  obtain ⟨-, -, -, -, -, -, e6, e7, -⟩ := idx6 t
  match a with
  | ⟨0, _⟩ => show win6_3.index t (0 : Fin 2) * 2048 + 1 * p.val = t.val * 2048 + p.val; omega
  | ⟨1, _⟩ => show win6_3.index t (1 : Fin 2) * 64 + 1 * q.val = q.val; omega
theorem emb6_4 (t : Fin cfg6.N) (p : Fin 2048) (q : Fin 64) :
    ((cfg6.win 4).blk t).view.emb (ix2 p q) = ix2 ⟨t.val * 2048 + p.val, row_lt6 t p⟩ q := by
  funext a; apply Fin.ext
  obtain ⟨-, -, -, -, -, -, -, -, e8, e9⟩ := idx6 t
  match a with
  | ⟨0, _⟩ => show win6_4.index t (0 : Fin 2) * 2048 + 1 * p.val = t.val * 2048 + p.val; omega
  | ⟨1, _⟩ => show win6_4.index t (1 : Fin 2) * 64 + 1 * q.val = q.val; omega

/-- The tile's product at an entry is the whole product at the entry's place in the array. -/
theorem tileprod6 (c : Dev nD) (t : Fin cfg6.N) (p : Fin 2048) (q : Fin 64) :
    k6_pay1 (iblk6 V c 0 t) (iblk6 V c 1 t) (ix2 p q)
      = Cert.Spec.prod (actv6 V c) (wght6 V c) (ix2 ⟨t.val * 2048 + p.val, row_lt6 t p⟩ q) := by
  rw [prodpay6_apply, Cert.Spec.prod_apply]
  exact Finset.sum_congr rfl fun j _ => by rw [iblk6_0_apply, iblk6_1_apply]

/-- What point t writes back into the narrow output is block t of the product. -/
theorem flushed6_3 (c : Dev nD) (t : Fin cfg6.N) :
    (dat6 (F := Ideal) V c).flushed 3 t = ((cfg6.win 3).blk t).view.read (Elt Ideal) (Cert.Spec.prod (actv6 V c) (wght6 V c)) := by
  show (cfg6.win 3).cut (grid6.coords t) ((dat6 V c).after 3 t) = _
  rw [after6_3]
  unfold out6_3
  rw [View.canon_unit_zero zero2_6]
  simp only [View.ld_unit_zero (S := S2048x128) zero2_6, View.ld_unit_zero (S := S128x64) zero2_6]
  funext j
  obtain ⟨p, q, rfl⟩ : ∃ (p : Fin 2048) (q : Fin 64), j = ix2 p q := ⟨j 0, j 1, eq_ix2 j⟩
  show k6_pay1 (iblk6 V c 0 t) (iblk6 V c 1 t) (ix2 p q) = Cert.Spec.prod (actv6 V c) (wght6 V c) (((cfg6.win 3).blk t).view.emb (ix2 p q))
  rw [emb6_3, tileprod6]

/-- What point t writes back into the wide output is block t of the scaled product. -/
theorem flushed6_4 (c : Dev nD) (t : Fin cfg6.N) :
    (dat6 (F := Ideal) V c).flushed 4 t = ((cfg6.win 4).blk t).view.read (Elt Ideal)
      (fun i => scal6 V c (ix2 0 0) * Cert.Spec.prod (actv6 V c) (wght6 V c) i) := by
  show (cfg6.win 4).cut (grid6.coords t) ((dat6 V c).after 4 t) = _
  rw [after6_4]
  unfold out6_4
  rw [View.canon_unit_zero zero2_6]
  simp only [View.ld_unit_zero (S := S2048x128) zero2_6, View.ld_unit_zero (S := S128x64) zero2_6, View.ld_unit_zero (S := S1x1) zero2_6]
  funext j
  obtain ⟨p, q, rfl⟩ : ∃ (p : Fin 2048) (q : Fin 64), j = ix2 p q := ⟨j 0, j 1, eq_ix2 j⟩
  show k6_pay3 (iblk6 V c 0 t) (iblk6 V c 1 t) (iblk6 V c 2 t) (ix2 p q)
    = scal6 V c (ix2 0 0) * Cert.Spec.prod (actv6 V c) (wght6 V c) (((cfg6.win 4).blk t).view.emb (ix2 p q))
  rw [emb6_4, scalepay6_apply, tileprod6, iblk6_2_apply]

/-- An index of an output array lies in point t's block iff each coordinate lies in the block's range. -/
theorem mem_blk6_3 (t : Fin cfg6.N) (i : S8192x64.Idx) :
    i ∈ ((cfg6.win 3).blk t).view.set ↔ ∀ a : Fin 2, win6_3.index t a * S2048x64.size a ≤ (i a).val ∧ (i a).val < win6_3.index t a * S2048x64.size a + S2048x64.size a := by
  show i ∈ ((View.whole main_v27_0).slice (win6_3.rect t)).set ↔ _
  rw [View.set_slice_whole, Rect.mem_set_unit]
  exact Iff.rfl
theorem mem_blk6_4 (t : Fin cfg6.N) (i : S8192x64.Idx) :
    i ∈ ((cfg6.win 4).blk t).view.set ↔ ∀ a : Fin 2, win6_4.index t a * S2048x64.size a ≤ (i a).val ∧ (i a).val < win6_4.index t a * S2048x64.size a + S2048x64.size a := by
  show i ∈ ((View.whole main_v27_1).slice (win6_4.rect t)).set ↔ _
  rw [View.set_slice_whole, Rect.mem_set_unit]
  exact Iff.rfl

/-- Row r is written back by the point r / 2048. -/
theorem covered6_3 (i : S8192x64.Idx) : ∃ t : Fin cfg6.N, (cfg6.win 3).flush t = true ∧ i ∈ ((cfg6.win 3).blk t).view.set := by
  have hi0 : (i 0).val < 8192 := (i 0).isLt
  have hi1 : (i 1).val < 64 := (i 1).isLt
  have hN : cfg6.N = 4 := N_6
  refine ⟨⟨(i 0).val / 2048, by omega⟩, flush6_3 _, ?_⟩
  rw [mem_blk6_3]
  obtain ⟨-, -, -, -, -, -, e6, e7, -⟩ := idx6 ⟨(i 0).val / 2048, by omega⟩
  intro a
  match a with
  | ⟨0, _⟩ =>
    show win6_3.index _ (0 : Fin 2) * 2048 ≤ (i 0).val ∧ (i 0).val < win6_3.index _ (0 : Fin 2) * 2048 + 2048
    rw [e6]; show (i 0).val / 2048 * 2048 ≤ (i 0).val ∧ (i 0).val < (i 0).val / 2048 * 2048 + 2048; omega
  | ⟨1, _⟩ =>
    show win6_3.index _ (1 : Fin 2) * 64 ≤ (i 1).val ∧ (i 1).val < win6_3.index _ (1 : Fin 2) * 64 + 64
    rw [e7]; omega
theorem covered6_4 (i : S8192x64.Idx) : ∃ t : Fin cfg6.N, (cfg6.win 4).flush t = true ∧ i ∈ ((cfg6.win 4).blk t).view.set := by
  have hi0 : (i 0).val < 8192 := (i 0).isLt
  have hi1 : (i 1).val < 64 := (i 1).isLt
  have hN : cfg6.N = 4 := N_6
  refine ⟨⟨(i 0).val / 2048, by omega⟩, flush6_4 _, ?_⟩
  rw [mem_blk6_4]
  obtain ⟨-, -, -, -, -, -, -, -, e8, e9⟩ := idx6 ⟨(i 0).val / 2048, by omega⟩
  intro a
  match a with
  | ⟨0, _⟩ =>
    show win6_4.index _ (0 : Fin 2) * 2048 ≤ (i 0).val ∧ (i 0).val < win6_4.index _ (0 : Fin 2) * 2048 + 2048
    rw [e8]; show (i 0).val / 2048 * 2048 ≤ (i 0).val ∧ (i 0).val < (i 0).val / 2048 * 2048 + 2048; omega
  | ⟨1, _⟩ =>
    show win6_4.index _ (1 : Fin 2) * 64 ≤ (i 1).val ∧ (i 1).val < win6_4.index _ (1 : Fin 2) * 64 + 64
    rw [e9]; omega

/-- The narrow output array after the region: the product of the activations with the weight. -/
theorem value6_3 (c : Dev nD) :
    (dat6 (F := Ideal) V c).arrAt 3 cfg6.N = Cert.Spec.prod (actv6 V c) (wght6 V c) :=
  (dat6 V c).arrAt_eq_of_cover 3 _ (fun t _ => flushed6_3 V c t) (covered6_3)
/-- The wide output array after the region: the scale times the product. -/
theorem value6_4 (c : Dev nD) :
    (dat6 (F := Ideal) V c).arrAt 4 cfg6.N = fun i => scal6 V c (ix2 0 0) * Cert.Spec.prod (actv6 V c) (wght6 V c) i :=
  (dat6 V c).arrAt_eq_of_cover 4 _ (fun t _ => flushed6_4 V c t) (covered6_4)

end Cert.KernelIdeal.Hand

end
-- ==== Proof.KI.Cast1Value.lean ====
/-
  What the first propagation call leaves in its three output arrays, over the extended reals. A grid point
  t = 4·i + k handles the 1024 rows of tile i against the 2048 columns of tile k. At every point the tile of S is
  stored, rounded to the narrow format (the identity here), into the copy of S, and every such block is written
  back: the copy is S. The accumulator after the point holds, at row p and column q of the tile, the sum over the
  column tiles 0..k of the tile's product ∑ l, S(1024·i + p, 2048·k' + l) · Sx(2048·k' + l, q), starting from zero
  at k = 0. At k = 3 that is the whole product (S·Sx) at row 1024·i + p; the narrow output stores it, the wide one
  stores the running output plus the tap times it. Those two blocks are written back at k = 3 only, and the eight
  blocks cover the 8192 rows.
-/
import proofs.«131271_j4982162063661_2_alg».proof.Proof.KI.Cast1Dat
import proofs.«131271_j4982162063661_2_alg».proof.Proof.SpecRegions
import proofs.«131271_j4982162063661_2_alg».proof.Proof.Spec
import proofs.«131271_j4982162063661_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.Tactic
open Idealize.SL Idealize.SL.Sem
open Idealize.ShloMosaic.Pipeline (Dat Cfg Window)

theorem zero2_1 : (![0, 0] : Fin 2 → Nat) = fun _ => 0 := funext fun a => by fin_cases a <;> rfl

section Pieces
variable {F : FTy → Type} [FloatOps F]

/-- The 2048 rows of the propagated signal the point's column tile meets. -/
abbrev slice1 (i : grid1.Coords) : Rect S8192x128 := Rect.unit (s := S8192x128) (k1_off1 i) S2048x128.size (k1_off1_inb i)

/-- At the first column tile the accumulator ends at the tile's product added to the zero just stored. -/
theorem sout1_A_0_eq (c : Dev nD) (i : grid1.Coords) (arg2 : Memref sig .tc .vmem S1024x2048 .f32) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1024x2048 .bf16) (harg7 : arg7.IsWhole) (arg8 : Memref sig .tc .vmem S1024x128 .bf16) (harg8 : arg8.IsWhole) (arg9 : Memref sig .tc .vmem S1024x128 .f32) (harg9 : arg9.IsWhole) (arg10 : Memref sig .tc .vmem S1024x128 .f32) (harg10 : arg10.IsWhole) (hc0 : cond1_0 i) (hc1 : ¬cond1_1 i)
    (x0 : Vec F S1024x2048 .f32) (x1 : Vec F S8192x128 .bf16) :
    sout1_A_0 c i arg2 harg2 arg3 harg3 arg4 harg4 arg5 harg5 arg6 harg6 arg7 harg7 arg8 harg8 arg9 harg9 arg10 harg10 hc0 hc1 x0 x1 = k1_pay3 x0 (View.ld x1 (slice1 i)) (k1_pay1 (F := F)) := by
  unfold sout1_A_0
  rw [View.read_writes_eq_canon _ _ _ (scover1_A_0 c i arg2 harg2 arg3 harg3 arg4 harg4 arg5 harg5 arg6 harg6 arg7 harg7 arg8 harg8 arg9 harg9 arg10 harg10 hc0 hc1 x0 x1)]
  unfold kernelRun1_A
  dsimp only
  sl_unfold_run_names
  rw [View.canon_cons_unit_zero zero2_1]
  simp only [View.readAt_eq_ld, harg2.read_unread, harg3.read_unread, View.ld_unit_zero (S := S1024x2048) zero2_1, View.readCov_unit_zero (S := S1024x128) arg10.view zero2_1]
  all_goals rfl

/-- At a middle column tile the accumulator ends at the tile's product added to what it held. -/
theorem sout1_B_0_eq (c : Dev nD) (i : grid1.Coords) (arg2 : Memref sig .tc .vmem S1024x2048 .f32) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1024x2048 .bf16) (harg7 : arg7.IsWhole) (arg8 : Memref sig .tc .vmem S1024x128 .bf16) (harg8 : arg8.IsWhole) (arg9 : Memref sig .tc .vmem S1024x128 .f32) (harg9 : arg9.IsWhole) (arg10 : Memref sig .tc .vmem S1024x128 .f32) (harg10 : arg10.IsWhole) (hc0 : ¬cond1_0 i) (hc1 : ¬cond1_1 i)
    (x0 : Vec F S1024x2048 .f32) (x1 : Vec F S8192x128 .bf16) (xs0 : Vec F S1024x128 .f32) :
    sout1_B_0 c i arg2 harg2 arg3 harg3 arg4 harg4 arg5 harg5 arg6 harg6 arg7 harg7 arg8 harg8 arg9 harg9 arg10 harg10 hc0 hc1 x0 x1 xs0 = k1_pay3 x0 (View.ld x1 (slice1 i)) xs0 := by
  unfold sout1_B_0
  rw [View.read_writes_eq_canon _ _ _ (scover1_B_0 c i arg2 harg2 arg3 harg3 arg4 harg4 arg5 harg5 arg6 harg6 arg7 harg7 arg8 harg8 arg9 harg9 arg10 harg10 hc0 hc1 x0 x1 xs0)]
  unfold kernelRun1_B
  dsimp only
  sl_unfold_run_names
  rw [View.canon_cons_unit_zero zero2_1]
  simp only [View.readAt_eq_ld, harg2.read_unread, harg3.read_unread, harg10.read_unread, View.ld_unit_zero (S := S1024x2048) zero2_1, View.ld_unit_zero (S := S1024x128) zero2_1]
  all_goals rfl

/-- At the last column tile the same, -/
theorem sout1_C_0_eq (c : Dev nD) (i : grid1.Coords) (arg2 : Memref sig .tc .vmem S1024x2048 .f32) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1024x2048 .bf16) (harg7 : arg7.IsWhole) (arg8 : Memref sig .tc .vmem S1024x128 .bf16) (harg8 : arg8.IsWhole) (arg9 : Memref sig .tc .vmem S1024x128 .f32) (harg9 : arg9.IsWhole) (arg10 : Memref sig .tc .vmem S1024x128 .f32) (harg10 : arg10.IsWhole) (hc0 : ¬cond1_0 i) (hc1 : cond1_1 i)
    (x0 : Vec F S1024x2048 .f32) (x1 : Vec F S8192x128 .bf16) (x2 : Vec F S1024x128 .f32) (x4 : Vec F S1x1 .f32) (xs0 : Vec F S1024x128 .f32) :
    sout1_C_0 c i arg2 harg2 arg3 harg3 arg4 harg4 arg5 harg5 arg6 harg6 arg7 harg7 arg8 harg8 arg9 harg9 arg10 harg10 hc0 hc1 x0 x1 x2 x4 xs0 = k1_pay3 x0 (View.ld x1 (slice1 i)) xs0 := by
  unfold sout1_C_0
  rw [View.read_writes_eq_canon _ _ _ (scover1_C_0 c i arg2 harg2 arg3 harg3 arg4 harg4 arg5 harg5 arg6 harg6 arg7 harg7 arg8 harg8 arg9 harg9 arg10 harg10 hc0 hc1 x0 x1 x2 x4 xs0)]
  unfold kernelRun1_C
  dsimp only
  sl_unfold_run_names
  rw [View.canon_cons_unit_zero zero2_1]
  simp only [View.readAt_eq_ld, harg2.read_unread, harg3.read_unread, harg10.read_unread, View.ld_unit_zero (S := S1024x2048) zero2_1, View.ld_unit_zero (S := S1024x128) zero2_1]
  all_goals rfl

/-- At every point the copy's block is the tile of S rounded: at the first column tile, -/
theorem out1_A_5_eq (c : Dev nD) (i : grid1.Coords) (arg2 : Memref sig .tc .vmem S1024x2048 .f32) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1024x2048 .bf16) (harg7 : arg7.IsWhole) (arg8 : Memref sig .tc .vmem S1024x128 .bf16) (harg8 : arg8.IsWhole) (arg9 : Memref sig .tc .vmem S1024x128 .f32) (harg9 : arg9.IsWhole) (arg10 : Memref sig .tc .vmem S1024x128 .f32) (harg10 : arg10.IsWhole) (hc0 : cond1_0 i) (hc1 : ¬cond1_1 i)
    (x0 : Vec F S1024x2048 .f32) (x1 : Vec F S8192x128 .bf16) :
    out1_A_5 c i arg2 harg2 arg3 harg3 arg4 harg4 arg5 harg5 arg6 harg6 arg7 harg7 arg8 harg8 arg9 harg9 arg10 harg10 hc0 hc1 x0 x1 = k1_pay2 x0 := by
  unfold out1_A_5
  rw [View.read_writes_eq_canon _ _ _ (cover1_A_5 c i arg2 harg2 arg3 harg3 arg4 harg4 arg5 harg5 arg6 harg6 arg7 harg7 arg8 harg8 arg9 harg9 arg10 harg10 hc0 hc1 x0 x1)]
  unfold kernelRun1_A
  dsimp only
  sl_unfold_run_names
  rw [View.canon_cons_unit_zero zero2_1]
  simp only [View.readAt_eq_ld, harg2.read_unread, harg3.read_unread, View.ld_unit_zero (S := S1024x2048) zero2_1]
  all_goals rfl

/-- at a middle one, -/
theorem out1_B_5_eq (c : Dev nD) (i : grid1.Coords) (arg2 : Memref sig .tc .vmem S1024x2048 .f32) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1024x2048 .bf16) (harg7 : arg7.IsWhole) (arg8 : Memref sig .tc .vmem S1024x128 .bf16) (harg8 : arg8.IsWhole) (arg9 : Memref sig .tc .vmem S1024x128 .f32) (harg9 : arg9.IsWhole) (arg10 : Memref sig .tc .vmem S1024x128 .f32) (harg10 : arg10.IsWhole) (hc0 : ¬cond1_0 i) (hc1 : ¬cond1_1 i)
    (x0 : Vec F S1024x2048 .f32) (x1 : Vec F S8192x128 .bf16) (xs0 : Vec F S1024x128 .f32) :
    out1_B_5 c i arg2 harg2 arg3 harg3 arg4 harg4 arg5 harg5 arg6 harg6 arg7 harg7 arg8 harg8 arg9 harg9 arg10 harg10 hc0 hc1 x0 x1 xs0 = k1_pay2 x0 := by
  unfold out1_B_5
  rw [View.read_writes_eq_canon _ _ _ (cover1_B_5 c i arg2 harg2 arg3 harg3 arg4 harg4 arg5 harg5 arg6 harg6 arg7 harg7 arg8 harg8 arg9 harg9 arg10 harg10 hc0 hc1 x0 x1 xs0)]
  unfold kernelRun1_B
  dsimp only
  sl_unfold_run_names
  rw [View.canon_cons_unit_zero zero2_1]
  simp only [View.readAt_eq_ld, harg2.read_unread, harg3.read_unread, harg10.read_unread, View.ld_unit_zero (S := S1024x2048) zero2_1]
  all_goals rfl

/-- and at the last. -/
theorem out1_C_5_eq (c : Dev nD) (i : grid1.Coords) (arg2 : Memref sig .tc .vmem S1024x2048 .f32) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1024x2048 .bf16) (harg7 : arg7.IsWhole) (arg8 : Memref sig .tc .vmem S1024x128 .bf16) (harg8 : arg8.IsWhole) (arg9 : Memref sig .tc .vmem S1024x128 .f32) (harg9 : arg9.IsWhole) (arg10 : Memref sig .tc .vmem S1024x128 .f32) (harg10 : arg10.IsWhole) (hc0 : ¬cond1_0 i) (hc1 : cond1_1 i)
    (x0 : Vec F S1024x2048 .f32) (x1 : Vec F S8192x128 .bf16) (x2 : Vec F S1024x128 .f32) (x4 : Vec F S1x1 .f32) (xs0 : Vec F S1024x128 .f32) :
    out1_C_5 c i arg2 harg2 arg3 harg3 arg4 harg4 arg5 harg5 arg6 harg6 arg7 harg7 arg8 harg8 arg9 harg9 arg10 harg10 hc0 hc1 x0 x1 x2 x4 xs0 = k1_pay2 x0 := by
  unfold out1_C_5
  rw [View.read_writes_eq_canon _ _ _ (cover1_C_5 c i arg2 harg2 arg3 harg3 arg4 harg4 arg5 harg5 arg6 harg6 arg7 harg7 arg8 harg8 arg9 harg9 arg10 harg10 hc0 hc1 x0 x1 x2 x4 xs0)]
  unfold kernelRun1_C
  dsimp only
  sl_unfold_run_names
  rw [View.canon_cons_unit_zero zero2_1]
  simp only [View.readAt_eq_ld, harg2.read_unread, harg3.read_unread, harg10.read_unread, View.ld_unit_zero (S := S1024x2048) zero2_1]
  all_goals rfl

/-- At the last column tile the narrow output's block is the accumulator rounded, -/
theorem out1_C_6_eq (c : Dev nD) (i : grid1.Coords) (arg2 : Memref sig .tc .vmem S1024x2048 .f32) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1024x2048 .bf16) (harg7 : arg7.IsWhole) (arg8 : Memref sig .tc .vmem S1024x128 .bf16) (harg8 : arg8.IsWhole) (arg9 : Memref sig .tc .vmem S1024x128 .f32) (harg9 : arg9.IsWhole) (arg10 : Memref sig .tc .vmem S1024x128 .f32) (harg10 : arg10.IsWhole) (hc0 : ¬cond1_0 i) (hc1 : cond1_1 i)
    (x0 : Vec F S1024x2048 .f32) (x1 : Vec F S8192x128 .bf16) (x2 : Vec F S1024x128 .f32) (x4 : Vec F S1x1 .f32) (xs0 : Vec F S1024x128 .f32) :
    out1_C_6 c i arg2 harg2 arg3 harg3 arg4 harg4 arg5 harg5 arg6 harg6 arg7 harg7 arg8 harg8 arg9 harg9 arg10 harg10 hc0 hc1 x0 x1 x2 x4 xs0 = k1_pay4 (k1_pay3 x0 (View.ld x1 (slice1 i)) xs0) := by
  unfold out1_C_6
  rw [View.read_writes_eq_canon _ _ _ (cover1_C_6 c i arg2 harg2 arg3 harg3 arg4 harg4 arg5 harg5 arg6 harg6 arg7 harg7 arg8 harg8 arg9 harg9 arg10 harg10 hc0 hc1 x0 x1 x2 x4 xs0)]
  unfold kernelRun1_C
  dsimp only
  sl_unfold_run_names
  rw [View.canon_cons_unit_zero zero2_1]
  simp only [View.readAt_eq_ld, harg2.read_unread, harg3.read_unread, harg10.read_unread, View.ld_unit_zero (S := S1024x2048) zero2_1, View.ld_unit_zero (S := S1024x128) zero2_1, View.readCov_unit_zero (S := S1024x128) arg10.view zero2_1]
  all_goals rfl

/-- the wide output's block the epilogue of the accumulator, the tap and the running output. -/
theorem out1_C_7_eq (c : Dev nD) (i : grid1.Coords) (arg2 : Memref sig .tc .vmem S1024x2048 .f32) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1024x2048 .bf16) (harg7 : arg7.IsWhole) (arg8 : Memref sig .tc .vmem S1024x128 .bf16) (harg8 : arg8.IsWhole) (arg9 : Memref sig .tc .vmem S1024x128 .f32) (harg9 : arg9.IsWhole) (arg10 : Memref sig .tc .vmem S1024x128 .f32) (harg10 : arg10.IsWhole) (hc0 : ¬cond1_0 i) (hc1 : cond1_1 i)
    (x0 : Vec F S1024x2048 .f32) (x1 : Vec F S8192x128 .bf16) (x2 : Vec F S1024x128 .f32) (x4 : Vec F S1x1 .f32) (xs0 : Vec F S1024x128 .f32) :
    out1_C_7 c i arg2 harg2 arg3 harg3 arg4 harg4 arg5 harg5 arg6 harg6 arg7 harg7 arg8 harg8 arg9 harg9 arg10 harg10 hc0 hc1 x0 x1 x2 x4 xs0 = k1_pay5 (k1_pay3 x0 (View.ld x1 (slice1 i)) xs0) x4 x2 := by
  unfold out1_C_7
  rw [View.read_writes_eq_canon _ _ _ (cover1_C_7 c i arg2 harg2 arg3 harg3 arg4 harg4 arg5 harg5 arg6 harg6 arg7 harg7 arg8 harg8 arg9 harg9 arg10 harg10 hc0 hc1 x0 x1 x2 x4 xs0)]
  unfold kernelRun1_C
  dsimp only
  sl_unfold_run_names
  rw [View.canon_cons_unit_zero zero2_1]
  simp only [View.readAt_eq_ld, harg2.read_unread, harg3.read_unread, harg4.read_unread, harg6.read_unread, harg10.read_unread, View.ld_unit_zero (S := S1024x2048) zero2_1, View.ld_unit_zero (S := S1024x128) zero2_1, View.ld_unit_zero (S := S1x1) zero2_1, View.readCov_unit_zero (S := S1024x128) arg10.view zero2_1]
  all_goals rfl

end Pieces

section Value
variable (V : (c : Dev nD) → (b : Ref sig .tc) → Buf (Elt Ideal) ((c : Thread nD τ).loc b))

/-- The region's input arrays as it finds them: the matrix, the propagated signal, the running output, the tap. -/
abbrev mtx1 (c : Dev nD) : Cert.Spec.Mat 8192 8192 := V c (Pipeline.arrRef spec1 0)
abbrev sgn1 (c : Dev nD) : Cert.Spec.Mat 8192 128 := V c (Pipeline.arrRef spec1 1)
abbrev run1 (c : Dev nD) : Cert.Spec.Mat 8192 128 := V c (Pipeline.arrRef spec1 2)
abbrev tap1 (c : Dev nD) : Cert.Spec.Mat 1 1 := V c (Pipeline.arrRef spec1 4)

/-- The block index maps and the signal's row offset, decided over the 32 points: row tile t / 4, column tile t % 4. -/
theorem idx1 : ∀ t : Fin cfg1.N,
    win1_0.index t (0 : Fin 2) = t.val / 4 ∧ win1_0.index t (1 : Fin 2) = t.val % 4
    ∧ win1_1.index t (0 : Fin 2) = 0 ∧ win1_1.index t (1 : Fin 2) = 0
    ∧ win1_2.index t (0 : Fin 2) = t.val / 4 ∧ win1_2.index t (1 : Fin 2) = 0
    ∧ win1_4.index t (0 : Fin 2) = 0 ∧ win1_4.index t (1 : Fin 2) = 0
    ∧ win1_5.index t (0 : Fin 2) = t.val / 4 ∧ win1_5.index t (1 : Fin 2) = t.val % 4
    ∧ win1_6.index t (0 : Fin 2) = t.val / 4 ∧ win1_6.index t (1 : Fin 2) = 0
    ∧ win1_7.index t (0 : Fin 2) = t.val / 4 ∧ win1_7.index t (1 : Fin 2) = 0
    ∧ k1_off1 (grid1.coords t) (0 : Fin 2) = t.val % 4 * 2048 ∧ k1_off1 (grid1.coords t) (1 : Fin 2) = 0 :=
  (by decide +kernel : ∀ t : Fin grid1.N, _)

theorem row1_lt (n : ℕ) (hn : n < cfg1.N) (p : Fin 1024) : n / 4 * 1024 + p.val < 8192 := by
  have hN : cfg1.N = 32 := N_1
  have := p.isLt; omega
theorem col1_lt (n : ℕ) (l : Fin 2048) : n % 4 * 2048 + l.val < 8192 := by have := l.isLt; omega

theorem iblk1_0_apply (c : Dev nD) (t : Fin cfg1.N) (p : Fin 1024) (l : Fin 2048) :
    iblk1 V c 0 t (ix2 p l) = mtx1 V c (ix2 ⟨t.val / 4 * 1024 + p.val, row1_lt t.val t.isLt p⟩ ⟨t.val % 4 * 2048 + l.val, col1_lt t.val l⟩) := by
  show V c (Pipeline.arrRef spec1 0) (((cfg1.win 0).blk t).view.emb (ix2 p l)) = _
  refine congrArg _ ?_
  funext a; apply Fin.ext
  obtain ⟨e0, e1, -⟩ := idx1 t
  match a with
  | ⟨0, _⟩ => show win1_0.index t (0 : Fin 2) * 1024 + 1 * p.val = t.val / 4 * 1024 + p.val; omega
  | ⟨1, _⟩ => show win1_0.index t (1 : Fin 2) * 2048 + 1 * l.val = t.val % 4 * 2048 + l.val; omega
theorem iblk1_1_apply (c : Dev nD) (t : Fin cfg1.N) (j : Fin 8192) (q : Fin 128) :
    iblk1 V c 1 t (ix2 j q) = sgn1 V c (ix2 j q) := by
  show V c (Pipeline.arrRef spec1 1) (((cfg1.win 1).blk t).view.emb (ix2 j q)) = _
  refine congrArg _ ?_
  funext a; apply Fin.ext
  obtain ⟨-, -, e2, e3, -⟩ := idx1 t
  match a with
  | ⟨0, _⟩ => show win1_1.index t (0 : Fin 2) * 8192 + 1 * j.val = j.val; omega
  | ⟨1, _⟩ => show win1_1.index t (1 : Fin 2) * 128 + 1 * q.val = q.val; omega
theorem iblk1_2_apply (c : Dev nD) (t : Fin cfg1.N) (p : Fin 1024) (q : Fin 128) :
    iblk1 V c 2 t (ix2 p q) = run1 V c (ix2 ⟨t.val / 4 * 1024 + p.val, row1_lt t.val t.isLt p⟩ q) := by
  show V c (Pipeline.arrRef spec1 2) (((cfg1.win 2).blk t).view.emb (ix2 p q)) = _
  refine congrArg _ ?_
  funext a; apply Fin.ext
  obtain ⟨-, -, -, -, e4, e5, -⟩ := idx1 t
  match a with
  | ⟨0, _⟩ => show win1_2.index t (0 : Fin 2) * 1024 + 1 * p.val = t.val / 4 * 1024 + p.val; omega
  | ⟨1, _⟩ => show win1_2.index t (1 : Fin 2) * 128 + 1 * q.val = q.val; omega
theorem iblk1_4_apply (c : Dev nD) (t : Fin cfg1.N) :
    iblk1 V c 4 t (ix2 0 0) = tap1 V c (ix2 0 0) := by
  show V c (Pipeline.arrRef spec1 4) (((cfg1.win 4).blk t).view.emb (ix2 0 0)) = _
  refine congrArg _ ?_
  funext a; apply Fin.ext
  obtain ⟨-, -, -, -, -, -, e6, e7, -⟩ := idx1 t
  match a with
  | ⟨0, _⟩ => show win1_4.index t (0 : Fin 2) * 1 + 1 * 0 = 0; omega
  | ⟨1, _⟩ => show win1_4.index t (1 : Fin 2) * 1 + 1 * 0 = 0; omega

/-- The signal's 2048 rows the point loads, read at an entry. -/
theorem slice1_apply (t : Fin cfg1.N) (x1 : Vec Ideal S8192x128 .bf16) (l : Fin 2048) (q : Fin 128) :
    View.ld x1 (slice1 (grid1.coords t)) (ix2 l q) = x1 (ix2 ⟨t.val % 4 * 2048 + l.val, col1_lt t.val l⟩ q) := by
  show x1 ((slice1 (grid1.coords t)).emb (ix2 l q)) = _
  refine congrArg _ ?_
  funext a; apply Fin.ext
  obtain ⟨-, -, -, -, -, -, -, -, -, -, -, -, -, -, e14, e15⟩ := idx1 t
  match a with
  | ⟨0, _⟩ => show k1_off1 (grid1.coords t) (0 : Fin 2) + 1 * l.val = t.val % 4 * 2048 + l.val; omega
  | ⟨1, _⟩ => show k1_off1 (grid1.coords t) (1 : Fin 2) + 1 * q.val = q.val; omega

/-- The reset's payload is zero. -/
theorem zeropay1_apply (j : S1024x128.Idx) : k1_pay1 (F := Ideal) j = 0 := by
  unfold k1_pay1
  rw [shapeCast_self]
  exact Ideal.ofBits_zero_f32

/-- The rounded tile of S at an entry is the tile's entry. -/
theorem roundpay1_apply (x0 : Vec Ideal S1024x2048 .f32) (j : S1024x2048.Idx) : k1_pay2 x0 j = x0 j := rfl

/-- The accumulate step at an entry: what was there plus the tile's product. -/
theorem accpay1_apply (x0 : Vec Ideal S1024x2048 .f32) (x1s : Vec Ideal S2048x128 .bf16) (xs : Vec Ideal S1024x128 .f32)
    (p : Fin 1024) (q : Fin 128) :
    k1_pay3 x0 x1s xs (ix2 p q) = xs (ix2 p q) + ∑ l : Fin 2048, x0 (ix2 p l) * x1s (ix2 l q) := by
  unfold k1_pay3
  simp only [shapeCast_self]
  show xs (ix2 p q) + _ = xs (ix2 p q) + _
  refine congrArg (xs (ix2 p q) + ·) ?_
  refine (Ideal.matmul_constant_zero_apply (φ₁ := .bf16) (φ₂ := .bf16) _ none (k1_pay2 x0) x1s (ix2 p q)).trans ?_
  exact Cert.LibPlainDot.sum_plain dot_S1024x2048_S2048x128_S1024x128_1_0_0_1_n_n rfl rfl rfl rfl rfl rfl (k1_pay2 x0) x1s p q

/-- The narrow output's payload at an entry is the accumulator's entry. -/
theorem narrowpay1_apply (v20 : Vec Ideal S1024x128 .f32) (j : S1024x128.Idx) : k1_pay4 v20 j = v20 j := rfl

/-- The epilogue at an entry. -/
theorem epipay1_apply (v20 : Vec Ideal S1024x128 .f32) (v23 : Vec Ideal S1x1 .f32) (v25 : Vec Ideal S1024x128 .f32)
    (p : Fin 1024) (q : Fin 128) :
    k1_pay5 v20 v23 v25 (ix2 p q) = v25 (ix2 p q) + v23 (ix2 0 0) * v20 (ix2 p q) := by
  unfold k1_pay5
  simp only [shapeCast_self]
  show v25 (ix2 p q) + (broadcastTo S1024x128 v23 broadcasts_S1x1_S1024x128) (ix2 p q) * v20 (ix2 p q) = _
  rw [broadcastTo_apply v23 _ (ix2 p q) (ix2 0 0) (fun a => by match a with | ⟨0, _⟩ => rfl | ⟨1, _⟩ => rfl)]

/-- One column tile's product at a row of the array and a column. -/
def tile1 (c : Dev nD) (r : Fin 8192) (o : ℕ) (ho : o + 2048 ≤ 8192) (q : Fin 128) : EReal :=
  ∑ l : Fin 2048, mtx1 V c (ix2 r ⟨o + l.val, by have := l.isLt; omega⟩) * sgn1 V c (ix2 ⟨o + l.val, by have := l.isLt; omega⟩ q)

/-- The product the body forms at point t is the tile's: row 1024·(t/4) + p, columns from 2048·(t%4). -/
theorem pointprod1 (c : Dev nD) (t : Fin cfg1.N) (x0 : Vec Ideal S1024x2048 .f32) (x1 : Vec Ideal S8192x128 .bf16)
    (h0 : ∀ (p : Fin 1024) (l : Fin 2048), x0 (ix2 p l) = mtx1 V c (ix2 ⟨t.val / 4 * 1024 + p.val, row1_lt t.val t.isLt p⟩ ⟨t.val % 4 * 2048 + l.val, col1_lt t.val l⟩))
    (h1 : ∀ (j : Fin 8192) (q : Fin 128), x1 (ix2 j q) = sgn1 V c (ix2 j q)) (p : Fin 1024) (q : Fin 128)
    (r : Fin 8192) (hr : r.val = t.val / 4 * 1024 + p.val) (o : ℕ) (ho' : o = t.val % 4 * 2048) (ho : o + 2048 ≤ 8192) :
    (∑ l : Fin 2048, x0 (ix2 p l) * View.ld x1 (slice1 (grid1.coords t)) (ix2 l q))
      = tile1 V c r o ho q := by
  subst ho'
  obtain rfl : r = ⟨t.val / 4 * 1024 + p.val, row1_lt t.val t.isLt p⟩ := Fin.ext hr
  unfold tile1
  exact Finset.sum_congr rfl fun l _ => by rw [h0, slice1_apply, h1]

/-- After a point at the first column tile the accumulator holds zero plus the tile's product. -/
theorem acc1_first (c : Dev nD) (n : ℕ) (hn : n < cfg1.N) (h : n % 4 = 0) (p : Fin 1024) (q : Fin 128)
    (r : Fin 8192) (hr : r.val = n / 4 * 1024 + p.val) (o : ℕ) (ho' : o = n % 4 * 2048) (ho : o + 2048 ≤ 8192) :
    accAt1 V c n hn (ix2 p q) = 0 + tile1 V c r o ho q := by
  have e : accAt1 V c n hn = _ := accAt1_A V c ⟨n, hn⟩ h
  rw [e]
  rw [sout1_A_0_eq, accpay1_apply, zeropay1_apply, pointprod1 V c ⟨n, hn⟩ _ _ (iblk1_0_apply V c ⟨n, hn⟩) (iblk1_1_apply V c ⟨n, hn⟩) p q r hr o ho' ho]

/-- After any later point it holds what the point before left plus the tile's product. -/
theorem acc1_next (c : Dev nD) (n : ℕ) (hn : n < cfg1.N) (h : n % 4 ≠ 0) (p : Fin 1024) (q : Fin 128)
    (r : Fin 8192) (hr : r.val = n / 4 * 1024 + p.val) (o : ℕ) (ho' : o = n % 4 * 2048) (ho : o + 2048 ≤ 8192) :
    accAt1 V c n hn (ix2 p q) = accAt1 V c (n - 1) (by omega) (ix2 p q) + tile1 V c r o ho q := by
  by_cases h1 : n % 4 = 3
  · have e : accAt1 V c n hn = _ := accAt1_C V c ⟨n, hn⟩ h h1
    rw [e]
    rw [sout1_C_0_eq, accpay1_apply, pointprod1 V c ⟨n, hn⟩ _ _ (iblk1_0_apply V c ⟨n, hn⟩) (iblk1_1_apply V c ⟨n, hn⟩) p q r hr o ho' ho]
  · have e : accAt1 V c n hn = _ := accAt1_B V c ⟨n, hn⟩ h h1
    rw [e]
    rw [sout1_B_0_eq, accpay1_apply, pointprod1 V c ⟨n, hn⟩ _ _ (iblk1_0_apply V c ⟨n, hn⟩) (iblk1_1_apply V c ⟨n, hn⟩) p q r hr o ho' ho]

/-- After the last column tile the accumulator holds the whole product at the tile's rows. -/
theorem acc1_last (c : Dev nD) (n : ℕ) (hn : n < cfg1.N) (h : n % 4 = 3) (p : Fin 1024) (q : Fin 128) :
    accAt1 V c n hn (ix2 p q)
      = Cert.Spec.prod (mtx1 V c) (sgn1 V c) (ix2 ⟨n / 4 * 1024 + p.val, row1_lt n hn p⟩ q) := by
  rw [acc1_next V c n hn (by omega) p q ⟨n / 4 * 1024 + p.val, row1_lt n hn p⟩ rfl 6144 (by omega) (by omega),
    acc1_next V c (n - 1) (by omega) (by omega) p q ⟨n / 4 * 1024 + p.val, row1_lt n hn p⟩ (by show n / 4 * 1024 + p.val = (n - 1) / 4 * 1024 + p.val; omega) 4096 (by omega) (by omega),
    acc1_next V c (n - 1 - 1) (by omega) (by omega) p q ⟨n / 4 * 1024 + p.val, row1_lt n hn p⟩ (by show n / 4 * 1024 + p.val = (n - 1 - 1) / 4 * 1024 + p.val; omega) 2048 (by omega) (by omega),
    acc1_first V c (n - 1 - 1 - 1) (by omega) (by omega) p q ⟨n / 4 * 1024 + p.val, row1_lt n hn p⟩ (by show n / 4 * 1024 + p.val = (n - 1 - 1 - 1) / 4 * 1024 + p.val; omega) 0 (by omega) (by omega)]
  unfold tile1
  simp only [Nat.zero_add]
  exact Cert.Spec.prod_tiles (mtx1 V c) (sgn1 V c) _ q

end Value

section Arrays
variable (V : (c : Dev nD) → (b : Ref sig .tc) → Buf (Elt Ideal) ((c : Thread nD τ).loc b))

/-- At every point the copy's block is the point's tile of S (rounded), -/
theorem out1_5_tile (c : Dev nD) (t : Fin cfg1.N) : out5At1 V c t = k1_pay2 (iblk1 V c 0 t) := by
  by_cases h0 : t.val % 4 = 0
  · rw [out5At1_A V c t h0, out1_A_5_eq]
  · by_cases h3 : t.val % 4 = 3
    · rw [out5At1_C V c t h0 h3, out1_C_5_eq]
    · rw [out5At1_B V c t h0 h3, out1_B_5_eq]
/-- at a point of the last column tile the narrow output's block is the accumulator (rounded), -/
theorem out1_6_acc (c : Dev nD) (t : Fin cfg1.N) (h3 : t.val % 4 = 3) :
    out6At1 V c t = k1_pay4 (accAt1 V c t.val t.isLt) := by
  rw [out6At1_C V c t (by omega) h3, accAt1_C V c t (by omega) h3, out1_C_6_eq, sout1_C_0_eq]
/-- and the wide output's block the epilogue of the accumulator. -/
theorem out1_7_acc (c : Dev nD) (t : Fin cfg1.N) (h3 : t.val % 4 = 3) :
    out7At1 V c t = k1_pay5 (accAt1 V c t.val t.isLt) (iblk1 V c 4 t) (iblk1 V c 2 t) := by
  rw [out7At1_C V c t (by omega) h3, accAt1_C V c t (by omega) h3, out1_C_7_eq, sout1_C_0_eq]

theorem emb1_5 (t : Fin cfg1.N) (p : Fin 1024) (l : Fin 2048) :
    ((cfg1.win 5).blk t).view.emb (ix2 p l) = ix2 ⟨t.val / 4 * 1024 + p.val, row1_lt t.val t.isLt p⟩ ⟨t.val % 4 * 2048 + l.val, col1_lt t.val l⟩ := by
  funext a; apply Fin.ext
  obtain ⟨-, -, -, -, -, -, -, -, e8, e9, -⟩ := idx1 t
  match a with
  | ⟨0, _⟩ => show win1_5.index t (0 : Fin 2) * 1024 + 1 * p.val = t.val / 4 * 1024 + p.val; omega
  | ⟨1, _⟩ => show win1_5.index t (1 : Fin 2) * 2048 + 1 * l.val = t.val % 4 * 2048 + l.val; omega
theorem emb1_6 (t : Fin cfg1.N) (p : Fin 1024) (q : Fin 128) :
    ((cfg1.win 6).blk t).view.emb (ix2 p q) = ix2 ⟨t.val / 4 * 1024 + p.val, row1_lt t.val t.isLt p⟩ q := by
  funext a; apply Fin.ext
  obtain ⟨-, -, -, -, -, -, -, -, -, -, e10, e11, -⟩ := idx1 t
  match a with
  | ⟨0, _⟩ => show win1_6.index t (0 : Fin 2) * 1024 + 1 * p.val = t.val / 4 * 1024 + p.val; omega
  | ⟨1, _⟩ => show win1_6.index t (1 : Fin 2) * 128 + 1 * q.val = q.val; omega
theorem emb1_7 (t : Fin cfg1.N) (p : Fin 1024) (q : Fin 128) :
    ((cfg1.win 7).blk t).view.emb (ix2 p q) = ix2 ⟨t.val / 4 * 1024 + p.val, row1_lt t.val t.isLt p⟩ q := by
  funext a; apply Fin.ext
  obtain ⟨-, -, -, -, -, -, -, -, -, -, -, -, e12, e13, -⟩ := idx1 t
  match a with
  | ⟨0, _⟩ => show win1_7.index t (0 : Fin 2) * 1024 + 1 * p.val = t.val / 4 * 1024 + p.val; omega
  | ⟨1, _⟩ => show win1_7.index t (1 : Fin 2) * 128 + 1 * q.val = q.val; omega

/-- What every point writes back into the copy of S is its block of S. -/
theorem flushed1_5 (c : Dev nD) (t : Fin cfg1.N) :
    (dat1 (F := Ideal) V c).flushed 5 t = ((cfg1.win 5).blk t).view.read (Elt Ideal) (mtx1 V c) := by
  show (cfg1.win 5).cut (grid1.coords t) ((dat1 V c).after 5 t) = _
  rw [after1_5, out1_5_tile V c t]
  funext j
  obtain ⟨p, l, rfl⟩ : ∃ (p : Fin 1024) (l : Fin 2048), j = ix2 p l := ⟨j 0, j 1, eq_ix2 j⟩
  show iblk1 V c 0 t (ix2 p l) = mtx1 V c (((cfg1.win 5).blk t).view.emb (ix2 p l))
  rw [emb1_5, iblk1_0_apply]

/-- What a point of the last column tile writes back into the narrow output is its block of the product. -/
theorem flushed1_6 (c : Dev nD) (t : Fin cfg1.N) (hf : (cfg1.win 6).flush t = true) :
    (dat1 (F := Ideal) V c).flushed 6 t = ((cfg1.win 6).blk t).view.read (Elt Ideal) (Cert.Spec.propSx (mtx1 V c) (sgn1 V c)) := by
  have h3 : t.val % 4 = 3 := (flush1_6 t).mp hf
  show (cfg1.win 6).cut (grid1.coords t) ((dat1 V c).after 6 t) = _
  rw [after1_6, out1_6_acc V c t h3]
  funext j
  obtain ⟨p, q, rfl⟩ : ∃ (p : Fin 1024) (q : Fin 128), j = ix2 p q := ⟨j 0, j 1, eq_ix2 j⟩
  show accAt1 V c t.val t.isLt (ix2 p q) = Cert.Spec.prod (mtx1 V c) (sgn1 V c) (((cfg1.win 6).blk t).view.emb (ix2 p q))
  rw [emb1_6, acc1_last V c t.val t.isLt h3 p q]

/-- What it writes back into the wide output is its block of the updated running output. -/
theorem flushed1_7 (c : Dev nD) (t : Fin cfg1.N) (hf : (cfg1.win 7).flush t = true) :
    (dat1 (F := Ideal) V c).flushed 7 t = ((cfg1.win 7).blk t).view.read (Elt Ideal)
      (Cert.Spec.propOut (mtx1 V c) (sgn1 V c) (run1 V c) (tap1 V c)) := by
  have h3 : t.val % 4 = 3 := (flush1_7 t).mp hf
  show (cfg1.win 7).cut (grid1.coords t) ((dat1 V c).after 7 t) = _
  rw [after1_7, out1_7_acc V c t h3]
  funext j
  obtain ⟨p, q, rfl⟩ : ∃ (p : Fin 1024) (q : Fin 128), j = ix2 p q := ⟨j 0, j 1, eq_ix2 j⟩
  show k1_pay5 (accAt1 V c t.val t.isLt) (iblk1 V c 4 t) (iblk1 V c 2 t) (ix2 p q)
    = Cert.Spec.propOut (mtx1 V c) (sgn1 V c) (run1 V c) (tap1 V c) (((cfg1.win 7).blk t).view.emb (ix2 p q))
  rw [emb1_7, epipay1_apply, acc1_last V c t.val t.isLt h3 p q, iblk1_2_apply, iblk1_4_apply]
  rfl

theorem mem_blk1_5 (t : Fin cfg1.N) (i : S8192x8192.Idx) :
    i ∈ ((cfg1.win 5).blk t).view.set ↔ ∀ a : Fin 2, win1_5.index t a * S1024x2048.size a ≤ (i a).val ∧ (i a).val < win1_5.index t a * S1024x2048.size a + S1024x2048.size a := by
  show i ∈ ((View.whole main_v8_0).slice (win1_5.rect t)).set ↔ _
  rw [View.set_slice_whole, Rect.mem_set_unit]
  exact Iff.rfl
theorem mem_blk1_6 (t : Fin cfg1.N) (i : S8192x128.Idx) :
    i ∈ ((cfg1.win 6).blk t).view.set ↔ ∀ a : Fin 2, win1_6.index t a * S1024x128.size a ≤ (i a).val ∧ (i a).val < win1_6.index t a * S1024x128.size a + S1024x128.size a := by
  show i ∈ ((View.whole main_v8_1).slice (win1_6.rect t)).set ↔ _
  rw [View.set_slice_whole, Rect.mem_set_unit]
  exact Iff.rfl
theorem mem_blk1_7 (t : Fin cfg1.N) (i : S8192x128.Idx) :
    i ∈ ((cfg1.win 7).blk t).view.set ↔ ∀ a : Fin 2, win1_7.index t a * S1024x128.size a ≤ (i a).val ∧ (i a).val < win1_7.index t a * S1024x128.size a + S1024x128.size a := by
  show i ∈ ((View.whole main_v8_2).slice (win1_7.rect t)).set ↔ _
  rw [View.set_slice_whole, Rect.mem_set_unit]
  exact Iff.rfl

/-- Entry (r, s) of the copy is written back by the point of row tile r / 1024 and column tile s / 2048. -/
theorem covered1_5 (i : S8192x8192.Idx) : ∃ t : Fin cfg1.N, (cfg1.win 5).flush t = true ∧ i ∈ ((cfg1.win 5).blk t).view.set := by
  have hi0 : (i 0).val < 8192 := (i 0).isLt
  have hi1 : (i 1).val < 8192 := (i 1).isLt
  have hN : cfg1.N = 32 := N_1
  refine ⟨⟨(i 0).val / 1024 * 4 + (i 1).val / 2048, by omega⟩, flush1_5 _, ?_⟩
  rw [mem_blk1_5]
  obtain ⟨-, -, -, -, -, -, -, -, e8, e9, -⟩ := idx1 ⟨(i 0).val / 1024 * 4 + (i 1).val / 2048, by omega⟩
  intro a
  match a with
  | ⟨0, _⟩ =>
    show win1_5.index _ (0 : Fin 2) * 1024 ≤ (i 0).val ∧ (i 0).val < win1_5.index _ (0 : Fin 2) * 1024 + 1024
    rw [e8]; show ((i 0).val / 1024 * 4 + (i 1).val / 2048) / 4 * 1024 ≤ (i 0).val ∧ (i 0).val < ((i 0).val / 1024 * 4 + (i 1).val / 2048) / 4 * 1024 + 1024; omega
  | ⟨1, _⟩ =>
    show win1_5.index _ (1 : Fin 2) * 2048 ≤ (i 1).val ∧ (i 1).val < win1_5.index _ (1 : Fin 2) * 2048 + 2048
    rw [e9]; show ((i 0).val / 1024 * 4 + (i 1).val / 2048) % 4 * 2048 ≤ (i 1).val ∧ (i 1).val < ((i 0).val / 1024 * 4 + (i 1).val / 2048) % 4 * 2048 + 2048; omega
/-- Row r is written back by the last column tile's point of row tile r / 1024. -/
theorem covered1_6 (i : S8192x128.Idx) : ∃ t : Fin cfg1.N, (cfg1.win 6).flush t = true ∧ i ∈ ((cfg1.win 6).blk t).view.set := by
  have hi0 : (i 0).val < 8192 := (i 0).isLt
  have hi1 : (i 1).val < 128 := (i 1).isLt
  have hN : cfg1.N = 32 := N_1
  refine ⟨⟨(i 0).val / 1024 * 4 + 3, by omega⟩, (flush1_6 _).mpr (by show ((i 0).val / 1024 * 4 + 3) % 4 = 3; omega), ?_⟩
  rw [mem_blk1_6]
  obtain ⟨-, -, -, -, -, -, -, -, -, -, e10, e11, -⟩ := idx1 ⟨(i 0).val / 1024 * 4 + 3, by omega⟩
  intro a
  match a with
  | ⟨0, _⟩ =>
    show win1_6.index _ (0 : Fin 2) * 1024 ≤ (i 0).val ∧ (i 0).val < win1_6.index _ (0 : Fin 2) * 1024 + 1024
    rw [e10]; show ((i 0).val / 1024 * 4 + 3) / 4 * 1024 ≤ (i 0).val ∧ (i 0).val < ((i 0).val / 1024 * 4 + 3) / 4 * 1024 + 1024; omega
  | ⟨1, _⟩ =>
    show win1_6.index _ (1 : Fin 2) * 128 ≤ (i 1).val ∧ (i 1).val < win1_6.index _ (1 : Fin 2) * 128 + 128
    rw [e11]; omega
theorem covered1_7 (i : S8192x128.Idx) : ∃ t : Fin cfg1.N, (cfg1.win 7).flush t = true ∧ i ∈ ((cfg1.win 7).blk t).view.set := by
  have hi0 : (i 0).val < 8192 := (i 0).isLt
  have hi1 : (i 1).val < 128 := (i 1).isLt
  have hN : cfg1.N = 32 := N_1
  refine ⟨⟨(i 0).val / 1024 * 4 + 3, by omega⟩, (flush1_7 _).mpr (by show ((i 0).val / 1024 * 4 + 3) % 4 = 3; omega), ?_⟩
  rw [mem_blk1_7]
  obtain ⟨-, -, -, -, -, -, -, -, -, -, -, -, e12, e13, -⟩ := idx1 ⟨(i 0).val / 1024 * 4 + 3, by omega⟩
  intro a
  match a with
  | ⟨0, _⟩ =>
    show win1_7.index _ (0 : Fin 2) * 1024 ≤ (i 0).val ∧ (i 0).val < win1_7.index _ (0 : Fin 2) * 1024 + 1024
    rw [e12]; show ((i 0).val / 1024 * 4 + 3) / 4 * 1024 ≤ (i 0).val ∧ (i 0).val < ((i 0).val / 1024 * 4 + 3) / 4 * 1024 + 1024; omega
  | ⟨1, _⟩ =>
    show win1_7.index _ (1 : Fin 2) * 128 ≤ (i 1).val ∧ (i 1).val < win1_7.index _ (1 : Fin 2) * 128 + 128
    rw [e13]; omega

/-- The copy of S after the region: S. -/
theorem value1_5 (c : Dev nD) :
    (dat1 (F := Ideal) V c).arrAt 5 cfg1.N = mtx1 V c :=
  (dat1 V c).arrAt_eq_of_cover 5 _ (fun t _ => flushed1_5 V c t) (covered1_5)
/-- The narrow output array after the region: the matrix times the propagated signal. -/
theorem value1_6 (c : Dev nD) :
    (dat1 (F := Ideal) V c).arrAt 6 cfg1.N = Cert.Spec.propSx (mtx1 V c) (sgn1 V c) :=
  (dat1 V c).arrAt_eq_of_cover 6 _ (fun t hf => flushed1_6 V c t hf) (covered1_6)
/-- The wide output array after the region: the running output updated by the tap times that product. -/
theorem value1_7 (c : Dev nD) :
    (dat1 (F := Ideal) V c).arrAt 7 cfg1.N
      = Cert.Spec.propOut (mtx1 V c) (sgn1 V c) (run1 V c) (tap1 V c) :=
  (dat1 V c).arrAt_eq_of_cover 7 _ (fun t hf => flushed1_7 V c t hf) (covered1_7)

end Arrays

end Cert.KernelIdeal.Hand

end
-- ==== Proof.KI.Prop2Value.lean ====
/-
  What the propagation call number 2 leaves in its two output arrays, over the extended reals. A grid point
  t = 4·i + k handles the 1024 rows of tile i against the 2048 columns of tile k. The accumulator after the point
  holds, at row p and column q of the tile, the sum over the column tiles 0..k of the tile's product
  ∑ l, S(1024·i + p, 2048·k' + l) · Sx(2048·k' + l, q), starting from zero at k = 0. At k = 3 that is the whole
  product (S·Sx) at row 1024·i + p; the narrow output stores it, the wide one stores the running output plus the
  tap times it, plus the bias row, rectified. Each output block is written back at k = 3 only, and the eight
  blocks cover the 8192 rows.
-/
import proofs.«131271_j4982162063661_2_alg».proof.Proof.KI.Prop2
import proofs.«131271_j4982162063661_2_alg».proof.Proof.SpecRegions
import proofs.«131271_j4982162063661_2_alg».proof.Proof.Spec
import proofs.«131271_j4982162063661_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.Tactic
open Idealize.SL Idealize.SL.Sem
open Idealize.ShloMosaic.Pipeline (Dat Cfg Window)

theorem zero2_2 : (![0, 0] : Fin 2 → Nat) = fun _ => 0 := funext fun a => by fin_cases a <;> rfl

section Pieces
variable {F : FTy → Type} [FloatOps F]

/-- The 2048 rows of the propagated signal the point's column tile meets. -/
abbrev slice2 (i : grid2.Coords) : Rect S8192x128 := Rect.unit (s := S8192x128) (k2_off1 i) S2048x128.size (k2_off1_inb i)

/-- At the first column tile the accumulator ends at the tile's product added to the zero just stored. -/
theorem sout2_A_0_eq (c : Dev nD) (i : grid2.Coords) (arg2 : Memref sig .tc .vmem S1024x2048 .bf16) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .f32) (harg9 : arg9.IsWhole) (hc0 : cond2_0 i) (hc1 : ¬cond2_1 i) (x0 : Vec F S1024x2048 .bf16) (x1 : Vec F S8192x128 .bf16) (x2 : Vec F S1024x128 .f32) (x3 : Vec F S1x128 .f32) (x4 : Vec F S1x1 .f32) :
    sout2_A_0 c i arg2 harg2 arg3 harg3 arg4 harg4 arg5 harg5 arg6 harg6 arg7 harg7 arg8 harg8 arg9 harg9 hc0 hc1 x0 x1 x2 x3 x4 = k2_pay2 (View.ld x1 (slice2 i)) (k2_pay1 (F := F)) x0 := by
  unfold sout2_A_0
  rw [View.read_writes_eq_canon _ _ _ (scover2_A_0 c i arg2 harg2 arg3 harg3 arg4 harg4 arg5 harg5 arg6 harg6 arg7 harg7 arg8 harg8 arg9 harg9 hc0 hc1 x0 x1 x2 x3 x4)]
  unfold kernelRun2_A
  dsimp only
  sl_unfold_run_names
  rw [View.canon_cons_unit_zero zero2_2]
  simp only [View.readAt_eq_ld, harg2.read_unread, harg3.read_unread, View.ld_unit_zero (S := S1024x2048) zero2_2,
    View.readCov_unit_zero (S := S1024x128) arg9.view zero2_2]
  all_goals rfl

/-- At a middle column tile the accumulator ends at the tile's product added to what it held. -/
theorem sout2_B_0_eq (c : Dev nD) (i : grid2.Coords) (arg2 : Memref sig .tc .vmem S1024x2048 .bf16) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .f32) (harg9 : arg9.IsWhole) (hc0 : ¬cond2_0 i) (hc1 : ¬cond2_1 i) (x0 : Vec F S1024x2048 .bf16) (x1 : Vec F S8192x128 .bf16) (x2 : Vec F S1024x128 .f32) (x3 : Vec F S1x128 .f32) (x4 : Vec F S1x1 .f32) (xs0 : Vec F S1024x128 .f32) :
    sout2_B_0 c i arg2 harg2 arg3 harg3 arg4 harg4 arg5 harg5 arg6 harg6 arg7 harg7 arg8 harg8 arg9 harg9 hc0 hc1 x0 x1 x2 x3 x4 xs0 = k2_pay2 (View.ld x1 (slice2 i)) xs0 x0 := by
  unfold sout2_B_0
  rw [View.read_writes_eq_canon _ _ _ (scover2_B_0 c i arg2 harg2 arg3 harg3 arg4 harg4 arg5 harg5 arg6 harg6 arg7 harg7 arg8 harg8 arg9 harg9 hc0 hc1 x0 x1 x2 x3 x4 xs0)]
  unfold kernelRun2_B
  dsimp only
  sl_unfold_run_names
  rw [View.canon_cons_unit_zero zero2_2]
  simp only [View.readAt_eq_ld, harg2.read_unread, harg3.read_unread, harg9.read_unread, View.ld_unit_zero (S := S1024x2048) zero2_2,
    View.ld_unit_zero (S := S1024x128) zero2_2]
  all_goals rfl

/-- At the last column tile the same, -/
theorem sout2_C_0_eq (c : Dev nD) (i : grid2.Coords) (arg2 : Memref sig .tc .vmem S1024x2048 .bf16) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .f32) (harg9 : arg9.IsWhole) (hc0 : ¬cond2_0 i) (hc1 : cond2_1 i) (x0 : Vec F S1024x2048 .bf16) (x1 : Vec F S8192x128 .bf16) (x2 : Vec F S1024x128 .f32) (x3 : Vec F S1x128 .f32) (x4 : Vec F S1x1 .f32) (xs0 : Vec F S1024x128 .f32) :
    sout2_C_0 c i arg2 harg2 arg3 harg3 arg4 harg4 arg5 harg5 arg6 harg6 arg7 harg7 arg8 harg8 arg9 harg9 hc0 hc1 x0 x1 x2 x3 x4 xs0 = k2_pay2 (View.ld x1 (slice2 i)) xs0 x0 := by
  unfold sout2_C_0
  rw [View.read_writes_eq_canon _ _ _ (scover2_C_0 c i arg2 harg2 arg3 harg3 arg4 harg4 arg5 harg5 arg6 harg6 arg7 harg7 arg8 harg8 arg9 harg9 hc0 hc1 x0 x1 x2 x3 x4 xs0)]
  unfold kernelRun2_C
  dsimp only
  sl_unfold_run_names
  rw [View.canon_cons_unit_zero zero2_2]
  simp only [View.readAt_eq_ld, harg2.read_unread, harg3.read_unread, harg9.read_unread, View.ld_unit_zero (S := S1024x2048) zero2_2,
    View.ld_unit_zero (S := S1024x128) zero2_2]
  all_goals rfl

/-- and the narrow output's block is the accumulator rounded, -/
theorem out2_C_5_eq (c : Dev nD) (i : grid2.Coords) (arg2 : Memref sig .tc .vmem S1024x2048 .bf16) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .f32) (harg9 : arg9.IsWhole) (hc0 : ¬cond2_0 i) (hc1 : cond2_1 i) (x0 : Vec F S1024x2048 .bf16) (x1 : Vec F S8192x128 .bf16) (x2 : Vec F S1024x128 .f32) (x3 : Vec F S1x128 .f32) (x4 : Vec F S1x1 .f32) (xs0 : Vec F S1024x128 .f32) :
    out2_C_5 c i arg2 harg2 arg3 harg3 arg4 harg4 arg5 harg5 arg6 harg6 arg7 harg7 arg8 harg8 arg9 harg9 hc0 hc1 x0 x1 x2 x3 x4 xs0 = k2_pay3 (k2_pay2 (View.ld x1 (slice2 i)) xs0 x0) := by
  unfold out2_C_5
  rw [View.read_writes_eq_canon _ _ _ (cover2_C_5 c i arg2 harg2 arg3 harg3 arg4 harg4 arg5 harg5 arg6 harg6 arg7 harg7 arg8 harg8 arg9 harg9 hc0 hc1 x0 x1 x2 x3 x4 xs0)]
  unfold kernelRun2_C
  dsimp only
  sl_unfold_run_names
  rw [View.canon_cons_unit_zero zero2_2]
  simp only [View.readAt_eq_ld, harg2.read_unread, harg3.read_unread, harg9.read_unread, View.ld_unit_zero (S := S1024x2048) zero2_2,
    View.ld_unit_zero (S := S1024x128) zero2_2, View.readCov_unit_zero (S := S1024x128) arg9.view zero2_2]
  all_goals rfl

/-- the wide output's block the epilogue of the accumulator, the tap, the running output and the bias row. -/
theorem out2_C_6_eq (c : Dev nD) (i : grid2.Coords) (arg2 : Memref sig .tc .vmem S1024x2048 .bf16) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .f32) (harg9 : arg9.IsWhole) (hc0 : ¬cond2_0 i) (hc1 : cond2_1 i) (x0 : Vec F S1024x2048 .bf16) (x1 : Vec F S8192x128 .bf16) (x2 : Vec F S1024x128 .f32) (x3 : Vec F S1x128 .f32) (x4 : Vec F S1x1 .f32) (xs0 : Vec F S1024x128 .f32) :
    out2_C_6 c i arg2 harg2 arg3 harg3 arg4 harg4 arg5 harg5 arg6 harg6 arg7 harg7 arg8 harg8 arg9 harg9 hc0 hc1 x0 x1 x2 x3 x4 xs0 = k2_pay4 (k2_pay2 (View.ld x1 (slice2 i)) xs0 x0) x4 x2 x3 := by
  unfold out2_C_6
  rw [View.read_writes_eq_canon _ _ _ (cover2_C_6 c i arg2 harg2 arg3 harg3 arg4 harg4 arg5 harg5 arg6 harg6 arg7 harg7 arg8 harg8 arg9 harg9 hc0 hc1 x0 x1 x2 x3 x4 xs0)]
  unfold kernelRun2_C
  dsimp only
  sl_unfold_run_names
  rw [View.canon_cons_unit_zero zero2_2]
  simp only [View.readAt_eq_ld, harg2.read_unread, harg3.read_unread, harg4.read_unread, harg5.read_unread, harg6.read_unread, harg9.read_unread,
    View.ld_unit_zero (S := S1024x2048) zero2_2, View.ld_unit_zero (S := S1024x128) zero2_2, View.ld_unit_zero (S := S1x1) zero2_2,
    View.ld_unit_zero (S := S1x128) zero2_2, View.readCov_unit_zero (S := S1024x128) arg9.view zero2_2]
  all_goals rfl

end Pieces

section Value
variable (V : (c : Dev nD) → (b : Ref sig .tc) → Buf (Elt Ideal) ((c : Thread nD τ).loc b))

/-- The region's five input arrays as it finds them: the matrix, the propagated signal, the running output, the
    bias row, the tap. -/
abbrev mtx2 (c : Dev nD) : Cert.Spec.Mat 8192 8192 := V c (Pipeline.arrRef spec2 0)
abbrev sgn2 (c : Dev nD) : Cert.Spec.Mat 8192 128 := V c (Pipeline.arrRef spec2 1)
abbrev run2 (c : Dev nD) : Cert.Spec.Mat 8192 128 := V c (Pipeline.arrRef spec2 2)
abbrev bia2 (c : Dev nD) : Cert.Spec.Mat 1 128 := V c (Pipeline.arrRef spec2 3)
abbrev tap2 (c : Dev nD) : Cert.Spec.Mat 1 1 := V c (Pipeline.arrRef spec2 4)

/-- The block index maps and the signal's row offset, decided over the 32 points: row tile t / 4, column tile t % 4. -/
theorem idx2 : ∀ t : Fin cfg2.N,
    win2_0.index t (0 : Fin 2) = t.val / 4 ∧ win2_0.index t (1 : Fin 2) = t.val % 4
    ∧ win2_1.index t (0 : Fin 2) = 0 ∧ win2_1.index t (1 : Fin 2) = 0
    ∧ win2_2.index t (0 : Fin 2) = t.val / 4 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val / 4 ∧ win2_5.index t (1 : Fin 2) = 0
    ∧ win2_6.index t (0 : Fin 2) = t.val / 4 ∧ win2_6.index t (1 : Fin 2) = 0
    ∧ k2_off1 (grid2.coords t) (0 : Fin 2) = t.val % 4 * 2048 ∧ k2_off1 (grid2.coords t) (1 : Fin 2) = 0 :=
  (by decide +kernel : ∀ t : Fin grid2.N, _)

theorem row2_lt (n : ℕ) (hn : n < cfg2.N) (p : Fin 1024) : n / 4 * 1024 + p.val < 8192 := by
  have hN : cfg2.N = 32 := N_2
  have := p.isLt; omega
theorem col2_lt (n : ℕ) (l : Fin 2048) : n % 4 * 2048 + l.val < 8192 := by have := l.isLt; omega

theorem iblk2_0_apply (c : Dev nD) (t : Fin cfg2.N) (p : Fin 1024) (l : Fin 2048) :
    iblk2 V c 0 t (ix2 p l) = mtx2 V c (ix2 ⟨t.val / 4 * 1024 + p.val, row2_lt t.val t.isLt p⟩ ⟨t.val % 4 * 2048 + l.val, col2_lt t.val l⟩) := by
  show V c (Pipeline.arrRef spec2 0) (((cfg2.win 0).blk t).view.emb (ix2 p l)) = _
  refine congrArg _ ?_
  funext a; apply Fin.ext
  obtain ⟨e0, e1, -⟩ := idx2 t
  match a with
  | ⟨0, _⟩ => show win2_0.index t (0 : Fin 2) * 1024 + 1 * p.val = t.val / 4 * 1024 + p.val; omega
  | ⟨1, _⟩ => show win2_0.index t (1 : Fin 2) * 2048 + 1 * l.val = t.val % 4 * 2048 + l.val; omega
theorem iblk2_1_apply (c : Dev nD) (t : Fin cfg2.N) (j : Fin 8192) (q : Fin 128) :
    iblk2 V c 1 t (ix2 j q) = sgn2 V c (ix2 j q) := by
  show V c (Pipeline.arrRef spec2 1) (((cfg2.win 1).blk t).view.emb (ix2 j q)) = _
  refine congrArg _ ?_
  funext a; apply Fin.ext
  obtain ⟨-, -, e2, e3, -⟩ := idx2 t
  match a with
  | ⟨0, _⟩ => show win2_1.index t (0 : Fin 2) * 8192 + 1 * j.val = j.val; omega
  | ⟨1, _⟩ => show win2_1.index t (1 : Fin 2) * 128 + 1 * q.val = q.val; omega
theorem iblk2_2_apply (c : Dev nD) (t : Fin cfg2.N) (p : Fin 1024) (q : Fin 128) :
    iblk2 V c 2 t (ix2 p q) = run2 V c (ix2 ⟨t.val / 4 * 1024 + p.val, row2_lt t.val t.isLt p⟩ q) := by
  show V c (Pipeline.arrRef spec2 2) (((cfg2.win 2).blk t).view.emb (ix2 p q)) = _
  refine congrArg _ ?_
  funext a; apply Fin.ext
  obtain ⟨-, -, -, -, e4, e5, -⟩ := idx2 t
  match a with
  | ⟨0, _⟩ => show win2_2.index t (0 : Fin 2) * 1024 + 1 * p.val = t.val / 4 * 1024 + p.val; omega
  | ⟨1, _⟩ => show win2_2.index t (1 : Fin 2) * 128 + 1 * q.val = q.val; omega
theorem iblk2_3_apply (c : Dev nD) (t : Fin cfg2.N) (q : Fin 128) :
    iblk2 V c 3 t (ix2 0 q) = bia2 V c (ix2 0 q) := by
  show V c (Pipeline.arrRef spec2 3) (((cfg2.win 3).blk t).view.emb (ix2 0 q)) = _
  refine congrArg _ ?_
  funext a; apply Fin.ext
  obtain ⟨-, -, -, -, -, -, e6, e7, -⟩ := idx2 t
  match a with
  | ⟨0, _⟩ => show win2_3.index t (0 : Fin 2) * 1 + 1 * 0 = 0; omega
  | ⟨1, _⟩ => show win2_3.index t (1 : Fin 2) * 128 + 1 * q.val = q.val; omega
theorem iblk2_4_apply (c : Dev nD) (t : Fin cfg2.N) :
    iblk2 V c 4 t (ix2 0 0) = tap2 V c (ix2 0 0) := by
  show V c (Pipeline.arrRef spec2 4) (((cfg2.win 4).blk t).view.emb (ix2 0 0)) = _
  refine congrArg _ ?_
  funext a; apply Fin.ext
  obtain ⟨-, -, -, -, -, -, -, -, e8, e9, -⟩ := idx2 t
  match a with
  | ⟨0, _⟩ => show win2_4.index t (0 : Fin 2) * 1 + 1 * 0 = 0; omega
  | ⟨1, _⟩ => show win2_4.index t (1 : Fin 2) * 1 + 1 * 0 = 0; omega

/-- The signal's 2048 rows the point loads, read at an entry. -/
theorem slice2_apply (t : Fin cfg2.N) (x1 : Vec Ideal S8192x128 .bf16) (l : Fin 2048) (q : Fin 128) :
    View.ld x1 (slice2 (grid2.coords t)) (ix2 l q) = x1 (ix2 ⟨t.val % 4 * 2048 + l.val, col2_lt t.val l⟩ q) := by
  show x1 ((slice2 (grid2.coords t)).emb (ix2 l q)) = _
  refine congrArg _ ?_
  funext a; apply Fin.ext
  obtain ⟨-, -, -, -, -, -, -, -, -, -, -, -, -, -, e14, e15⟩ := idx2 t
  match a with
  | ⟨0, _⟩ => show k2_off1 (grid2.coords t) (0 : Fin 2) + 1 * l.val = t.val % 4 * 2048 + l.val; omega
  | ⟨1, _⟩ => show k2_off1 (grid2.coords t) (1 : Fin 2) + 1 * q.val = q.val; omega

/-- The reset's payload is zero. -/
theorem zeropay2_apply (j : S1024x128.Idx) : k2_pay1 (F := Ideal) j = 0 := by
  unfold k2_pay1
  rw [shapeCast_self]
  exact Ideal.ofBits_zero_f32

/-- The accumulate step at an entry: what was there plus the tile's product. -/
theorem accpay2_apply (x1s : Vec Ideal S2048x128 .bf16) (xs : Vec Ideal S1024x128 .f32) (x0 : Vec Ideal S1024x2048 .bf16)
    (p : Fin 1024) (q : Fin 128) :
    k2_pay2 x1s xs x0 (ix2 p q) = xs (ix2 p q) + ∑ l : Fin 2048, x0 (ix2 p l) * x1s (ix2 l q) := by
  unfold k2_pay2
  simp only [shapeCast_self]
  show xs (ix2 p q) + _ = xs (ix2 p q) + _
  refine congrArg (xs (ix2 p q) + ·) ?_
  refine (Ideal.matmul_constant_zero_apply (φ₁ := .bf16) (φ₂ := .bf16) _ none x0 x1s (ix2 p q)).trans ?_
  exact Cert.LibPlainDot.sum_plain dot_S1024x2048_S2048x128_S1024x128_1_0_0_1_n_n rfl rfl rfl rfl rfl rfl x0 x1s p q

/-- The epilogue at an entry. -/
theorem epipay2_apply (v19 : Vec Ideal S1024x128 .f32) (v22 : Vec Ideal S1x1 .f32) (v24 : Vec Ideal S1024x128 .f32) (v29 : Vec Ideal S1x128 .f32)
    (p : Fin 1024) (q : Fin 128) :
    k2_pay4 v19 v22 v24 v29 (ix2 p q) = max ((v24 (ix2 p q) + v22 (ix2 0 0) * v19 (ix2 p q)) + v29 (ix2 0 q)) Cert.Spec.zeroWord := by
  unfold k2_pay4
  simp only [shapeCast_self]
  show max ((v24 (ix2 p q) + (broadcastTo S1024x128 v22 broadcasts_S1x1_S1024x128) (ix2 p q) * v19 (ix2 p q)) + (broadcastTo S1024x128 v29 broadcasts_S1x128_S1024x128) (ix2 p q)) _ = _
  rw [broadcastTo_apply v22 _ (ix2 p q) (ix2 0 0) (fun a => by match a with | ⟨0, _⟩ => rfl | ⟨1, _⟩ => rfl),
    broadcastTo_apply v29 _ (ix2 p q) (ix2 0 q) (fun a => by match a with | ⟨0, _⟩ => rfl | ⟨1, _⟩ => rfl)]
  all_goals rfl

/-- One column tile's product at a row of the array and a column. -/
def tile2 (c : Dev nD) (r : Fin 8192) (o : ℕ) (ho : o + 2048 ≤ 8192) (q : Fin 128) : EReal :=
  ∑ l : Fin 2048, mtx2 V c (ix2 r ⟨o + l.val, by have := l.isLt; omega⟩) * sgn2 V c (ix2 ⟨o + l.val, by have := l.isLt; omega⟩ q)

/-- The product the body forms at point t is the tile's: row 1024·(t/4) + p, columns from 2048·(t%4). -/
theorem pointprod2 (c : Dev nD) (t : Fin cfg2.N) (x0 : Vec Ideal S1024x2048 .bf16) (x1 : Vec Ideal S8192x128 .bf16)
    (h0 : ∀ (p : Fin 1024) (l : Fin 2048), x0 (ix2 p l) = mtx2 V c (ix2 ⟨t.val / 4 * 1024 + p.val, row2_lt t.val t.isLt p⟩ ⟨t.val % 4 * 2048 + l.val, col2_lt t.val l⟩))
    (h1 : ∀ (j : Fin 8192) (q : Fin 128), x1 (ix2 j q) = sgn2 V c (ix2 j q)) (p : Fin 1024) (q : Fin 128)
    (r : Fin 8192) (hr : r.val = t.val / 4 * 1024 + p.val) (o : ℕ) (ho' : o = t.val % 4 * 2048) (ho : o + 2048 ≤ 8192) :
    (∑ l : Fin 2048, x0 (ix2 p l) * View.ld x1 (slice2 (grid2.coords t)) (ix2 l q))
      = tile2 V c r o ho q := by
  subst ho'
  obtain rfl : r = ⟨t.val / 4 * 1024 + p.val, row2_lt t.val t.isLt p⟩ := Fin.ext hr
  unfold tile2
  exact Finset.sum_congr rfl fun l _ => by rw [h0, slice2_apply, h1]

/-- After a point at the first column tile the accumulator holds zero plus the tile's product. -/
theorem acc2_first (c : Dev nD) (n : ℕ) (hn : n < cfg2.N) (h : n % 4 = 0) (p : Fin 1024) (q : Fin 128)
    (r : Fin 8192) (hr : r.val = n / 4 * 1024 + p.val) (o : ℕ) (ho' : o = n % 4 * 2048) (ho : o + 2048 ≤ 8192) :
    (outsAt2 V c n hn).2.2 (ix2 p q) = 0 + tile2 V c r o ho q := by
  have e : outsAt2 V c n hn = _ := outsAt2_A V c ⟨n, hn⟩ h (by show ¬ n % 4 = 3; omega)
  rw [e]
  dsimp only
  rw [sout2_A_0_eq, accpay2_apply, zeropay2_apply, pointprod2 V c ⟨n, hn⟩ _ _ (iblk2_0_apply V c ⟨n, hn⟩) (iblk2_1_apply V c ⟨n, hn⟩) p q r hr o ho' ho]

/-- After any later point it holds what the point before left plus the tile's product. -/
theorem acc2_next (c : Dev nD) (n : ℕ) (hn : n < cfg2.N) (h : n % 4 ≠ 0) (p : Fin 1024) (q : Fin 128)
    (r : Fin 8192) (hr : r.val = n / 4 * 1024 + p.val) (o : ℕ) (ho' : o = n % 4 * 2048) (ho : o + 2048 ≤ 8192) :
    (outsAt2 V c n hn).2.2 (ix2 p q) = (outsAt2 V c (n - 1) (by omega)).2.2 (ix2 p q) + tile2 V c r o ho q := by
  by_cases h1 : n % 4 = 3
  · have e : outsAt2 V c n hn = _ := outsAt2_C V c ⟨n, hn⟩ h h1
    rw [e]
    dsimp only
    rw [sout2_C_0_eq, accpay2_apply, pointprod2 V c ⟨n, hn⟩ _ _ (iblk2_0_apply V c ⟨n, hn⟩) (iblk2_1_apply V c ⟨n, hn⟩) p q r hr o ho' ho]
  · have e : outsAt2 V c n hn = _ := outsAt2_B V c ⟨n, hn⟩ h h1
    rw [e]
    dsimp only
    rw [sout2_B_0_eq, accpay2_apply, pointprod2 V c ⟨n, hn⟩ _ _ (iblk2_0_apply V c ⟨n, hn⟩) (iblk2_1_apply V c ⟨n, hn⟩) p q r hr o ho' ho]

/-- After the last column tile the accumulator holds the whole product at the tile's rows. -/
theorem acc2_last (c : Dev nD) (n : ℕ) (hn : n < cfg2.N) (h : n % 4 = 3) (p : Fin 1024) (q : Fin 128) :
    (outsAt2 V c n hn).2.2 (ix2 p q)
      = Cert.Spec.prod (mtx2 V c) (sgn2 V c) (ix2 ⟨n / 4 * 1024 + p.val, row2_lt n hn p⟩ q) := by
  rw [acc2_next V c n hn (by omega) p q ⟨n / 4 * 1024 + p.val, row2_lt n hn p⟩ rfl 6144 (by omega) (by omega),
    acc2_next V c (n - 1) (by omega) (by omega) p q ⟨n / 4 * 1024 + p.val, row2_lt n hn p⟩ (by show n / 4 * 1024 + p.val = (n - 1) / 4 * 1024 + p.val; omega) 4096 (by omega) (by omega),
    acc2_next V c (n - 1 - 1) (by omega) (by omega) p q ⟨n / 4 * 1024 + p.val, row2_lt n hn p⟩ (by show n / 4 * 1024 + p.val = (n - 1 - 1) / 4 * 1024 + p.val; omega) 2048 (by omega) (by omega),
    acc2_first V c (n - 1 - 1 - 1) (by omega) (by omega) p q ⟨n / 4 * 1024 + p.val, row2_lt n hn p⟩ (by show n / 4 * 1024 + p.val = (n - 1 - 1 - 1) / 4 * 1024 + p.val; omega) 0 (by omega) (by omega)]
  unfold tile2
  simp only [Nat.zero_add]
  exact Cert.Spec.prod_tiles (mtx2 V c) (sgn2 V c) _ q

end Value

section Arrays
variable (V : (c : Dev nD) → (b : Ref sig .tc) → Buf (Elt Ideal) ((c : Thread nD τ).loc b))

/-- At a point of the last column tile the narrow output's block is the accumulator (rounded), -/
theorem out2_5_acc (c : Dev nD) (t : Fin cfg2.N) (h3 : t.val % 4 = 3) :
    (outsAt2 V c t.val t.isLt).1 = k2_pay3 ((outsAt2 V c t.val t.isLt).2.2) := by
  rw [outsAt2_C V c t (by omega) h3]
  dsimp only
  rw [out2_C_5_eq, sout2_C_0_eq]
/-- and the wide output's block the epilogue of the accumulator. -/
theorem out2_6_acc (c : Dev nD) (t : Fin cfg2.N) (h3 : t.val % 4 = 3) :
    (outsAt2 V c t.val t.isLt).2.1 = k2_pay4 ((outsAt2 V c t.val t.isLt).2.2) (iblk2 V c 4 t) (iblk2 V c 2 t) (iblk2 V c 3 t) := by
  rw [outsAt2_C V c t (by omega) h3]
  dsimp only
  rw [out2_C_6_eq, sout2_C_0_eq]

theorem emb2_5 (t : Fin cfg2.N) (p : Fin 1024) (q : Fin 128) :
    ((cfg2.win 5).blk t).view.emb (ix2 p q) = ix2 ⟨t.val / 4 * 1024 + p.val, row2_lt t.val t.isLt p⟩ q := by
  funext a; apply Fin.ext
  obtain ⟨-, -, -, -, -, -, -, -, -, -, e10, e11, -⟩ := idx2 t
  match a with
  | ⟨0, _⟩ => show win2_5.index t (0 : Fin 2) * 1024 + 1 * p.val = t.val / 4 * 1024 + p.val; omega
  | ⟨1, _⟩ => show win2_5.index t (1 : Fin 2) * 128 + 1 * q.val = q.val; omega
theorem emb2_6 (t : Fin cfg2.N) (p : Fin 1024) (q : Fin 128) :
    ((cfg2.win 6).blk t).view.emb (ix2 p q) = ix2 ⟨t.val / 4 * 1024 + p.val, row2_lt t.val t.isLt p⟩ q := by
  funext a; apply Fin.ext
  obtain ⟨-, -, -, -, -, -, -, -, -, -, -, -, e12, e13, -⟩ := idx2 t
  match a with
  | ⟨0, _⟩ => show win2_6.index t (0 : Fin 2) * 1024 + 1 * p.val = t.val / 4 * 1024 + p.val; omega
  | ⟨1, _⟩ => show win2_6.index t (1 : Fin 2) * 128 + 1 * q.val = q.val; omega

/-- What a point of the last column tile writes back into the narrow output is its block of the product. -/
theorem flushed2_5 (c : Dev nD) (t : Fin cfg2.N) (hf : (cfg2.win 5).flush t = true) :
    (dat2 (F := Ideal) V c).flushed 5 t = ((cfg2.win 5).blk t).view.read (Elt Ideal) (Cert.Spec.propSx (mtx2 V c) (sgn2 V c)) := by
  have h3 : t.val % 4 = 3 := (flush2_5 t).mp hf
  show (cfg2.win 5).cut (grid2.coords t) ((dat2 V c).after 5 t) = _
  rw [after2_5, out2_5_acc V c t h3]
  funext j
  obtain ⟨p, q, rfl⟩ : ∃ (p : Fin 1024) (q : Fin 128), j = ix2 p q := ⟨j 0, j 1, eq_ix2 j⟩
  show (outsAt2 V c t.val t.isLt).2.2 (ix2 p q) = Cert.Spec.prod (mtx2 V c) (sgn2 V c) (((cfg2.win 5).blk t).view.emb (ix2 p q))
  rw [emb2_5, acc2_last V c t.val t.isLt h3 p q]

/-- What it writes back into the wide output is its block of the updated running output. -/
theorem flushed2_6 (c : Dev nD) (t : Fin cfg2.N) (hf : (cfg2.win 6).flush t = true) :
    (dat2 (F := Ideal) V c).flushed 6 t = ((cfg2.win 6).blk t).view.read (Elt Ideal)
      (Cert.Spec.propOutBR (mtx2 V c) (sgn2 V c) (run2 V c) (tap2 V c) (bia2 V c)) := by
  have h3 : t.val % 4 = 3 := (flush2_6 t).mp hf
  show (cfg2.win 6).cut (grid2.coords t) ((dat2 V c).after 6 t) = _
  rw [after2_6, out2_6_acc V c t h3]
  funext j
  obtain ⟨p, q, rfl⟩ : ∃ (p : Fin 1024) (q : Fin 128), j = ix2 p q := ⟨j 0, j 1, eq_ix2 j⟩
  show k2_pay4 ((outsAt2 V c t.val t.isLt).2.2) (iblk2 V c 4 t) (iblk2 V c 2 t) (iblk2 V c 3 t) (ix2 p q)
    = Cert.Spec.propOutBR (mtx2 V c) (sgn2 V c) (run2 V c) (tap2 V c) (bia2 V c) (((cfg2.win 6).blk t).view.emb (ix2 p q))
  rw [emb2_6, epipay2_apply, acc2_last V c t.val t.isLt h3 p q, iblk2_2_apply, iblk2_4_apply, iblk2_3_apply]
  rfl

theorem mem_blk2_5 (t : Fin cfg2.N) (i : S8192x128.Idx) :
    i ∈ ((cfg2.win 5).blk t).view.set ↔ ∀ a : Fin 2, win2_5.index t a * S1024x128.size a ≤ (i a).val ∧ (i a).val < win2_5.index t a * S1024x128.size a + S1024x128.size a := by
  show i ∈ ((View.whole main_v9_0).slice (win2_5.rect t)).set ↔ _
  rw [View.set_slice_whole, Rect.mem_set_unit]
  exact Iff.rfl
theorem mem_blk2_6 (t : Fin cfg2.N) (i : S8192x128.Idx) :
    i ∈ ((cfg2.win 6).blk t).view.set ↔ ∀ a : Fin 2, win2_6.index t a * S1024x128.size a ≤ (i a).val ∧ (i a).val < win2_6.index t a * S1024x128.size a + S1024x128.size a := by
  show i ∈ ((View.whole main_v9_1).slice (win2_6.rect t)).set ↔ _
  rw [View.set_slice_whole, Rect.mem_set_unit]
  exact Iff.rfl

/-- Row r is written back by the last column tile's point of row tile r / 1024. -/
theorem covered2_5 (i : S8192x128.Idx) : ∃ t : Fin cfg2.N, (cfg2.win 5).flush t = true ∧ i ∈ ((cfg2.win 5).blk t).view.set := by
  have hi0 : (i 0).val < 8192 := (i 0).isLt
  have hi1 : (i 1).val < 128 := (i 1).isLt
  have hN : cfg2.N = 32 := N_2
  refine ⟨⟨(i 0).val / 1024 * 4 + 3, by omega⟩, (flush2_5 _).mpr (by show ((i 0).val / 1024 * 4 + 3) % 4 = 3; omega), ?_⟩
  rw [mem_blk2_5]
  obtain ⟨-, -, -, -, -, -, -, -, -, -, e10, e11, -⟩ := idx2 ⟨(i 0).val / 1024 * 4 + 3, by omega⟩
  intro a
  match a with
  | ⟨0, _⟩ =>
    show win2_5.index _ (0 : Fin 2) * 1024 ≤ (i 0).val ∧ (i 0).val < win2_5.index _ (0 : Fin 2) * 1024 + 1024
    rw [e10]; show ((i 0).val / 1024 * 4 + 3) / 4 * 1024 ≤ (i 0).val ∧ (i 0).val < ((i 0).val / 1024 * 4 + 3) / 4 * 1024 + 1024; omega
  | ⟨1, _⟩ =>
    show win2_5.index _ (1 : Fin 2) * 128 ≤ (i 1).val ∧ (i 1).val < win2_5.index _ (1 : Fin 2) * 128 + 128
    rw [e11]; omega
theorem covered2_6 (i : S8192x128.Idx) : ∃ t : Fin cfg2.N, (cfg2.win 6).flush t = true ∧ i ∈ ((cfg2.win 6).blk t).view.set := by
  have hi0 : (i 0).val < 8192 := (i 0).isLt
  have hi1 : (i 1).val < 128 := (i 1).isLt
  have hN : cfg2.N = 32 := N_2
  refine ⟨⟨(i 0).val / 1024 * 4 + 3, by omega⟩, (flush2_6 _).mpr (by show ((i 0).val / 1024 * 4 + 3) % 4 = 3; omega), ?_⟩
  rw [mem_blk2_6]
  obtain ⟨-, -, -, -, -, -, -, -, -, -, -, -, e12, e13, -⟩ := idx2 ⟨(i 0).val / 1024 * 4 + 3, by omega⟩
  intro a
  match a with
  | ⟨0, _⟩ =>
    show win2_6.index _ (0 : Fin 2) * 1024 ≤ (i 0).val ∧ (i 0).val < win2_6.index _ (0 : Fin 2) * 1024 + 1024
    rw [e12]; show ((i 0).val / 1024 * 4 + 3) / 4 * 1024 ≤ (i 0).val ∧ (i 0).val < ((i 0).val / 1024 * 4 + 3) / 4 * 1024 + 1024; omega
  | ⟨1, _⟩ =>
    show win2_6.index _ (1 : Fin 2) * 128 ≤ (i 1).val ∧ (i 1).val < win2_6.index _ (1 : Fin 2) * 128 + 128
    rw [e13]; omega

/-- The narrow output array after the region: the matrix times the propagated signal. -/
theorem value2_5 (c : Dev nD) :
    (dat2 (F := Ideal) V c).arrAt 5 cfg2.N = Cert.Spec.propSx (mtx2 V c) (sgn2 V c) :=
  (dat2 V c).arrAt_eq_of_cover 5 _ (fun t hf => flushed2_5 V c t hf) (covered2_5)
/-- The wide output array after the region: the running output updated by the tap times that product. -/
theorem value2_6 (c : Dev nD) :
    (dat2 (F := Ideal) V c).arrAt 6 cfg2.N
      = Cert.Spec.propOutBR (mtx2 V c) (sgn2 V c) (run2 V c) (tap2 V c) (bia2 V c) :=
  (dat2 V c).arrAt_eq_of_cover 6 _ (fun t hf => flushed2_6 V c t hf) (covered2_6)

end Arrays

end Cert.KernelIdeal.Hand

end
-- ==== Proof.KI.Prop4Value.lean ====
/-
  What the propagation call number 4 leaves in its two output arrays, over the extended reals. A grid point
  t = 4·i + k handles the 1024 rows of tile i against the 2048 columns of tile k. The accumulator after the point
  holds, at row p and column q of the tile, the sum over the column tiles 0..k of the tile's product
  ∑ l, S(1024·i + p, 2048·k' + l) · Sx(2048·k' + l, q), starting from zero at k = 0. At k = 3 that is the whole
  product (S·Sx) at row 1024·i + p; the narrow output stores it, the wide one stores the running output plus the
  tap times it, plus the bias row, rectified. Each output block is written back at k = 3 only, and the eight
  blocks cover the 8192 rows.
-/
import proofs.«131271_j4982162063661_2_alg».proof.Proof.KI.Prop4
import proofs.«131271_j4982162063661_2_alg».proof.Proof.SpecRegions
import proofs.«131271_j4982162063661_2_alg».proof.Proof.Spec
import proofs.«131271_j4982162063661_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.Tactic
open Idealize.SL Idealize.SL.Sem
open Idealize.ShloMosaic.Pipeline (Dat Cfg Window)

theorem zero2_4 : (![0, 0] : Fin 2 → Nat) = fun _ => 0 := funext fun a => by fin_cases a <;> rfl

section Pieces
variable {F : FTy → Type} [FloatOps F]

/-- The 2048 rows of the propagated signal the point's column tile meets. -/
abbrev slice4 (i : grid4.Coords) : Rect S8192x128 := Rect.unit (s := S8192x128) (k4_off1 i) S2048x128.size (k4_off1_inb i)

/-- At the first column tile the accumulator ends at the tile's product added to the zero just stored. -/
theorem sout4_A_0_eq (c : Dev nD) (i : grid4.Coords) (arg2 : Memref sig .tc .vmem S1024x2048 .bf16) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .f32) (harg9 : arg9.IsWhole) (hc0 : cond4_0 i) (hc1 : ¬cond4_1 i) (x0 : Vec F S1024x2048 .bf16) (x1 : Vec F S8192x128 .bf16) (x2 : Vec F S1024x128 .f32) (x3 : Vec F S1x128 .f32) (x4 : Vec F S1x1 .f32) :
    sout4_A_0 c i arg2 harg2 arg3 harg3 arg4 harg4 arg5 harg5 arg6 harg6 arg7 harg7 arg8 harg8 arg9 harg9 hc0 hc1 x0 x1 x2 x3 x4 = k4_pay2 (View.ld x1 (slice4 i)) (k4_pay1 (F := F)) x0 := by
  unfold sout4_A_0
  rw [View.read_writes_eq_canon _ _ _ (scover4_A_0 c i arg2 harg2 arg3 harg3 arg4 harg4 arg5 harg5 arg6 harg6 arg7 harg7 arg8 harg8 arg9 harg9 hc0 hc1 x0 x1 x2 x3 x4)]
  unfold kernelRun4_A
  dsimp only
  sl_unfold_run_names
  rw [View.canon_cons_unit_zero zero2_4]
  simp only [View.readAt_eq_ld, harg2.read_unread, harg3.read_unread, View.ld_unit_zero (S := S1024x2048) zero2_4,
    View.readCov_unit_zero (S := S1024x128) arg9.view zero2_4]
  all_goals rfl

/-- At a middle column tile the accumulator ends at the tile's product added to what it held. -/
theorem sout4_B_0_eq (c : Dev nD) (i : grid4.Coords) (arg2 : Memref sig .tc .vmem S1024x2048 .bf16) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .f32) (harg9 : arg9.IsWhole) (hc0 : ¬cond4_0 i) (hc1 : ¬cond4_1 i) (x0 : Vec F S1024x2048 .bf16) (x1 : Vec F S8192x128 .bf16) (x2 : Vec F S1024x128 .f32) (x3 : Vec F S1x128 .f32) (x4 : Vec F S1x1 .f32) (xs0 : Vec F S1024x128 .f32) :
    sout4_B_0 c i arg2 harg2 arg3 harg3 arg4 harg4 arg5 harg5 arg6 harg6 arg7 harg7 arg8 harg8 arg9 harg9 hc0 hc1 x0 x1 x2 x3 x4 xs0 = k4_pay2 (View.ld x1 (slice4 i)) xs0 x0 := by
  unfold sout4_B_0
  rw [View.read_writes_eq_canon _ _ _ (scover4_B_0 c i arg2 harg2 arg3 harg3 arg4 harg4 arg5 harg5 arg6 harg6 arg7 harg7 arg8 harg8 arg9 harg9 hc0 hc1 x0 x1 x2 x3 x4 xs0)]
  unfold kernelRun4_B
  dsimp only
  sl_unfold_run_names
  rw [View.canon_cons_unit_zero zero2_4]
  simp only [View.readAt_eq_ld, harg2.read_unread, harg3.read_unread, harg9.read_unread, View.ld_unit_zero (S := S1024x2048) zero2_4,
    View.ld_unit_zero (S := S1024x128) zero2_4]
  all_goals rfl

/-- At the last column tile the same, -/
theorem sout4_C_0_eq (c : Dev nD) (i : grid4.Coords) (arg2 : Memref sig .tc .vmem S1024x2048 .bf16) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .f32) (harg9 : arg9.IsWhole) (hc0 : ¬cond4_0 i) (hc1 : cond4_1 i) (x0 : Vec F S1024x2048 .bf16) (x1 : Vec F S8192x128 .bf16) (x2 : Vec F S1024x128 .f32) (x3 : Vec F S1x128 .f32) (x4 : Vec F S1x1 .f32) (xs0 : Vec F S1024x128 .f32) :
    sout4_C_0 c i arg2 harg2 arg3 harg3 arg4 harg4 arg5 harg5 arg6 harg6 arg7 harg7 arg8 harg8 arg9 harg9 hc0 hc1 x0 x1 x2 x3 x4 xs0 = k4_pay2 (View.ld x1 (slice4 i)) xs0 x0 := by
  unfold sout4_C_0
  rw [View.read_writes_eq_canon _ _ _ (scover4_C_0 c i arg2 harg2 arg3 harg3 arg4 harg4 arg5 harg5 arg6 harg6 arg7 harg7 arg8 harg8 arg9 harg9 hc0 hc1 x0 x1 x2 x3 x4 xs0)]
  unfold kernelRun4_C
  dsimp only
  sl_unfold_run_names
  rw [View.canon_cons_unit_zero zero2_4]
  simp only [View.readAt_eq_ld, harg2.read_unread, harg3.read_unread, harg9.read_unread, View.ld_unit_zero (S := S1024x2048) zero2_4,
    View.ld_unit_zero (S := S1024x128) zero2_4]
  all_goals rfl

/-- and the narrow output's block is the accumulator rounded, -/
theorem out4_C_5_eq (c : Dev nD) (i : grid4.Coords) (arg2 : Memref sig .tc .vmem S1024x2048 .bf16) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .f32) (harg9 : arg9.IsWhole) (hc0 : ¬cond4_0 i) (hc1 : cond4_1 i) (x0 : Vec F S1024x2048 .bf16) (x1 : Vec F S8192x128 .bf16) (x2 : Vec F S1024x128 .f32) (x3 : Vec F S1x128 .f32) (x4 : Vec F S1x1 .f32) (xs0 : Vec F S1024x128 .f32) :
    out4_C_5 c i arg2 harg2 arg3 harg3 arg4 harg4 arg5 harg5 arg6 harg6 arg7 harg7 arg8 harg8 arg9 harg9 hc0 hc1 x0 x1 x2 x3 x4 xs0 = k4_pay3 (k4_pay2 (View.ld x1 (slice4 i)) xs0 x0) := by
  unfold out4_C_5
  rw [View.read_writes_eq_canon _ _ _ (cover4_C_5 c i arg2 harg2 arg3 harg3 arg4 harg4 arg5 harg5 arg6 harg6 arg7 harg7 arg8 harg8 arg9 harg9 hc0 hc1 x0 x1 x2 x3 x4 xs0)]
  unfold kernelRun4_C
  dsimp only
  sl_unfold_run_names
  rw [View.canon_cons_unit_zero zero2_4]
  simp only [View.readAt_eq_ld, harg2.read_unread, harg3.read_unread, harg9.read_unread, View.ld_unit_zero (S := S1024x2048) zero2_4,
    View.ld_unit_zero (S := S1024x128) zero2_4, View.readCov_unit_zero (S := S1024x128) arg9.view zero2_4]
  all_goals rfl

/-- the wide output's block the epilogue of the accumulator, the tap, the running output and the bias row. -/
theorem out4_C_6_eq (c : Dev nD) (i : grid4.Coords) (arg2 : Memref sig .tc .vmem S1024x2048 .bf16) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .f32) (harg9 : arg9.IsWhole) (hc0 : ¬cond4_0 i) (hc1 : cond4_1 i) (x0 : Vec F S1024x2048 .bf16) (x1 : Vec F S8192x128 .bf16) (x2 : Vec F S1024x128 .f32) (x3 : Vec F S1x128 .f32) (x4 : Vec F S1x1 .f32) (xs0 : Vec F S1024x128 .f32) :
    out4_C_6 c i arg2 harg2 arg3 harg3 arg4 harg4 arg5 harg5 arg6 harg6 arg7 harg7 arg8 harg8 arg9 harg9 hc0 hc1 x0 x1 x2 x3 x4 xs0 = k4_pay4 (k4_pay2 (View.ld x1 (slice4 i)) xs0 x0) x4 x2 := by
  unfold out4_C_6
  rw [View.read_writes_eq_canon _ _ _ (cover4_C_6 c i arg2 harg2 arg3 harg3 arg4 harg4 arg5 harg5 arg6 harg6 arg7 harg7 arg8 harg8 arg9 harg9 hc0 hc1 x0 x1 x2 x3 x4 xs0)]
  unfold kernelRun4_C
  dsimp only
  sl_unfold_run_names
  rw [View.canon_cons_unit_zero zero2_4]
  simp only [View.readAt_eq_ld, harg2.read_unread, harg3.read_unread, harg4.read_unread, harg5.read_unread, harg6.read_unread, harg9.read_unread,
    View.ld_unit_zero (S := S1024x2048) zero2_4, View.ld_unit_zero (S := S1024x128) zero2_4, View.ld_unit_zero (S := S1x1) zero2_4,
    View.ld_unit_zero (S := S1x128) zero2_4, View.readCov_unit_zero (S := S1024x128) arg9.view zero2_4]
  all_goals rfl

end Pieces

section Value
variable (V : (c : Dev nD) → (b : Ref sig .tc) → Buf (Elt Ideal) ((c : Thread nD τ).loc b))

/-- The region's five input arrays as it finds them: the matrix, the propagated signal, the running output, the
    bias row, the tap. -/
abbrev mtx4 (c : Dev nD) : Cert.Spec.Mat 8192 8192 := V c (Pipeline.arrRef spec4 0)
abbrev sgn4 (c : Dev nD) : Cert.Spec.Mat 8192 128 := V c (Pipeline.arrRef spec4 1)
abbrev run4 (c : Dev nD) : Cert.Spec.Mat 8192 128 := V c (Pipeline.arrRef spec4 2)
abbrev bia4 (c : Dev nD) : Cert.Spec.Mat 1 128 := V c (Pipeline.arrRef spec4 3)
abbrev tap4 (c : Dev nD) : Cert.Spec.Mat 1 1 := V c (Pipeline.arrRef spec4 4)

/-- The block index maps and the signal's row offset, decided over the 32 points: row tile t / 4, column tile t % 4. -/
theorem idx4 : ∀ t : Fin cfg4.N,
    win4_0.index t (0 : Fin 2) = t.val / 4 ∧ win4_0.index t (1 : Fin 2) = t.val % 4
    ∧ win4_1.index t (0 : Fin 2) = 0 ∧ win4_1.index t (1 : Fin 2) = 0
    ∧ win4_2.index t (0 : Fin 2) = t.val / 4 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val / 4 ∧ win4_5.index t (1 : Fin 2) = 0
    ∧ win4_6.index t (0 : Fin 2) = t.val / 4 ∧ win4_6.index t (1 : Fin 2) = 0
    ∧ k4_off1 (grid4.coords t) (0 : Fin 2) = t.val % 4 * 2048 ∧ k4_off1 (grid4.coords t) (1 : Fin 2) = 0 :=
  (by decide +kernel : ∀ t : Fin grid4.N, _)

theorem row4_lt (n : ℕ) (hn : n < cfg4.N) (p : Fin 1024) : n / 4 * 1024 + p.val < 8192 := by
  have hN : cfg4.N = 32 := N_4
  have := p.isLt; omega
theorem col4_lt (n : ℕ) (l : Fin 2048) : n % 4 * 2048 + l.val < 8192 := by have := l.isLt; omega

theorem iblk4_0_apply (c : Dev nD) (t : Fin cfg4.N) (p : Fin 1024) (l : Fin 2048) :
    iblk4 V c 0 t (ix2 p l) = mtx4 V c (ix2 ⟨t.val / 4 * 1024 + p.val, row4_lt t.val t.isLt p⟩ ⟨t.val % 4 * 2048 + l.val, col4_lt t.val l⟩) := by
  show V c (Pipeline.arrRef spec4 0) (((cfg4.win 0).blk t).view.emb (ix2 p l)) = _
  refine congrArg _ ?_
  funext a; apply Fin.ext
  obtain ⟨e0, e1, -⟩ := idx4 t
  match a with
  | ⟨0, _⟩ => show win4_0.index t (0 : Fin 2) * 1024 + 1 * p.val = t.val / 4 * 1024 + p.val; omega
  | ⟨1, _⟩ => show win4_0.index t (1 : Fin 2) * 2048 + 1 * l.val = t.val % 4 * 2048 + l.val; omega
theorem iblk4_1_apply (c : Dev nD) (t : Fin cfg4.N) (j : Fin 8192) (q : Fin 128) :
    iblk4 V c 1 t (ix2 j q) = sgn4 V c (ix2 j q) := by
  show V c (Pipeline.arrRef spec4 1) (((cfg4.win 1).blk t).view.emb (ix2 j q)) = _
  refine congrArg _ ?_
  funext a; apply Fin.ext
  obtain ⟨-, -, e2, e3, -⟩ := idx4 t
  match a with
  | ⟨0, _⟩ => show win4_1.index t (0 : Fin 2) * 8192 + 1 * j.val = j.val; omega
  | ⟨1, _⟩ => show win4_1.index t (1 : Fin 2) * 128 + 1 * q.val = q.val; omega
theorem iblk4_2_apply (c : Dev nD) (t : Fin cfg4.N) (p : Fin 1024) (q : Fin 128) :
    iblk4 V c 2 t (ix2 p q) = run4 V c (ix2 ⟨t.val / 4 * 1024 + p.val, row4_lt t.val t.isLt p⟩ q) := by
  show V c (Pipeline.arrRef spec4 2) (((cfg4.win 2).blk t).view.emb (ix2 p q)) = _
  refine congrArg _ ?_
  funext a; apply Fin.ext
  obtain ⟨-, -, -, -, e4, e5, -⟩ := idx4 t
  match a with
  | ⟨0, _⟩ => show win4_2.index t (0 : Fin 2) * 1024 + 1 * p.val = t.val / 4 * 1024 + p.val; omega
  | ⟨1, _⟩ => show win4_2.index t (1 : Fin 2) * 128 + 1 * q.val = q.val; omega
theorem iblk4_3_apply (c : Dev nD) (t : Fin cfg4.N) (q : Fin 128) :
    iblk4 V c 3 t (ix2 0 q) = bia4 V c (ix2 0 q) := by
  show V c (Pipeline.arrRef spec4 3) (((cfg4.win 3).blk t).view.emb (ix2 0 q)) = _
  refine congrArg _ ?_
  funext a; apply Fin.ext
  obtain ⟨-, -, -, -, -, -, e6, e7, -⟩ := idx4 t
  match a with
  | ⟨0, _⟩ => show win4_3.index t (0 : Fin 2) * 1 + 1 * 0 = 0; omega
  | ⟨1, _⟩ => show win4_3.index t (1 : Fin 2) * 128 + 1 * q.val = q.val; omega
theorem iblk4_4_apply (c : Dev nD) (t : Fin cfg4.N) :
    iblk4 V c 4 t (ix2 0 0) = tap4 V c (ix2 0 0) := by
  show V c (Pipeline.arrRef spec4 4) (((cfg4.win 4).blk t).view.emb (ix2 0 0)) = _
  refine congrArg _ ?_
  funext a; apply Fin.ext
  obtain ⟨-, -, -, -, -, -, -, -, e8, e9, -⟩ := idx4 t
  match a with
  | ⟨0, _⟩ => show win4_4.index t (0 : Fin 2) * 1 + 1 * 0 = 0; omega
  | ⟨1, _⟩ => show win4_4.index t (1 : Fin 2) * 1 + 1 * 0 = 0; omega

/-- The signal's 2048 rows the point loads, read at an entry. -/
theorem slice4_apply (t : Fin cfg4.N) (x1 : Vec Ideal S8192x128 .bf16) (l : Fin 2048) (q : Fin 128) :
    View.ld x1 (slice4 (grid4.coords t)) (ix2 l q) = x1 (ix2 ⟨t.val % 4 * 2048 + l.val, col4_lt t.val l⟩ q) := by
  show x1 ((slice4 (grid4.coords t)).emb (ix2 l q)) = _
  refine congrArg _ ?_
  funext a; apply Fin.ext
  obtain ⟨-, -, -, -, -, -, -, -, -, -, -, -, -, -, e14, e15⟩ := idx4 t
  match a with
  | ⟨0, _⟩ => show k4_off1 (grid4.coords t) (0 : Fin 2) + 1 * l.val = t.val % 4 * 2048 + l.val; omega
  | ⟨1, _⟩ => show k4_off1 (grid4.coords t) (1 : Fin 2) + 1 * q.val = q.val; omega

/-- The reset's payload is zero. -/
theorem zeropay4_apply (j : S1024x128.Idx) : k4_pay1 (F := Ideal) j = 0 := by
  unfold k4_pay1
  rw [shapeCast_self]
  exact Ideal.ofBits_zero_f32

/-- The accumulate step at an entry: what was there plus the tile's product. -/
theorem accpay4_apply (x1s : Vec Ideal S2048x128 .bf16) (xs : Vec Ideal S1024x128 .f32) (x0 : Vec Ideal S1024x2048 .bf16)
    (p : Fin 1024) (q : Fin 128) :
    k4_pay2 x1s xs x0 (ix2 p q) = xs (ix2 p q) + ∑ l : Fin 2048, x0 (ix2 p l) * x1s (ix2 l q) := by
  unfold k4_pay2
  simp only [shapeCast_self]
  show xs (ix2 p q) + _ = xs (ix2 p q) + _
  refine congrArg (xs (ix2 p q) + ·) ?_
  refine (Ideal.matmul_constant_zero_apply (φ₁ := .bf16) (φ₂ := .bf16) _ none x0 x1s (ix2 p q)).trans ?_
  exact Cert.LibPlainDot.sum_plain dot_S1024x2048_S2048x128_S1024x128_1_0_0_1_n_n rfl rfl rfl rfl rfl rfl x0 x1s p q

/-- The epilogue at an entry. -/
theorem epipay4_apply (v19 : Vec Ideal S1024x128 .f32) (v22 : Vec Ideal S1x1 .f32) (v24 : Vec Ideal S1024x128 .f32)
    (p : Fin 1024) (q : Fin 128) :
    k4_pay4 v19 v22 v24 (ix2 p q) = v24 (ix2 p q) + v22 (ix2 0 0) * v19 (ix2 p q) := by
  unfold k4_pay4
  simp only [shapeCast_self]
  show v24 (ix2 p q) + (broadcastTo S1024x128 v22 broadcasts_S1x1_S1024x128) (ix2 p q) * v19 (ix2 p q) = _
  rw [broadcastTo_apply v22 _ (ix2 p q) (ix2 0 0) (fun a => by match a with | ⟨0, _⟩ => rfl | ⟨1, _⟩ => rfl)]
  all_goals rfl

/-- One column tile's product at a row of the array and a column. -/
def tile4 (c : Dev nD) (r : Fin 8192) (o : ℕ) (ho : o + 2048 ≤ 8192) (q : Fin 128) : EReal :=
  ∑ l : Fin 2048, mtx4 V c (ix2 r ⟨o + l.val, by have := l.isLt; omega⟩) * sgn4 V c (ix2 ⟨o + l.val, by have := l.isLt; omega⟩ q)

/-- The product the body forms at point t is the tile's: row 1024·(t/4) + p, columns from 2048·(t%4). -/
theorem pointprod4 (c : Dev nD) (t : Fin cfg4.N) (x0 : Vec Ideal S1024x2048 .bf16) (x1 : Vec Ideal S8192x128 .bf16)
    (h0 : ∀ (p : Fin 1024) (l : Fin 2048), x0 (ix2 p l) = mtx4 V c (ix2 ⟨t.val / 4 * 1024 + p.val, row4_lt t.val t.isLt p⟩ ⟨t.val % 4 * 2048 + l.val, col4_lt t.val l⟩))
    (h1 : ∀ (j : Fin 8192) (q : Fin 128), x1 (ix2 j q) = sgn4 V c (ix2 j q)) (p : Fin 1024) (q : Fin 128)
    (r : Fin 8192) (hr : r.val = t.val / 4 * 1024 + p.val) (o : ℕ) (ho' : o = t.val % 4 * 2048) (ho : o + 2048 ≤ 8192) :
    (∑ l : Fin 2048, x0 (ix2 p l) * View.ld x1 (slice4 (grid4.coords t)) (ix2 l q))
      = tile4 V c r o ho q := by
  subst ho'
  obtain rfl : r = ⟨t.val / 4 * 1024 + p.val, row4_lt t.val t.isLt p⟩ := Fin.ext hr
  unfold tile4
  exact Finset.sum_congr rfl fun l _ => by rw [h0, slice4_apply, h1]

/-- After a point at the first column tile the accumulator holds zero plus the tile's product. -/
theorem acc4_first (c : Dev nD) (n : ℕ) (hn : n < cfg4.N) (h : n % 4 = 0) (p : Fin 1024) (q : Fin 128)
    (r : Fin 8192) (hr : r.val = n / 4 * 1024 + p.val) (o : ℕ) (ho' : o = n % 4 * 2048) (ho : o + 2048 ≤ 8192) :
    (outsAt4 V c n hn).2.2 (ix2 p q) = 0 + tile4 V c r o ho q := by
  have e : outsAt4 V c n hn = _ := outsAt4_A V c ⟨n, hn⟩ h (by show ¬ n % 4 = 3; omega)
  rw [e]
  dsimp only
  rw [sout4_A_0_eq, accpay4_apply, zeropay4_apply, pointprod4 V c ⟨n, hn⟩ _ _ (iblk4_0_apply V c ⟨n, hn⟩) (iblk4_1_apply V c ⟨n, hn⟩) p q r hr o ho' ho]

/-- After any later point it holds what the point before left plus the tile's product. -/
theorem acc4_next (c : Dev nD) (n : ℕ) (hn : n < cfg4.N) (h : n % 4 ≠ 0) (p : Fin 1024) (q : Fin 128)
    (r : Fin 8192) (hr : r.val = n / 4 * 1024 + p.val) (o : ℕ) (ho' : o = n % 4 * 2048) (ho : o + 2048 ≤ 8192) :
    (outsAt4 V c n hn).2.2 (ix2 p q) = (outsAt4 V c (n - 1) (by omega)).2.2 (ix2 p q) + tile4 V c r o ho q := by
  by_cases h1 : n % 4 = 3
  · have e : outsAt4 V c n hn = _ := outsAt4_C V c ⟨n, hn⟩ h h1
    rw [e]
    dsimp only
    rw [sout4_C_0_eq, accpay4_apply, pointprod4 V c ⟨n, hn⟩ _ _ (iblk4_0_apply V c ⟨n, hn⟩) (iblk4_1_apply V c ⟨n, hn⟩) p q r hr o ho' ho]
  · have e : outsAt4 V c n hn = _ := outsAt4_B V c ⟨n, hn⟩ h h1
    rw [e]
    dsimp only
    rw [sout4_B_0_eq, accpay4_apply, pointprod4 V c ⟨n, hn⟩ _ _ (iblk4_0_apply V c ⟨n, hn⟩) (iblk4_1_apply V c ⟨n, hn⟩) p q r hr o ho' ho]

/-- After the last column tile the accumulator holds the whole product at the tile's rows. -/
theorem acc4_last (c : Dev nD) (n : ℕ) (hn : n < cfg4.N) (h : n % 4 = 3) (p : Fin 1024) (q : Fin 128) :
    (outsAt4 V c n hn).2.2 (ix2 p q)
      = Cert.Spec.prod (mtx4 V c) (sgn4 V c) (ix2 ⟨n / 4 * 1024 + p.val, row4_lt n hn p⟩ q) := by
  rw [acc4_next V c n hn (by omega) p q ⟨n / 4 * 1024 + p.val, row4_lt n hn p⟩ rfl 6144 (by omega) (by omega),
    acc4_next V c (n - 1) (by omega) (by omega) p q ⟨n / 4 * 1024 + p.val, row4_lt n hn p⟩ (by show n / 4 * 1024 + p.val = (n - 1) / 4 * 1024 + p.val; omega) 4096 (by omega) (by omega),
    acc4_next V c (n - 1 - 1) (by omega) (by omega) p q ⟨n / 4 * 1024 + p.val, row4_lt n hn p⟩ (by show n / 4 * 1024 + p.val = (n - 1 - 1) / 4 * 1024 + p.val; omega) 2048 (by omega) (by omega),
    acc4_first V c (n - 1 - 1 - 1) (by omega) (by omega) p q ⟨n / 4 * 1024 + p.val, row4_lt n hn p⟩ (by show n / 4 * 1024 + p.val = (n - 1 - 1 - 1) / 4 * 1024 + p.val; omega) 0 (by omega) (by omega)]
  unfold tile4
  simp only [Nat.zero_add]
  exact Cert.Spec.prod_tiles (mtx4 V c) (sgn4 V c) _ q

end Value

section Arrays
variable (V : (c : Dev nD) → (b : Ref sig .tc) → Buf (Elt Ideal) ((c : Thread nD τ).loc b))

/-- At a point of the last column tile the narrow output's block is the accumulator (rounded), -/
theorem out4_5_acc (c : Dev nD) (t : Fin cfg4.N) (h3 : t.val % 4 = 3) :
    (outsAt4 V c t.val t.isLt).1 = k4_pay3 ((outsAt4 V c t.val t.isLt).2.2) := by
  rw [outsAt4_C V c t (by omega) h3]
  dsimp only
  rw [out4_C_5_eq, sout4_C_0_eq]
/-- and the wide output's block the epilogue of the accumulator. -/
theorem out4_6_acc (c : Dev nD) (t : Fin cfg4.N) (h3 : t.val % 4 = 3) :
    (outsAt4 V c t.val t.isLt).2.1 = k4_pay4 ((outsAt4 V c t.val t.isLt).2.2) (iblk4 V c 4 t) (iblk4 V c 2 t) := by
  rw [outsAt4_C V c t (by omega) h3]
  dsimp only
  rw [out4_C_6_eq, sout4_C_0_eq]

theorem emb4_5 (t : Fin cfg4.N) (p : Fin 1024) (q : Fin 128) :
    ((cfg4.win 5).blk t).view.emb (ix2 p q) = ix2 ⟨t.val / 4 * 1024 + p.val, row4_lt t.val t.isLt p⟩ q := by
  funext a; apply Fin.ext
  obtain ⟨-, -, -, -, -, -, -, -, -, -, e10, e11, -⟩ := idx4 t
  match a with
  | ⟨0, _⟩ => show win4_5.index t (0 : Fin 2) * 1024 + 1 * p.val = t.val / 4 * 1024 + p.val; omega
  | ⟨1, _⟩ => show win4_5.index t (1 : Fin 2) * 128 + 1 * q.val = q.val; omega
theorem emb4_6 (t : Fin cfg4.N) (p : Fin 1024) (q : Fin 128) :
    ((cfg4.win 6).blk t).view.emb (ix2 p q) = ix2 ⟨t.val / 4 * 1024 + p.val, row4_lt t.val t.isLt p⟩ q := by
  funext a; apply Fin.ext
  obtain ⟨-, -, -, -, -, -, -, -, -, -, -, -, e12, e13, -⟩ := idx4 t
  match a with
  | ⟨0, _⟩ => show win4_6.index t (0 : Fin 2) * 1024 + 1 * p.val = t.val / 4 * 1024 + p.val; omega
  | ⟨1, _⟩ => show win4_6.index t (1 : Fin 2) * 128 + 1 * q.val = q.val; omega

/-- What a point of the last column tile writes back into the narrow output is its block of the product. -/
theorem flushed4_5 (c : Dev nD) (t : Fin cfg4.N) (hf : (cfg4.win 5).flush t = true) :
    (dat4 (F := Ideal) V c).flushed 5 t = ((cfg4.win 5).blk t).view.read (Elt Ideal) (Cert.Spec.propSx (mtx4 V c) (sgn4 V c)) := by
  have h3 : t.val % 4 = 3 := (flush4_5 t).mp hf
  show (cfg4.win 5).cut (grid4.coords t) ((dat4 V c).after 5 t) = _
  rw [after4_5, out4_5_acc V c t h3]
  funext j
  obtain ⟨p, q, rfl⟩ : ∃ (p : Fin 1024) (q : Fin 128), j = ix2 p q := ⟨j 0, j 1, eq_ix2 j⟩
  show (outsAt4 V c t.val t.isLt).2.2 (ix2 p q) = Cert.Spec.prod (mtx4 V c) (sgn4 V c) (((cfg4.win 5).blk t).view.emb (ix2 p q))
  rw [emb4_5, acc4_last V c t.val t.isLt h3 p q]

/-- What it writes back into the wide output is its block of the updated running output. -/
theorem flushed4_6 (c : Dev nD) (t : Fin cfg4.N) (hf : (cfg4.win 6).flush t = true) :
    (dat4 (F := Ideal) V c).flushed 6 t = ((cfg4.win 6).blk t).view.read (Elt Ideal)
      (Cert.Spec.propOut (mtx4 V c) (sgn4 V c) (run4 V c) (tap4 V c)) := by
  have h3 : t.val % 4 = 3 := (flush4_6 t).mp hf
  show (cfg4.win 6).cut (grid4.coords t) ((dat4 V c).after 6 t) = _
  rw [after4_6, out4_6_acc V c t h3]
  funext j
  obtain ⟨p, q, rfl⟩ : ∃ (p : Fin 1024) (q : Fin 128), j = ix2 p q := ⟨j 0, j 1, eq_ix2 j⟩
  show k4_pay4 ((outsAt4 V c t.val t.isLt).2.2) (iblk4 V c 4 t) (iblk4 V c 2 t) (ix2 p q)
    = Cert.Spec.propOut (mtx4 V c) (sgn4 V c) (run4 V c) (tap4 V c) (((cfg4.win 6).blk t).view.emb (ix2 p q))
  rw [emb4_6, epipay4_apply, acc4_last V c t.val t.isLt h3 p q, iblk4_2_apply, iblk4_4_apply]
  rfl

theorem mem_blk4_5 (t : Fin cfg4.N) (i : S8192x128.Idx) :
    i ∈ ((cfg4.win 5).blk t).view.set ↔ ∀ a : Fin 2, win4_5.index t a * S1024x128.size a ≤ (i a).val ∧ (i a).val < win4_5.index t a * S1024x128.size a + S1024x128.size a := by
  show i ∈ ((View.whole main_v18_0).slice (win4_5.rect t)).set ↔ _
  rw [View.set_slice_whole, Rect.mem_set_unit]
  exact Iff.rfl
theorem mem_blk4_6 (t : Fin cfg4.N) (i : S8192x128.Idx) :
    i ∈ ((cfg4.win 6).blk t).view.set ↔ ∀ a : Fin 2, win4_6.index t a * S1024x128.size a ≤ (i a).val ∧ (i a).val < win4_6.index t a * S1024x128.size a + S1024x128.size a := by
  show i ∈ ((View.whole main_v18_1).slice (win4_6.rect t)).set ↔ _
  rw [View.set_slice_whole, Rect.mem_set_unit]
  exact Iff.rfl

/-- Row r is written back by the last column tile's point of row tile r / 1024. -/
theorem covered4_5 (i : S8192x128.Idx) : ∃ t : Fin cfg4.N, (cfg4.win 5).flush t = true ∧ i ∈ ((cfg4.win 5).blk t).view.set := by
  have hi0 : (i 0).val < 8192 := (i 0).isLt
  have hi1 : (i 1).val < 128 := (i 1).isLt
  have hN : cfg4.N = 32 := N_4
  refine ⟨⟨(i 0).val / 1024 * 4 + 3, by omega⟩, (flush4_5 _).mpr (by show ((i 0).val / 1024 * 4 + 3) % 4 = 3; omega), ?_⟩
  rw [mem_blk4_5]
  obtain ⟨-, -, -, -, -, -, -, -, -, -, e10, e11, -⟩ := idx4 ⟨(i 0).val / 1024 * 4 + 3, by omega⟩
  intro a
  match a with
  | ⟨0, _⟩ =>
    show win4_5.index _ (0 : Fin 2) * 1024 ≤ (i 0).val ∧ (i 0).val < win4_5.index _ (0 : Fin 2) * 1024 + 1024
    rw [e10]; show ((i 0).val / 1024 * 4 + 3) / 4 * 1024 ≤ (i 0).val ∧ (i 0).val < ((i 0).val / 1024 * 4 + 3) / 4 * 1024 + 1024; omega
  | ⟨1, _⟩ =>
    show win4_5.index _ (1 : Fin 2) * 128 ≤ (i 1).val ∧ (i 1).val < win4_5.index _ (1 : Fin 2) * 128 + 128
    rw [e11]; omega
theorem covered4_6 (i : S8192x128.Idx) : ∃ t : Fin cfg4.N, (cfg4.win 6).flush t = true ∧ i ∈ ((cfg4.win 6).blk t).view.set := by
  have hi0 : (i 0).val < 8192 := (i 0).isLt
  have hi1 : (i 1).val < 128 := (i 1).isLt
  have hN : cfg4.N = 32 := N_4
  refine ⟨⟨(i 0).val / 1024 * 4 + 3, by omega⟩, (flush4_6 _).mpr (by show ((i 0).val / 1024 * 4 + 3) % 4 = 3; omega), ?_⟩
  rw [mem_blk4_6]
  obtain ⟨-, -, -, -, -, -, -, -, -, -, -, -, e12, e13, -⟩ := idx4 ⟨(i 0).val / 1024 * 4 + 3, by omega⟩
  intro a
  match a with
  | ⟨0, _⟩ =>
    show win4_6.index _ (0 : Fin 2) * 1024 ≤ (i 0).val ∧ (i 0).val < win4_6.index _ (0 : Fin 2) * 1024 + 1024
    rw [e12]; show ((i 0).val / 1024 * 4 + 3) / 4 * 1024 ≤ (i 0).val ∧ (i 0).val < ((i 0).val / 1024 * 4 + 3) / 4 * 1024 + 1024; omega
  | ⟨1, _⟩ =>
    show win4_6.index _ (1 : Fin 2) * 128 ≤ (i 1).val ∧ (i 1).val < win4_6.index _ (1 : Fin 2) * 128 + 128
    rw [e13]; omega

/-- The narrow output array after the region: the matrix times the propagated signal. -/
theorem value4_5 (c : Dev nD) :
    (dat4 (F := Ideal) V c).arrAt 5 cfg4.N = Cert.Spec.propSx (mtx4 V c) (sgn4 V c) :=
  (dat4 V c).arrAt_eq_of_cover 5 _ (fun t hf => flushed4_5 V c t hf) (covered4_5)
/-- The wide output array after the region: the running output updated by the tap times that product. -/
theorem value4_6 (c : Dev nD) :
    (dat4 (F := Ideal) V c).arrAt 6 cfg4.N
      = Cert.Spec.propOut (mtx4 V c) (sgn4 V c) (run4 V c) (tap4 V c) :=
  (dat4 V c).arrAt_eq_of_cover 6 _ (fun t hf => flushed4_6 V c t hf) (covered4_6)

end Arrays

end Cert.KernelIdeal.Hand

end
-- ==== Proof.KI.Prop5Value.lean ====
/-
  What the propagation call number 5 leaves in its two output arrays, over the extended reals. A grid point
  t = 4·i + k handles the 1024 rows of tile i against the 2048 columns of tile k. The accumulator after the point
  holds, at row p and column q of the tile, the sum over the column tiles 0..k of the tile's product
  ∑ l, S(1024·i + p, 2048·k' + l) · Sx(2048·k' + l, q), starting from zero at k = 0. At k = 3 that is the whole
  product (S·Sx) at row 1024·i + p; the narrow output stores it, the wide one stores the running output plus the
  tap times it, plus the bias row, rectified. Each output block is written back at k = 3 only, and the eight
  blocks cover the 8192 rows.
-/
import proofs.«131271_j4982162063661_2_alg».proof.Proof.KI.Prop5
import proofs.«131271_j4982162063661_2_alg».proof.Proof.SpecRegions
import proofs.«131271_j4982162063661_2_alg».proof.Proof.Spec
import proofs.«131271_j4982162063661_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.Tactic
open Idealize.SL Idealize.SL.Sem
open Idealize.ShloMosaic.Pipeline (Dat Cfg Window)

theorem zero2_5 : (![0, 0] : Fin 2 → Nat) = fun _ => 0 := funext fun a => by fin_cases a <;> rfl

section Pieces
variable {F : FTy → Type} [FloatOps F]

/-- The 2048 rows of the propagated signal the point's column tile meets. -/
abbrev slice5 (i : grid5.Coords) : Rect S8192x128 := Rect.unit (s := S8192x128) (k5_off1 i) S2048x128.size (k5_off1_inb i)

/-- At the first column tile the accumulator ends at the tile's product added to the zero just stored. -/
theorem sout5_A_0_eq (c : Dev nD) (i : grid5.Coords) (arg2 : Memref sig .tc .vmem S1024x2048 .bf16) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .f32) (harg9 : arg9.IsWhole) (hc0 : cond5_0 i) (hc1 : ¬cond5_1 i) (x0 : Vec F S1024x2048 .bf16) (x1 : Vec F S8192x128 .bf16) (x2 : Vec F S1024x128 .f32) (x3 : Vec F S1x128 .f32) (x4 : Vec F S1x1 .f32) :
    sout5_A_0 c i arg2 harg2 arg3 harg3 arg4 harg4 arg5 harg5 arg6 harg6 arg7 harg7 arg8 harg8 arg9 harg9 hc0 hc1 x0 x1 x2 x3 x4 = k5_pay2 (View.ld x1 (slice5 i)) (k5_pay1 (F := F)) x0 := by
  unfold sout5_A_0
  rw [View.read_writes_eq_canon _ _ _ (scover5_A_0 c i arg2 harg2 arg3 harg3 arg4 harg4 arg5 harg5 arg6 harg6 arg7 harg7 arg8 harg8 arg9 harg9 hc0 hc1 x0 x1 x2 x3 x4)]
  unfold kernelRun5_A
  dsimp only
  sl_unfold_run_names
  rw [View.canon_cons_unit_zero zero2_5]
  simp only [View.readAt_eq_ld, harg2.read_unread, harg3.read_unread, View.ld_unit_zero (S := S1024x2048) zero2_5,
    View.readCov_unit_zero (S := S1024x128) arg9.view zero2_5]
  all_goals rfl

/-- At a middle column tile the accumulator ends at the tile's product added to what it held. -/
theorem sout5_B_0_eq (c : Dev nD) (i : grid5.Coords) (arg2 : Memref sig .tc .vmem S1024x2048 .bf16) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .f32) (harg9 : arg9.IsWhole) (hc0 : ¬cond5_0 i) (hc1 : ¬cond5_1 i) (x0 : Vec F S1024x2048 .bf16) (x1 : Vec F S8192x128 .bf16) (x2 : Vec F S1024x128 .f32) (x3 : Vec F S1x128 .f32) (x4 : Vec F S1x1 .f32) (xs0 : Vec F S1024x128 .f32) :
    sout5_B_0 c i arg2 harg2 arg3 harg3 arg4 harg4 arg5 harg5 arg6 harg6 arg7 harg7 arg8 harg8 arg9 harg9 hc0 hc1 x0 x1 x2 x3 x4 xs0 = k5_pay2 (View.ld x1 (slice5 i)) xs0 x0 := by
  unfold sout5_B_0
  rw [View.read_writes_eq_canon _ _ _ (scover5_B_0 c i arg2 harg2 arg3 harg3 arg4 harg4 arg5 harg5 arg6 harg6 arg7 harg7 arg8 harg8 arg9 harg9 hc0 hc1 x0 x1 x2 x3 x4 xs0)]
  unfold kernelRun5_B
  dsimp only
  sl_unfold_run_names
  rw [View.canon_cons_unit_zero zero2_5]
  simp only [View.readAt_eq_ld, harg2.read_unread, harg3.read_unread, harg9.read_unread, View.ld_unit_zero (S := S1024x2048) zero2_5,
    View.ld_unit_zero (S := S1024x128) zero2_5]
  all_goals rfl

/-- At the last column tile the same, -/
theorem sout5_C_0_eq (c : Dev nD) (i : grid5.Coords) (arg2 : Memref sig .tc .vmem S1024x2048 .bf16) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .f32) (harg9 : arg9.IsWhole) (hc0 : ¬cond5_0 i) (hc1 : cond5_1 i) (x0 : Vec F S1024x2048 .bf16) (x1 : Vec F S8192x128 .bf16) (x2 : Vec F S1024x128 .f32) (x3 : Vec F S1x128 .f32) (x4 : Vec F S1x1 .f32) (xs0 : Vec F S1024x128 .f32) :
    sout5_C_0 c i arg2 harg2 arg3 harg3 arg4 harg4 arg5 harg5 arg6 harg6 arg7 harg7 arg8 harg8 arg9 harg9 hc0 hc1 x0 x1 x2 x3 x4 xs0 = k5_pay2 (View.ld x1 (slice5 i)) xs0 x0 := by
  unfold sout5_C_0
  rw [View.read_writes_eq_canon _ _ _ (scover5_C_0 c i arg2 harg2 arg3 harg3 arg4 harg4 arg5 harg5 arg6 harg6 arg7 harg7 arg8 harg8 arg9 harg9 hc0 hc1 x0 x1 x2 x3 x4 xs0)]
  unfold kernelRun5_C
  dsimp only
  sl_unfold_run_names
  rw [View.canon_cons_unit_zero zero2_5]
  simp only [View.readAt_eq_ld, harg2.read_unread, harg3.read_unread, harg9.read_unread, View.ld_unit_zero (S := S1024x2048) zero2_5,
    View.ld_unit_zero (S := S1024x128) zero2_5]
  all_goals rfl

/-- and the narrow output's block is the accumulator rounded, -/
theorem out5_C_5_eq (c : Dev nD) (i : grid5.Coords) (arg2 : Memref sig .tc .vmem S1024x2048 .bf16) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .f32) (harg9 : arg9.IsWhole) (hc0 : ¬cond5_0 i) (hc1 : cond5_1 i) (x0 : Vec F S1024x2048 .bf16) (x1 : Vec F S8192x128 .bf16) (x2 : Vec F S1024x128 .f32) (x3 : Vec F S1x128 .f32) (x4 : Vec F S1x1 .f32) (xs0 : Vec F S1024x128 .f32) :
    out5_C_5 c i arg2 harg2 arg3 harg3 arg4 harg4 arg5 harg5 arg6 harg6 arg7 harg7 arg8 harg8 arg9 harg9 hc0 hc1 x0 x1 x2 x3 x4 xs0 = k5_pay3 (k5_pay2 (View.ld x1 (slice5 i)) xs0 x0) := by
  unfold out5_C_5
  rw [View.read_writes_eq_canon _ _ _ (cover5_C_5 c i arg2 harg2 arg3 harg3 arg4 harg4 arg5 harg5 arg6 harg6 arg7 harg7 arg8 harg8 arg9 harg9 hc0 hc1 x0 x1 x2 x3 x4 xs0)]
  unfold kernelRun5_C
  dsimp only
  sl_unfold_run_names
  rw [View.canon_cons_unit_zero zero2_5]
  simp only [View.readAt_eq_ld, harg2.read_unread, harg3.read_unread, harg9.read_unread, View.ld_unit_zero (S := S1024x2048) zero2_5,
    View.ld_unit_zero (S := S1024x128) zero2_5, View.readCov_unit_zero (S := S1024x128) arg9.view zero2_5]
  all_goals rfl

/-- the wide output's block the epilogue of the accumulator, the tap, the running output and the bias row. -/
theorem out5_C_6_eq (c : Dev nD) (i : grid5.Coords) (arg2 : Memref sig .tc .vmem S1024x2048 .bf16) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .f32) (harg9 : arg9.IsWhole) (hc0 : ¬cond5_0 i) (hc1 : cond5_1 i) (x0 : Vec F S1024x2048 .bf16) (x1 : Vec F S8192x128 .bf16) (x2 : Vec F S1024x128 .f32) (x3 : Vec F S1x128 .f32) (x4 : Vec F S1x1 .f32) (xs0 : Vec F S1024x128 .f32) :
    out5_C_6 c i arg2 harg2 arg3 harg3 arg4 harg4 arg5 harg5 arg6 harg6 arg7 harg7 arg8 harg8 arg9 harg9 hc0 hc1 x0 x1 x2 x3 x4 xs0 = k5_pay4 (k5_pay2 (View.ld x1 (slice5 i)) xs0 x0) x4 x2 x3 := by
  unfold out5_C_6
  rw [View.read_writes_eq_canon _ _ _ (cover5_C_6 c i arg2 harg2 arg3 harg3 arg4 harg4 arg5 harg5 arg6 harg6 arg7 harg7 arg8 harg8 arg9 harg9 hc0 hc1 x0 x1 x2 x3 x4 xs0)]
  unfold kernelRun5_C
  dsimp only
  sl_unfold_run_names
  rw [View.canon_cons_unit_zero zero2_5]
  simp only [View.readAt_eq_ld, harg2.read_unread, harg3.read_unread, harg4.read_unread, harg5.read_unread, harg6.read_unread, harg9.read_unread,
    View.ld_unit_zero (S := S1024x2048) zero2_5, View.ld_unit_zero (S := S1024x128) zero2_5, View.ld_unit_zero (S := S1x1) zero2_5,
    View.ld_unit_zero (S := S1x128) zero2_5, View.readCov_unit_zero (S := S1024x128) arg9.view zero2_5]
  all_goals rfl

end Pieces

section Value
variable (V : (c : Dev nD) → (b : Ref sig .tc) → Buf (Elt Ideal) ((c : Thread nD τ).loc b))

/-- The region's five input arrays as it finds them: the matrix, the propagated signal, the running output, the
    bias row, the tap. -/
abbrev mtx5 (c : Dev nD) : Cert.Spec.Mat 8192 8192 := V c (Pipeline.arrRef spec5 0)
abbrev sgn5 (c : Dev nD) : Cert.Spec.Mat 8192 128 := V c (Pipeline.arrRef spec5 1)
abbrev run5 (c : Dev nD) : Cert.Spec.Mat 8192 128 := V c (Pipeline.arrRef spec5 2)
abbrev bia5 (c : Dev nD) : Cert.Spec.Mat 1 128 := V c (Pipeline.arrRef spec5 3)
abbrev tap5 (c : Dev nD) : Cert.Spec.Mat 1 1 := V c (Pipeline.arrRef spec5 4)

/-- The block index maps and the signal's row offset, decided over the 32 points: row tile t / 4, column tile t % 4. -/
theorem idx5 : ∀ t : Fin cfg5.N,
    win5_0.index t (0 : Fin 2) = t.val / 4 ∧ win5_0.index t (1 : Fin 2) = t.val % 4
    ∧ win5_1.index t (0 : Fin 2) = 0 ∧ win5_1.index t (1 : Fin 2) = 0
    ∧ win5_2.index t (0 : Fin 2) = t.val / 4 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val / 4 ∧ win5_5.index t (1 : Fin 2) = 0
    ∧ win5_6.index t (0 : Fin 2) = t.val / 4 ∧ win5_6.index t (1 : Fin 2) = 0
    ∧ k5_off1 (grid5.coords t) (0 : Fin 2) = t.val % 4 * 2048 ∧ k5_off1 (grid5.coords t) (1 : Fin 2) = 0 :=
  (by decide +kernel : ∀ t : Fin grid5.N, _)

theorem row5_lt (n : ℕ) (hn : n < cfg5.N) (p : Fin 1024) : n / 4 * 1024 + p.val < 8192 := by
  have hN : cfg5.N = 32 := N_5
  have := p.isLt; omega
theorem col5_lt (n : ℕ) (l : Fin 2048) : n % 4 * 2048 + l.val < 8192 := by have := l.isLt; omega

theorem iblk5_0_apply (c : Dev nD) (t : Fin cfg5.N) (p : Fin 1024) (l : Fin 2048) :
    iblk5 V c 0 t (ix2 p l) = mtx5 V c (ix2 ⟨t.val / 4 * 1024 + p.val, row5_lt t.val t.isLt p⟩ ⟨t.val % 4 * 2048 + l.val, col5_lt t.val l⟩) := by
  show V c (Pipeline.arrRef spec5 0) (((cfg5.win 0).blk t).view.emb (ix2 p l)) = _
  refine congrArg _ ?_
  funext a; apply Fin.ext
  obtain ⟨e0, e1, -⟩ := idx5 t
  match a with
  | ⟨0, _⟩ => show win5_0.index t (0 : Fin 2) * 1024 + 1 * p.val = t.val / 4 * 1024 + p.val; omega
  | ⟨1, _⟩ => show win5_0.index t (1 : Fin 2) * 2048 + 1 * l.val = t.val % 4 * 2048 + l.val; omega
theorem iblk5_1_apply (c : Dev nD) (t : Fin cfg5.N) (j : Fin 8192) (q : Fin 128) :
    iblk5 V c 1 t (ix2 j q) = sgn5 V c (ix2 j q) := by
  show V c (Pipeline.arrRef spec5 1) (((cfg5.win 1).blk t).view.emb (ix2 j q)) = _
  refine congrArg _ ?_
  funext a; apply Fin.ext
  obtain ⟨-, -, e2, e3, -⟩ := idx5 t
  match a with
  | ⟨0, _⟩ => show win5_1.index t (0 : Fin 2) * 8192 + 1 * j.val = j.val; omega
  | ⟨1, _⟩ => show win5_1.index t (1 : Fin 2) * 128 + 1 * q.val = q.val; omega
theorem iblk5_2_apply (c : Dev nD) (t : Fin cfg5.N) (p : Fin 1024) (q : Fin 128) :
    iblk5 V c 2 t (ix2 p q) = run5 V c (ix2 ⟨t.val / 4 * 1024 + p.val, row5_lt t.val t.isLt p⟩ q) := by
  show V c (Pipeline.arrRef spec5 2) (((cfg5.win 2).blk t).view.emb (ix2 p q)) = _
  refine congrArg _ ?_
  funext a; apply Fin.ext
  obtain ⟨-, -, -, -, e4, e5, -⟩ := idx5 t
  match a with
  | ⟨0, _⟩ => show win5_2.index t (0 : Fin 2) * 1024 + 1 * p.val = t.val / 4 * 1024 + p.val; omega
  | ⟨1, _⟩ => show win5_2.index t (1 : Fin 2) * 128 + 1 * q.val = q.val; omega
theorem iblk5_3_apply (c : Dev nD) (t : Fin cfg5.N) (q : Fin 128) :
    iblk5 V c 3 t (ix2 0 q) = bia5 V c (ix2 0 q) := by
  show V c (Pipeline.arrRef spec5 3) (((cfg5.win 3).blk t).view.emb (ix2 0 q)) = _
  refine congrArg _ ?_
  funext a; apply Fin.ext
  obtain ⟨-, -, -, -, -, -, e6, e7, -⟩ := idx5 t
  match a with
  | ⟨0, _⟩ => show win5_3.index t (0 : Fin 2) * 1 + 1 * 0 = 0; omega
  | ⟨1, _⟩ => show win5_3.index t (1 : Fin 2) * 128 + 1 * q.val = q.val; omega
theorem iblk5_4_apply (c : Dev nD) (t : Fin cfg5.N) :
    iblk5 V c 4 t (ix2 0 0) = tap5 V c (ix2 0 0) := by
  show V c (Pipeline.arrRef spec5 4) (((cfg5.win 4).blk t).view.emb (ix2 0 0)) = _
  refine congrArg _ ?_
  funext a; apply Fin.ext
  obtain ⟨-, -, -, -, -, -, -, -, e8, e9, -⟩ := idx5 t
  match a with
  | ⟨0, _⟩ => show win5_4.index t (0 : Fin 2) * 1 + 1 * 0 = 0; omega
  | ⟨1, _⟩ => show win5_4.index t (1 : Fin 2) * 1 + 1 * 0 = 0; omega

/-- The signal's 2048 rows the point loads, read at an entry. -/
theorem slice5_apply (t : Fin cfg5.N) (x1 : Vec Ideal S8192x128 .bf16) (l : Fin 2048) (q : Fin 128) :
    View.ld x1 (slice5 (grid5.coords t)) (ix2 l q) = x1 (ix2 ⟨t.val % 4 * 2048 + l.val, col5_lt t.val l⟩ q) := by
  show x1 ((slice5 (grid5.coords t)).emb (ix2 l q)) = _
  refine congrArg _ ?_
  funext a; apply Fin.ext
  obtain ⟨-, -, -, -, -, -, -, -, -, -, -, -, -, -, e14, e15⟩ := idx5 t
  match a with
  | ⟨0, _⟩ => show k5_off1 (grid5.coords t) (0 : Fin 2) + 1 * l.val = t.val % 4 * 2048 + l.val; omega
  | ⟨1, _⟩ => show k5_off1 (grid5.coords t) (1 : Fin 2) + 1 * q.val = q.val; omega

/-- The reset's payload is zero. -/
theorem zeropay5_apply (j : S1024x128.Idx) : k5_pay1 (F := Ideal) j = 0 := by
  unfold k5_pay1
  rw [shapeCast_self]
  exact Ideal.ofBits_zero_f32

/-- The accumulate step at an entry: what was there plus the tile's product. -/
theorem accpay5_apply (x1s : Vec Ideal S2048x128 .bf16) (xs : Vec Ideal S1024x128 .f32) (x0 : Vec Ideal S1024x2048 .bf16)
    (p : Fin 1024) (q : Fin 128) :
    k5_pay2 x1s xs x0 (ix2 p q) = xs (ix2 p q) + ∑ l : Fin 2048, x0 (ix2 p l) * x1s (ix2 l q) := by
  unfold k5_pay2
  simp only [shapeCast_self]
  show xs (ix2 p q) + _ = xs (ix2 p q) + _
  refine congrArg (xs (ix2 p q) + ·) ?_
  refine (Ideal.matmul_constant_zero_apply (φ₁ := .bf16) (φ₂ := .bf16) _ none x0 x1s (ix2 p q)).trans ?_
  exact Cert.LibPlainDot.sum_plain dot_S1024x2048_S2048x128_S1024x128_1_0_0_1_n_n rfl rfl rfl rfl rfl rfl x0 x1s p q

/-- The epilogue at an entry. -/
theorem epipay5_apply (v19 : Vec Ideal S1024x128 .f32) (v22 : Vec Ideal S1x1 .f32) (v24 : Vec Ideal S1024x128 .f32) (v29 : Vec Ideal S1x128 .f32)
    (p : Fin 1024) (q : Fin 128) :
    k5_pay4 v19 v22 v24 v29 (ix2 p q) = max ((v24 (ix2 p q) + v22 (ix2 0 0) * v19 (ix2 p q)) + v29 (ix2 0 q)) Cert.Spec.zeroWord := by
  unfold k5_pay4
  simp only [shapeCast_self]
  show max ((v24 (ix2 p q) + (broadcastTo S1024x128 v22 broadcasts_S1x1_S1024x128) (ix2 p q) * v19 (ix2 p q)) + (broadcastTo S1024x128 v29 broadcasts_S1x128_S1024x128) (ix2 p q)) _ = _
  rw [broadcastTo_apply v22 _ (ix2 p q) (ix2 0 0) (fun a => by match a with | ⟨0, _⟩ => rfl | ⟨1, _⟩ => rfl),
    broadcastTo_apply v29 _ (ix2 p q) (ix2 0 q) (fun a => by match a with | ⟨0, _⟩ => rfl | ⟨1, _⟩ => rfl)]
  all_goals rfl

/-- One column tile's product at a row of the array and a column. -/
def tile5 (c : Dev nD) (r : Fin 8192) (o : ℕ) (ho : o + 2048 ≤ 8192) (q : Fin 128) : EReal :=
  ∑ l : Fin 2048, mtx5 V c (ix2 r ⟨o + l.val, by have := l.isLt; omega⟩) * sgn5 V c (ix2 ⟨o + l.val, by have := l.isLt; omega⟩ q)

/-- The product the body forms at point t is the tile's: row 1024·(t/4) + p, columns from 2048·(t%4). -/
theorem pointprod5 (c : Dev nD) (t : Fin cfg5.N) (x0 : Vec Ideal S1024x2048 .bf16) (x1 : Vec Ideal S8192x128 .bf16)
    (h0 : ∀ (p : Fin 1024) (l : Fin 2048), x0 (ix2 p l) = mtx5 V c (ix2 ⟨t.val / 4 * 1024 + p.val, row5_lt t.val t.isLt p⟩ ⟨t.val % 4 * 2048 + l.val, col5_lt t.val l⟩))
    (h1 : ∀ (j : Fin 8192) (q : Fin 128), x1 (ix2 j q) = sgn5 V c (ix2 j q)) (p : Fin 1024) (q : Fin 128)
    (r : Fin 8192) (hr : r.val = t.val / 4 * 1024 + p.val) (o : ℕ) (ho' : o = t.val % 4 * 2048) (ho : o + 2048 ≤ 8192) :
    (∑ l : Fin 2048, x0 (ix2 p l) * View.ld x1 (slice5 (grid5.coords t)) (ix2 l q))
      = tile5 V c r o ho q := by
  subst ho'
  obtain rfl : r = ⟨t.val / 4 * 1024 + p.val, row5_lt t.val t.isLt p⟩ := Fin.ext hr
  unfold tile5
  exact Finset.sum_congr rfl fun l _ => by rw [h0, slice5_apply, h1]

/-- After a point at the first column tile the accumulator holds zero plus the tile's product. -/
theorem acc5_first (c : Dev nD) (n : ℕ) (hn : n < cfg5.N) (h : n % 4 = 0) (p : Fin 1024) (q : Fin 128)
    (r : Fin 8192) (hr : r.val = n / 4 * 1024 + p.val) (o : ℕ) (ho' : o = n % 4 * 2048) (ho : o + 2048 ≤ 8192) :
    (outsAt5 V c n hn).2.2 (ix2 p q) = 0 + tile5 V c r o ho q := by
  have e : outsAt5 V c n hn = _ := outsAt5_A V c ⟨n, hn⟩ h (by show ¬ n % 4 = 3; omega)
  rw [e]
  dsimp only
  rw [sout5_A_0_eq, accpay5_apply, zeropay5_apply, pointprod5 V c ⟨n, hn⟩ _ _ (iblk5_0_apply V c ⟨n, hn⟩) (iblk5_1_apply V c ⟨n, hn⟩) p q r hr o ho' ho]

/-- After any later point it holds what the point before left plus the tile's product. -/
theorem acc5_next (c : Dev nD) (n : ℕ) (hn : n < cfg5.N) (h : n % 4 ≠ 0) (p : Fin 1024) (q : Fin 128)
    (r : Fin 8192) (hr : r.val = n / 4 * 1024 + p.val) (o : ℕ) (ho' : o = n % 4 * 2048) (ho : o + 2048 ≤ 8192) :
    (outsAt5 V c n hn).2.2 (ix2 p q) = (outsAt5 V c (n - 1) (by omega)).2.2 (ix2 p q) + tile5 V c r o ho q := by
  by_cases h1 : n % 4 = 3
  · have e : outsAt5 V c n hn = _ := outsAt5_C V c ⟨n, hn⟩ h h1
    rw [e]
    dsimp only
    rw [sout5_C_0_eq, accpay5_apply, pointprod5 V c ⟨n, hn⟩ _ _ (iblk5_0_apply V c ⟨n, hn⟩) (iblk5_1_apply V c ⟨n, hn⟩) p q r hr o ho' ho]
  · have e : outsAt5 V c n hn = _ := outsAt5_B V c ⟨n, hn⟩ h h1
    rw [e]
    dsimp only
    rw [sout5_B_0_eq, accpay5_apply, pointprod5 V c ⟨n, hn⟩ _ _ (iblk5_0_apply V c ⟨n, hn⟩) (iblk5_1_apply V c ⟨n, hn⟩) p q r hr o ho' ho]

/-- After the last column tile the accumulator holds the whole product at the tile's rows. -/
theorem acc5_last (c : Dev nD) (n : ℕ) (hn : n < cfg5.N) (h : n % 4 = 3) (p : Fin 1024) (q : Fin 128) :
    (outsAt5 V c n hn).2.2 (ix2 p q)
      = Cert.Spec.prod (mtx5 V c) (sgn5 V c) (ix2 ⟨n / 4 * 1024 + p.val, row5_lt n hn p⟩ q) := by
  rw [acc5_next V c n hn (by omega) p q ⟨n / 4 * 1024 + p.val, row5_lt n hn p⟩ rfl 6144 (by omega) (by omega),
    acc5_next V c (n - 1) (by omega) (by omega) p q ⟨n / 4 * 1024 + p.val, row5_lt n hn p⟩ (by show n / 4 * 1024 + p.val = (n - 1) / 4 * 1024 + p.val; omega) 4096 (by omega) (by omega),
    acc5_next V c (n - 1 - 1) (by omega) (by omega) p q ⟨n / 4 * 1024 + p.val, row5_lt n hn p⟩ (by show n / 4 * 1024 + p.val = (n - 1 - 1) / 4 * 1024 + p.val; omega) 2048 (by omega) (by omega),
    acc5_first V c (n - 1 - 1 - 1) (by omega) (by omega) p q ⟨n / 4 * 1024 + p.val, row5_lt n hn p⟩ (by show n / 4 * 1024 + p.val = (n - 1 - 1 - 1) / 4 * 1024 + p.val; omega) 0 (by omega) (by omega)]
  unfold tile5
  simp only [Nat.zero_add]
  exact Cert.Spec.prod_tiles (mtx5 V c) (sgn5 V c) _ q

end Value

section Arrays
variable (V : (c : Dev nD) → (b : Ref sig .tc) → Buf (Elt Ideal) ((c : Thread nD τ).loc b))

/-- At a point of the last column tile the narrow output's block is the accumulator (rounded), -/
theorem out5_5_acc (c : Dev nD) (t : Fin cfg5.N) (h3 : t.val % 4 = 3) :
    (outsAt5 V c t.val t.isLt).1 = k5_pay3 ((outsAt5 V c t.val t.isLt).2.2) := by
  rw [outsAt5_C V c t (by omega) h3]
  dsimp only
  rw [out5_C_5_eq, sout5_C_0_eq]
/-- and the wide output's block the epilogue of the accumulator. -/
theorem out5_6_acc (c : Dev nD) (t : Fin cfg5.N) (h3 : t.val % 4 = 3) :
    (outsAt5 V c t.val t.isLt).2.1 = k5_pay4 ((outsAt5 V c t.val t.isLt).2.2) (iblk5 V c 4 t) (iblk5 V c 2 t) (iblk5 V c 3 t) := by
  rw [outsAt5_C V c t (by omega) h3]
  dsimp only
  rw [out5_C_6_eq, sout5_C_0_eq]

theorem emb5_5 (t : Fin cfg5.N) (p : Fin 1024) (q : Fin 128) :
    ((cfg5.win 5).blk t).view.emb (ix2 p q) = ix2 ⟨t.val / 4 * 1024 + p.val, row5_lt t.val t.isLt p⟩ q := by
  funext a; apply Fin.ext
  obtain ⟨-, -, -, -, -, -, -, -, -, -, e10, e11, -⟩ := idx5 t
  match a with
  | ⟨0, _⟩ => show win5_5.index t (0 : Fin 2) * 1024 + 1 * p.val = t.val / 4 * 1024 + p.val; omega
  | ⟨1, _⟩ => show win5_5.index t (1 : Fin 2) * 128 + 1 * q.val = q.val; omega
theorem emb5_6 (t : Fin cfg5.N) (p : Fin 1024) (q : Fin 128) :
    ((cfg5.win 6).blk t).view.emb (ix2 p q) = ix2 ⟨t.val / 4 * 1024 + p.val, row5_lt t.val t.isLt p⟩ q := by
  funext a; apply Fin.ext
  obtain ⟨-, -, -, -, -, -, -, -, -, -, -, -, e12, e13, -⟩ := idx5 t
  match a with
  | ⟨0, _⟩ => show win5_6.index t (0 : Fin 2) * 1024 + 1 * p.val = t.val / 4 * 1024 + p.val; omega
  | ⟨1, _⟩ => show win5_6.index t (1 : Fin 2) * 128 + 1 * q.val = q.val; omega

/-- What a point of the last column tile writes back into the narrow output is its block of the product. -/
theorem flushed5_5 (c : Dev nD) (t : Fin cfg5.N) (hf : (cfg5.win 5).flush t = true) :
    (dat5 (F := Ideal) V c).flushed 5 t = ((cfg5.win 5).blk t).view.read (Elt Ideal) (Cert.Spec.propSx (mtx5 V c) (sgn5 V c)) := by
  have h3 : t.val % 4 = 3 := (flush5_5 t).mp hf
  show (cfg5.win 5).cut (grid5.coords t) ((dat5 V c).after 5 t) = _
  rw [after5_5, out5_5_acc V c t h3]
  funext j
  obtain ⟨p, q, rfl⟩ : ∃ (p : Fin 1024) (q : Fin 128), j = ix2 p q := ⟨j 0, j 1, eq_ix2 j⟩
  show (outsAt5 V c t.val t.isLt).2.2 (ix2 p q) = Cert.Spec.prod (mtx5 V c) (sgn5 V c) (((cfg5.win 5).blk t).view.emb (ix2 p q))
  rw [emb5_5, acc5_last V c t.val t.isLt h3 p q]

/-- What it writes back into the wide output is its block of the updated running output. -/
theorem flushed5_6 (c : Dev nD) (t : Fin cfg5.N) (hf : (cfg5.win 6).flush t = true) :
    (dat5 (F := Ideal) V c).flushed 6 t = ((cfg5.win 6).blk t).view.read (Elt Ideal)
      (Cert.Spec.propOutBR (mtx5 V c) (sgn5 V c) (run5 V c) (tap5 V c) (bia5 V c)) := by
  have h3 : t.val % 4 = 3 := (flush5_6 t).mp hf
  show (cfg5.win 6).cut (grid5.coords t) ((dat5 V c).after 6 t) = _
  rw [after5_6, out5_6_acc V c t h3]
  funext j
  obtain ⟨p, q, rfl⟩ : ∃ (p : Fin 1024) (q : Fin 128), j = ix2 p q := ⟨j 0, j 1, eq_ix2 j⟩
  show k5_pay4 ((outsAt5 V c t.val t.isLt).2.2) (iblk5 V c 4 t) (iblk5 V c 2 t) (iblk5 V c 3 t) (ix2 p q)
    = Cert.Spec.propOutBR (mtx5 V c) (sgn5 V c) (run5 V c) (tap5 V c) (bia5 V c) (((cfg5.win 6).blk t).view.emb (ix2 p q))
  rw [emb5_6, epipay5_apply, acc5_last V c t.val t.isLt h3 p q, iblk5_2_apply, iblk5_4_apply, iblk5_3_apply]
  rfl

theorem mem_blk5_5 (t : Fin cfg5.N) (i : S8192x128.Idx) :
    i ∈ ((cfg5.win 5).blk t).view.set ↔ ∀ a : Fin 2, win5_5.index t a * S1024x128.size a ≤ (i a).val ∧ (i a).val < win5_5.index t a * S1024x128.size a + S1024x128.size a := by
  show i ∈ ((View.whole main_v19_0).slice (win5_5.rect t)).set ↔ _
  rw [View.set_slice_whole, Rect.mem_set_unit]
  exact Iff.rfl
theorem mem_blk5_6 (t : Fin cfg5.N) (i : S8192x128.Idx) :
    i ∈ ((cfg5.win 6).blk t).view.set ↔ ∀ a : Fin 2, win5_6.index t a * S1024x128.size a ≤ (i a).val ∧ (i a).val < win5_6.index t a * S1024x128.size a + S1024x128.size a := by
  show i ∈ ((View.whole main_v19_1).slice (win5_6.rect t)).set ↔ _
  rw [View.set_slice_whole, Rect.mem_set_unit]
  exact Iff.rfl

/-- Row r is written back by the last column tile's point of row tile r / 1024. -/
theorem covered5_5 (i : S8192x128.Idx) : ∃ t : Fin cfg5.N, (cfg5.win 5).flush t = true ∧ i ∈ ((cfg5.win 5).blk t).view.set := by
  have hi0 : (i 0).val < 8192 := (i 0).isLt
  have hi1 : (i 1).val < 128 := (i 1).isLt
  have hN : cfg5.N = 32 := N_5
  refine ⟨⟨(i 0).val / 1024 * 4 + 3, by omega⟩, (flush5_5 _).mpr (by show ((i 0).val / 1024 * 4 + 3) % 4 = 3; omega), ?_⟩
  rw [mem_blk5_5]
  obtain ⟨-, -, -, -, -, -, -, -, -, -, e10, e11, -⟩ := idx5 ⟨(i 0).val / 1024 * 4 + 3, by omega⟩
  intro a
  match a with
  | ⟨0, _⟩ =>
    show win5_5.index _ (0 : Fin 2) * 1024 ≤ (i 0).val ∧ (i 0).val < win5_5.index _ (0 : Fin 2) * 1024 + 1024
    rw [e10]; show ((i 0).val / 1024 * 4 + 3) / 4 * 1024 ≤ (i 0).val ∧ (i 0).val < ((i 0).val / 1024 * 4 + 3) / 4 * 1024 + 1024; omega
  | ⟨1, _⟩ =>
    show win5_5.index _ (1 : Fin 2) * 128 ≤ (i 1).val ∧ (i 1).val < win5_5.index _ (1 : Fin 2) * 128 + 128
    rw [e11]; omega
theorem covered5_6 (i : S8192x128.Idx) : ∃ t : Fin cfg5.N, (cfg5.win 6).flush t = true ∧ i ∈ ((cfg5.win 6).blk t).view.set := by
  have hi0 : (i 0).val < 8192 := (i 0).isLt
  have hi1 : (i 1).val < 128 := (i 1).isLt
  have hN : cfg5.N = 32 := N_5
  refine ⟨⟨(i 0).val / 1024 * 4 + 3, by omega⟩, (flush5_6 _).mpr (by show ((i 0).val / 1024 * 4 + 3) % 4 = 3; omega), ?_⟩
  rw [mem_blk5_6]
  obtain ⟨-, -, -, -, -, -, -, -, -, -, -, -, e12, e13, -⟩ := idx5 ⟨(i 0).val / 1024 * 4 + 3, by omega⟩
  intro a
  match a with
  | ⟨0, _⟩ =>
    show win5_6.index _ (0 : Fin 2) * 1024 ≤ (i 0).val ∧ (i 0).val < win5_6.index _ (0 : Fin 2) * 1024 + 1024
    rw [e12]; show ((i 0).val / 1024 * 4 + 3) / 4 * 1024 ≤ (i 0).val ∧ (i 0).val < ((i 0).val / 1024 * 4 + 3) / 4 * 1024 + 1024; omega
  | ⟨1, _⟩ =>
    show win5_6.index _ (1 : Fin 2) * 128 ≤ (i 1).val ∧ (i 1).val < win5_6.index _ (1 : Fin 2) * 128 + 128
    rw [e13]; omega

/-- The narrow output array after the region: the matrix times the propagated signal. -/
theorem value5_5 (c : Dev nD) :
    (dat5 (F := Ideal) V c).arrAt 5 cfg5.N = Cert.Spec.propSx (mtx5 V c) (sgn5 V c) :=
  (dat5 V c).arrAt_eq_of_cover 5 _ (fun t hf => flushed5_5 V c t hf) (covered5_5)
/-- The wide output array after the region: the running output updated by the tap times that product. -/
theorem value5_6 (c : Dev nD) :
    (dat5 (F := Ideal) V c).arrAt 6 cfg5.N
      = Cert.Spec.propOutBR (mtx5 V c) (sgn5 V c) (run5 V c) (tap5 V c) (bia5 V c) :=
  (dat5 V c).arrAt_eq_of_cover 6 _ (fun t hf => flushed5_6 V c t hf) (covered5_6)

end Arrays

end Cert.KernelIdeal.Hand

end
-- ==== Proof.KI.Prop7Value.lean ====
/-
  What the propagation call number 7 leaves in its two output arrays, over the extended reals. A grid point
  t = 4·i + k handles the 1024 rows of tile i against the 2048 columns of tile k. The accumulator after the point
  holds, at row p and column q of the tile, the sum over the column tiles 0..k of the tile's product
  ∑ l, S(1024·i + p, 2048·k' + l) · Sx(2048·k' + l, q), starting from zero at k = 0. At k = 3 that is the whole
  product (S·Sx) at row 1024·i + p; the narrow output stores it, the wide one stores the running output plus the
  tap times it, plus the bias row, rectified. Each output block is written back at k = 3 only, and the eight
  blocks cover the 8192 rows.
-/
import proofs.«131271_j4982162063661_2_alg».proof.Proof.KI.Prop7
import proofs.«131271_j4982162063661_2_alg».proof.Proof.SpecRegions
import proofs.«131271_j4982162063661_2_alg».proof.Proof.Spec
import proofs.«131271_j4982162063661_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.Tactic
open Idealize.SL Idealize.SL.Sem
open Idealize.ShloMosaic.Pipeline (Dat Cfg Window)

theorem zero2_7 : (![0, 0] : Fin 2 → Nat) = fun _ => 0 := funext fun a => by fin_cases a <;> rfl

section Pieces
variable {F : FTy → Type} [FloatOps F]

/-- The 2048 rows of the propagated signal the point's column tile meets. -/
abbrev slice7 (i : grid7.Coords) : Rect S8192x64 := Rect.unit (s := S8192x64) (k7_off1 i) S2048x64.size (k7_off1_inb i)

/-- At the first column tile the accumulator ends at the tile's product added to the zero just stored. -/
theorem sout7_A_0_eq (c : Dev nD) (i : grid7.Coords) (arg2 : Memref sig .tc .vmem S1024x2048 .bf16) (harg2 : arg2.IsWhole) (arg3 : Memref sig .tc .vmem S8192x64 .bf16) (harg3 : arg3.IsWhole) (arg4 : Memref sig .tc .vmem S1024x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S1024x64 .bf16) (harg7 : arg7.IsWhole) (arg8 : Memref sig .tc .vmem S1024x64 .f32) (harg8 : arg8.IsWhole) (arg9 : Memref sig .tc .vmem S1024x64 .f32) (harg9 : arg9.IsWhole) (hc0 : cond7_0 i) (hc1 : ¬cond7_1 i) (x0 : Vec F S1024x2048 .bf16) (x1 : Vec F S8192x64 .bf16) (x2 : Vec F S1024x64 .f32) (x3 : Vec F S1x64 .f32) (x4 : Vec F S1x1 .f32) :
    sout7_A_0 c i arg2 harg2 arg3 harg3 arg4 harg4 arg5 harg5 arg6 harg6 arg7 harg7 arg8 harg8 arg9 harg9 hc0 hc1 x0 x1 x2 x3 x4 = k7_pay2 (View.ld x1 (slice7 i)) (k7_pay1 (F := F)) x0 := by
  unfold sout7_A_0
  rw [View.read_writes_eq_canon _ _ _ (scover7_A_0 c i arg2 harg2 arg3 harg3 arg4 harg4 arg5 harg5 arg6 harg6 arg7 harg7 arg8 harg8 arg9 harg9 hc0 hc1 x0 x1 x2 x3 x4)]
  unfold kernelRun7_A
  dsimp only
  sl_unfold_run_names
  rw [View.canon_cons_unit_zero zero2_7]
  simp only [View.readAt_eq_ld, harg2.read_unread, harg3.read_unread, View.ld_unit_zero (S := S1024x2048) zero2_7,
    View.readCov_unit_zero (S := S1024x64) arg9.view zero2_7]
  all_goals rfl

/-- At a middle column tile the accumulator ends at the tile's product added to what it held. -/
theorem sout7_B_0_eq (c : Dev nD) (i : grid7.Coords) (arg2 : Memref sig .tc .vmem S1024x2048 .bf16) (harg2 : arg2.IsWhole) (arg3 : Memref sig .tc .vmem S8192x64 .bf16) (harg3 : arg3.IsWhole) (arg4 : Memref sig .tc .vmem S1024x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S1024x64 .bf16) (harg7 : arg7.IsWhole) (arg8 : Memref sig .tc .vmem S1024x64 .f32) (harg8 : arg8.IsWhole) (arg9 : Memref sig .tc .vmem S1024x64 .f32) (harg9 : arg9.IsWhole) (hc0 : ¬cond7_0 i) (hc1 : ¬cond7_1 i) (x0 : Vec F S1024x2048 .bf16) (x1 : Vec F S8192x64 .bf16) (x2 : Vec F S1024x64 .f32) (x3 : Vec F S1x64 .f32) (x4 : Vec F S1x1 .f32) (xs0 : Vec F S1024x64 .f32) :
    sout7_B_0 c i arg2 harg2 arg3 harg3 arg4 harg4 arg5 harg5 arg6 harg6 arg7 harg7 arg8 harg8 arg9 harg9 hc0 hc1 x0 x1 x2 x3 x4 xs0 = k7_pay2 (View.ld x1 (slice7 i)) xs0 x0 := by
  unfold sout7_B_0
  rw [View.read_writes_eq_canon _ _ _ (scover7_B_0 c i arg2 harg2 arg3 harg3 arg4 harg4 arg5 harg5 arg6 harg6 arg7 harg7 arg8 harg8 arg9 harg9 hc0 hc1 x0 x1 x2 x3 x4 xs0)]
  unfold kernelRun7_B
  dsimp only
  sl_unfold_run_names
  rw [View.canon_cons_unit_zero zero2_7]
  simp only [View.readAt_eq_ld, harg2.read_unread, harg3.read_unread, harg9.read_unread, View.ld_unit_zero (S := S1024x2048) zero2_7,
    View.ld_unit_zero (S := S1024x64) zero2_7]
  all_goals rfl

/-- At the last column tile the same, -/
theorem sout7_C_0_eq (c : Dev nD) (i : grid7.Coords) (arg2 : Memref sig .tc .vmem S1024x2048 .bf16) (harg2 : arg2.IsWhole) (arg3 : Memref sig .tc .vmem S8192x64 .bf16) (harg3 : arg3.IsWhole) (arg4 : Memref sig .tc .vmem S1024x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S1024x64 .bf16) (harg7 : arg7.IsWhole) (arg8 : Memref sig .tc .vmem S1024x64 .f32) (harg8 : arg8.IsWhole) (arg9 : Memref sig .tc .vmem S1024x64 .f32) (harg9 : arg9.IsWhole) (hc0 : ¬cond7_0 i) (hc1 : cond7_1 i) (x0 : Vec F S1024x2048 .bf16) (x1 : Vec F S8192x64 .bf16) (x2 : Vec F S1024x64 .f32) (x3 : Vec F S1x64 .f32) (x4 : Vec F S1x1 .f32) (xs0 : Vec F S1024x64 .f32) :
    sout7_C_0 c i arg2 harg2 arg3 harg3 arg4 harg4 arg5 harg5 arg6 harg6 arg7 harg7 arg8 harg8 arg9 harg9 hc0 hc1 x0 x1 x2 x3 x4 xs0 = k7_pay2 (View.ld x1 (slice7 i)) xs0 x0 := by
  unfold sout7_C_0
  rw [View.read_writes_eq_canon _ _ _ (scover7_C_0 c i arg2 harg2 arg3 harg3 arg4 harg4 arg5 harg5 arg6 harg6 arg7 harg7 arg8 harg8 arg9 harg9 hc0 hc1 x0 x1 x2 x3 x4 xs0)]
  unfold kernelRun7_C
  dsimp only
  sl_unfold_run_names
  rw [View.canon_cons_unit_zero zero2_7]
  simp only [View.readAt_eq_ld, harg2.read_unread, harg3.read_unread, harg9.read_unread, View.ld_unit_zero (S := S1024x2048) zero2_7,
    View.ld_unit_zero (S := S1024x64) zero2_7]
  all_goals rfl

/-- and the narrow output's block is the accumulator rounded, -/
theorem out7_C_5_eq (c : Dev nD) (i : grid7.Coords) (arg2 : Memref sig .tc .vmem S1024x2048 .bf16) (harg2 : arg2.IsWhole) (arg3 : Memref sig .tc .vmem S8192x64 .bf16) (harg3 : arg3.IsWhole) (arg4 : Memref sig .tc .vmem S1024x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S1024x64 .bf16) (harg7 : arg7.IsWhole) (arg8 : Memref sig .tc .vmem S1024x64 .f32) (harg8 : arg8.IsWhole) (arg9 : Memref sig .tc .vmem S1024x64 .f32) (harg9 : arg9.IsWhole) (hc0 : ¬cond7_0 i) (hc1 : cond7_1 i) (x0 : Vec F S1024x2048 .bf16) (x1 : Vec F S8192x64 .bf16) (x2 : Vec F S1024x64 .f32) (x3 : Vec F S1x64 .f32) (x4 : Vec F S1x1 .f32) (xs0 : Vec F S1024x64 .f32) :
    out7_C_5 c i arg2 harg2 arg3 harg3 arg4 harg4 arg5 harg5 arg6 harg6 arg7 harg7 arg8 harg8 arg9 harg9 hc0 hc1 x0 x1 x2 x3 x4 xs0 = k7_pay3 (k7_pay2 (View.ld x1 (slice7 i)) xs0 x0) := by
  unfold out7_C_5
  rw [View.read_writes_eq_canon _ _ _ (cover7_C_5 c i arg2 harg2 arg3 harg3 arg4 harg4 arg5 harg5 arg6 harg6 arg7 harg7 arg8 harg8 arg9 harg9 hc0 hc1 x0 x1 x2 x3 x4 xs0)]
  unfold kernelRun7_C
  dsimp only
  sl_unfold_run_names
  rw [View.canon_cons_unit_zero zero2_7]
  simp only [View.readAt_eq_ld, harg2.read_unread, harg3.read_unread, harg9.read_unread, View.ld_unit_zero (S := S1024x2048) zero2_7,
    View.ld_unit_zero (S := S1024x64) zero2_7, View.readCov_unit_zero (S := S1024x64) arg9.view zero2_7]
  all_goals rfl

/-- the wide output's block the epilogue of the accumulator, the tap, the running output and the bias row. -/
theorem out7_C_6_eq (c : Dev nD) (i : grid7.Coords) (arg2 : Memref sig .tc .vmem S1024x2048 .bf16) (harg2 : arg2.IsWhole) (arg3 : Memref sig .tc .vmem S8192x64 .bf16) (harg3 : arg3.IsWhole) (arg4 : Memref sig .tc .vmem S1024x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S1024x64 .bf16) (harg7 : arg7.IsWhole) (arg8 : Memref sig .tc .vmem S1024x64 .f32) (harg8 : arg8.IsWhole) (arg9 : Memref sig .tc .vmem S1024x64 .f32) (harg9 : arg9.IsWhole) (hc0 : ¬cond7_0 i) (hc1 : cond7_1 i) (x0 : Vec F S1024x2048 .bf16) (x1 : Vec F S8192x64 .bf16) (x2 : Vec F S1024x64 .f32) (x3 : Vec F S1x64 .f32) (x4 : Vec F S1x1 .f32) (xs0 : Vec F S1024x64 .f32) :
    out7_C_6 c i arg2 harg2 arg3 harg3 arg4 harg4 arg5 harg5 arg6 harg6 arg7 harg7 arg8 harg8 arg9 harg9 hc0 hc1 x0 x1 x2 x3 x4 xs0 = k7_pay4 (k7_pay2 (View.ld x1 (slice7 i)) xs0 x0) x4 x2 := by
  unfold out7_C_6
  rw [View.read_writes_eq_canon _ _ _ (cover7_C_6 c i arg2 harg2 arg3 harg3 arg4 harg4 arg5 harg5 arg6 harg6 arg7 harg7 arg8 harg8 arg9 harg9 hc0 hc1 x0 x1 x2 x3 x4 xs0)]
  unfold kernelRun7_C
  dsimp only
  sl_unfold_run_names
  rw [View.canon_cons_unit_zero zero2_7]
  simp only [View.readAt_eq_ld, harg2.read_unread, harg3.read_unread, harg4.read_unread, harg5.read_unread, harg6.read_unread, harg9.read_unread,
    View.ld_unit_zero (S := S1024x2048) zero2_7, View.ld_unit_zero (S := S1024x64) zero2_7, View.ld_unit_zero (S := S1x1) zero2_7,
    View.ld_unit_zero (S := S1x64) zero2_7, View.readCov_unit_zero (S := S1024x64) arg9.view zero2_7]
  all_goals rfl

end Pieces

section Value
variable (V : (c : Dev nD) → (b : Ref sig .tc) → Buf (Elt Ideal) ((c : Thread nD τ).loc b))

/-- The region's five input arrays as it finds them: the matrix, the propagated signal, the running output, the
    bias row, the tap. -/
abbrev mtx7 (c : Dev nD) : Cert.Spec.Mat 8192 8192 := V c (Pipeline.arrRef spec7 0)
abbrev sgn7 (c : Dev nD) : Cert.Spec.Mat 8192 64 := V c (Pipeline.arrRef spec7 1)
abbrev run7 (c : Dev nD) : Cert.Spec.Mat 8192 64 := V c (Pipeline.arrRef spec7 2)
abbrev bia7 (c : Dev nD) : Cert.Spec.Mat 1 64 := V c (Pipeline.arrRef spec7 3)
abbrev tap7 (c : Dev nD) : Cert.Spec.Mat 1 1 := V c (Pipeline.arrRef spec7 4)

/-- The block index maps and the signal's row offset, decided over the 32 points: row tile t / 4, column tile t % 4. -/
theorem idx7 : ∀ t : Fin cfg7.N,
    win7_0.index t (0 : Fin 2) = t.val / 4 ∧ win7_0.index t (1 : Fin 2) = t.val % 4
    ∧ win7_1.index t (0 : Fin 2) = 0 ∧ win7_1.index t (1 : Fin 2) = 0
    ∧ win7_2.index t (0 : Fin 2) = t.val / 4 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = t.val / 4 ∧ win7_5.index t (1 : Fin 2) = 0
    ∧ win7_6.index t (0 : Fin 2) = t.val / 4 ∧ win7_6.index t (1 : Fin 2) = 0
    ∧ k7_off1 (grid7.coords t) (0 : Fin 2) = t.val % 4 * 2048 ∧ k7_off1 (grid7.coords t) (1 : Fin 2) = 0 :=
  (by decide +kernel : ∀ t : Fin grid7.N, _)

theorem row7_lt (n : ℕ) (hn : n < cfg7.N) (p : Fin 1024) : n / 4 * 1024 + p.val < 8192 := by
  have hN : cfg7.N = 32 := N_7
  have := p.isLt; omega
theorem col7_lt (n : ℕ) (l : Fin 2048) : n % 4 * 2048 + l.val < 8192 := by have := l.isLt; omega

theorem iblk7_0_apply (c : Dev nD) (t : Fin cfg7.N) (p : Fin 1024) (l : Fin 2048) :
    iblk7 V c 0 t (ix2 p l) = mtx7 V c (ix2 ⟨t.val / 4 * 1024 + p.val, row7_lt t.val t.isLt p⟩ ⟨t.val % 4 * 2048 + l.val, col7_lt t.val l⟩) := by
  show V c (Pipeline.arrRef spec7 0) (((cfg7.win 0).blk t).view.emb (ix2 p l)) = _
  refine congrArg _ ?_
  funext a; apply Fin.ext
  obtain ⟨e0, e1, -⟩ := idx7 t
  match a with
  | ⟨0, _⟩ => show win7_0.index t (0 : Fin 2) * 1024 + 1 * p.val = t.val / 4 * 1024 + p.val; omega
  | ⟨1, _⟩ => show win7_0.index t (1 : Fin 2) * 2048 + 1 * l.val = t.val % 4 * 2048 + l.val; omega
theorem iblk7_1_apply (c : Dev nD) (t : Fin cfg7.N) (j : Fin 8192) (q : Fin 64) :
    iblk7 V c 1 t (ix2 j q) = sgn7 V c (ix2 j q) := by
  show V c (Pipeline.arrRef spec7 1) (((cfg7.win 1).blk t).view.emb (ix2 j q)) = _
  refine congrArg _ ?_
  funext a; apply Fin.ext
  obtain ⟨-, -, e2, e3, -⟩ := idx7 t
  match a with
  | ⟨0, _⟩ => show win7_1.index t (0 : Fin 2) * 8192 + 1 * j.val = j.val; omega
  | ⟨1, _⟩ => show win7_1.index t (1 : Fin 2) * 64 + 1 * q.val = q.val; omega
theorem iblk7_2_apply (c : Dev nD) (t : Fin cfg7.N) (p : Fin 1024) (q : Fin 64) :
    iblk7 V c 2 t (ix2 p q) = run7 V c (ix2 ⟨t.val / 4 * 1024 + p.val, row7_lt t.val t.isLt p⟩ q) := by
  show V c (Pipeline.arrRef spec7 2) (((cfg7.win 2).blk t).view.emb (ix2 p q)) = _
  refine congrArg _ ?_
  funext a; apply Fin.ext
  obtain ⟨-, -, -, -, e4, e5, -⟩ := idx7 t
  match a with
  | ⟨0, _⟩ => show win7_2.index t (0 : Fin 2) * 1024 + 1 * p.val = t.val / 4 * 1024 + p.val; omega
  | ⟨1, _⟩ => show win7_2.index t (1 : Fin 2) * 64 + 1 * q.val = q.val; omega
theorem iblk7_3_apply (c : Dev nD) (t : Fin cfg7.N) (q : Fin 64) :
    iblk7 V c 3 t (ix2 0 q) = bia7 V c (ix2 0 q) := by
  show V c (Pipeline.arrRef spec7 3) (((cfg7.win 3).blk t).view.emb (ix2 0 q)) = _
  refine congrArg _ ?_
  funext a; apply Fin.ext
  obtain ⟨-, -, -, -, -, -, e6, e7, -⟩ := idx7 t
  match a with
  | ⟨0, _⟩ => show win7_3.index t (0 : Fin 2) * 1 + 1 * 0 = 0; omega
  | ⟨1, _⟩ => show win7_3.index t (1 : Fin 2) * 64 + 1 * q.val = q.val; omega
theorem iblk7_4_apply (c : Dev nD) (t : Fin cfg7.N) :
    iblk7 V c 4 t (ix2 0 0) = tap7 V c (ix2 0 0) := by
  show V c (Pipeline.arrRef spec7 4) (((cfg7.win 4).blk t).view.emb (ix2 0 0)) = _
  refine congrArg _ ?_
  funext a; apply Fin.ext
  obtain ⟨-, -, -, -, -, -, -, -, e8, e9, -⟩ := idx7 t
  match a with
  | ⟨0, _⟩ => show win7_4.index t (0 : Fin 2) * 1 + 1 * 0 = 0; omega
  | ⟨1, _⟩ => show win7_4.index t (1 : Fin 2) * 1 + 1 * 0 = 0; omega

/-- The signal's 2048 rows the point loads, read at an entry. -/
theorem slice7_apply (t : Fin cfg7.N) (x1 : Vec Ideal S8192x64 .bf16) (l : Fin 2048) (q : Fin 64) :
    View.ld x1 (slice7 (grid7.coords t)) (ix2 l q) = x1 (ix2 ⟨t.val % 4 * 2048 + l.val, col7_lt t.val l⟩ q) := by
  show x1 ((slice7 (grid7.coords t)).emb (ix2 l q)) = _
  refine congrArg _ ?_
  funext a; apply Fin.ext
  obtain ⟨-, -, -, -, -, -, -, -, -, -, -, -, -, -, e14, e15⟩ := idx7 t
  match a with
  | ⟨0, _⟩ => show k7_off1 (grid7.coords t) (0 : Fin 2) + 1 * l.val = t.val % 4 * 2048 + l.val; omega
  | ⟨1, _⟩ => show k7_off1 (grid7.coords t) (1 : Fin 2) + 1 * q.val = q.val; omega

/-- The reset's payload is zero. -/
theorem zeropay7_apply (j : S1024x64.Idx) : k7_pay1 (F := Ideal) j = 0 := by
  unfold k7_pay1
  rw [shapeCast_self]
  exact Ideal.ofBits_zero_f32

/-- The accumulate step at an entry: what was there plus the tile's product. -/
theorem accpay7_apply (x1s : Vec Ideal S2048x64 .bf16) (xs : Vec Ideal S1024x64 .f32) (x0 : Vec Ideal S1024x2048 .bf16)
    (p : Fin 1024) (q : Fin 64) :
    k7_pay2 x1s xs x0 (ix2 p q) = xs (ix2 p q) + ∑ l : Fin 2048, x0 (ix2 p l) * x1s (ix2 l q) := by
  unfold k7_pay2
  simp only [shapeCast_self]
  show xs (ix2 p q) + _ = xs (ix2 p q) + _
  refine congrArg (xs (ix2 p q) + ·) ?_
  refine (Ideal.matmul_constant_zero_apply (φ₁ := .bf16) (φ₂ := .bf16) _ none x0 x1s (ix2 p q)).trans ?_
  exact Cert.LibPlainDot.sum_plain dot_S1024x2048_S2048x64_S1024x64_1_0_0_1_n_n rfl rfl rfl rfl rfl rfl x0 x1s p q

/-- The epilogue at an entry. -/
theorem epipay7_apply (v19 : Vec Ideal S1024x64 .f32) (v22 : Vec Ideal S1x1 .f32) (v24 : Vec Ideal S1024x64 .f32)
    (p : Fin 1024) (q : Fin 64) :
    k7_pay4 v19 v22 v24 (ix2 p q) = v24 (ix2 p q) + v22 (ix2 0 0) * v19 (ix2 p q) := by
  unfold k7_pay4
  simp only [shapeCast_self]
  show v24 (ix2 p q) + (broadcastTo S1024x64 v22 broadcasts_S1x1_S1024x64) (ix2 p q) * v19 (ix2 p q) = _
  rw [broadcastTo_apply v22 _ (ix2 p q) (ix2 0 0) (fun a => by match a with | ⟨0, _⟩ => rfl | ⟨1, _⟩ => rfl)]
  all_goals rfl

/-- One column tile's product at a row of the array and a column. -/
def tile7 (c : Dev nD) (r : Fin 8192) (o : ℕ) (ho : o + 2048 ≤ 8192) (q : Fin 64) : EReal :=
  ∑ l : Fin 2048, mtx7 V c (ix2 r ⟨o + l.val, by have := l.isLt; omega⟩) * sgn7 V c (ix2 ⟨o + l.val, by have := l.isLt; omega⟩ q)

/-- The product the body forms at point t is the tile's: row 1024·(t/4) + p, columns from 2048·(t%4). -/
theorem pointprod7 (c : Dev nD) (t : Fin cfg7.N) (x0 : Vec Ideal S1024x2048 .bf16) (x1 : Vec Ideal S8192x64 .bf16)
    (h0 : ∀ (p : Fin 1024) (l : Fin 2048), x0 (ix2 p l) = mtx7 V c (ix2 ⟨t.val / 4 * 1024 + p.val, row7_lt t.val t.isLt p⟩ ⟨t.val % 4 * 2048 + l.val, col7_lt t.val l⟩))
    (h1 : ∀ (j : Fin 8192) (q : Fin 64), x1 (ix2 j q) = sgn7 V c (ix2 j q)) (p : Fin 1024) (q : Fin 64)
    (r : Fin 8192) (hr : r.val = t.val / 4 * 1024 + p.val) (o : ℕ) (ho' : o = t.val % 4 * 2048) (ho : o + 2048 ≤ 8192) :
    (∑ l : Fin 2048, x0 (ix2 p l) * View.ld x1 (slice7 (grid7.coords t)) (ix2 l q))
      = tile7 V c r o ho q := by
  subst ho'
  obtain rfl : r = ⟨t.val / 4 * 1024 + p.val, row7_lt t.val t.isLt p⟩ := Fin.ext hr
  unfold tile7
  exact Finset.sum_congr rfl fun l _ => by rw [h0, slice7_apply, h1]

/-- After a point at the first column tile the accumulator holds zero plus the tile's product. -/
theorem acc7_first (c : Dev nD) (n : ℕ) (hn : n < cfg7.N) (h : n % 4 = 0) (p : Fin 1024) (q : Fin 64)
    (r : Fin 8192) (hr : r.val = n / 4 * 1024 + p.val) (o : ℕ) (ho' : o = n % 4 * 2048) (ho : o + 2048 ≤ 8192) :
    (outsAt7 V c n hn).2.2 (ix2 p q) = 0 + tile7 V c r o ho q := by
  have e : outsAt7 V c n hn = _ := outsAt7_A V c ⟨n, hn⟩ h (by show ¬ n % 4 = 3; omega)
  rw [e]
  dsimp only
  rw [sout7_A_0_eq, accpay7_apply, zeropay7_apply, pointprod7 V c ⟨n, hn⟩ _ _ (iblk7_0_apply V c ⟨n, hn⟩) (iblk7_1_apply V c ⟨n, hn⟩) p q r hr o ho' ho]

/-- After any later point it holds what the point before left plus the tile's product. -/
theorem acc7_next (c : Dev nD) (n : ℕ) (hn : n < cfg7.N) (h : n % 4 ≠ 0) (p : Fin 1024) (q : Fin 64)
    (r : Fin 8192) (hr : r.val = n / 4 * 1024 + p.val) (o : ℕ) (ho' : o = n % 4 * 2048) (ho : o + 2048 ≤ 8192) :
    (outsAt7 V c n hn).2.2 (ix2 p q) = (outsAt7 V c (n - 1) (by omega)).2.2 (ix2 p q) + tile7 V c r o ho q := by
  by_cases h1 : n % 4 = 3
  · have e : outsAt7 V c n hn = _ := outsAt7_C V c ⟨n, hn⟩ h h1
    rw [e]
    dsimp only
    rw [sout7_C_0_eq, accpay7_apply, pointprod7 V c ⟨n, hn⟩ _ _ (iblk7_0_apply V c ⟨n, hn⟩) (iblk7_1_apply V c ⟨n, hn⟩) p q r hr o ho' ho]
  · have e : outsAt7 V c n hn = _ := outsAt7_B V c ⟨n, hn⟩ h h1
    rw [e]
    dsimp only
    rw [sout7_B_0_eq, accpay7_apply, pointprod7 V c ⟨n, hn⟩ _ _ (iblk7_0_apply V c ⟨n, hn⟩) (iblk7_1_apply V c ⟨n, hn⟩) p q r hr o ho' ho]

/-- After the last column tile the accumulator holds the whole product at the tile's rows. -/
theorem acc7_last (c : Dev nD) (n : ℕ) (hn : n < cfg7.N) (h : n % 4 = 3) (p : Fin 1024) (q : Fin 64) :
    (outsAt7 V c n hn).2.2 (ix2 p q)
      = Cert.Spec.prod (mtx7 V c) (sgn7 V c) (ix2 ⟨n / 4 * 1024 + p.val, row7_lt n hn p⟩ q) := by
  rw [acc7_next V c n hn (by omega) p q ⟨n / 4 * 1024 + p.val, row7_lt n hn p⟩ rfl 6144 (by omega) (by omega),
    acc7_next V c (n - 1) (by omega) (by omega) p q ⟨n / 4 * 1024 + p.val, row7_lt n hn p⟩ (by show n / 4 * 1024 + p.val = (n - 1) / 4 * 1024 + p.val; omega) 4096 (by omega) (by omega),
    acc7_next V c (n - 1 - 1) (by omega) (by omega) p q ⟨n / 4 * 1024 + p.val, row7_lt n hn p⟩ (by show n / 4 * 1024 + p.val = (n - 1 - 1) / 4 * 1024 + p.val; omega) 2048 (by omega) (by omega),
    acc7_first V c (n - 1 - 1 - 1) (by omega) (by omega) p q ⟨n / 4 * 1024 + p.val, row7_lt n hn p⟩ (by show n / 4 * 1024 + p.val = (n - 1 - 1 - 1) / 4 * 1024 + p.val; omega) 0 (by omega) (by omega)]
  unfold tile7
  simp only [Nat.zero_add]
  exact Cert.Spec.prod_tiles (mtx7 V c) (sgn7 V c) _ q

end Value

section Arrays
variable (V : (c : Dev nD) → (b : Ref sig .tc) → Buf (Elt Ideal) ((c : Thread nD τ).loc b))

/-- At a point of the last column tile the narrow output's block is the accumulator (rounded), -/
theorem out7_5_acc (c : Dev nD) (t : Fin cfg7.N) (h3 : t.val % 4 = 3) :
    (outsAt7 V c t.val t.isLt).1 = k7_pay3 ((outsAt7 V c t.val t.isLt).2.2) := by
  rw [outsAt7_C V c t (by omega) h3]
  dsimp only
  rw [out7_C_5_eq, sout7_C_0_eq]
/-- and the wide output's block the epilogue of the accumulator. -/
theorem out7_6_acc (c : Dev nD) (t : Fin cfg7.N) (h3 : t.val % 4 = 3) :
    (outsAt7 V c t.val t.isLt).2.1 = k7_pay4 ((outsAt7 V c t.val t.isLt).2.2) (iblk7 V c 4 t) (iblk7 V c 2 t) := by
  rw [outsAt7_C V c t (by omega) h3]
  dsimp only
  rw [out7_C_6_eq, sout7_C_0_eq]

theorem emb7_5 (t : Fin cfg7.N) (p : Fin 1024) (q : Fin 64) :
    ((cfg7.win 5).blk t).view.emb (ix2 p q) = ix2 ⟨t.val / 4 * 1024 + p.val, row7_lt t.val t.isLt p⟩ q := by
  funext a; apply Fin.ext
  obtain ⟨-, -, -, -, -, -, -, -, -, -, e10, e11, -⟩ := idx7 t
  match a with
  | ⟨0, _⟩ => show win7_5.index t (0 : Fin 2) * 1024 + 1 * p.val = t.val / 4 * 1024 + p.val; omega
  | ⟨1, _⟩ => show win7_5.index t (1 : Fin 2) * 64 + 1 * q.val = q.val; omega
theorem emb7_6 (t : Fin cfg7.N) (p : Fin 1024) (q : Fin 64) :
    ((cfg7.win 6).blk t).view.emb (ix2 p q) = ix2 ⟨t.val / 4 * 1024 + p.val, row7_lt t.val t.isLt p⟩ q := by
  funext a; apply Fin.ext
  obtain ⟨-, -, -, -, -, -, -, -, -, -, -, -, e12, e13, -⟩ := idx7 t
  match a with
  | ⟨0, _⟩ => show win7_6.index t (0 : Fin 2) * 1024 + 1 * p.val = t.val / 4 * 1024 + p.val; omega
  | ⟨1, _⟩ => show win7_6.index t (1 : Fin 2) * 64 + 1 * q.val = q.val; omega

/-- What a point of the last column tile writes back into the narrow output is its block of the product. -/
theorem flushed7_5 (c : Dev nD) (t : Fin cfg7.N) (hf : (cfg7.win 5).flush t = true) :
    (dat7 (F := Ideal) V c).flushed 5 t = ((cfg7.win 5).blk t).view.read (Elt Ideal) (Cert.Spec.propSx (mtx7 V c) (sgn7 V c)) := by
  have h3 : t.val % 4 = 3 := (flush7_5 t).mp hf
  show (cfg7.win 5).cut (grid7.coords t) ((dat7 V c).after 5 t) = _
  rw [after7_5, out7_5_acc V c t h3]
  funext j
  obtain ⟨p, q, rfl⟩ : ∃ (p : Fin 1024) (q : Fin 64), j = ix2 p q := ⟨j 0, j 1, eq_ix2 j⟩
  show (outsAt7 V c t.val t.isLt).2.2 (ix2 p q) = Cert.Spec.prod (mtx7 V c) (sgn7 V c) (((cfg7.win 5).blk t).view.emb (ix2 p q))
  rw [emb7_5, acc7_last V c t.val t.isLt h3 p q]

/-- What it writes back into the wide output is its block of the updated running output. -/
theorem flushed7_6 (c : Dev nD) (t : Fin cfg7.N) (hf : (cfg7.win 6).flush t = true) :
    (dat7 (F := Ideal) V c).flushed 6 t = ((cfg7.win 6).blk t).view.read (Elt Ideal)
      (Cert.Spec.propOut (mtx7 V c) (sgn7 V c) (run7 V c) (tap7 V c)) := by
  have h3 : t.val % 4 = 3 := (flush7_6 t).mp hf
  show (cfg7.win 6).cut (grid7.coords t) ((dat7 V c).after 6 t) = _
  rw [after7_6, out7_6_acc V c t h3]
  funext j
  obtain ⟨p, q, rfl⟩ : ∃ (p : Fin 1024) (q : Fin 64), j = ix2 p q := ⟨j 0, j 1, eq_ix2 j⟩
  show k7_pay4 ((outsAt7 V c t.val t.isLt).2.2) (iblk7 V c 4 t) (iblk7 V c 2 t) (ix2 p q)
    = Cert.Spec.propOut (mtx7 V c) (sgn7 V c) (run7 V c) (tap7 V c) (((cfg7.win 6).blk t).view.emb (ix2 p q))
  rw [emb7_6, epipay7_apply, acc7_last V c t.val t.isLt h3 p q, iblk7_2_apply, iblk7_4_apply]
  rfl

theorem mem_blk7_5 (t : Fin cfg7.N) (i : S8192x64.Idx) :
    i ∈ ((cfg7.win 5).blk t).view.set ↔ ∀ a : Fin 2, win7_5.index t a * S1024x64.size a ≤ (i a).val ∧ (i a).val < win7_5.index t a * S1024x64.size a + S1024x64.size a := by
  show i ∈ ((View.whole main_v28_0).slice (win7_5.rect t)).set ↔ _
  rw [View.set_slice_whole, Rect.mem_set_unit]
  exact Iff.rfl
theorem mem_blk7_6 (t : Fin cfg7.N) (i : S8192x64.Idx) :
    i ∈ ((cfg7.win 6).blk t).view.set ↔ ∀ a : Fin 2, win7_6.index t a * S1024x64.size a ≤ (i a).val ∧ (i a).val < win7_6.index t a * S1024x64.size a + S1024x64.size a := by
  show i ∈ ((View.whole main_v28_1).slice (win7_6.rect t)).set ↔ _
  rw [View.set_slice_whole, Rect.mem_set_unit]
  exact Iff.rfl

/-- Row r is written back by the last column tile's point of row tile r / 1024. -/
theorem covered7_5 (i : S8192x64.Idx) : ∃ t : Fin cfg7.N, (cfg7.win 5).flush t = true ∧ i ∈ ((cfg7.win 5).blk t).view.set := by
  have hi0 : (i 0).val < 8192 := (i 0).isLt
  have hi1 : (i 1).val < 64 := (i 1).isLt
  have hN : cfg7.N = 32 := N_7
  refine ⟨⟨(i 0).val / 1024 * 4 + 3, by omega⟩, (flush7_5 _).mpr (by show ((i 0).val / 1024 * 4 + 3) % 4 = 3; omega), ?_⟩
  rw [mem_blk7_5]
  obtain ⟨-, -, -, -, -, -, -, -, -, -, e10, e11, -⟩ := idx7 ⟨(i 0).val / 1024 * 4 + 3, by omega⟩
  intro a
  match a with
  | ⟨0, _⟩ =>
    show win7_5.index _ (0 : Fin 2) * 1024 ≤ (i 0).val ∧ (i 0).val < win7_5.index _ (0 : Fin 2) * 1024 + 1024
    rw [e10]; show ((i 0).val / 1024 * 4 + 3) / 4 * 1024 ≤ (i 0).val ∧ (i 0).val < ((i 0).val / 1024 * 4 + 3) / 4 * 1024 + 1024; omega
  | ⟨1, _⟩ =>
    show win7_5.index _ (1 : Fin 2) * 64 ≤ (i 1).val ∧ (i 1).val < win7_5.index _ (1 : Fin 2) * 64 + 64
    rw [e11]; omega
theorem covered7_6 (i : S8192x64.Idx) : ∃ t : Fin cfg7.N, (cfg7.win 6).flush t = true ∧ i ∈ ((cfg7.win 6).blk t).view.set := by
  have hi0 : (i 0).val < 8192 := (i 0).isLt
  have hi1 : (i 1).val < 64 := (i 1).isLt
  have hN : cfg7.N = 32 := N_7
  refine ⟨⟨(i 0).val / 1024 * 4 + 3, by omega⟩, (flush7_6 _).mpr (by show ((i 0).val / 1024 * 4 + 3) % 4 = 3; omega), ?_⟩
  rw [mem_blk7_6]
  obtain ⟨-, -, -, -, -, -, -, -, -, -, -, -, e12, e13, -⟩ := idx7 ⟨(i 0).val / 1024 * 4 + 3, by omega⟩
  intro a
  match a with
  | ⟨0, _⟩ =>
    show win7_6.index _ (0 : Fin 2) * 1024 ≤ (i 0).val ∧ (i 0).val < win7_6.index _ (0 : Fin 2) * 1024 + 1024
    rw [e12]; show ((i 0).val / 1024 * 4 + 3) / 4 * 1024 ≤ (i 0).val ∧ (i 0).val < ((i 0).val / 1024 * 4 + 3) / 4 * 1024 + 1024; omega
  | ⟨1, _⟩ =>
    show win7_6.index _ (1 : Fin 2) * 64 ≤ (i 1).val ∧ (i 1).val < win7_6.index _ (1 : Fin 2) * 64 + 64
    rw [e13]; omega

/-- The narrow output array after the region: the matrix times the propagated signal. -/
theorem value7_5 (c : Dev nD) :
    (dat7 (F := Ideal) V c).arrAt 5 cfg7.N = Cert.Spec.propSx (mtx7 V c) (sgn7 V c) :=
  (dat7 V c).arrAt_eq_of_cover 5 _ (fun t hf => flushed7_5 V c t hf) (covered7_5)
/-- The wide output array after the region: the running output updated by the tap times that product. -/
theorem value7_6 (c : Dev nD) :
    (dat7 (F := Ideal) V c).arrAt 6 cfg7.N
      = Cert.Spec.propOut (mtx7 V c) (sgn7 V c) (run7 V c) (tap7 V c) :=
  (dat7 V c).arrAt_eq_of_cover 6 _ (fun t hf => flushed7_6 V c t hf) (covered7_6)

end Arrays

end Cert.KernelIdeal.Hand

end
-- ==== Proof.KI.Prop8Value.lean ====
/-
  What the propagation call number 8 leaves in its two output arrays, over the extended reals. A grid point
  t = 4·i + k handles the 1024 rows of tile i against the 2048 columns of tile k. The accumulator after the point
  holds, at row p and column q of the tile, the sum over the column tiles 0..k of the tile's product
  ∑ l, S(1024·i + p, 2048·k' + l) · Sx(2048·k' + l, q), starting from zero at k = 0. At k = 3 that is the whole
  product (S·Sx) at row 1024·i + p; the narrow output stores it, the wide one stores the running output plus the
  tap times it, plus the bias row, rectified. Each output block is written back at k = 3 only, and the eight
  blocks cover the 8192 rows.
-/
import proofs.«131271_j4982162063661_2_alg».proof.Proof.KI.Prop8
import proofs.«131271_j4982162063661_2_alg».proof.Proof.SpecRegions
import proofs.«131271_j4982162063661_2_alg».proof.Proof.Spec
import proofs.«131271_j4982162063661_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.Tactic
open Idealize.SL Idealize.SL.Sem
open Idealize.ShloMosaic.Pipeline (Dat Cfg Window)

theorem zero2_8 : (![0, 0] : Fin 2 → Nat) = fun _ => 0 := funext fun a => by fin_cases a <;> rfl

section Pieces
variable {F : FTy → Type} [FloatOps F]

/-- The 2048 rows of the propagated signal the point's column tile meets. -/
abbrev slice8 (i : grid8.Coords) : Rect S8192x64 := Rect.unit (s := S8192x64) (k8_off1 i) S2048x64.size (k8_off1_inb i)

/-- At the first column tile the accumulator ends at the tile's product added to the zero just stored. -/
theorem sout8_A_0_eq (c : Dev nD) (i : grid8.Coords) (arg2 : Memref sig .tc .vmem S1024x2048 .bf16) (harg2 : arg2.IsWhole) (arg3 : Memref sig .tc .vmem S8192x64 .bf16) (harg3 : arg3.IsWhole) (arg4 : Memref sig .tc .vmem S1024x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S1024x64 .bf16) (harg7 : arg7.IsWhole) (arg8 : Memref sig .tc .vmem S1024x64 .f32) (harg8 : arg8.IsWhole) (arg9 : Memref sig .tc .vmem S1024x64 .f32) (harg9 : arg9.IsWhole) (hc0 : cond8_0 i) (hc1 : ¬cond8_1 i) (x0 : Vec F S1024x2048 .bf16) (x1 : Vec F S8192x64 .bf16) (x2 : Vec F S1024x64 .f32) (x3 : Vec F S1x64 .f32) (x4 : Vec F S1x1 .f32) :
    sout8_A_0 c i arg2 harg2 arg3 harg3 arg4 harg4 arg5 harg5 arg6 harg6 arg7 harg7 arg8 harg8 arg9 harg9 hc0 hc1 x0 x1 x2 x3 x4 = k8_pay2 (View.ld x1 (slice8 i)) (k8_pay1 (F := F)) x0 := by
  unfold sout8_A_0
  rw [View.read_writes_eq_canon _ _ _ (scover8_A_0 c i arg2 harg2 arg3 harg3 arg4 harg4 arg5 harg5 arg6 harg6 arg7 harg7 arg8 harg8 arg9 harg9 hc0 hc1 x0 x1 x2 x3 x4)]
  unfold kernelRun8_A
  dsimp only
  sl_unfold_run_names
  rw [View.canon_cons_unit_zero zero2_8]
  simp only [View.readAt_eq_ld, harg2.read_unread, harg3.read_unread, View.ld_unit_zero (S := S1024x2048) zero2_8,
    View.readCov_unit_zero (S := S1024x64) arg9.view zero2_8]
  all_goals rfl

/-- At a middle column tile the accumulator ends at the tile's product added to what it held. -/
theorem sout8_B_0_eq (c : Dev nD) (i : grid8.Coords) (arg2 : Memref sig .tc .vmem S1024x2048 .bf16) (harg2 : arg2.IsWhole) (arg3 : Memref sig .tc .vmem S8192x64 .bf16) (harg3 : arg3.IsWhole) (arg4 : Memref sig .tc .vmem S1024x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S1024x64 .bf16) (harg7 : arg7.IsWhole) (arg8 : Memref sig .tc .vmem S1024x64 .f32) (harg8 : arg8.IsWhole) (arg9 : Memref sig .tc .vmem S1024x64 .f32) (harg9 : arg9.IsWhole) (hc0 : ¬cond8_0 i) (hc1 : ¬cond8_1 i) (x0 : Vec F S1024x2048 .bf16) (x1 : Vec F S8192x64 .bf16) (x2 : Vec F S1024x64 .f32) (x3 : Vec F S1x64 .f32) (x4 : Vec F S1x1 .f32) (xs0 : Vec F S1024x64 .f32) :
    sout8_B_0 c i arg2 harg2 arg3 harg3 arg4 harg4 arg5 harg5 arg6 harg6 arg7 harg7 arg8 harg8 arg9 harg9 hc0 hc1 x0 x1 x2 x3 x4 xs0 = k8_pay2 (View.ld x1 (slice8 i)) xs0 x0 := by
  unfold sout8_B_0
  rw [View.read_writes_eq_canon _ _ _ (scover8_B_0 c i arg2 harg2 arg3 harg3 arg4 harg4 arg5 harg5 arg6 harg6 arg7 harg7 arg8 harg8 arg9 harg9 hc0 hc1 x0 x1 x2 x3 x4 xs0)]
  unfold kernelRun8_B
  dsimp only
  sl_unfold_run_names
  rw [View.canon_cons_unit_zero zero2_8]
  simp only [View.readAt_eq_ld, harg2.read_unread, harg3.read_unread, harg9.read_unread, View.ld_unit_zero (S := S1024x2048) zero2_8,
    View.ld_unit_zero (S := S1024x64) zero2_8]
  all_goals rfl

/-- At the last column tile the same, -/
theorem sout8_C_0_eq (c : Dev nD) (i : grid8.Coords) (arg2 : Memref sig .tc .vmem S1024x2048 .bf16) (harg2 : arg2.IsWhole) (arg3 : Memref sig .tc .vmem S8192x64 .bf16) (harg3 : arg3.IsWhole) (arg4 : Memref sig .tc .vmem S1024x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S1024x64 .bf16) (harg7 : arg7.IsWhole) (arg8 : Memref sig .tc .vmem S1024x64 .f32) (harg8 : arg8.IsWhole) (arg9 : Memref sig .tc .vmem S1024x64 .f32) (harg9 : arg9.IsWhole) (hc0 : ¬cond8_0 i) (hc1 : cond8_1 i) (x0 : Vec F S1024x2048 .bf16) (x1 : Vec F S8192x64 .bf16) (x2 : Vec F S1024x64 .f32) (x3 : Vec F S1x64 .f32) (x4 : Vec F S1x1 .f32) (xs0 : Vec F S1024x64 .f32) :
    sout8_C_0 c i arg2 harg2 arg3 harg3 arg4 harg4 arg5 harg5 arg6 harg6 arg7 harg7 arg8 harg8 arg9 harg9 hc0 hc1 x0 x1 x2 x3 x4 xs0 = k8_pay2 (View.ld x1 (slice8 i)) xs0 x0 := by
  unfold sout8_C_0
  rw [View.read_writes_eq_canon _ _ _ (scover8_C_0 c i arg2 harg2 arg3 harg3 arg4 harg4 arg5 harg5 arg6 harg6 arg7 harg7 arg8 harg8 arg9 harg9 hc0 hc1 x0 x1 x2 x3 x4 xs0)]
  unfold kernelRun8_C
  dsimp only
  sl_unfold_run_names
  rw [View.canon_cons_unit_zero zero2_8]
  simp only [View.readAt_eq_ld, harg2.read_unread, harg3.read_unread, harg9.read_unread, View.ld_unit_zero (S := S1024x2048) zero2_8,
    View.ld_unit_zero (S := S1024x64) zero2_8]
  all_goals rfl

/-- and the narrow output's block is the accumulator rounded, -/
theorem out8_C_5_eq (c : Dev nD) (i : grid8.Coords) (arg2 : Memref sig .tc .vmem S1024x2048 .bf16) (harg2 : arg2.IsWhole) (arg3 : Memref sig .tc .vmem S8192x64 .bf16) (harg3 : arg3.IsWhole) (arg4 : Memref sig .tc .vmem S1024x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S1024x64 .bf16) (harg7 : arg7.IsWhole) (arg8 : Memref sig .tc .vmem S1024x64 .f32) (harg8 : arg8.IsWhole) (arg9 : Memref sig .tc .vmem S1024x64 .f32) (harg9 : arg9.IsWhole) (hc0 : ¬cond8_0 i) (hc1 : cond8_1 i) (x0 : Vec F S1024x2048 .bf16) (x1 : Vec F S8192x64 .bf16) (x2 : Vec F S1024x64 .f32) (x3 : Vec F S1x64 .f32) (x4 : Vec F S1x1 .f32) (xs0 : Vec F S1024x64 .f32) :
    out8_C_5 c i arg2 harg2 arg3 harg3 arg4 harg4 arg5 harg5 arg6 harg6 arg7 harg7 arg8 harg8 arg9 harg9 hc0 hc1 x0 x1 x2 x3 x4 xs0 = k8_pay3 (k8_pay2 (View.ld x1 (slice8 i)) xs0 x0) := by
  unfold out8_C_5
  rw [View.read_writes_eq_canon _ _ _ (cover8_C_5 c i arg2 harg2 arg3 harg3 arg4 harg4 arg5 harg5 arg6 harg6 arg7 harg7 arg8 harg8 arg9 harg9 hc0 hc1 x0 x1 x2 x3 x4 xs0)]
  unfold kernelRun8_C
  dsimp only
  sl_unfold_run_names
  rw [View.canon_cons_unit_zero zero2_8]
  simp only [View.readAt_eq_ld, harg2.read_unread, harg3.read_unread, harg9.read_unread, View.ld_unit_zero (S := S1024x2048) zero2_8,
    View.ld_unit_zero (S := S1024x64) zero2_8, View.readCov_unit_zero (S := S1024x64) arg9.view zero2_8]
  all_goals rfl

/-- the wide output's block the epilogue of the accumulator, the tap, the running output and the bias row. -/
theorem out8_C_6_eq (c : Dev nD) (i : grid8.Coords) (arg2 : Memref sig .tc .vmem S1024x2048 .bf16) (harg2 : arg2.IsWhole) (arg3 : Memref sig .tc .vmem S8192x64 .bf16) (harg3 : arg3.IsWhole) (arg4 : Memref sig .tc .vmem S1024x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S1024x64 .bf16) (harg7 : arg7.IsWhole) (arg8 : Memref sig .tc .vmem S1024x64 .f32) (harg8 : arg8.IsWhole) (arg9 : Memref sig .tc .vmem S1024x64 .f32) (harg9 : arg9.IsWhole) (hc0 : ¬cond8_0 i) (hc1 : cond8_1 i) (x0 : Vec F S1024x2048 .bf16) (x1 : Vec F S8192x64 .bf16) (x2 : Vec F S1024x64 .f32) (x3 : Vec F S1x64 .f32) (x4 : Vec F S1x1 .f32) (xs0 : Vec F S1024x64 .f32) :
    out8_C_6 c i arg2 harg2 arg3 harg3 arg4 harg4 arg5 harg5 arg6 harg6 arg7 harg7 arg8 harg8 arg9 harg9 hc0 hc1 x0 x1 x2 x3 x4 xs0 = k8_pay4 (k8_pay2 (View.ld x1 (slice8 i)) xs0 x0) x4 x2 x3 := by
  unfold out8_C_6
  rw [View.read_writes_eq_canon _ _ _ (cover8_C_6 c i arg2 harg2 arg3 harg3 arg4 harg4 arg5 harg5 arg6 harg6 arg7 harg7 arg8 harg8 arg9 harg9 hc0 hc1 x0 x1 x2 x3 x4 xs0)]
  unfold kernelRun8_C
  dsimp only
  sl_unfold_run_names
  rw [View.canon_cons_unit_zero zero2_8]
  simp only [View.readAt_eq_ld, harg2.read_unread, harg3.read_unread, harg4.read_unread, harg5.read_unread, harg6.read_unread, harg9.read_unread,
    View.ld_unit_zero (S := S1024x2048) zero2_8, View.ld_unit_zero (S := S1024x64) zero2_8, View.ld_unit_zero (S := S1x1) zero2_8,
    View.ld_unit_zero (S := S1x64) zero2_8, View.readCov_unit_zero (S := S1024x64) arg9.view zero2_8]
  all_goals rfl

end Pieces

section Value
variable (V : (c : Dev nD) → (b : Ref sig .tc) → Buf (Elt Ideal) ((c : Thread nD τ).loc b))

/-- The region's five input arrays as it finds them: the matrix, the propagated signal, the running output, the
    bias row, the tap. -/
abbrev mtx8 (c : Dev nD) : Cert.Spec.Mat 8192 8192 := V c (Pipeline.arrRef spec8 0)
abbrev sgn8 (c : Dev nD) : Cert.Spec.Mat 8192 64 := V c (Pipeline.arrRef spec8 1)
abbrev run8 (c : Dev nD) : Cert.Spec.Mat 8192 64 := V c (Pipeline.arrRef spec8 2)
abbrev bia8 (c : Dev nD) : Cert.Spec.Mat 1 64 := V c (Pipeline.arrRef spec8 3)
abbrev tap8 (c : Dev nD) : Cert.Spec.Mat 1 1 := V c (Pipeline.arrRef spec8 4)

/-- The block index maps and the signal's row offset, decided over the 32 points: row tile t / 4, column tile t % 4. -/
theorem idx8 : ∀ t : Fin cfg8.N,
    win8_0.index t (0 : Fin 2) = t.val / 4 ∧ win8_0.index t (1 : Fin 2) = t.val % 4
    ∧ win8_1.index t (0 : Fin 2) = 0 ∧ win8_1.index t (1 : Fin 2) = 0
    ∧ win8_2.index t (0 : Fin 2) = t.val / 4 ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0
    ∧ win8_5.index t (0 : Fin 2) = t.val / 4 ∧ win8_5.index t (1 : Fin 2) = 0
    ∧ win8_6.index t (0 : Fin 2) = t.val / 4 ∧ win8_6.index t (1 : Fin 2) = 0
    ∧ k8_off1 (grid8.coords t) (0 : Fin 2) = t.val % 4 * 2048 ∧ k8_off1 (grid8.coords t) (1 : Fin 2) = 0 :=
  (by decide +kernel : ∀ t : Fin grid8.N, _)

theorem row8_lt (n : ℕ) (hn : n < cfg8.N) (p : Fin 1024) : n / 4 * 1024 + p.val < 8192 := by
  have hN : cfg8.N = 32 := N_8
  have := p.isLt; omega
theorem col8_lt (n : ℕ) (l : Fin 2048) : n % 4 * 2048 + l.val < 8192 := by have := l.isLt; omega

theorem iblk8_0_apply (c : Dev nD) (t : Fin cfg8.N) (p : Fin 1024) (l : Fin 2048) :
    iblk8 V c 0 t (ix2 p l) = mtx8 V c (ix2 ⟨t.val / 4 * 1024 + p.val, row8_lt t.val t.isLt p⟩ ⟨t.val % 4 * 2048 + l.val, col8_lt t.val l⟩) := by
  show V c (Pipeline.arrRef spec8 0) (((cfg8.win 0).blk t).view.emb (ix2 p l)) = _
  refine congrArg _ ?_
  funext a; apply Fin.ext
  obtain ⟨e0, e1, -⟩ := idx8 t
  match a with
  | ⟨0, _⟩ => show win8_0.index t (0 : Fin 2) * 1024 + 1 * p.val = t.val / 4 * 1024 + p.val; omega
  | ⟨1, _⟩ => show win8_0.index t (1 : Fin 2) * 2048 + 1 * l.val = t.val % 4 * 2048 + l.val; omega
theorem iblk8_1_apply (c : Dev nD) (t : Fin cfg8.N) (j : Fin 8192) (q : Fin 64) :
    iblk8 V c 1 t (ix2 j q) = sgn8 V c (ix2 j q) := by
  show V c (Pipeline.arrRef spec8 1) (((cfg8.win 1).blk t).view.emb (ix2 j q)) = _
  refine congrArg _ ?_
  funext a; apply Fin.ext
  obtain ⟨-, -, e2, e3, -⟩ := idx8 t
  match a with
  | ⟨0, _⟩ => show win8_1.index t (0 : Fin 2) * 8192 + 1 * j.val = j.val; omega
  | ⟨1, _⟩ => show win8_1.index t (1 : Fin 2) * 64 + 1 * q.val = q.val; omega
theorem iblk8_2_apply (c : Dev nD) (t : Fin cfg8.N) (p : Fin 1024) (q : Fin 64) :
    iblk8 V c 2 t (ix2 p q) = run8 V c (ix2 ⟨t.val / 4 * 1024 + p.val, row8_lt t.val t.isLt p⟩ q) := by
  show V c (Pipeline.arrRef spec8 2) (((cfg8.win 2).blk t).view.emb (ix2 p q)) = _
  refine congrArg _ ?_
  funext a; apply Fin.ext
  obtain ⟨-, -, -, -, e4, e5, -⟩ := idx8 t
  match a with
  | ⟨0, _⟩ => show win8_2.index t (0 : Fin 2) * 1024 + 1 * p.val = t.val / 4 * 1024 + p.val; omega
  | ⟨1, _⟩ => show win8_2.index t (1 : Fin 2) * 64 + 1 * q.val = q.val; omega
theorem iblk8_3_apply (c : Dev nD) (t : Fin cfg8.N) (q : Fin 64) :
    iblk8 V c 3 t (ix2 0 q) = bia8 V c (ix2 0 q) := by
  show V c (Pipeline.arrRef spec8 3) (((cfg8.win 3).blk t).view.emb (ix2 0 q)) = _
  refine congrArg _ ?_
  funext a; apply Fin.ext
  obtain ⟨-, -, -, -, -, -, e6, e7, -⟩ := idx8 t
  match a with
  | ⟨0, _⟩ => show win8_3.index t (0 : Fin 2) * 1 + 1 * 0 = 0; omega
  | ⟨1, _⟩ => show win8_3.index t (1 : Fin 2) * 64 + 1 * q.val = q.val; omega
theorem iblk8_4_apply (c : Dev nD) (t : Fin cfg8.N) :
    iblk8 V c 4 t (ix2 0 0) = tap8 V c (ix2 0 0) := by
  show V c (Pipeline.arrRef spec8 4) (((cfg8.win 4).blk t).view.emb (ix2 0 0)) = _
  refine congrArg _ ?_
  funext a; apply Fin.ext
  obtain ⟨-, -, -, -, -, -, -, -, e8, e9, -⟩ := idx8 t
  match a with
  | ⟨0, _⟩ => show win8_4.index t (0 : Fin 2) * 1 + 1 * 0 = 0; omega
  | ⟨1, _⟩ => show win8_4.index t (1 : Fin 2) * 1 + 1 * 0 = 0; omega

/-- The signal's 2048 rows the point loads, read at an entry. -/
theorem slice8_apply (t : Fin cfg8.N) (x1 : Vec Ideal S8192x64 .bf16) (l : Fin 2048) (q : Fin 64) :
    View.ld x1 (slice8 (grid8.coords t)) (ix2 l q) = x1 (ix2 ⟨t.val % 4 * 2048 + l.val, col8_lt t.val l⟩ q) := by
  show x1 ((slice8 (grid8.coords t)).emb (ix2 l q)) = _
  refine congrArg _ ?_
  funext a; apply Fin.ext
  obtain ⟨-, -, -, -, -, -, -, -, -, -, -, -, -, -, e14, e15⟩ := idx8 t
  match a with
  | ⟨0, _⟩ => show k8_off1 (grid8.coords t) (0 : Fin 2) + 1 * l.val = t.val % 4 * 2048 + l.val; omega
  | ⟨1, _⟩ => show k8_off1 (grid8.coords t) (1 : Fin 2) + 1 * q.val = q.val; omega

/-- The reset's payload is zero. -/
theorem zeropay8_apply (j : S1024x64.Idx) : k8_pay1 (F := Ideal) j = 0 := by
  unfold k8_pay1
  rw [shapeCast_self]
  exact Ideal.ofBits_zero_f32

/-- The accumulate step at an entry: what was there plus the tile's product. -/
theorem accpay8_apply (x1s : Vec Ideal S2048x64 .bf16) (xs : Vec Ideal S1024x64 .f32) (x0 : Vec Ideal S1024x2048 .bf16)
    (p : Fin 1024) (q : Fin 64) :
    k8_pay2 x1s xs x0 (ix2 p q) = xs (ix2 p q) + ∑ l : Fin 2048, x0 (ix2 p l) * x1s (ix2 l q) := by
  unfold k8_pay2
  simp only [shapeCast_self]
  show xs (ix2 p q) + _ = xs (ix2 p q) + _
  refine congrArg (xs (ix2 p q) + ·) ?_
  refine (Ideal.matmul_constant_zero_apply (φ₁ := .bf16) (φ₂ := .bf16) _ none x0 x1s (ix2 p q)).trans ?_
  exact Cert.LibPlainDot.sum_plain dot_S1024x2048_S2048x64_S1024x64_1_0_0_1_n_n rfl rfl rfl rfl rfl rfl x0 x1s p q

/-- The epilogue at an entry. -/
theorem epipay8_apply (v19 : Vec Ideal S1024x64 .f32) (v22 : Vec Ideal S1x1 .f32) (v24 : Vec Ideal S1024x64 .f32) (v29 : Vec Ideal S1x64 .f32)
    (p : Fin 1024) (q : Fin 64) :
    k8_pay4 v19 v22 v24 v29 (ix2 p q) = (v24 (ix2 p q) + v22 (ix2 0 0) * v19 (ix2 p q)) + v29 (ix2 0 q) := by
  unfold k8_pay4
  simp only [shapeCast_self]
  show (v24 (ix2 p q) + (broadcastTo S1024x64 v22 broadcasts_S1x1_S1024x64) (ix2 p q) * v19 (ix2 p q)) + (broadcastTo S1024x64 v29 broadcasts_S1x64_S1024x64) (ix2 p q) = _
  rw [broadcastTo_apply v22 _ (ix2 p q) (ix2 0 0) (fun a => by match a with | ⟨0, _⟩ => rfl | ⟨1, _⟩ => rfl),
    broadcastTo_apply v29 _ (ix2 p q) (ix2 0 q) (fun a => by match a with | ⟨0, _⟩ => rfl | ⟨1, _⟩ => rfl)]
  all_goals rfl

/-- One column tile's product at a row of the array and a column. -/
def tile8 (c : Dev nD) (r : Fin 8192) (o : ℕ) (ho : o + 2048 ≤ 8192) (q : Fin 64) : EReal :=
  ∑ l : Fin 2048, mtx8 V c (ix2 r ⟨o + l.val, by have := l.isLt; omega⟩) * sgn8 V c (ix2 ⟨o + l.val, by have := l.isLt; omega⟩ q)

/-- The product the body forms at point t is the tile's: row 1024·(t/4) + p, columns from 2048·(t%4). -/
theorem pointprod8 (c : Dev nD) (t : Fin cfg8.N) (x0 : Vec Ideal S1024x2048 .bf16) (x1 : Vec Ideal S8192x64 .bf16)
    (h0 : ∀ (p : Fin 1024) (l : Fin 2048), x0 (ix2 p l) = mtx8 V c (ix2 ⟨t.val / 4 * 1024 + p.val, row8_lt t.val t.isLt p⟩ ⟨t.val % 4 * 2048 + l.val, col8_lt t.val l⟩))
    (h1 : ∀ (j : Fin 8192) (q : Fin 64), x1 (ix2 j q) = sgn8 V c (ix2 j q)) (p : Fin 1024) (q : Fin 64)
    (r : Fin 8192) (hr : r.val = t.val / 4 * 1024 + p.val) (o : ℕ) (ho' : o = t.val % 4 * 2048) (ho : o + 2048 ≤ 8192) :
    (∑ l : Fin 2048, x0 (ix2 p l) * View.ld x1 (slice8 (grid8.coords t)) (ix2 l q))
      = tile8 V c r o ho q := by
  subst ho'
  obtain rfl : r = ⟨t.val / 4 * 1024 + p.val, row8_lt t.val t.isLt p⟩ := Fin.ext hr
  unfold tile8
  exact Finset.sum_congr rfl fun l _ => by rw [h0, slice8_apply, h1]

/-- After a point at the first column tile the accumulator holds zero plus the tile's product. -/
theorem acc8_first (c : Dev nD) (n : ℕ) (hn : n < cfg8.N) (h : n % 4 = 0) (p : Fin 1024) (q : Fin 64)
    (r : Fin 8192) (hr : r.val = n / 4 * 1024 + p.val) (o : ℕ) (ho' : o = n % 4 * 2048) (ho : o + 2048 ≤ 8192) :
    (outsAt8 V c n hn).2.2 (ix2 p q) = 0 + tile8 V c r o ho q := by
  have e : outsAt8 V c n hn = _ := outsAt8_A V c ⟨n, hn⟩ h (by show ¬ n % 4 = 3; omega)
  rw [e]
  dsimp only
  rw [sout8_A_0_eq, accpay8_apply, zeropay8_apply, pointprod8 V c ⟨n, hn⟩ _ _ (iblk8_0_apply V c ⟨n, hn⟩) (iblk8_1_apply V c ⟨n, hn⟩) p q r hr o ho' ho]

/-- After any later point it holds what the point before left plus the tile's product. -/
theorem acc8_next (c : Dev nD) (n : ℕ) (hn : n < cfg8.N) (h : n % 4 ≠ 0) (p : Fin 1024) (q : Fin 64)
    (r : Fin 8192) (hr : r.val = n / 4 * 1024 + p.val) (o : ℕ) (ho' : o = n % 4 * 2048) (ho : o + 2048 ≤ 8192) :
    (outsAt8 V c n hn).2.2 (ix2 p q) = (outsAt8 V c (n - 1) (by omega)).2.2 (ix2 p q) + tile8 V c r o ho q := by
  by_cases h1 : n % 4 = 3
  · have e : outsAt8 V c n hn = _ := outsAt8_C V c ⟨n, hn⟩ h h1
    rw [e]
    dsimp only
    rw [sout8_C_0_eq, accpay8_apply, pointprod8 V c ⟨n, hn⟩ _ _ (iblk8_0_apply V c ⟨n, hn⟩) (iblk8_1_apply V c ⟨n, hn⟩) p q r hr o ho' ho]
  · have e : outsAt8 V c n hn = _ := outsAt8_B V c ⟨n, hn⟩ h h1
    rw [e]
    dsimp only
    rw [sout8_B_0_eq, accpay8_apply, pointprod8 V c ⟨n, hn⟩ _ _ (iblk8_0_apply V c ⟨n, hn⟩) (iblk8_1_apply V c ⟨n, hn⟩) p q r hr o ho' ho]

/-- After the last column tile the accumulator holds the whole product at the tile's rows. -/
theorem acc8_last (c : Dev nD) (n : ℕ) (hn : n < cfg8.N) (h : n % 4 = 3) (p : Fin 1024) (q : Fin 64) :
    (outsAt8 V c n hn).2.2 (ix2 p q)
      = Cert.Spec.prod (mtx8 V c) (sgn8 V c) (ix2 ⟨n / 4 * 1024 + p.val, row8_lt n hn p⟩ q) := by
  rw [acc8_next V c n hn (by omega) p q ⟨n / 4 * 1024 + p.val, row8_lt n hn p⟩ rfl 6144 (by omega) (by omega),
    acc8_next V c (n - 1) (by omega) (by omega) p q ⟨n / 4 * 1024 + p.val, row8_lt n hn p⟩ (by show n / 4 * 1024 + p.val = (n - 1) / 4 * 1024 + p.val; omega) 4096 (by omega) (by omega),
    acc8_next V c (n - 1 - 1) (by omega) (by omega) p q ⟨n / 4 * 1024 + p.val, row8_lt n hn p⟩ (by show n / 4 * 1024 + p.val = (n - 1 - 1) / 4 * 1024 + p.val; omega) 2048 (by omega) (by omega),
    acc8_first V c (n - 1 - 1 - 1) (by omega) (by omega) p q ⟨n / 4 * 1024 + p.val, row8_lt n hn p⟩ (by show n / 4 * 1024 + p.val = (n - 1 - 1 - 1) / 4 * 1024 + p.val; omega) 0 (by omega) (by omega)]
  unfold tile8
  simp only [Nat.zero_add]
  exact Cert.Spec.prod_tiles (mtx8 V c) (sgn8 V c) _ q

end Value

section Arrays
variable (V : (c : Dev nD) → (b : Ref sig .tc) → Buf (Elt Ideal) ((c : Thread nD τ).loc b))

/-- At a point of the last column tile the narrow output's block is the accumulator (rounded), -/
theorem out8_5_acc (c : Dev nD) (t : Fin cfg8.N) (h3 : t.val % 4 = 3) :
    (outsAt8 V c t.val t.isLt).1 = k8_pay3 ((outsAt8 V c t.val t.isLt).2.2) := by
  rw [outsAt8_C V c t (by omega) h3]
  dsimp only
  rw [out8_C_5_eq, sout8_C_0_eq]
/-- and the wide output's block the epilogue of the accumulator. -/
theorem out8_6_acc (c : Dev nD) (t : Fin cfg8.N) (h3 : t.val % 4 = 3) :
    (outsAt8 V c t.val t.isLt).2.1 = k8_pay4 ((outsAt8 V c t.val t.isLt).2.2) (iblk8 V c 4 t) (iblk8 V c 2 t) (iblk8 V c 3 t) := by
  rw [outsAt8_C V c t (by omega) h3]
  dsimp only
  rw [out8_C_6_eq, sout8_C_0_eq]

theorem emb8_5 (t : Fin cfg8.N) (p : Fin 1024) (q : Fin 64) :
    ((cfg8.win 5).blk t).view.emb (ix2 p q) = ix2 ⟨t.val / 4 * 1024 + p.val, row8_lt t.val t.isLt p⟩ q := by
  funext a; apply Fin.ext
  obtain ⟨-, -, -, -, -, -, -, -, -, -, e10, e11, -⟩ := idx8 t
  match a with
  | ⟨0, _⟩ => show win8_5.index t (0 : Fin 2) * 1024 + 1 * p.val = t.val / 4 * 1024 + p.val; omega
  | ⟨1, _⟩ => show win8_5.index t (1 : Fin 2) * 64 + 1 * q.val = q.val; omega
theorem emb8_6 (t : Fin cfg8.N) (p : Fin 1024) (q : Fin 64) :
    ((cfg8.win 6).blk t).view.emb (ix2 p q) = ix2 ⟨t.val / 4 * 1024 + p.val, row8_lt t.val t.isLt p⟩ q := by
  funext a; apply Fin.ext
  obtain ⟨-, -, -, -, -, -, -, -, -, -, -, -, e12, e13, -⟩ := idx8 t
  match a with
  | ⟨0, _⟩ => show win8_6.index t (0 : Fin 2) * 1024 + 1 * p.val = t.val / 4 * 1024 + p.val; omega
  | ⟨1, _⟩ => show win8_6.index t (1 : Fin 2) * 64 + 1 * q.val = q.val; omega

/-- What a point of the last column tile writes back into the narrow output is its block of the product. -/
theorem flushed8_5 (c : Dev nD) (t : Fin cfg8.N) (hf : (cfg8.win 5).flush t = true) :
    (dat8 (F := Ideal) V c).flushed 5 t = ((cfg8.win 5).blk t).view.read (Elt Ideal) (Cert.Spec.propSx (mtx8 V c) (sgn8 V c)) := by
  have h3 : t.val % 4 = 3 := (flush8_5 t).mp hf
  show (cfg8.win 5).cut (grid8.coords t) ((dat8 V c).after 5 t) = _
  rw [after8_5, out8_5_acc V c t h3]
  funext j
  obtain ⟨p, q, rfl⟩ : ∃ (p : Fin 1024) (q : Fin 64), j = ix2 p q := ⟨j 0, j 1, eq_ix2 j⟩
  show (outsAt8 V c t.val t.isLt).2.2 (ix2 p q) = Cert.Spec.prod (mtx8 V c) (sgn8 V c) (((cfg8.win 5).blk t).view.emb (ix2 p q))
  rw [emb8_5, acc8_last V c t.val t.isLt h3 p q]

/-- What it writes back into the wide output is its block of the updated running output. -/
theorem flushed8_6 (c : Dev nD) (t : Fin cfg8.N) (hf : (cfg8.win 6).flush t = true) :
    (dat8 (F := Ideal) V c).flushed 6 t = ((cfg8.win 6).blk t).view.read (Elt Ideal)
      (Cert.Spec.propOutB (mtx8 V c) (sgn8 V c) (run8 V c) (tap8 V c) (bia8 V c)) := by
  have h3 : t.val % 4 = 3 := (flush8_6 t).mp hf
  show (cfg8.win 6).cut (grid8.coords t) ((dat8 V c).after 6 t) = _
  rw [after8_6, out8_6_acc V c t h3]
  funext j
  obtain ⟨p, q, rfl⟩ : ∃ (p : Fin 1024) (q : Fin 64), j = ix2 p q := ⟨j 0, j 1, eq_ix2 j⟩
  show k8_pay4 ((outsAt8 V c t.val t.isLt).2.2) (iblk8 V c 4 t) (iblk8 V c 2 t) (iblk8 V c 3 t) (ix2 p q)
    = Cert.Spec.propOutB (mtx8 V c) (sgn8 V c) (run8 V c) (tap8 V c) (bia8 V c) (((cfg8.win 6).blk t).view.emb (ix2 p q))
  rw [emb8_6, epipay8_apply, acc8_last V c t.val t.isLt h3 p q, iblk8_2_apply, iblk8_4_apply, iblk8_3_apply]
  rfl

theorem mem_blk8_5 (t : Fin cfg8.N) (i : S8192x64.Idx) :
    i ∈ ((cfg8.win 5).blk t).view.set ↔ ∀ a : Fin 2, win8_5.index t a * S1024x64.size a ≤ (i a).val ∧ (i a).val < win8_5.index t a * S1024x64.size a + S1024x64.size a := by
  show i ∈ ((View.whole main_v29_0).slice (win8_5.rect t)).set ↔ _
  rw [View.set_slice_whole, Rect.mem_set_unit]
  exact Iff.rfl
theorem mem_blk8_6 (t : Fin cfg8.N) (i : S8192x64.Idx) :
    i ∈ ((cfg8.win 6).blk t).view.set ↔ ∀ a : Fin 2, win8_6.index t a * S1024x64.size a ≤ (i a).val ∧ (i a).val < win8_6.index t a * S1024x64.size a + S1024x64.size a := by
  show i ∈ ((View.whole main_v29_1).slice (win8_6.rect t)).set ↔ _
  rw [View.set_slice_whole, Rect.mem_set_unit]
  exact Iff.rfl

/-- Row r is written back by the last column tile's point of row tile r / 1024. -/
theorem covered8_5 (i : S8192x64.Idx) : ∃ t : Fin cfg8.N, (cfg8.win 5).flush t = true ∧ i ∈ ((cfg8.win 5).blk t).view.set := by
  have hi0 : (i 0).val < 8192 := (i 0).isLt
  have hi1 : (i 1).val < 64 := (i 1).isLt
  have hN : cfg8.N = 32 := N_8
  refine ⟨⟨(i 0).val / 1024 * 4 + 3, by omega⟩, (flush8_5 _).mpr (by show ((i 0).val / 1024 * 4 + 3) % 4 = 3; omega), ?_⟩
  rw [mem_blk8_5]
  obtain ⟨-, -, -, -, -, -, -, -, -, -, e10, e11, -⟩ := idx8 ⟨(i 0).val / 1024 * 4 + 3, by omega⟩
  intro a
  match a with
  | ⟨0, _⟩ =>
    show win8_5.index _ (0 : Fin 2) * 1024 ≤ (i 0).val ∧ (i 0).val < win8_5.index _ (0 : Fin 2) * 1024 + 1024
    rw [e10]; show ((i 0).val / 1024 * 4 + 3) / 4 * 1024 ≤ (i 0).val ∧ (i 0).val < ((i 0).val / 1024 * 4 + 3) / 4 * 1024 + 1024; omega
  | ⟨1, _⟩ =>
    show win8_5.index _ (1 : Fin 2) * 64 ≤ (i 1).val ∧ (i 1).val < win8_5.index _ (1 : Fin 2) * 64 + 64
    rw [e11]; omega
theorem covered8_6 (i : S8192x64.Idx) : ∃ t : Fin cfg8.N, (cfg8.win 6).flush t = true ∧ i ∈ ((cfg8.win 6).blk t).view.set := by
  have hi0 : (i 0).val < 8192 := (i 0).isLt
  have hi1 : (i 1).val < 64 := (i 1).isLt
  have hN : cfg8.N = 32 := N_8
  refine ⟨⟨(i 0).val / 1024 * 4 + 3, by omega⟩, (flush8_6 _).mpr (by show ((i 0).val / 1024 * 4 + 3) % 4 = 3; omega), ?_⟩
  rw [mem_blk8_6]
  obtain ⟨-, -, -, -, -, -, -, -, -, -, -, -, e12, e13, -⟩ := idx8 ⟨(i 0).val / 1024 * 4 + 3, by omega⟩
  intro a
  match a with
  | ⟨0, _⟩ =>
    show win8_6.index _ (0 : Fin 2) * 1024 ≤ (i 0).val ∧ (i 0).val < win8_6.index _ (0 : Fin 2) * 1024 + 1024
    rw [e12]; show ((i 0).val / 1024 * 4 + 3) / 4 * 1024 ≤ (i 0).val ∧ (i 0).val < ((i 0).val / 1024 * 4 + 3) / 4 * 1024 + 1024; omega
  | ⟨1, _⟩ =>
    show win8_6.index _ (1 : Fin 2) * 64 ≤ (i 1).val ∧ (i 1).val < win8_6.index _ (1 : Fin 2) * 64 + 64
    rw [e13]; omega

/-- The narrow output array after the region: the matrix times the propagated signal. -/
theorem value8_5 (c : Dev nD) :
    (dat8 (F := Ideal) V c).arrAt 5 cfg8.N = Cert.Spec.propSx (mtx8 V c) (sgn8 V c) :=
  (dat8 V c).arrAt_eq_of_cover 5 _ (fun t hf => flushed8_5 V c t hf) (covered8_5)
/-- The wide output array after the region: the running output updated by the tap times that product. -/
theorem value8_6 (c : Dev nD) :
    (dat8 (F := Ideal) V c).arrAt 6 cfg8.N
      = Cert.Spec.propOutB (mtx8 V c) (sgn8 V c) (run8 V c) (tap8 V c) (bia8 V c) :=
  (dat8 V c).arrAt_eq_of_cover 6 _ (fun t hf => flushed8_6 V c t hf) (covered8_6)

end Arrays

end Cert.KernelIdeal.Hand

end
-- ==== Proof.KI.Final.lean ====
/-
  The launches' values, collected, and the program's result.

  Each launch's output arrays were computed separately, each as a function of the arrays the launch was entered
  from. Together they are exactly what the walk through the program's buffers asks for, so the result buffer at
  the end holds the specification's network of the arguments.
-/
import proofs.«131271_j4982162063661_2_alg».proof.Proof.KI.Value
import proofs.«131271_j4982162063661_2_alg».proof.Proof.KI.Small0Value
import proofs.«131271_j4982162063661_2_alg».proof.Proof.KI.Small3Value
import proofs.«131271_j4982162063661_2_alg».proof.Proof.KI.Small6Value
import proofs.«131271_j4982162063661_2_alg».proof.Proof.KI.Cast1Value
import proofs.«131271_j4982162063661_2_alg».proof.Proof.KI.Prop2Value
import proofs.«131271_j4982162063661_2_alg».proof.Proof.KI.Prop4Value
import proofs.«131271_j4982162063661_2_alg».proof.Proof.KI.Prop5Value
import proofs.«131271_j4982162063661_2_alg».proof.Proof.KI.Prop7Value
import proofs.«131271_j4982162063661_2_alg».proof.Proof.KI.Prop8Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

set_option maxHeartbeats 4000000 in
/-- Every launch leaves in its output arrays what the walk through the buffers expects. -/
theorem regionValues : RegionValues where
  r0w3 := fun V c => value0_3 V c
  r0w4 := fun V c => value0_4 V c
  r1w5 := fun V c => value1_5 V c
  r1w6 := fun V c => value1_6 V c
  r1w7 := fun V c => value1_7 V c
  r2w6 := fun V c => value2_6 V c
  r3w3 := fun V c => value3_3 V c
  r3w4 := fun V c => value3_4 V c
  r4w5 := fun V c => value4_5 V c
  r4w6 := fun V c => value4_6 V c
  r5w6 := fun V c => value5_6 V c
  r6w3 := fun V c => value6_3 V c
  r6w4 := fun V c => value6_4 V c
  r7w5 := fun V c => value7_5 V c
  r7w6 := fun V c => value7_6 V c
  r8w6 := fun V c => value8_6 V c

/-- The result buffer at the end of the program holds the specification's network of the arguments as launched. -/
theorem result_net (m : (ℓ : Loc nD τ sig) → Buf (Elt Ideal) ℓ) (c : Dev nD) :
    (B12 m c (Proc.devRef .tc main_v29_1) : Spec.Mat 8192 64)
      = Spec.net (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
          (m ((c.tc : Thread nD τ).loc main_arg10)) :=
  result_is_net m c regionValues

end Cert.KernelIdeal.Hand

end
-- ==== Proof.RefSpec.lean ====
/-
  The reference program computes the specification's network.

  Its run ends with the result buffer holding a composition of stages, one per host operation. Read stage by stage,
  each of its three layers is the layer function of the specification: the dense map and the two propagations are
  matrix products (a contraction over one axis, re-indexed by its one coordinate), a filter tap is one entry of the
  length-3 vector sliced, reshaped to a scalar and broadcast to the whole matrix, the bias is the length-d vector
  broadcast along the rows, and the rectifier is the maximum with the broadcast zero word. The reference multiplies
  with the tap on the left and adds from the left, as the specification does, so no algebraic law is used.
-/
import proofs.«131271_j4982162063661_2_alg».proof.Proof.Gen.ReferenceIdeal.Read
import proofs.«131271_j4982162063661_2_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx

/-- A rank-2 index with the coordinates a and b is `ix2 a b`. -/
theorem idx2_eq {n0 n1 : ℕ} (f : (⟨2, ![n0, n1]⟩ : Shape).Idx) (a : Fin n0) (b : Fin n1)
    (h0 : f 0 = a) (h1 : f 1 = b) : f = ix2 a b := by
  funext d
  match d with
  | ⟨0, _⟩ => exact h0
  | ⟨1, _⟩ => exact h1

/-- A one-element vector reshaped to a scalar is its one entry. -/
theorem scalar_cast (y : S1.Idx → EReal) (h : S1.ShapeCasts S_) (j : S_.Idx) : shapeCast S_ y h j = y (ix1 (0 : Fin 1)) := by
  unfold shapeCast
  refine congrArg y (funext fun a => ?_)
  match a with
  | ⟨0, _⟩ => exact Fin.ext (by
      have hlt : ((Shape.reshapeEquiv h j) ⟨0, by decide⟩).val < 1 := Fin.isLt _
      show ((Shape.reshapeEquiv h j) ⟨0, _⟩).val = 0
      omega)

/-! ## Layer 1 -/

/-- Tap 0 of layer 1: entry 0 of the filter vector, everywhere. -/
theorem tap0_L1 (x3 : (⟨S3, .f32⟩ : BufTy).Contents (Elt Ideal)) (i : S8192x128.Idx) : val_main_v3 (F := Ideal) x3 i = x3 (ix1 (0 : Fin 3)) := by
  rw [val_main_v3_apply]
  unfold val_main_v2
  rw [scalar_cast, val_main_v1_apply]
  exact congrArg x3 (funext fun a => match a with | ⟨0, _⟩ => rfl)

/-- Tap 1 of layer 1: entry 1 of the filter vector, everywhere. -/
theorem tap1_L1 (x3 : (⟨S3, .f32⟩ : BufTy).Contents (Elt Ideal)) (i : S8192x128.Idx) : val_main_v8 (F := Ideal) x3 i = x3 (ix1 (1 : Fin 3)) := by
  rw [val_main_v8_apply]
  unfold val_main_v7
  rw [scalar_cast, val_main_v6_apply]
  exact congrArg x3 (funext fun a => match a with | ⟨0, _⟩ => rfl)

/-- Tap 2 of layer 1: entry 2 of the filter vector, everywhere. -/
theorem tap2_L1 (x3 : (⟨S3, .f32⟩ : BufTy).Contents (Elt Ideal)) (i : S8192x128.Idx) : val_main_v14 (F := Ideal) x3 i = x3 (ix1 (2 : Fin 3)) := by
  rw [val_main_v14_apply]
  unfold val_main_v13
  rw [scalar_cast, val_main_v12_apply]
  exact congrArg x3 (funext fun a => match a with | ⟨0, _⟩ => rfl)

/-- The bias of layer 1: the entry of the bias vector at the column, in every row. -/
theorem bias_L1 (x4 : (⟨S128, .f32⟩ : BufTy).Contents (Elt Ideal)) (i : S8192x128.Idx) : val_main_v18 (F := Ideal) x4 i = x4 (ix1 (i 1)) := by
  rw [val_main_v18_apply, val_main_v17_apply]
  exact congrArg x4 (funext fun a => match a with | ⟨0, _⟩ => rfl)

/-- The rectifier's constant in layer 1: the zero word. -/
theorem zero_L1 (i : S8192x128.Idx) : val_main_call0_v0 (F := Ideal) i = Spec.zeroWord := by
  rw [val_main_call0_v0_apply]; rfl

/-- The dense map of layer 1 is the product of the layer's input with its weights. -/
theorem sx0_L1 (x1 : (⟨S8192x512, .f32⟩ : BufTy).Contents (Elt Ideal)) (x2 : (⟨S512x128, .f32⟩ : BufTy).Contents (Elt Ideal)) :
    val_main_v0 (F := Ideal) x1 x2 = Spec.sx0 x1 x2 := by
  funext i
  rw [val_main_v0_apply]
  show _ = ∑ j : Fin 512, x1 (ix2 (i 0) j) * x2 (ix2 j (i 1))
  exact Finset.sum_congr rfl fun k _ => congrArg₂ (· * ·)
    (congrArg x1 (idx2_eq (lidx_main_v0 i k) (i 0) k rfl rfl))
    (congrArg x2 (idx2_eq (ridx_main_v0 i k) k (i 1) rfl rfl))

/-- One propagation in layer 1. -/
theorem sx1_L1 (x0 : (⟨S8192x8192, .f32⟩ : BufTy).Contents (Elt Ideal)) (x1 : (⟨S8192x512, .f32⟩ : BufTy).Contents (Elt Ideal)) (x2 : (⟨S512x128, .f32⟩ : BufTy).Contents (Elt Ideal)) :
    val_main_v5 (F := Ideal) x0 x1 x2 = Spec.sx1 x0 x1 x2 := by
  funext i
  rw [val_main_v5_apply, sx0_L1]
  show _ = ∑ j : Fin 8192, x0 (ix2 (i 0) j) * Spec.sx0 x1 x2 (ix2 j (i 1))
  exact Finset.sum_congr rfl fun k _ => congrArg₂ (· * ·)
    (congrArg x0 (idx2_eq (lidx_main_v5 i k) (i 0) k rfl rfl))
    (congrArg (Spec.sx0 x1 x2) (idx2_eq (ridx_main_v5 i k) k (i 1) rfl rfl))

/-- Two propagations in layer 1. -/
theorem sx2_L1 (x0 : (⟨S8192x8192, .f32⟩ : BufTy).Contents (Elt Ideal)) (x1 : (⟨S8192x512, .f32⟩ : BufTy).Contents (Elt Ideal)) (x2 : (⟨S512x128, .f32⟩ : BufTy).Contents (Elt Ideal)) :
    val_main_v11 (F := Ideal) x0 x1 x2 = Spec.sx2 x0 x1 x2 := by
  funext i
  rw [val_main_v11_apply, sx1_L1]
  show _ = ∑ j : Fin 8192, x0 (ix2 (i 0) j) * Spec.sx1 x0 x1 x2 (ix2 j (i 1))
  exact Finset.sum_congr rfl fun k _ => congrArg₂ (· * ·)
    (congrArg x0 (idx2_eq (lidx_main_v11 i k) (i 0) k rfl rfl))
    (congrArg (Spec.sx1 x0 x1 x2) (idx2_eq (ridx_main_v11 i k) k (i 1) rfl rfl))

/-- The first term of the filter in layer 1. -/
theorem out0_L1 (x1 : (⟨S8192x512, .f32⟩ : BufTy).Contents (Elt Ideal)) (x2 : (⟨S512x128, .f32⟩ : BufTy).Contents (Elt Ideal)) (x3 : (⟨S3, .f32⟩ : BufTy).Contents (Elt Ideal)) :
    val_main_v4 (F := Ideal) x1 x2 x3 = Spec.out0 x1 x2 x3 := by
  funext i
  rw [val_main_v4_apply, tap0_L1, sx0_L1]
  rfl

/-- The filter of layer 1 up to its second term. -/
theorem out1_L1 (x0 : (⟨S8192x8192, .f32⟩ : BufTy).Contents (Elt Ideal)) (x1 : (⟨S8192x512, .f32⟩ : BufTy).Contents (Elt Ideal)) (x2 : (⟨S512x128, .f32⟩ : BufTy).Contents (Elt Ideal)) (x3 : (⟨S3, .f32⟩ : BufTy).Contents (Elt Ideal)) :
    val_main_v10 (F := Ideal) x0 x1 x2 x3 = Spec.out1 x0 x1 x2 x3 := by
  funext i
  rw [val_main_v10_apply, out0_L1, val_main_v9_apply, tap1_L1, sx1_L1]
  rfl

/-- The whole filter of layer 1 with its bias. -/
theorem out2_L1 (x0 : (⟨S8192x8192, .f32⟩ : BufTy).Contents (Elt Ideal)) (x1 : (⟨S8192x512, .f32⟩ : BufTy).Contents (Elt Ideal)) (x2 : (⟨S512x128, .f32⟩ : BufTy).Contents (Elt Ideal)) (x3 : (⟨S3, .f32⟩ : BufTy).Contents (Elt Ideal)) (x4 : (⟨S128, .f32⟩ : BufTy).Contents (Elt Ideal)) :
    val_main_v19 (F := Ideal) x0 x1 x2 x3 x4 = Spec.out2 x0 x1 x2 x3 x4 := by
  funext i
  rw [val_main_v19_apply, val_main_v16_apply, out1_L1, val_main_v15_apply, tap2_L1, sx2_L1, bias_L1]
  rfl

/-- Layer 1 of the reference is the specification's rectified layer of its input. -/
theorem layer_L1 (x0 : (⟨S8192x8192, .f32⟩ : BufTy).Contents (Elt Ideal)) (x1 : (⟨S8192x512, .f32⟩ : BufTy).Contents (Elt Ideal)) (x2 : (⟨S512x128, .f32⟩ : BufTy).Contents (Elt Ideal)) (x3 : (⟨S3, .f32⟩ : BufTy).Contents (Elt Ideal)) (x4 : (⟨S128, .f32⟩ : BufTy).Contents (Elt Ideal)) :
    val_main_v20 (F := Ideal) x0 x1 x2 x3 x4 = Spec.layer true x0 x1 x2 x3 x4 := by
  funext i
  rw [val_main_v20_apply, out2_L1, zero_L1]
  rfl

/-! ## Layer 2 -/

/-- Tap 0 of layer 2: entry 0 of the filter vector, everywhere. -/
theorem tap0_L2 (x6 : (⟨S3, .f32⟩ : BufTy).Contents (Elt Ideal)) (i : S8192x128.Idx) : val_main_v24 (F := Ideal) x6 i = x6 (ix1 (0 : Fin 3)) := by
  rw [val_main_v24_apply]
  unfold val_main_v23
  rw [scalar_cast, val_main_v22_apply]
  exact congrArg x6 (funext fun a => match a with | ⟨0, _⟩ => rfl)

/-- Tap 1 of layer 2: entry 1 of the filter vector, everywhere. -/
theorem tap1_L2 (x6 : (⟨S3, .f32⟩ : BufTy).Contents (Elt Ideal)) (i : S8192x128.Idx) : val_main_v29 (F := Ideal) x6 i = x6 (ix1 (1 : Fin 3)) := by
  rw [val_main_v29_apply]
  unfold val_main_v28
  rw [scalar_cast, val_main_v27_apply]
  exact congrArg x6 (funext fun a => match a with | ⟨0, _⟩ => rfl)

/-- Tap 2 of layer 2: entry 2 of the filter vector, everywhere. -/
theorem tap2_L2 (x6 : (⟨S3, .f32⟩ : BufTy).Contents (Elt Ideal)) (i : S8192x128.Idx) : val_main_v35 (F := Ideal) x6 i = x6 (ix1 (2 : Fin 3)) := by
  rw [val_main_v35_apply]
  unfold val_main_v34
  rw [scalar_cast, val_main_v33_apply]
  exact congrArg x6 (funext fun a => match a with | ⟨0, _⟩ => rfl)

/-- The bias of layer 2: the entry of the bias vector at the column, in every row. -/
theorem bias_L2 (x7 : (⟨S128, .f32⟩ : BufTy).Contents (Elt Ideal)) (i : S8192x128.Idx) : val_main_v39 (F := Ideal) x7 i = x7 (ix1 (i 1)) := by
  rw [val_main_v39_apply, val_main_v38_apply]
  exact congrArg x7 (funext fun a => match a with | ⟨0, _⟩ => rfl)

/-- The rectifier's constant in layer 2: the zero word. -/
theorem zero_L2 (i : S8192x128.Idx) : val_main_call1_v0 (F := Ideal) i = Spec.zeroWord := by
  rw [val_main_call1_v0_apply]; rfl

/-- The dense map of layer 2 is the product of the layer's input with its weights. -/
theorem sx0_L2 (x0 : (⟨S8192x8192, .f32⟩ : BufTy).Contents (Elt Ideal)) (x1 : (⟨S8192x512, .f32⟩ : BufTy).Contents (Elt Ideal)) (x2 : (⟨S512x128, .f32⟩ : BufTy).Contents (Elt Ideal)) (x3 : (⟨S3, .f32⟩ : BufTy).Contents (Elt Ideal)) (x4 : (⟨S128, .f32⟩ : BufTy).Contents (Elt Ideal)) (x5 : (⟨S128x128, .f32⟩ : BufTy).Contents (Elt Ideal)) :
    val_main_v21 (F := Ideal) x0 x1 x2 x3 x4 x5 = Spec.sx0 (val_main_v20 (F := Ideal) x0 x1 x2 x3 x4) x5 := by
  funext i
  rw [val_main_v21_apply]
  show _ = ∑ j : Fin 128, (val_main_v20 (F := Ideal) x0 x1 x2 x3 x4) (ix2 (i 0) j) * x5 (ix2 j (i 1))
  exact Finset.sum_congr rfl fun k _ => congrArg₂ (· * ·)
    (congrArg (val_main_v20 (F := Ideal) x0 x1 x2 x3 x4) (idx2_eq (lidx_main_v21 i k) (i 0) k rfl rfl))
    (congrArg x5 (idx2_eq (ridx_main_v21 i k) k (i 1) rfl rfl))

/-- One propagation in layer 2. -/
theorem sx1_L2 (x0 : (⟨S8192x8192, .f32⟩ : BufTy).Contents (Elt Ideal)) (x1 : (⟨S8192x512, .f32⟩ : BufTy).Contents (Elt Ideal)) (x2 : (⟨S512x128, .f32⟩ : BufTy).Contents (Elt Ideal)) (x3 : (⟨S3, .f32⟩ : BufTy).Contents (Elt Ideal)) (x4 : (⟨S128, .f32⟩ : BufTy).Contents (Elt Ideal)) (x5 : (⟨S128x128, .f32⟩ : BufTy).Contents (Elt Ideal)) :
    val_main_v26 (F := Ideal) x0 x1 x2 x3 x4 x5 = Spec.sx1 x0 (val_main_v20 (F := Ideal) x0 x1 x2 x3 x4) x5 := by
  funext i
  rw [val_main_v26_apply, sx0_L2]
  show _ = ∑ j : Fin 8192, x0 (ix2 (i 0) j) * Spec.sx0 (val_main_v20 (F := Ideal) x0 x1 x2 x3 x4) x5 (ix2 j (i 1))
  exact Finset.sum_congr rfl fun k _ => congrArg₂ (· * ·)
    (congrArg x0 (idx2_eq (lidx_main_v26 i k) (i 0) k rfl rfl))
    (congrArg (Spec.sx0 (val_main_v20 (F := Ideal) x0 x1 x2 x3 x4) x5) (idx2_eq (ridx_main_v26 i k) k (i 1) rfl rfl))

/-- Two propagations in layer 2. -/
theorem sx2_L2 (x0 : (⟨S8192x8192, .f32⟩ : BufTy).Contents (Elt Ideal)) (x1 : (⟨S8192x512, .f32⟩ : BufTy).Contents (Elt Ideal)) (x2 : (⟨S512x128, .f32⟩ : BufTy).Contents (Elt Ideal)) (x3 : (⟨S3, .f32⟩ : BufTy).Contents (Elt Ideal)) (x4 : (⟨S128, .f32⟩ : BufTy).Contents (Elt Ideal)) (x5 : (⟨S128x128, .f32⟩ : BufTy).Contents (Elt Ideal)) :
    val_main_v32 (F := Ideal) x0 x1 x2 x3 x4 x5 = Spec.sx2 x0 (val_main_v20 (F := Ideal) x0 x1 x2 x3 x4) x5 := by
  funext i
  rw [val_main_v32_apply, sx1_L2]
  show _ = ∑ j : Fin 8192, x0 (ix2 (i 0) j) * Spec.sx1 x0 (val_main_v20 (F := Ideal) x0 x1 x2 x3 x4) x5 (ix2 j (i 1))
  exact Finset.sum_congr rfl fun k _ => congrArg₂ (· * ·)
    (congrArg x0 (idx2_eq (lidx_main_v32 i k) (i 0) k rfl rfl))
    (congrArg (Spec.sx1 x0 (val_main_v20 (F := Ideal) x0 x1 x2 x3 x4) x5) (idx2_eq (ridx_main_v32 i k) k (i 1) rfl rfl))

/-- The first term of the filter in layer 2. -/
theorem out0_L2 (x0 : (⟨S8192x8192, .f32⟩ : BufTy).Contents (Elt Ideal)) (x1 : (⟨S8192x512, .f32⟩ : BufTy).Contents (Elt Ideal)) (x2 : (⟨S512x128, .f32⟩ : BufTy).Contents (Elt Ideal)) (x3 : (⟨S3, .f32⟩ : BufTy).Contents (Elt Ideal)) (x4 : (⟨S128, .f32⟩ : BufTy).Contents (Elt Ideal)) (x5 : (⟨S128x128, .f32⟩ : BufTy).Contents (Elt Ideal)) (x6 : (⟨S3, .f32⟩ : BufTy).Contents (Elt Ideal)) :
    val_main_v25 (F := Ideal) x0 x1 x2 x3 x4 x5 x6 = Spec.out0 (val_main_v20 (F := Ideal) x0 x1 x2 x3 x4) x5 x6 := by
  funext i
  rw [val_main_v25_apply, tap0_L2, sx0_L2]
  rfl

/-- The filter of layer 2 up to its second term. -/
theorem out1_L2 (x0 : (⟨S8192x8192, .f32⟩ : BufTy).Contents (Elt Ideal)) (x1 : (⟨S8192x512, .f32⟩ : BufTy).Contents (Elt Ideal)) (x2 : (⟨S512x128, .f32⟩ : BufTy).Contents (Elt Ideal)) (x3 : (⟨S3, .f32⟩ : BufTy).Contents (Elt Ideal)) (x4 : (⟨S128, .f32⟩ : BufTy).Contents (Elt Ideal)) (x5 : (⟨S128x128, .f32⟩ : BufTy).Contents (Elt Ideal)) (x6 : (⟨S3, .f32⟩ : BufTy).Contents (Elt Ideal)) :
    val_main_v31 (F := Ideal) x0 x1 x2 x3 x4 x5 x6 = Spec.out1 x0 (val_main_v20 (F := Ideal) x0 x1 x2 x3 x4) x5 x6 := by
  funext i
  rw [val_main_v31_apply, out0_L2, val_main_v30_apply, tap1_L2, sx1_L2]
  rfl

/-- The whole filter of layer 2 with its bias. -/
theorem out2_L2 (x0 : (⟨S8192x8192, .f32⟩ : BufTy).Contents (Elt Ideal)) (x1 : (⟨S8192x512, .f32⟩ : BufTy).Contents (Elt Ideal)) (x2 : (⟨S512x128, .f32⟩ : BufTy).Contents (Elt Ideal)) (x3 : (⟨S3, .f32⟩ : BufTy).Contents (Elt Ideal)) (x4 : (⟨S128, .f32⟩ : BufTy).Contents (Elt Ideal)) (x5 : (⟨S128x128, .f32⟩ : BufTy).Contents (Elt Ideal)) (x6 : (⟨S3, .f32⟩ : BufTy).Contents (Elt Ideal)) (x7 : (⟨S128, .f32⟩ : BufTy).Contents (Elt Ideal)) :
    val_main_v40 (F := Ideal) x0 x1 x2 x3 x4 x5 x6 x7 = Spec.out2 x0 (val_main_v20 (F := Ideal) x0 x1 x2 x3 x4) x5 x6 x7 := by
  funext i
  rw [val_main_v40_apply, val_main_v37_apply, out1_L2, val_main_v36_apply, tap2_L2, sx2_L2, bias_L2]
  rfl

/-- Layer 2 of the reference is the specification's rectified layer of its input. -/
theorem layer_L2 (x0 : (⟨S8192x8192, .f32⟩ : BufTy).Contents (Elt Ideal)) (x1 : (⟨S8192x512, .f32⟩ : BufTy).Contents (Elt Ideal)) (x2 : (⟨S512x128, .f32⟩ : BufTy).Contents (Elt Ideal)) (x3 : (⟨S3, .f32⟩ : BufTy).Contents (Elt Ideal)) (x4 : (⟨S128, .f32⟩ : BufTy).Contents (Elt Ideal)) (x5 : (⟨S128x128, .f32⟩ : BufTy).Contents (Elt Ideal)) (x6 : (⟨S3, .f32⟩ : BufTy).Contents (Elt Ideal)) (x7 : (⟨S128, .f32⟩ : BufTy).Contents (Elt Ideal)) :
    val_main_v41 (F := Ideal) x0 x1 x2 x3 x4 x5 x6 x7 = Spec.layer true x0 (val_main_v20 (F := Ideal) x0 x1 x2 x3 x4) x5 x6 x7 := by
  funext i
  rw [val_main_v41_apply, out2_L2, zero_L2]
  rfl

/-! ## Layer 3 -/

/-- Tap 0 of layer 3: entry 0 of the filter vector, everywhere. -/
theorem tap0_L3 (x9 : (⟨S3, .f32⟩ : BufTy).Contents (Elt Ideal)) (i : S8192x64.Idx) : val_main_v45 (F := Ideal) x9 i = x9 (ix1 (0 : Fin 3)) := by
  rw [val_main_v45_apply]
  unfold val_main_v44
  rw [scalar_cast, val_main_v43_apply]
  exact congrArg x9 (funext fun a => match a with | ⟨0, _⟩ => rfl)

/-- Tap 1 of layer 3: entry 1 of the filter vector, everywhere. -/
theorem tap1_L3 (x9 : (⟨S3, .f32⟩ : BufTy).Contents (Elt Ideal)) (i : S8192x64.Idx) : val_main_v50 (F := Ideal) x9 i = x9 (ix1 (1 : Fin 3)) := by
  rw [val_main_v50_apply]
  unfold val_main_v49
  rw [scalar_cast, val_main_v48_apply]
  exact congrArg x9 (funext fun a => match a with | ⟨0, _⟩ => rfl)

/-- Tap 2 of layer 3: entry 2 of the filter vector, everywhere. -/
theorem tap2_L3 (x9 : (⟨S3, .f32⟩ : BufTy).Contents (Elt Ideal)) (i : S8192x64.Idx) : val_main_v56 (F := Ideal) x9 i = x9 (ix1 (2 : Fin 3)) := by
  rw [val_main_v56_apply]
  unfold val_main_v55
  rw [scalar_cast, val_main_v54_apply]
  exact congrArg x9 (funext fun a => match a with | ⟨0, _⟩ => rfl)

/-- The bias of layer 3: the entry of the bias vector at the column, in every row. -/
theorem bias_L3 (x10 : (⟨S64, .f32⟩ : BufTy).Contents (Elt Ideal)) (i : S8192x64.Idx) : val_main_v60 (F := Ideal) x10 i = x10 (ix1 (i 1)) := by
  rw [val_main_v60_apply, val_main_v59_apply]
  exact congrArg x10 (funext fun a => match a with | ⟨0, _⟩ => rfl)

/-- The dense map of layer 3 is the product of the layer's input with its weights. -/
theorem sx0_L3 (x0 : (⟨S8192x8192, .f32⟩ : BufTy).Contents (Elt Ideal)) (x1 : (⟨S8192x512, .f32⟩ : BufTy).Contents (Elt Ideal)) (x2 : (⟨S512x128, .f32⟩ : BufTy).Contents (Elt Ideal)) (x3 : (⟨S3, .f32⟩ : BufTy).Contents (Elt Ideal)) (x4 : (⟨S128, .f32⟩ : BufTy).Contents (Elt Ideal)) (x5 : (⟨S128x128, .f32⟩ : BufTy).Contents (Elt Ideal)) (x6 : (⟨S3, .f32⟩ : BufTy).Contents (Elt Ideal)) (x7 : (⟨S128, .f32⟩ : BufTy).Contents (Elt Ideal)) (x8 : (⟨S128x64, .f32⟩ : BufTy).Contents (Elt Ideal)) :
    val_main_v42 (F := Ideal) x0 x1 x2 x3 x4 x5 x6 x7 x8 = Spec.sx0 (val_main_v41 (F := Ideal) x0 x1 x2 x3 x4 x5 x6 x7) x8 := by
  funext i
  rw [val_main_v42_apply]
  show _ = ∑ j : Fin 128, (val_main_v41 (F := Ideal) x0 x1 x2 x3 x4 x5 x6 x7) (ix2 (i 0) j) * x8 (ix2 j (i 1))
  exact Finset.sum_congr rfl fun k _ => congrArg₂ (· * ·)
    (congrArg (val_main_v41 (F := Ideal) x0 x1 x2 x3 x4 x5 x6 x7) (idx2_eq (lidx_main_v42 i k) (i 0) k rfl rfl))
    (congrArg x8 (idx2_eq (ridx_main_v42 i k) k (i 1) rfl rfl))

/-- One propagation in layer 3. -/
theorem sx1_L3 (x0 : (⟨S8192x8192, .f32⟩ : BufTy).Contents (Elt Ideal)) (x1 : (⟨S8192x512, .f32⟩ : BufTy).Contents (Elt Ideal)) (x2 : (⟨S512x128, .f32⟩ : BufTy).Contents (Elt Ideal)) (x3 : (⟨S3, .f32⟩ : BufTy).Contents (Elt Ideal)) (x4 : (⟨S128, .f32⟩ : BufTy).Contents (Elt Ideal)) (x5 : (⟨S128x128, .f32⟩ : BufTy).Contents (Elt Ideal)) (x6 : (⟨S3, .f32⟩ : BufTy).Contents (Elt Ideal)) (x7 : (⟨S128, .f32⟩ : BufTy).Contents (Elt Ideal)) (x8 : (⟨S128x64, .f32⟩ : BufTy).Contents (Elt Ideal)) :
    val_main_v47 (F := Ideal) x0 x1 x2 x3 x4 x5 x6 x7 x8 = Spec.sx1 x0 (val_main_v41 (F := Ideal) x0 x1 x2 x3 x4 x5 x6 x7) x8 := by
  funext i
  rw [val_main_v47_apply, sx0_L3]
  show _ = ∑ j : Fin 8192, x0 (ix2 (i 0) j) * Spec.sx0 (val_main_v41 (F := Ideal) x0 x1 x2 x3 x4 x5 x6 x7) x8 (ix2 j (i 1))
  exact Finset.sum_congr rfl fun k _ => congrArg₂ (· * ·)
    (congrArg x0 (idx2_eq (lidx_main_v47 i k) (i 0) k rfl rfl))
    (congrArg (Spec.sx0 (val_main_v41 (F := Ideal) x0 x1 x2 x3 x4 x5 x6 x7) x8) (idx2_eq (ridx_main_v47 i k) k (i 1) rfl rfl))

/-- Two propagations in layer 3. -/
theorem sx2_L3 (x0 : (⟨S8192x8192, .f32⟩ : BufTy).Contents (Elt Ideal)) (x1 : (⟨S8192x512, .f32⟩ : BufTy).Contents (Elt Ideal)) (x2 : (⟨S512x128, .f32⟩ : BufTy).Contents (Elt Ideal)) (x3 : (⟨S3, .f32⟩ : BufTy).Contents (Elt Ideal)) (x4 : (⟨S128, .f32⟩ : BufTy).Contents (Elt Ideal)) (x5 : (⟨S128x128, .f32⟩ : BufTy).Contents (Elt Ideal)) (x6 : (⟨S3, .f32⟩ : BufTy).Contents (Elt Ideal)) (x7 : (⟨S128, .f32⟩ : BufTy).Contents (Elt Ideal)) (x8 : (⟨S128x64, .f32⟩ : BufTy).Contents (Elt Ideal)) :
    val_main_v53 (F := Ideal) x0 x1 x2 x3 x4 x5 x6 x7 x8 = Spec.sx2 x0 (val_main_v41 (F := Ideal) x0 x1 x2 x3 x4 x5 x6 x7) x8 := by
  funext i
  rw [val_main_v53_apply, sx1_L3]
  show _ = ∑ j : Fin 8192, x0 (ix2 (i 0) j) * Spec.sx1 x0 (val_main_v41 (F := Ideal) x0 x1 x2 x3 x4 x5 x6 x7) x8 (ix2 j (i 1))
  exact Finset.sum_congr rfl fun k _ => congrArg₂ (· * ·)
    (congrArg x0 (idx2_eq (lidx_main_v53 i k) (i 0) k rfl rfl))
    (congrArg (Spec.sx1 x0 (val_main_v41 (F := Ideal) x0 x1 x2 x3 x4 x5 x6 x7) x8) (idx2_eq (ridx_main_v53 i k) k (i 1) rfl rfl))

/-- The first term of the filter in layer 3. -/
theorem out0_L3 (x0 : (⟨S8192x8192, .f32⟩ : BufTy).Contents (Elt Ideal)) (x1 : (⟨S8192x512, .f32⟩ : BufTy).Contents (Elt Ideal)) (x2 : (⟨S512x128, .f32⟩ : BufTy).Contents (Elt Ideal)) (x3 : (⟨S3, .f32⟩ : BufTy).Contents (Elt Ideal)) (x4 : (⟨S128, .f32⟩ : BufTy).Contents (Elt Ideal)) (x5 : (⟨S128x128, .f32⟩ : BufTy).Contents (Elt Ideal)) (x6 : (⟨S3, .f32⟩ : BufTy).Contents (Elt Ideal)) (x7 : (⟨S128, .f32⟩ : BufTy).Contents (Elt Ideal)) (x8 : (⟨S128x64, .f32⟩ : BufTy).Contents (Elt Ideal)) (x9 : (⟨S3, .f32⟩ : BufTy).Contents (Elt Ideal)) :
    val_main_v46 (F := Ideal) x0 x1 x2 x3 x4 x5 x6 x7 x8 x9 = Spec.out0 (val_main_v41 (F := Ideal) x0 x1 x2 x3 x4 x5 x6 x7) x8 x9 := by
  funext i
  rw [val_main_v46_apply, tap0_L3, sx0_L3]
  rfl

/-- The filter of layer 3 up to its second term. -/
theorem out1_L3 (x0 : (⟨S8192x8192, .f32⟩ : BufTy).Contents (Elt Ideal)) (x1 : (⟨S8192x512, .f32⟩ : BufTy).Contents (Elt Ideal)) (x2 : (⟨S512x128, .f32⟩ : BufTy).Contents (Elt Ideal)) (x3 : (⟨S3, .f32⟩ : BufTy).Contents (Elt Ideal)) (x4 : (⟨S128, .f32⟩ : BufTy).Contents (Elt Ideal)) (x5 : (⟨S128x128, .f32⟩ : BufTy).Contents (Elt Ideal)) (x6 : (⟨S3, .f32⟩ : BufTy).Contents (Elt Ideal)) (x7 : (⟨S128, .f32⟩ : BufTy).Contents (Elt Ideal)) (x8 : (⟨S128x64, .f32⟩ : BufTy).Contents (Elt Ideal)) (x9 : (⟨S3, .f32⟩ : BufTy).Contents (Elt Ideal)) :
    val_main_v52 (F := Ideal) x0 x1 x2 x3 x4 x5 x6 x7 x8 x9 = Spec.out1 x0 (val_main_v41 (F := Ideal) x0 x1 x2 x3 x4 x5 x6 x7) x8 x9 := by
  funext i
  rw [val_main_v52_apply, out0_L3, val_main_v51_apply, tap1_L3, sx1_L3]
  rfl

/-- The whole filter of layer 3 with its bias. -/
theorem out2_L3 (x0 : (⟨S8192x8192, .f32⟩ : BufTy).Contents (Elt Ideal)) (x1 : (⟨S8192x512, .f32⟩ : BufTy).Contents (Elt Ideal)) (x2 : (⟨S512x128, .f32⟩ : BufTy).Contents (Elt Ideal)) (x3 : (⟨S3, .f32⟩ : BufTy).Contents (Elt Ideal)) (x4 : (⟨S128, .f32⟩ : BufTy).Contents (Elt Ideal)) (x5 : (⟨S128x128, .f32⟩ : BufTy).Contents (Elt Ideal)) (x6 : (⟨S3, .f32⟩ : BufTy).Contents (Elt Ideal)) (x7 : (⟨S128, .f32⟩ : BufTy).Contents (Elt Ideal)) (x8 : (⟨S128x64, .f32⟩ : BufTy).Contents (Elt Ideal)) (x9 : (⟨S3, .f32⟩ : BufTy).Contents (Elt Ideal)) (x10 : (⟨S64, .f32⟩ : BufTy).Contents (Elt Ideal)) :
    val_main_v61 (F := Ideal) x0 x1 x2 x3 x4 x5 x6 x7 x8 x9 x10 = Spec.out2 x0 (val_main_v41 (F := Ideal) x0 x1 x2 x3 x4 x5 x6 x7) x8 x9 x10 := by
  funext i
  rw [val_main_v61_apply, val_main_v58_apply, out1_L3, val_main_v57_apply, tap2_L3, sx2_L3, bias_L3]
  rfl

/-- Layer 3 of the reference is the specification's layer without rectifier. -/
theorem layer_L3 (x0 : (⟨S8192x8192, .f32⟩ : BufTy).Contents (Elt Ideal)) (x1 : (⟨S8192x512, .f32⟩ : BufTy).Contents (Elt Ideal)) (x2 : (⟨S512x128, .f32⟩ : BufTy).Contents (Elt Ideal)) (x3 : (⟨S3, .f32⟩ : BufTy).Contents (Elt Ideal)) (x4 : (⟨S128, .f32⟩ : BufTy).Contents (Elt Ideal)) (x5 : (⟨S128x128, .f32⟩ : BufTy).Contents (Elt Ideal)) (x6 : (⟨S3, .f32⟩ : BufTy).Contents (Elt Ideal)) (x7 : (⟨S128, .f32⟩ : BufTy).Contents (Elt Ideal)) (x8 : (⟨S128x64, .f32⟩ : BufTy).Contents (Elt Ideal)) (x9 : (⟨S3, .f32⟩ : BufTy).Contents (Elt Ideal)) (x10 : (⟨S64, .f32⟩ : BufTy).Contents (Elt Ideal)) :
    val_main_v61 (F := Ideal) x0 x1 x2 x3 x4 x5 x6 x7 x8 x9 x10 = Spec.layer false x0 (val_main_v41 (F := Ideal) x0 x1 x2 x3 x4 x5 x6 x7) x8 x9 x10 :=
  out2_L3 x0 x1 x2 x3 x4 x5 x6 x7 x8 x9 x10

/-! ## The network -/

/-- The reference's last stage, as a function of the eleven arguments, is the specification's network. -/
theorem ref_is_net (x0 : (⟨S8192x8192, .f32⟩ : BufTy).Contents (Elt Ideal)) (x1 : (⟨S8192x512, .f32⟩ : BufTy).Contents (Elt Ideal)) (x2 : (⟨S512x128, .f32⟩ : BufTy).Contents (Elt Ideal)) (x3 : (⟨S3, .f32⟩ : BufTy).Contents (Elt Ideal)) (x4 : (⟨S128, .f32⟩ : BufTy).Contents (Elt Ideal)) (x5 : (⟨S128x128, .f32⟩ : BufTy).Contents (Elt Ideal)) (x6 : (⟨S3, .f32⟩ : BufTy).Contents (Elt Ideal)) (x7 : (⟨S128, .f32⟩ : BufTy).Contents (Elt Ideal)) (x8 : (⟨S128x64, .f32⟩ : BufTy).Contents (Elt Ideal)) (x9 : (⟨S3, .f32⟩ : BufTy).Contents (Elt Ideal)) (x10 : (⟨S64, .f32⟩ : BufTy).Contents (Elt Ideal)) :
    val_main_v61 (F := Ideal) x0 x1 x2 x3 x4 x5 x6 x7 x8 x9 x10 = Spec.net x0 x1 x2 x3 x4 x5 x6 x7 x8 x9 x10 := by
  rw [layer_L3, layer_L2, layer_L1]
  rfl

/-- The same for the run's result term: the result buffer after the reference's run holds the network of the
    argument buffers' contents. -/
theorem res_is_net (m : (ℓ : Loc nD τ sig) → Buf (Elt Ideal) ℓ) (c : Dev nD) :
    Cert.ReferenceIdeal.Value.res_main_v61 m c
      = Spec.net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) :=
  (val_main_v61_eq m c).trans (ref_is_net _ _ _ _ _ _ _ _ _ _ _)

end Cert.ReferenceIdeal.RefValue

end
-- ==== Proof.Algebraic.lean ====
/-
  The two idealized programs, run from memories that agree on the arguments, end with the same result.

  The kernel program's run leaves in its result buffer the specification's network of its arguments as launched;
  the reference's run leaves the same network of its own arguments; and the two memories agree on the arguments.
-/
import proofs.«131271_j4982162063661_2_alg».proof.Defs
import proofs.«131271_j4982162063661_2_alg».proof.Proof.KI.Final
import proofs.«131271_j4982162063661_2_alg».proof.Proof.RefSpec
import proofs.«131271_j4982162063661_2_alg».proof.Proof.Gen.Pre_finite_inputs

set_option maxRecDepth 16384

noncomputable section

namespace Cert.Proof

open Idealize.ShloMosaic Idealize.ShloMosaic.TcCoe Idealize.SL.Sem

set_option maxHeartbeats 4000000 in
set_option backward.isDefEq.respectTransparency.types false in
/-- Both idealized programs compute the specification's network of the arguments. -/
theorem algebraic_conjunct : Cert.algebraic_KernelIdeal_ReferenceIdeal := by
  intro m g m' g' _ hagree
  refine ⟨fun c => Cert.Spec.net (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.Hand.result_net m c), (h c).2⟩)
      (Cert.KernelIdeal.Hand.run m g)
  · exact (θ_run Cert.ReferenceIdeal.defs _ _).mono
      (fun r h c => ⟨(h c).1.trans ((Cert.ReferenceIdeal.RefValue.res_is_net m' c).trans (by
          rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2])), (h c).2⟩)
      (Cert.ReferenceIdeal.Value.run (F := Ideal) m' g')

end Cert.Proof

end
-- ==== Proof.lean ====
/-
  The five claims of the certificate.

  The kernel program runs nine kernel regions between three stretches of host operations. Each layer is one dense
  product X·W per 2048-row tile (written once rounded and once scaled by the first filter tap), then two
  propagation steps S·(·), each accumulated over four 2048-column tiles of S in a scratch buffer that is zeroed at
  the first tile and read out at the last, where the tap-scaled product is added to the running output (and, in
  the layer's last step, the bias row is added and the result is rectified). Over the extended reals rounding is
  the identity and a sum over 8192 columns is the sum of its four tile sums, so every region's output arrays are
  whole-array functions of its input arrays, and composed in program order they are the reference's three layers.

  The frames: the kernel program's run (the same text at the word-level instance and at the ideal one) ends with
  every argument as launched; the reference's is its generated run with the result dropped. The idealization
  rewrote nothing, so what it preserves is trivial. For the algebraic claim both runs are posted at one function
  of the arguments, the three-layer network of the specification.
-/
import proofs.«131271_j4982162063661_2_alg».proof.Defs
import proofs.«131271_j4982162063661_2_alg».proof.Proof.Gen.Kernel
import proofs.«131271_j4982162063661_2_alg».proof.Proof.Gen.KernelIdeal
import proofs.«131271_j4982162063661_2_alg».proof.Proof.Gen.ReferenceIdeal
import proofs.«131271_j4982162063661_2_alg».proof.Proof.Gen.Pre_finite_inputs
import proofs.«131271_j4982162063661_2_alg».proof.Proof.Gen.ReferenceIdeal.Read
import proofs.«131271_j4982162063661_2_alg».proof.Proof.K.Run
import proofs.«131271_j4982162063661_2_alg».proof.Proof.KI.Run
import proofs.«131271_j4982162063661_2_alg».proof.Proof.Algebraic
import Idealize.ShloMosaic.Adequacy
import Idealize.ShloMosaic.Init

noncomputable section

namespace Cert.Proof

open Idealize.ShloMosaic Idealize.ShloMosaic.TcCoe Idealize.SL.Sem

/-- The word-level program runs to the end and leaves its arguments as launched. -/
theorem frame_kernel : Cert.frame_Kernel := fun m ρ _ =>
  (θ_run Cert.Kernel.defs _ _).mono (fun _ h c => (h c).2) (Cert.Kernel.Hand.run (F := Bits) m ρ)

/-- So does the idealized program. -/
theorem frame_kernelIdeal : Cert.frame_KernelIdeal := fun m ρ _ =>
  (θ_run Cert.KernelIdeal.defs _ _).mono (fun _ h c => (h c).2) (Cert.KernelIdeal.Hand.run (F := Ideal) m ρ)

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, Cert.Proof.algebraic_conjunct⟩

end Cert.Proof

end
